-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x77 : Shape := ⟨2, ![50000, 77]⟩
abbrev S2x800000 : Shape := ⟨2, ![2, 800000]⟩
abbrev S800000x1 : Shape := ⟨2, ![800000, 1]⟩
abbrev S50000 : Shape := ⟨1, ![50000]⟩
abbrev S77x64 : Shape := ⟨2, ![77, 64]⟩
abbrev S64 : Shape := ⟨1, ![64]⟩
abbrev S1x32 : Shape := ⟨2, ![1, 32]⟩
abbrev S32 : Shape := ⟨1, ![32]⟩
abbrev S3x64x64 : Shape := ⟨3, ![3, 64, 64]⟩
abbrev S3x64 : Shape := ⟨2, ![3, 64]⟩
abbrev S3x32x64 : Shape := ⟨3, ![3, 32, 64]⟩
abbrev S3x128x64 : Shape := ⟨3, ![3, 128, 64]⟩
abbrev S64x128 : Shape := ⟨2, ![64, 128]⟩
abbrev S128 : Shape := ⟨1, ![128]⟩
abbrev S_ : Shape := ⟨0, ![]⟩

class Facts : Prop where
  bcast_S_S50000x77 : S_.BroadcastsInDim S50000x77 (![] : Fin 0 → Fin S50000x77.rank)
  reducesTo_S50000x77_S_d0_1 : S50000x77.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S77x64 : S_.BroadcastsInDim S77x64 (![] : Fin 0 → Fin S77x64.rank)
  reducesTo_S77x64_S_d0_1 : S77x64.ReducesTo [0, 1] S_
  bcast_S_S64 : S_.BroadcastsInDim S64 (![] : Fin 0 → Fin S64.rank)
  reducesTo_S64_S_d0 : S64.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S3x128x64 : S_.BroadcastsInDim S3x128x64 (![] : Fin 0 → Fin S3x128x64.rank)
  reducesTo_S3x128x64_S_d0_1_2 : S3x128x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S64x128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S64x128 .f32 := Host.absf main_arg16
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S3x64 .f32) (main_arg14 : FVec F S3x64 .f32) (main_arg15 : FVec F S3x64 .f32) (main_arg16 : FVec F S64x128 .f32) (main_arg17 : FVec F S128 .f32) (main_arg18 : FVec F S128 .f32) (main_arg19 : FVec F S128 .f32) (main_v48 : IVec S_ 1) (main_v49 : FVec F S3x128x64 .f32) (main_v50 : FVec F S3x128x64 .f32) : IVec S_ 1 :=
  let main_v51 : IVec S3x128x64 1 := cmpf .olt main_v49 main_v50
  let main_c_19 : IVec S_ 1 := constantI S_ 1 1#1
  let main_v52 : IVec S_ 1 := (fun x v => Host.reduce IntOp.andi x v reducesTo_S3x128x64_S_d0_1_2 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg16 main_arg17 main_arg18 main_arg19 main_v63 main_v67

def fn_part2 {F : FTy → Type} [FloatOps F] (main_arg9 : FVec F S3x64 .f32) (main_arg10 : FVec F S3x32x64 .f32) (main_arg11 : FVec F S3x64 .f32) (main_arg12 : FVec F S3x128x64 .f32) (main_arg13 : FVec F S3x64 .f32) (main_arg14 : FVec F S3x64 .f32) (main_arg15 : FVec F S3x64 .f32) (main_arg16 : FVec F S64x128 .f32) (main_arg17 : FVec F S128 .f32) (main_arg18 : FVec F S128 .f32) (main_arg19 : FVec F S128 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x32x64 .f32 := Host.absf main_arg10
  let main_cst_14 : FVec F S_ .f32 := constant S_ .f32 0x7F800000#32
  let main_v40 : FVec F S3x32x64 .f32 := broadcastInDim S3x32x64 ![] bcast_S_S3x32x64 main_cst_14
  let main_v41 : IVec S3x32x64 1 := cmpf .olt main_v39 main_v40
  let main_c_15 : IVec S_ 1 := constantI S_ 1 1#1
  let main_v42 : IVec S_ 1 := (fun x v => Host.reduce IntOp.andi x v reducesTo_S3x32x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x128x64 .f32 := Host.absf main_arg12
  let main_cst_18 : FVec F S_ .f32 := constant S_ .f32 0x7F800000#32
  let main_v50 : FVec F S3x128x64 .f32 := broadcastInDim S3x128x64 ![] bcast_S_S3x128x64 main_cst_18
  fn_part3 (F := F) main_arg13 main_arg14 main_arg15 main_arg16 main_arg17 main_arg18 main_arg19 main_v48 main_v49 main_v50

def fn_part1 {F : FTy → Type} [FloatOps F] (main_arg6 : FVec F S1x32 .f32) (main_arg7 : FVec F S32 .f32) (main_arg8 : FVec F S3x64x64 .f32) (main_arg9 : FVec F S3x64 .f32) (main_arg10 : FVec F S3x32x64 .f32) (main_arg11 : FVec F S3x64 .f32) (main_arg12 : FVec F S3x128x64 .f32) (main_arg13 : FVec F S3x64 .f32) (main_arg14 : FVec F S3x64 .f32) (main_arg15 : FVec F S3x64 .f32) (main_arg16 : FVec F S64x128 .f32) (main_arg17 : FVec F S128 .f32) (main_arg18 : FVec F S128 .f32) (main_arg19 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x32 .f32 := Host.absf main_arg6
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x77 .f32) (main_arg1 : IVec S2x800000 32) (main_arg2 : FVec F S800000x1 .f32) (main_arg3 : IVec S50000 32) (main_arg4 : FVec F S77x64 .f32) (main_arg5 : FVec F S64 .f32) (main_arg6 : FVec F S1x32 .f32) (main_arg7 : FVec F S32 .f32) (main_arg8 : FVec F S3x64x64 .f32) (main_arg9 : FVec F S3x64 .f32) (main_arg10 : FVec F S3x32x64 .f32) (main_arg11 : FVec F S3x64 .f32) (main_arg12 : FVec F S3x128x64 .f32) (main_arg13 : FVec F S3x64 .f32) (main_arg14 : FVec F S3x64 .f32) (main_arg15 : FVec F S3x64 .f32) (main_arg16 : FVec F S64x128 .f32) (main_arg17 : FVec F S128 .f32) (main_arg18 : FVec F S128 .f32) (main_arg19 : FVec F S128 .f32) : IVec S_ 1 :=
  let main_v0 : FVec F S50000x77 .f32 := Host.absf main_arg0
  let main_cst : FVec F S_ .f32 := constant S_ .f32 0x7F800000#32
  let main_v1 : FVec F S50000x77 .f32 := broadcastInDim S50000x77 ![] bcast_S_S50000x77 main_cst
  let main_v2 : IVec S50000x77 1 := cmpf .olt main_v0 main_v1
  let main_c : IVec S_ 1 := constantI S_ 1 1#1
  let main_v3 : IVec S_ 1 := (fun x v => Host.reduce IntOp.andi x v reducesTo_S50000x77_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S77x64 .f32 := Host.absf main_arg4
  let main_cst_2 : FVec F S_ .f32 := constant S_ .f32 0x7F800000#32
  let main_v10 : FVec F S77x64 .f32 := broadcastInDim S77x64 ![] bcast_S_S77x64 main_cst_2
  let main_v11 : IVec S77x64 1 := cmpf .olt main_v9 main_v10
  let main_c_3 : IVec S_ 1 := constantI S_ 1 1#1
  let main_v12 : IVec S_ 1 := (fun x v => Host.reduce IntOp.andi x v reducesTo_S77x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x77 : Shape := ⟨2, ![50000, 77]⟩
abbrev S2x800000 : Shape := ⟨2, ![2, 800000]⟩
abbrev S800000x1 : Shape := ⟨2, ![800000, 1]⟩
abbrev S50000 : Shape := ⟨1, ![50000]⟩
abbrev S77x64 : Shape := ⟨2, ![77, 64]⟩
abbrev S64 : Shape := ⟨1, ![64]⟩
abbrev S1x32 : Shape := ⟨2, ![1, 32]⟩
abbrev S32 : Shape := ⟨1, ![32]⟩
abbrev S3x64x64 : Shape := ⟨3, ![3, 64, 64]⟩
abbrev S3x64 : Shape := ⟨2, ![3, 64]⟩
abbrev S3x32x64 : Shape := ⟨3, ![3, 32, 64]⟩
abbrev S3x128x64 : Shape := ⟨3, ![3, 128, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S5000x77 : Shape := ⟨2, ![5000, 77]⟩
abbrev S5000x64 : Shape := ⟨2, ![5000, 64]⟩
abbrev S1x32x64 : Shape := ⟨3, ![1, 32, 64]⟩
abbrev S32x64 : Shape := ⟨2, ![32, 64]⟩
abbrev S1x128x64 : Shape := ⟨3, ![1, 128, 64]⟩
abbrev S128x64 : Shape := ⟨2, ![128, 64]⟩
abbrev S_ : Shape := ⟨0, ![]⟩
abbrev S800000x64 : Shape := ⟨2, ![800000, 64]⟩
abbrev S64x64 : Shape := ⟨2, ![64, 64]⟩
abbrev S8000x1 : Shape := ⟨2, ![8000, 1]⟩
abbrev S8000x64 : Shape := ⟨2, ![8000, 64]⟩
abbrev S8000x32 : Shape := ⟨2, ![8000, 32]⟩
abbrev S1x64x64 : Shape := ⟨3, ![1, 64, 64]⟩
abbrev S10x8x64 : Shape := ⟨3, ![10, 8, 64]⟩
abbrev S1x8x64 : Shape := ⟨3, ![1, 8, 64]⟩
abbrev S1x1x64 : Shape := ⟨3, ![1, 1, 64]⟩
abbrev S6x64 : Shape := ⟨2, ![6, 64]⟩
abbrev S1x6x64 : Shape := ⟨3, ![1, 6, 64]⟩
abbrev S10x1x64 : Shape := ⟨3, ![10, 1, 64]⟩
abbrev S10x64 : Shape := ⟨2, ![10, 64]⟩
abbrev S50000x1 : Shape := ⟨2, ![50000, 1]⟩
abbrev S128x1 : Shape := ⟨2, ![128, 1]⟩
abbrev S1x128 : Shape := ⟨2, ![1, 128]⟩
abbrev S128x128 : Shape := ⟨2, ![128, 128]⟩

abbrev nBuf : Space → Nat
  | .hbm => 258
  | .vmem => 109
  | .smem => 0
  | _ => 0

abbrev hbmTy0_0 (i : Nat) : BufTy := match i % 128 with
  | 0 => ⟨S50000x77, .f32⟩
  | 1 => ⟨S2x800000, .i32⟩
  | 2 => ⟨S800000x1, .f32⟩
  | 3 => ⟨S50000, .i32⟩
  | 4 => ⟨S77x64, .f32⟩
  | 5 => ⟨S64, .f32⟩
  | 6 => ⟨S1x32, .f32⟩
  | 7 => ⟨S32, .f32⟩
  | 8 => ⟨S3x64x64, .f32⟩
  | 9 => ⟨S3x64, .f32⟩
  | 10 => ⟨S3x32x64, .f32⟩
  | 11 => ⟨S3x64, .f32⟩
  | 12 => ⟨S3x128x64, .f32⟩
  | 13 => ⟨S3x64, .f32⟩
  | 14 => ⟨S3x64, .f32⟩
  | 15 => ⟨S3x64, .f32⟩
  | 16 => ⟨S64x128, .f32⟩
  | 17 => ⟨S128, .f32⟩
  | 18 => ⟨S128, .f32⟩
  | 19 => ⟨S128, .f32⟩
  | 20 => ⟨S1x800000, .i32⟩
  | 21 => ⟨S800000, .i32⟩
  | 22 => ⟨S1x800000, .i32⟩
  | 23 => ⟨S800000, .i32⟩
  | 24 => ⟨S1x64, .f32⟩
  | 25 => ⟨S1x32, .f32⟩
  | 26 => ⟨S50000x64, .f32⟩
  | 27 => ⟨S50000x64, .bf16⟩
  | 28 => ⟨S1x32x64, .f32⟩
  | 29 => ⟨S32x64, .f32⟩
  | 30 => ⟨S1x64, .f32⟩
  | 31 => ⟨S64, .f32⟩
  | 32 => ⟨S1x128x64, .f32⟩
  | 33 => ⟨S128x64, .f32⟩
  | 34 => ⟨S1x64, .f32⟩
  | 35 => ⟨S64, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .bf16⟩
  | 45 => ⟨S1x64, .f32⟩
  | 46 => ⟨S1x64, .f32⟩
  | 47 => ⟨S64x64, .f32⟩
  | 48 => ⟨S64x64, .f32⟩
  | 49 => ⟨S800000x64, .bf16⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S1x64x64, .f32⟩
  | 56 => ⟨S64x64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S50000x64, .f32⟩
  | 65 => ⟨S10x8x64, .f32⟩
  | 66 => ⟨S10x1x64, .f32⟩
  | 67 => ⟨S10x64, .f32⟩
  | 68 => ⟨S_, .f32⟩
  | 69 => ⟨S64, .f32⟩
  | 70 => ⟨S10x1x64, .f32⟩
  | 71 => ⟨S10x64, .f32⟩
  | 72 => ⟨S_, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S1x64, .f32⟩
  | 83 => ⟨S1x64, .f32⟩
  | 84 => ⟨S1x64, .f32⟩
  | 85 => ⟨S1x64, .f32⟩
  | 86 => ⟨S50000x64, .f32⟩
  | 87 => ⟨S50000x64, .bf16⟩
  | 88 => ⟨S1x32x64, .f32⟩
  | 89 => ⟨S32x64, .f32⟩
  | 90 => ⟨S1x64, .f32⟩
  | 91 => ⟨S64, .f32⟩
  | 92 => ⟨S1x128x64, .f32⟩
  | 93 => ⟨S128x64, .f32⟩
  | 94 => ⟨S1x64, .f32⟩
  | 95 => ⟨S64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .bf16⟩
  | 105 => ⟨S1x64, .f32⟩
  | 106 => ⟨S1x64, .f32⟩
  | 107 => ⟨S64x64, .f32⟩
  | 108 => ⟨S64x64, .f32⟩
  | 109 => ⟨S800000x64, .bf16⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S50000x64, .f32⟩
  | 125 => ⟨S10x8x64, .f32⟩
  | 126 => ⟨S10x1x64, .f32⟩
  | 127 => ⟨S10x64, .f32⟩
  | _ => ⟨S50000x77, .f32⟩

abbrev hbmTy0_1 (i : Nat) : BufTy := match i % 128 with
  | 0 => ⟨S_, .f32⟩
  | 1 => ⟨S64, .f32⟩
  | 2 => ⟨S10x1x64, .f32⟩
  | 3 => ⟨S10x64, .f32⟩
  | 4 => ⟨S_, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S64, .f32⟩
  | 13 => ⟨S64, .f32⟩
  | 14 => ⟨S1x64, .f32⟩
  | 15 => ⟨S1x64, .f32⟩
  | 16 => ⟨S1x64, .f32⟩
  | 17 => ⟨S1x64, .f32⟩
  | 18 => ⟨S50000x64, .f32⟩
  | 19 => ⟨S50000x64, .bf16⟩
  | 20 => ⟨S1x32x64, .f32⟩
  | 21 => ⟨S32x64, .f32⟩
  | 22 => ⟨S1x64, .f32⟩
  | 23 => ⟨S64, .f32⟩
  | 24 => ⟨S1x128x64, .f32⟩
  | 25 => ⟨S128x64, .f32⟩
  | 26 => ⟨S1x64, .f32⟩
  | 27 => ⟨S64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .bf16⟩
  | 37 => ⟨S1x64, .f32⟩
  | 38 => ⟨S1x64, .f32⟩
  | 39 => ⟨S64x64, .f32⟩
  | 40 => ⟨S64x64, .f32⟩
  | 41 => ⟨S800000x64, .bf16⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S50000x64, .f32⟩
  | 57 => ⟨S10x8x64, .f32⟩
  | 58 => ⟨S10x1x64, .f32⟩
  | 59 => ⟨S10x64, .f32⟩
  | 60 => ⟨S_, .f32⟩
  | 61 => ⟨S64, .f32⟩
  | 62 => ⟨S10x1x64, .f32⟩
  | 63 => ⟨S10x64, .f32⟩
  | 64 => ⟨S_, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S64, .f32⟩
  | 74 => ⟨S1x64, .f32⟩
  | 75 => ⟨S1x64, .f32⟩
  | 76 => ⟨S1x64, .f32⟩
  | 77 => ⟨S1x64, .f32⟩
  | 78 => ⟨S50000x64, .f32⟩
  | 79 => ⟨S_, .f32⟩
  | 80 => ⟨S50000, .f32⟩
  | 81 => ⟨S_, .f32⟩
  | 82 => ⟨S128, .f32⟩
  | 83 => ⟨S50000x1, .i32⟩
  | 84 => ⟨S128, .f32⟩
  | 85 => ⟨S_, .f32⟩
  | 86 => ⟨S128x64, .f32⟩
  | 87 => ⟨S50000x1, .i32⟩
  | 88 => ⟨S128x64, .f32⟩
  | 89 => ⟨S_, .f32⟩
  | 90 => ⟨S128, .f32⟩
  | 91 => ⟨S128, .f32⟩
  | 92 => ⟨S128x1, .f32⟩
  | 93 => ⟨S128x64, .f32⟩
  | 94 => ⟨S128x64, .f32⟩
  | 95 => ⟨S1x128, .f32⟩
  | 96 => ⟨S1x128, .f32⟩
  | 97 => ⟨S1x128, .f32⟩
  | 98 => ⟨S128x128, .f32⟩
  | 99 => ⟨S_, .f32⟩
  | 100 => ⟨S128, .f32⟩
  | 101 => ⟨S_, .f32⟩
  | 102 => ⟨S128, .f32⟩
  | 103 => ⟨S128, .f32⟩
  | 104 => ⟨S1x128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S128x128, .f32⟩
  | 113 => ⟨S128x128, .f32⟩
  | 114 => ⟨S128x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S50000x77, .f32⟩

abbrev hbmTy0_2 (i : Nat) : BufTy := match i % 128 with
  | 0 => ⟨S1x128, .f32⟩
  | 1 => ⟨S128x128, .f32⟩
  | _ => ⟨S50000x77, .f32⟩

abbrev hbmTy (i : Nat) : BufTy := match i / 128 with
  | 0 => hbmTy0_0 i
  | 1 => hbmTy0_1 i
  | 2 => hbmTy0_2 i
  | _ => ⟨S50000x77, .f32⟩

abbrev bufTy : (tb : Table) → Fin (tcTables nBuf tb) → BufTy
  | .hbm, ⟨i, _⟩ => hbmTy i
  | .local _ .vmem, ⟨0, _⟩ => ⟨S5000x77, .f32⟩
  | .local _ .vmem, ⟨1, _⟩ => ⟨S5000x77, .f32⟩
  | .local _ .vmem, ⟨2, _⟩ => ⟨S77x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x1, .f32⟩
  | .local _ .vmem, ⟨7, _⟩ => ⟨S8000x1, .f32⟩
  | .local _ .vmem, ⟨8, _⟩ => ⟨S8000x64, .bf16⟩
  | .local _ .vmem, ⟨9, _⟩ => ⟨S8000x64, .bf16⟩
  | .local _ .vmem, ⟨10, _⟩ => ⟨S1x32, .f32⟩
  | .local _ .vmem, ⟨11, _⟩ => ⟨S1x32, .f32⟩
  | .local _ .vmem, ⟨12, _⟩ => ⟨S32x64, .f32⟩
  | .local _ .vmem, ⟨13, _⟩ => ⟨S1x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S8000x64, .bf16⟩
  | .local _ .vmem, ⟨18, _⟩ => ⟨S8000x64, .bf16⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x8x64, .f32⟩
  | .local _ .vmem, ⟨28, _⟩ => ⟨S1x8x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | .local _ .vmem, ⟨37, _⟩ => ⟨S8000x1, .f32⟩
  | .local _ .vmem, ⟨38, _⟩ => ⟨S8000x1, .f32⟩
  | .local _ .vmem, ⟨39, _⟩ => ⟨S8000x64, .bf16⟩
  | .local _ .vmem, ⟨40, _⟩ => ⟨S8000x64, .bf16⟩
  | .local _ .vmem, ⟨41, _⟩ => ⟨S1x32, .f32⟩
  | .local _ .vmem, ⟨42, _⟩ => ⟨S1x32, .f32⟩
  | .local _ .vmem, ⟨43, _⟩ => ⟨S32x64, .f32⟩
  | .local _ .vmem, ⟨44, _⟩ => ⟨S1x64, .f32⟩
  | .local _ .vmem, ⟨45, _⟩ => ⟨S64x64, .f32⟩
  | .local _ .vmem, ⟨46, _⟩ => ⟨S64x64, .f32⟩
  | .local _ .vmem, ⟨47, _⟩ => ⟨S1x64, .f32⟩
  | .local _ .vmem, ⟨48, _⟩ => ⟨S8000x64, .bf16⟩
  | .local _ .vmem, ⟨49, _⟩ => ⟨S8000x64, .bf16⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S1x8x64, .f32⟩
  | .local _ .vmem, ⟨59, _⟩ => ⟨S1x8x64, .f32⟩
  | .local _ .vmem, ⟨60, _⟩ => ⟨S5000x64, .f32⟩
  | .local _ .vmem, ⟨61, _⟩ => ⟨S5000x64, .f32⟩
  | .local _ .vmem, ⟨62, _⟩ => ⟨S1x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S5000x64, .f32⟩
  | .local _ .vmem, ⟨67, _⟩ => ⟨S5000x64, .f32⟩
  | .local _ .vmem, ⟨68, _⟩ => ⟨S8000x1, .f32⟩
  | .local _ .vmem, ⟨69, _⟩ => ⟨S8000x1, .f32⟩
  | .local _ .vmem, ⟨70, _⟩ => ⟨S8000x64, .bf16⟩
  | .local _ .vmem, ⟨71, _⟩ => ⟨S8000x64, .bf16⟩
  | .local _ .vmem, ⟨72, _⟩ => ⟨S1x32, .f32⟩
  | .local _ .vmem, ⟨73, _⟩ => ⟨S1x32, .f32⟩
  | .local _ .vmem, ⟨74, _⟩ => ⟨S32x64, .f32⟩
  | .local _ .vmem, ⟨75, _⟩ => ⟨S1x64, .f32⟩
  | .local _ .vmem, ⟨76, _⟩ => ⟨S64x64, .f32⟩
  | .local _ .vmem, ⟨77, _⟩ => ⟨S64x64, .f32⟩
  | .local _ .vmem, ⟨78, _⟩ => ⟨S1x64, .f32⟩
  | .local _ .vmem, ⟨79, _⟩ => ⟨S8000x64, .bf16⟩
  | .local _ .vmem, ⟨80, _⟩ => ⟨S8000x64, .bf16⟩
  | .local _ .vmem, ⟨81, _⟩ => ⟨S5000x64, .f32⟩
  | .local _ .vmem, ⟨82, _⟩ => ⟨S5000x64, .f32⟩
  | .local _ .vmem, ⟨83, _⟩ => ⟨S64x64, .f32⟩
  | .local _ .vmem, ⟨84, _⟩ => ⟨S1x64, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S1x8x64, .f32⟩
  | .local _ .vmem, ⟨90, _⟩ => ⟨S1x8x64, .f32⟩
  | .local _ .vmem, ⟨91, _⟩ => ⟨S5000x64, .f32⟩
  | .local _ .vmem, ⟨92, _⟩ => ⟨S5000x64, .f32⟩
  | .local _ .vmem, ⟨93, _⟩ => ⟨S1x64, .f32⟩
  | .local _ .vmem, ⟨94, _⟩ => ⟨S1x64, .f32⟩
  | .local _ .vmem, ⟨95, _⟩ => ⟨S1x64, .f32⟩
  | .local _ .vmem, ⟨96, _⟩ => ⟨S1x64, .f32⟩
  | .local _ .vmem, ⟨97, _⟩ => ⟨S5000x64, .f32⟩
  | .local _ .vmem, ⟨98, _⟩ => ⟨S5000x64, .f32⟩
  | .local _ .vmem, ⟨99, _⟩ => ⟨S128x64, .f32⟩
  | .local _ .vmem, ⟨100, _⟩ => ⟨S64x128, .f32⟩
  | .local _ .vmem, ⟨101, _⟩ => ⟨S1x128, .f32⟩
  | .local _ .vmem, ⟨102, _⟩ => ⟨S128x128, .f32⟩
  | .local _ .vmem, ⟨103, _⟩ => ⟨S128x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S128x128, .f32⟩
  | _, _ => ⟨S50000x77, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v42 : Ref sig .tc := ⟨.hbm, 66, rfl⟩
abbrev main_v43 : Ref sig .tc := ⟨.hbm, 67, rfl⟩
abbrev main_cst_1 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_5 : Ref sig .tc := ⟨.hbm, 96, rfl⟩
abbrev main_v68 : Ref sig .tc := ⟨.hbm, 97, rfl⟩
abbrev main_v69 : Ref sig .tc := ⟨.hbm, 98, rfl⟩
abbrev main_c_6 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_7 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93_0 : Ref sig .tc := ⟨.hbm, 124, rfl⟩
abbrev main_v93_1 : Ref sig .tc := ⟨.hbm, 125, rfl⟩
abbrev main_v94 : Ref sig .tc := ⟨.hbm, 126, rfl⟩
abbrev main_v95 : Ref sig .tc := ⟨.hbm, 127, rfl⟩
abbrev main_cst_8 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_9 : Ref sig .tc := ⟨.hbm, 132, rfl⟩
abbrev main_v99 : Ref sig .tc := ⟨.hbm, 133, rfl⟩
abbrev main_cst_10 : Ref sig .tc := ⟨.hbm, 134, rfl⟩
abbrev main_v100 : Ref sig .tc := ⟨.hbm, 135, rfl⟩
abbrev main_v101 : Ref sig .tc := ⟨.hbm, 136, rfl⟩
abbrev main_cst_11 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_12 : Ref sig .tc := ⟨.hbm, 156, rfl⟩
abbrev main_v120 : Ref sig .tc := ⟨.hbm, 157, rfl⟩
abbrev main_v121 : Ref sig .tc := ⟨.hbm, 158, rfl⟩
abbrev main_c_13 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_14 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145_0 : Ref sig .tc := ⟨.hbm, 184, rfl⟩
abbrev main_v145_1 : Ref sig .tc := ⟨.hbm, 185, rfl⟩
abbrev main_v146 : Ref sig .tc := ⟨.hbm, 186, rfl⟩
abbrev main_v147 : Ref sig .tc := ⟨.hbm, 187, rfl⟩
abbrev main_cst_15 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_16 : Ref sig .tc := ⟨.hbm, 192, rfl⟩
abbrev main_v151 : Ref sig .tc := ⟨.hbm, 193, rfl⟩
abbrev main_cst_17 : Ref sig .tc := ⟨.hbm, 194, rfl⟩
abbrev main_v152 : Ref sig .tc := ⟨.hbm, 195, rfl⟩
abbrev main_v153 : Ref sig .tc := ⟨.hbm, 196, rfl⟩
abbrev main_cst_18 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_19 : Ref sig .tc := ⟨.hbm, 207, rfl⟩
abbrev main_v163 : Ref sig .tc := ⟨.hbm, 208, rfl⟩
abbrev main_cst_20 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_21 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_22 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_23 : Ref sig .tc := ⟨.hbm, 227, rfl⟩
abbrev main_v179 : Ref sig .tc := ⟨.hbm, 228, rfl⟩
abbrev main_cst_24 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_c_25 : Ref sig .tc := ⟨.hbm, 233, rfl⟩
abbrev main_call0_cst : Ref sig .tc := ⟨.hbm, 234, rfl⟩
abbrev main_call0_v0 : Ref sig .tc := ⟨.hbm, 235, rfl⟩
abbrev main_call0_v1 : Ref sig .tc := ⟨.hbm, 236, rfl⟩
abbrev main_call0_cst_0 : Ref sig .tc := ⟨.hbm, 237, rfl⟩
abbrev main_call0_v2 : Ref sig .tc := ⟨.hbm, 238, rfl⟩
abbrev main_call0_v3 : Ref sig .tc := ⟨.hbm, 239, rfl⟩
abbrev main_call0_v4 : Ref sig .tc := ⟨.hbm, 240, rfl⟩
abbrev main_call0_v5 : Ref sig .tc := ⟨.hbm, 241, rfl⟩
abbrev main_call0_v6 : Ref sig .tc := ⟨.hbm, 242, rfl⟩
abbrev main_call0_v7 : Ref sig .tc := ⟨.hbm, 243, rfl⟩
abbrev main_call0_cst_1 : Ref sig .tc := ⟨.hbm, 244, rfl⟩
abbrev main_call0_v8 : Ref sig .tc := ⟨.hbm, 245, rfl⟩
abbrev main_call0_cst_2 : Ref sig .tc := ⟨.hbm, 246, rfl⟩
abbrev main_call0_v9 : Ref sig .tc := ⟨.hbm, 247, rfl⟩
abbrev main_call0_v10 : Ref sig .tc := ⟨.hbm, 248, rfl⟩
abbrev main_call0_v11 : Ref sig .tc := ⟨.hbm, 249, rfl⟩
abbrev main_call0_cst_3 : Ref sig .tc := ⟨.hbm, 250, rfl⟩
abbrev main_call0_v12 : Ref sig .tc := ⟨.hbm, 251, rfl⟩
abbrev main_call0_cst_4 : Ref sig .tc := ⟨.hbm, 252, rfl⟩
abbrev main_call0_call0_v0 : Ref sig .tc := ⟨.hbm, 253, rfl⟩
abbrev main_call0_call0_v1 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg7_0 : Ref sig .tc := ⟨.vmem, 77, rfl⟩
abbrev cc7_stg8_0 : Ref sig .tc := ⟨.vmem, 78, rfl⟩
abbrev cc7_stg9_0 : Ref sig .tc := ⟨.vmem, 79, rfl⟩
abbrev cc7_stg9_1 : Ref sig .tc := ⟨.vmem, 80, rfl⟩
abbrev cc8_stg0_0 : Ref sig .tc := ⟨.vmem, 81, rfl⟩
abbrev cc8_stg0_1 : Ref sig .tc := ⟨.vmem, 82, rfl⟩
abbrev cc8_stg1_0 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg3_1 : Ref sig .tc := ⟨.vmem, 86, rfl⟩
abbrev cc8_stg4_0 : Ref sig .tc := ⟨.vmem, 87, rfl⟩
abbrev cc8_stg4_1 : Ref sig .tc := ⟨.vmem, 88, rfl⟩
abbrev cc8_stg5_0 : Ref sig .tc := ⟨.vmem, 89, rfl⟩
abbrev cc8_stg5_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg5_0 : Ref sig .tc := ⟨.vmem, 97, rfl⟩
abbrev cc9_stg5_1 : Ref sig .tc := ⟨.vmem, 98, rfl⟩
abbrev cc10_stg0_0 : Ref sig .tc := ⟨.vmem, 99, rfl⟩
abbrev cc10_stg1_0 : Ref sig .tc := ⟨.vmem, 100, rfl⟩
abbrev cc10_stg2_0 : Ref sig .tc := ⟨.vmem, 101, rfl⟩
abbrev cc10_stg3_0 : Ref sig .tc := ⟨.vmem, 102, rfl⟩
abbrev cc11_stg0_0 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem7_0 : DmaSem sig := 77
abbrev cc7_sem8_0 : DmaSem sig := 78
abbrev cc7_sem9_0 : DmaSem sig := 79
abbrev cc7_sem9_1 : DmaSem sig := 80
abbrev cc8_sem0_0 : DmaSem sig := 81
abbrev cc8_sem0_1 : DmaSem sig := 82
abbrev cc8_sem1_0 : DmaSem sig := 83
abbrev cc8_sem2_0 : DmaSem sig := 84
abbrev cc8_sem3_0 : DmaSem sig := 85
abbrev cc8_sem3_1 : DmaSem sig := 86
abbrev cc8_sem4_0 : DmaSem sig := 87
abbrev cc8_sem4_1 : DmaSem sig := 88
abbrev cc8_sem5_0 : DmaSem sig := 89
abbrev cc8_sem5_1 : DmaSem sig := 90
abbrev cc9_sem0_0 : DmaSem sig := 91
abbrev cc9_sem0_1 : DmaSem sig := 92
abbrev cc9_sem1_0 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem5_1 : DmaSem sig := 98
abbrev cc10_sem0_0 : DmaSem sig := 99
abbrev cc10_sem1_0 : DmaSem sig := 100
abbrev cc10_sem2_0 : DmaSem sig := 101
abbrev cc10_sem3_0 : DmaSem sig := 102
abbrev cc11_sem0_0 : DmaSem sig := 103
abbrev cc11_sem1_0 : DmaSem sig := 104
abbrev cc11_sem2_0 : DmaSem sig := 105
abbrev cc11_sem3_0 : DmaSem sig := 106
abbrev cc11_sem4_0 : DmaSem sig := 107
abbrev cc11_sem5_0 : DmaSem sig := 108

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x77 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S77x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S8000x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x8x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S8000x64 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x8x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x64 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S32x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S8000x64 .bf16 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S1x8x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S128x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S128x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  shapeCasts_S32_S1x32 : S32.ShapeCasts S1x32
  inb_S5000x77_S5000x77_0_0 : ∀ a, (![0, 0] : Fin 2 → Nat) a + S5000x77.size a ≤ S5000x77.size a
  h_S5000x77 : 0 < S5000x77.numel
  bitsLt_bf16_f32 : FTy.bits .bf16 < FTy.bits .f32
  inb_S77x64_S77x64_0_0 : ∀ a, (![0, 0] : Fin 2 → Nat) a + S77x64.size a ≤ S77x64.size a
  h_S77x64 : 0 < S77x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  slices_S3x128x64_S1x128x64_0_0_0 : S3x128x64.Slices ![0, 0, 0] S1x128x64
  shapeCasts_S1x128x64_S128x64 : S1x128x64.ShapeCasts S128x64
  bcast_S_S800000 : S_.BroadcastsInDim S800000 (![] : Fin 0 → Fin S800000.rank)
  bcast_S800000_S800000x1_0 : S800000.BroadcastsInDim S800000x1 (![0] : Fin 1 → Fin S800000x1.rank)
  slices_S128x64_S64x64_0_0 : S128x64.Slices ![0, 0] S64x64
  slices_S128x64_S64x64_64_0 : S128x64.Slices ![64, 0] S64x64
  inb_S8000x1_S8000x1_0_0 : ∀ a, (![0, 0] : Fin 2 → Nat) a + S8000x1.size a ≤ S8000x1.size a
  h_S8000x1 : 0 < S8000x1.numel
  inb_S1x32_S1x32_0_0 : ∀ a, (![0, 0] : Fin 2 → Nat) a + S1x32.size a ≤ S1x32.size a
  h_S1x32 : 0 < S1x32.numel
  broadcasts_S8000x1_S8000x32 : S8000x1.Broadcasts S8000x32
  broadcasts_S1x32_S8000x32 : S1x32.Broadcasts S8000x32
  shapeCasts_S1x32_S1x32 : S1x32.ShapeCasts S1x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S8000x64_S8000x64_0_0 : (Rect.unit (s := S8000x64) ![0, 0] S8000x64.size inb_S8000x64_S8000x64_0_0).PackedRows (EltTy.packing .bf16)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  reduces_S5000x64_S64 : S5000x64.Reduces [0] S64
  inb_S1x8x64_S1x1x64_0_0_0 : ∀ a, (![0, 0, 0] : Fin 3 → Nat) a + S1x1x64.size a ≤ S1x8x64.size a
  h_S1x1x64 : 0 < S1x1x64.numel
  shapeCasts_S1x1x64_S1x64 : S1x1x64.ShapeCasts S1x64
  shapeCasts_S1x64_S1x1x64 : S1x64.ShapeCasts S1x1x64
  inb_S1x8x64_S1x1x64_0_1_0 : ∀ a, (![0, 1, 0] : Fin 3 → Nat) a + S1x1x64.size a ≤ S1x8x64.size a
  inb_S1x8x64_S1x6x64_0_2_0 : ∀ a, (![0, 2, 0] : Fin 3 → Nat) a + S1x6x64.size a ≤ S1x8x64.size a
  h_S1x6x64 : 0 < S1x6x64.numel
  shapeCasts_S1x6x64_S6x64 : S1x6x64.ShapeCasts S6x64
  shapeCasts_S6x64_S1x6x64 : S6x64.ShapeCasts S1x6x64
  slices_S10x8x64_S10x1x64_0_0_0 : S10x8x64.Slices ![0, 0, 0] S10x1x64
  shapeCasts_S10x1x64_S10x64 : S10x1x64.ShapeCasts S10x64
  reducesTo_S10x64_S64_d0 : S10x64.ReducesTo [0] S64
  h_S_ : 0 < S_.numel
  slices_S10x8x64_S10x1x64_0_1_0 : S10x8x64.Slices ![0, 1, 0] S10x1x64
  bcast_S_S64 : S_.BroadcastsInDim S64 (![] : Fin 0 → Fin S64.rank)
  slices_S3x32x64_S1x32x64_1_0_0 : S3x32x64.Slices ![1, 0, 0] S1x32x64
  slices_S3x64_S1x64_1_0 : S3x64.Slices ![1, 0] S1x64
  slices_S3x128x64_S1x128x64_1_0_0 : S3x128x64.Slices ![1, 0, 0] S1x128x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x128x64_S1x128x64_2_0_0 : S3x128x64.Slices ![2, 0, 0] S1x128x64
  slices_S3x64x64_S1x64x64_2_0_0 : S3x64x64.Slices ![2, 0, 0] S1x64x64
  bcast_S_S50000 : S_.BroadcastsInDim S50000 (![] : Fin 0 → Fin S50000.rank)
  bcast_S_S128 : S_.BroadcastsInDim S128 (![] : Fin 0 → Fin S128.rank)
  bcast_S50000_S50000x1_0 : S50000.BroadcastsInDim S50000x1 (![0] : Fin 1 → Fin S50000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S128_S1x128 : S128.ShapeCasts S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  reducesTo_S128x128_S128_d0 : S128x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  shapeCasts_S128x128_S128x128 : S128x128.ShapeCasts S128x128
  dot_S5000x77_S77x64_S5000x64_1_0_0_1_n_n_wf : DotDims.WF S5000x77 S77x64 S5000x64 [1] [0] [0] [1] [] []
  gather_S50000x64_S800000x1_S800000x64_1_0_n_n_0_1_164_wf : GatherDims.WF S50000x64 S800000x1 S800000x64 [1] [0] [] [0] [] 1 ![1, 64]
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S128_S50000x1_S50000_n_0_0_1_wf : ScatterDims.WF S128 S50000x1 S50000 [] [0] [0] 1
  scatter_S128x64_S50000x1_S50000x64_1_0_0_1_wf : ScatterDims.WF S128x64 S50000x1 S50000x64 [1] [0] [0] 1
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x77.size a ≤ S50000x77.size a
  hwx0_0 : ∀ i : grid0.Coords, EltTy.bits .f32 = 32 ∨ (Rect.block (s := S50000x77) S5000x77.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S77x64.size a ≤ S77x64.size a
  hwx0_1 : ∀ i : grid0.Coords, EltTy.bits .f32 = 32 ∨ (Rect.block (s := S77x64) S77x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S800000x1.size a
  hwx1_0 : ∀ i : grid1.Coords, EltTy.bits .f32 = 32 ∨ (Rect.block (s := S800000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S800000x64.size a
  hwx1_1 : ∀ i : grid1.Coords, EltTy.bits .bf16 = 32 ∨ (Rect.block (s := S800000x64) S8000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8000x64.size a ≤ S800000x64.size a
  hwx1_9 : ∀ i : grid1.Coords, EltTy.bits .bf16 = 32 ∨ (Rect.block (s := S800000x64) S8000x64.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x8x64.size a ≤ S10x8x64.size a
  hwx2_5 : ∀ i : grid2.Coords, EltTy.bits .f32 = 32 ∨ (Rect.block (s := S10x8x64) S1x8x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x1.size a ≤ S800000x1.size a
  hwx4_0 : ∀ i : grid4.Coords, EltTy.bits .f32 = 32 ∨ (Rect.block (s := S800000x1) S8000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .bf16 = 32 ∨ (Rect.block (s := S800000x64) S8000x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x64.size a ≤ S32x64.size a
  hwx4_4 : ∀ i : grid4.Coords, EltTy.bits .f32 = 32 ∨ (Rect.block (s := S32x64) S32x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x64.size a ≤ S64x64.size a
  hwx4_6 : ∀ i : grid4.Coords, EltTy.bits .f32 = 32 ∨ (Rect.block (s := S64x64) S64x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x64.size a ≤ S64x64.size a
  hwx4_7 : ∀ i : grid4.Coords, EltTy.bits .f32 = 32 ∨ (Rect.block (s := S64x64) S64x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S8000x64.size a ≤ S800000x64.size a
  hwx4_9 : ∀ i : grid4.Coords, EltTy.bits .bf16 = 32 ∨ (Rect.block (s := S800000x64) S8000x64.size (cc4_transform_9 i) (hinb4_9 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x8x64.size a ≤ S10x8x64.size a
  hwx5_5 : ∀ i : grid5.Coords, EltTy.bits .f32 = 32 ∨ (Rect.block (s := S10x8x64) S1x8x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x1.size a ≤ S800000x1.size a
  hwx7_0 : ∀ i : grid7.Coords, EltTy.bits .f32 = 32 ∨ (Rect.block (s := S800000x1) S8000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x64.size a ≤ S800000x64.size a
  hwx7_1 : ∀ i : grid7.Coords, EltTy.bits .bf16 = 32 ∨ (Rect.block (s := S800000x64) S8000x64.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S32x64.size a ≤ S32x64.size a
  hwx7_4 : ∀ i : grid7.Coords, EltTy.bits .f32 = 32 ∨ (Rect.block (s := S32x64) S32x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x64.size a ≤ S64x64.size a
  hwx7_6 : ∀ i : grid7.Coords, EltTy.bits .f32 = 32 ∨ (Rect.block (s := S64x64) S64x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x64.size a ≤ S64x64.size a
  hwx7_7 : ∀ i : grid7.Coords, EltTy.bits .f32 = 32 ∨ (Rect.block (s := S64x64) S64x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S8000x64.size a ≤ S800000x64.size a
  hwx7_9 : ∀ i : grid7.Coords, EltTy.bits .bf16 = 32 ∨ (Rect.block (s := S800000x64) S8000x64.size (cc7_transform_9 i) (hinb7_9 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .f32 = 32 ∨ (Rect.block (s := S50000x64) S5000x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S1x8x64.size a ≤ S10x8x64.size a
  hwx8_5 : ∀ i : grid8.Coords, EltTy.bits .f32 = 32 ∨ (Rect.block (s := S10x8x64) S1x8x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S128x64.size a ≤ S128x64.size a
  hwx10_0 : ∀ i : grid10.Coords, EltTy.bits .f32 = 32 ∨ (Rect.block (s := S128x64) S128x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S128x128.size a ≤ S128x128.size a
  hwx11_0 : ∀ i : grid11.Coords, EltTy.bits .f32 = 32 ∨ (Rect.block (s := S128x128) S128x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)

variable [Facts₀]

def dot_S5000x77_S77x64_S5000x64_1_0_0_1_n_n : DotDims S5000x77 S77x64 S5000x64 where
  lhsContracting := [1]
  rhsContracting := [0]
  lhsNonContracting := [0]
  rhsNonContracting := [1]
  lhsBatch := []
  rhsBatch := []
  wf := dot_S5000x77_S77x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_arg0) S5000x77.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S77x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v24) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S8000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v6) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S1x8x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_arg2) S8000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S32x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v75) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v77) S64x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78) S64x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v76) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v79) S8000x64.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v58) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v93_0) S5000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v93_1) S1x8x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v93_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v107) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v108) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v110) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_arg2) S8000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v126) S8000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg6) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v5) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v113) S32x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v129) S64x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v130) S64x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v128) S1x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v131) S8000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v110) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v137) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v144) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v135) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v145_0) S5000x64.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v145_1) S1x8x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v145_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v158) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v159) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v160) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v161) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v162) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v174) S128x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg16) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v175) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v178) S128x128.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v178) S128x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v182) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v184) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v176) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v177) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v185) S128x128.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x77 : Shape := ⟨2, ![50000, 77]⟩
abbrev S2x800000 : Shape := ⟨2, ![2, 800000]⟩
abbrev S800000x1 : Shape := ⟨2, ![800000, 1]⟩
abbrev S50000 : Shape := ⟨1, ![50000]⟩
abbrev S77x64 : Shape := ⟨2, ![77, 64]⟩
abbrev S64 : Shape := ⟨1, ![64]⟩
abbrev S1x32 : Shape := ⟨2, ![1, 32]⟩
abbrev S32 : Shape := ⟨1, ![32]⟩
abbrev S3x64x64 : Shape := ⟨3, ![3, 64, 64]⟩
abbrev S3x64 : Shape := ⟨2, ![3, 64]⟩
abbrev S3x32x64 : Shape := ⟨3, ![3, 32, 64]⟩
abbrev S3x128x64 : Shape := ⟨3, ![3, 128, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S800000x32 : Shape := ⟨2, ![800000, 32]⟩
abbrev S1x32x64 : Shape := ⟨3, ![1, 32, 64]⟩
abbrev S32x64 : Shape := ⟨2, ![32, 64]⟩
abbrev S800000x64 : Shape := ⟨2, ![800000, 64]⟩
abbrev S_ : Shape := ⟨0, ![]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S50000x1 : Shape := ⟨2, ![50000, 1]⟩
abbrev S128x1 : Shape := ⟨2, ![128, 1]⟩
abbrev S128x128 : Shape := ⟨2, ![128, 128]⟩
abbrev S1x128 : Shape := ⟨2, ![1, 128]⟩

abbrev nBuf : Space → Nat
  | .hbm => 396
  | .vmem => 0
  | .smem => 0
  | _ => 0

abbrev hbmTy0_0 (i : Nat) : BufTy := match i % 128 with
  | 0 => ⟨S50000x77, .f32⟩
  | 1 => ⟨S2x800000, .i32⟩
  | 2 => ⟨S800000x1, .f32⟩
  | 3 => ⟨S50000, .i32⟩
  | 4 => ⟨S77x64, .f32⟩
  | 5 => ⟨S64, .f32⟩
  | 6 => ⟨S1x32, .f32⟩
  | 7 => ⟨S32, .f32⟩
  | 8 => ⟨S3x64x64, .f32⟩
  | 9 => ⟨S3x64, .f32⟩
  | 10 => ⟨S3x32x64, .f32⟩
  | 11 => ⟨S3x64, .f32⟩
  | 12 => ⟨S3x128x64, .f32⟩
  | 13 => ⟨S3x64, .f32⟩
  | 14 => ⟨S3x64, .f32⟩
  | 15 => ⟨S3x64, .f32⟩
  | 16 => ⟨S64x128, .f32⟩
  | 17 => ⟨S128, .f32⟩
  | 18 => ⟨S128, .f32⟩
  | 19 => ⟨S128, .f32⟩
  | 20 => ⟨S1x800000, .i32⟩
  | 21 => ⟨S800000, .i32⟩
  | 22 => ⟨S1x800000, .i32⟩
  | 23 => ⟨S800000, .i32⟩
  | 24 => ⟨S50000x64, .f32⟩
  | 25 => ⟨S1x64, .f32⟩
  | 26 => ⟨S50000x64, .f32⟩
  | 27 => ⟨S50000x64, .f32⟩
  | 28 => ⟨S800000x32, .f32⟩
  | 29 => ⟨S1x32, .f32⟩
  | 30 => ⟨S800000x32, .f32⟩
  | 31 => ⟨S800000x32, .f32⟩
  | 32 => ⟨S1x32x64, .f32⟩
  | 33 => ⟨S32x64, .f32⟩
  | 34 => ⟨S800000x64, .f32⟩
  | 35 => ⟨S1x64, .f32⟩
  | 36 => ⟨S64, .f32⟩
  | 37 => ⟨S1x64, .f32⟩
  | 38 => ⟨S800000x64, .f32⟩
  | 39 => ⟨S800000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S800000x128, .f32⟩
  | 50 => ⟨S1x128x64, .f32⟩
  | 51 => ⟨S128x64, .f32⟩
  | 52 => ⟨S800000x64, .f32⟩
  | 53 => ⟨S1x64, .f32⟩
  | 54 => ⟨S64, .f32⟩
  | 55 => ⟨S1x64, .f32⟩
  | 56 => ⟨S800000x64, .f32⟩
  | 57 => ⟨S800000x64, .f32⟩
  | 58 => ⟨S800000x64, .f32⟩
  | 59 => ⟨S800000x64, .f32⟩
  | 60 => ⟨S_, .f32⟩
  | 61 => ⟨S800000x64, .f32⟩
  | 62 => ⟨S800000x64, .f32⟩
  | 63 => ⟨S_, .f32⟩
  | 64 => ⟨S800000x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1x64x64, .f32⟩
  | 72 => ⟨S64x64, .f32⟩
  | 73 => ⟨S50000x64, .f32⟩
  | 74 => ⟨S1x64, .f32⟩
  | 75 => ⟨S64, .f32⟩
  | 76 => ⟨S1x64, .f32⟩
  | 77 => ⟨S50000x64, .f32⟩
  | 78 => ⟨S50000x64, .f32⟩
  | 79 => ⟨S50000x64, .f32⟩
  | 80 => ⟨S1x64, .f32⟩
  | 81 => ⟨S64, .f32⟩
  | 82 => ⟨S1x64, .f32⟩
  | 83 => ⟨S64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S50000x64, .f32⟩
  | 97 => ⟨S50000x64, .f32⟩
  | 98 => ⟨S50000x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x64, .f32⟩
  | 113 => ⟨S50000x64, .f32⟩
  | 114 => ⟨S50000x64, .f32⟩
  | 115 => ⟨S_, .f32⟩
  | 116 => ⟨S64, .f32⟩
  | 117 => ⟨S64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x77, .f32⟩

abbrev hbmTy0_1 (i : Nat) : BufTy := match i % 128 with
  | 0 => ⟨S_, .f32⟩
  | 1 => ⟨S50000x64, .f32⟩
  | 2 => ⟨S50000x64, .f32⟩
  | 3 => ⟨S1x32x64, .f32⟩
  | 4 => ⟨S32x64, .f32⟩
  | 5 => ⟨S800000x64, .f32⟩
  | 6 => ⟨S1x64, .f32⟩
  | 7 => ⟨S64, .f32⟩
  | 8 => ⟨S1x64, .f32⟩
  | 9 => ⟨S800000x64, .f32⟩
  | 10 => ⟨S800000x64, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x128, .f32⟩
  | 21 => ⟨S1x128x64, .f32⟩
  | 22 => ⟨S128x64, .f32⟩
  | 23 => ⟨S800000x64, .f32⟩
  | 24 => ⟨S1x64, .f32⟩
  | 25 => ⟨S64, .f32⟩
  | 26 => ⟨S1x64, .f32⟩
  | 27 => ⟨S800000x64, .f32⟩
  | 28 => ⟨S800000x64, .f32⟩
  | 29 => ⟨S800000x64, .f32⟩
  | 30 => ⟨S800000x64, .f32⟩
  | 31 => ⟨S_, .f32⟩
  | 32 => ⟨S800000x64, .f32⟩
  | 33 => ⟨S800000x64, .f32⟩
  | 34 => ⟨S_, .f32⟩
  | 35 => ⟨S800000x64, .f32⟩
  | 36 => ⟨S800000x64, .f32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S1x64x64, .f32⟩
  | 43 => ⟨S64x64, .f32⟩
  | 44 => ⟨S50000x64, .f32⟩
  | 45 => ⟨S1x64, .f32⟩
  | 46 => ⟨S64, .f32⟩
  | 47 => ⟨S1x64, .f32⟩
  | 48 => ⟨S50000x64, .f32⟩
  | 49 => ⟨S50000x64, .f32⟩
  | 50 => ⟨S50000x64, .f32⟩
  | 51 => ⟨S1x64, .f32⟩
  | 52 => ⟨S64, .f32⟩
  | 53 => ⟨S1x64, .f32⟩
  | 54 => ⟨S64, .f32⟩
  | 55 => ⟨S_, .f32⟩
  | 56 => ⟨S64, .f32⟩
  | 57 => ⟨S_, .f32⟩
  | 58 => ⟨S64, .f32⟩
  | 59 => ⟨S64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S50000x64, .f32⟩
  | 68 => ⟨S50000x64, .f32⟩
  | 69 => ⟨S50000x64, .f32⟩
  | 70 => ⟨S_, .f32⟩
  | 71 => ⟨S_, .f32⟩
  | 72 => ⟨S_, .f32⟩
  | 73 => ⟨S_, .f32⟩
  | 74 => ⟨S64, .f32⟩
  | 75 => ⟨S64, .f32⟩
  | 76 => ⟨S64, .f32⟩
  | 77 => ⟨S_, .f32⟩
  | 78 => ⟨S_, .i1⟩
  | 79 => ⟨S_, .f32⟩
  | 80 => ⟨S_, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S64, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S1x32x64, .f32⟩
  | 103 => ⟨S32x64, .f32⟩
  | 104 => ⟨S800000x64, .f32⟩
  | 105 => ⟨S1x64, .f32⟩
  | 106 => ⟨S64, .f32⟩
  | 107 => ⟨S1x64, .f32⟩
  | 108 => ⟨S800000x64, .f32⟩
  | 109 => ⟨S800000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x128, .f32⟩
  | 120 => ⟨S1x128x64, .f32⟩
  | 121 => ⟨S128x64, .f32⟩
  | 122 => ⟨S800000x64, .f32⟩
  | 123 => ⟨S1x64, .f32⟩
  | 124 => ⟨S64, .f32⟩
  | 125 => ⟨S1x64, .f32⟩
  | 126 => ⟨S800000x64, .f32⟩
  | 127 => ⟨S800000x64, .f32⟩
  | _ => ⟨S50000x77, .f32⟩

abbrev hbmTy0_2 (i : Nat) : BufTy := match i % 128 with
  | 0 => ⟨S800000x64, .f32⟩
  | 1 => ⟨S800000x64, .f32⟩
  | 2 => ⟨S_, .f32⟩
  | 3 => ⟨S800000x64, .f32⟩
  | 4 => ⟨S800000x64, .f32⟩
  | 5 => ⟨S_, .f32⟩
  | 6 => ⟨S800000x64, .f32⟩
  | 7 => ⟨S800000x64, .f32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S1x64x64, .f32⟩
  | 14 => ⟨S64x64, .f32⟩
  | 15 => ⟨S50000x64, .f32⟩
  | 16 => ⟨S1x64, .f32⟩
  | 17 => ⟨S64, .f32⟩
  | 18 => ⟨S1x64, .f32⟩
  | 19 => ⟨S50000x64, .f32⟩
  | 20 => ⟨S50000x64, .f32⟩
  | 21 => ⟨S50000x64, .f32⟩
  | 22 => ⟨S1x64, .f32⟩
  | 23 => ⟨S64, .f32⟩
  | 24 => ⟨S1x64, .f32⟩
  | 25 => ⟨S64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S50000x64, .f32⟩
  | 39 => ⟨S50000x64, .f32⟩
  | 40 => ⟨S50000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S_, .f32⟩
  | 58 => ⟨S64, .f32⟩
  | 59 => ⟨S64, .f32⟩
  | 60 => ⟨S64, .f32⟩
  | 61 => ⟨S1x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S_, .f32⟩
  | 74 => ⟨S50000, .f32⟩
  | 75 => ⟨S_, .f32⟩
  | 76 => ⟨S128, .f32⟩
  | 77 => ⟨S50000x1, .i32⟩
  | 78 => ⟨S128, .f32⟩
  | 79 => ⟨S_, .f32⟩
  | 80 => ⟨S128x64, .f32⟩
  | 81 => ⟨S50000x1, .i32⟩
  | 82 => ⟨S128x64, .f32⟩
  | 83 => ⟨S_, .f32⟩
  | 84 => ⟨S128, .f32⟩
  | 85 => ⟨S128, .f32⟩
  | 86 => ⟨S128x1, .f32⟩
  | 87 => ⟨S128x64, .f32⟩
  | 88 => ⟨S128x64, .f32⟩
  | 89 => ⟨S128x128, .f32⟩
  | 90 => ⟨S1x128, .f32⟩
  | 91 => ⟨S128x128, .f32⟩
  | 92 => ⟨S128x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S128x128, .f32⟩
  | 106 => ⟨S128x128, .f32⟩
  | 107 => ⟨S128x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S128x128, .f32⟩
  | 123 => ⟨S128x128, .f32⟩
  | 124 => ⟨S_, .f32⟩
  | 125 => ⟨S128, .f32⟩
  | 126 => ⟨S128, .f32⟩
  | 127 => ⟨S128, .f32⟩
  | _ => ⟨S50000x77, .f32⟩

abbrev hbmTy0_3 (i : Nat) : BufTy := match i % 128 with
  | 0 => ⟨S1x128, .f32⟩
  | 1 => ⟨S128x128, .f32⟩
  | 2 => ⟨S128x128, .f32⟩
  | 3 => ⟨S1x128, .f32⟩
  | 4 => ⟨S128x128, .f32⟩
  | 5 => ⟨S128x128, .f32⟩
  | 6 => ⟨S1x128, .f32⟩
  | 7 => ⟨S128x128, .f32⟩
  | 8 => ⟨S128x128, .f32⟩
  | 9 => ⟨S_, .f32⟩
  | 10 => ⟨S128x128, .f32⟩
  | 11 => ⟨S128x128, .f32⟩
  | _ => ⟨S50000x77, .f32⟩

abbrev hbmTy (i : Nat) : BufTy := match i / 128 with
  | 0 => hbmTy0_0 i
  | 1 => hbmTy0_1 i
  | 2 => hbmTy0_2 i
  | 3 => hbmTy0_3 i
  | _ => ⟨S50000x77, .f32⟩

abbrev bufTy : (tb : Table) → Fin (tcTables nBuf tb) → BufTy
  | .hbm, ⟨i, _⟩ => hbmTy i
  | _, _ => ⟨S50000x77, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_1 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_3 : Ref sig .tc := ⟨.hbm, 84, rfl⟩
abbrev main_v59 : Ref sig .tc := ⟨.hbm, 85, rfl⟩
abbrev main_cst_4 : Ref sig .tc := ⟨.hbm, 86, rfl⟩
abbrev main_v60 : Ref sig .tc := ⟨.hbm, 87, rfl⟩
abbrev main_v61 : Ref sig .tc := ⟨.hbm, 88, rfl⟩
abbrev main_c_5 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_cst_0 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_cst_1 : Ref sig .tc := ⟨.hbm, 100, rfl⟩
abbrev main_call0_v8 : Ref sig .tc := ⟨.hbm, 101, rfl⟩
abbrev main_call0_cst_2 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_call0_cst_3 : Ref sig .tc := ⟨.hbm, 106, rfl⟩
abbrev main_call0_v12 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_6 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_call1_cst : Ref sig .tc := ⟨.hbm, 128, rfl⟩
abbrev main_call1_v0 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_7 : Ref sig .tc := ⟨.hbm, 139, rfl⟩
abbrev main_v87 : Ref sig .tc := ⟨.hbm, 140, rfl⟩
abbrev main_v88 : Ref sig .tc := ⟨.hbm, 141, rfl⟩
abbrev main_c_8 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_9 : Ref sig .tc := ⟨.hbm, 159, rfl⟩
abbrev main_v105 : Ref sig .tc := ⟨.hbm, 160, rfl⟩
abbrev main_v106 : Ref sig .tc := ⟨.hbm, 161, rfl⟩
abbrev main_cst_10 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_11 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_12 : Ref sig .tc := ⟨.hbm, 183, rfl⟩
abbrev main_v126 : Ref sig .tc := ⟨.hbm, 184, rfl⟩
abbrev main_cst_13 : Ref sig .tc := ⟨.hbm, 185, rfl⟩
abbrev main_v127 : Ref sig .tc := ⟨.hbm, 186, rfl⟩
abbrev main_v128 : Ref sig .tc := ⟨.hbm, 187, rfl⟩
abbrev main_c_14 : Ref sig .tc := ⟨.hbm, 188, rfl⟩
abbrev main_call2_cst : Ref sig .tc := ⟨.hbm, 189, rfl⟩
abbrev main_call2_v0 : Ref sig .tc := ⟨.hbm, 190, rfl⟩
abbrev main_call2_v1 : Ref sig .tc := ⟨.hbm, 191, rfl⟩
abbrev main_call2_cst_0 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_call2_v5 : Ref sig .tc := ⟨.hbm, 196, rfl⟩
abbrev main_call2_v6 : Ref sig .tc := ⟨.hbm, 197, rfl⟩
abbrev main_call2_v7 : Ref sig .tc := ⟨.hbm, 198, rfl⟩
abbrev main_call2_cst_1 : Ref sig .tc := ⟨.hbm, 199, rfl⟩
abbrev main_call2_v8 : Ref sig .tc := ⟨.hbm, 200, rfl⟩
abbrev main_call2_cst_2 : Ref sig .tc := ⟨.hbm, 201, rfl⟩
abbrev main_call2_v9 : Ref sig .tc := ⟨.hbm, 202, rfl⟩
abbrev main_call2_v10 : Ref sig .tc := ⟨.hbm, 203, rfl⟩
abbrev main_call2_v11 : Ref sig .tc := ⟨.hbm, 204, rfl⟩
abbrev main_call2_cst_3 : Ref sig .tc := ⟨.hbm, 205, rfl⟩
abbrev main_call2_v12 : Ref sig .tc := ⟨.hbm, 206, rfl⟩
abbrev main_call2_cst_4 : Ref sig .tc := ⟨.hbm, 207, rfl⟩
abbrev main_call2_call0_v0 : Ref sig .tc := ⟨.hbm, 208, rfl⟩
abbrev main_call2_call0_v1 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_cst_15 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_call3_cst : Ref sig .tc := ⟨.hbm, 227, rfl⟩
abbrev main_call3_v0 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_c_16 : Ref sig .tc := ⟨.hbm, 238, rfl⟩
abbrev main_v154 : Ref sig .tc := ⟨.hbm, 239, rfl⟩
abbrev main_v155 : Ref sig .tc := ⟨.hbm, 240, rfl⟩
abbrev main_c_17 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_cst_18 : Ref sig .tc := ⟨.hbm, 258, rfl⟩
abbrev main_v172 : Ref sig .tc := ⟨.hbm, 259, rfl⟩
abbrev main_v173 : Ref sig .tc := ⟨.hbm, 260, rfl⟩
abbrev main_cst_19 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_20 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_cst_21 : Ref sig .tc := ⟨.hbm, 282, rfl⟩
abbrev main_v193 : Ref sig .tc := ⟨.hbm, 283, rfl⟩
abbrev main_cst_22 : Ref sig .tc := ⟨.hbm, 284, rfl⟩
abbrev main_v194 : Ref sig .tc := ⟨.hbm, 285, rfl⟩
abbrev main_v195 : Ref sig .tc := ⟨.hbm, 286, rfl⟩
abbrev main_c_23 : Ref sig .tc := ⟨.hbm, 287, rfl⟩
abbrev main_call4_cst : Ref sig .tc := ⟨.hbm, 288, rfl⟩
abbrev main_call4_v0 : Ref sig .tc := ⟨.hbm, 289, rfl⟩
abbrev main_call4_v1 : Ref sig .tc := ⟨.hbm, 290, rfl⟩
abbrev main_call4_cst_0 : Ref sig .tc := ⟨.hbm, 291, rfl⟩
abbrev main_call4_v2 : Ref sig .tc := ⟨.hbm, 292, rfl⟩
abbrev main_call4_v3 : Ref sig .tc := ⟨.hbm, 293, rfl⟩
abbrev main_call4_v4 : Ref sig .tc := ⟨.hbm, 294, rfl⟩
abbrev main_call4_v5 : Ref sig .tc := ⟨.hbm, 295, rfl⟩
abbrev main_call4_v6 : Ref sig .tc := ⟨.hbm, 296, rfl⟩
abbrev main_call4_v7 : Ref sig .tc := ⟨.hbm, 297, rfl⟩
abbrev main_call4_cst_1 : Ref sig .tc := ⟨.hbm, 298, rfl⟩
abbrev main_call4_v8 : Ref sig .tc := ⟨.hbm, 299, rfl⟩
abbrev main_call4_cst_2 : Ref sig .tc := ⟨.hbm, 300, rfl⟩
abbrev main_call4_v9 : Ref sig .tc := ⟨.hbm, 301, rfl⟩
abbrev main_call4_v10 : Ref sig .tc := ⟨.hbm, 302, rfl⟩
abbrev main_call4_v11 : Ref sig .tc := ⟨.hbm, 303, rfl⟩
abbrev main_call4_cst_3 : Ref sig .tc := ⟨.hbm, 304, rfl⟩
abbrev main_call4_v12 : Ref sig .tc := ⟨.hbm, 305, rfl⟩
abbrev main_call4_cst_4 : Ref sig .tc := ⟨.hbm, 306, rfl⟩
abbrev main_call4_call0_v0 : Ref sig .tc := ⟨.hbm, 307, rfl⟩
abbrev main_call4_call0_v1 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_v199 : Ref sig .tc := ⟨.hbm, 312, rfl⟩
abbrev main_cst_24 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_call5_cst : Ref sig .tc := ⟨.hbm, 326, rfl⟩
abbrev main_call5_v0 : Ref sig .tc := ⟨.hbm, 327, rfl⟩
abbrev main_v212 : Ref sig .tc := ⟨.hbm, 328, rfl⟩
abbrev main_cst_25 : Ref sig .tc := ⟨.hbm, 329, rfl⟩
abbrev main_v213 : Ref sig .tc := ⟨.hbm, 330, rfl⟩
abbrev main_cst_26 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_cst_27 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_cst_28 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_v227 : Ref sig .tc := ⟨.hbm, 347, rfl⟩
abbrev main_v228 : Ref sig .tc := ⟨.hbm, 348, rfl⟩
abbrev main_cst_29 : Ref sig .tc := ⟨.hbm, 349, rfl⟩
abbrev main_v229 : Ref sig .tc := ⟨.hbm, 350, rfl⟩
abbrev main_cst_30 : Ref sig .tc := ⟨.hbm, 351, rfl⟩
abbrev main_v230 : Ref sig .tc := ⟨.hbm, 352, rfl⟩
abbrev main_v231 : Ref sig .tc := ⟨.hbm, 353, rfl⟩
abbrev main_c_31 : Ref sig .tc := ⟨.hbm, 354, rfl⟩
abbrev main_call6_cst : Ref sig .tc := ⟨.hbm, 355, rfl⟩
abbrev main_call6_v0 : Ref sig .tc := ⟨.hbm, 356, rfl⟩
abbrev main_call6_v1 : Ref sig .tc := ⟨.hbm, 357, rfl⟩
abbrev main_call6_cst_0 : Ref sig .tc := ⟨.hbm, 358, rfl⟩
abbrev main_call6_v2 : Ref sig .tc := ⟨.hbm, 359, rfl⟩
abbrev main_call6_v3 : Ref sig .tc := ⟨.hbm, 360, rfl⟩
abbrev main_call6_v4 : Ref sig .tc := ⟨.hbm, 361, rfl⟩
abbrev main_call6_v5 : Ref sig .tc := ⟨.hbm, 362, rfl⟩
abbrev main_call6_v6 : Ref sig .tc := ⟨.hbm, 363, rfl⟩
abbrev main_call6_v7 : Ref sig .tc := ⟨.hbm, 364, rfl⟩
abbrev main_call6_cst_1 : Ref sig .tc := ⟨.hbm, 365, rfl⟩
abbrev main_call6_v8 : Ref sig .tc := ⟨.hbm, 366, rfl⟩
abbrev main_call6_cst_2 : Ref sig .tc := ⟨.hbm, 367, rfl⟩
abbrev main_call6_v9 : Ref sig .tc := ⟨.hbm, 368, rfl⟩
abbrev main_call6_v10 : Ref sig .tc := ⟨.hbm, 369, rfl⟩
abbrev main_call6_v11 : Ref sig .tc := ⟨.hbm, 370, rfl⟩
abbrev main_call6_cst_3 : Ref sig .tc := ⟨.hbm, 371, rfl⟩
abbrev main_call6_v12 : Ref sig .tc := ⟨.hbm, 372, rfl⟩
abbrev main_call6_cst_4 : Ref sig .tc := ⟨.hbm, 373, rfl⟩
abbrev main_call6_call0_v0 : Ref sig .tc := ⟨.hbm, 374, rfl⟩
abbrev main_call6_call0_v1 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_v235 : Ref sig .tc := ⟨.hbm, 379, rfl⟩
abbrev main_cst_32 : Ref sig .tc := ⟨.hbm, 380, rfl⟩
abbrev main_v236 : Ref sig .tc := ⟨.hbm, 381, rfl⟩
abbrev main_v237 : Ref sig .tc := ⟨.hbm, 382, rfl⟩
abbrev main_v238 : Ref sig .tc := ⟨.hbm, 383, rfl⟩
abbrev main_v239 : Ref sig .tc := ⟨.hbm, 384, rfl⟩
abbrev main_v240 : Ref sig .tc := ⟨.hbm, 385, rfl⟩
abbrev main_v241 : Ref sig .tc := ⟨.hbm, 386, rfl⟩
abbrev main_v242 : Ref sig .tc := ⟨.hbm, 387, rfl⟩
abbrev main_v243 : Ref sig .tc := ⟨.hbm, 388, rfl⟩
abbrev main_v244 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_call7_cst : Ref sig .tc := ⟨.hbm, 393, rfl⟩
abbrev main_call7_v0 : Ref sig .tc := ⟨.hbm, 394, rfl⟩
abbrev main_v248 : Ref sig .tc := ⟨.hbm, 395, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S3x128x64_S1x128x64_0_0_0 : S3x128x64.Slices ![0, 0, 0] S1x128x64
  shapeCasts_S1x128x64_S128x64 : S1x128x64.ShapeCasts S128x64
  bcast_S_S800000x64 : S_.BroadcastsInDim S800000x64 (![] : Fin 0 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x32x64_S1x32x64_1_0_0 : S3x32x64.Slices ![1, 0, 0] S1x32x64
  slices_S3x64_S1x64_1_0 : S3x64.Slices ![1, 0] S1x64
  slices_S3x128x64_S1x128x64_1_0_0 : S3x128x64.Slices ![1, 0, 0] S1x128x64
  slices_S3x64x64_S1x64x64_1_0_0 : S3x64x64.Slices ![1, 0, 0] S1x64x64
  slices_S3x32x64_S1x32x64_2_0_0 : S3x32x64.Slices ![2, 0, 0] S1x32x64
  slices_S3x64_S1x64_2_0 : S3x64.Slices ![2, 0] S1x64
  slices_S3x128x64_S1x128x64_2_0_0 : S3x128x64.Slices ![2, 0, 0] S1x128x64
  slices_S3x64x64_S1x64x64_2_0_0 : S3x64x64.Slices ![2, 0, 0] S1x64x64
  bcast_S_S50000 : S_.BroadcastsInDim S50000 (![] : Fin 0 → Fin S50000.rank)
  bcast_S_S128 : S_.BroadcastsInDim S128 (![] : Fin 0 → Fin S128.rank)
  bcast_S50000_S50000x1_0 : S50000.BroadcastsInDim S50000x1 (![0] : Fin 1 → Fin S50000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  reducesTo_S128x128_S128_d0 : S128x128.ReducesTo [0] S128
  bcast_S_S1x128 : S_.BroadcastsInDim S1x128 (![] : Fin 0 → Fin S1x128.rank)
  bcast_S_S128x128 : S_.BroadcastsInDim S128x128 (![] : Fin 0 → Fin S128x128.rank)
  dot_S50000x77_S77x64_S50000x64_1_0_0_1_n_n_wf : DotDims.WF S50000x77 S77x64 S50000x64 [1] [0] [0] [1] [] []
  dot_S800000x1_S1x32_S800000x32_1_0_0_1_n_n_wf : DotDims.WF S800000x1 S1x32 S800000x32 [1] [0] [0] [1] [] []
  dot_S800000x32_S32x64_S800000x64_1_0_0_1_n_n_wf : DotDims.WF S800000x32 S32x64 S800000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S128_S50000x1_S50000_n_0_0_1_wf : ScatterDims.WF S128 S50000x1 S50000 [] [0] [0] 1
  scatter_S128x64_S50000x1_S50000x64_1_0_0_1_wf : ScatterDims.WF S128x64 S50000x1 S50000x64 [1] [0] [0] 1
  dot_S128x64_S64x128_S128x128_1_0_0_1_n_n_wf : DotDims.WF S128x64 S64x128 S128x128 [1] [0] [0] [1] [] []

variable [Facts₀]

def dot_S50000x77_S77x64_S50000x64_1_0_0_1_n_n : DotDims S50000x77 S77x64 S50000x64 where
  lhsContracting := [1]
  rhsContracting := [0]
  lhsNonContracting := [0]
  rhsNonContracting := [1]
  lhsBatch := []
  rhsBatch := []
  wf := dot_S50000x77_S77x64_S50000x64_1_0_0_1_n_n_wf
def dot_S800000x1_S1x32_S800000x32_1_0_0_1_n_n : DotDims S800000x1 S1x32 S800000x32 where
  lhsContracting := [1]
  rhsContracting := [0]
  lhsNonContracting := [0]
  rhsNonContracting := [1]
  lhsBatch := []
  rhsBatch := []
  wf := dot_S800000x1_S1x32_S800000x32_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

class Facts : Prop extends Facts₀ where

variable [Facts]
-- ==== Proof.KRun.lean ====
/-
  The idealized kernel program's run, with its result named.  The program is twelve kernel launches among stretches
  of host operations; running it from any launch memory, every weakly fair execution ends, nothing faults, the
  argument arrays end as launched, and the result buffer ends at what the last launch's write-backs leave in it.
-/
import proofs.«108144_j81140522156740_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the whole program terminates without a fault, the result array ends at the last
    boundary's contents of its buffer, and the argument arrays end as launched. -/
theorem run_result : θ_run defs (onTc (τ := τ) (main (F := F))) ⟨m, fun _ => 0, ρ⟩ (fun r => ∀ c : Dev nD,
      r.2.mem ((c.tc : Thread nD τ).loc main_v185) = W26 m ρ c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v185 (by decide)),
       (h c _ (mem_uc main_arg0 (by decide))).trans (W26_main_arg0 m ρ c),
       (h c _ (mem_uc main_arg1 (by decide))).trans (W26_main_arg1 m ρ c),
       (h c _ (mem_uc main_arg2 (by decide))).trans (W26_main_arg2 m ρ c),
       (h c _ (mem_uc main_arg3 (by decide))).trans (W26_main_arg3 m ρ c),
       (h c _ (mem_uc main_arg4 (by decide))).trans (W26_main_arg4 m ρ c),
       (h c _ (mem_uc main_arg5 (by decide))).trans (W26_main_arg5 m ρ c),
       (h c _ (mem_uc main_arg6 (by decide))).trans (W26_main_arg6 m ρ c),
       (h c _ (mem_uc main_arg7 (by decide))).trans (W26_main_arg7 m ρ c),
       (h c _ (mem_uc main_arg8 (by decide))).trans (W26_main_arg8 m ρ c),
       (h c _ (mem_uc main_arg9 (by decide))).trans (W26_main_arg9 m ρ c),
       (h c _ (mem_uc main_arg10 (by decide))).trans (W26_main_arg10 m ρ c),
       (h c _ (mem_uc main_arg11 (by decide))).trans (W26_main_arg11 m ρ c),
       (h c _ (mem_uc main_arg12 (by decide))).trans (W26_main_arg12 m ρ c),
       (h c _ (mem_uc main_arg13 (by decide))).trans (W26_main_arg13 m ρ c),
       (h c _ (mem_uc main_arg14 (by decide))).trans (W26_main_arg14 m ρ c),
       (h c _ (mem_uc main_arg15 (by decide))).trans (W26_main_arg15 m ρ c),
       (h c _ (mem_uc main_arg16 (by decide))).trans (W26_main_arg16 m ρ c),
       (h c _ (mem_uc main_arg17 (by decide))).trans (W26_main_arg17 m ρ c),
       (h c _ (mem_uc main_arg18 (by decide))).trans (W26_main_arg18 m ρ c),
       (h c _ (mem_uc main_arg19 (by decide))).trans (W26_main_arg19 m ρ c)⟩)

end Cert.KernelIdeal.KRun

end
-- ==== Proof.RefRunOps.lean ====
/- TABLE written by: bun scratch/gen_ops.mjs > proof/Proof/RefRunOps.lean (from the unit directory). The operations of the printed
   reference's @main, in order, each called function's operations listed at its call site over that call's buffer record, cut into
   consecutive windows (whole layers' stages); beside each window the references it writes. No proof of a value is in this file. -/
import proofs.«108144_j81140522156740_2_alg».proof.ReferenceIdeal
import Idealize.ShloMosaic.Lib.StableHlo.Run

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable {F : FTy → Type} [FloatOps F] [Facts]

/-- Statements 1 … 12 of @main: 12 operations. -/
def wPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg4 main_v4 ((fun l r => Host.dotGeneral dot_S50000x77_S77x64_S50000x64_1_0_0_1_n_n none l r) : (⟨S50000x77, .f32⟩ : BufTy).Contents (Elt F) → (⟨S77x64, .f32⟩ : BufTy).Contents (Elt F) → (⟨S50000x64, .f32⟩ : BufTy).Contents (Elt F)),
    StableHlo.unary main_arg5 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)),
    StableHlo.binary main_arg2 main_arg6 main_v8 ((fun l r => Host.dotGeneral dot_S800000x1_S1x32_S800000x32_1_0_0_1_n_n none l r) : (⟨S800000x1, .f32⟩ : BufTy).Contents (Elt F) → (⟨S1x32, .f32⟩ : BufTy).Contents (Elt F) → (⟨S800000x32, .f32⟩ : BufTy).Contents (Elt F)),
    StableHlo.unary main_arg7 main_v9 (broadcastInDim S1x32 ![1] bcast_S32_S1x32_1 : (⟨S32, .f32⟩ : BufTy).Contents (Elt F) → (⟨S1x32, .f32⟩ : BufTy).Contents (Elt F)),
    StableHlo.unary main_v9 main_v10 (broadcastInDim S800000x32 ![0, 1] bcast_S1x32_S800000x32_0_1 : (⟨S1x32, .f32⟩ : BufTy).Contents (Elt F) → (⟨S800000x32, .f32⟩ : BufTy).Contents (Elt F)),
    StableHlo.binary main_v8 main_v10 main_v11 (addf : (⟨S800000x32, .f32⟩ : BufTy).Contents (Elt F) → (⟨S800000x32, .f32⟩ : BufTy).Contents (Elt F) → (⟨S800000x32, .f32⟩ : BufTy).Contents (Elt F)) ]
/-- The references window `wPre` writes. -/
abbrev wPre_W : List (Ref sig .tc) := [main_v0, main_v1, main_v2, main_v3, main_v4, main_v5, main_v6, main_v7, main_v8, main_v9, main_v10, main_v11]
/-- Each operation of the window touches TensorCore references only. -/
theorem wPre_sub : (wPre (F := F)).Forall fun op => op.bufs ⊆ tcRefs τ sig := by
  unfold wPre
  exact ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub ..⟩

/-- Statements 13 … 28 of @main: 16 operations. -/
def wL0A : List (HloOp τ sig (Elt F)) :=
  [ StableHlo.unary main_arg10 main_v12 ((extractStridedSlice S1x32x64 ![0, 0, 0] · slices_S3x32x64_S1x32x64_0_0_0) : (⟨S3x32x64, .f32⟩ : BufTy).Contents (Elt F) → (⟨S1x32x64, .f32⟩ : BufTy).Contents (Elt F)),
    StableHlo.reshape main_v12 main_v13 rfl shapeCasts_S1x32x64_S32x64,
    StableHlo.binary main_v11 main_v13 main_v14 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    StableHlo.unary main_arg11 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.unary main_v16 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S800000x64 ![0, 1] bcast_S1x64_S800000x64_0_1 : (⟨S1x64, .f32⟩ : BufTy).Contents (Elt F) → (⟨S800000x64, .f32⟩ : BufTy).Contents (Elt F)),
    StableHlo.binary main_v14 main_v18 main_v19 (addf : (⟨S800000x64, .f32⟩ : BufTy).Contents (Elt F) → (⟨S800000x64, .f32⟩ : BufTy).Contents (Elt F) → (⟨S800000x64, .f32⟩ : BufTy).Contents (Elt F)),
    StableHlo.nullary main_c (constantI S_ 32 0#32),
    StableHlo.unary main_c main_v20 (broadcastInDim S800000 ![] bcast_S_S800000 : (⟨S_, .i32⟩ : BufTy).Contents (Elt F) → (⟨S800000, .i32⟩ : BufTy).Contents (Elt F)),
    StableHlo.binary main_v1 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v22 (broadcastInDim S800000 ![] bcast_S_S800000 : (⟨S_, .i32⟩ : BufTy).Contents (Elt F) → (⟨S800000, .i32⟩ : BufTy).Contents (Elt F)),
    StableHlo.binary main_v1 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v24 main_v25 (broadcastInDim S800000x1 ![0] bcast_S800000_S800000x1_0 : (⟨S800000, .i32⟩ : BufTy).Contents (Elt F) → (⟨S800000x1, .i32⟩ : BufTy).Contents (Elt F)) ]
/-- The references window `wL0A` writes. -/
abbrev wL0A_W : List (Ref sig .tc) := [main_v12, main_v13, main_v14, main_v15, main_v16, main_v17, main_v18, main_v19, main_c, main_v20, main_v21, main_c_0, main_v22, main_v23, main_v24, main_v25]
/-- Each operation of the window touches TensorCore references only. -/
theorem wL0A_sub : (wL0A (F := F)).Forall fun op => op.bufs ⊆ tcRefs τ sig := by
  unfold wL0A
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- Statements 29 … 44 of @main: 16 operations. -/
def wL0B : List (HloOp τ sig (Elt F)) :=
  [ StableHlo.binary main_v7 main_v25 main_v26 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v26 main_v19 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg12 main_v28 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v28 main_v29 rfl shapeCasts_S1x128x64_S128x64,
    StableHlo.binary main_v27 main_v29 main_v30 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg13 main_v31 ((extractStridedSlice S1x64 ![0, 0] · slices_S3x64_S1x64_0_0) : (⟨S3x64, .f32⟩ : BufTy).Contents (Elt F) → (⟨S1x64, .f32⟩ : BufTy).Contents (Elt F)),
    StableHlo.reshape main_v31 main_v32 rfl shapeCasts_S1x64_S64,
    StableHlo.unary main_v32 main_v33 (broadcastInDim S1x64 ![1] bcast_S64_S1x64_1 : (⟨S64, .f32⟩ : BufTy).Contents (Elt F) → (⟨S1x64, .f32⟩ : BufTy).Contents (Elt F)),
    StableHlo.unary main_v33 main_v34 (broadcastInDim S800000x64 ![0, 1] bcast_S1x64_S800000x64_0_1 : (⟨S1x64, .f32⟩ : BufTy).Contents (Elt F) → (⟨S800000x64, .f32⟩ : BufTy).Contents (Elt F)),
    StableHlo.binary main_v30 main_v34 main_v35 (addf : (⟨S800000x64, .f32⟩ : BufTy).Contents (Elt F) → (⟨S800000x64, .f32⟩ : BufTy).Contents (Elt F) → (⟨S800000x64, .f32⟩ : BufTy).Contents (Elt F)),
    StableHlo.unary main_v35 main_v36 (Host.negf : (⟨S800000x64, .f32⟩ : BufTy).Contents (Elt F) → (⟨S800000x64, .f32⟩ : BufTy).Contents (Elt F)),
    StableHlo.unary main_v36 main_v37 (Host.exp : (⟨S800000x64, .f32⟩ : BufTy).Contents (Elt F) → (⟨S800000x64, .f32⟩ : BufTy).Contents (Elt F)),
    StableHlo.nullary main_cst (constant S_ .f32 0x3F800000#32),
    StableHlo.unary main_cst main_v38 (broadcastInDim S800000x64 ![] bcast_S_S800000x64 : (⟨S_, .f32⟩ : BufTy).Contents (Elt F) → (⟨S800000x64, .f32⟩ : BufTy).Contents (Elt F)),
    StableHlo.binary main_v38 main_v37 main_v39 (addf : (⟨S800000x64, .f32⟩ : BufTy).Contents (Elt F) → (⟨S800000x64, .f32⟩ : BufTy).Contents (Elt F) → (⟨S800000x64, .f32⟩ : BufTy).Contents (Elt F)),
    StableHlo.nullary main_cst_1 (constant S_ .f32 0x3F800000#32) ]
/-- The references window `wL0B` writes. -/
abbrev wL0B_W : List (Ref sig .tc) := [main_v26, main_v27, main_v28, main_v29, main_v30, main_v31, main_v32, main_v33, main_v34, main_v35, main_v36, main_v37, main_cst, main_v38, main_v39, main_cst_1]
/-- Each operation of the window touches TensorCore references only. -/
theorem wL0B_sub : (wL0B (F := F)).Forall fun op => op.bufs ⊆ tcRefs τ sig := by
  unfold wL0B
  exact ⟨binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub ..⟩

/-- Statements 45 … 60 of @main: 16 operations. -/
def wL0C : List (HloOp τ sig (Elt F)) :=
  [ StableHlo.unary main_cst_1 main_v40 (broadcastInDim S800000x64 ![] bcast_S_S800000x64 : (⟨S_, .f32⟩ : BufTy).Contents (Elt F) → (⟨S800000x64, .f32⟩ : BufTy).Contents (Elt F)),
    StableHlo.binary main_v40 main_v39 main_v41 (Host.divf : (⟨S800000x64, .f32⟩ : BufTy).Contents (Elt F) → (⟨S800000x64, .f32⟩ : BufTy).Contents (Elt F) → (⟨S800000x64, .f32⟩ : BufTy).Contents (Elt F)),
    StableHlo.binary main_v41 main_v26 main_v42 (mulf : (⟨S800000x64, .f32⟩ : BufTy).Contents (Elt F) → (⟨S800000x64, .f32⟩ : BufTy).Contents (Elt F) → (⟨S800000x64, .f32⟩ : BufTy).Contents (Elt F)),
    StableHlo.nullary main_cst_2 (constant S_ .f32 0x00000000#32),
    StableHlo.unary main_cst_2 main_v43 (broadcastInDim S50000x64 ![] bcast_S_S50000x64 : (⟨S_, .f32⟩ : BufTy).Contents (Elt F) → (⟨S50000x64, .f32⟩ : BufTy).Contents (Elt F)),
    StableHlo.unary main_v3 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg8 main_v46 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v46 main_v47 rfl shapeCasts_S1x64x64_S64x64,
    StableHlo.binary main_v7 main_v47 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v49 ((extractStridedSlice S1x64 ![0, 0] · slices_S3x64_S1x64_0_0) : (⟨S3x64, .f32⟩ : BufTy).Contents (Elt F) → (⟨S1x64, .f32⟩ : BufTy).Contents (Elt F)),
    StableHlo.reshape main_v49 main_v50 rfl shapeCasts_S1x64_S64,
    StableHlo.unary main_v50 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v48 main_v52 main_v53 (addf : (⟨S50000x64, .f32⟩ : BufTy).Contents (Elt F) → (⟨S50000x64, .f32⟩ : BufTy).Contents (Elt F) → (⟨S50000x64, .f32⟩ : BufTy).Contents (Elt F)),
    StableHlo.binary main_v53 main_v45 main_v54 (addf : (⟨S50000x64, .f32⟩ : BufTy).Contents (Elt F) → (⟨S50000x64, .f32⟩ : BufTy).Contents (Elt F) → (⟨S50000x64, .f32⟩ : BufTy).Contents (Elt F)) ]
/-- The references window `wL0C` writes. -/
abbrev wL0C_W : List (Ref sig .tc) := [main_v40, main_v41, main_v42, main_cst_2, main_v43, main_v44, main_v45, main_v46, main_v47, main_v48, main_v49, main_v50, main_v51, main_v52, main_v53, main_v54]
/-- Each operation of the window touches TensorCore references only. -/
theorem wL0C_sub : (wL0C (F := F)).Forall fun op => op.bufs ⊆ tcRefs τ sig := by
  unfold wL0C
  exact ⟨unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., binary_bufs_sub ..⟩

/-- Statements 61 … 69 of @main: 9 operations. -/
def wL0D : List (HloOp τ sig (Elt F)) :=
  [ StableHlo.unary main_arg14 main_v55 ((extractStridedSlice S1x64 ![0, 0] · slices_S3x64_S1x64_0_0) : (⟨S3x64, .f32⟩ : BufTy).Contents (Elt F) → (⟨S1x64, .f32⟩ : BufTy).Contents (Elt F)),
    StableHlo.reshape main_v55 main_v56 rfl shapeCasts_S1x64_S64,
    StableHlo.unary main_arg15 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.nullary main_cst_3 (constant S_ .f32 0x00000000#32),
    StableHlo.binary main_v54 main_cst_3 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_4 (constant S_ .f32 0x47435000#32),
    StableHlo.unary main_cst_4 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)) ]
/-- The references window `wL0D` writes. -/
abbrev wL0D_W : List (Ref sig .tc) := [main_v55, main_v56, main_v57, main_v58, main_cst_3, main_v59, main_cst_4, main_v60, main_v61]
/-- Each operation of the window touches TensorCore references only. -/
theorem wL0D_sub : (wL0D (F := F)).Forall fun op => op.bufs ⊆ tcRefs τ sig := by
  unfold wL0D
  exact ⟨unary_bufs_sub .., reshape_bufs_sub .., unary_bufs_sub .., reshape_bufs_sub .., nullary_bufs_sub .., binary_bufs_sub .., nullary_bufs_sub .., unary_bufs_sub .., binary_bufs_sub ..⟩

/-- Statements 70 … 71 of @main: 23 operations. -/
def wL0E : List (HloOp τ sig (Elt F)) :=
  [ StableHlo.nullary main_c_5 (constantI S_ 32 0#32),
    StableHlo.TRef.nullary main_call0.cst (constant S_ .f32 0x00000000#32),
    StableHlo.TRef.binary (StableHlo.TRef.of main_v54 : StableHlo.TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (StableHlo.TRef.of main_v54 : StableHlo.TRef sig ⟨S50000x64, .f32⟩) main_call0.v4 main_call0.v5 subf,
    StableHlo.TRef.binary main_call0.v5 main_call0.v5 main_call0.v6 mulf,
    StableHlo.TRef.unary (StableHlo.TRef.of main_c_5 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]
/-- The references window `wL0E` writes. -/
abbrev wL0E_W : List (Ref sig .tc) := [main_c_5, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
/-- Each operation of the window touches TensorCore references only. -/
theorem wL0E_sub : (wL0E (F := F)).Forall fun op => op.bufs ⊆ tcRefs τ sig := by
  unfold wL0E
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 72 … 88 of @main: 19 operations. -/
def wL0F : List (HloOp τ sig (Elt F)) :=
  [ StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v54 main_v64 main_v65 (subf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x3727C5AC#32),
    StableHlo.unary main_cst_6 main_v66 (broadcastInDim S64 ![] bcast_S_S64 : (⟨S_, .f32⟩ : BufTy).Contents (Elt F) → (⟨S64, .f32⟩ : BufTy).Contents (Elt F)),
    StableHlo.binary main_v62 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v70 main_v71 (mulf : (⟨S50000x64, .f32⟩ : BufTy).Contents (Elt F) → (⟨S50000x64, .f32⟩ : BufTy).Contents (Elt F) → (⟨S50000x64, .f32⟩ : BufTy).Contents (Elt F)),
    StableHlo.unary main_v56 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v73 main_v74 (mulf : (⟨S50000x64, .f32⟩ : BufTy).Contents (Elt F) → (⟨S50000x64, .f32⟩ : BufTy).Contents (Elt F) → (⟨S50000x64, .f32⟩ : BufTy).Contents (Elt F)),
    StableHlo.unary main_v58 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S50000x64 ![0, 1] bcast_S1x64_S50000x64_0_1 : (⟨S1x64, .f32⟩ : BufTy).Contents (Elt F) → (⟨S50000x64, .f32⟩ : BufTy).Contents (Elt F)),
    StableHlo.binary main_v74 main_v76 main_v77 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (StableHlo.TRef.of main_v77 : StableHlo.TRef sig ⟨S50000x64, .f32⟩) main_call1.v0 main_call1.v1 maximumf ]
/-- The references window `wL0F` writes. -/
abbrev wL0F_W : List (Ref sig .tc) := [main_v63, main_v64, main_v65, main_cst_6, main_v66, main_v67, main_v68, main_v69, main_v70, main_v71, main_v72, main_v73, main_v74, main_v75, main_v76, main_v77, main_call1.cst.ref, main_call1.v0.ref, main_call1.v1.ref]
/-- Each operation of the window touches TensorCore references only. -/
theorem wL0F_sub : (wL0F (F := F)).Forall fun op => op.bufs ⊆ tcRefs τ sig := by
  unfold wL0F
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Statements 89 … 104 of @main: 16 operations. -/
def wL1A : List (HloOp τ sig (Elt F)) :=
  [ StableHlo.unary main_arg10 main_v79 ((extractStridedSlice S1x32x64 ![1, 0, 0] · slices_S3x32x64_S1x32x64_1_0_0) : (⟨S3x32x64, .f32⟩ : BufTy).Contents (Elt F) → (⟨S1x32x64, .f32⟩ : BufTy).Contents (Elt F)),
    StableHlo.reshape main_v79 main_v80 rfl shapeCasts_S1x32x64_S32x64,
    StableHlo.binary main_v11 main_v80 main_v81 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    StableHlo.unary main_arg11 main_v82 ((extractStridedSlice S1x64 ![1, 0] · slices_S3x64_S1x64_1_0) : (⟨S3x64, .f32⟩ : BufTy).Contents (Elt F) → (⟨S1x64, .f32⟩ : BufTy).Contents (Elt F)),
    StableHlo.reshape main_v82 main_v83 rfl shapeCasts_S1x64_S64,
    StableHlo.unary main_v83 main_v84 (broadcastInDim S1x64 ![1] bcast_S64_S1x64_1 : (⟨S64, .f32⟩ : BufTy).Contents (Elt F) → (⟨S1x64, .f32⟩ : BufTy).Contents (Elt F)),
    StableHlo.unary main_v84 main_v85 (broadcastInDim S800000x64 ![0, 1] bcast_S1x64_S800000x64_0_1 : (⟨S1x64, .f32⟩ : BufTy).Contents (Elt F) → (⟨S800000x64, .f32⟩ : BufTy).Contents (Elt F)),
    StableHlo.binary main_v81 main_v85 main_v86 (addf : (⟨S800000x64, .f32⟩ : BufTy).Contents (Elt F) → (⟨S800000x64, .f32⟩ : BufTy).Contents (Elt F) → (⟨S800000x64, .f32⟩ : BufTy).Contents (Elt F)),
    StableHlo.nullary main_c_7 (constantI S_ 32 0#32),
    StableHlo.unary main_c_7 main_v87 (broadcastInDim S800000 ![] bcast_S_S800000 : (⟨S_, .i32⟩ : BufTy).Contents (Elt F) → (⟨S800000, .i32⟩ : BufTy).Contents (Elt F)),
    StableHlo.binary main_v1 main_v87 main_v88 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v89 (broadcastInDim S800000 ![] bcast_S_S800000 : (⟨S_, .i32⟩ : BufTy).Contents (Elt F) → (⟨S800000, .i32⟩ : BufTy).Contents (Elt F)),
    StableHlo.binary main_v1 main_v89 main_v90 (addi : (⟨S800000, .i32⟩ : BufTy).Contents (Elt F) → (⟨S800000, .i32⟩ : BufTy).Contents (Elt F) → (⟨S800000, .i32⟩ : BufTy).Contents (Elt F)),
    StableHlo.ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v91 main_v92 (broadcastInDim S800000x1 ![0] bcast_S800000_S800000x1_0 : (⟨S800000, .i32⟩ : BufTy).Contents (Elt F) → (⟨S800000x1, .i32⟩ : BufTy).Contents (Elt F)) ]
/-- The references window `wL1A` writes. -/
abbrev wL1A_W : List (Ref sig .tc) := [main_v79, main_v80, main_v81, main_v82, main_v83, main_v84, main_v85, main_v86, main_c_7, main_v87, main_v88, main_c_8, main_v89, main_v90, main_v91, main_v92]
/-- Each operation of the window touches TensorCore references only. -/
theorem wL1A_sub : (wL1A (F := F)).Forall fun op => op.bufs ⊆ tcRefs τ sig := by
  unfold wL1A
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- Statements 105 … 120 of @main: 16 operations. -/
def wL1B : List (HloOp τ sig (Elt F)) :=
  [ StableHlo.binary main_v78 main_v92 main_v93 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v93 main_v86 main_v94 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg12 main_v95 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v95 main_v96 rfl shapeCasts_S1x128x64_S128x64,
    StableHlo.binary main_v94 main_v96 main_v97 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg13 main_v98 ((extractStridedSlice S1x64 ![1, 0] · slices_S3x64_S1x64_1_0) : (⟨S3x64, .f32⟩ : BufTy).Contents (Elt F) → (⟨S1x64, .f32⟩ : BufTy).Contents (Elt F)),
    StableHlo.reshape main_v98 main_v99 rfl shapeCasts_S1x64_S64,
    StableHlo.unary main_v99 main_v100 (broadcastInDim S1x64 ![1] bcast_S64_S1x64_1 : (⟨S64, .f32⟩ : BufTy).Contents (Elt F) → (⟨S1x64, .f32⟩ : BufTy).Contents (Elt F)),
    StableHlo.unary main_v100 main_v101 (broadcastInDim S800000x64 ![0, 1] bcast_S1x64_S800000x64_0_1 : (⟨S1x64, .f32⟩ : BufTy).Contents (Elt F) → (⟨S800000x64, .f32⟩ : BufTy).Contents (Elt F)),
    StableHlo.binary main_v97 main_v101 main_v102 (addf : (⟨S800000x64, .f32⟩ : BufTy).Contents (Elt F) → (⟨S800000x64, .f32⟩ : BufTy).Contents (Elt F) → (⟨S800000x64, .f32⟩ : BufTy).Contents (Elt F)),
    StableHlo.unary main_v102 main_v103 (Host.negf : (⟨S800000x64, .f32⟩ : BufTy).Contents (Elt F) → (⟨S800000x64, .f32⟩ : BufTy).Contents (Elt F)),
    StableHlo.unary main_v103 main_v104 (Host.exp : (⟨S800000x64, .f32⟩ : BufTy).Contents (Elt F) → (⟨S800000x64, .f32⟩ : BufTy).Contents (Elt F)),
    StableHlo.nullary main_cst_9 (constant S_ .f32 0x3F800000#32),
    StableHlo.unary main_cst_9 main_v105 (broadcastInDim S800000x64 ![] bcast_S_S800000x64 : (⟨S_, .f32⟩ : BufTy).Contents (Elt F) → (⟨S800000x64, .f32⟩ : BufTy).Contents (Elt F)),
    StableHlo.binary main_v105 main_v104 main_v106 (addf : (⟨S800000x64, .f32⟩ : BufTy).Contents (Elt F) → (⟨S800000x64, .f32⟩ : BufTy).Contents (Elt F) → (⟨S800000x64, .f32⟩ : BufTy).Contents (Elt F)),
    StableHlo.nullary main_cst_10 (constant S_ .f32 0x3F800000#32) ]
/-- The references window `wL1B` writes. -/
abbrev wL1B_W : List (Ref sig .tc) := [main_v93, main_v94, main_v95, main_v96, main_v97, main_v98, main_v99, main_v100, main_v101, main_v102, main_v103, main_v104, main_cst_9, main_v105, main_v106, main_cst_10]
/-- Each operation of the window touches TensorCore references only. -/
theorem wL1B_sub : (wL1B (F := F)).Forall fun op => op.bufs ⊆ tcRefs τ sig := by
  unfold wL1B
  exact ⟨binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub ..⟩

/-- Statements 121 … 136 of @main: 16 operations. -/
def wL1C : List (HloOp τ sig (Elt F)) :=
  [ StableHlo.unary main_cst_10 main_v107 (broadcastInDim S800000x64 ![] bcast_S_S800000x64 : (⟨S_, .f32⟩ : BufTy).Contents (Elt F) → (⟨S800000x64, .f32⟩ : BufTy).Contents (Elt F)),
    StableHlo.binary main_v107 main_v106 main_v108 (Host.divf : (⟨S800000x64, .f32⟩ : BufTy).Contents (Elt F) → (⟨S800000x64, .f32⟩ : BufTy).Contents (Elt F) → (⟨S800000x64, .f32⟩ : BufTy).Contents (Elt F)),
    StableHlo.binary main_v108 main_v93 main_v109 (mulf : (⟨S800000x64, .f32⟩ : BufTy).Contents (Elt F) → (⟨S800000x64, .f32⟩ : BufTy).Contents (Elt F) → (⟨S800000x64, .f32⟩ : BufTy).Contents (Elt F)),
    StableHlo.nullary main_cst_11 (constant S_ .f32 0x00000000#32),
    StableHlo.unary main_cst_11 main_v110 (broadcastInDim S50000x64 ![] bcast_S_S50000x64 : (⟨S_, .f32⟩ : BufTy).Contents (Elt F) → (⟨S50000x64, .f32⟩ : BufTy).Contents (Elt F)),
    StableHlo.unary main_v3 main_v111 (broadcastInDim S800000x1 ![0] bcast_S800000_S800000x1_0 : (⟨S800000, .i32⟩ : BufTy).Contents (Elt F) → (⟨S800000x1, .i32⟩ : BufTy).Contents (Elt F)),
    StableHlo.ternary main_v110 main_v111 main_v109 main_v112 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg8 main_v113 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v113 main_v114 rfl shapeCasts_S1x64x64_S64x64,
    StableHlo.binary main_v78 main_v114 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v116 ((extractStridedSlice S1x64 ![1, 0] · slices_S3x64_S1x64_1_0) : (⟨S3x64, .f32⟩ : BufTy).Contents (Elt F) → (⟨S1x64, .f32⟩ : BufTy).Contents (Elt F)),
    StableHlo.reshape main_v116 main_v117 rfl shapeCasts_S1x64_S64,
    StableHlo.unary main_v117 main_v118 (broadcastInDim S1x64 ![1] bcast_S64_S1x64_1 : (⟨S64, .f32⟩ : BufTy).Contents (Elt F) → (⟨S1x64, .f32⟩ : BufTy).Contents (Elt F)),
    StableHlo.unary main_v118 main_v119 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v119 main_v120 (addf : (⟨S50000x64, .f32⟩ : BufTy).Contents (Elt F) → (⟨S50000x64, .f32⟩ : BufTy).Contents (Elt F) → (⟨S50000x64, .f32⟩ : BufTy).Contents (Elt F)),
    StableHlo.binary main_v120 main_v112 main_v121 (addf : (⟨S50000x64, .f32⟩ : BufTy).Contents (Elt F) → (⟨S50000x64, .f32⟩ : BufTy).Contents (Elt F) → (⟨S50000x64, .f32⟩ : BufTy).Contents (Elt F)) ]
/-- The references window `wL1C` writes. -/
abbrev wL1C_W : List (Ref sig .tc) := [main_v107, main_v108, main_v109, main_cst_11, main_v110, main_v111, main_v112, main_v113, main_v114, main_v115, main_v116, main_v117, main_v118, main_v119, main_v120, main_v121]
/-- Each operation of the window touches TensorCore references only. -/
theorem wL1C_sub : (wL1C (F := F)).Forall fun op => op.bufs ⊆ tcRefs τ sig := by
  unfold wL1C
  exact ⟨unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., binary_bufs_sub ..⟩

/-- Statements 137 … 145 of @main: 9 operations. -/
def wL1D : List (HloOp τ sig (Elt F)) :=
  [ StableHlo.unary main_arg14 main_v122 ((extractStridedSlice S1x64 ![1, 0] · slices_S3x64_S1x64_1_0) : (⟨S3x64, .f32⟩ : BufTy).Contents (Elt F) → (⟨S1x64, .f32⟩ : BufTy).Contents (Elt F)),
    StableHlo.reshape main_v122 main_v123 rfl shapeCasts_S1x64_S64,
    StableHlo.unary main_arg15 main_v124 ((extractStridedSlice S1x64 ![1, 0] · slices_S3x64_S1x64_1_0) : (⟨S3x64, .f32⟩ : BufTy).Contents (Elt F) → (⟨S1x64, .f32⟩ : BufTy).Contents (Elt F)),
    StableHlo.reshape main_v124 main_v125 rfl shapeCasts_S1x64_S64,
    StableHlo.nullary main_cst_12 (constant S_ .f32 0x00000000#32),
    StableHlo.binary main_v121 main_cst_12 main_v126 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v127 (broadcastInDim S64 ![] bcast_S_S64 : (⟨S_, .f32⟩ : BufTy).Contents (Elt F) → (⟨S64, .f32⟩ : BufTy).Contents (Elt F)),
    StableHlo.binary main_v126 main_v127 main_v128 (Host.divf : (⟨S64, .f32⟩ : BufTy).Contents (Elt F) → (⟨S64, .f32⟩ : BufTy).Contents (Elt F) → (⟨S64, .f32⟩ : BufTy).Contents (Elt F)) ]
/-- The references window `wL1D` writes. -/
abbrev wL1D_W : List (Ref sig .tc) := [main_v122, main_v123, main_v124, main_v125, main_cst_12, main_v126, main_cst_13, main_v127, main_v128]
/-- Each operation of the window touches TensorCore references only. -/
theorem wL1D_sub : (wL1D (F := F)).Forall fun op => op.bufs ⊆ tcRefs τ sig := by
  unfold wL1D
  exact ⟨unary_bufs_sub .., reshape_bufs_sub .., unary_bufs_sub .., reshape_bufs_sub .., nullary_bufs_sub .., binary_bufs_sub .., nullary_bufs_sub .., unary_bufs_sub .., binary_bufs_sub ..⟩

/-- Statements 146 … 147 of @main: 23 operations. -/
def wL1E : List (HloOp τ sig (Elt F)) :=
  [ StableHlo.nullary main_c_14 (constantI S_ 32 0#32),
    StableHlo.TRef.nullary main_call2.cst (constant S_ .f32 0x00000000#32),
    StableHlo.TRef.binary (StableHlo.TRef.of main_v121 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (StableHlo.TRef.of main_v121 : StableHlo.TRef sig ⟨S50000x64, .f32⟩) main_call2.v4 main_call2.v5 subf,
    StableHlo.TRef.binary main_call2.v5 main_call2.v5 main_call2.v6 mulf,
    StableHlo.TRef.unary (StableHlo.TRef.of main_c_14 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
/-- The references window `wL1E` writes. -/
abbrev wL1E_W : List (Ref sig .tc) := [main_c_14, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
/-- Each operation of the window touches TensorCore references only. -/
theorem wL1E_sub : (wL1E (F := F)).Forall fun op => op.bufs ⊆ tcRefs τ sig := by
  unfold wL1E
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 148 … 164 of @main: 19 operations. -/
def wL1F : List (HloOp τ sig (Elt F)) :=
  [ StableHlo.unary main_v128 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S50000x64 ![0, 1] bcast_S1x64_S50000x64_0_1 : (⟨S1x64, .f32⟩ : BufTy).Contents (Elt F) → (⟨S50000x64, .f32⟩ : BufTy).Contents (Elt F)),
    StableHlo.binary main_v121 main_v131 main_v132 (subf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x3727C5AC#32),
    StableHlo.unary main_cst_15 main_v133 (broadcastInDim S64 ![] bcast_S_S64 : (⟨S_, .f32⟩ : BufTy).Contents (Elt F) → (⟨S64, .f32⟩ : BufTy).Contents (Elt F)),
    StableHlo.binary main_v129 main_v133 main_v134 (addf : (⟨S64, .f32⟩ : BufTy).Contents (Elt F) → (⟨S64, .f32⟩ : BufTy).Contents (Elt F) → (⟨S64, .f32⟩ : BufTy).Contents (Elt F)),
    StableHlo.unary main_v134 main_v135 (Host.rsqrt : (⟨S64, .f32⟩ : BufTy).Contents (Elt F) → (⟨S64, .f32⟩ : BufTy).Contents (Elt F)),
    StableHlo.unary main_v135 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S50000x64 ![0, 1] bcast_S1x64_S50000x64_0_1 : (⟨S1x64, .f32⟩ : BufTy).Contents (Elt F) → (⟨S50000x64, .f32⟩ : BufTy).Contents (Elt F)),
    StableHlo.binary main_v132 main_v137 main_v138 (mulf : (⟨S50000x64, .f32⟩ : BufTy).Contents (Elt F) → (⟨S50000x64, .f32⟩ : BufTy).Contents (Elt F) → (⟨S50000x64, .f32⟩ : BufTy).Contents (Elt F)),
    StableHlo.unary main_v123 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S50000x64 ![0, 1] bcast_S1x64_S50000x64_0_1 : (⟨S1x64, .f32⟩ : BufTy).Contents (Elt F) → (⟨S50000x64, .f32⟩ : BufTy).Contents (Elt F)),
    StableHlo.binary main_v138 main_v140 main_v141 (mulf : (⟨S50000x64, .f32⟩ : BufTy).Contents (Elt F) → (⟨S50000x64, .f32⟩ : BufTy).Contents (Elt F) → (⟨S50000x64, .f32⟩ : BufTy).Contents (Elt F)),
    StableHlo.unary main_v125 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v143 main_v144 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (StableHlo.TRef.of main_v144 : StableHlo.TRef sig ⟨S50000x64, .f32⟩) main_call3.v0 main_call3.v1 maximumf ]
/-- The references window `wL1F` writes. -/
abbrev wL1F_W : List (Ref sig .tc) := [main_v130, main_v131, main_v132, main_cst_15, main_v133, main_v134, main_v135, main_v136, main_v137, main_v138, main_v139, main_v140, main_v141, main_v142, main_v143, main_v144, main_call3.cst.ref, main_call3.v0.ref, main_call3.v1.ref]
/-- Each operation of the window touches TensorCore references only. -/
theorem wL1F_sub : (wL1F (F := F)).Forall fun op => op.bufs ⊆ tcRefs τ sig := by
  unfold wL1F
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Statements 165 … 180 of @main: 16 operations. -/
def wL2A : List (HloOp τ sig (Elt F)) :=
  [ StableHlo.unary main_arg10 main_v146 ((extractStridedSlice S1x32x64 ![2, 0, 0] · slices_S3x32x64_S1x32x64_2_0_0) : (⟨S3x32x64, .f32⟩ : BufTy).Contents (Elt F) → (⟨S1x32x64, .f32⟩ : BufTy).Contents (Elt F)),
    StableHlo.reshape main_v146 main_v147 rfl shapeCasts_S1x32x64_S32x64,
    StableHlo.binary main_v11 main_v147 main_v148 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    StableHlo.unary main_arg11 main_v149 ((extractStridedSlice S1x64 ![2, 0] · slices_S3x64_S1x64_2_0) : (⟨S3x64, .f32⟩ : BufTy).Contents (Elt F) → (⟨S1x64, .f32⟩ : BufTy).Contents (Elt F)),
    StableHlo.reshape main_v149 main_v150 rfl shapeCasts_S1x64_S64,
    StableHlo.unary main_v150 main_v151 (broadcastInDim S1x64 ![1] bcast_S64_S1x64_1 : (⟨S64, .f32⟩ : BufTy).Contents (Elt F) → (⟨S1x64, .f32⟩ : BufTy).Contents (Elt F)),
    StableHlo.unary main_v151 main_v152 (broadcastInDim S800000x64 ![0, 1] bcast_S1x64_S800000x64_0_1 : (⟨S1x64, .f32⟩ : BufTy).Contents (Elt F) → (⟨S800000x64, .f32⟩ : BufTy).Contents (Elt F)),
    StableHlo.binary main_v148 main_v152 main_v153 (addf : (⟨S800000x64, .f32⟩ : BufTy).Contents (Elt F) → (⟨S800000x64, .f32⟩ : BufTy).Contents (Elt F) → (⟨S800000x64, .f32⟩ : BufTy).Contents (Elt F)),
    StableHlo.nullary main_c_16 (constantI S_ 32 0#32),
    StableHlo.unary main_c_16 main_v154 (broadcastInDim S800000 ![] bcast_S_S800000 : (⟨S_, .i32⟩ : BufTy).Contents (Elt F) → (⟨S800000, .i32⟩ : BufTy).Contents (Elt F)),
    StableHlo.binary main_v1 main_v154 main_v155 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v156 (broadcastInDim S800000 ![] bcast_S_S800000 : (⟨S_, .i32⟩ : BufTy).Contents (Elt F) → (⟨S800000, .i32⟩ : BufTy).Contents (Elt F)),
    StableHlo.binary main_v1 main_v156 main_v157 (addi : (⟨S800000, .i32⟩ : BufTy).Contents (Elt F) → (⟨S800000, .i32⟩ : BufTy).Contents (Elt F) → (⟨S800000, .i32⟩ : BufTy).Contents (Elt F)),
    StableHlo.ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v158 main_v159 (broadcastInDim S800000x1 ![0] bcast_S800000_S800000x1_0 : (⟨S800000, .i32⟩ : BufTy).Contents (Elt F) → (⟨S800000x1, .i32⟩ : BufTy).Contents (Elt F)) ]
/-- The references window `wL2A` writes. -/
abbrev wL2A_W : List (Ref sig .tc) := [main_v146, main_v147, main_v148, main_v149, main_v150, main_v151, main_v152, main_v153, main_c_16, main_v154, main_v155, main_c_17, main_v156, main_v157, main_v158, main_v159]
/-- Each operation of the window touches TensorCore references only. -/
theorem wL2A_sub : (wL2A (F := F)).Forall fun op => op.bufs ⊆ tcRefs τ sig := by
  unfold wL2A
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

/-- Statements 181 … 196 of @main: 16 operations. -/
def wL2B : List (HloOp τ sig (Elt F)) :=
  [ StableHlo.binary main_v145 main_v159 main_v160 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v160 main_v153 main_v161 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.unary main_arg12 main_v162 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v162 main_v163 rfl shapeCasts_S1x128x64_S128x64,
    StableHlo.binary main_v161 main_v163 main_v164 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.unary main_arg13 main_v165 ((extractStridedSlice S1x64 ![2, 0] · slices_S3x64_S1x64_2_0) : (⟨S3x64, .f32⟩ : BufTy).Contents (Elt F) → (⟨S1x64, .f32⟩ : BufTy).Contents (Elt F)),
    StableHlo.reshape main_v165 main_v166 rfl shapeCasts_S1x64_S64,
    StableHlo.unary main_v166 main_v167 (broadcastInDim S1x64 ![1] bcast_S64_S1x64_1 : (⟨S64, .f32⟩ : BufTy).Contents (Elt F) → (⟨S1x64, .f32⟩ : BufTy).Contents (Elt F)),
    StableHlo.unary main_v167 main_v168 (broadcastInDim S800000x64 ![0, 1] bcast_S1x64_S800000x64_0_1 : (⟨S1x64, .f32⟩ : BufTy).Contents (Elt F) → (⟨S800000x64, .f32⟩ : BufTy).Contents (Elt F)),
    StableHlo.binary main_v164 main_v168 main_v169 (addf : (⟨S800000x64, .f32⟩ : BufTy).Contents (Elt F) → (⟨S800000x64, .f32⟩ : BufTy).Contents (Elt F) → (⟨S800000x64, .f32⟩ : BufTy).Contents (Elt F)),
    StableHlo.unary main_v169 main_v170 (Host.negf : (⟨S800000x64, .f32⟩ : BufTy).Contents (Elt F) → (⟨S800000x64, .f32⟩ : BufTy).Contents (Elt F)),
    StableHlo.unary main_v170 main_v171 (Host.exp : (⟨S800000x64, .f32⟩ : BufTy).Contents (Elt F) → (⟨S800000x64, .f32⟩ : BufTy).Contents (Elt F)),
    StableHlo.nullary main_cst_18 (constant S_ .f32 0x3F800000#32),
    StableHlo.unary main_cst_18 main_v172 (broadcastInDim S800000x64 ![] bcast_S_S800000x64 : (⟨S_, .f32⟩ : BufTy).Contents (Elt F) → (⟨S800000x64, .f32⟩ : BufTy).Contents (Elt F)),
    StableHlo.binary main_v172 main_v171 main_v173 (addf : (⟨S800000x64, .f32⟩ : BufTy).Contents (Elt F) → (⟨S800000x64, .f32⟩ : BufTy).Contents (Elt F) → (⟨S800000x64, .f32⟩ : BufTy).Contents (Elt F)),
    StableHlo.nullary main_cst_19 (constant S_ .f32 0x3F800000#32) ]
/-- The references window `wL2B` writes. -/
abbrev wL2B_W : List (Ref sig .tc) := [main_v160, main_v161, main_v162, main_v163, main_v164, main_v165, main_v166, main_v167, main_v168, main_v169, main_v170, main_v171, main_cst_18, main_v172, main_v173, main_cst_19]
/-- Each operation of the window touches TensorCore references only. -/
theorem wL2B_sub : (wL2B (F := F)).Forall fun op => op.bufs ⊆ tcRefs τ sig := by
  unfold wL2B
  exact ⟨binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub ..⟩

/-- Statements 197 … 212 of @main: 16 operations. -/
def wL2C : List (HloOp τ sig (Elt F)) :=
  [ StableHlo.unary main_cst_19 main_v174 (broadcastInDim S800000x64 ![] bcast_S_S800000x64 : (⟨S_, .f32⟩ : BufTy).Contents (Elt F) → (⟨S800000x64, .f32⟩ : BufTy).Contents (Elt F)),
    StableHlo.binary main_v174 main_v173 main_v175 (Host.divf : (⟨S800000x64, .f32⟩ : BufTy).Contents (Elt F) → (⟨S800000x64, .f32⟩ : BufTy).Contents (Elt F) → (⟨S800000x64, .f32⟩ : BufTy).Contents (Elt F)),
    StableHlo.binary main_v175 main_v160 main_v176 (mulf : (⟨S800000x64, .f32⟩ : BufTy).Contents (Elt F) → (⟨S800000x64, .f32⟩ : BufTy).Contents (Elt F) → (⟨S800000x64, .f32⟩ : BufTy).Contents (Elt F)),
    StableHlo.nullary main_cst_20 (constant S_ .f32 0x00000000#32),
    StableHlo.unary main_cst_20 main_v177 (broadcastInDim S50000x64 ![] bcast_S_S50000x64 : (⟨S_, .f32⟩ : BufTy).Contents (Elt F) → (⟨S50000x64, .f32⟩ : BufTy).Contents (Elt F)),
    StableHlo.unary main_v3 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_arg8 main_v180 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v180 main_v181 rfl shapeCasts_S1x64x64_S64x64,
    StableHlo.binary main_v145 main_v181 main_v182 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg9 main_v183 ((extractStridedSlice S1x64 ![2, 0] · slices_S3x64_S1x64_2_0) : (⟨S3x64, .f32⟩ : BufTy).Contents (Elt F) → (⟨S1x64, .f32⟩ : BufTy).Contents (Elt F)),
    StableHlo.reshape main_v183 main_v184 rfl shapeCasts_S1x64_S64,
    StableHlo.unary main_v184 main_v185 (broadcastInDim S1x64 ![1] bcast_S64_S1x64_1 : (⟨S64, .f32⟩ : BufTy).Contents (Elt F) → (⟨S1x64, .f32⟩ : BufTy).Contents (Elt F)),
    StableHlo.unary main_v185 main_v186 (broadcastInDim S50000x64 ![0, 1] bcast_S1x64_S50000x64_0_1 : (⟨S1x64, .f32⟩ : BufTy).Contents (Elt F) → (⟨S50000x64, .f32⟩ : BufTy).Contents (Elt F)),
    StableHlo.binary main_v182 main_v186 main_v187 (addf : (⟨S50000x64, .f32⟩ : BufTy).Contents (Elt F) → (⟨S50000x64, .f32⟩ : BufTy).Contents (Elt F) → (⟨S50000x64, .f32⟩ : BufTy).Contents (Elt F)),
    StableHlo.binary main_v187 main_v179 main_v188 (addf : (⟨S50000x64, .f32⟩ : BufTy).Contents (Elt F) → (⟨S50000x64, .f32⟩ : BufTy).Contents (Elt F) → (⟨S50000x64, .f32⟩ : BufTy).Contents (Elt F)) ]
/-- The references window `wL2C` writes. -/
abbrev wL2C_W : List (Ref sig .tc) := [main_v174, main_v175, main_v176, main_cst_20, main_v177, main_v178, main_v179, main_v180, main_v181, main_v182, main_v183, main_v184, main_v185, main_v186, main_v187, main_v188]
/-- Each operation of the window touches TensorCore references only. -/
theorem wL2C_sub : (wL2C (F := F)).Forall fun op => op.bufs ⊆ tcRefs τ sig := by
  unfold wL2C
  exact ⟨unary_bufs_sub .., binary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., binary_bufs_sub ..⟩

/-- Statements 213 … 221 of @main: 9 operations. -/
def wL2D : List (HloOp τ sig (Elt F)) :=
  [ StableHlo.unary main_arg14 main_v189 ((extractStridedSlice S1x64 ![2, 0] · slices_S3x64_S1x64_2_0) : (⟨S3x64, .f32⟩ : BufTy).Contents (Elt F) → (⟨S1x64, .f32⟩ : BufTy).Contents (Elt F)),
    StableHlo.reshape main_v189 main_v190 rfl shapeCasts_S1x64_S64,
    StableHlo.unary main_arg15 main_v191 ((extractStridedSlice S1x64 ![2, 0] · slices_S3x64_S1x64_2_0) : (⟨S3x64, .f32⟩ : BufTy).Contents (Elt F) → (⟨S1x64, .f32⟩ : BufTy).Contents (Elt F)),
    StableHlo.reshape main_v191 main_v192 rfl shapeCasts_S1x64_S64,
    StableHlo.nullary main_cst_21 (constant S_ .f32 0x00000000#32),
    StableHlo.binary main_v188 main_cst_21 main_v193 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_22 (constant S_ .f32 0x47435000#32),
    StableHlo.unary main_cst_22 main_v194 (broadcastInDim S64 ![] bcast_S_S64 : (⟨S_, .f32⟩ : BufTy).Contents (Elt F) → (⟨S64, .f32⟩ : BufTy).Contents (Elt F)),
    StableHlo.binary main_v193 main_v194 main_v195 (Host.divf : (⟨S64, .f32⟩ : BufTy).Contents (Elt F) → (⟨S64, .f32⟩ : BufTy).Contents (Elt F) → (⟨S64, .f32⟩ : BufTy).Contents (Elt F)) ]
/-- The references window `wL2D` writes. -/
abbrev wL2D_W : List (Ref sig .tc) := [main_v189, main_v190, main_v191, main_v192, main_cst_21, main_v193, main_cst_22, main_v194, main_v195]
/-- Each operation of the window touches TensorCore references only. -/
theorem wL2D_sub : (wL2D (F := F)).Forall fun op => op.bufs ⊆ tcRefs τ sig := by
  unfold wL2D
  exact ⟨unary_bufs_sub .., reshape_bufs_sub .., unary_bufs_sub .., reshape_bufs_sub .., nullary_bufs_sub .., binary_bufs_sub .., nullary_bufs_sub .., unary_bufs_sub .., binary_bufs_sub ..⟩

/-- Statements 222 … 223 of @main: 23 operations. -/
def wL2E : List (HloOp τ sig (Elt F)) :=
  [ StableHlo.nullary main_c_23 (constantI S_ 32 0#32),
    StableHlo.TRef.nullary main_call4.cst (constant S_ .f32 0x00000000#32),
    StableHlo.TRef.binary (StableHlo.TRef.of main_v188 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (StableHlo.TRef.of main_v188 : StableHlo.TRef sig ⟨S50000x64, .f32⟩) main_call4.v4 main_call4.v5 subf,
    StableHlo.TRef.binary main_call4.v5 main_call4.v5 main_call4.v6 mulf,
    StableHlo.TRef.unary (StableHlo.TRef.of main_c_23 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]
/-- The references window `wL2E` writes. -/
abbrev wL2E_W : List (Ref sig .tc) := [main_c_23, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]
/-- Each operation of the window touches TensorCore references only. -/
theorem wL2E_sub : (wL2E (F := F)).Forall fun op => op.bufs ⊆ tcRefs τ sig := by
  unfold wL2E
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 224 … 240 of @main: 19 operations. -/
def wL2F : List (HloOp τ sig (Elt F)) :=
  [ StableHlo.unary main_v195 main_v197 (broadcastInDim S1x64 ![1] bcast_S64_S1x64_1 : (⟨S64, .f32⟩ : BufTy).Contents (Elt F) → (⟨S1x64, .f32⟩ : BufTy).Contents (Elt F)),
    StableHlo.unary main_v197 main_v198 (broadcastInDim S50000x64 ![0, 1] bcast_S1x64_S50000x64_0_1 : (⟨S1x64, .f32⟩ : BufTy).Contents (Elt F) → (⟨S50000x64, .f32⟩ : BufTy).Contents (Elt F)),
    StableHlo.binary main_v188 main_v198 main_v199 (subf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x3727C5AC#32),
    StableHlo.unary main_cst_24 main_v200 (broadcastInDim S64 ![] bcast_S_S64 : (⟨S_, .f32⟩ : BufTy).Contents (Elt F) → (⟨S64, .f32⟩ : BufTy).Contents (Elt F)),
    StableHlo.binary main_v196 main_v200 main_v201 (addf : (⟨S64, .f32⟩ : BufTy).Contents (Elt F) → (⟨S64, .f32⟩ : BufTy).Contents (Elt F) → (⟨S64, .f32⟩ : BufTy).Contents (Elt F)),
    StableHlo.unary main_v201 main_v202 (Host.rsqrt : (⟨S64, .f32⟩ : BufTy).Contents (Elt F) → (⟨S64, .f32⟩ : BufTy).Contents (Elt F)),
    StableHlo.unary main_v202 main_v203 (broadcastInDim S1x64 ![1] bcast_S64_S1x64_1 : (⟨S64, .f32⟩ : BufTy).Contents (Elt F) → (⟨S1x64, .f32⟩ : BufTy).Contents (Elt F)),
    StableHlo.unary main_v203 main_v204 (broadcastInDim S50000x64 ![0, 1] bcast_S1x64_S50000x64_0_1 : (⟨S1x64, .f32⟩ : BufTy).Contents (Elt F) → (⟨S50000x64, .f32⟩ : BufTy).Contents (Elt F)),
    StableHlo.binary main_v199 main_v204 main_v205 (mulf : (⟨S50000x64, .f32⟩ : BufTy).Contents (Elt F) → (⟨S50000x64, .f32⟩ : BufTy).Contents (Elt F) → (⟨S50000x64, .f32⟩ : BufTy).Contents (Elt F)),
    StableHlo.unary main_v190 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S50000x64 ![0, 1] bcast_S1x64_S50000x64_0_1 : (⟨S1x64, .f32⟩ : BufTy).Contents (Elt F) → (⟨S50000x64, .f32⟩ : BufTy).Contents (Elt F)),
    StableHlo.binary main_v205 main_v207 main_v208 (mulf : (⟨S50000x64, .f32⟩ : BufTy).Contents (Elt F) → (⟨S50000x64, .f32⟩ : BufTy).Contents (Elt F) → (⟨S50000x64, .f32⟩ : BufTy).Contents (Elt F)),
    StableHlo.unary main_v192 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S50000x64 ![0, 1] bcast_S1x64_S50000x64_0_1 : (⟨S1x64, .f32⟩ : BufTy).Contents (Elt F) → (⟨S50000x64, .f32⟩ : BufTy).Contents (Elt F)),
    StableHlo.binary main_v208 main_v210 main_v211 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (StableHlo.TRef.of main_v211 : StableHlo.TRef sig ⟨S50000x64, .f32⟩) main_call5.v0 main_call5.v1 maximumf ]
/-- The references window `wL2F` writes. -/
abbrev wL2F_W : List (Ref sig .tc) := [main_v197, main_v198, main_v199, main_cst_24, main_v200, main_v201, main_v202, main_v203, main_v204, main_v205, main_v206, main_v207, main_v208, main_v209, main_v210, main_v211, main_call5.cst.ref, main_call5.v0.ref, main_call5.v1.ref]
/-- Each operation of the window touches TensorCore references only. -/
theorem wL2F_sub : (wL2F (F := F)).Forall fun op => op.bufs ⊆ tcRefs τ sig := by
  unfold wL2F
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Statements 241 … 256 of @main: 16 operations. -/
def wPA : List (HloOp τ sig (Elt F)) :=
  [ StableHlo.nullary main_cst_25 (constant S_ .f32 0x3F800000#32),
    StableHlo.unary main_cst_25 main_v213 (broadcastInDim S50000 ![] bcast_S_S50000 : (⟨S_, .f32⟩ : BufTy).Contents (Elt F) → (⟨S50000, .f32⟩ : BufTy).Contents (Elt F)),
    StableHlo.nullary main_cst_26 (constant S_ .f32 0x00000000#32),
    StableHlo.unary main_cst_26 main_v214 (broadcastInDim S128 ![] bcast_S_S128 : (⟨S_, .f32⟩ : BufTy).Contents (Elt F) → (⟨S128, .f32⟩ : BufTy).Contents (Elt F)),
    StableHlo.unary main_arg3 main_v215 (broadcastInDim S50000x1 ![0] bcast_S50000_S50000x1_0 : (⟨S50000, .i32⟩ : BufTy).Contents (Elt F) → (⟨S50000x1, .i32⟩ : BufTy).Contents (Elt F)),
    StableHlo.ternary main_v214 main_v215 main_v213 main_v216 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    StableHlo.nullary main_cst_27 (constant S_ .f32 0x00000000#32),
    StableHlo.unary main_cst_27 main_v217 (broadcastInDim S128x64 ![] bcast_S_S128x64 : (⟨S_, .f32⟩ : BufTy).Contents (Elt F) → (⟨S128x64, .f32⟩ : BufTy).Contents (Elt F)),
    StableHlo.unary main_arg3 main_v218 (broadcastInDim S50000x1 ![0] bcast_S50000_S50000x1_0 : (⟨S50000, .i32⟩ : BufTy).Contents (Elt F) → (⟨S50000x1, .i32⟩ : BufTy).Contents (Elt F)),
    StableHlo.ternary main_v217 main_v218 main_v212 main_v219 ((fun x i u => Host.scatterAdd scatter_S128x64_S50000x1_S50000x64_1_0_0_1 x i u) : (⟨S128x64, .f32⟩ : BufTy).Contents (Elt F) → (⟨S50000x1, .i32⟩ : BufTy).Contents (Elt F) → (⟨S50000x64, .f32⟩ : BufTy).Contents (Elt F) → (⟨S128x64, .f32⟩ : BufTy).Contents (Elt F)),
    StableHlo.nullary main_cst_28 (constant S_ .f32 0x3F800000#32),
    StableHlo.unary main_cst_28 main_v220 (broadcastInDim S128 ![] bcast_S_S128 : (⟨S_, .f32⟩ : BufTy).Contents (Elt F) → (⟨S128, .f32⟩ : BufTy).Contents (Elt F)),
    StableHlo.binary main_v216 main_v220 main_v221 (maximumf : (⟨S128, .f32⟩ : BufTy).Contents (Elt F) → (⟨S128, .f32⟩ : BufTy).Contents (Elt F) → (⟨S128, .f32⟩ : BufTy).Contents (Elt F)),
    StableHlo.unary main_v221 main_v222 (broadcastInDim S128x1 ![0] bcast_S128_S128x1_0 : (⟨S128, .f32⟩ : BufTy).Contents (Elt F) → (⟨S128x1, .f32⟩ : BufTy).Contents (Elt F)),
    StableHlo.unary main_v222 main_v223 (broadcastInDim S128x64 ![0, 1] bcast_S128x1_S128x64_0_1 : (⟨S128x1, .f32⟩ : BufTy).Contents (Elt F) → (⟨S128x64, .f32⟩ : BufTy).Contents (Elt F)),
    StableHlo.binary main_v219 main_v223 main_v224 (Host.divf : (⟨S128x64, .f32⟩ : BufTy).Contents (Elt F) → (⟨S128x64, .f32⟩ : BufTy).Contents (Elt F) → (⟨S128x64, .f32⟩ : BufTy).Contents (Elt F)) ]
/-- The references window `wPA` writes. -/
abbrev wPA_W : List (Ref sig .tc) := [main_cst_25, main_v213, main_cst_26, main_v214, main_v215, main_v216, main_cst_27, main_v217, main_v218, main_v219, main_cst_28, main_v220, main_v221, main_v222, main_v223, main_v224]
/-- Each operation of the window touches TensorCore references only. -/
theorem wPA_sub : (wPA (F := F)).Forall fun op => op.bufs ⊆ tcRefs τ sig := by
  unfold wPA
  exact ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- Statements 257 … 265 of @main: 9 operations. -/
def wPB : List (HloOp τ sig (Elt F)) :=
  [ StableHlo.binary main_v224 main_arg16 main_v225 ((fun l r => Host.dotGeneral dot_S128x64_S64x128_S128x128_1_0_0_1_n_n none l r) : (⟨S128x64, .f32⟩ : BufTy).Contents (Elt F) → (⟨S64x128, .f32⟩ : BufTy).Contents (Elt F) → (⟨S128x128, .f32⟩ : BufTy).Contents (Elt F)),
    StableHlo.unary main_arg17 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S128x128 ![0, 1] bcast_S1x128_S128x128_0_1 : (⟨S1x128, .f32⟩ : BufTy).Contents (Elt F) → (⟨S128x128, .f32⟩ : BufTy).Contents (Elt F)),
    StableHlo.binary main_v225 main_v227 main_v228 (addf : (⟨S128x128, .f32⟩ : BufTy).Contents (Elt F) → (⟨S128x128, .f32⟩ : BufTy).Contents (Elt F) → (⟨S128x128, .f32⟩ : BufTy).Contents (Elt F)),
    StableHlo.nullary main_cst_29 (constant S_ .f32 0x00000000#32),
    StableHlo.binary main_v228 main_cst_29 main_v229 ((fun x v => Host.reduceAdd x v reducesTo_S128x128_S128_d0 h_S_) : (⟨S128x128, .f32⟩ : BufTy).Contents (Elt F) → (⟨S_, .f32⟩ : BufTy).Contents (Elt F) → (⟨S128, .f32⟩ : BufTy).Contents (Elt F)),
    StableHlo.nullary main_cst_30 (constant S_ .f32 0x43000000#32),
    StableHlo.unary main_cst_30 main_v230 (broadcastInDim S128 ![] bcast_S_S128 : (⟨S_, .f32⟩ : BufTy).Contents (Elt F) → (⟨S128, .f32⟩ : BufTy).Contents (Elt F)),
    StableHlo.binary main_v229 main_v230 main_v231 (Host.divf : (⟨S128, .f32⟩ : BufTy).Contents (Elt F) → (⟨S128, .f32⟩ : BufTy).Contents (Elt F) → (⟨S128, .f32⟩ : BufTy).Contents (Elt F)) ]
/-- The references window `wPB` writes. -/
abbrev wPB_W : List (Ref sig .tc) := [main_v225, main_v226, main_v227, main_v228, main_cst_29, main_v229, main_cst_30, main_v230, main_v231]
/-- Each operation of the window touches TensorCore references only. -/
theorem wPB_sub : (wPB (F := F)).Forall fun op => op.bufs ⊆ tcRefs τ sig := by
  unfold wPB
  exact ⟨binary_bufs_sub .., unary_bufs_sub .., unary_bufs_sub .., binary_bufs_sub .., nullary_bufs_sub .., binary_bufs_sub .., nullary_bufs_sub .., unary_bufs_sub .., binary_bufs_sub ..⟩

/-- Statements 266 … 267 of @main: 23 operations. -/
def wPC : List (HloOp τ sig (Elt F)) :=
  [ StableHlo.nullary main_c_31 (constantI S_ 32 0#32),
    StableHlo.TRef.nullary main_call6.cst (constant S_ .f32 0x00000000#32),
    StableHlo.TRef.binary (StableHlo.TRef.of main_v228 : StableHlo.TRef sig ⟨S128x128, .f32⟩) main_call6.cst main_call6.v0 (fun x v => Host.reduceAdd x v reducesTo_S128x128_S128_d0 h_S_),
    StableHlo.TRef.unary main_call6.v0 main_call6.v1 (broadcastInDim S1x128 ![1] bcast_S128_S1x128_1),
    StableHlo.TRef.nullary main_call6.cst_0 (constant S_ .f32 0x43000000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S128x128 ![0, 1] bcast_S1x128_S128x128_0_1),
    StableHlo.TRef.binary (StableHlo.TRef.of main_v228 : StableHlo.TRef sig ⟨S128x128, .f32⟩) main_call6.v4 main_call6.v5 subf,
    StableHlo.TRef.binary main_call6.v5 main_call6.v5 main_call6.v6 mulf,
    StableHlo.TRef.unary (StableHlo.TRef.of main_c_31 : StableHlo.TRef sig ⟨S_, .i32⟩) main_call6.v7 (sitofp .f32),
    StableHlo.TRef.nullary main_call6.cst_1 (constant S_ .f32 0x43000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S128x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]
/-- The references window `wPC` writes. -/
abbrev wPC_W : List (Ref sig .tc) := [main_c_31, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref]
/-- Each operation of the window touches TensorCore references only. -/
theorem wPC_sub : (wPC (F := F)).Forall fun op => op.bufs ⊆ tcRefs τ sig := by
  unfold wPC
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Statements 268 … 284 of @main: 19 operations. -/
def wPD : List (HloOp τ sig (Elt F)) :=
  [ StableHlo.unary main_v231 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S128x128 ![0, 1] bcast_S1x128_S128x128_0_1 : (⟨S1x128, .f32⟩ : BufTy).Contents (Elt F) → (⟨S128x128, .f32⟩ : BufTy).Contents (Elt F)),
    StableHlo.binary main_v228 main_v234 main_v235 (subf : (⟨S128x128, .f32⟩ : BufTy).Contents (Elt F) → (⟨S128x128, .f32⟩ : BufTy).Contents (Elt F) → (⟨S128x128, .f32⟩ : BufTy).Contents (Elt F)),
    StableHlo.nullary main_cst_32 (constant S_ .f32 0x3727C5AC#32),
    StableHlo.unary main_cst_32 main_v236 (broadcastInDim S128 ![] bcast_S_S128 : (⟨S_, .f32⟩ : BufTy).Contents (Elt F) → (⟨S128, .f32⟩ : BufTy).Contents (Elt F)),
    StableHlo.binary main_v232 main_v236 main_v237 (addf : (⟨S128, .f32⟩ : BufTy).Contents (Elt F) → (⟨S128, .f32⟩ : BufTy).Contents (Elt F) → (⟨S128, .f32⟩ : BufTy).Contents (Elt F)),
    StableHlo.unary main_v237 main_v238 (Host.rsqrt : (⟨S128, .f32⟩ : BufTy).Contents (Elt F) → (⟨S128, .f32⟩ : BufTy).Contents (Elt F)),
    StableHlo.unary main_v238 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S128x128 ![0, 1] bcast_S1x128_S128x128_0_1 : (⟨S1x128, .f32⟩ : BufTy).Contents (Elt F) → (⟨S128x128, .f32⟩ : BufTy).Contents (Elt F)),
    StableHlo.binary main_v235 main_v240 main_v241 (mulf : (⟨S128x128, .f32⟩ : BufTy).Contents (Elt F) → (⟨S128x128, .f32⟩ : BufTy).Contents (Elt F) → (⟨S128x128, .f32⟩ : BufTy).Contents (Elt F)),
    StableHlo.unary main_arg18 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S128x128 ![0, 1] bcast_S1x128_S128x128_0_1 : (⟨S1x128, .f32⟩ : BufTy).Contents (Elt F) → (⟨S128x128, .f32⟩ : BufTy).Contents (Elt F)),
    StableHlo.binary main_v241 main_v243 main_v244 (mulf : (⟨S128x128, .f32⟩ : BufTy).Contents (Elt F) → (⟨S128x128, .f32⟩ : BufTy).Contents (Elt F) → (⟨S128x128, .f32⟩ : BufTy).Contents (Elt F)),
    StableHlo.unary main_arg19 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S128x128 ![0, 1] bcast_S1x128_S128x128_0_1 : (⟨S1x128, .f32⟩ : BufTy).Contents (Elt F) → (⟨S128x128, .f32⟩ : BufTy).Contents (Elt F)),
    StableHlo.binary main_v244 main_v246 main_v247 (addf : (⟨S128x128, .f32⟩ : BufTy).Contents (Elt F) → (⟨S128x128, .f32⟩ : BufTy).Contents (Elt F) → (⟨S128x128, .f32⟩ : BufTy).Contents (Elt F)),
    StableHlo.TRef.nullary main_call7.cst (constant S_ .f32 0x00000000#32),
    StableHlo.TRef.unary main_call7.cst main_call7.v0 (broadcastInDim S128x128 ![] bcast_S_S128x128),
    StableHlo.TRef.binary (StableHlo.TRef.of main_v247 : StableHlo.TRef sig ⟨S128x128, .f32⟩) main_call7.v0 main_call7.v1 maximumf ]
/-- The references window `wPD` writes. -/
abbrev wPD_W : List (Ref sig .tc) := [main_v233, main_v234, main_v235, main_cst_32, main_v236, main_v237, main_v238, main_v239, main_v240, main_v241, main_v242, main_v243, main_v244, main_v245, main_v246, main_v247, main_call7.cst.ref, main_call7.v0.ref, main_call7.v1.ref]
/-- Each operation of the window touches TensorCore references only. -/
theorem wPD_sub : (wPD (F := F)).Forall fun op => op.bufs ⊆ tcRefs τ sig := by
  unfold wPD
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The operations of @main's window `main_part0` (statements 1 … 60). -/
def opsP0 : List (HloOp τ sig (Elt F)) := wPre (F := F) ++ (wL0A (F := F) ++ (wL0B (F := F) ++ (wL0C (F := F))))
/-- The operations of @main's window `main_part1` (statements 61 … 120). -/
def opsP1 : List (HloOp τ sig (Elt F)) := wL0D (F := F) ++ (wL0E (F := F) ++ (wL0F (F := F) ++ (wL1A (F := F) ++ (wL1B (F := F)))))
/-- The operations of @main's window `main_part2` (statements 121 … 180). -/
def opsP2 : List (HloOp τ sig (Elt F)) := wL1C (F := F) ++ (wL1D (F := F) ++ (wL1E (F := F) ++ (wL1F (F := F) ++ (wL2A (F := F)))))
/-- The operations of @main's window `main_part3` (statements 181 … 240). -/
def opsP3 : List (HloOp τ sig (Elt F)) := wL2B (F := F) ++ (wL2C (F := F) ++ (wL2D (F := F) ++ (wL2E (F := F) ++ (wL2F (F := F)))))
/-- The operations of @main's window `main_part4` (statements 241 … 284). -/
def opsP4 : List (HloOp τ sig (Elt F)) := wPA (F := F) ++ (wPB (F := F) ++ (wPC (F := F) ++ (wPD (F := F))))

/-- @main's operations, in order, the calls unfolded. -/
abbrev ops : List (HloOp τ sig (Elt F)) := opsP0 (F := F) ++ (opsP1 (F := F) ++ (opsP2 (F := F) ++ (opsP3 (F := F) ++ opsP4 (F := F))))

end Cert.ReferenceIdeal.RefRun

end
-- ==== Proof.RefRunKeep.lean ====
/-
  The windows of the reference's operation list, each with the references it writes: a reference outside a window's
  list keeps its contents through the window, the whole list's fold is the windows' folds one inside the next, and a
  reference no window writes keeps its contents to the end.
-/
import proofs.«108144_j81140522156740_2_alg».proof.Proof.RefRunOps

noncomputable section

namespace Cert.ReferenceIdeal.RefRun

open Cert.ReferenceIdeal Idealize.ShloMosaic Idealize.ShloMosaic.StableHlo Idealize.SL.Sem

variable {F : FTy → Type} [FloatOps F] [Facts]

/-- The fold over two lists run one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every element of two lists holds of every element of their concatenation. -/
theorem forall_app {α : Type} {p : α → Prop} {l₁ l₂ : List α} (h₁ : l₁.Forall p) (h₂ : l₂.Forall p) : (l₁ ++ l₂).Forall p :=
  List.forall_iff_forall_mem.mpr fun a h =>
    (List.mem_append.mp h).elim (List.forall_iff_forall_mem.mp h₁ a) (List.forall_iff_forall_mem.mp h₂ a)

/-- Every operation of a literal window writes one reference, a member of the window's list: operation by operation,
    its written set is the singleton of its result, found in the list by comparing references. -/
macro "window_writes" : tactic =>
  `(tactic| (simp only [List.Forall]
             repeat' apply And.intro
             all_goals (simp only [nullary_writes, unary_writes, binary_writes, ternary_writes, reshape_writes,
                          Finset.singleton_subset_iff, List.mem_toFinset]
                        exact List.mem_map_of_mem (by decide))))

/-- The operations of `w` write references of the list `W` only. -/
class Writes (w : List (HloOp τ sig (Elt F))) (W : outParam (List (Ref sig .tc))) : Prop where
  sub : w.Forall fun op => op.writes ⊆ (W.map (Proc.devRef (τ := τ) .tc)).toFinset

/-- A reference outside a window's written list keeps its contents through the window. -/
theorem keep {w : List (HloOp τ sig (Elt F))} {W : List (Ref sig .tc)} [hw : Writes w W] (V : Valuation τ sig (Elt F))
    (r : Ref sig .tc) (h : r ∉ W) : after w V (no_index (Proc.devRef .tc r)) = V (Proc.devRef .tc r) :=
  after_of_writes_sub w V hw.sub h

instance : Writes (wPre (F := F)) wPre_W := ⟨by unfold wPre; window_writes⟩
instance : Writes (wL0A (F := F)) wL0A_W := ⟨by unfold wL0A; window_writes⟩
instance : Writes (wL0B (F := F)) wL0B_W := ⟨by unfold wL0B; window_writes⟩
instance : Writes (wL0C (F := F)) wL0C_W := ⟨by unfold wL0C; window_writes⟩
instance : Writes (wL0D (F := F)) wL0D_W := ⟨by unfold wL0D; window_writes⟩
instance : Writes (wL0E (F := F)) wL0E_W := ⟨by unfold wL0E; window_writes⟩
instance : Writes (wL0F (F := F)) wL0F_W := ⟨by unfold wL0F; window_writes⟩
instance : Writes (wL1A (F := F)) wL1A_W := ⟨by unfold wL1A; window_writes⟩
instance : Writes (wL1B (F := F)) wL1B_W := ⟨by unfold wL1B; window_writes⟩
instance : Writes (wL1C (F := F)) wL1C_W := ⟨by unfold wL1C; window_writes⟩
instance : Writes (wL1D (F := F)) wL1D_W := ⟨by unfold wL1D; window_writes⟩
instance : Writes (wL1E (F := F)) wL1E_W := ⟨by unfold wL1E; window_writes⟩
instance : Writes (wL1F (F := F)) wL1F_W := ⟨by unfold wL1F; window_writes⟩
instance : Writes (wL2A (F := F)) wL2A_W := ⟨by unfold wL2A; window_writes⟩
instance : Writes (wL2B (F := F)) wL2B_W := ⟨by unfold wL2B; window_writes⟩
instance : Writes (wL2C (F := F)) wL2C_W := ⟨by unfold wL2C; window_writes⟩
instance : Writes (wL2D (F := F)) wL2D_W := ⟨by unfold wL2D; window_writes⟩
instance : Writes (wL2E (F := F)) wL2E_W := ⟨by unfold wL2E; window_writes⟩
instance : Writes (wL2F (F := F)) wL2F_W := ⟨by unfold wL2F; window_writes⟩
instance : Writes (wPA (F := F)) wPA_W := ⟨by unfold wPA; window_writes⟩
instance : Writes (wPB (F := F)) wPB_W := ⟨by unfold wPB; window_writes⟩
instance : Writes (wPC (F := F)) wPC_W := ⟨by unfold wPC; window_writes⟩
instance : Writes (wPD (F := F)) wPD_W := ⟨by unfold wPD; window_writes⟩

/-- The whole list's fold as the windows' folds, one inside the next. -/
theorem after_ops (V : Valuation τ sig (Elt F)) :
    after (ops (F := F)) V
      = after wPD (after wPC (after wPB (after wPA
          (after wL2F (after wL2E (after wL2D (after wL2C (after wL2B (after wL2A
          (after wL1F (after wL1E (after wL1D (after wL1C (after wL1B (after wL1A
          (after wL0F (after wL0E (after wL0D (after wL0C (after wL0B (after wL0A
          (after wPre V)))))))))))))))))))))) := by
  simp only [ops, opsP0, opsP1, opsP2, opsP3, opsP4, after_app]

/-- A reference no window writes keeps its contents through the whole list. -/
theorem ops_keep (V : Valuation τ sig (Elt F)) (r : Ref sig .tc)
    (h : r ∉ wPre_W ++ (wL0A_W ++ (wL0B_W ++ (wL0C_W ++ (wL0D_W ++ (wL0E_W ++ (wL0F_W ++ (wL1A_W ++ (wL1B_W ++ (wL1C_W ++
      (wL1D_W ++ (wL1E_W ++ (wL1F_W ++ (wL2A_W ++ (wL2B_W ++ (wL2C_W ++ (wL2D_W ++ (wL2E_W ++ (wL2F_W ++ (wPA_W ++ (wPB_W ++
      (wPC_W ++ wPD_W)))))))))))))))))))))) :
    after (ops (F := F)) V (Proc.devRef .tc r) = V (Proc.devRef .tc r) := by
  simp only [List.mem_append, not_or] at h
  obtain ⟨h0, h1, h2, h3, h4, h5, h6, h7, h8, h9, h10, h11, h12, h13, h14, h15, h16, h17, h18, h19, h20, h21, h22⟩ := h
  rw [after_ops, keep _ _ h22, keep _ _ h21, keep _ _ h20, keep _ _ h19, keep _ _ h18, keep _ _ h17, keep _ _ h16, keep _ _ h15,
    keep _ _ h14, keep _ _ h13, keep _ _ h12, keep _ _ h11, keep _ _ h10, keep _ _ h9, keep _ _ h8, keep _ _ h7, keep _ _ h6,
    keep _ _ h5, keep _ _ h4, keep _ _ h3, keep _ _ h2, keep _ _ h1, keep _ _ h0]

end Cert.ReferenceIdeal.RefRun

end
-- ==== Proof.RefRun.lean ====
/-
  The reference's run: @main is the straight line of its operations (window by window, the called functions' bodies
  unfolded at their calls), so every weakly fair execution terminates with each buffer at the fold of the operations
  over the launch contents; the result buffer is stated at that fold and the twenty argument arrays, which no operation
  writes, are unchanged.
-/
import proofs.«108144_j81140522156740_2_alg».proof.Proof.RefRunKeep

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

/-! ## @main is the straight line of its operations -/

set_option maxRecDepth 8192 in
theorem main_part0_eq (c : Dev nD) : main_part0 (F := F) c = seq (opsP0 (F := F)) := rfl
set_option maxRecDepth 8192 in
theorem main_part1_eq (c : Dev nD) : main_part1 (F := F) c = seq (opsP1 (F := F)) := rfl
set_option maxRecDepth 8192 in
theorem main_part2_eq (c : Dev nD) : main_part2 (F := F) c = seq (opsP2 (F := F)) := rfl
set_option maxRecDepth 8192 in
theorem main_part3_eq (c : Dev nD) : main_part3 (F := F) c = seq (opsP3 (F := F)) := rfl
set_option maxRecDepth 8192 in
theorem main_part4_eq (c : Dev nD) : main_part4 (F := F) c = seq (opsP4 (F := F)) := rfl

/-- @main runs its five windows in order, each the straight line of its operations (the called functions' bodies
    unfold at their calls); a straight line after a straight line is the line of the concatenation. -/
theorem main_eq (c : Dev nD) : main (F := F) c = seq (ops (F := F)) := by
  have h : main (F := F) c = (main_part0 c >>= fun _ => main_part1 c >>= fun _ => main_part2 c >>= fun _ =>
      main_part3 c >>= fun _ => main_part4 c) := rfl
  rw [h, main_part0_eq, main_part1_eq, main_part2_eq, main_part3_eq, main_part4_eq]
  show _ = seq (opsP0 ++ (opsP1 ++ (opsP2 ++ (opsP3 ++ opsP4))))
  rw [seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops (F := F)).Forall fun op => op.bufs ⊆ tcRefs τ sig := by
  unfold ops opsP0 opsP1 opsP2 opsP3 opsP4
  exact forall_app (forall_app wPre_sub (forall_app wL0A_sub (forall_app wL0B_sub wL0C_sub)))
    (forall_app (forall_app wL0D_sub (forall_app wL0E_sub (forall_app wL0F_sub (forall_app wL1A_sub wL1B_sub))))
    (forall_app (forall_app wL1C_sub (forall_app wL1D_sub (forall_app wL1E_sub (forall_app wL1F_sub wL2A_sub))))
    (forall_app (forall_app wL2B_sub (forall_app wL2C_sub (forall_app wL2D_sub (forall_app wL2E_sub wL2F_sub))))
      (forall_app wPA_sub (forall_app wPB_sub (forall_app wPC_sub wPD_sub))))))

/-- An argument array is written by no operation: it ends as the launch left it. -/
theorem arg_kept (m : (ℓ : Loc nD τ sig) → Buf (Elt F) ℓ) (c : Dev nD) (r : Ref sig .tc)
    (h : r ∉ wPre_W ++ (wL0A_W ++ (wL0B_W ++ (wL0C_W ++ (wL0D_W ++ (wL0E_W ++ (wL0F_W ++ (wL1A_W ++ (wL1B_W ++ (wL1C_W ++
      (wL1D_W ++ (wL1E_W ++ (wL1F_W ++ (wL2A_W ++ (wL2B_W ++ (wL2C_W ++ (wL2D_W ++ (wL2E_W ++ (wL2F_W ++ (wPA_W ++ (wPB_W ++
      (wPC_W ++ wPD_W)))))))))))))))))))))) :
    after (ops (F := F)) (launchContents m c) (Proc.devRef .tc r) = m ((c.tc : Thread nD τ).loc r) :=
  ops_keep (launchContents m c) r h

/-- On every device, for any float values, from any memory with zero counters: every weakly fair execution of @main
    terminates with the result buffer at the fold of the operations over the launch contents and the twenty argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v248) = after (ops (F := F)) (launchContents m c) (Proc.devRef .tc main_v248)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨h c main_v248,
      (h c main_arg0).trans (arg_kept m c main_arg0 (by decide)), (h c main_arg1).trans (arg_kept m c main_arg1 (by decide)),
      (h c main_arg2).trans (arg_kept m c main_arg2 (by decide)), (h c main_arg3).trans (arg_kept m c main_arg3 (by decide)),
      (h c main_arg4).trans (arg_kept m c main_arg4 (by decide)), (h c main_arg5).trans (arg_kept m c main_arg5 (by decide)),
      (h c main_arg6).trans (arg_kept m c main_arg6 (by decide)), (h c main_arg7).trans (arg_kept m c main_arg7 (by decide)),
      (h c main_arg8).trans (arg_kept m c main_arg8 (by decide)), (h c main_arg9).trans (arg_kept m c main_arg9 (by decide)),
      (h c main_arg10).trans (arg_kept m c main_arg10 (by decide)), (h c main_arg11).trans (arg_kept m c main_arg11 (by decide)),
      (h c main_arg12).trans (arg_kept m c main_arg12 (by decide)), (h c main_arg13).trans (arg_kept m c main_arg13 (by decide)),
      (h c main_arg14).trans (arg_kept m c main_arg14 (by decide)), (h c main_arg15).trans (arg_kept m c main_arg15 (by decide)),
      (h c main_arg16).trans (arg_kept m c main_arg16 (by decide)), (h c main_arg17).trans (arg_kept m c main_arg17 (by decide)),
      (h c main_arg18).trans (arg_kept m c main_arg18 (by decide)), (h c main_arg19).trans (arg_kept m c main_arg19 (by decide))⟩)
    (run_seq scopedRefs_eq scopedSems_eq defs main (fun _ => ops) main_eq (fun _ => ops_sub) m ρ)

end Cert.ReferenceIdeal.RefRun

end
-- ==== Proof.RefSpec.lean ====
/-
  The reference of this unit as NAMED whole-array functions at the ideal instance, in the reference's own
  operation spelling (one definition per line group of reference.py): the node and edge embeddings, the two index
  columns, one message-passing layer built from its pieces, the per-layer parameter slices, the mean pool over
  graphs and the final normalised projection; `out` composes them over the twenty argument arrays.
-/
import proofs.«108144_j81140522156740_2_alg».proof.ReferenceIdeal
import Idealize.ShloMosaic.PureOps.Ideal

noncomputable section

namespace Cert.ReferenceIdeal.RefRun

open Cert.ReferenceIdeal Idealize.ShloMosaic
open Cert.ReferenceIdeal.Facts₀ Cert.ReferenceIdeal.Facts

variable [Facts]

/-! ## Constants and broadcasts -/

/-- The scalar `0.0`. -/
def zeroS : FVec Ideal S_ .f32 := constant (F := Ideal) S_ .f32 0x00000000#32
/-- The scalar `1.0`. -/
def oneS : FVec Ideal S_ .f32 := constant (F := Ideal) S_ .f32 0x3F800000#32
/-- The scalar `50000.0`: the number of nodes. -/
def nodesS : FVec Ideal S_ .f32 := constant (F := Ideal) S_ .f32 0x47435000#32
/-- The scalar `128.0`: the number of graphs. -/
def graphsS : FVec Ideal S_ .f32 := constant (F := Ideal) S_ .f32 0x43000000#32
/-- The f32 nearest to `1e-5`. -/
def epsS : FVec Ideal S_ .f32 := constant (F := Ideal) S_ .f32 0x3727C5AC#32
/-- The scalar a variance over no element would be. -/
def nanS : FVec Ideal S_ .f32 := constant (F := Ideal) S_ .f32 0x7FC00000#32

/-- A 64-vector as every row of a 50000×64 array. -/
def rowsN (v : FVec Ideal S64 .f32) : FVec Ideal S50000x64 .f32 :=
  broadcastInDim S50000x64 ![0, 1] bcast_S1x64_S50000x64_0_1 (broadcastInDim S1x64 ![1] bcast_S64_S1x64_1 v)
/-- A 64-vector as every row of an 800000×64 array. -/
def rowsE (v : FVec Ideal S64 .f32) : FVec Ideal S800000x64 .f32 :=
  broadcastInDim S800000x64 ![0, 1] bcast_S1x64_S800000x64_0_1 (broadcastInDim S1x64 ![1] bcast_S64_S1x64_1 v)
/-- A 32-vector as every row of an 800000×32 array. -/
def rowsE32 (v : FVec Ideal S32 .f32) : FVec Ideal S800000x32 .f32 :=
  broadcastInDim S800000x32 ![0, 1] bcast_S1x32_S800000x32_0_1 (broadcastInDim S1x32 ![1] bcast_S32_S1x32_1 v)
/-- A 128-vector as every row of a 128×128 array. -/
def rowsG (v : FVec Ideal S128 .f32) : FVec Ideal S128x128 .f32 :=
  broadcastInDim S128x128 ![0, 1] bcast_S1x128_S128x128_0_1 (broadcastInDim S1x128 ![1] bcast_S128_S1x128_1 v)

/-! ## Embeddings and index columns -/

/-- `h = x @ emb_W + emb_b`. -/
def embed (x : FVec Ideal S50000x77 .f32) (W : FVec Ideal S77x64 .f32) (b : FVec Ideal S64 .f32) :
    FVec Ideal S50000x64 .f32 :=
  addf (Host.dotGeneral (F := Ideal) dot_S50000x77_S77x64_S50000x64_1_0_0_1_n_n none x W) (rowsN b)

/-- `ea = edge_attr @ eemb_W + eemb_b`. -/
def edgeEmbed (a : FVec Ideal S800000x1 .f32) (W : FVec Ideal S1x32 .f32) (b : FVec Ideal S32 .f32) :
    FVec Ideal S800000x32 .f32 :=
  addf (Host.dotGeneral (F := Ideal) dot_S800000x1_S1x32_S800000x32_1_0_0_1_n_n none a W) (rowsE32 b)

/-- `edge_index[0]`: the source node of every edge. -/
def srcVec (ei : IVec S2x800000 32) : IVec S800000 32 :=
  shapeCast S800000 (extractStridedSlice S1x800000 ![0, 0] ei slices_S2x800000_S1x800000_0_0) shapeCasts_S1x800000_S800000
/-- `edge_index[1]`: the destination node of every edge. -/
def dstVec (ei : IVec S2x800000 32) : IVec S800000 32 :=
  shapeCast S800000 (extractStridedSlice S1x800000 ![1, 0] ei slices_S2x800000_S1x800000_1_0) shapeCasts_S1x800000_S800000

/-- An index vector as the one-column table a gather reads: a negative index counted from the end first. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- An index vector as the one-column table a scatter reads. -/
def plainCol (v : IVec S800000 32) : IVec S800000x1 32 :=
  broadcastInDim S800000x1 ![0] bcast_S800000_S800000x1_0 v

/-- The index column the gather `h[src]` reads. -/
def srcCol (ei : IVec S2x800000 32) : IVec S800000x1 32 := wrapCol (srcVec ei)
/-- The index column the segment sum over `dst` reads. -/
def dstCol (ei : IVec S2x800000 32) : IVec S800000x1 32 := plainCol (dstVec ei)

/-! ## One layer, by its pieces -/

/-- `ef = ea @ We[l] + be[l]`. -/
def edgeFeat (ea : FVec Ideal S800000x32 .f32) (We : FVec Ideal S32x64 .f32) (be : FVec Ideal S64 .f32) :
    FVec Ideal S800000x64 .f32 :=
  addf (Host.dotGeneral (F := Ideal) dot_S800000x32_S32x64_S800000x64_1_0_0_1_n_n none ea We) (rowsE be)

/-- `xj = h[src]`. -/
def gatherRows (h : FVec Ideal S50000x64 .f32) (src : IVec S800000x1 32) : FVec Ideal S800000x64 .f32 :=
  Host.gather gather_S50000x64_S800000x1_S800000x64_1_0_n_n_0_1_164 h src

/-- `concatenate([xj, ef], axis=1) @ Wg[l] + bg[l]`. -/
def gatePre (xj ef : FVec Ideal S800000x64 .f32) (Wg : FVec Ideal S128x64 .f32) (bg : FVec Ideal S64 .f32) :
    FVec Ideal S800000x64 .f32 :=
  addf (Host.dotGeneral (F := Ideal) dot_S800000x128_S128x64_S800000x64_1_0_0_1_n_n none
      (concatenate S800000x128 1 [⟨S800000x64, xj⟩, ⟨S800000x64, ef⟩] concatenates_S800000x64_S800000x64_S800000x128_d1) Wg)
    (rowsE bg)

/-- The logistic function as the reference spells it: `1 / (1 + exp (-z))`. -/
def sigmoidE (z : FVec Ideal S800000x64 .f32) : FVec Ideal S800000x64 .f32 :=
  Host.divf (F := Ideal) (broadcastInDim S800000x64 ![] bcast_S_S800000x64 oneS)
    (addf (broadcastInDim S800000x64 ![] bcast_S_S800000x64 oneS) (Host.exp (F := Ideal) (Host.negf (F := Ideal) z)))

/-- `msg = sigmoid(concatenate([xj, ef]) @ Wg[l] + bg[l]) * xj`. -/
def msg (xj ef : FVec Ideal S800000x64 .f32) (Wg : FVec Ideal S128x64 .f32) (bg : FVec Ideal S64 .f32) :
    FVec Ideal S800000x64 .f32 :=
  mulf (sigmoidE (gatePre xj ef Wg bg)) xj

/-- `aggr = segment_sum(msg, dst, N)`. -/
def aggr (m : FVec Ideal S800000x64 .f32) (dst : IVec S800000x1 32) : FVec Ideal S50000x64 .f32 :=
  Host.scatterAdd (F := Ideal) scatter_S50000x64_S800000x1_S800000x64_1_0_0_1
    (broadcastInDim S50000x64 ![] bcast_S_S50000x64 zeroS) dst m

/-- `h @ Wn[l] + bn_b[l] + aggr`. -/
def raw (h : FVec Ideal S50000x64 .f32) (Wn : FVec Ideal S64x64 .f32) (bnb : FVec Ideal S64 .f32)
    (ag : FVec Ideal S50000x64 .f32) : FVec Ideal S50000x64 .f32 :=
  addf (addf (Host.dotGeneral (F := Ideal) dot_S50000x64_S64x64_S50000x64_1_0_0_1_n_n none h Wn) (rowsN bnb)) ag

/-- The column sums of a node array. -/
def colSum (o : FVec Ideal S50000x64 .f32) : FVec Ideal S64 .f32 :=
  Host.reduceAdd (F := Ideal) o zeroS reducesTo_S50000x64_S64_d0 h_S_

/-- `o.mean(0)`. -/
def colMean (o : FVec Ideal S50000x64 .f32) : FVec Ideal S64 .f32 :=
  Host.divf (F := Ideal) (colSum o) (broadcastInDim S64 ![] bcast_S_S64 nodesS)

/-- The column means as the variance computes them, on every row. -/
def varMean (o : FVec Ideal S50000x64 .f32) : FVec Ideal S50000x64 .f32 :=
  broadcastInDim S50000x64 ![0, 1] bcast_S1x64_S50000x64_0_1
    (Host.divf (F := Ideal) (broadcastInDim S1x64 ![1] bcast_S64_S1x64_1 (colSum o))
      (broadcastInDim S1x64 ![] bcast_S_S1x64 nodesS))

/-- The deviations from the column means. -/
def varDev (o : FVec Ideal S50000x64 .f32) : FVec Ideal S50000x64 .f32 := subf o (varMean o)

/-- The variance's divisor: the number of nodes less the (zero) degrees of freedom taken away. -/
def varCount : FVec Ideal S_ .f32 := subf nodesS (sitofp (F := Ideal) .f32 (constantI S_ 32 0#32))

/-- `o.var(0)`: the mean squared deviation where the divisor is positive. -/
def colVar (o : FVec Ideal S50000x64 .f32) : FVec Ideal S64 .f32 :=
  select (broadcastInDim S64 ![] bcast_S_S64 (cmpf (F := Ideal) .ogt varCount zeroS))
    (Host.divf (F := Ideal) (Host.reduceAdd (F := Ideal) (mulf (varDev o) (varDev o)) zeroS reducesTo_S50000x64_S64_d0 h_S_)
      (broadcastInDim S64 ![] bcast_S_S64 varCount))
    (broadcastInDim S64 ![] bcast_S_S64 nanS)

/-- `relu((o - mean) * rsqrt(var + eps) * gamma + beta)`. -/
def bnRelu (o : FVec Ideal S50000x64 .f32) (mean var gamma beta : FVec Ideal S64 .f32) : FVec Ideal S50000x64 .f32 :=
  maximumf
    (addf (mulf (mulf (subf o (rowsN mean))
        (rowsN (Host.rsqrt (F := Ideal) (addf var (broadcastInDim S64 ![] bcast_S_S64 epsS))))) (rowsN gamma)) (rowsN beta))
    (broadcastInDim S50000x64 ![] bcast_S_S50000x64 zeroS)

/-- A layer's sum before normalisation: `h @ Wn + bn_b + segment_sum(gate * h[src], dst)`. -/
def layerRaw (h : FVec Ideal S50000x64 .f32) (ea : FVec Ideal S800000x32 .f32) (src dst : IVec S800000x1 32)
    (We : FVec Ideal S32x64 .f32) (be : FVec Ideal S64 .f32) (Wg : FVec Ideal S128x64 .f32) (bg : FVec Ideal S64 .f32)
    (Wn : FVec Ideal S64x64 .f32) (bnb : FVec Ideal S64 .f32) : FVec Ideal S50000x64 .f32 :=
  raw h Wn bnb (aggr (msg (gatherRows h src) (edgeFeat ea We be) Wg bg) dst)

/-- One layer: `h ↦ relu(bn(h @ Wn + bn_b + aggr))` over the layer's own (sliced) parameters. -/
def layer (h : FVec Ideal S50000x64 .f32) (ea : FVec Ideal S800000x32 .f32) (src dst : IVec S800000x1 32)
    (We : FVec Ideal S32x64 .f32) (be : FVec Ideal S64 .f32) (Wg : FVec Ideal S128x64 .f32) (bg : FVec Ideal S64 .f32)
    (Wn : FVec Ideal S64x64 .f32) (bnb gamma beta : FVec Ideal S64 .f32) : FVec Ideal S50000x64 .f32 :=
  bnRelu (layerRaw h ea src dst We be Wg bg Wn bnb) (colMean (layerRaw h ea src dst We be Wg bg Wn bnb))
    (colVar (layerRaw h ea src dst We be Wg bg Wn bnb)) gamma beta

/-! ## The per-layer parameter slices -/

/-- `We[l]`. -/
def sliceWe : Fin 3 → FVec Ideal S3x32x64 .f32 → FVec Ideal S32x64 .f32
  | 0, W => shapeCast S32x64 (extractStridedSlice S1x32x64 ![0, 0, 0] W slices_S3x32x64_S1x32x64_0_0_0) shapeCasts_S1x32x64_S32x64
  | 1, W => shapeCast S32x64 (extractStridedSlice S1x32x64 ![1, 0, 0] W slices_S3x32x64_S1x32x64_1_0_0) shapeCasts_S1x32x64_S32x64
  | 2, W => shapeCast S32x64 (extractStridedSlice S1x32x64 ![2, 0, 0] W slices_S3x32x64_S1x32x64_2_0_0) shapeCasts_S1x32x64_S32x64

/-- `Wg[l]`. -/
def sliceWg : Fin 3 → FVec Ideal S3x128x64 .f32 → FVec Ideal S128x64 .f32
  | 0, W => shapeCast S128x64 (extractStridedSlice S1x128x64 ![0, 0, 0] W slices_S3x128x64_S1x128x64_0_0_0) shapeCasts_S1x128x64_S128x64
  | 1, W => shapeCast S128x64 (extractStridedSlice S1x128x64 ![1, 0, 0] W slices_S3x128x64_S1x128x64_1_0_0) shapeCasts_S1x128x64_S128x64
  | 2, W => shapeCast S128x64 (extractStridedSlice S1x128x64 ![2, 0, 0] W slices_S3x128x64_S1x128x64_2_0_0) shapeCasts_S1x128x64_S128x64

/-- `Wn[l]`. -/
def sliceWn : Fin 3 → FVec Ideal S3x64x64 .f32 → FVec Ideal S64x64 .f32
  | 0, W => shapeCast S64x64 (extractStridedSlice S1x64x64 ![0, 0, 0] W slices_S3x64x64_S1x64x64_0_0_0) shapeCasts_S1x64x64_S64x64
  | 1, W => shapeCast S64x64 (extractStridedSlice S1x64x64 ![1, 0, 0] W slices_S3x64x64_S1x64x64_1_0_0) shapeCasts_S1x64x64_S64x64
  | 2, W => shapeCast S64x64 (extractStridedSlice S1x64x64 ![2, 0, 0] W slices_S3x64x64_S1x64x64_2_0_0) shapeCasts_S1x64x64_S64x64

/-- Row `l` of a stacked 3×64 parameter (`be[l]`, `bg[l]`, `bn_b[l]`, `gamma[l]`, `beta[l]`). -/
def sliceRow : Fin 3 → FVec Ideal S3x64 .f32 → FVec Ideal S64 .f32
  | 0, W => shapeCast S64 (extractStridedSlice S1x64 ![0, 0] W slices_S3x64_S1x64_0_0) shapeCasts_S1x64_S64
  | 1, W => shapeCast S64 (extractStridedSlice S1x64 ![1, 0] W slices_S3x64_S1x64_1_0) shapeCasts_S1x64_S64
  | 2, W => shapeCast S64 (extractStridedSlice S1x64 ![2, 0] W slices_S3x64_S1x64_2_0) shapeCasts_S1x64_S64

/-- Layer `l` over the stacked parameters. -/
def layerAt (l : Fin 3) (h : FVec Ideal S50000x64 .f32) (ea : FVec Ideal S800000x32 .f32) (src dst : IVec S800000x1 32)
    (Wn : FVec Ideal S3x64x64 .f32) (bnb : FVec Ideal S3x64 .f32) (We : FVec Ideal S3x32x64 .f32) (be : FVec Ideal S3x64 .f32)
    (Wg : FVec Ideal S3x128x64 .f32) (bg gamma beta : FVec Ideal S3x64 .f32) : FVec Ideal S50000x64 .f32 :=
  layer h ea src dst (sliceWe l We) (sliceRow l be) (sliceWg l Wg) (sliceRow l bg) (sliceWn l Wn) (sliceRow l bnb)
    (sliceRow l gamma) (sliceRow l beta)

/-! ## The pool over graphs and the final projection -/

/-- `batch` as the one-column table the segment sums read. -/
def batchCol (batch : IVec S50000 32) : IVec S50000x1 32 :=
  broadcastInDim S50000x1 ![0] bcast_S50000_S50000x1_0 batch

/-- The number of nodes of every graph. -/
def counts (batch : IVec S50000 32) : FVec Ideal S128 .f32 :=
  Host.scatterAdd (F := Ideal) scatter_S128_S50000x1_S50000_n_0_0_1 (broadcastInDim S128 ![] bcast_S_S128 zeroS)
    (batchCol batch) (broadcastInDim S50000 ![] bcast_S_S50000 oneS)

/-- The sum of every graph's node rows. -/
def graphSum (h : FVec Ideal S50000x64 .f32) (batch : IVec S50000 32) : FVec Ideal S128x64 .f32 :=
  Host.scatterAdd (F := Ideal) scatter_S128x64_S50000x1_S50000x64_1_0_0_1 (broadcastInDim S128x64 ![] bcast_S_S128x64 zeroS)
    (batchCol batch) h

/-- `pooled = segment_sum(h, batch) / maximum(counts, 1)[:, None]`. -/
def pool (h : FVec Ideal S50000x64 .f32) (batch : IVec S50000 32) : FVec Ideal S128x64 .f32 :=
  Host.divf (F := Ideal) (graphSum h batch)
    (broadcastInDim S128x64 ![0, 1] bcast_S128x1_S128x64_0_1
      (broadcastInDim S128x1 ![0] bcast_S128_S128x1_0 (maximumf (counts batch) (broadcastInDim S128 ![] bcast_S_S128 oneS))))

/-- `pooled @ fW + fb`. -/
def finalRaw (p : FVec Ideal S128x64 .f32) (fW : FVec Ideal S64x128 .f32) (fb : FVec Ideal S128 .f32) :
    FVec Ideal S128x128 .f32 :=
  addf (Host.dotGeneral (F := Ideal) dot_S128x64_S64x128_S128x128_1_0_0_1_n_n none p fW) (rowsG fb)

/-- The column sums of a 128×128 array. -/
def colSumG (o : FVec Ideal S128x128 .f32) : FVec Ideal S128 .f32 :=
  Host.reduceAdd (F := Ideal) o zeroS reducesTo_S128x128_S128_d0 h_S_

/-- `o.mean(0)` over the 128 graphs. -/
def colMeanG (o : FVec Ideal S128x128 .f32) : FVec Ideal S128 .f32 :=
  Host.divf (F := Ideal) (colSumG o) (broadcastInDim S128 ![] bcast_S_S128 graphsS)

/-- The column means as the variance computes them, on every row. -/
def varMeanG (o : FVec Ideal S128x128 .f32) : FVec Ideal S128x128 .f32 :=
  broadcastInDim S128x128 ![0, 1] bcast_S1x128_S128x128_0_1
    (Host.divf (F := Ideal) (broadcastInDim S1x128 ![1] bcast_S128_S1x128_1 (colSumG o))
      (broadcastInDim S1x128 ![] bcast_S_S1x128 graphsS))

/-- The deviations from the column means. -/
def varDevG (o : FVec Ideal S128x128 .f32) : FVec Ideal S128x128 .f32 := subf o (varMeanG o)

/-- The variance's divisor over the graphs. -/
def varCountG : FVec Ideal S_ .f32 := subf graphsS (sitofp (F := Ideal) .f32 (constantI S_ 32 0#32))

/-- `o.var(0)` over the 128 graphs. -/
def colVarG (o : FVec Ideal S128x128 .f32) : FVec Ideal S128 .f32 :=
  select (broadcastInDim S128 ![] bcast_S_S128 (cmpf (F := Ideal) .ogt varCountG zeroS))
    (Host.divf (F := Ideal) (Host.reduceAdd (F := Ideal) (mulf (varDevG o) (varDevG o)) zeroS reducesTo_S128x128_S128_d0 h_S_)
      (broadcastInDim S128 ![] bcast_S_S128 varCountG))
    (broadcastInDim S128 ![] bcast_S_S128 nanS)

/-- `relu((o - mean) * rsqrt(var + eps) * fgamma + fbeta)` over the graphs. -/
def bnReluG (o : FVec Ideal S128x128 .f32) (mean var gamma beta : FVec Ideal S128 .f32) : FVec Ideal S128x128 .f32 :=
  maximumf
    (addf (mulf (mulf (subf o (rowsG mean))
        (rowsG (Host.rsqrt (F := Ideal) (addf var (broadcastInDim S128 ![] bcast_S_S128 epsS))))) (rowsG gamma)) (rowsG beta))
    (broadcastInDim S128x128 ![] bcast_S_S128x128 zeroS)

/-- `relu(bn(pooled @ fW + fb, fgamma, fbeta))`. -/
def final (p : FVec Ideal S128x64 .f32) (fW : FVec Ideal S64x128 .f32) (fb fgamma fbeta : FVec Ideal S128 .f32) :
    FVec Ideal S128x128 .f32 :=
  bnReluG (finalRaw p fW fb) (colMeanG (finalRaw p fW fb)) (colVarG (finalRaw p fW fb)) fgamma fbeta

/-! ## The whole reference -/

/-- The node features after the three layers. -/
def nodes (x : FVec Ideal S50000x77 .f32) (ei : IVec S2x800000 32) (a : FVec Ideal S800000x1 .f32)
    (embW : FVec Ideal S77x64 .f32) (embb : FVec Ideal S64 .f32) (eembW : FVec Ideal S1x32 .f32) (eembb : FVec Ideal S32 .f32)
    (Wn : FVec Ideal S3x64x64 .f32) (bnb : FVec Ideal S3x64 .f32) (We : FVec Ideal S3x32x64 .f32) (be : FVec Ideal S3x64 .f32)
    (Wg : FVec Ideal S3x128x64 .f32) (bg gamma beta : FVec Ideal S3x64 .f32) : FVec Ideal S50000x64 .f32 :=
  layerAt 2
    (layerAt 1
      (layerAt 0 (embed x embW embb) (edgeEmbed a eembW eembb) (srcCol ei) (dstCol ei) Wn bnb We be Wg bg gamma beta)
      (edgeEmbed a eembW eembb) (srcCol ei) (dstCol ei) Wn bnb We be Wg bg gamma beta)
    (edgeEmbed a eembW eembb) (srcCol ei) (dstCol ei) Wn bnb We be Wg bg gamma beta

/-- The reference's result of its twenty arguments, in the order `reference` takes them. -/
def out (x : FVec Ideal S50000x77 .f32) (ei : IVec S2x800000 32) (a : FVec Ideal S800000x1 .f32) (batch : IVec S50000 32)
    (embW : FVec Ideal S77x64 .f32) (embb : FVec Ideal S64 .f32) (eembW : FVec Ideal S1x32 .f32) (eembb : FVec Ideal S32 .f32)
    (Wn : FVec Ideal S3x64x64 .f32) (bnb : FVec Ideal S3x64 .f32) (We : FVec Ideal S3x32x64 .f32) (be : FVec Ideal S3x64 .f32)
    (Wg : FVec Ideal S3x128x64 .f32) (bg gamma beta : FVec Ideal S3x64 .f32)
    (fW : FVec Ideal S64x128 .f32) (fb fgamma fbeta : FVec Ideal S128 .f32) : FVec Ideal S128x128 .f32 :=
  final (pool (nodes x ei a embW embb eembW eembb Wn bnb We be Wg bg gamma beta) batch) fW fb fgamma fbeta

end Cert.ReferenceIdeal.RefRun

end
-- ==== Proof.Assemble.lean ====
/-
  The last step: from the two programs' runs to the certificate's claims.

  Both programs compute, from twenty argument arrays, three layers of a gated graph network with batch statistics, a
  mean pool over graphs and a normalised projection. Given that the kernel program's result buffer ends at the
  reference's whole-array function \`out\` of the launch arrays (where every float argument entry is a real number), and
  that the reference program's result buffer ends at \`out\` of its own launch arrays, the two results are equal as
  extended reals whenever the two launches agree on the arguments; the runs themselves give that every execution
  terminates without a fault and leaves the arguments unchanged.
-/
import proofs.«108144_j81140522156740_2_alg».proof.Defs
import proofs.«108144_j81140522156740_2_alg».proof.Proof.Gen.Kernel
import proofs.«108144_j81140522156740_2_alg».proof.Proof.Gen.Kernel.Frame
import proofs.«108144_j81140522156740_2_alg».proof.Proof.Gen.KernelIdeal
import proofs.«108144_j81140522156740_2_alg».proof.Proof.Gen.KernelIdeal.Frame
import proofs.«108144_j81140522156740_2_alg».proof.Proof.Gen.ReferenceIdeal
import proofs.«108144_j81140522156740_2_alg».proof.Proof.Gen.Pre_finite_inputs
import proofs.«108144_j81140522156740_2_alg».proof.Proof.KRun
import proofs.«108144_j81140522156740_2_alg».proof.Proof.RefRun
import proofs.«108144_j81140522156740_2_alg».proof.Proof.RefSpec

set_option maxRecDepth 16384

noncomputable section

namespace Cert.Proof.Assemble

open Idealize.ShloMosaic Idealize.SL.Sem

/-- The reference's whole-array function of the kernel program's launch arrays on device \`c\`. -/
abbrev outOfK (m : (ℓ : Loc Cert.KernelIdeal.nD Cert.KernelIdeal.τ Cert.KernelIdeal.sig) → Buf (Elt Ideal) ℓ)
    (c : Dev Cert.KernelIdeal.nD) : FVec Ideal Cert.ReferenceIdeal.S128x128 .f32 :=
  Cert.ReferenceIdeal.RefRun.out
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))

/-- The reference's whole-array function of the reference program's launch arrays on device \`c\`. -/
abbrev outOfR (m : (ℓ : Loc Cert.ReferenceIdeal.nD Cert.ReferenceIdeal.τ Cert.ReferenceIdeal.sig) → Buf (Elt Ideal) ℓ)
    (c : Dev Cert.ReferenceIdeal.nD) : FVec Ideal Cert.ReferenceIdeal.S128x128 .f32 :=
  Cert.ReferenceIdeal.RefRun.out
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (m ((c.tc : Thread Cert.ReferenceIdeal.nD Cert.ReferenceIdeal.τ).loc Cert.ReferenceIdeal.main_arg4))
    (m ((c.tc : Thread Cert.ReferenceIdeal.nD Cert.ReferenceIdeal.τ).loc Cert.ReferenceIdeal.main_arg5))
    (m ((c.tc : Thread Cert.ReferenceIdeal.nD Cert.ReferenceIdeal.τ).loc Cert.ReferenceIdeal.main_arg6))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))
    (m ((c.tc : Thread Cert.ReferenceIdeal.nD Cert.ReferenceIdeal.τ).loc Cert.ReferenceIdeal.main_arg11))
    (m ((c.tc : Thread Cert.ReferenceIdeal.nD Cert.ReferenceIdeal.τ).loc Cert.ReferenceIdeal.main_arg12))
    (m ((c.tc : Thread Cert.ReferenceIdeal.nD Cert.ReferenceIdeal.τ).loc Cert.ReferenceIdeal.main_arg13))
    (m ((c.tc : Thread Cert.ReferenceIdeal.nD Cert.ReferenceIdeal.τ).loc Cert.ReferenceIdeal.main_arg14))
    (m ((c.tc : Thread Cert.ReferenceIdeal.nD Cert.ReferenceIdeal.τ).loc Cert.ReferenceIdeal.main_arg15))
    (m ((c.tc : Thread Cert.ReferenceIdeal.nD Cert.ReferenceIdeal.τ).loc Cert.ReferenceIdeal.main_arg16))
    (m ((c.tc : Thread Cert.ReferenceIdeal.nD Cert.ReferenceIdeal.τ).loc Cert.ReferenceIdeal.main_arg17))
    (m ((c.tc : Thread Cert.ReferenceIdeal.nD Cert.ReferenceIdeal.τ).loc Cert.ReferenceIdeal.main_arg18))
    (m ((c.tc : Thread Cert.ReferenceIdeal.nD Cert.ReferenceIdeal.τ).loc Cert.ReferenceIdeal.main_arg19))

/-- What is asked of the kernel side: under the precondition, the result buffer after the last launch holds \`out\` of the
    launch arrays. -/
def KernelOut : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD), Cert.Pre_KernelIdeal m →
    (Cert.KernelIdeal.Gen.W26 m ρ c (Proc.devRef .tc Cert.KernelIdeal.main_v185) : Cert.KernelIdeal.S128x128.Idx → EReal)
      = outOfK m c

/-- What is asked of the reference side: every weakly fair execution terminates without a fault, the result buffer ends
    at \`out\` of the launch arrays, and the argument arrays end as launched. -/
def ReferenceOut : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v248) = outOfR m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

open Cert.ReferenceIdeal in
/-- \`out\` of equal arguments is equal. -/
theorem out_congr {a0 b0 : FVec Ideal S50000x77 .f32} {a1 b1 : IVec S2x800000 32} {a2 b2 : FVec Ideal S800000x1 .f32} {a3 b3 : IVec S50000 32} {a4 b4 : FVec Ideal S77x64 .f32} {a5 b5 : FVec Ideal S64 .f32} {a6 b6 : FVec Ideal S1x32 .f32} {a7 b7 : FVec Ideal S32 .f32} {a8 b8 : FVec Ideal S3x64x64 .f32} {a9 b9 : FVec Ideal S3x64 .f32} {a10 b10 : FVec Ideal S3x32x64 .f32} {a11 b11 : FVec Ideal S3x64 .f32} {a12 b12 : FVec Ideal S3x128x64 .f32} {a13 b13 : FVec Ideal S3x64 .f32} {a14 b14 : FVec Ideal S3x64 .f32} {a15 b15 : FVec Ideal S3x64 .f32} {a16 b16 : FVec Ideal S64x128 .f32} {a17 b17 : FVec Ideal S128 .f32} {a18 b18 : FVec Ideal S128 .f32} {a19 b19 : FVec Ideal S128 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) :
    Cert.ReferenceIdeal.RefRun.out a0 a1 a2 a3 a4 a5 a6 a7 a8 a9 a10 a11 a12 a13 a14 a15 a16 a17 a18 a19 = Cert.ReferenceIdeal.RefRun.out b0 b1 b2 b3 b4 b5 b6 b7 b8 b9 b10 b11 b12 b13 b14 b15 b16 b17 b18 b19 := by
  subst h0 h1 h2 h3 h4 h5 h6 h7 h8 h9 h10 h11 h12 h13 h14 h15 h16 h17 h18 h19
  rfl

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference program runs and leaves its arguments unchanged. -/
theorem frame_ri : Cert.frame_ReferenceIdeal := fun m ρ _ =>
  (θ_run (Cert.ReferenceIdeal.defs (F := Ideal)) _ _).mono (fun _ h c => (h c).2)
    (Cert.ReferenceIdeal.RefRun.run (F := Ideal) m ρ)

/-- From launches that agree on the arguments, both programs run, end with equal results — \`out\` of the arguments, as
    extended reals — and leave their arguments unchanged. -/
theorem algebraic_of (hK : KernelOut) (hR : ReferenceOut) : Cert.algebraic_KernelIdeal_ReferenceIdeal := by
  intro m g m' g' hpre hagree
  refine ⟨fun c => outOfK m c, ?_, ?_⟩
  · exact (θ_run (Cert.KernelIdeal.defs (F := Ideal)) _ _).mono
      (fun r h c => ⟨(h c).1.trans (hK m g c hpre), (h c).2⟩) (Cert.KernelIdeal.KRun.run_result (F := Ideal) m g)
  · refine (θ_run (Cert.ReferenceIdeal.defs (F := Ideal)) _ _).mono (fun r h c => ⟨(h c).1.trans ?_, (h c).2⟩) (hR m' g')
    exact out_congr
      (hagree c).1
      (hagree c).2.1
      (hagree c).2.2.1
      (hagree c).2.2.2.1
      (hagree c).2.2.2.2.1
      (hagree c).2.2.2.2.2.1
      (hagree c).2.2.2.2.2.2.1
      (hagree c).2.2.2.2.2.2.2.1
      (hagree c).2.2.2.2.2.2.2.2.1
      (hagree c).2.2.2.2.2.2.2.2.2.1
      (hagree c).2.2.2.2.2.2.2.2.2.2.1
      (hagree c).2.2.2.2.2.2.2.2.2.2.2.1
      (hagree c).2.2.2.2.2.2.2.2.2.2.2.2.1
      (hagree c).2.2.2.2.2.2.2.2.2.2.2.2.2.1
      (hagree c).2.2.2.2.2.2.2.2.2.2.2.2.2.2.1
      (hagree c).2.2.2.2.2.2.2.2.2.2.2.2.2.2.2.1
      (hagree c).2.2.2.2.2.2.2.2.2.2.2.2.2.2.2.2.1
      (hagree c).2.2.2.2.2.2.2.2.2.2.2.2.2.2.2.2.2.1
      (hagree c).2.2.2.2.2.2.2.2.2.2.2.2.2.2.2.2.2.2.1
      (hagree c).2.2.2.2.2.2.2.2.2.2.2.2.2.2.2.2.2.2.2

/-- The certificate's claims, from the two results. -/
theorem claim_of (hK : KernelOut) (hR : ReferenceOut) : Cert.Claim :=
  ⟨Cert.Kernel.Gen.facts, Cert.KernelIdeal.Gen.facts, Cert.ReferenceIdeal.Gen.facts, Cert.Pre_finite_inputs.Gen.facts,
    frame_k, frame_ki, frame_ri, trivial, algebraic_of hK hR⟩

end Cert.Proof.Assemble
-- ==== Proof.LibRealEntries.lean ====
/-
  Arrays of extended reals all of whose entries are real numbers.

  \`IsReal x\` says the extended real \`x\` is a real number (neither \`⊤\` nor \`⊥\`); \`AllReal v\` says every entry of the
  array \`v\` is. The file carries the two predicates through the operations of a network read at the extended reals:

  * scalars: sums, differences, products, negations, maxima and minima, finite sums, the exponential (which is also
    positive), the quotient by a nonzero real, the logistic function, the reciprocal square root of a positive real (also
    positive), the numbers a few 32-bit float words denote (\`0\`, \`1\`, \`128\`, \`50000\`, and a positive real close to
    \`10⁻⁵\`), an integer converted to a float, and the comparison "a positive number is greater than zero" with the select
    it drives;
  * arrays, entry by entry: the pointwise operations above, format changes (the identity), a constant, and the selection
    between two arrays;
  * arrays whose every entry is an entry of the operand: broadcasts, shape casts, slices, transposes, a gather (whatever
    the start indices), and a concatenation (every entry is an entry of one of the pieces);
  * arrays whose entries are finite sums: a matrix product (into a real accumulator, or none), a reduction by sum along
    axes (with a real initial value, or none), and an accumulating scatter;
  * for the concatenation of two matrices along their columns: which piece an entry comes from, and the product of such a
    concatenation with a matrix as the sum of the two pieces' products with the matching rows of that matrix.
-/
import Idealize.ShloMosaic.PureOps.Ideal.Laws
import Idealize.ShloMosaic.Lib.ValueIdx
import Idealize.ShloMosaic.Lib.Pipeline.Value

noncomputable section

open scoped BigOperators

namespace Cert.Lib.RealEntries

open Idealize.ShloMosaic Idealize.ShloMosaic.ValueIdx

/-- An extended real that is a real number. -/
def IsReal (x : EReal) : Prop := ∃ r : ℝ, x = (r : EReal)

/-- An array of extended reals every entry of which is a real number. -/
def AllReal {s : Shape} (v : s.Idx → EReal) : Prop := ∀ i, IsReal (v i)

/-! ## Scalars -/

section Scalars
variable {x y : EReal}

/-- A real number, included in the extended reals, is real. -/
theorem isReal_coe (r : ℝ) : IsReal (r : EReal) := ⟨r, rfl⟩
/-- Zero is real. -/
theorem isReal_zero : IsReal 0 := ⟨0, EReal.coe_zero.symm⟩
/-- One is real. -/
theorem isReal_one : IsReal 1 := ⟨1, EReal.coe_one.symm⟩
/-- A real is not \`⊤\`. -/
theorem IsReal.ne_top (h : IsReal x) : x ≠ ⊤ := by obtain ⟨r, rfl⟩ := h; exact EReal.coe_ne_top r
/-- A real is not \`⊥\`. -/
theorem IsReal.ne_bot (h : IsReal x) : x ≠ ⊥ := by obtain ⟨r, rfl⟩ := h; exact EReal.coe_ne_bot r
/-- The reals among the extended reals are those that are neither \`⊥\` nor \`⊤\`. -/
theorem isReal_iff : IsReal x ↔ x ≠ ⊥ ∧ x ≠ ⊤ :=
  ⟨fun h => ⟨h.ne_bot, h.ne_top⟩, fun h => ⟨x.toReal, (EReal.coe_toReal h.2 h.1).symm⟩⟩
/-- The sum of two reals is real. -/
theorem IsReal.add (hx : IsReal x) (hy : IsReal y) : IsReal (x + y) := by
  obtain ⟨a, rfl⟩ := hx; obtain ⟨b, rfl⟩ := hy; exact ⟨a + b, (EReal.coe_add a b).symm⟩
/-- The difference of two reals is real. -/
theorem IsReal.sub (hx : IsReal x) (hy : IsReal y) : IsReal (x - y) := by
  obtain ⟨a, rfl⟩ := hx; obtain ⟨b, rfl⟩ := hy; exact ⟨a - b, (EReal.coe_sub a b).symm⟩
/-- The product of two reals is real. -/
theorem IsReal.mul (hx : IsReal x) (hy : IsReal y) : IsReal (x * y) := by
  obtain ⟨a, rfl⟩ := hx; obtain ⟨b, rfl⟩ := hy; exact ⟨a * b, (EReal.coe_mul a b).symm⟩
/-- The negation of a real is real. -/
theorem IsReal.neg (hx : IsReal x) : IsReal (-x) := by
  obtain ⟨a, rfl⟩ := hx; exact ⟨-a, (EReal.coe_neg a).symm⟩
/-- The maximum of two reals is real. -/
theorem IsReal.max (hx : IsReal x) (hy : IsReal y) : IsReal (max x y) := by
  rcases le_total x y with h | h
  · rw [max_eq_right h]; exact hy
  · rw [max_eq_left h]; exact hx
/-- The minimum of two reals is real. -/
theorem IsReal.min (hx : IsReal x) (hy : IsReal y) : IsReal (min x y) := by
  rcases le_total x y with h | h
  · rw [min_eq_left h]; exact hx
  · rw [min_eq_right h]; exact hy
/-- A finite sum of reals is real. -/
theorem isReal_sum {ι : Type*} (s : Finset ι) (f : ι → EReal) (h : ∀ i ∈ s, IsReal (f i)) : IsReal (∑ i ∈ s, f i) :=
  Finset.sum_induction f IsReal (fun _ _ => IsReal.add) isReal_zero h
/-- The exponential of a real is real. -/
theorem IsReal.exp (hx : IsReal x) : IsReal (Ideal.exp x) := by
  obtain ⟨a, rfl⟩ := hx; exact ⟨Real.exp a, Ideal.exp_coe a⟩
/-- The exponential of a real is positive. -/
theorem IsReal.exp_pos (hx : IsReal x) : 0 < Ideal.exp x := by
  obtain ⟨a, rfl⟩ := hx; rw [Ideal.exp_coe]; exact EReal.coe_pos.2 (Real.exp_pos a)
/-- The quotient of a real by a nonzero real is real. -/
theorem IsReal.div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a * (1 / b), by rw [Ideal.div_coe hb, ← EReal.coe_mul]⟩
/-- The quotient of a positive real by a positive real is positive. -/
theorem IsReal.div_pos (hx : IsReal x) (hy : IsReal y) (hx0 : 0 < x) (hy0 : 0 < y) : 0 < Ideal.div x y := by
  obtain ⟨a, rfl⟩ := hx; obtain ⟨b, rfl⟩ := hy
  have ha : 0 < a := EReal.coe_pos.1 hx0
  have hb : 0 < b := EReal.coe_pos.1 hy0
  rw [Ideal.div_coe hb.ne', ← EReal.coe_mul]
  exact EReal.coe_pos.2 (mul_pos ha (by positivity))
/-- The logistic function of a real is real. -/
theorem IsReal.logistic (hx : IsReal x) : IsReal (Ideal.logistic x) := by
  obtain ⟨a, rfl⟩ := hx; exact ⟨_, Ideal.logistic_coe a⟩
/-- The reciprocal square root of a positive real is real. -/
theorem IsReal.rsqrt (hx : IsReal x) (hpos : 0 < x) : IsReal (Ideal.rsqrt x) := by
  obtain ⟨a, rfl⟩ := hx
  have ha : 0 < a := EReal.coe_pos.1 hpos
  exact ⟨(Real.sqrt a)⁻¹, by rw [Ideal.rsqrt_coe, if_neg (not_lt.2 ha.le), if_neg ha.ne']⟩
/-- The reciprocal square root of a positive real is positive. -/
theorem IsReal.rsqrt_pos (hx : IsReal x) (hpos : 0 < x) : 0 < Ideal.rsqrt x := by
  obtain ⟨a, rfl⟩ := hx
  have ha : 0 < a := EReal.coe_pos.1 hpos
  rw [Ideal.rsqrt_coe, if_neg (not_lt.2 ha.le), if_neg ha.ne']
  exact EReal.coe_pos.2 (inv_pos.2 (Real.sqrt_pos.2 ha))
/-- The sum of a nonnegative real and a positive real is a positive real. -/
theorem IsReal.add_pos_of_nonneg_of_pos (hx : IsReal x) (hy : IsReal y) (hx0 : 0 ≤ x) (hy0 : 0 < y) : 0 < x + y := by
  obtain ⟨a, rfl⟩ := hx; obtain ⟨b, rfl⟩ := hy
  have ha : 0 ≤ a := EReal.coe_nonneg.1 hx0
  have hb : 0 < b := EReal.coe_pos.1 hy0
  rw [← EReal.coe_add]; exact EReal.coe_pos.2 (by linarith)

end Scalars

/-! ## The numbers a few 32-bit float words denote -/

/-- The word \`0x00000000\` denotes zero. -/
theorem ofBits_zero_f32 : Ideal.ofBits .f32 0x00000000#32 = 0 := Ideal.ofBits_zero_f32
/-- The word \`0x3F800000\` denotes one. -/
theorem ofBits_one_f32 : Ideal.ofBits .f32 0x3F800000#32 = 1 := by
  simp [Ideal.ofBits, Ideal.ieee, -EReal.coe_mul]; norm_num
/-- The word \`0x43000000\` denotes \`128\`. -/
theorem ofBits_128_f32 : Ideal.ofBits .f32 0x43000000#32 = ((128 : ℝ) : EReal) := by
  simp [Ideal.ofBits, Ideal.ieee, -EReal.coe_mul]; norm_num
/-- The word \`0x47435000\` denotes \`50000\`. -/
theorem ofBits_50000_f32 : Ideal.ofBits .f32 0x47435000#32 = ((50000 : ℝ) : EReal) := by
  simp [Ideal.ofBits, Ideal.ieee, -EReal.coe_mul]; norm_num
/-- The word \`0x3727C5AC\` (the 32-bit float nearest \`10⁻⁵\`) denotes a positive real. -/
theorem ofBits_eps_f32 : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]
/-- Zero's word denotes a real. -/
theorem isReal_ofBits_zero_f32 : IsReal (Ideal.ofBits .f32 0x00000000#32) := by rw [ofBits_zero_f32]; exact isReal_zero
/-- One's word denotes a real. -/
theorem isReal_ofBits_one_f32 : IsReal (Ideal.ofBits .f32 0x3F800000#32) := by rw [ofBits_one_f32]; exact isReal_one
/-- \`128\`'s word denotes a real. -/
theorem isReal_ofBits_128_f32 : IsReal (Ideal.ofBits .f32 0x43000000#32) := ⟨128, ofBits_128_f32⟩
/-- \`50000\`'s word denotes a real. -/
theorem isReal_ofBits_50000_f32 : IsReal (Ideal.ofBits .f32 0x47435000#32) := ⟨50000, ofBits_50000_f32⟩
/-- The word \`0x3727C5AC\` denotes a real. -/
theorem isReal_ofBits_eps_f32 : IsReal (Ideal.ofBits .f32 0x3727C5AC#32) := by
  obtain ⟨e, _, h⟩ := ofBits_eps_f32; exact ⟨e, h⟩
/-- The word \`0x3727C5AC\` denotes a positive number. -/
theorem ofBits_eps_f32_pos : 0 < Ideal.ofBits .f32 0x3727C5AC#32 := by
  obtain ⟨e, he, h⟩ := ofBits_eps_f32; rw [h]; exact EReal.coe_pos.2 he
/-- \`128\`'s word is not zero. -/
theorem ofBits_128_f32_ne_zero : Ideal.ofBits .f32 0x43000000#32 ≠ 0 := by
  rw [ofBits_128_f32]; exact EReal.coe_ne_zero.2 (by norm_num)
/-- \`50000\`'s word is not zero. -/
theorem ofBits_50000_f32_ne_zero : Ideal.ofBits .f32 0x47435000#32 ≠ 0 := by
  rw [ofBits_50000_f32]; exact EReal.coe_ne_zero.2 (by norm_num)

/-- The logistic function written with the quotient, the sum, the exponential and the negation, its two ones given by
    their 32-bit word, is the logistic function. -/
theorem logistic_written_out (x : EReal) :
    Ideal.div (Ideal.ofBits .f32 0x3F800000#32) (Ideal.ofBits .f32 0x3F800000#32 + Ideal.exp (-x)) = Ideal.logistic x := by
  rw [ofBits_one_f32]; rfl
/-- The written-out logistic function of a real is real. -/
theorem IsReal.logistic_written_out {x : EReal} (hx : IsReal x) :
    IsReal (Ideal.div (Ideal.ofBits .f32 0x3F800000#32) (Ideal.ofBits .f32 0x3F800000#32 + Ideal.exp (-x))) := by
  rw [Cert.Lib.RealEntries.logistic_written_out]; exact hx.logistic

/-! ## An integer converted to a float, and the comparison of a count with zero -/

/-- An integer converted to a float is real. -/
theorem isReal_sitofp {w : ℕ} (φ : FTy) (b : BitVec w) : IsReal (FloatOps.sitofp (F := Ideal) φ b) := ⟨(b.toInt : ℝ), rfl⟩
/-- The 32-bit integer zero converted to a float is zero. -/
theorem sitofp_zero_i32 : FloatOps.sitofp (F := Ideal) .f32 (0#32) = 0 := by
  show (((0#32 : BitVec 32).toInt : ℝ) : EReal) = 0
  simp
/-- \`50000\` less the integer zero converted to a float is \`50000\`. -/
theorem count_50000_sub_zero :
    Ideal.ofBits .f32 0x47435000#32 - FloatOps.sitofp (F := Ideal) .f32 (0#32) = ((50000 : ℝ) : EReal) := by
  rw [ofBits_50000_f32, sitofp_zero_i32, sub_zero]
/-- \`128\` less the integer zero converted to a float is \`128\`. -/
theorem count_128_sub_zero :
    Ideal.ofBits .f32 0x43000000#32 - FloatOps.sitofp (F := Ideal) .f32 (0#32) = ((128 : ℝ) : EReal) := by
  rw [ofBits_128_f32, sitofp_zero_i32, sub_zero]
/-- The comparison "greater than" of a positive number with the zero word answers the bit one. -/
theorem cmp_ogt_zero_of_pos {x : EReal} (h : 0 < x) : Ideal.cmp .ogt x (Ideal.ofBits .f32 0x00000000#32) = 1#1 := by
  rw [ofBits_zero_f32]
  show BitVec.ofBool (decide ((0 : EReal) < x)) = 1#1
  rw [decide_eq_true h]; rfl
/-- \`50000\` less the integer zero converted to a float is greater than the zero word: the comparison answers one. -/
theorem cmp_ogt_count_50000 :
    Ideal.cmp .ogt (Ideal.ofBits .f32 0x47435000#32 - FloatOps.sitofp (F := Ideal) .f32 (0#32))
      (Ideal.ofBits .f32 0x00000000#32) = 1#1 := by
  rw [count_50000_sub_zero]; exact cmp_ogt_zero_of_pos (EReal.coe_pos.2 (by norm_num))
/-- \`128\` less the integer zero converted to a float is greater than the zero word: the comparison answers one. -/
theorem cmp_ogt_count_128 :
    Ideal.cmp .ogt (Ideal.ofBits .f32 0x43000000#32 - FloatOps.sitofp (F := Ideal) .f32 (0#32))
      (Ideal.ofBits .f32 0x00000000#32) = 1#1 := by
  rw [count_128_sub_zero]; exact cmp_ogt_zero_of_pos (EReal.coe_pos.2 (by norm_num))
/-- A select on the bit one is its first operand. -/
theorem select_bit_one {α : Type} (a b : α) : Scalar.select 1#1 a b = a := select_one a b

/-! ## Arrays, entry by entry -/

section Pointwise
variable {s : Shape} {φ : FTy} {a b : FVec Ideal s φ}

/-- The pointwise sum of two arrays of reals is an array of reals. -/
theorem allReal_addf (ha : AllReal a) (hb : AllReal b) : AllReal (addf a b) := fun i => (ha i).add (hb i)
/-- The pointwise difference of two arrays of reals is an array of reals. -/
theorem allReal_subf (ha : AllReal a) (hb : AllReal b) : AllReal (subf a b) := fun i => (ha i).sub (hb i)
/-- The pointwise product of two arrays of reals is an array of reals. -/
theorem allReal_mulf (ha : AllReal a) (hb : AllReal b) : AllReal (mulf a b) := fun i => (ha i).mul (hb i)
/-- The pointwise maximum of two arrays of reals is an array of reals. -/
theorem allReal_maximumf (ha : AllReal a) (hb : AllReal b) : AllReal (maximumf a b) := fun i => (ha i).max (hb i)
/-- The pointwise minimum of two arrays of reals is an array of reals. -/
theorem allReal_minimumf (ha : AllReal a) (hb : AllReal b) : AllReal (minimumf a b) := fun i => (ha i).min (hb i)
/-- The pointwise negation of an array of reals is an array of reals. -/
theorem allReal_negf (ha : AllReal a) : AllReal (negf a) := fun i => (ha i).neg
/-- The host's pointwise negation of an array of reals is an array of reals. -/
theorem allReal_host_negf (ha : AllReal a) : AllReal (Host.negf a) := fun i => (ha i).neg
/-- The pointwise quotient of an array of reals by an array of nonzero reals is an array of reals. -/
theorem allReal_divf (ha : AllReal a) (hb : AllReal b) (h0 : ∀ i, b i ≠ 0) : AllReal (divf a b) :=
  fun i => (ha i).div (hb i) (h0 i)
/-- The host's pointwise quotient of an array of reals by an array of nonzero reals is an array of reals. -/
theorem allReal_host_divf (ha : AllReal a) (hb : AllReal b) (h0 : ∀ i, b i ≠ 0) : AllReal (Host.divf a b) :=
  fun i => (ha i).div (hb i) (h0 i)
/-- The pointwise exponential of an array of reals is an array of reals. -/
theorem allReal_exp (ha : AllReal a) : AllReal (exp a) := fun i => (ha i).exp
/-- The host's pointwise exponential of an array of reals is an array of reals. -/
theorem allReal_host_exp (ha : AllReal a) : AllReal (Host.exp a) := fun i => (ha i).exp
/-- Every entry of the pointwise exponential of an array of reals is positive. -/
theorem exp_pos_of_allReal (ha : AllReal a) (i : s.Idx) : 0 < exp a i := (ha i).exp_pos
/-- Every entry of the host's pointwise exponential of an array of reals is positive. -/
theorem host_exp_pos_of_allReal (ha : AllReal a) (i : s.Idx) : 0 < Host.exp a i := (ha i).exp_pos
/-- The pointwise reciprocal square root of an array of positive reals is an array of reals. -/
theorem allReal_rsqrt (ha : AllReal a) (hpos : ∀ i, 0 < a i) : AllReal (rsqrt a) := fun i => (ha i).rsqrt (hpos i)
/-- The host's pointwise reciprocal square root of an array of positive reals is an array of reals. -/
theorem allReal_host_rsqrt (ha : AllReal a) (hpos : ∀ i, 0 < a i) : AllReal (Host.rsqrt a) :=
  fun i => (ha i).rsqrt (hpos i)
/-- Every entry of the host's pointwise reciprocal square root of an array of positive reals is positive. -/
theorem host_rsqrt_pos_of_allReal (ha : AllReal a) (hpos : ∀ i, 0 < a i) (i : s.Idx) : 0 < Host.rsqrt a i :=
  (ha i).rsqrt_pos (hpos i)
/-- The pointwise logistic function of an array of reals is an array of reals. -/
theorem allReal_logistic (ha : AllReal a) : AllReal (logistic a) := fun i => (ha i).logistic
/-- The host's pointwise logistic function of an array of reals is an array of reals. -/
theorem allReal_host_logistic (ha : AllReal a) : AllReal (Host.logistic a) := fun i => (ha i).logistic
/-- A narrowing change of format leaves an array of reals an array of reals (it is the identity). -/
theorem allReal_truncf {ψ : FTy} (h : ψ.bits < φ.bits) (ha : AllReal a) : AllReal (truncf ψ a h : FVec Ideal s ψ) :=
  fun i => ha i
/-- A widening change of format leaves an array of reals an array of reals (it is the identity). -/
theorem allReal_extf {ψ : FTy} (h : φ.bits < ψ.bits) (ha : AllReal a) : AllReal (extf ψ a h : FVec Ideal s ψ) :=
  fun i => ha i
/-- A constant array whose word denotes a real is an array of reals. -/
theorem allReal_constant (w : BitVec φ.bits) (hw : IsReal (Ideal.ofBits φ w)) : AllReal (constant (F := Ideal) s φ w) :=
  fun _ => hw
/-- A real scalar spread over an array is an array of reals. -/
theorem allReal_broadcast (x : EReal) (hx : IsReal x) : AllReal (broadcast s x) := fun _ => hx
/-- The pointwise selection between two arrays of reals is an array of reals, whatever the condition. -/
theorem allReal_select (c : IVec s 1) {u v : s.Idx → EReal} (hu : AllReal u) (hv : AllReal v) : AllReal (select c u v) := by
  intro i
  show IsReal (if c i = 1 then u i else v i)
  split
  · exact hu i
  · exact hv i
/-- An array of integers converted to floats is an array of reals. -/
theorem allReal_sitofp {w : ℕ} (x : IVec s w) : AllReal (sitofp φ x : FVec Ideal s φ) := fun i => isReal_sitofp φ (x i)

end Pointwise

/-! ## Arrays whose every entry is an entry of the operand -/

section Layout
variable {s t : Shape} {x : s.Idx → EReal}

/-- An array of reals read through any map of indices is an array of reals. -/
theorem allReal_comp (hx : AllReal x) (g : t.Idx → s.Idx) : AllReal (fun j => x (g j)) := fun j => hx (g j)
/-- A \`broadcast_in_dim\` of an array of reals is an array of reals. -/
theorem allReal_broadcastInDim (dims : Fin s.rank → Fin t.rank) (h : s.BroadcastsInDim t dims) (hx : AllReal x) :
    AllReal (broadcastInDim t dims h x) := fun _ => hx _
/-- A broadcast of an array of reals to a larger shape is an array of reals. -/
theorem allReal_broadcastTo (h : s.Broadcasts t) (hx : AllReal x) : AllReal (broadcastTo t x h) := fun _ => hx _
/-- A shape cast of an array of reals is an array of reals. -/
theorem allReal_shapeCast (h : s.ShapeCasts t) (hx : AllReal x) : AllReal (shapeCast t x h) := fun _ => hx _
/-- A unit-stride slice of an array of reals is an array of reals. -/
theorem allReal_extractStridedSlice (off : Fin s.rank → Nat) (h : s.Slices off t) (hx : AllReal x) :
    AllReal (extractStridedSlice t off x h) := fun _ => hx _
/-- A transpose of an array of reals is an array of reals. -/
theorem allReal_transpose (perm : List (Fin s.rank)) (h : s.Transposes perm t) (hx : AllReal x) :
    AllReal (transpose t perm x h) := fun _ => hx _
/-- Every entry of a gather is an entry of the operand, whatever the dimension numbers and the start indices. -/
theorem host_gather_entry {α : Type} {si : Shape} {w : ℕ} (d : GatherDims s si t) (v : s.Idx → α) (idx : IVec si w)
    (j : t.Idx) : ∃ i, Host.gather d v idx j = v i := ⟨_, rfl⟩
/-- A gather from an array of reals is an array of reals, whatever the dimension numbers and the start indices. -/
theorem allReal_host_gather {si : Shape} {w : ℕ} (d : GatherDims s si t) (idx : IVec si w) (hx : AllReal x) :
    AllReal (Host.gather d x idx) := fun _ => hx _

end Layout

/-! ## Arrays whose entries are finite sums -/

section Sums
variable {φ : FTy}

/-- A matrix product of arrays of reals into an accumulator of reals is an array of reals. -/
theorem allReal_matmul {sl sr so : Shape} {φ₁ φ₂ : FTy} (d : DotDims sl sr so) (prec : Option ContractPrecision)
    (lhs : FVec Ideal sl φ₁) (rhs : FVec Ideal sr φ₂) (acc : FVec Ideal so .f32) (hl : AllReal lhs) (hr : AllReal rhs)
    (hacc : AllReal acc) : AllReal (matmul d prec lhs rhs acc) := by
  intro j
  show IsReal (acc j + ∑ k : d.contr.Idx, lhs (d.lhsIdx j k) * rhs (d.rhsIdx j k))
  exact (hacc j).add (isReal_sum _ _ fun k _ => (hl _).mul (hr _))
/-- A matrix product of arrays of reals into the zero accumulator is an array of reals. -/
theorem allReal_matmul_zero {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (matmul d prec lhs rhs (constant so .f32 0x00000000#32)) :=
  allReal_matmul d prec lhs rhs _ hl hr (allReal_constant _ isReal_ofBits_zero_f32)
/-- The host's matrix product of arrays of reals is an array of reals. -/
theorem allReal_host_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := by
  intro j
  show IsReal ((0 : EReal) + ∑ k : d.contr.Idx, lhs (d.lhsIdx j k) * rhs (d.rhsIdx j k))
  exact isReal_zero.add (isReal_sum _ _ fun k _ => (hl _).mul (hr _))
/-- The host's sum along axes of an array of reals, from a real initial value, is an array of reals. -/
theorem allReal_host_reduceAdd {s t u : Shape} {axes : List (Fin s.rank)} (x : FVec Ideal s φ) (init : u.Idx → Ideal φ)
    (h : s.ReducesTo axes t) (hu : 0 < u.numel) (hx : AllReal x) (hinit : AllReal init) :
    AllReal (Host.reduceAdd x init h hu) := by
  intro j
  unfold Host.reduceAdd
  rw [Ideal.hostReduceAdd_def]
  unfold Ideal.hostReduceAdd
  exact (hinit _).add (isReal_sum _ _ fun i _ => hx i)
/-- A kernel's sum along axes of an array of reals is an array of reals. -/
theorem allReal_multiReduction_add {s t : Shape} {axes : List (Fin s.rank)} (src : FVec Ideal s φ) (acc : BitVec φ.bits)
    (h : s.Reduces axes t) (hφ : FKind.Formats φ) (hacc : acc = FKind.add.neutral φ hφ) (hsrc : AllReal src) :
    AllReal (multiReduction .add axes t src acc h hφ hacc) := by
  intro j
  show IsReal (Ideal.reduceAdd h src j)
  unfold Ideal.reduceAdd
  exact isReal_sum _ _ fun i _ => hsrc i
/-- The host's accumulating scatter of an array of real updates into an array of reals is an array of reals, whatever
    the dimension numbers and the scatter indices. -/
theorem allReal_host_scatterAdd {s si u : Shape} {w : ℕ} (d : ScatterDims s si u) (x : FVec Ideal s φ) (idx : IVec si w)
    (upd : FVec Ideal u φ) (hx : AllReal x) (hupd : AllReal upd) : AllReal (Host.scatterAdd d x idx upd) := by
  intro i
  unfold Host.scatterAdd
  rw [Ideal.hostScatterAdd_def]
  unfold Ideal.hostScatterAdd
  exact (hx i).add (isReal_sum _ _ fun j _ => hupd j)

end Sums

/-! ## Concatenation -/

section Concatenate

/-- Every entry of a concatenation of arrays of reals, any number of pieces along any axis, is real. -/
theorem allReal_concatenate {t : Shape} (a : Fin t.rank) (xs : List ((s : Shape) × (s.Idx → EReal)))
    (h : Shape.Concatenates (xs.map (·.1)) t a) (hxs : ∀ p ∈ xs, AllReal p.2) : AllReal (concatenate t a xs h) := by
  intro j
  unfold concatenate
  exact hxs _ (List.getElem_mem _) _

/-- Every entry of a concatenation of two arrays of reals is real. -/
theorem allReal_concatenate_pair {t s₁ s₂ : Shape} (a : Fin t.rank) (x₁ : s₁.Idx → EReal) (x₂ : s₂.Idx → EReal)
    (h : Shape.Concatenates [s₁, s₂] t a) (h₁ : AllReal x₁) (h₂ : AllReal x₂) :
    AllReal (concatenate t a [⟨s₁, x₁⟩, ⟨s₂, x₂⟩] h) :=
  allReal_concatenate a [⟨s₁, x₁⟩, ⟨s₂, x₂⟩] h (by
    intro p hp
    rcases List.mem_pair.1 hp with rfl | rfl
    · exact h₁
    · exact h₂)

variable {α : Type} {E A B C : ℕ}

/-- Two matrices with \`A\` and \`B\` columns concatenated along their columns, read at column \`k < A\`: the first piece
    there. -/
theorem concat_cols_left (hC : C = A + B) (x : (⟨2, ![E, A]⟩ : Shape).Idx → α) (y : (⟨2, ![E, B]⟩ : Shape).Idx → α)
    (h : Shape.Concatenates [(⟨2, ![E, A]⟩ : Shape), ⟨2, ![E, B]⟩] ⟨2, ![E, C]⟩ 1) (p : Fin E) (k : Fin A) :
    concatenate ⟨2, ![E, C]⟩ 1 [⟨⟨2, ![E, A]⟩, x⟩, ⟨⟨2, ![E, B]⟩, y⟩] h (ix2 p ⟨k.val, by have := k.isLt; omega⟩)
      = x (ix2 p k) :=
  concatenate_pair_apply_left 1 x y h _ rfl (ix2 p k) (fun b => by
    match b with
    | ⟨0, _⟩ => rfl
    | ⟨1, _⟩ => rfl)

/-- The same concatenation read at column \`A + k\`, \`k < B\`: the second piece at column \`k\`. -/
theorem concat_cols_right (hC : C = A + B) (x : (⟨2, ![E, A]⟩ : Shape).Idx → α) (y : (⟨2, ![E, B]⟩ : Shape).Idx → α)
    (h : Shape.Concatenates [(⟨2, ![E, A]⟩ : Shape), ⟨2, ![E, B]⟩] ⟨2, ![E, C]⟩ 1) (p : Fin E) (k : Fin B) :
    concatenate ⟨2, ![E, C]⟩ 1 [⟨⟨2, ![E, A]⟩, x⟩, ⟨⟨2, ![E, B]⟩, y⟩] h (ix2 p ⟨A + k.val, by have := k.isLt; omega⟩)
      = y (ix2 p k) := by
  refine concatenate_pair_apply_right 1 x y h _ rfl rfl (ix2 p k) (fun b hb => ?_) ?_
  · match b with
    | ⟨0, _⟩ => rfl
    | ⟨1, _⟩ => exact absurd rfl hb
  · show k.val + A = A + k.val
    exact Nat.add_comm _ _

/-- The same concatenation read at any column \`k\`: the first piece at \`k\` when \`k < A\`, else the second at \`k - A\`. -/
theorem concat_cols_apply (hC : C = A + B) (x : (⟨2, ![E, A]⟩ : Shape).Idx → α) (y : (⟨2, ![E, B]⟩ : Shape).Idx → α)
    (h : Shape.Concatenates [(⟨2, ![E, A]⟩ : Shape), ⟨2, ![E, B]⟩] ⟨2, ![E, C]⟩ 1) (p : Fin E) (k : Fin C) :
    concatenate ⟨2, ![E, C]⟩ 1 [⟨⟨2, ![E, A]⟩, x⟩, ⟨⟨2, ![E, B]⟩, y⟩] h (ix2 p k)
      = if hk : k.val < A then x (ix2 p ⟨k.val, hk⟩) else y (ix2 p ⟨k.val - A, by have := k.isLt; omega⟩) := by
  by_cases hk : k.val < A
  · rw [dif_pos hk]
    exact concat_cols_left hC x y h p ⟨k.val, hk⟩
  · rw [dif_neg hk]
    have hkB : k.val - A < B := by have := k.isLt; omega
    have e : k = ⟨A + (k.val - A), by have := k.isLt; omega⟩ := Fin.ext (by show k.val = A + (k.val - A); omega)
    exact (congrArg (fun kk : Fin C =>
      concatenate ⟨2, ![E, C]⟩ 1 [⟨⟨2, ![E, A]⟩, x⟩, ⟨⟨2, ![E, B]⟩, y⟩] h (ix2 p kk)) e).trans
      (concat_cols_right hC x y h p ⟨k.val - A, hkB⟩)

/-- A sum over \`C = A + B\` positions is the sum over the first \`A\` plus the sum over the last \`B\`. -/
theorem sum_fin_split {M : Type*} [AddCommMonoid M] (hC : C = A + B) (F : Fin C → M) :
    ∑ k : Fin C, F k
      = ∑ k : Fin A, F ⟨k.val, by have := k.isLt; omega⟩ + ∑ k : Fin B, F ⟨A + k.val, by have := k.isLt; omega⟩ := by
  subst hC
  rw [Fin.sum_univ_add]
  rfl

/-- The product of a column concatenation with a matrix, at row \`p\` and column \`q\`: the first piece's product with the
    first \`A\` rows of the matrix plus the second piece's product with its last \`B\` rows. -/
theorem sum_concat_cols_mul {Q : ℕ} (hC : C = A + B) (x : (⟨2, ![E, A]⟩ : Shape).Idx → EReal)
    (y : (⟨2, ![E, B]⟩ : Shape).Idx → EReal)
    (h : Shape.Concatenates [(⟨2, ![E, A]⟩ : Shape), ⟨2, ![E, B]⟩] ⟨2, ![E, C]⟩ 1)
    (W : (⟨2, ![C, Q]⟩ : Shape).Idx → EReal) (p : Fin E) (q : Fin Q) :
    ∑ k : Fin C, concatenate ⟨2, ![E, C]⟩ 1 [⟨⟨2, ![E, A]⟩, x⟩, ⟨⟨2, ![E, B]⟩, y⟩] h (ix2 p k) * W (ix2 k q)
      = ∑ k : Fin A, x (ix2 p k) * W (ix2 ⟨k.val, by have := k.isLt; omega⟩ q)
        + ∑ k : Fin B, y (ix2 p k) * W (ix2 ⟨A + k.val, by have := k.isLt; omega⟩ q) := by
  rw [sum_fin_split hC]
  congr 1
  · exact Finset.sum_congr rfl fun k _ => congrArg (· * W _) (concat_cols_left hC x y h p k)
  · exact Finset.sum_congr rfl fun k _ => congrArg (· * W _) (concat_cols_right hC x y h p k)

end Concatenate

end Cert.Lib.RealEntries
-- ==== Proof.LibBatchStats.lean ====
/-
  The mean and the variance of finitely many real numbers, computed with the operations of the extended reals.

  For \`n > 0\` extended reals \`f 0, …, f (n - 1)\` that are all real numbers, and \`N\` the extended real \`n\`:

  * the mean \`(∑ f i) / N\` is a real number;
  * the variance computed from the two raw moments, \`(∑ f i · f i) / N − ((∑ f i) / N) · ((∑ f i) / N)\`, equals the
    variance computed from the centred values, \`(∑ (f i − μ) · (f i − μ)) / N\` with \`μ = (∑ f j) / N\`;
  * that common value is a real number and is not negative, so adding a positive real \`ε\` to it gives a positive real;
  * a sum over \`Fin (T * M)\` is the sum over \`t : Fin T\` of the block sums over \`y : Fin M\` at position \`t * M + y\`.

  The quotient is \`Ideal.div\` (the extended reals' quotient: \`x · y⁻¹\` off zero); sums, products and differences are the
  extended reals' own. None of the identities holds at an infinite entry (\`⊤ − ⊤\` is \`⊥\` there), hence the hypothesis
  that every entry is real.
-/
import Idealize.ShloMosaic.PureOps.Ideal.Laws

noncomputable section

open scoped BigOperators

namespace Cert.Lib.BatchStats

open Idealize.ShloMosaic

/-- The inclusion of the reals in the extended reals commutes with a finite sum. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The quotient of a sum of \`n > 0\` reals by \`n\` is the real \`(∑ g i) · (1 / n)\`. -/
theorem div_sum_coe {n : ℕ} (hn : 0 < n) (g : Fin n → ℝ) :
    Ideal.div (∑ i, (g i : EReal)) ((n : ℝ) : EReal) = (((∑ i, g i) * (1 / (n : ℝ)) : ℝ) : EReal) := by
  have hn' : (n : ℝ) ≠ 0 := by exact_mod_cast hn.ne'
  rw [Ideal.div_coe hn', ← coe_finset_sum, ← EReal.coe_mul]

/-- On the reals: the second raw moment minus the squared mean is the mean of the squared centred values. -/
theorem real_variance_identity {n : ℕ} (hn : 0 < n) (r : Fin n → ℝ) :
    (∑ i, r i * r i) * (1 / (n : ℝ)) - ((∑ i, r i) * (1 / (n : ℝ))) * ((∑ i, r i) * (1 / (n : ℝ)))
      = (∑ i, (r i - (∑ j, r j) * (1 / (n : ℝ))) * (r i - (∑ j, r j) * (1 / (n : ℝ)))) * (1 / (n : ℝ)) := by
  have hn' : (n : ℝ) ≠ 0 := by exact_mod_cast hn.ne'
  have h : ∀ m : ℝ, ∑ i, (r i - m) * (r i - m) = (∑ i, r i * r i) - 2 * m * (∑ i, r i) + n * (m * m) := by
    intro m
    have hexp : ∀ i, (r i - m) * (r i - m) = r i * r i - 2 * m * r i + m * m := fun i => by ring
    rw [Finset.sum_congr rfl fun i _ => hexp i, Finset.sum_add_distrib, Finset.sum_sub_distrib, ← Finset.mul_sum,
      Finset.sum_const, Finset.card_univ, Fintype.card_fin, nsmul_eq_mul]
  rw [h]
  field_simp
  ring

section Variance

variable {n : ℕ} (hn : 0 < n) (f : Fin n → EReal) (hf : ∀ i, ∃ r : ℝ, f i = (r : EReal)) (N : EReal)
  (hN : N = ((n : ℝ) : EReal))

include hn hf hN

/-- The mean of \`n > 0\` real entries is a real number. -/
theorem mean_real : ∃ m : ℝ, Ideal.div (∑ i, f i) N = (m : EReal) := by
  subst hN
  choose r hr using hf
  obtain rfl : f = fun i => (r i : EReal) := funext hr
  exact ⟨_, div_sum_coe hn r⟩

/-- The variance from the raw moments, \`E[x²] − E[x]²\`, equals the variance from the centred values,
    \`E[(x − E x)²]\`, for \`n > 0\` real entries. -/
theorem variance_raw_eq_centred :
    Ideal.div (∑ i, f i * f i) N - Ideal.div (∑ i, f i) N * Ideal.div (∑ i, f i) N
      = Ideal.div (∑ i, (f i - Ideal.div (∑ j, f j) N) * (f i - Ideal.div (∑ j, f j) N)) N := by
  subst hN
  choose r hr using hf
  obtain rfl : f = fun i => (r i : EReal) := funext hr
  have hmean := div_sum_coe hn r
  have h2 : Ideal.div (∑ i, (r i : EReal) * (r i : EReal)) ((n : ℝ) : EReal)
      = (((∑ i, r i * r i) * (1 / (n : ℝ)) : ℝ) : EReal) := by
    have : (∑ i, (r i : EReal) * (r i : EReal)) = ∑ i, ((r i * r i : ℝ) : EReal) :=
      Finset.sum_congr rfl fun i _ => (EReal.coe_mul _ _).symm
    rw [this, div_sum_coe hn]
  rw [hmean, h2]
  have h3 : Ideal.div (∑ i, ((r i : EReal) - (((∑ j, r j) * (1 / (n : ℝ)) : ℝ) : EReal))
        * ((r i : EReal) - (((∑ j, r j) * (1 / (n : ℝ)) : ℝ) : EReal))) ((n : ℝ) : EReal)
      = (((∑ i, (r i - (∑ j, r j) * (1 / (n : ℝ))) * (r i - (∑ j, r j) * (1 / (n : ℝ)))) * (1 / (n : ℝ)) : ℝ) : EReal) := by
    have : (∑ i, ((r i : EReal) - (((∑ j, r j) * (1 / (n : ℝ)) : ℝ) : EReal))
          * ((r i : EReal) - (((∑ j, r j) * (1 / (n : ℝ)) : ℝ) : EReal)))
        = ∑ i, (((r i - (∑ j, r j) * (1 / (n : ℝ))) * (r i - (∑ j, r j) * (1 / (n : ℝ))) : ℝ) : EReal) :=
      Finset.sum_congr rfl fun i _ => by rw [← EReal.coe_sub, ← EReal.coe_mul]
    rw [this, div_sum_coe hn]
  rw [h3, ← EReal.coe_mul, ← EReal.coe_sub]
  exact congrArg _ (real_variance_identity hn r)

/-- The variance from the centred values is a real number and is not negative. -/
theorem variance_centred_real_nonneg :
    ∃ v : ℝ, 0 ≤ v ∧
      Ideal.div (∑ i, (f i - Ideal.div (∑ j, f j) N) * (f i - Ideal.div (∑ j, f j) N)) N = (v : EReal) := by
  subst hN
  choose r hr using hf
  obtain rfl : f = fun i => (r i : EReal) := funext hr
  rw [div_sum_coe hn r]
  refine ⟨(∑ i, (r i - (∑ j, r j) * (1 / (n : ℝ))) * (r i - (∑ j, r j) * (1 / (n : ℝ)))) * (1 / (n : ℝ)),
    mul_nonneg (Finset.sum_nonneg fun i _ => mul_self_nonneg _) (by positivity), ?_⟩
  have : (∑ i, ((r i : EReal) - (((∑ j, r j) * (1 / (n : ℝ)) : ℝ) : EReal))
        * ((r i : EReal) - (((∑ j, r j) * (1 / (n : ℝ)) : ℝ) : EReal)))
      = ∑ i, (((r i - (∑ j, r j) * (1 / (n : ℝ))) * (r i - (∑ j, r j) * (1 / (n : ℝ))) : ℝ) : EReal) :=
    Finset.sum_congr rfl fun i _ => by rw [← EReal.coe_sub, ← EReal.coe_mul]
  rw [this, div_sum_coe hn]

/-- The variance from the raw moments is a real number and is not negative. -/
theorem variance_raw_real_nonneg :
    ∃ v : ℝ, 0 ≤ v ∧
      Ideal.div (∑ i, f i * f i) N - Ideal.div (∑ i, f i) N * Ideal.div (∑ i, f i) N = (v : EReal) := by
  rw [variance_raw_eq_centred hn f hf N hN]
  exact variance_centred_real_nonneg hn f hf N hN

/-- The centred variance plus a positive real \`ε\` is a positive real. -/
theorem variance_centred_add_pos (ε : EReal) (hε : ∃ e : ℝ, 0 < e ∧ ε = (e : EReal)) :
    ∃ w : ℝ, 0 < w ∧
      Ideal.div (∑ i, (f i - Ideal.div (∑ j, f j) N) * (f i - Ideal.div (∑ j, f j) N)) N + ε = (w : EReal) := by
  obtain ⟨v, hv, hveq⟩ := variance_centred_real_nonneg hn f hf N hN
  obtain ⟨e, he, rfl⟩ := hε
  exact ⟨v + e, by linarith, by rw [hveq, EReal.coe_add]⟩

/-- The raw-moment variance plus a positive real \`ε\` is a positive real. -/
theorem variance_raw_add_pos (ε : EReal) (hε : ∃ e : ℝ, 0 < e ∧ ε = (e : EReal)) :
    ∃ w : ℝ, 0 < w ∧
      Ideal.div (∑ i, f i * f i) N - Ideal.div (∑ i, f i) N * Ideal.div (∑ i, f i) N + ε = (w : EReal) := by
  rw [variance_raw_eq_centred hn f hf N hN]
  exact variance_centred_add_pos hn f hf N hN ε hε

/-- So the centred variance plus a positive real \`ε\` is above zero in the extended reals. -/
theorem variance_centred_add_pos' (ε : EReal) (hε : ∃ e : ℝ, 0 < e ∧ ε = (e : EReal)) :
    0 < Ideal.div (∑ i, (f i - Ideal.div (∑ j, f j) N) * (f i - Ideal.div (∑ j, f j) N)) N + ε := by
  obtain ⟨w, hw, hweq⟩ := variance_centred_add_pos hn f hf N hN ε hε
  rw [hweq]; exact EReal.coe_pos.mpr hw

end Variance

/-- Position \`t * M + y\` of block \`t\` lies below \`T * M\`. -/
theorem block_index_lt {T M : ℕ} (t : Fin T) (y : Fin M) : t.val * M + y.val < T * M := by
  have h1 : t.val * M + y.val < (t.val + 1) * M := by
    rw [Nat.add_mul, Nat.one_mul]; exact Nat.add_lt_add_left y.isLt _
  exact lt_of_lt_of_le h1 (Nat.mul_le_mul_right M t.isLt)

/-- A sum over \`Fin (T * M)\` is the sum over the \`T\` blocks of the sums over the \`M\` positions \`t * M + y\` of
    each block. -/
theorem sum_fin_mul_blocks {α : Type*} [AddCommMonoid α] {T M : ℕ} (g : Fin (T * M) → α) :
    ∑ i : Fin (T * M), g i = ∑ t : Fin T, ∑ y : Fin M, g ⟨t.val * M + y.val, block_index_lt t y⟩ := by
  rw [← (finProdFinEquiv (m := T) (n := M)).sum_comp g, Fintype.sum_prod_type]
  refine Finset.sum_congr rfl fun t _ => Finset.sum_congr rfl fun y _ => congrArg g (Fin.ext ?_)
  show y.val + M * t.val = t.val * M + y.val
  rw [Nat.mul_comm, Nat.add_comm]

end Cert.Lib.BatchStats
-- ==== Proof.LibTileStats.lean ====
/-
  Column sums of a tall array computed tile by tile.

  An array `raw` of `N = T · M` rows and `C` columns is cut into `T` tiles of `M` consecutive rows. A second array
  `stats` of shape `[T, R, C]` holds, in row `r` of block `t`, some per-tile column quantity (the tile's column sums,
  or the tile's column sums of squares). The chain of host operations

      slice row `r` of every block  ([T, R, C] → [T, 1, C]),
      reshape                         ([T, 1, C] → [T, C]),
      reduce-add over axis 0 from 0   ([T, C] → [C])

  read at column `q` is `∑ t, stats[t, r, q]`; when row `r` of block `t` is the sum over the tile's rows
  `t · M + y` of a quantity `g`, that is the sum of `g` over all `N` rows — the same value a reduce-add over axis 0 of
  the whole `[N, C]` array gives. All at the extended reals, where the host's sum is the exact sum.
-/
import Idealize.ShloMosaic.Lib.Pipeline.Value
import Idealize.ShloMosaic.Lib.IdealHost
import proofs.«108144_j81140522156740_2_alg».proof.Proof.LibBatchStats

noncomputable section

open scoped BigOperators

namespace Cert.Lib.TileStats

open Idealize.ShloMosaic Idealize.ShloMosaic.ValueIdx

variable {φ : FTy}

/-- A host reduce-add over axis 0 of an `[N, C]` array, from an initial value that is zero, read at column `q`: the sum
    of the column's `N` entries. -/
theorem reduceRows_apply {N C : ℕ} (x : FVec Ideal ⟨2, ![N, C]⟩ φ) {u : Shape} (init : u.Idx → Ideal φ)
    (h' : (⟨2, ![N, C]⟩ : Shape).ReducesTo [0] ⟨1, ![C]⟩) (hu : 0 < u.numel)
    (hinit : init (Shape.Idx.first hu) = 0) (q : Fin C) :
    Host.reduceAdd (F := Ideal) x init h' hu (ix1 q) = ∑ i : Fin N, x (ix2 i q) := by
  have h : (⟨2, ![N, C]⟩ : Shape).Reduces [0] ⟨1, ![C]⟩ := ⟨h'.1, Nat.one_pos, h'.2⟩
  rw [hostReduceAdd_apply, Ideal.hostReduceAdd_single h' h, hinit, zero_add]
  show ∑ k : Fin N, x (h.lift (ix1 q) k) = ∑ i : Fin N, x (ix2 i q)
  refine Finset.sum_congr rfl fun k _ => congrArg x (funext fun c => Fin.ext ?_)
  match c with
  | ⟨0, _⟩ => rfl
  | ⟨1, _⟩ => rfl

/-- Row `r` of every block of a `[T, R, C]` array, sliced out as `[T, 1, C]` and reshaped to `[T, C]`, read at `(t, q)`:
    the array at `(t, r, q)`. -/
theorem sliceRow_apply {α : Type} {T R C : ℕ} (r : ℕ) (hr : r < R) (stats : (⟨3, ![T, R, C]⟩ : Shape).Idx → α)
    (hs : (⟨3, ![T, R, C]⟩ : Shape).Slices ![0, r, 0] ⟨3, ![T, 1, C]⟩)
    (hc : (⟨3, ![T, 1, C]⟩ : Shape).ShapeCasts ⟨2, ![T, C]⟩) (t : Fin T) (q : Fin C) :
    shapeCast ⟨2, ![T, C]⟩ (extractStridedSlice ⟨3, ![T, 1, C]⟩ ![0, r, 0] stats hs) hc (ix2 t q)
      = stats (ix3 t ⟨r, hr⟩ q) := by
  refine (shapeCast_apply _ hc (ix2 t q) (ix3 t (0 : Fin 1) q) ?_).trans ?_
  · rw [Shape.rowMajor_val_three, Shape.rowMajor_val_two]
    show (t.val * 1 + 0) * C + q.val = t.val * C + q.val
    rw [Nat.mul_one, Nat.add_zero]
  · refine extractStridedSlice_apply _ stats hs _ _ fun a => ?_
    match a with
    | ⟨0, _⟩ => show t.val = 0 + t.val; omega
    | ⟨1, _⟩ => show r = r + 0; omega
    | ⟨2, _⟩ => show q.val = 0 + q.val; omega

/-- The chain "slice row `r` of every block, reshape to `[T, C]`, reduce-add over axis 0 from zero" read at column `q`:
    the sum over the blocks of the array at `(t, r, q)`. -/
theorem tileChain_apply {T R C : ℕ} (r : ℕ) (hr : r < R) (stats : FVec Ideal ⟨3, ![T, R, C]⟩ φ)
    (hs : (⟨3, ![T, R, C]⟩ : Shape).Slices ![0, r, 0] ⟨3, ![T, 1, C]⟩)
    (hc : (⟨3, ![T, 1, C]⟩ : Shape).ShapeCasts ⟨2, ![T, C]⟩)
    {u : Shape} (init : u.Idx → Ideal φ) (h' : (⟨2, ![T, C]⟩ : Shape).ReducesTo [0] ⟨1, ![C]⟩) (hu : 0 < u.numel)
    (hinit : init (Shape.Idx.first hu) = 0) (q : Fin C) :
    Host.reduceAdd (F := Ideal)
        (shapeCast ⟨2, ![T, C]⟩ (extractStridedSlice ⟨3, ![T, 1, C]⟩ ![0, r, 0] stats hs) hc : FVec Ideal ⟨2, ![T, C]⟩ φ)
        init h' hu (ix1 q)
      = ∑ t : Fin T, stats (ix3 t ⟨r, hr⟩ q) := by
  rw [reduceRows_apply _ init h' hu hinit q]
  exact Finset.sum_congr rfl fun t _ => sliceRow_apply r hr stats hs hc t q

/-- When row `r` of block `t` holds the sum over the tile's `M` rows `t · M + y` of a quantity `g`, the chain read at
    column `q` is the sum of `g` over all `N = T · M` rows. -/
theorem tileChain_eq_total {T M N R C : ℕ} (hN : T * M = N) (r : ℕ) (hr : r < R) (stats : FVec Ideal ⟨3, ![T, R, C]⟩ φ)
    (g : Fin N → Fin C → EReal) (hlt : ∀ (t : Fin T) (y : Fin M), t.val * M + y.val < N)
    (hstats : ∀ (t : Fin T) (q : Fin C), stats (ix3 t ⟨r, hr⟩ q) = ∑ y : Fin M, g ⟨t.val * M + y.val, hlt t y⟩ q)
    (hs : (⟨3, ![T, R, C]⟩ : Shape).Slices ![0, r, 0] ⟨3, ![T, 1, C]⟩)
    (hc : (⟨3, ![T, 1, C]⟩ : Shape).ShapeCasts ⟨2, ![T, C]⟩)
    {u : Shape} (init : u.Idx → Ideal φ) (h' : (⟨2, ![T, C]⟩ : Shape).ReducesTo [0] ⟨1, ![C]⟩) (hu : 0 < u.numel)
    (hinit : init (Shape.Idx.first hu) = 0) (q : Fin C) :
    Host.reduceAdd (F := Ideal)
        (shapeCast ⟨2, ![T, C]⟩ (extractStridedSlice ⟨3, ![T, 1, C]⟩ ![0, r, 0] stats hs) hc : FVec Ideal ⟨2, ![T, C]⟩ φ)
        init h' hu (ix1 q)
      = ∑ i : Fin N, g i q := by
  subst hN
  rw [tileChain_apply r hr stats hs hc init h' hu hinit q, BatchStats.sum_fin_mul_blocks fun i => g i q]
  exact Finset.sum_congr rfl fun t _ => hstats t q

/-- The tiles' column sums, added up by the chain, are the column sums of the whole array: the chain equals the
    reduce-add over axis 0 of the `[N, C]` array, as arrays of `C` entries. -/
theorem tileChain_eq_reduceRows {T M N R C : ℕ} (hN : T * M = N) (r : ℕ) (hr : r < R)
    (stats : FVec Ideal ⟨3, ![T, R, C]⟩ φ) (raw : FVec Ideal ⟨2, ![N, C]⟩ φ)
    (hlt : ∀ (t : Fin T) (y : Fin M), t.val * M + y.val < N)
    (hstats : ∀ (t : Fin T) (q : Fin C),
      stats (ix3 t ⟨r, hr⟩ q) = ∑ y : Fin M, raw (ix2 ⟨t.val * M + y.val, hlt t y⟩ q))
    (hs : (⟨3, ![T, R, C]⟩ : Shape).Slices ![0, r, 0] ⟨3, ![T, 1, C]⟩)
    (hc : (⟨3, ![T, 1, C]⟩ : Shape).ShapeCasts ⟨2, ![T, C]⟩)
    {u : Shape} (init : u.Idx → Ideal φ) (h' : (⟨2, ![T, C]⟩ : Shape).ReducesTo [0] ⟨1, ![C]⟩) (hu : 0 < u.numel)
    (hinit : init (Shape.Idx.first hu) = 0)
    {u' : Shape} (init' : u'.Idx → Ideal φ) (hR : (⟨2, ![N, C]⟩ : Shape).ReducesTo [0] ⟨1, ![C]⟩) (hu' : 0 < u'.numel)
    (hinit' : init' (Shape.Idx.first hu') = 0) :
    Host.reduceAdd (F := Ideal)
        (shapeCast ⟨2, ![T, C]⟩ (extractStridedSlice ⟨3, ![T, 1, C]⟩ ![0, r, 0] stats hs) hc : FVec Ideal ⟨2, ![T, C]⟩ φ)
        init h' hu
      = Host.reduceAdd (F := Ideal) raw init' hR hu' := by
  funext j
  obtain ⟨q, rfl⟩ : ∃ q : Fin C, j = ix1 q := ⟨j 0, eq_ix1 j⟩
  rw [tileChain_eq_total hN r hr stats (fun i q => raw (ix2 i q)) hlt hstats hs hc init h' hu hinit,
    reduceRows_apply raw init' hR hu' hinit']

end Cert.Lib.TileStats

end
-- ==== Proof.RefReal.lean ====
/-
  Every entry of the reference stays a real number.

  The reference's whole-array functions (node and edge embeddings, one message-passing layer by its pieces, the
  per-layer parameter slices, the three layers) map arrays all of whose entries are real numbers to such arrays, for
  any integer index columns: matrix products, gathers and accumulating scatters are finite sums of products of
  entries; the gate is \`1 / (1 + exp (-z))\` with \`1 + exp (-z)\` a positive real; the batch normalisation divides by
  the node count \`50000\` and multiplies by the reciprocal square root of \`variance + ε\`, where the variance of each
  column (the mean of the squared deviations from the column mean, the branch the reference's select takes because
  \`50000 - 0 > 0\`) is a nonnegative real and \`ε\` a positive one.

  Also here: the column mean and the column variance read at a column \`q\` as quotients of finite sums over the
  \`50000\` rows.
-/
import proofs.«108144_j81140522156740_2_alg».proof.Proof.RefSpec
import proofs.«108144_j81140522156740_2_alg».proof.Proof.LibRealEntries
import proofs.«108144_j81140522156740_2_alg».proof.Proof.LibBatchStats
import proofs.«108144_j81140522156740_2_alg».proof.Proof.LibTileStats

noncomputable section

open scoped BigOperators

namespace Cert.ReferenceIdeal.RefReal

open Cert.ReferenceIdeal Idealize.ShloMosaic Idealize.ShloMosaic.ValueIdx
open Cert.ReferenceIdeal.Facts₀ Cert.ReferenceIdeal.Facts
open Cert.Lib.RealEntries Cert.Lib.BatchStats

variable [Facts]

/-! ## Constants and broadcasts -/

/-- The scalar zero is real. -/
theorem zeroS_real : AllReal RefRun.zeroS := allReal_constant _ isReal_ofBits_zero_f32
/-- The scalar one is real. -/
theorem oneS_real : AllReal RefRun.oneS := allReal_constant _ isReal_ofBits_one_f32
/-- The scalar \`50000\` is real. -/
theorem nodesS_real : AllReal RefRun.nodesS := allReal_constant _ isReal_ofBits_50000_f32
/-- The scalar \`128\` is real. -/
theorem graphsS_real : AllReal RefRun.graphsS := allReal_constant _ isReal_ofBits_128_f32
/-- The scalar \`ε\` is real. -/
theorem epsS_real : AllReal RefRun.epsS := allReal_constant _ isReal_ofBits_eps_f32

/-- A real 64-vector spread over the rows of a 50000×64 array is an array of reals. -/
theorem rowsN_real {v : FVec Ideal S64 .f32} (hv : AllReal v) : AllReal (RefRun.rowsN v) :=
  allReal_broadcastInDim _ _ (allReal_broadcastInDim _ _ hv)
/-- A real 64-vector spread over the rows of an 800000×64 array is an array of reals. -/
theorem rowsE_real {v : FVec Ideal S64 .f32} (hv : AllReal v) : AllReal (RefRun.rowsE v) :=
  allReal_broadcastInDim _ _ (allReal_broadcastInDim _ _ hv)
/-- A real 32-vector spread over the rows of an 800000×32 array is an array of reals. -/
theorem rowsE32_real {v : FVec Ideal S32 .f32} (hv : AllReal v) : AllReal (RefRun.rowsE32 v) :=
  allReal_broadcastInDim _ _ (allReal_broadcastInDim _ _ hv)

/-! ## Embeddings -/

/-- The node embedding of real arrays is real. -/
theorem embed_real {x : FVec Ideal S50000x77 .f32} {W : FVec Ideal S77x64 .f32} {b : FVec Ideal S64 .f32}
    (hx : AllReal x) (hW : AllReal W) (hb : AllReal b) : AllReal (RefRun.embed x W b) :=
  allReal_addf (allReal_host_dotGeneral _ _ _ _ hx hW) (rowsN_real hb)

/-- The edge embedding of real arrays is real. -/
theorem edgeEmbed_real {a : FVec Ideal S800000x1 .f32} {W : FVec Ideal S1x32 .f32} {b : FVec Ideal S32 .f32}
    (ha : AllReal a) (hW : AllReal W) (hb : AllReal b) : AllReal (RefRun.edgeEmbed a W b) :=
  allReal_addf (allReal_host_dotGeneral _ _ _ _ ha hW) (rowsE32_real hb)

/-! ## One layer, by its pieces -/

/-- The edge features of real arrays are real. -/
theorem edgeFeat_real {ea : FVec Ideal S800000x32 .f32} {We : FVec Ideal S32x64 .f32} {be : FVec Ideal S64 .f32}
    (hea : AllReal ea) (hWe : AllReal We) (hbe : AllReal be) : AllReal (RefRun.edgeFeat ea We be) :=
  allReal_addf (allReal_host_dotGeneral _ _ _ _ hea hWe) (rowsE_real hbe)

/-- The rows a gather reads from a real array are real, whatever the index column. -/
theorem gatherRows_real {h : FVec Ideal S50000x64 .f32} (src : IVec S800000x1 32) (hh : AllReal h) :
    AllReal (RefRun.gatherRows h src) :=
  allReal_host_gather _ src hh

/-- The gate's argument over real arrays is real. -/
theorem gatePre_real {xj ef : FVec Ideal S800000x64 .f32} {Wg : FVec Ideal S128x64 .f32} {bg : FVec Ideal S64 .f32}
    (hxj : AllReal xj) (hef : AllReal ef) (hWg : AllReal Wg) (hbg : AllReal bg) : AllReal (RefRun.gatePre xj ef Wg bg) :=
  allReal_addf (allReal_host_dotGeneral _ _ _ _ (allReal_concatenate_pair 1 xj ef _ hxj hef) hWg) (rowsE_real hbg)

/-- For a real \`x\`, \`1 + exp (-x)\` (the one given by its 32-bit word) is positive. -/
theorem one_add_exp_neg_pos {x : EReal} (hx : IsReal x) : 0 < Ideal.ofBits .f32 0x3F800000#32 + Ideal.exp (-x) := by
  rw [ofBits_one_f32]
  exact IsReal.add_pos_of_nonneg_of_pos isReal_one hx.neg.exp zero_le_one hx.neg.exp_pos

/-- The logistic function, as the reference spells it, of a real array is real. -/
theorem sigmoidE_real {z : FVec Ideal S800000x64 .f32} (hz : AllReal z) : AllReal (RefRun.sigmoidE z) :=
  allReal_host_divf (allReal_broadcastInDim _ _ oneS_real)
    (allReal_addf (allReal_broadcastInDim _ _ oneS_real) (allReal_host_exp (allReal_host_negf hz)))
    (fun i => (one_add_exp_neg_pos (hz i)).ne')

/-- The messages over real arrays are real. -/
theorem msg_real {xj ef : FVec Ideal S800000x64 .f32} {Wg : FVec Ideal S128x64 .f32} {bg : FVec Ideal S64 .f32}
    (hxj : AllReal xj) (hef : AllReal ef) (hWg : AllReal Wg) (hbg : AllReal bg) : AllReal (RefRun.msg xj ef Wg bg) :=
  allReal_mulf (sigmoidE_real (gatePre_real hxj hef hWg hbg)) hxj

/-- The segment sum of real messages is real, whatever the index column. -/
theorem aggr_real {m : FVec Ideal S800000x64 .f32} (dst : IVec S800000x1 32) (hm : AllReal m) :
    AllReal (RefRun.aggr m dst) :=
  allReal_host_scatterAdd _ _ dst m (allReal_broadcastInDim _ _ zeroS_real) hm

/-- A layer's sum before normalisation, from its pieces, over real arrays is real. -/
theorem raw_real {h : FVec Ideal S50000x64 .f32} {Wn : FVec Ideal S64x64 .f32} {bnb : FVec Ideal S64 .f32}
    {ag : FVec Ideal S50000x64 .f32} (hh : AllReal h) (hWn : AllReal Wn) (hbnb : AllReal bnb) (hag : AllReal ag) :
    AllReal (RefRun.raw h Wn bnb ag) :=
  allReal_addf (allReal_addf (allReal_host_dotGeneral _ _ _ _ hh hWn) (rowsN_real hbnb)) hag

/-- A layer's sum before normalisation over real arrays is real, for any integer index columns. -/
theorem layerRaw_real {h : FVec Ideal S50000x64 .f32} {ea : FVec Ideal S800000x32 .f32} (src dst : IVec S800000x1 32)
    {We : FVec Ideal S32x64 .f32} {be : FVec Ideal S64 .f32} {Wg : FVec Ideal S128x64 .f32} {bg : FVec Ideal S64 .f32}
    {Wn : FVec Ideal S64x64 .f32} {bnb : FVec Ideal S64 .f32}
    (hh : AllReal h) (hea : AllReal ea) (hWe : AllReal We) (hbe : AllReal be) (hWg : AllReal Wg) (hbg : AllReal bg)
    (hWn : AllReal Wn) (hbnb : AllReal bnb) : AllReal (RefRun.layerRaw h ea src dst We be Wg bg Wn bnb) :=
  raw_real hh hWn hbnb (aggr_real dst (msg_real (gatherRows_real src hh) (edgeFeat_real hea hWe hbe) hWg hbg))

/-! ## Column mean and variance -/

/-- The column sums read at column \`q\`: the sum of the column's \`50000\` entries. -/
theorem colSum_apply (o : FVec Ideal S50000x64 .f32) (q : Fin 64) :
    RefRun.colSum o (ix1 q) = ∑ i : Fin 50000, o (ix2 i q) :=
  Cert.Lib.TileStats.reduceRows_apply o RefRun.zeroS reducesTo_S50000x64_S64_d0 h_S_ ofBits_zero_f32 q

/-- The column means read at column \`q\`: the column's sum divided by \`50000\`. -/
theorem colMean_apply (o : FVec Ideal S50000x64 .f32) (q : Fin 64) :
    RefRun.colMean o (ix1 q) = Ideal.div (∑ i : Fin 50000, o (ix2 i q)) ((50000 : ℝ) : EReal) := by
  show Ideal.div (RefRun.colSum o (ix1 q)) (Ideal.ofBits .f32 0x47435000#32) = _
  rw [colSum_apply, ofBits_50000_f32]

/-- The column sums of a real array are real. -/
theorem colSum_real {o : FVec Ideal S50000x64 .f32} (ho : AllReal o) : AllReal (RefRun.colSum o) :=
  allReal_host_reduceAdd o RefRun.zeroS _ _ ho zeroS_real

/-- The column means of a real array are real. -/
theorem colMean_real {o : FVec Ideal S50000x64 .f32} (ho : AllReal o) : AllReal (RefRun.colMean o) :=
  allReal_host_divf (colSum_real ho) (allReal_broadcastInDim _ _ nodesS_real) (fun _ => ofBits_50000_f32_ne_zero)

/-- The column means as the variance computes them, read at row \`i\` and column \`q\`: the column's sum divided by
    \`50000\`. -/
theorem varMean_apply (o : FVec Ideal S50000x64 .f32) (i : Fin 50000) (q : Fin 64) :
    RefRun.varMean o (ix2 i q) = Ideal.div (∑ i' : Fin 50000, o (ix2 i' q)) ((50000 : ℝ) : EReal) := by
  unfold RefRun.varMean
  refine (broadcastInDim_apply _ _ _ (ix2 i q) (ix2 (0 : Fin 1) q) (fun a => by
    match a with
    | ⟨0, _⟩ => rfl
    | ⟨1, _⟩ => rfl)).trans ?_
  show Ideal.div (broadcastInDim S1x64 ![1] bcast_S64_S1x64_1 (RefRun.colSum o) (ix2 (0 : Fin 1) q))
    (Ideal.ofBits .f32 0x47435000#32) = _
  rw [broadcastInDim_apply _ _ (RefRun.colSum o) (ix2 (0 : Fin 1) q) (ix1 q) (fun a => by
    match a with
    | ⟨0, _⟩ => rfl), colSum_apply, ofBits_50000_f32]

/-- The deviation from the column mean, read at row \`i\` and column \`q\`. -/
theorem varDev_apply (o : FVec Ideal S50000x64 .f32) (i : Fin 50000) (q : Fin 64) :
    RefRun.varDev o (ix2 i q)
      = o (ix2 i q) - Ideal.div (∑ i' : Fin 50000, o (ix2 i' q)) ((50000 : ℝ) : EReal) := by
  show o (ix2 i q) - RefRun.varMean o (ix2 i q) = _
  rw [varMean_apply]

/-- The column variance read at column \`q\`: the sum of the squared deviations from the column mean, divided by
    \`50000\` (the select takes this branch because \`50000 - 0 > 0\`). -/
theorem colVar_eq_centred (o : FVec Ideal S50000x64 .f32) (q : Fin 64) :
    RefRun.colVar o (ix1 q)
      = Ideal.div (∑ i : Fin 50000,
          (o (ix2 i q) - Ideal.div (∑ i' : Fin 50000, o (ix2 i' q)) ((50000 : ℝ) : EReal))
            * (o (ix2 i q) - Ideal.div (∑ i' : Fin 50000, o (ix2 i' q)) ((50000 : ℝ) : EReal)))
          ((50000 : ℝ) : EReal) := by
  show Scalar.select
      (Ideal.cmp .ogt (Ideal.ofBits .f32 0x47435000#32 - FloatOps.sitofp (F := Ideal) .f32 (0#32))
        (Ideal.ofBits .f32 0x00000000#32))
      (Ideal.div
        (Host.reduceAdd (F := Ideal) (mulf (RefRun.varDev o) (RefRun.varDev o)) RefRun.zeroS
          reducesTo_S50000x64_S64_d0 h_S_ (ix1 q))
        (Ideal.ofBits .f32 0x47435000#32 - FloatOps.sitofp (F := Ideal) .f32 (0#32)))
      (Ideal.ofBits .f32 0x7FC00000#32) = _
  rw [cmp_ogt_count_50000, select_bit_one, count_50000_sub_zero,
    Cert.Lib.TileStats.reduceRows_apply _ RefRun.zeroS reducesTo_S50000x64_S64_d0 h_S_ ofBits_zero_f32 q]
  refine congrArg (fun s : EReal => Ideal.div s ((50000 : ℝ) : EReal)) (Finset.sum_congr rfl fun i _ => ?_)
  show RefRun.varDev o (ix2 i q) * RefRun.varDev o (ix2 i q) = _
  rw [varDev_apply]

/-- The number \`50000\` as an extended real is the natural number \`50000\` cast through the reals. -/
theorem nodes_eq_cast : ((50000 : ℝ) : EReal) = (((50000 : ℕ) : ℝ) : EReal) := by norm_num

/-- The column variance of a real array is a nonnegative real at every column. -/
theorem colVar_real_nonneg {o : FVec Ideal S50000x64 .f32} (ho : AllReal o) (q : Fin 64) :
    ∃ v : ℝ, 0 ≤ v ∧ RefRun.colVar o (ix1 q) = (v : EReal) := by
  rw [colVar_eq_centred]
  exact variance_centred_real_nonneg (n := 50000) (by norm_num) (fun i => o (ix2 i q)) (fun i => ho _) _ nodes_eq_cast

/-- The column variances of a real array are real. -/
theorem colVar_real {o : FVec Ideal S50000x64 .f32} (ho : AllReal o) : AllReal (RefRun.colVar o) := by
  intro j
  obtain ⟨q, rfl⟩ : ∃ q : Fin 64, j = ix1 q := ⟨j 0, eq_ix1 j⟩
  obtain ⟨v, _, hv⟩ := colVar_real_nonneg ho q
  exact ⟨v, hv⟩

/-- Every entry of the column variance of a real array plus \`ε\` is a positive real. -/
theorem colVar_add_eps {o : FVec Ideal S50000x64 .f32} (ho : AllReal o) (j : S64.Idx) :
    IsReal (addf (RefRun.colVar o) (broadcastInDim S64 ![] bcast_S_S64 RefRun.epsS) j)
      ∧ 0 < addf (RefRun.colVar o) (broadcastInDim S64 ![] bcast_S_S64 RefRun.epsS) j := by
  obtain ⟨q, rfl⟩ : ∃ q : Fin 64, j = ix1 q := ⟨j 0, eq_ix1 j⟩
  show IsReal (RefRun.colVar o (ix1 q) + Ideal.ofBits .f32 0x3727C5AC#32)
    ∧ 0 < RefRun.colVar o (ix1 q) + Ideal.ofBits .f32 0x3727C5AC#32
  rw [colVar_eq_centred]
  obtain ⟨w, hw, hweq⟩ := variance_centred_add_pos (n := 50000) (by norm_num) (fun i => o (ix2 i q)) (fun i => ho _) _
    nodes_eq_cast (Ideal.ofBits .f32 0x3727C5AC#32) ofBits_eps_f32
  rw [hweq]
  exact ⟨⟨w, rfl⟩, EReal.coe_pos.2 hw⟩

/-! ## Normalisation, the layer, the slices, the three layers -/

/-- The normalised and rectified array is real when the operands are and \`var + ε\` is a positive real at every
    column. -/
theorem bnRelu_real {o : FVec Ideal S50000x64 .f32} {mean var gamma beta : FVec Ideal S64 .f32}
    (ho : AllReal o) (hmean : AllReal mean)
    (hvar : ∀ j, IsReal (addf var (broadcastInDim S64 ![] bcast_S_S64 RefRun.epsS) j)
      ∧ 0 < addf var (broadcastInDim S64 ![] bcast_S_S64 RefRun.epsS) j)
    (hgamma : AllReal gamma) (hbeta : AllReal beta) : AllReal (RefRun.bnRelu o mean var gamma beta) :=
  allReal_maximumf
    (allReal_addf
      (allReal_mulf
        (allReal_mulf (allReal_subf ho (rowsN_real hmean))
          (rowsN_real (allReal_host_rsqrt (fun j => (hvar j).1) (fun j => (hvar j).2))))
        (rowsN_real hgamma))
      (rowsN_real hbeta))
    (allReal_broadcastInDim _ _ zeroS_real)

/-- One layer over real arrays is real, for any integer index columns. -/
theorem layer_real {h : FVec Ideal S50000x64 .f32} {ea : FVec Ideal S800000x32 .f32} (src dst : IVec S800000x1 32)
    {We : FVec Ideal S32x64 .f32} {be : FVec Ideal S64 .f32} {Wg : FVec Ideal S128x64 .f32} {bg : FVec Ideal S64 .f32}
    {Wn : FVec Ideal S64x64 .f32} {bnb gamma beta : FVec Ideal S64 .f32}
    (hh : AllReal h) (hea : AllReal ea) (hWe : AllReal We) (hbe : AllReal be) (hWg : AllReal Wg) (hbg : AllReal bg)
    (hWn : AllReal Wn) (hbnb : AllReal bnb) (hgamma : AllReal gamma) (hbeta : AllReal beta) :
    AllReal (RefRun.layer h ea src dst We be Wg bg Wn bnb gamma beta) :=
  have hraw := layerRaw_real src dst hh hea hWe hbe hWg hbg hWn hbnb
  bnRelu_real hraw (colMean_real hraw) (colVar_add_eps hraw) hgamma hbeta

/-- A layer's slice of the stacked edge weights of a real array is real. -/
theorem sliceWe_real (l : Fin 3) {W : FVec Ideal S3x32x64 .f32} (hW : AllReal W) : AllReal (RefRun.sliceWe l W) := by
  fin_cases l <;> exact allReal_shapeCast _ (allReal_extractStridedSlice _ _ hW)
/-- A layer's slice of the stacked gate weights of a real array is real. -/
theorem sliceWg_real (l : Fin 3) {W : FVec Ideal S3x128x64 .f32} (hW : AllReal W) : AllReal (RefRun.sliceWg l W) := by
  fin_cases l <;> exact allReal_shapeCast _ (allReal_extractStridedSlice _ _ hW)
/-- A layer's slice of the stacked node weights of a real array is real. -/
theorem sliceWn_real (l : Fin 3) {W : FVec Ideal S3x64x64 .f32} (hW : AllReal W) : AllReal (RefRun.sliceWn l W) := by
  fin_cases l <;> exact allReal_shapeCast _ (allReal_extractStridedSlice _ _ hW)
/-- A layer's row of a stacked 3×64 parameter of a real array is real. -/
theorem sliceRow_real (l : Fin 3) {W : FVec Ideal S3x64 .f32} (hW : AllReal W) : AllReal (RefRun.sliceRow l W) := by
  fin_cases l <;> exact allReal_shapeCast _ (allReal_extractStridedSlice _ _ hW)

/-- Layer \`l\` over the stacked parameters, all real, is real, for any integer index columns. -/
theorem layerAt_real (l : Fin 3) {h : FVec Ideal S50000x64 .f32} {ea : FVec Ideal S800000x32 .f32}
    (src dst : IVec S800000x1 32) {Wn : FVec Ideal S3x64x64 .f32} {bnb : FVec Ideal S3x64 .f32}
    {We : FVec Ideal S3x32x64 .f32} {be : FVec Ideal S3x64 .f32} {Wg : FVec Ideal S3x128x64 .f32}
    {bg gamma beta : FVec Ideal S3x64 .f32}
    (hh : AllReal h) (hea : AllReal ea) (hWn : AllReal Wn) (hbnb : AllReal bnb) (hWe : AllReal We) (hbe : AllReal be)
    (hWg : AllReal Wg) (hbg : AllReal bg) (hgamma : AllReal gamma) (hbeta : AllReal beta) :
    AllReal (RefRun.layerAt l h ea src dst Wn bnb We be Wg bg gamma beta) :=
  layer_real src dst hh hea (sliceWe_real l hWe) (sliceRow_real l hbe) (sliceWg_real l hWg) (sliceRow_real l hbg)
    (sliceWn_real l hWn) (sliceRow_real l hbnb) (sliceRow_real l hgamma) (sliceRow_real l hbeta)

/-- The node features after the three layers are real when every float argument is, whatever the edge index. -/
theorem nodes_real {x : FVec Ideal S50000x77 .f32} (ei : IVec S2x800000 32) {a : FVec Ideal S800000x1 .f32}
    {embW : FVec Ideal S77x64 .f32} {embb : FVec Ideal S64 .f32} {eembW : FVec Ideal S1x32 .f32}
    {eembb : FVec Ideal S32 .f32} {Wn : FVec Ideal S3x64x64 .f32} {bnb : FVec Ideal S3x64 .f32}
    {We : FVec Ideal S3x32x64 .f32} {be : FVec Ideal S3x64 .f32} {Wg : FVec Ideal S3x128x64 .f32}
    {bg gamma beta : FVec Ideal S3x64 .f32}
    (hx : AllReal x) (ha : AllReal a) (hembW : AllReal embW) (hembb : AllReal embb) (heembW : AllReal eembW)
    (heembb : AllReal eembb) (hWn : AllReal Wn) (hbnb : AllReal bnb) (hWe : AllReal We) (hbe : AllReal be)
    (hWg : AllReal Wg) (hbg : AllReal bg) (hgamma : AllReal gamma) (hbeta : AllReal beta) :
    AllReal (RefRun.nodes x ei a embW embb eembW eembb Wn bnb We be Wg bg gamma beta) :=
  have hea := edgeEmbed_real ha heembW heembb
  layerAt_real 2 _ _
    (layerAt_real 1 _ _
      (layerAt_real 0 _ _ (embed_real hx hembW hembb) hea hWn hbnb hWe hbe hWg hbg hgamma hbeta)
      hea hWn hbnb hWe hbe hWg hbg hgamma hbeta)
    hea hWn hbnb hWe hbe hWg hbg hgamma hbeta

end Cert.ReferenceIdeal.RefReal
-- ==== Proof.PreReal.lean ====
/-
  From the precondition to real entries.

  The precondition of this certificate says, of every float argument array \`a\`, that the comparison \`|a| < +∞\` holds at
  every entry (the conjunction over all entries, and over all arguments, is the bit one). On the extended reals
  \`max x (-x) < ⊤\` holds exactly when \`x\` is neither \`⊤\` nor \`⊥\`, that is when \`x\` is a real number: so under the
  precondition every entry of every float argument is real.
-/
import proofs.«108144_j81140522156740_2_alg».proof.Defs
import proofs.«108144_j81140522156740_2_alg».proof.Proof.LibRealEntries
import Idealize.ShloMosaic.Lib.ReduceAll

noncomputable section

namespace Cert.PreReal

open Idealize.ShloMosaic Idealize.ShloMosaic.ValueIdx Idealize.SL.Sem
open Cert.Lib.RealEntries

/-- The scalar shape has one index. -/
instance : Subsingleton (⟨0, ![]⟩ : Shape).Idx := ⟨fun a b => funext fun d => d.elim0⟩

/-- The word \`0x7F800000\` denotes \`⊤\`. -/
theorem ofBits_inf_f32 : Ideal.ofBits .f32 0x7F800000#32 = ⊤ := by simp [Ideal.ofBits, Ideal.ieee]

/-- An extended real whose absolute value compares below \`+∞\` is a real number. -/
theorem isReal_of_abs_lt_inf {x : EReal}
    (h : Ideal.cmp .olt (max x (-x)) (Ideal.ofBits .f32 0x7F800000#32) = 1#1) : IsReal x := by
  rw [ofBits_inf_f32] at h
  have hlt : max x (-x) < ⊤ := by
    by_contra hn
    have h' : BitVec.ofBool (decide (max x (-x) < (⊤ : EReal))) = 1#1 := h
    rw [decide_eq_false hn] at h'
    exact absurd h' (by decide)
  refine isReal_iff.2 ⟨?_, ?_⟩
  · rintro rfl
    rw [EReal.neg_bot] at hlt
    exact absurd (lt_of_le_of_lt (le_max_right _ _) hlt) (lt_irrefl _)
  · rintro rfl
    exact absurd (lt_of_le_of_lt (le_max_left _ _) hlt) (lt_irrefl _)

/-- An array whose entries' absolute values all compare below \`+∞\` — the conjunction over all entries being the bit
    one — is an array of reals. -/
theorem allReal_of_all_finite {s t u : Shape} {axes : List (Fin s.rank)} [Subsingleton t.Idx] (a : FVec Ideal s .f32)
    (inf : FVec Ideal s .f32) (hinf : ∀ i, inf i = Ideal.ofBits .f32 0x7F800000#32) (init : u.Idx → BitVec 1)
    (h : s.ReducesTo axes t) (hu : 0 < u.numel) (j : t.Idx)
    (e : Host.reduce IntOp.andi (cmpf .olt (Host.absf a) inf) init h hu j = 1#1) : AllReal a := by
  intro i
  have hi := Host.reduce_andi_all (cmpf .olt (Host.absf a) inf) init h hu j e i
  refine isReal_of_abs_lt_inf ?_
  rw [← hinf i]
  exact hi

open Cert.Pre_finite_inputs in
/-- When the finiteness predicate of the twenty arguments is the bit one, every float argument is an array of reals. -/
theorem fn_real [Cert.Pre_finite_inputs.Facts] (a0 : FVec Ideal S50000x77 .f32) (a1 : IVec S2x800000 32) (a2 : FVec Ideal S800000x1 .f32) (a3 : IVec S50000 32) (a4 : FVec Ideal S77x64 .f32) (a5 : FVec Ideal S64 .f32) (a6 : FVec Ideal S1x32 .f32) (a7 : FVec Ideal S32 .f32) (a8 : FVec Ideal S3x64x64 .f32) (a9 : FVec Ideal S3x64 .f32) (a10 : FVec Ideal S3x32x64 .f32) (a11 : FVec Ideal S3x64 .f32) (a12 : FVec Ideal S3x128x64 .f32) (a13 : FVec Ideal S3x64 .f32) (a14 : FVec Ideal S3x64 .f32) (a15 : FVec Ideal S3x64 .f32) (a16 : FVec Ideal S64x128 .f32) (a17 : FVec Ideal S128 .f32) (a18 : FVec Ideal S128 .f32) (a19 : FVec Ideal S128 .f32)
    (h : Cert.Pre_finite_inputs.fn (F := Ideal) a0 a1 a2 a3 a4 a5 a6 a7 a8 a9 a10 a11 a12 a13 a14 a15 a16 a17 a18 a19 = fun _ => 1#1) :
    AllReal a0 ∧ AllReal a2 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5, andi] at h0
  obtain ⟨h1, e19⟩ := IntOp.andi_eq_one.1 h0
  obtain ⟨h2, e18⟩ := IntOp.andi_eq_one.1 h1
  obtain ⟨h3, e17⟩ := IntOp.andi_eq_one.1 h2
  obtain ⟨h4, e16⟩ := IntOp.andi_eq_one.1 h3
  obtain ⟨h5, e15⟩ := IntOp.andi_eq_one.1 h4
  obtain ⟨h6, e14⟩ := IntOp.andi_eq_one.1 h5
  obtain ⟨h7, e13⟩ := IntOp.andi_eq_one.1 h6
  obtain ⟨h8, e12⟩ := IntOp.andi_eq_one.1 h7
  obtain ⟨h9, e11⟩ := IntOp.andi_eq_one.1 h8
  obtain ⟨h10, e10⟩ := IntOp.andi_eq_one.1 h9
  obtain ⟨h11, e9⟩ := IntOp.andi_eq_one.1 h10
  obtain ⟨h12, e8⟩ := IntOp.andi_eq_one.1 h11
  obtain ⟨h13, e7⟩ := IntOp.andi_eq_one.1 h12
  obtain ⟨h14, e6⟩ := IntOp.andi_eq_one.1 h13
  obtain ⟨h15, e5⟩ := IntOp.andi_eq_one.1 h14
  obtain ⟨h16, e4⟩ := IntOp.andi_eq_one.1 h15
  obtain ⟨e0, e2⟩ := IntOp.andi_eq_one.1 h16
  exact ⟨allReal_of_all_finite a0 _ (fun _ => rfl) _ _ _ ix0 e0,
    allReal_of_all_finite a2 _ (fun _ => rfl) _ _ _ ix0 e2,
    allReal_of_all_finite a4 _ (fun _ => rfl) _ _ _ ix0 e4,
    allReal_of_all_finite a5 _ (fun _ => rfl) _ _ _ ix0 e5,
    allReal_of_all_finite a6 _ (fun _ => rfl) _ _ _ ix0 e6,
    allReal_of_all_finite a7 _ (fun _ => rfl) _ _ _ ix0 e7,
    allReal_of_all_finite a8 _ (fun _ => rfl) _ _ _ ix0 e8,
    allReal_of_all_finite a9 _ (fun _ => rfl) _ _ _ ix0 e9,
    allReal_of_all_finite a10 _ (fun _ => rfl) _ _ _ ix0 e10,
    allReal_of_all_finite a11 _ (fun _ => rfl) _ _ _ ix0 e11,
    allReal_of_all_finite a12 _ (fun _ => rfl) _ _ _ ix0 e12,
    allReal_of_all_finite a13 _ (fun _ => rfl) _ _ _ ix0 e13,
    allReal_of_all_finite a14 _ (fun _ => rfl) _ _ _ ix0 e14,
    allReal_of_all_finite a15 _ (fun _ => rfl) _ _ _ ix0 e15,
    allReal_of_all_finite a16 _ (fun _ => rfl) _ _ _ ix0 e16,
    allReal_of_all_finite a17 _ (fun _ => rfl) _ _ _ ix0 e17,
    allReal_of_all_finite a18 _ (fun _ => rfl) _ _ _ ix0 e18,
    allReal_of_all_finite a19 _ (fun _ => rfl) _ _ _ ix0 e19⟩

/-- Under the precondition every float argument of the kernel, on every device, is an array of reals. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.Pre_finite_inputs.S50000x77) (m ((c.tc : Thread Cert.KernelIdeal.nD Cert.KernelIdeal.τ).loc Cert.KernelIdeal.main_arg0))
      ∧ AllReal (s := Cert.Pre_finite_inputs.S800000x1) (m ((c.tc : Thread Cert.KernelIdeal.nD Cert.KernelIdeal.τ).loc Cert.KernelIdeal.main_arg2))
      ∧ AllReal (s := Cert.Pre_finite_inputs.S77x64) (m ((c.tc : Thread Cert.KernelIdeal.nD Cert.KernelIdeal.τ).loc Cert.KernelIdeal.main_arg4))
      ∧ AllReal (s := Cert.Pre_finite_inputs.S64) (m ((c.tc : Thread Cert.KernelIdeal.nD Cert.KernelIdeal.τ).loc Cert.KernelIdeal.main_arg5))
      ∧ AllReal (s := Cert.Pre_finite_inputs.S1x32) (m ((c.tc : Thread Cert.KernelIdeal.nD Cert.KernelIdeal.τ).loc Cert.KernelIdeal.main_arg6))
      ∧ AllReal (s := Cert.Pre_finite_inputs.S32) (m ((c.tc : Thread Cert.KernelIdeal.nD Cert.KernelIdeal.τ).loc Cert.KernelIdeal.main_arg7))
      ∧ AllReal (s := Cert.Pre_finite_inputs.S3x64x64) (m ((c.tc : Thread Cert.KernelIdeal.nD Cert.KernelIdeal.τ).loc Cert.KernelIdeal.main_arg8))
      ∧ AllReal (s := Cert.Pre_finite_inputs.S3x64) (m ((c.tc : Thread Cert.KernelIdeal.nD Cert.KernelIdeal.τ).loc Cert.KernelIdeal.main_arg9))
      ∧ AllReal (s := Cert.Pre_finite_inputs.S3x32x64) (m ((c.tc : Thread Cert.KernelIdeal.nD Cert.KernelIdeal.τ).loc Cert.KernelIdeal.main_arg10))
      ∧ AllReal (s := Cert.Pre_finite_inputs.S3x64) (m ((c.tc : Thread Cert.KernelIdeal.nD Cert.KernelIdeal.τ).loc Cert.KernelIdeal.main_arg11))
      ∧ AllReal (s := Cert.Pre_finite_inputs.S3x128x64) (m ((c.tc : Thread Cert.KernelIdeal.nD Cert.KernelIdeal.τ).loc Cert.KernelIdeal.main_arg12))
      ∧ AllReal (s := Cert.Pre_finite_inputs.S3x64) (m ((c.tc : Thread Cert.KernelIdeal.nD Cert.KernelIdeal.τ).loc Cert.KernelIdeal.main_arg13))
      ∧ AllReal (s := Cert.Pre_finite_inputs.S3x64) (m ((c.tc : Thread Cert.KernelIdeal.nD Cert.KernelIdeal.τ).loc Cert.KernelIdeal.main_arg14))
      ∧ AllReal (s := Cert.Pre_finite_inputs.S3x64) (m ((c.tc : Thread Cert.KernelIdeal.nD Cert.KernelIdeal.τ).loc Cert.KernelIdeal.main_arg15))
      ∧ AllReal (s := Cert.Pre_finite_inputs.S64x128) (m ((c.tc : Thread Cert.KernelIdeal.nD Cert.KernelIdeal.τ).loc Cert.KernelIdeal.main_arg16))
      ∧ AllReal (s := Cert.Pre_finite_inputs.S128) (m ((c.tc : Thread Cert.KernelIdeal.nD Cert.KernelIdeal.τ).loc Cert.KernelIdeal.main_arg17))
      ∧ AllReal (s := Cert.Pre_finite_inputs.S128) (m ((c.tc : Thread Cert.KernelIdeal.nD Cert.KernelIdeal.τ).loc Cert.KernelIdeal.main_arg18))
      ∧ AllReal (s := Cert.Pre_finite_inputs.S128) (m ((c.tc : Thread Cert.KernelIdeal.nD Cert.KernelIdeal.τ).loc Cert.KernelIdeal.main_arg19)) :=
  fn_real
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (h c)

end Cert.PreReal
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«108144_j81140522156740_2_alg».proof.Proof.LibRowOps
import proofs.«108144_j81140522156740_2_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.LibRowNorm.lean ====
/-
  Rows of a long rank-two array against a block of consecutive rows of it, continued: the operations of a
  normalisation over each row.

  With `RowsOf E M A o arr blk` — `blk`, of `M` rows, holds rows `o, …, o + M - 1` of the `E`-row array `arr` —
  each of the following carries the relation from operands to result, the long side spelt with the host's operations
  and the block side with a kernel's:

  * the pointwise difference, maximum and quotient, and the reciprocal square root;
  * a scalar constant spread over the whole array, and a scalar value held in a 1 × 1 block spread over it;
  * the sum of each row, as a one-column array (rows of the column are rows of the array): the host's reduction
    along axis 1 followed by a `broadcast_in_dim` to a column, against a lane reduction followed by a shape cast;
  * a one-column array spread over the columns.
-/
import Idealize.ShloMosaic.PureOps.Ideal.Laws
import Idealize.ShloMosaic.Lib.ValueIdx
import Idealize.ShloMosaic.Lib.Pipeline.Value
import Idealize.ShloMosaic.Lib.ValueLayout
import proofs.«108144_j81140522156740_2_alg».proof.Proof.LibRowBlocks

noncomputable section

open scoped BigOperators

namespace Cert.Lib.RowBlocks

open Idealize.ShloMosaic Idealize.ShloMosaic.ValueIdx Cert.Lib.RowOps

variable {E M A o : Nat}

/-- Pointwise differences. -/
theorem RowsOf.sub {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (subf X Y) (subf Xb Yb) := by
  intro y k h
  show (Xb (ix2 y k) : EReal) - Yb (ix2 y k) = X _ - Y _
  rw [hX y k h, hY y k h]

/-- Pointwise maxima. -/
theorem RowsOf.max {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (maximumf X Y) (maximumf Xb Yb) := by
  intro y k h
  show Max.max (Xb (ix2 y k) : EReal) (Yb (ix2 y k)) = Max.max (X _) (Y _)
  rw [hX y k h, hY y k h]

/-- Pointwise quotients: the host's division on the long side, a kernel's on the block. -/
theorem RowsOf.hostDiv {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (Host.divf X Y) (divf Xb Yb) := by
  intro y k h
  show Ideal.div (Xb (ix2 y k)) (Yb (ix2 y k)) = Ideal.div (X _) (Y _)
  rw [hX y k h, hY y k h]

/-- Reciprocal square roots: the host's on the long side, a kernel's on the block. -/
theorem RowsOf.rsqrt {φ φ' : FTy} {X : FVec Ideal ⟨2, ![E, A]⟩ φ} {Xb : FVec Ideal ⟨2, ![M, A]⟩ φ'}
    (hX : RowsOf E M A o X Xb) : RowsOf E M A o (Host.rsqrt X) (rsqrt Xb) := by
  intro y k h
  show Ideal.rsqrt (Xb (ix2 y k)) = Ideal.rsqrt (X _)
  rw [hX y k h]

/-- A scalar constant spread over the whole array: the host's `broadcast_in_dim` of a rank-zero constant on the long
    side, a kernel's splat of the same word on the block. -/
theorem RowsOf.splat (w : BitVec 32) (h : (⟨0, ![]⟩ : Shape).BroadcastsInDim ⟨2, ![E, A]⟩ ![]) :
    RowsOf E M A o (broadcastInDim ⟨2, ![E, A]⟩ ![] h (constant (F := Ideal) ⟨0, ![]⟩ .f32 w))
      (broadcast ⟨2, ![M, A]⟩ (Scalar.ofBits (F := Ideal) .f32 w)) := by
  intro y k hlt
  -- both sides read the value of the word `w` at every index
  rw [splat_apply]
  rfl

/-- A scalar value spread over the whole array: rank zero on the long side, held in a 1 × 1 block on the other. -/
theorem RowsOf.scalar (s : (⟨0, ![]⟩ : Shape).Idx → EReal) (sb : (⟨2, ![1, 1]⟩ : Shape).Idx → EReal)
    (hs : sb (ix2 (0 : Fin 1) (0 : Fin 1)) = s ix0)
    (h : (⟨0, ![]⟩ : Shape).BroadcastsInDim ⟨2, ![E, A]⟩ ![]) (h' : (⟨2, ![1, 1]⟩ : Shape).Broadcasts ⟨2, ![M, A]⟩) :
    RowsOf E M A o (broadcastInDim ⟨2, ![E, A]⟩ ![] h s) (broadcastTo ⟨2, ![M, A]⟩ sb h') := by
  intro y k hlt
  -- the long side reads `s` at its one index, the block side `sb` at `(0, 0)`
  rw [broadcastInDim_apply ![] h s _ ix0 (fun a => a.elim0)]
  rw [broadcastTo_apply sb h' (ix2 y k) (ix2 (0 : Fin 1) (0 : Fin 1)) (fun a => by
    match a with
    | ⟨0, _⟩ => simp
    | ⟨1, _⟩ => simp)]
  exact hs

/-- The sum of each row as a one-column array: row `r` of the column is the sum of row `r` of the array, so the
    block's column holds the rows of the long column that the block holds of the long array. -/
theorem RowsOf.rowSum {X : FVec Ideal ⟨2, ![E, A]⟩ .f32} {Xb : FVec Ideal ⟨2, ![M, A]⟩ .f32} (hX : RowsOf E M A o X Xb)
    (hr : (⟨2, ![E, A]⟩ : Shape).ReducesTo [1] ⟨1, ![E]⟩) (hu : 0 < (⟨0, ![]⟩ : Shape).numel)
    (hb : (⟨1, ![E]⟩ : Shape).BroadcastsInDim ⟨2, ![E, 1]⟩ ![0])
    (hred : (⟨2, ![M, A]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) :
    RowsOf E M 1 o
      (broadcastInDim ⟨2, ![E, 1]⟩ ![0] hb (Host.reduceAdd X (constant (F := Ideal) ⟨0, ![]⟩ .f32 0x00000000#32) hr hu))
      (shapeCast ⟨2, ![M, 1]⟩ (multiReduction .add [1] ⟨1, ![M]⟩ Xb 0x00000000#32 hred hφ hacc) hc) := by
  intro y k hlt
  have hR : (⟨2, ![E, A]⟩ : Shape).Reduces [1] ⟨1, ![E]⟩ := ⟨hr.1, Nat.one_pos, hr.2⟩
  -- the long column at `(o + y, k)` is the host's sum at `o + y`
  rw [broadcastInDim_apply ![0] hb _ (ix2 ⟨o + y.val, hlt⟩ k) (ix1 ⟨o + y.val, hlt⟩) (fun a => by
    match a with
    | ⟨0, _⟩ =>
      show o + y.val = if E = 1 then 0 else o + y.val
      split
      · omega
      · rfl)]
  -- the block's column at `(y, k)` is the lane sum at `y`: the same row-major position, as `k = 0`
  rw [shapeCast_apply _ hc (ix2 y k) (ix1 y) (by
    rw [Shape.rowMajor_val_one, Shape.rowMajor_val_two]
    show y.val = y.val * 1 + k.val
    have := k.isLt
    omega)]
  refine (Ideal.multiReduction_add_single Xb _ hred hφ hacc (ix1 y)).trans ?_
  show _ = Ideal.hostReduceAdd hr X (Ideal.ofBits .f32 0x00000000#32) (ix1 ⟨o + y.val, hlt⟩)
  rw [Ideal.hostReduceAdd_single hr hR, Ideal.ofBits_zero_f32, zero_add]
  -- both are sums over the columns, equal term by term
  show ∑ q : Fin A, Xb (hred.lift (ix1 y) q) = ∑ q : Fin A, X (hR.lift (ix1 ⟨o + y.val, hlt⟩) q)
  refine Finset.sum_congr rfl fun q _ => ?_
  have eb : hred.lift (ix1 y) q = ix2 y q := funext fun a => Fin.ext (by
    match a with
    | ⟨0, _⟩ => rfl
    | ⟨1, _⟩ => rfl)
  have el : hR.lift (ix1 ⟨o + y.val, hlt⟩) q = ix2 ⟨o + y.val, hlt⟩ q := funext fun a => Fin.ext (by
    match a with
    | ⟨0, _⟩ => rfl
    | ⟨1, _⟩ => rfl)
  rw [eb, el]
  exact hX y q hlt

/-- A one-column array spread over the columns. -/
theorem RowsOf.spreadCol {φ φ' : FTy} {C : FVec Ideal ⟨2, ![E, 1]⟩ φ} {Cb : FVec Ideal ⟨2, ![M, 1]⟩ φ'}
    (hC : RowsOf E M 1 o C Cb)
    (h : (⟨2, ![E, 1]⟩ : Shape).BroadcastsInDim ⟨2, ![E, A]⟩ ![0, 1]) (h' : (⟨2, ![M, 1]⟩ : Shape).Broadcasts ⟨2, ![M, A]⟩) :
    RowsOf E M A o (broadcastInDim ⟨2, ![E, A]⟩ ![0, 1] h C) (broadcastTo ⟨2, ![M, A]⟩ Cb h') := by
  intro y k hlt
  -- the long side reads `C` at `(o + y, 0)`, the block side `Cb` at `(y, 0)`
  rw [broadcastInDim_apply ![0, 1] h C (ix2 ⟨o + y.val, hlt⟩ k) (ix2 ⟨o + y.val, hlt⟩ (0 : Fin 1)) (fun a => by
    match a with
    | ⟨0, _⟩ =>
      show o + y.val = if E = 1 then 0 else o + y.val
      split
      · omega
      · rfl
    | ⟨1, _⟩ => simp)]
  rw [broadcastTo_apply Cb h' (ix2 y k) (ix2 y (0 : Fin 1)) (fun a => by
    match a with
    | ⟨0, _⟩ =>
      show y.val = if M = 1 then 0 else y.val
      split
      · have := y.isLt; omega
      · rfl
    | ⟨1, _⟩ => simp)]
  exact hC y 0 hlt

end Cert.Lib.RowBlocks

end
-- ==== Proof.LibLayerRows.lean ====
/-
  One graph-network layer, row by row.

  A layer acts on every node (row) by itself once the neighbours' sum is given: with `h` the node's features and `a`
  the sum of its neighbours' features,

      z  = (1 + ε) · h + a
      u  = max (z · W₁ + b₁) 0 · W₂ + b₂                      (two-layer perceptron)
      LN(u) = (u − μ) · (σ² + δ)^(−1/2) · g + b,   μ = (Σₖ uₖ) / n,   σ² = (Σₖ (uₖ − μ)²) / n      (row normalisation)

  and the layer's output is `max (LN'(LN(u))) 0 + h` (or `LN(u) + h` for the last layer).  Because each step reads only
  the node's own row, a block of consecutive rows of the inputs gives the same block of rows of the output: this module
  carries `RowsOf` (a block holds rows `o … o + M − 1` of a long array) through the perceptron and the normalisation,
  the long side spelt with the host's operations and the block side with a kernel's.
-/
import proofs.«108144_j81140522156740_2_alg».proof.Proof.LibRowNorm

noncomputable section

open scoped BigOperators

namespace Cert.Lib.RowBlocks

open Idealize.ShloMosaic Idealize.ShloMosaic.ValueIdx Cert.Lib.RowOps

variable {E M A o : Nat}

/-- A one-element array reshaped to 1 × 1 holds that element. -/
theorem cast_scalar_apply {α : Type} (e : (⟨0, ![]⟩ : Shape).Idx → α) (h : (⟨0, ![]⟩ : Shape).ShapeCasts ⟨2, ![1, 1]⟩) :
    shapeCast ⟨2, ![1, 1]⟩ e h (ix2 (0 : Fin 1) (0 : Fin 1)) = e ix0 := by
  exact shapeCast_apply e h (ix2 (0 : Fin 1) (0 : Fin 1)) ix0 (by
    have h2 := (Shape.rowMajor (⟨2, ![1, 1]⟩ : Shape) (ix2 (0 : Fin 1) (0 : Fin 1))).isLt
    have h0 := (Shape.rowMajor (⟨0, ![]⟩ : Shape) ix0).isLt
    have e2 : (⟨2, ![1, 1]⟩ : Shape).numel = 1 := by decide
    have e0 : (⟨0, ![]⟩ : Shape).numel = 1 := by decide
    omega)

/-- A vector reshaped to one row holds the vector along that row. -/
theorem cast_row_apply {α : Type} {N : Nat} (b : (⟨1, ![N]⟩ : Shape).Idx → α) (h : (⟨1, ![N]⟩ : Shape).ShapeCasts ⟨2, ![1, N]⟩)
    (q : Fin N) : shapeCast ⟨2, ![1, N]⟩ b h (ix2 (0 : Fin 1) q) = b (ix1 q) := by
  rw [shapeCast_addUnit_apply ![N] b h (ix2 (0 : Fin 1) q)]
  exact congrArg b (funext fun a => by match a with | ⟨0, _⟩ => rfl)

/-- A vector spread over the rows, the block side holding it as one row: two `broadcast_in_dim`s of `b` on the long
    side, a broadcast of the 1 × N block `bb` (through a shape cast to its own shape) on the other. -/
theorem RowsOf.biasRow {N : Nat} (b : (⟨1, ![N]⟩ : Shape).Idx → EReal) (bb : (⟨2, ![1, N]⟩ : Shape).Idx → EReal)
    (hb : ∀ q : Fin N, bb (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [bcastRow_bcast_apply, shapeCast_self]
  rw [broadcastTo_apply _ h2' (ix2 y q) (ix2 (0 : Fin 1) q) (fun a => by
    match a with
    | ⟨0, _⟩ => simp
    | ⟨1, _⟩ =>
      show q.val = if N = 1 then 0 else q.val
      split
      · have := q.isLt; omega
      · rfl)]
  exact hb q

/-- THE PERCEPTRON.  `max (((1 + ε) · h + a) · W₁ + b₁) 0 · W₂ + b₂`: on the long side the host's two plain products,
    on the block two products into zero accumulators of operands narrowed to a shorter float format (which changes no
    extended real); `ε` a scalar on the long side, held in a 1 × 1 block on the other. -/
theorem RowsOf.perceptron {K N : Nat} {H Agg : FVec Ideal ⟨2, ![E, K]⟩ .f32} {Hb Aggb : FVec Ideal ⟨2, ![M, K]⟩ .f32}
    (hH : RowsOf E M K o H Hb) (hA : RowsOf E M K o Agg Aggb)
    (s : (⟨0, ![]⟩ : Shape).Idx → EReal) (sb : (⟨2, ![1, 1]⟩ : Shape).Idx → EReal) (hs : sb (ix2 (0 : Fin 1) (0 : Fin 1)) = s ix0)
    (W1 : FVec Ideal ⟨2, ![K, N]⟩ .f32) (W1b : FVec Ideal ⟨2, ![K, N]⟩ .bf16) (hW1 : ∀ i, W1b i = W1 i)
    (b1 : (⟨1, ![N]⟩ : Shape).Idx → EReal) (b1b : (⟨2, ![1, N]⟩ : Shape).Idx → EReal) (hb1 : ∀ q : Fin N, b1b (ix2 (0 : Fin 1) q) = b1 (ix1 q))
    (W2 : FVec Ideal ⟨2, ![N, N]⟩ .f32) (W2b : FVec Ideal ⟨2, ![N, N]⟩ .bf16) (hW2 : ∀ i, W2b i = W2 i)
    (b2 : (⟨1, ![N]⟩ : Shape).Idx → EReal) (b2b : (⟨2, ![1, N]⟩ : Shape).Idx → EReal) (hb2 : ∀ q : Fin N, b2b (ix2 (0 : Fin 1) q) = b2 (ix1 q))
    (hS : (⟨0, ![]⟩ : Shape).BroadcastsInDim ⟨2, ![E, K]⟩ ![]) (hS' : (⟨2, ![1, 1]⟩ : Shape).Broadcasts ⟨2, ![M, K]⟩)
    (hZ : (⟨0, ![]⟩ : Shape).BroadcastsInDim ⟨2, ![E, N]⟩ ![])
    (h1 : (⟨1, ![N]⟩ : Shape).BroadcastsInDim ⟨2, ![1, N]⟩ ![1]) (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩)
    (ht : FTy.bf16.bits < FTy.f32.bits) :
    RowsOf E M N o
      (addf (FloatOps.dotGeneral (DotDims.plain E N N) none .single
          (maximumf (addf (FloatOps.dotGeneral (DotDims.plain E K N) none .single
              (addf (mulf (broadcastInDim ⟨2, ![E, K]⟩ ![] hS s) H) Agg) W1)
              (broadcastInDim ⟨2, ![E, N]⟩ ![0, 1] h2 (broadcastInDim ⟨2, ![1, N]⟩ ![1] h1 b1)))
            (broadcastInDim ⟨2, ![E, N]⟩ ![] hZ (constant (F := Ideal) ⟨0, ![]⟩ .f32 0x00000000#32))) W2)
        (broadcastInDim ⟨2, ![E, N]⟩ ![0, 1] h2 (broadcastInDim ⟨2, ![1, N]⟩ ![1] h1 b2)))
      (addf (FloatOps.matmul (DotDims.plain M N N) none
          (Idealize.ShloMosaic.truncf .bf16 (maximumf (addf (FloatOps.matmul (DotDims.plain M K N) none
              (Idealize.ShloMosaic.truncf .bf16 (addf (mulf (broadcastTo ⟨2, ![M, K]⟩ sb hS') Hb) Aggb) ht) W1b (constant ⟨2, ![M, N]⟩ .f32 0x00000000#32))
              (broadcastTo ⟨2, ![M, N]⟩ (shapeCast ⟨2, ![1, N]⟩ b1b h1') h2'))
            (broadcast ⟨2, ![M, N]⟩ (Scalar.ofBits (F := Ideal) .f32 0x00000000#32))) ht) W2b (constant ⟨2, ![M, N]⟩ .f32 0x00000000#32))
        (broadcastTo ⟨2, ![M, N]⟩ (shapeCast ⟨2, ![1, N]⟩ b2b h1') h2')) := by
  have hz := ((RowsOf.scalar s sb hs hS hS').mul hH).add hA
  have hu := (((hz.truncf ht).dot W1 W1b hW1 none none .single).add (RowsOf.biasRow b1 b1b hb1 h1 h2 h1' h2')).max (RowsOf.splat 0x00000000#32 hZ)
  exact ((hu.truncf ht).dot W2 W2b hW2 none none .single).add (RowsOf.biasRow b2 b2b hb2 h1 h2 h1' h2')

/-- THE ROW NORMALISATION.  `(u − μ) · (σ² + δ)^(−1/2) · g + b` with `μ` the mean of the row and `σ²` the mean of the
    squared deviations, the divisor `n` and the offset `δ` given by their words: on the long side the host's reductions,
    quotients and reciprocal square root, on the block the lane reductions and a kernel's. -/
theorem RowsOf.rowNorm {Z : FVec Ideal ⟨2, ![E, A]⟩ .f32} {Zb : FVec Ideal ⟨2, ![M, A]⟩ .f32} (hZ : RowsOf E M A o Z Zb)
    (g : (⟨1, ![A]⟩ : Shape).Idx → EReal) (gb : (⟨2, ![1, A]⟩ : Shape).Idx → EReal) (hg : ∀ q : Fin A, gb (ix2 (0 : Fin 1) q) = g (ix1 q))
    (b : (⟨1, ![A]⟩ : Shape).Idx → EReal) (bb : (⟨2, ![1, A]⟩ : Shape).Idx → EReal) (hb : ∀ q : Fin A, bb (ix2 (0 : Fin 1) q) = b (ix1 q))
    (wn wd : BitVec 32)
    (hr : (⟨2, ![E, A]⟩ : Shape).ReducesTo [1] ⟨1, ![E]⟩) (hu : 0 < (⟨0, ![]⟩ : Shape).numel)
    (hc0 : (⟨1, ![E]⟩ : Shape).BroadcastsInDim ⟨2, ![E, 1]⟩ ![0])
    (hS1 : (⟨0, ![]⟩ : Shape).BroadcastsInDim ⟨2, ![E, 1]⟩ ![])
    (hsp : (⟨2, ![E, 1]⟩ : Shape).BroadcastsInDim ⟨2, ![E, A]⟩ ![0, 1])
    (h1 : (⟨1, ![A]⟩ : Shape).BroadcastsInDim ⟨2, ![1, A]⟩ ![1]) (h2 : (⟨2, ![1, A]⟩ : Shape).BroadcastsInDim ⟨2, ![E, A]⟩ ![0, 1])
    (hred : (⟨2, ![M, A]⟩ : Shape).Reduces [1] ⟨1, ![M]⟩) (hφ : FKind.Formats .f32)
    (hacc : (0x00000000#32 : BitVec 32) = FKind.add.neutral .f32 hφ)
    (hcc : (⟨1, ![M]⟩ : Shape).ShapeCasts ⟨2, ![M, 1]⟩)
    (hsp' : (⟨2, ![M, 1]⟩ : Shape).Broadcasts ⟨2, ![M, A]⟩)
    (h1' : (⟨2, ![1, A]⟩ : Shape).ShapeCasts ⟨2, ![1, A]⟩) (h2' : (⟨2, ![1, A]⟩ : Shape).Broadcasts ⟨2, ![M, A]⟩) :
    RowsOf E M A o
      (addf (mulf (mulf
          (subf Z (broadcastInDim ⟨2, ![E, A]⟩ ![0, 1] hsp
            (Host.divf (broadcastInDim ⟨2, ![E, 1]⟩ ![0] hc0 (Host.reduceAdd Z (constant (F := Ideal) ⟨0, ![]⟩ .f32 0x00000000#32) hr hu))
              (broadcastInDim ⟨2, ![E, 1]⟩ ![] hS1 (constant (F := Ideal) ⟨0, ![]⟩ .f32 wn)))))
          (broadcastInDim ⟨2, ![E, A]⟩ ![0, 1] hsp (Host.rsqrt (addf
            (Host.divf (broadcastInDim ⟨2, ![E, 1]⟩ ![0] hc0 (Host.reduceAdd
                (mulf
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn)))))
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn))))))
                (constant (F := Ideal) ⟨0, ![]⟩ .f32 0x00000000#32) hr hu))
              (broadcastInDim ⟨2, ![E, 1]⟩ ![] hS1 (constant (F := Ideal) ⟨0, ![]⟩ .f32 wn)))
            (broadcastInDim ⟨2, ![E, 1]⟩ ![] hS1 (constant (F := Ideal) ⟨0, ![]⟩ .f32 wd))))))
          (broadcastInDim ⟨2, ![E, A]⟩ ![0, 1] h2 (broadcastInDim ⟨2, ![1, A]⟩ ![1] h1 g)))
        (broadcastInDim ⟨2, ![E, A]⟩ ![0, 1] h2 (broadcastInDim ⟨2, ![1, A]⟩ ![1] h1 b)))
      (addf (mulf (mulf
          (subf Zb (broadcastTo ⟨2, ![M, A]⟩
            (divf (shapeCast ⟨2, ![M, 1]⟩ (multiReduction .add [1] ⟨1, ![M]⟩ Zb 0x00000000#32 hred hφ hacc) hcc)
              (broadcast ⟨2, ![M, 1]⟩ (Scalar.ofBits (F := Ideal) .f32 wn))) hsp'))
          (broadcastTo ⟨2, ![M, A]⟩ (Idealize.ShloMosaic.rsqrt (addf
            (divf (shapeCast ⟨2, ![M, 1]⟩ (multiReduction .add [1] ⟨1, ![M]⟩
                (mulf
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp'))
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp')))
                0x00000000#32 hred hφ hacc) hcc)
              (broadcast ⟨2, ![M, 1]⟩ (Scalar.ofBits (F := Ideal) .f32 wn)))
            (broadcast ⟨2, ![M, 1]⟩ (Scalar.ofBits (F := Ideal) .f32 wd)))) hsp'))
          (broadcastTo ⟨2, ![M, A]⟩ (shapeCast ⟨2, ![1, A]⟩ gb h1') h2'))
        (broadcastTo ⟨2, ![M, A]⟩ (shapeCast ⟨2, ![1, A]⟩ bb h1') h2')) := by
  have hmean : RowsOf E M 1 o _ _ :=
    RowsOf.hostDiv (φ := .f32) (φ' := .f32) (hZ.rowSum hr hu hc0 hred hφ hacc hcc) (RowsOf.splat (E := E) (M := M) (A := 1) (o := o) wn hS1)
  have hdev : RowsOf E M A o _ _ := RowsOf.sub (φ := .f32) (φ' := .f32) hZ (RowsOf.spreadCol (φ := .f32) (φ' := .f32) hmean hsp hsp')
  have hvar : RowsOf E M 1 o _ _ :=
    RowsOf.hostDiv (φ := .f32) (φ' := .f32) ((RowsOf.mul (φ := .f32) (φ' := .f32) hdev hdev).rowSum hr hu hc0 hred hφ hacc hcc)
      (RowsOf.splat (E := E) (M := M) (A := 1) (o := o) wn hS1)
  have hinv : RowsOf E M 1 o _ _ :=
    RowsOf.rsqrt (φ := .f32) (φ' := .f32) (RowsOf.add (φ := .f32) (φ' := .f32) hvar (RowsOf.splat (E := E) (M := M) (A := 1) (o := o) wd hS1))
  exact RowsOf.add (φ := .f32) (φ' := .f32)
    (RowsOf.mul (φ := .f32) (φ' := .f32)
      (RowsOf.mul (φ := .f32) (φ' := .f32) hdev (RowsOf.spreadCol (φ := .f32) (φ' := .f32) hinv hsp hsp'))
      (RowsOf.biasRow g gb hg h1 h2 h1' h2'))
    (RowsOf.biasRow b bb hb h1 h2 h1' h2')

end Cert.Lib.RowBlocks

end
-- ==== Proof.LibBnRows.lean ====
/-
  Two maps that act on every row of a long array by itself, carried from a block of consecutive rows to the rows of
  the long array (`RowsOf E M A o arr blk`: `blk`, of `M` rows, holds rows `o … o + M − 1` of `arr`).

  BATCH NORMALISATION FOLLOWED BY A RECTIFIER.  With one mean `μ`, one variance `σ²`, one scale `g` and one shift `b` per
  column — four vectors of length `N` — the normalised and rectified `E × N` array is, entry by entry,

      max (((x − μ) · (σ² + ε)^(−1/2)) · g + b) 0,

  each vector spread over the rows.

  * the long side is spelt with the host's operations: each vector spread by two `broadcast_in_dim`s, the reciprocal
    square root taken of the VECTOR `σ² + ε` before it is spread, the rectifier as a maximum against a spread zero;
  * the block side holds each vector as ONE ROW (a 1 × N array), takes the reciprocal square root of that row and
    spreads rows by a broadcast.

  THE AFFINE MAP `x · W + b`, `W` a `K × N` matrix both sides hold whole and `b` a vector of length `N`: row `r` of the
  product depends on row `r` of `x` only.

  * the long side is the host's plain `dot_general` plus the vector spread by two `broadcast_in_dim`s;
  * the block side is a product into a zero accumulator of operands narrowed to a shorter float format (which changes
    no extended real) plus the bias, held as one row, spread by a broadcast.
-/
import proofs.«108144_j81140522156740_2_alg».proof.Proof.LibLayerRows

noncomputable section

open scoped BigOperators

namespace Cert.Lib.RowBlocks

open Idealize.ShloMosaic Idealize.ShloMosaic.ValueIdx Cert.Lib.RowOps

variable {E M A o : Nat}

/-! ## Batch normalisation and rectifier -/

/-- A vector spread over the rows, the block side holding it as one row: two `broadcast_in_dim`s of `v` on the long
    side, a broadcast of the 1 × N block `vb` on the other. -/
theorem RowsOf.spreadRow {N : Nat} (v : (⟨1, ![N]⟩ : Shape).Idx → EReal) (vb : (⟨2, ![1, N]⟩ : Shape).Idx → EReal)
    (hv : ∀ q : Fin N, vb (ix2 (0 : Fin 1) q) = v (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 v))
      (broadcastTo ⟨2, ![M, N]⟩ vb h2') := fun y q h => by
  rw [bcastRow_bcast_apply]
  rw [broadcastTo_apply _ h2' (ix2 y q) (ix2 (0 : Fin 1) q) (fun a => by
    match a with
    | ⟨0, _⟩ => simp
    | ⟨1, _⟩ =>
      show q.val = if N = 1 then 0 else q.val
      split
      · have := q.isLt; omega
      · rfl)]
  exact hv q

/-- `(σ² + ε)^(−1/2)` as one row: when the row `vb` holds the vector `v`, the reciprocal square root of the row plus the
    constant of word `w` holds the reciprocal square root of the vector plus that constant. -/
theorem rsqrt_add_row_apply {N : Nat} (v : FVec Ideal ⟨1, ![N]⟩ .f32) (vb : FVec Ideal ⟨2, ![1, N]⟩ .f32)
    (hv : ∀ q : Fin N, vb (ix2 (0 : Fin 1) q) = v (ix1 q)) (w : BitVec 32)
    (hE : (⟨0, ![]⟩ : Shape).BroadcastsInDim ⟨1, ![N]⟩ ![])
    (hc : (⟨2, ![1, N]⟩ : Shape).ShapeCasts ⟨2, ![1, N]⟩) (q : Fin N) :
    Idealize.ShloMosaic.rsqrt (addf (shapeCast ⟨2, ![1, N]⟩ vb hc) (broadcast ⟨2, ![1, N]⟩ (Scalar.ofBits (F := Ideal) .f32 w)))
        (ix2 (0 : Fin 1) q)
      = Host.rsqrt (addf v (broadcastInDim ⟨1, ![N]⟩ ![] hE (constant (F := Ideal) ⟨0, ![]⟩ .f32 w))) (ix1 q) := by
  show Ideal.rsqrt ((shapeCast ⟨2, ![1, N]⟩ vb hc (ix2 (0 : Fin 1) q) : EReal) + Ideal.ofBits .f32 w)
    = Ideal.rsqrt ((v (ix1 q) : EReal) + broadcastInDim ⟨1, ![N]⟩ ![] hE (constant (F := Ideal) ⟨0, ![]⟩ .f32 w) (ix1 q))
  rw [shapeCast_self, splat_apply, hv]

/-- THE NORMALISED AND RECTIFIED ARRAY, spelt with the host's operations:
    `max (((x − μ) · (σ² + ε)^(−1/2)) · g + b) 0`, the offset `ε` given by its word `wε`. -/
def bnReluRef (E N : Nat) (x : FVec Ideal ⟨2, ![E, N]⟩ .f32) (μ v g b : FVec Ideal ⟨1, ![N]⟩ .f32) (wε : BitVec 32)
    (hE : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![E, N]⟩ ![0, 1])
    (hZ : (⟨0, ![]⟩ : Shape).BroadcastsInDim ⟨2, ![E, N]⟩ ![]) : FVec Ideal ⟨2, ![E, N]⟩ .f32 :=
  maximumf
    (addf (mulf (mulf
        (subf x (broadcastInDim ⟨2, ![E, N]⟩ ![0, 1] h2 (broadcastInDim ⟨2, ![1, N]⟩ ![1] h1 μ)))
        (broadcastInDim ⟨2, ![E, N]⟩ ![0, 1] h2 (broadcastInDim ⟨2, ![1, N]⟩ ![1] h1
          (Host.rsqrt (addf v (broadcastInDim ⟨1, ![N]⟩ ![] hE (constant (F := Ideal) ⟨0, ![]⟩ .f32 wε)))))))
        (broadcastInDim ⟨2, ![E, N]⟩ ![0, 1] h2 (broadcastInDim ⟨2, ![1, N]⟩ ![1] h1 g)))
      (broadcastInDim ⟨2, ![E, N]⟩ ![0, 1] h2 (broadcastInDim ⟨2, ![1, N]⟩ ![1] h1 b)))
    (broadcastInDim ⟨2, ![E, N]⟩ ![] hZ (constant (F := Ideal) ⟨0, ![]⟩ .f32 0x00000000#32))

/-- THE NORMALISATION AND RECTIFIER carry rows: when the block `Xb` holds rows `o …` of `X` and the four rows `μb`, `vb`,
    `gb`, `bb` hold the four vectors, the block-side term holds the same rows of `bnReluRef`. -/
theorem RowsOf.bnRelu {N : Nat} {X : FVec Ideal ⟨2, ![E, N]⟩ .f32} {Xb : FVec Ideal ⟨2, ![M, N]⟩ .f32} (hX : RowsOf E M N o X Xb)
    (μ v g b : FVec Ideal ⟨1, ![N]⟩ .f32) (μb vb gb bb : FVec Ideal ⟨2, ![1, N]⟩ .f32)
    (hμ : ∀ q : Fin N, μb (ix2 (0 : Fin 1) q) = μ (ix1 q)) (hv : ∀ q : Fin N, vb (ix2 (0 : Fin 1) q) = v (ix1 q))
    (hg : ∀ q : Fin N, gb (ix2 (0 : Fin 1) q) = g (ix1 q)) (hb : ∀ q : Fin N, bb (ix2 (0 : Fin 1) q) = b (ix1 q))
    (wε : BitVec 32)
    (hE : (⟨0, ![]⟩ : Shape).BroadcastsInDim ⟨1, ![N]⟩ ![])
    (h1 : (⟨1, ![N]⟩ : Shape).BroadcastsInDim ⟨2, ![1, N]⟩ ![1])
    (h2 : (⟨2, ![1, N]⟩ : Shape).BroadcastsInDim ⟨2, ![E, N]⟩ ![0, 1])
    (hZ : (⟨0, ![]⟩ : Shape).BroadcastsInDim ⟨2, ![E, N]⟩ ![])
    (hcX : (⟨2, ![M, N]⟩ : Shape).ShapeCasts ⟨2, ![M, N]⟩)
    (h1' : (⟨2, ![1, N]⟩ : Shape).ShapeCasts ⟨2, ![1, N]⟩) (h2' : (⟨2, ![1, N]⟩ : Shape).Broadcasts ⟨2, ![M, N]⟩) :
    RowsOf E M N o (bnReluRef E N X μ v g b wε hE h1 h2 hZ)
      (maximumf
        (addf (mulf (mulf
            (subf (shapeCast ⟨2, ![M, N]⟩ Xb hcX) (broadcastTo ⟨2, ![M, N]⟩ (shapeCast ⟨2, ![1, N]⟩ μb h1') h2'))
            (broadcastTo ⟨2, ![M, N]⟩
              (Idealize.ShloMosaic.rsqrt (addf (shapeCast ⟨2, ![1, N]⟩ vb h1') (broadcast ⟨2, ![1, N]⟩ (Scalar.ofBits (F := Ideal) .f32 wε)))) h2'))
            (broadcastTo ⟨2, ![M, N]⟩ (shapeCast ⟨2, ![1, N]⟩ gb h1') h2'))
          (broadcastTo ⟨2, ![M, N]⟩ (shapeCast ⟨2, ![1, N]⟩ bb h1') h2'))
        (broadcast ⟨2, ![M, N]⟩ (Scalar.ofBits (F := Ideal) .f32 0x00000000#32))) := by
  unfold bnReluRef
  have hdev : RowsOf E M N o _ _ :=
    RowsOf.sub (φ := .f32) (φ' := .f32) (hX.castSelf hcX) (RowsOf.biasRow μ μb hμ h1 h2 h1' h2')
  have hinv : RowsOf E M N o _ _ :=
    RowsOf.spreadRow (E := E) (M := M) (o := o) _ _ (rsqrt_add_row_apply v vb hv wε hE h1') h1 h2 h2'
  exact RowsOf.max (φ := .f32) (φ' := .f32)
    (RowsOf.add (φ := .f32) (φ' := .f32)
      (RowsOf.mul (φ := .f32) (φ' := .f32)
        (RowsOf.mul (φ := .f32) (φ' := .f32) hdev hinv)
        (RowsOf.biasRow g gb hg h1 h2 h1' h2'))
      (RowsOf.biasRow b bb hb h1 h2 h1' h2'))
    (RowsOf.splat 0x00000000#32 hZ)

/-! ## The affine map -/

/-- THE AFFINE MAP `x · W + b`, spelt with the host's operations: the plain product and the bias vector spread over the
    rows by two `broadcast_in_dim`s. -/
def affineRef (E K N : Nat) (x : FVec Ideal ⟨2, ![E, K]⟩ .f32) (W : FVec Ideal ⟨2, ![K, N]⟩ .f32)
    (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![E, N]⟩ ![0, 1]) : FVec Ideal ⟨2, ![E, N]⟩ .f32 :=
  addf (FloatOps.dotGeneral (DotDims.plain E K N) none .single x W)
    (broadcastInDim ⟨2, ![E, N]⟩ ![0, 1] h2 (broadcastInDim ⟨2, ![1, N]⟩ ![1] h1 b))

/-- THE AFFINE MAP carries rows: when the block `Xb` holds rows `o …` of `X`, `Wb` is `W` entry by entry and the row `bb`
    holds the vector `b`, the block-side term — the product of the narrowed operands into a zero accumulator plus the
    spread row — holds the same rows of `affineRef`. -/
theorem RowsOf.affine {K N : Nat} {X : FVec Ideal ⟨2, ![E, K]⟩ .f32} {Xb : FVec Ideal ⟨2, ![M, K]⟩ .f32} (hX : RowsOf E M K o X Xb)
    (W Wb : FVec Ideal ⟨2, ![K, N]⟩ .f32) (hW : ∀ i, Wb i = W i)
    (b : (⟨1, ![N]⟩ : Shape).Idx → EReal) (bb : (⟨2, ![1, N]⟩ : Shape).Idx → EReal)
    (hb : ∀ q : Fin N, bb (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩)
    (ht : FTy.bf16.bits < FTy.f32.bits) :
    RowsOf E M N o (affineRef E K N X W b h1 h2)
      (addf (FloatOps.matmul (DotDims.plain M K N) none (Idealize.ShloMosaic.truncf .bf16 Xb ht)
          (Idealize.ShloMosaic.truncf .bf16 Wb ht) (constant ⟨2, ![M, N]⟩ .f32 0x00000000#32))
        (broadcastTo ⟨2, ![M, N]⟩ (shapeCast ⟨2, ![1, N]⟩ bb h1') h2')) := by
  unfold affineRef
  exact RowsOf.add (φ := .f32) (φ' := .f32)
    (RowsOf.dot (RowsOf.truncf ht hX) W (Idealize.ShloMosaic.truncf .bf16 Wb ht) hW none none .single)
    (RowsOf.biasRow b bb hb h1 h2 h1' h2')

end Cert.Lib.RowBlocks

end
-- ==== Proof.Region0.lean ====
/-
  The node embedding.  Each grid point `t` (of ten) holds rows `5000 t … 5000 t + 4999` of the node features `x`
  (50000 × 77), the whole weight matrix `W` (77 × 64) and the bias as one row (1 × 64), and writes rows `5000 t …` of
  `x · W + b`.  Row `r` of a matrix product depends on row `r` of the left operand only and the ten row blocks tile the
  50000 rows, so after the ten points the result array is the host-style term `affineRef` of the whole arrays:
  `dot_general x W + (b spread over the rows)`.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `x`, `x1` is `W` entry by entry and the
    row `x2` holds the bias vector, the body's result holds the same rows of `affineRef`. -/
theorem pay_rows (o : Nat) (x : FVec Ideal S50000x77 .f32) (W : FVec Ideal S77x64 .f32) (b : S64.Idx → EReal)
    (x0 : FVec Ideal S5000x77 .f32) (x1 : FVec Ideal S77x64 .f32) (x2 : FVec Ideal S1x64 .f32)
    (h0 : RowsOf 50000 5000 77 o x x0) (hW : ∀ i, x1 i = W i)
    (hb : ∀ q : Fin 64, x2 (ix2 (0 : Fin 1) q) = b (ix1 q))
    (h1 : S64.BroadcastsInDim S1x64 ![1]) (h2 : S1x64.BroadcastsInDim S50000x64 ![0, 1]) :
    RowsOf 50000 5000 64 o (affineRef 50000 77 64 x W b h1 h2) (k0_pay1 (F := Ideal) x0 x1 x2) := by
  unfold k0_pay1
  show RowsOf 50000 5000 64 o (affineRef 50000 77 64 x W b h1 h2)
    (addf (FloatOps.matmul (DotDims.plain 5000 77 64) none
        (truncf .bf16 x0 bitsLt_bf16_f32) (truncf .bf16 x1 bitsLt_bf16_f32)
        (constant ⟨2, ![5000, 64]⟩ .f32 0x00000000#32))
      (broadcastTo S5000x64 (shapeCast S1x64 x2 shapeCasts_S1x64_S1x64) broadcasts_S1x64_S5000x64))
  exact RowsOf.affine h0 W x1 hW b x2 hb h1 h2 shapeCasts_S1x64_S1x64 broadcasts_S1x64_S5000x64 bitsLt_bf16_f32

/-- The grid's index maps: point `t` holds row block `t` of the node features and of the result, and the matrix and the bias row whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of the node features holds rows `5000 t …` of the array. -/
theorem x_rows (c : Dev nD) (t : Fin cfg0.N) :
    RowsOf 50000 5000 77 (t.val * 5000) (V c main_arg0 : S50000x77.Idx → EReal) (iblk0 V c 0 t) := by
  intro y k h
  obtain ⟨e0, e1, -⟩ := idx_facts t
  show V c main_arg0 (((cfg0.win 0).blk t).view.emb (ix2 y k)) = V c main_arg0 (ix2 ⟨t.val * 5000 + y.val, h⟩ k)
  refine congrArg (V c main_arg0) ?_
  funext a; apply Fin.ext
  match a with
  | ⟨0, _⟩ => show win0_0.index t (0 : Fin 2) * 5000 + 1 * y.val = t.val * 5000 + y.val; omega
  | ⟨1, _⟩ => show win0_0.index t (1 : Fin 2) * 77 + 1 * k.val = k.val; omega

/-- The weight matrix's block is the whole matrix, at every point. -/
theorem weight_read (c : Dev nD) (t : Fin cfg0.N) (i : S77x64.Idx) : iblk0 V c 1 t i = V c main_arg4 i := by
  obtain ⟨p, q, rfl⟩ : ∃ (p : Fin 77) (q : Fin 64), i = ix2 p q := ⟨i 0, i 1, eq_ix2 i⟩
  obtain ⟨-, -, e0, e1, -⟩ := idx_facts t
  show V c main_arg4 (((cfg0.win 1).blk t).view.emb (ix2 p q)) = _
  refine congrArg (V c main_arg4) ?_
  funext a; apply Fin.ext
  match a with
  | ⟨0, _⟩ => show win0_1.index t (0 : Fin 2) * 77 + 1 * p.val = p.val; omega
  | ⟨1, _⟩ => show win0_1.index t (1 : Fin 2) * 64 + 1 * q.val = q.val; omega

/-- The bias row's block is the whole row, at every point. -/
theorem bias_row (c : Dev nD) (t : Fin cfg0.N) (q : Fin 64) :
    iblk0 V c 2 t (ix2 (0 : Fin 1) q) = V c main_v4 (ix2 (0 : Fin 1) q) := by
  obtain ⟨-, -, -, -, e0, e1, -⟩ := idx_facts t
  show V c main_v4 (((cfg0.win 2).blk t).view.emb (ix2 (0 : Fin 1) q)) = _
  refine congrArg (V c main_v4) ?_
  funext a; apply Fin.ext
  match a with
  | ⟨0, _⟩ => show win0_2.index t (0 : Fin 2) * 1 + 1 * 0 = 0; omega
  | ⟨1, _⟩ => show win0_2.index t (1 : Fin 2) * 64 + 1 * q.val = q.val; omega

section Result

variable (c : Dev nD) (b : S64.Idx → EReal)
  (hb : ∀ q : Fin 64, V c main_v4 (ix2 (0 : Fin 1) q) = b (ix1 q))
  (h1 : S64.BroadcastsInDim S1x64 ![1]) (h2 : S1x64.BroadcastsInDim S50000x64 ![0, 1])

include hb in
/-- What point `t` writes back is block `t` of `affineRef` of the arrays the region finds. -/
theorem flushed_eq (t : Fin cfg0.N) :
    (dat0 V c).flushed 3 t = ((cfg0.win 3).blk t).view.read (Elt Ideal)
      (affineRef 50000 77 64 (V c main_arg0) (V c main_arg4) b h1 h2) := by
  show (cfg0.win 3).cut (grid0.coords t) ((dat0 V c).after 3 t) = _
  rw [after0_3]
  unfold out0_3
  rw [View.canon_unit_zero hz]
  simp only [View.ld_unit_zero (S := S5000x77) hz, View.ld_unit_zero (S := S77x64) hz, View.ld_unit_zero (S := S1x64) hz]
  obtain ⟨-, -, -, -, -, -, e0, e1⟩ := idx_facts t
  funext j
  obtain ⟨y, k, rfl⟩ : ∃ (y : Fin 5000) (k : Fin 64), j = ix2 y k := ⟨j 0, j 1, eq_ix2 j⟩
  have hN : cfg0.N = 10 := N_0
  have hlt : t.val * 5000 + y.val < 50000 := by
    have ht := t.isLt
    have hy := y.isLt
    omega
  show k0_pay1 (F := Ideal) (iblk0 V c 0 t) (iblk0 V c 1 t) (iblk0 V c 2 t) (ix2 y k)
    = affineRef 50000 77 64 (V c main_arg0) (V c main_arg4) b h1 h2 (((cfg0.win 3).blk t).view.emb (ix2 y k))
  refine (pay_rows (t.val * 5000) (V c main_arg0) (V c main_arg4) b (iblk0 V c 0 t) (iblk0 V c 1 t) (iblk0 V c 2 t)
    (x_rows V c t) (weight_read V c t) (fun q => (bias_row V c t q).trans (hb q))
    h1 h2 y k hlt).trans ?_
  refine congrArg (affineRef 50000 77 64 (V c main_arg0) (V c main_arg4) b h1 h2) ?_
  funext a; apply Fin.ext
  match a with
  | ⟨0, _⟩ => show t.val * 5000 + y.val = win0_3.index t (0 : Fin 2) * 5000 + 1 * y.val; omega
  | ⟨1, _⟩ => show k.val = win0_3.index t (1 : Fin 2) * 64 + 1 * k.val; omega

/-- An index of the result array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

/-- The row blocks cover the array: row `r` lies in the block of point `r / 5000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

include hb in
/-- THE RESULT ARRAY after the region is `affineRef` of the node features and the weight matrix the region finds, and the bias. -/
theorem arr_eq : (dat0 V c).arrAt 3 cfg0.N = affineRef 50000 77 64 (V c main_arg0) (V c main_arg4) b h1 h2 :=
  (dat0 V c).arrAt_eq_of_cover 3 _ (fun t _ => flushed_eq V c b hb h1 h2 t) cover

end Result

end Cert.KernelIdeal.Region0

end
-- ==== Proof.GlueA.lean ====
/-
  The kernel program's buffers up to the node embedding.  The host operations before the first kernel slice the two
  rows of the edge index (source and destination node of every edge) and reshape the two embedding biases to one row;
  the first kernel then leaves `x · W + b` in its result buffer: the reference's node embedding.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.Region0
import proofs.«108144_j81140522156740_2_alg».proof.Proof.LibLayerRows
import proofs.«108144_j81140522156740_2_alg».proof.Proof.LibBnRows
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## After the first stretch of host operations -/

theorem b1_v1 : (W1 m ρ c (Proc.devRef .tc main_v1) : S800000.Idx → BitVec 32) = Cert.ReferenceIdeal.RefRun.srcVec (m ((c : Thread nD τ).loc main_arg1)) := by
  show StableHlo.after hostOps0 (W0 m ρ c) (Proc.devRef .tc main_v1) = _
  after_results
  rfl

theorem b1_v3 : (W1 m ρ c (Proc.devRef .tc main_v3) : S800000.Idx → BitVec 32) = Cert.ReferenceIdeal.RefRun.dstVec (m ((c : Thread nD τ).loc main_arg1)) := by
  show StableHlo.after hostOps0 (W0 m ρ c) (Proc.devRef .tc main_v3) = _
  after_results
  rfl

theorem b1_v4 : (W1 m ρ c (Proc.devRef .tc main_v4) : S1x64.Idx → EReal) = shapeCast S1x64 (m ((c : Thread nD τ).loc main_arg5)) shapeCasts_S64_S1x64 := by
  show StableHlo.after hostOps0 (W0 m ρ c) (Proc.devRef .tc main_v4) = _
  after_results
  rfl

theorem b1_v5 : (W1 m ρ c (Proc.devRef .tc main_v5) : S1x32.Idx → EReal) = shapeCast S1x32 (m ((c : Thread nD τ).loc main_arg7)) shapeCasts_S32_S1x32 := by
  show StableHlo.after hostOps0 (W0 m ρ c) (Proc.devRef .tc main_v5) = _
  after_results
  rfl

theorem b1_arg0 : (W1 m ρ c (Proc.devRef .tc main_arg0) : S50000x77.Idx → EReal) = (m ((c : Thread nD τ).loc main_arg0)) := by
  show StableHlo.after hostOps0 (W0 m ρ c) (Proc.devRef .tc main_arg0) = _
  after_results

theorem b1_arg4 : (W1 m ρ c (Proc.devRef .tc main_arg4) : S77x64.Idx → EReal) = (m ((c : Thread nD τ).loc main_arg4)) := by
  show StableHlo.after hostOps0 (W0 m ρ c) (Proc.devRef .tc main_arg4) = _
  after_results

/-! ## The node embedding -/

/-- The first kernel's result buffer holds the reference's node embedding of the launch arrays. -/
theorem b2_v6 : (W2 m ρ c (Proc.devRef .tc main_v6) : S50000x64.Idx → EReal)
    = Cert.ReferenceIdeal.RefRun.embed (m ((c : Thread nD τ).loc main_arg0)) (m ((c : Thread nD τ).loc main_arg4)) (m ((c : Thread nD τ).loc main_arg5)) := by
  refine (W2_arr m ρ c 3).trans ?_
  refine (Cert.KernelIdeal.Region0.arr_eq (V1 m ρ) c (m ((c : Thread nD τ).loc main_arg5)) (fun q => ?_)
    Cert.ReferenceIdeal.Facts₀.bcast_S64_S1x64_1 Cert.ReferenceIdeal.Facts₀.bcast_S1x64_S50000x64_0_1).trans ?_
  · show (W1 m ρ c (Proc.devRef .tc main_v4) : S1x64.Idx → EReal) (ix2 (0 : Fin 1) q) = _
    rw [b1_v4]
    exact Cert.Lib.RowBlocks.cast_row_apply _ _ q
  · show Cert.Lib.RowBlocks.affineRef 50000 77 64 (W1 m ρ c (Proc.devRef .tc main_arg0)) (W1 m ρ c (Proc.devRef .tc main_arg4)) _ _ _ = _
    rw [b1_arg0, b1_arg4]
    rfl

end Cert.KernelIdeal.Glue

end
-- ==== Proof.LibRowGates.lean ====
/-
  Rows of a long rank-two array against a block of consecutive rows of it, continued: the operations of a gated
  recurrent cell and of a leaky rectifier.

  With `RowsOf E M A o arr blk` — `blk`, of `M` rows, holds rows `o, …, o + M - 1` of the `E`-row array `arr` —
  each of the following carries the relation from operands to result, the long side spelt with the host's operations
  and the block side with a kernel's:

  * a run of consecutive columns cut out of both (a row of the cut is the cut of the row);
  * the hyperbolic tangent;
  * the logistic function `σ(x) = 1 / (1 + e⁻ˣ)`: on the long side the quotient spelt out with the word of the number
    one, on the block the logistic operation;
  * a scalar constant minus an array;
  * a comparison followed by a selection, and with them the leaky rectifier `x ↦ x` where `x ≥ 0`, `s · x` elsewhere;
  * a single number spread over a one-column array: a length-one vector on the long side, a 1 × 1 block on the other.
-/
import proofs.«108144_j81140522156740_2_alg».proof.Proof.LibLayerRows

noncomputable section

open scoped BigOperators

namespace Cert.Lib.RowBlocks

open Idealize.ShloMosaic Idealize.ShloMosaic.ValueIdx Cert.Lib.RowOps

variable {E M A o : Nat}

/-- A block equal entry by entry to one that holds the rows holds them too. -/
theorem RowsOf.congr {X : (⟨2, ![E, A]⟩ : Shape).Idx → EReal} {Xb Xb' : (⟨2, ![M, A]⟩ : Shape).Idx → EReal}
    (hX : RowsOf E M A o X Xb) (h : ∀ i, Xb' i = Xb i) : RowsOf E M A o X Xb' := fun y k hlt => by
  rw [h]; exact hX y k hlt

/-- Columns `off … off + A - 1` of both: the columns of a row do not depend on which rows are held. -/
theorem RowsOf.sliceCols {A' off : Nat} {X : (⟨2, ![E, A']⟩ : Shape).Idx → EReal} {Xb : (⟨2, ![M, A']⟩ : Shape).Idx → EReal}
    (hX : RowsOf E M A' o X Xb)
    (h : (⟨2, ![E, A']⟩ : Shape).Slices ![0, off] ⟨2, ![E, A]⟩) (h' : (⟨2, ![M, A']⟩ : Shape).Slices ![0, off] ⟨2, ![M, A]⟩) :
    RowsOf E M A o (extractStridedSlice ⟨2, ![E, A]⟩ ![0, off] X h) (extractStridedSlice ⟨2, ![M, A]⟩ ![0, off] Xb h') := by
  intro y k hlt
  -- the cut stays inside the columns of the operand
  have hoff : off + A ≤ A' := h'.2 (1 : Fin 2)
  have hk : off + k.val < A' := by have := k.isLt; omega
  rw [sliceCols_apply M A' A off Xb h' y k hk, sliceCols_apply E A' A off X h ⟨o + y.val, hlt⟩ k hk]
  exact hX y ⟨off + k.val, hk⟩ hlt

/-- Hyperbolic tangents: the host's on the long side, a kernel's on the block. -/
theorem RowsOf.tanh {φ φ' : FTy} {X : FVec Ideal ⟨2, ![E, A]⟩ φ} {Xb : FVec Ideal ⟨2, ![M, A]⟩ φ'}
    (hX : RowsOf E M A o X Xb) : RowsOf E M A o (Host.tanh X) (Idealize.ShloMosaic.tanh Xb) := by
  intro y k h
  show Ideal.tanh (Xb (ix2 y k)) = Ideal.tanh (X _)
  rw [hX y k h]

/-- The logistic function `σ(x) = 1 / (1 + e⁻ˣ)`: the host's quotient with the word of the number one on the long side,
    the logistic operation on the block. -/
theorem RowsOf.logistic {X : FVec Ideal ⟨2, ![E, A]⟩ .f32} {Xb : FVec Ideal ⟨2, ![M, A]⟩ .f32} (hX : RowsOf E M A o X Xb)
    (h1 h2 : (⟨0, ![]⟩ : Shape).BroadcastsInDim ⟨2, ![E, A]⟩ ![]) :
    RowsOf E M A o
      (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf X))))
      (Idealize.ShloMosaic.logistic Xb) := fun y k h => by
  show Ideal.logistic (Xb (ix2 y k))
    = Ideal.div (Ideal.ofBits .f32 0x3F800000#32) (Ideal.ofBits .f32 0x3F800000#32 + Ideal.exp (-(X _)))
  rw [hX y k h, Cert.Lib.Gru.logistic_eq_sigm]
  rfl

/-- A scalar constant minus an array: the host's difference from a spread rank-zero constant on the long side, a
    kernel's difference from a splat of the same word on the block. -/
theorem RowsOf.constSub (w : BitVec 32) {X : FVec Ideal ⟨2, ![E, A]⟩ .f32} {Xb : FVec Ideal ⟨2, ![M, A]⟩ .f32}
    (hX : RowsOf E M A o X Xb) (h : (⟨0, ![]⟩ : Shape).BroadcastsInDim ⟨2, ![E, A]⟩ ![]) :
    RowsOf E M A o (subf (broadcastInDim ⟨2, ![E, A]⟩ ![] h (constant (F := Ideal) ⟨0, ![]⟩ .f32 w)) X)
      (subf (broadcast ⟨2, ![M, A]⟩ (Scalar.ofBits (F := Ideal) .f32 w)) Xb) :=
  RowsOf.sub (φ := .f32) (φ' := .f32) (RowsOf.splat w h) hX

/-- A comparison followed by a selection, entry by entry: where `X` stands to `Y` as the predicate says take `P`,
    elsewhere `Q`.  The comparison and the selection are the same functions on the host and in a kernel. -/
theorem RowsOf.selectCmp (p : CmpFPredicate) {φ φ' : FTy} {X Y : FVec Ideal ⟨2, ![E, A]⟩ φ} {Xb Yb : FVec Ideal ⟨2, ![M, A]⟩ φ'}
    {P Q : (⟨2, ![E, A]⟩ : Shape).Idx → EReal} {Pb Qb : (⟨2, ![M, A]⟩ : Shape).Idx → EReal}
    (hX : RowsOf E M A o X Xb) (hY : RowsOf E M A o Y Yb) (hP : RowsOf E M A o P Pb) (hQ : RowsOf E M A o Q Qb) :
    RowsOf E M A o (select (cmpf p X Y) P Q) (select (cmpf p Xb Yb) Pb Qb) := by
  intro y k h
  show Scalar.select (Ideal.cmp p (Xb (ix2 y k)) (Yb (ix2 y k))) (Pb (ix2 y k)) (Qb (ix2 y k))
    = Scalar.select (Ideal.cmp p (X _) (Y _)) (P _) (Q _)
  rw [hX y k h, hY y k h, hP y k h, hQ y k h]

/-- THE LEAKY RECTIFIER.  `x` where `x` is at least the threshold (word `wz`), the slope (word `ws`) times `x`
    elsewhere: on the long side the threshold and the slope are rank-zero constants spread over the array, on the block
    splats of the same words. -/
theorem RowsOf.leakyRelu (wz ws : BitVec 32) {X : FVec Ideal ⟨2, ![E, A]⟩ .f32} {Xb : FVec Ideal ⟨2, ![M, A]⟩ .f32}
    (hX : RowsOf E M A o X Xb) (hz hs : (⟨0, ![]⟩ : Shape).BroadcastsInDim ⟨2, ![E, A]⟩ ![]) :
    RowsOf E M A o
      (select (cmpf .oge X (broadcastInDim ⟨2, ![E, A]⟩ ![] hz (constant (F := Ideal) ⟨0, ![]⟩ .f32 wz))) X
        (mulf (broadcastInDim ⟨2, ![E, A]⟩ ![] hs (constant (F := Ideal) ⟨0, ![]⟩ .f32 ws)) X))
      (select (cmpf .oge Xb (broadcast ⟨2, ![M, A]⟩ (Scalar.ofBits (F := Ideal) .f32 wz))) Xb
        (mulf (broadcast ⟨2, ![M, A]⟩ (Scalar.ofBits (F := Ideal) .f32 ws)) Xb)) :=
  RowsOf.selectCmp .oge (φ := .f32) (φ' := .f32) hX (RowsOf.splat wz hz) hX
    (RowsOf.mul (φ := .f32) (φ' := .f32) (RowsOf.splat ws hs) hX)

/-- A single number spread over a one-column array: two `broadcast_in_dim`s of a length-one vector on the long side, a
    broadcast of a 1 × 1 block (through a shape cast to its own shape) on the other. -/
theorem RowsOf.biasOne (b : (⟨1, ![1]⟩ : Shape).Idx → EReal) (bb : (⟨2, ![1, 1]⟩ : Shape).Idx → EReal)
    (hb : bb (ix2 (0 : Fin 1) (0 : Fin 1)) = b (ix1 (0 : Fin 1)))
    (h1 : (⟨1, ![1]⟩ : Shape).BroadcastsInDim ⟨2, ![1, 1]⟩ ![1])
    (h2 : (⟨2, ![1, 1]⟩ : Shape).BroadcastsInDim ⟨2, ![E, 1]⟩ ![0, 1])
    (h1' : (⟨2, ![1, 1]⟩ : Shape).ShapeCasts ⟨2, ![1, 1]⟩) (h2' : (⟨2, ![1, 1]⟩ : Shape).Broadcasts ⟨2, ![M, 1]⟩) :
    RowsOf E M 1 o (broadcastInDim ⟨2, ![E, 1]⟩ ![0, 1] h2 (broadcastInDim ⟨2, ![1, 1]⟩ ![1] h1 b))
      (broadcastTo ⟨2, ![M, 1]⟩ (shapeCast ⟨2, ![1, 1]⟩ bb h1') h2') :=
  RowsOf.biasRow b bb (fun q => by obtain rfl : q = 0 := Subsingleton.elim _ _; exact hb) h1 h2 h1' h2'

end Cert.Lib.RowBlocks

end
-- ==== Proof.LibEdgeRows.lean ====
/-
  Rows of a long rank-two array against a block of consecutive rows of it, continued: the gated message along each
  edge of a graph.

  With `RowsOf E M A o arr blk` — `blk`, of `M` rows, holds rows `o, …, o + M - 1` of the `E`-row array `arr` —
  each of the following carries the relation from operands to result, the long side spelt with the host's operations
  and the block side with a kernel's:

  * a change to a longer float format on the block, which does nothing to an extended real;
  * a product over a contraction axis of extent ONE, `(x · w)(r, q) = x(r, 0) · w(0, q)`: on the long side the host's
    `dot_general` of an `E × 1` column with a `1 × C` row; on the block the column spread over the `C` columns times
    the row spread over the `M` rows (a sum over one index is its one term);
  * a product with two operands set side by side: on the long side the host's `dot_general` of the concatenation
    `[X | Y]` along the columns with a `(K₁ + K₂) × N` matrix `W`; on the block the sum of two products into zero
    accumulators, of the block of `X` with the first `K₁` rows of `W` and of the block of `Y` with the last `K₂`
    (`Σ_{k < K₁ + K₂} = Σ_{k < K₁} + Σ_{k < K₂}`: the sum over the contraction axis splits where the operands meet);
  * THE GATED MESSAGE.  With `a` the edge's attribute (one number) and `x` the features of its source node,

        ea = a · Wₐ + bₐ,    ef = ea · Wₑ + bₑ,    z = [x | ef] · W_g + b_g,    msg = σ(z) · x,    σ(z) = 1 / (1 + e⁻ᶻ):

    every step reads the edge's own row only, so a block of consecutive edges gives the same block of messages.
-/
import proofs.«108144_j81140522156740_2_alg».proof.Proof.LibRowGates

noncomputable section

open scoped BigOperators

namespace Cert.Lib.RowBlocks

open Idealize.ShloMosaic Idealize.ShloMosaic.ValueIdx Cert.Lib.RowOps

variable {E M A o : Nat}

/-- A change to a longer float format on the block side is the identity on extended reals. -/
theorem RowsOf.extf {φ ψ : FTy} {X : (⟨2, ![E, A]⟩ : Shape).Idx → EReal} {Xb : FVec Ideal ⟨2, ![M, A]⟩ φ}
    (h : φ.bits < ψ.bits) (hX : RowsOf E M A o X Xb) : RowsOf E M A o X (Idealize.ShloMosaic.extf ψ Xb h) := hX

/-- A product over a contraction axis of extent one: the host's plain product of an `E × 1` column with a `1 × C` row
    on the long side; on the block the column spread over the columns times the row `Wb` spread over the rows, when `Wb`
    is `W` entry by entry. -/
theorem RowsOf.dotOne {C : Nat} {φ₁ φ₂ φ' : FTy} {X : FVec Ideal ⟨2, ![E, 1]⟩ φ₁} {Xb : FVec Ideal ⟨2, ![M, 1]⟩ φ'}
    (hX : RowsOf E M 1 o X Xb) (W : FVec Ideal ⟨2, ![1, C]⟩ φ₂) (Wb : FVec Ideal ⟨2, ![1, C]⟩ φ') (hW : ∀ i, Wb i = W i)
    (prec : Option ContractPrecision) (sched : HostSchedule)
    (h1 : (⟨2, ![M, 1]⟩ : Shape).Broadcasts ⟨2, ![M, C]⟩) (h2 : (⟨2, ![1, C]⟩ : Shape).Broadcasts ⟨2, ![M, C]⟩) :
    RowsOf E M C o (FloatOps.dotGeneral (DotDims.plain E 1 C) prec sched X W)
      (mulf (broadcastTo ⟨2, ![M, C]⟩ Xb h1) (broadcastTo ⟨2, ![M, C]⟩ Wb h2)) := fun y q h => by
  -- the long side is a sum over the one index of the contraction axis
  rw [mulf_apply, dotGeneral_apply, Fin.sum_univ_one]
  -- the spread column reads `Xb` at `(y, 0)`, the spread row `Wb` at `(0, q)`
  rw [broadcastTo_apply Xb h1 (ix2 y q) (ix2 y (0 : Fin 1)) (fun a => by
    match a with
    | ⟨0, _⟩ =>
      show y.val = if M = 1 then 0 else y.val
      split
      · have := y.isLt; omega
      · rfl
    | ⟨1, _⟩ => simp)]
  rw [broadcastTo_apply Wb h2 (ix2 y q) (ix2 (0 : Fin 1) q) (fun a => by
    match a with
    | ⟨0, _⟩ => simp
    | ⟨1, _⟩ =>
      show q.val = if C = 1 then 0 else q.val
      split
      · have := q.isLt; omega
      · rfl)]
  rw [hX y 0 h, hW]

/-- A product with two operands set side by side: the host's plain product of the concatenation `[X | Y]` (along the
    columns) with `W` on the long side; on the block the sum of the products of the block of `X` with `W₁` and of the
    block of `Y` with `W₂`, each into a zero accumulator, when `W₁` is the first `K₁` rows of `W` and `W₂` the last
    `K₂`, entry by entry. -/
theorem RowsOf.dotConcat {K₁ K₂ K N : Nat} (hK : K₁ + K₂ = K) {φ₁ φ₂ φ₃ φ₄ φ₅ φ₆ : FTy}
    {X : FVec Ideal ⟨2, ![E, K₁]⟩ φ₁} {Y : FVec Ideal ⟨2, ![E, K₂]⟩ φ₁}
    {Xb : FVec Ideal ⟨2, ![M, K₁]⟩ φ₃} {Yb : FVec Ideal ⟨2, ![M, K₂]⟩ φ₄}
    (hX : RowsOf E M K₁ o X Xb) (hY : RowsOf E M K₂ o Y Yb)
    (W : FVec Ideal ⟨2, ![K, N]⟩ φ₂) (W₁ : FVec Ideal ⟨2, ![K₁, N]⟩ φ₅) (W₂ : FVec Ideal ⟨2, ![K₂, N]⟩ φ₆)
    (hW₁ : ∀ (k : Fin K₁) (q : Fin N) (hk : k.val < K), W₁ (ix2 k q) = W (ix2 ⟨k.val, hk⟩ q))
    (hW₂ : ∀ (k : Fin K₂) (q : Fin N) (hk : K₁ + k.val < K), W₂ (ix2 k q) = W (ix2 ⟨K₁ + k.val, hk⟩ q))
    (hcat : Shape.Concatenates [(⟨2, ![E, K₁]⟩ : Shape), ⟨2, ![E, K₂]⟩] ⟨2, ![E, K]⟩ (1 : Fin 2))
    (prec prec₁ prec₂ : Option ContractPrecision) (sched : HostSchedule) :
    RowsOf E M N o
      (FloatOps.dotGeneral (DotDims.plain E K N) prec sched
        (concatenate (⟨2, ![E, K]⟩ : Shape) (1 : Fin 2) [⟨(⟨2, ![E, K₁]⟩ : Shape), X⟩, ⟨(⟨2, ![E, K₂]⟩ : Shape), Y⟩] hcat) W)
      (addf (FloatOps.matmul (DotDims.plain M K₁ N) prec₁ Xb W₁ (constant ⟨2, ![M, N]⟩ .f32 0x00000000#32))
        (FloatOps.matmul (DotDims.plain M K₂ N) prec₂ Yb W₂ (constant ⟨2, ![M, N]⟩ .f32 0x00000000#32))) := by
  subst hK
  intro y q h
  -- both sides as sums over the contraction axis; the long side's splits where the two operands meet
  rw [addf_apply, matmul_zero_apply, matmul_zero_apply, dotGeneral_apply, Fin.sum_univ_add]
  refine congrArg₂ (· + ·) (Finset.sum_congr rfl fun k _ => ?_) (Finset.sum_congr rfl fun k _ => ?_)
  · -- a column below `K₁` of the concatenation is that column of `X`
    rw [concatenate_pair_apply_left (t := ⟨2, ![E, K₁ + K₂]⟩) (s₁ := ⟨2, ![E, K₁]⟩) (s₂ := ⟨2, ![E, K₂]⟩) (1 : Fin 2) X Y hcat (ix2 ⟨o + y.val, h⟩ (Fin.castAdd K₂ k)) rfl (ix2 ⟨o + y.val, h⟩ k)
      (fun b => by
        match b with
        | ⟨0, _⟩ => rfl
        | ⟨1, _⟩ => rfl)]
    rw [hX y k h, hW₁ k q (by have := k.isLt; omega)]
    rfl
  · -- a column `K₁ + k` of the concatenation is column `k` of `Y`
    rw [concatenate_pair_apply_right (t := ⟨2, ![E, K₁ + K₂]⟩) (s₁ := ⟨2, ![E, K₁]⟩) (s₂ := ⟨2, ![E, K₂]⟩) (1 : Fin 2) X Y hcat (ix2 ⟨o + y.val, h⟩ (Fin.natAdd K₁ k)) rfl rfl (ix2 ⟨o + y.val, h⟩ k)
      (fun b hb => by
        match b with
        | ⟨0, _⟩ => rfl
        | ⟨1, _⟩ => exact absurd rfl hb)
      (by show k.val + K₁ = K₁ + k.val; omega)]
    rw [hY y k h, hW₂ k q (by have := k.isLt; omega)]
    rfl

/-- THE GATED MESSAGE of every edge, spelt with the host's operations: `σ([xj | (attr · Wa + ba) · We + be] · Wg + bg) · xj`
    with `σ(z) = 1 / (1 + e⁻ᶻ)`, the number one given by its word; each bias a vector spread over the rows by two
    `broadcast_in_dim`s; the side conditions of the spreads and of the concatenation are parameters, so that any proof
    of them fits. -/
def edgeMsg {E C D D' K : Nat}
    (attr : FVec Ideal ⟨2, ![E, 1]⟩ .f32) (xj : FVec Ideal ⟨2, ![E, D]⟩ .f32)
    (Wa : FVec Ideal ⟨2, ![1, C]⟩ .f32) (ba : (⟨1, ![C]⟩ : Shape).Idx → EReal)
    (We : FVec Ideal ⟨2, ![C, D']⟩ .f32) (be : (⟨1, ![D']⟩ : Shape).Idx → EReal)
    (Wg : FVec Ideal ⟨2, ![K, D]⟩ .f32) (bg : (⟨1, ![D]⟩ : Shape).Idx → EReal)
    (ha1 : (⟨1, ![C]⟩ : Shape).BroadcastsInDim ⟨2, ![1, C]⟩ ![1])
    (ha2 : (⟨2, ![1, C]⟩ : Shape).BroadcastsInDim ⟨2, ![E, C]⟩ ![0, 1])
    (he1 : (⟨1, ![D']⟩ : Shape).BroadcastsInDim ⟨2, ![1, D']⟩ ![1])
    (he2 : (⟨2, ![1, D']⟩ : Shape).BroadcastsInDim ⟨2, ![E, D']⟩ ![0, 1])
    (hg1 : (⟨1, ![D]⟩ : Shape).BroadcastsInDim ⟨2, ![1, D]⟩ ![1])
    (hg2 : (⟨2, ![1, D]⟩ : Shape).BroadcastsInDim ⟨2, ![E, D]⟩ ![0, 1])
    (hcat : Shape.Concatenates [(⟨2, ![E, D]⟩ : Shape), ⟨2, ![E, D']⟩] ⟨2, ![E, K]⟩ (1 : Fin 2))
    (h1 h1' : (⟨0, ![]⟩ : Shape).BroadcastsInDim ⟨2, ![E, D]⟩ ![]) : FVec Ideal ⟨2, ![E, D]⟩ .f32 :=
  mulf
    (Host.divf (broadcastInDim ⟨2, ![E, D]⟩ ![] h1 (constant (F := Ideal) ⟨0, ![]⟩ .f32 0x3F800000#32))
      (addf (broadcastInDim ⟨2, ![E, D]⟩ ![] h1' (constant (F := Ideal) ⟨0, ![]⟩ .f32 0x3F800000#32))
        (Host.exp (Host.negf
          (addf
            (FloatOps.dotGeneral (DotDims.plain E K D) none .single
              (concatenate (⟨2, ![E, K]⟩ : Shape) (1 : Fin 2)
                [⟨(⟨2, ![E, D]⟩ : Shape), xj⟩,
                 ⟨(⟨2, ![E, D']⟩ : Shape),
                  addf
                    (FloatOps.dotGeneral (DotDims.plain E C D') none .single
                      (addf (FloatOps.dotGeneral (DotDims.plain E 1 C) none .single attr Wa)
                        (broadcastInDim ⟨2, ![E, C]⟩ ![0, 1] ha2 (broadcastInDim ⟨2, ![1, C]⟩ ![1] ha1 ba)))
                      We)
                    (broadcastInDim ⟨2, ![E, D']⟩ ![0, 1] he2 (broadcastInDim ⟨2, ![1, D']⟩ ![1] he1 be))⟩]
                hcat)
              Wg)
            (broadcastInDim ⟨2, ![E, D]⟩ ![0, 1] hg2 (broadcastInDim ⟨2, ![1, D]⟩ ![1] hg1 bg)))))))
    xj

/-- THE GATED MESSAGE, a block of edges at a time.  On the block: the attribute column times the spread row `Wab` plus
    the bias row; two products into zero accumulators of operands narrowed to a shorter float format (which changes no
    extended real) for `ef` and for the two halves `Wgx`, `Wge` of `Wg`; the logistic operation; the product with the
    source features widened back.  The small operands are the long side's entry by entry: each bias as one row, `Wgx`
    the first `D` rows of `Wg` and `Wge` the last `D'`. -/
theorem RowsOf.edgeMsg {C D D' K : Nat} (hK : D + D' = K)
    {attr : FVec Ideal ⟨2, ![E, 1]⟩ .f32} {attrb : FVec Ideal ⟨2, ![M, 1]⟩ .f32} (hattr : RowsOf E M 1 o attr attrb)
    {xj : FVec Ideal ⟨2, ![E, D]⟩ .f32} {xjb : FVec Ideal ⟨2, ![M, D]⟩ .bf16} (hxj : RowsOf E M D o xj xjb)
    (Wa : FVec Ideal ⟨2, ![1, C]⟩ .f32) (Wab : FVec Ideal ⟨2, ![1, C]⟩ .f32) (hWa : ∀ i, Wab i = Wa i)
    (ba : (⟨1, ![C]⟩ : Shape).Idx → EReal) (bab : (⟨2, ![1, C]⟩ : Shape).Idx → EReal)
    (hba : ∀ q : Fin C, bab (ix2 (0 : Fin 1) q) = ba (ix1 q))
    (We : FVec Ideal ⟨2, ![C, D']⟩ .f32) (Web : FVec Ideal ⟨2, ![C, D']⟩ .f32) (hWe : ∀ i, Web i = We i)
    (be : (⟨1, ![D']⟩ : Shape).Idx → EReal) (beb : (⟨2, ![1, D']⟩ : Shape).Idx → EReal)
    (hbe : ∀ q : Fin D', beb (ix2 (0 : Fin 1) q) = be (ix1 q))
    (Wg : FVec Ideal ⟨2, ![K, D]⟩ .f32) (Wgx : FVec Ideal ⟨2, ![D, D]⟩ .f32) (Wge : FVec Ideal ⟨2, ![D', D]⟩ .f32)
    (hWgx : ∀ (k : Fin D) (q : Fin D) (hk : k.val < K), Wgx (ix2 k q) = Wg (ix2 ⟨k.val, hk⟩ q))
    (hWge : ∀ (k : Fin D') (q : Fin D) (hk : D + k.val < K), Wge (ix2 k q) = Wg (ix2 ⟨D + k.val, hk⟩ q))
    (bg : (⟨1, ![D]⟩ : Shape).Idx → EReal) (bgb : (⟨2, ![1, D]⟩ : Shape).Idx → EReal)
    (hbg : ∀ q : Fin D, bgb (ix2 (0 : Fin 1) q) = bg (ix1 q))
    (ha1 : (⟨1, ![C]⟩ : Shape).BroadcastsInDim ⟨2, ![1, C]⟩ ![1])
    (ha2 : (⟨2, ![1, C]⟩ : Shape).BroadcastsInDim ⟨2, ![E, C]⟩ ![0, 1])
    (he1 : (⟨1, ![D']⟩ : Shape).BroadcastsInDim ⟨2, ![1, D']⟩ ![1])
    (he2 : (⟨2, ![1, D']⟩ : Shape).BroadcastsInDim ⟨2, ![E, D']⟩ ![0, 1])
    (hg1 : (⟨1, ![D]⟩ : Shape).BroadcastsInDim ⟨2, ![1, D]⟩ ![1])
    (hg2 : (⟨2, ![1, D]⟩ : Shape).BroadcastsInDim ⟨2, ![E, D]⟩ ![0, 1])
    (hcat : Shape.Concatenates [(⟨2, ![E, D]⟩ : Shape), ⟨2, ![E, D']⟩] ⟨2, ![E, K]⟩ (1 : Fin 2))
    (h1 h1' : (⟨0, ![]⟩ : Shape).BroadcastsInDim ⟨2, ![E, D]⟩ ![])
    (bA : (⟨2, ![M, 1]⟩ : Shape).Broadcasts ⟨2, ![M, C]⟩) (bW : (⟨2, ![1, C]⟩ : Shape).Broadcasts ⟨2, ![M, C]⟩)
    (cC : (⟨2, ![1, C]⟩ : Shape).ShapeCasts ⟨2, ![1, C]⟩)
    (cWe : (⟨2, ![C, D']⟩ : Shape).ShapeCasts ⟨2, ![C, D']⟩)
    (cD' : (⟨2, ![1, D']⟩ : Shape).ShapeCasts ⟨2, ![1, D']⟩) (bD' : (⟨2, ![1, D']⟩ : Shape).Broadcasts ⟨2, ![M, D']⟩)
    (cX : (⟨2, ![M, D]⟩ : Shape).ShapeCasts ⟨2, ![M, D]⟩)
    (cWgx : (⟨2, ![D, D]⟩ : Shape).ShapeCasts ⟨2, ![D, D]⟩) (cWge : (⟨2, ![D', D]⟩ : Shape).ShapeCasts ⟨2, ![D', D]⟩)
    (cD : (⟨2, ![1, D]⟩ : Shape).ShapeCasts ⟨2, ![1, D]⟩) (bD : (⟨2, ![1, D]⟩ : Shape).Broadcasts ⟨2, ![M, D]⟩)
    (ht : FTy.bf16.bits < FTy.f32.bits) :
    RowsOf E M D o (Cert.Lib.RowBlocks.edgeMsg attr xj Wa ba We be Wg bg ha1 ha2 he1 he2 hg1 hg2 hcat h1 h1')
      (Idealize.ShloMosaic.truncf .bf16
        (mulf
          (Idealize.ShloMosaic.logistic
            (addf
              (addf
                (FloatOps.matmul (DotDims.plain M D D) none (shapeCast ⟨2, ![M, D]⟩ xjb cX)
                  (Idealize.ShloMosaic.truncf .bf16 (shapeCast ⟨2, ![D, D]⟩ Wgx cWgx) ht) (constant ⟨2, ![M, D]⟩ .f32 0x00000000#32))
                (FloatOps.matmul (DotDims.plain M D' D) none
                  (Idealize.ShloMosaic.truncf .bf16
                    (addf
                      (FloatOps.matmul (DotDims.plain M C D') none
                        (Idealize.ShloMosaic.truncf .bf16
                          (addf (mulf (broadcastTo ⟨2, ![M, C]⟩ attrb bA) (broadcastTo ⟨2, ![M, C]⟩ Wab bW))
                            (broadcastTo ⟨2, ![M, C]⟩ (shapeCast ⟨2, ![1, C]⟩ bab cC) bW)) ht)
                        (Idealize.ShloMosaic.truncf .bf16 (shapeCast ⟨2, ![C, D']⟩ Web cWe) ht) (constant ⟨2, ![M, D']⟩ .f32 0x00000000#32))
                      (broadcastTo ⟨2, ![M, D']⟩ (shapeCast ⟨2, ![1, D']⟩ beb cD') bD')) ht)
                  (Idealize.ShloMosaic.truncf .bf16 (shapeCast ⟨2, ![D', D]⟩ Wge cWge) ht) (constant ⟨2, ![M, D]⟩ .f32 0x00000000#32)))
              (broadcastTo ⟨2, ![M, D]⟩ (shapeCast ⟨2, ![1, D]⟩ bgb cD) bD)))
          (Idealize.ShloMosaic.extf .f32 (shapeCast ⟨2, ![M, D]⟩ xjb cX) ht)) ht) := by
  -- ea = attr · Wa + ba, a row at a time
  have hea : RowsOf E M C o _ _ :=
    RowsOf.add (φ := .f32) (φ' := .f32) (hattr.dotOne Wa Wab hWa none .single bA bW) (RowsOf.biasRow ba bab hba ha1 ha2 cC bW)
  -- ef = ea · We + be
  have hef : RowsOf E M D' o _ _ :=
    RowsOf.add (φ := .f32) (φ' := .f32)
      ((hea.truncf ht).dot We (Idealize.ShloMosaic.truncf .bf16 (shapeCast ⟨2, ![C, D']⟩ Web cWe) ht) (castSelf_eq Web We cWe hWe)
        none none .single)
      (RowsOf.biasRow be beb hbe he1 he2 cD' bD')
  -- the source features, through the block's shape cast to its own shape
  have hx : RowsOf E M D o xj (shapeCast ⟨2, ![M, D]⟩ xjb cX) := hxj.castSelf cX
  -- z = [xj | ef] · Wg + bg: the two halves of Wg, each through its shape cast to its own shape
  have hz : RowsOf E M D o _ _ :=
    RowsOf.add (φ := .f32) (φ' := .f32)
      (RowsOf.dotConcat hK (φ₃ := .bf16) hx (hef.truncf ht) Wg
        (Idealize.ShloMosaic.truncf .bf16 (shapeCast ⟨2, ![D, D]⟩ Wgx cWgx) ht)
        (Idealize.ShloMosaic.truncf .bf16 (shapeCast ⟨2, ![D', D]⟩ Wge cWge) ht)
        (fun k q hk => (congrFun (shapeCast_self Wgx cWgx) (ix2 k q)).trans (hWgx k q hk))
        (fun k q hk => (congrFun (shapeCast_self Wge cWge) (ix2 k q)).trans (hWge k q hk))
        hcat none none none .single)
      (RowsOf.biasRow bg bgb hbg hg1 hg2 cD bD)
  -- msg = σ(z) · xj
  exact (RowsOf.mul (φ := .f32) (φ' := .f32) (hz.logistic h1 h1') (hx.extf ht)).truncf ht

end Cert.Lib.RowBlocks

end
-- ==== Proof.SpecBridge.lean ====
/-
  The kernels' results, spelt by the region lemmas with the host's operations over plain products and arbitrary side
  conditions, are the reference's named whole-array functions.

  Each equality here says that two spellings of one array agree: a product's dimension numbers written as the plain
  \`M × K\` by \`K × N\` product or as the reference's own record; a side condition of a broadcast, slice, shape cast or
  concatenation proved one way or another (a proposition has one proof); a change of float format, which does nothing
  to an extended real. Also here: a few arrays of the host glue read at an index (the per-layer parameter slices, the
  two halves of the gate weights).
-/
import proofs.«108144_j81140522156740_2_alg».proof.Proof.RefSpec
import proofs.«108144_j81140522156740_2_alg».proof.KernelIdeal
import proofs.«108144_j81140522156740_2_alg».proof.Proof.LibEdgeRows
import proofs.«108144_j81140522156740_2_alg».proof.Proof.LibBnRows
import Idealize.ShloMosaic.Lib.ValueLayout

noncomputable section

open scoped BigOperators

namespace Cert.SpecBridge

open Cert.ReferenceIdeal Idealize.ShloMosaic Idealize.ShloMosaic.ValueIdx

variable [Cert.ReferenceIdeal.Facts]

/-! ## The gated message -/

/-- The gated message of every edge, spelt with plain products and arbitrary side conditions, is the reference's
    \`msg\` of the source features and the edge features of the edge embedding. -/
theorem edgeMsg_eq (attr : FVec Ideal ⟨2, ![800000, 1]⟩ .f32) (xj : FVec Ideal ⟨2, ![800000, 64]⟩ .f32)
    (Wa : FVec Ideal ⟨2, ![1, 32]⟩ .f32) (ba : (⟨1, ![32]⟩ : Shape).Idx → EReal)
    (We : FVec Ideal ⟨2, ![32, 64]⟩ .f32) (be : (⟨1, ![64]⟩ : Shape).Idx → EReal)
    (Wg : FVec Ideal ⟨2, ![128, 64]⟩ .f32) (bg : (⟨1, ![64]⟩ : Shape).Idx → EReal)
    (ha1 : (⟨1, ![32]⟩ : Shape).BroadcastsInDim ⟨2, ![1, 32]⟩ ![1])
    (ha2 : (⟨2, ![1, 32]⟩ : Shape).BroadcastsInDim ⟨2, ![800000, 32]⟩ ![0, 1])
    (he1 : (⟨1, ![64]⟩ : Shape).BroadcastsInDim ⟨2, ![1, 64]⟩ ![1])
    (he2 : (⟨2, ![1, 64]⟩ : Shape).BroadcastsInDim ⟨2, ![800000, 64]⟩ ![0, 1])
    (hg1 : (⟨1, ![64]⟩ : Shape).BroadcastsInDim ⟨2, ![1, 64]⟩ ![1])
    (hg2 : (⟨2, ![1, 64]⟩ : Shape).BroadcastsInDim ⟨2, ![800000, 64]⟩ ![0, 1])
    (hcat : Shape.Concatenates [(⟨2, ![800000, 64]⟩ : Shape), ⟨2, ![800000, 64]⟩] ⟨2, ![800000, 128]⟩ (1 : Fin 2))
    (h1 h1' : (⟨0, ![]⟩ : Shape).BroadcastsInDim ⟨2, ![800000, 64]⟩ ![]) :
    Cert.Lib.RowBlocks.edgeMsg (E := 800000) (C := 32) (D := 64) (D' := 64) (K := 128) attr xj Wa ba We be Wg bg
        ha1 ha2 he1 he2 hg1 hg2 hcat h1 h1'
      = RefRun.msg xj (RefRun.edgeFeat (RefRun.edgeEmbed attr Wa ba) We be) Wg bg := rfl

/-! ## Normalisation and rectifier -/

/-- The normalised and rectified node array, spelt with arbitrary side conditions, is the reference's \`bnRelu\`. -/
theorem bnReluRef_eq (x : FVec Ideal ⟨2, ![50000, 64]⟩ .f32) (μ v g b : FVec Ideal ⟨1, ![64]⟩ .f32)
    (hE : (⟨0, ![]⟩ : Shape).BroadcastsInDim ⟨1, ![64]⟩ ![])
    (h1 : (⟨1, ![64]⟩ : Shape).BroadcastsInDim ⟨2, ![1, 64]⟩ ![1])
    (h2 : (⟨2, ![1, 64]⟩ : Shape).BroadcastsInDim ⟨2, ![50000, 64]⟩ ![0, 1])
    (hZ : (⟨0, ![]⟩ : Shape).BroadcastsInDim ⟨2, ![50000, 64]⟩ ![]) :
    Cert.Lib.RowBlocks.bnReluRef 50000 64 x μ v g b 0x3727C5AC#32 hE h1 h2 hZ = RefRun.bnRelu x μ v g b := rfl

/-- The normalised and rectified graph array, spelt with arbitrary side conditions, is the reference's \`bnReluG\`. -/
theorem bnReluRefG_eq (x : FVec Ideal ⟨2, ![128, 128]⟩ .f32) (μ v g b : FVec Ideal ⟨1, ![128]⟩ .f32)
    (hE : (⟨0, ![]⟩ : Shape).BroadcastsInDim ⟨1, ![128]⟩ ![])
    (h1 : (⟨1, ![128]⟩ : Shape).BroadcastsInDim ⟨2, ![1, 128]⟩ ![1])
    (h2 : (⟨2, ![1, 128]⟩ : Shape).BroadcastsInDim ⟨2, ![128, 128]⟩ ![0, 1])
    (hZ : (⟨0, ![]⟩ : Shape).BroadcastsInDim ⟨2, ![128, 128]⟩ ![]) :
    Cert.Lib.RowBlocks.bnReluRef 128 128 x μ v g b 0x3727C5AC#32 hE h1 h2 hZ = RefRun.bnReluG x μ v g b := rfl

/-! ## The index columns -/

/-- The source column as a program computes it — slice row 0 of the edge index, reshape, count a negative index from
    the end, one column — is the reference's \`srcCol\`, whatever the proofs of the side conditions. -/
theorem srcCol_eq (ei : IVec S2x800000 32)
    (hs : S2x800000.Slices ![0, 0] S1x800000) (hc : S1x800000.ShapeCasts S800000)
    (hb hb' : S_.BroadcastsInDim S800000 (![] : Fin 0 → Fin S800000.rank))
    (hcol : S800000.BroadcastsInDim S800000x1 (![0] : Fin 1 → Fin S800000x1.rank)) :
    broadcastInDim S800000x1 ![0] hcol
        (select
          (cmpi .slt (shapeCast S800000 (extractStridedSlice S1x800000 ![0, 0] ei hs) hc)
            (broadcastInDim S800000 ![] hb (constantI S_ 32 0#32)))
          (addi (shapeCast S800000 (extractStridedSlice S1x800000 ![0, 0] ei hs) hc)
            (broadcastInDim S800000 ![] hb' (constantI S_ 32 50000#32)))
          (shapeCast S800000 (extractStridedSlice S1x800000 ![0, 0] ei hs) hc))
      = RefRun.srcCol ei := rfl

/-- The destination column as a program computes it — slice row 1 of the edge index, reshape, one column — is the
    reference's \`dstCol\`, whatever the proofs of the side conditions. -/
theorem dstCol_eq (ei : IVec S2x800000 32)
    (hs : S2x800000.Slices ![1, 0] S1x800000) (hc : S1x800000.ShapeCasts S800000)
    (hcol : S800000.BroadcastsInDim S800000x1 (![0] : Fin 1 → Fin S800000x1.rank)) :
    broadcastInDim S800000x1 ![0] hcol (shapeCast S800000 (extractStridedSlice S1x800000 ![1, 0] ei hs) hc)
      = RefRun.dstCol ei := rfl

/-! ## The gather and the scatter of the other program's records -/

section Records
variable [Cert.KernelIdeal.Facts]

/-- The gather by the kernel program's record, of the node array narrowed to a shorter float format (which changes no
    extended real), is the reference's \`gatherRows\`. -/
theorem gather_eq (h : FVec Ideal S50000x64 .f32) (idx : IVec S800000x1 32) (ht : FTy.bf16.bits < FTy.f32.bits) :
    (Host.gather Cert.KernelIdeal.gather_S50000x64_S800000x1_S800000x64_1_0_n_n_0_1_164
        (truncf (F := Ideal) .bf16 h ht) idx : S800000x64.Idx → EReal)
      = RefRun.gatherRows h idx := rfl

/-- The accumulating scatter by the kernel program's record, into zeros, of the messages widened to a longer float
    format (which changes no extended real), is the reference's \`aggr\`. -/
theorem scatterAdd_eq (m : FVec Ideal S800000x64 .bf16) (idx : IVec S800000x1 32)
    (h0 : S_.BroadcastsInDim S50000x64 (![] : Fin 0 → Fin S50000x64.rank)) (ht : FTy.bf16.bits < FTy.f32.bits) :
    Host.scatterAdd (F := Ideal) Cert.KernelIdeal.scatter_S50000x64_S800000x1_S800000x64_1_0_0_1
        (broadcastInDim S50000x64 ![] h0 (constant (F := Ideal) S_ .f32 0x00000000#32)) idx
        (extf (F := Ideal) .f32 m ht)
      = RefRun.aggr m idx := rfl

end Records

/-! ## Affine maps of the rows -/

/-- The rows of \`x\` times \`W\` plus the vector \`b\` on every row, spelt with the plain product and arbitrary side
    conditions. -/
def affineRef (R K C : Nat) (x : FVec Ideal ⟨2, ![R, K]⟩ .f32) (W : FVec Ideal ⟨2, ![K, C]⟩ .f32)
    (b : FVec Ideal ⟨1, ![C]⟩ .f32) (h1 : (⟨1, ![C]⟩ : Shape).BroadcastsInDim ⟨2, ![1, C]⟩ ![1])
    (h2 : (⟨2, ![1, C]⟩ : Shape).BroadcastsInDim ⟨2, ![R, C]⟩ ![0, 1]) : FVec Ideal ⟨2, ![R, C]⟩ .f32 :=
  addf (FloatOps.dotGeneral (DotDims.plain R K C) none .single x W)
    (broadcastInDim ⟨2, ![R, C]⟩ ![0, 1] h2 (broadcastInDim ⟨2, ![1, C]⟩ ![1] h1 b))

/-- The node embedding is that affine map at 50000 × 77 × 64. -/
theorem affineRef_embed (x : FVec Ideal ⟨2, ![50000, 77]⟩ .f32) (W : FVec Ideal ⟨2, ![77, 64]⟩ .f32)
    (b : FVec Ideal ⟨1, ![64]⟩ .f32) (h1 : (⟨1, ![64]⟩ : Shape).BroadcastsInDim ⟨2, ![1, 64]⟩ ![1])
    (h2 : (⟨2, ![1, 64]⟩ : Shape).BroadcastsInDim ⟨2, ![50000, 64]⟩ ![0, 1]) :
    affineRef 50000 77 64 x W b h1 h2 = RefRun.embed x W b := rfl

/-- The same with the term written out. -/
theorem affine_embed (x : FVec Ideal ⟨2, ![50000, 77]⟩ .f32) (W : FVec Ideal ⟨2, ![77, 64]⟩ .f32)
    (b : FVec Ideal ⟨1, ![64]⟩ .f32) (h1 : (⟨1, ![64]⟩ : Shape).BroadcastsInDim ⟨2, ![1, 64]⟩ ![1])
    (h2 : (⟨2, ![1, 64]⟩ : Shape).BroadcastsInDim ⟨2, ![50000, 64]⟩ ![0, 1]) :
    addf (FloatOps.dotGeneral (DotDims.plain 50000 77 64) none .single x W)
        (broadcastInDim ⟨2, ![50000, 64]⟩ ![0, 1] h2 (broadcastInDim ⟨2, ![1, 64]⟩ ![1] h1 b))
      = RefRun.embed x W b := rfl

/-- The final projection before normalisation is that affine map at 128 × 64 × 128. -/
theorem affineRef_finalRaw (p : FVec Ideal ⟨2, ![128, 64]⟩ .f32) (fW : FVec Ideal ⟨2, ![64, 128]⟩ .f32)
    (fb : FVec Ideal ⟨1, ![128]⟩ .f32) (h1 : (⟨1, ![128]⟩ : Shape).BroadcastsInDim ⟨2, ![1, 128]⟩ ![1])
    (h2 : (⟨2, ![1, 128]⟩ : Shape).BroadcastsInDim ⟨2, ![128, 128]⟩ ![0, 1]) :
    affineRef 128 64 128 p fW fb h1 h2 = RefRun.finalRaw p fW fb := rfl

/-- The same with the term written out. -/
theorem affine_finalRaw (p : FVec Ideal ⟨2, ![128, 64]⟩ .f32) (fW : FVec Ideal ⟨2, ![64, 128]⟩ .f32)
    (fb : FVec Ideal ⟨1, ![128]⟩ .f32) (h1 : (⟨1, ![128]⟩ : Shape).BroadcastsInDim ⟨2, ![1, 128]⟩ ![1])
    (h2 : (⟨2, ![1, 128]⟩ : Shape).BroadcastsInDim ⟨2, ![128, 128]⟩ ![0, 1]) :
    addf (FloatOps.dotGeneral (DotDims.plain 128 64 128) none .single p fW)
        (broadcastInDim ⟨2, ![128, 128]⟩ ![0, 1] h2 (broadcastInDim ⟨2, ![1, 128]⟩ ![1] h1 fb))
      = RefRun.finalRaw p fW fb := rfl

/-- A layer's sum before normalisation, spelt with the plain product and arbitrary side conditions. -/
def rawRef (h : FVec Ideal ⟨2, ![50000, 64]⟩ .f32) (Wn : FVec Ideal ⟨2, ![64, 64]⟩ .f32) (bnb : FVec Ideal ⟨1, ![64]⟩ .f32)
    (ag : FVec Ideal ⟨2, ![50000, 64]⟩ .f32) (h1 : (⟨1, ![64]⟩ : Shape).BroadcastsInDim ⟨2, ![1, 64]⟩ ![1])
    (h2 : (⟨2, ![1, 64]⟩ : Shape).BroadcastsInDim ⟨2, ![50000, 64]⟩ ![0, 1]) : FVec Ideal ⟨2, ![50000, 64]⟩ .f32 :=
  addf
    (addf (FloatOps.dotGeneral (DotDims.plain 50000 64 64) none .single h Wn)
      (broadcastInDim ⟨2, ![50000, 64]⟩ ![0, 1] h2 (broadcastInDim ⟨2, ![1, 64]⟩ ![1] h1 bnb)))
    ag

/-- It is the reference's \`raw\`. -/
theorem rawRef_eq (h : FVec Ideal ⟨2, ![50000, 64]⟩ .f32) (Wn : FVec Ideal ⟨2, ![64, 64]⟩ .f32)
    (bnb : FVec Ideal ⟨1, ![64]⟩ .f32) (ag : FVec Ideal ⟨2, ![50000, 64]⟩ .f32)
    (h1 : (⟨1, ![64]⟩ : Shape).BroadcastsInDim ⟨2, ![1, 64]⟩ ![1])
    (h2 : (⟨2, ![1, 64]⟩ : Shape).BroadcastsInDim ⟨2, ![50000, 64]⟩ ![0, 1]) :
    rawRef h Wn bnb ag h1 h2 = RefRun.raw h Wn bnb ag := rfl

/-- The same with the term written out. -/
theorem raw_eq (h : FVec Ideal ⟨2, ![50000, 64]⟩ .f32) (Wn : FVec Ideal ⟨2, ![64, 64]⟩ .f32)
    (bnb : FVec Ideal ⟨1, ![64]⟩ .f32) (ag : FVec Ideal ⟨2, ![50000, 64]⟩ .f32)
    (h1 : (⟨1, ![64]⟩ : Shape).BroadcastsInDim ⟨2, ![1, 64]⟩ ![1])
    (h2 : (⟨2, ![1, 64]⟩ : Shape).BroadcastsInDim ⟨2, ![50000, 64]⟩ ![0, 1]) :
    addf
        (addf (FloatOps.dotGeneral (DotDims.plain 50000 64 64) none .single h Wn)
          (broadcastInDim ⟨2, ![50000, 64]⟩ ![0, 1] h2 (broadcastInDim ⟨2, ![1, 64]⟩ ![1] h1 bnb)))
        ag
      = RefRun.raw h Wn bnb ag := rfl

/-! ## The host glue read at an index -/

section Glue
variable {α : Type}

/-- Block \`k\` of a \`[n0, n1, n2]\` array, sliced out as \`[1, n1, n2]\`, read at \`(0, i, j)\`: the array at \`(k, i, j)\`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩) (i : Fin n1) (j : Fin n2) (k : Fin n0)
    (hk : k.val = o) :
    extractStridedSlice ⟨3, ![1, n1, n2]⟩ ![o, 0, 0] X h (ix3 (0 : Fin 1) i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

/-- Block \`k\` of a \`[n0, n1, n2]\` array, sliced out and reshaped to \`[n1, n2]\`, read at \`(i, j)\`: the array at
    \`(k, i, j)\`. -/
theorem layerSlice3_apply {n0 n1 n2 : ℕ} (o : ℕ) (X : (⟨3, ![n0, n1, n2]⟩ : Shape).Idx → α)
    (hs : (⟨3, ![n0, n1, n2]⟩ : Shape).Slices ![o, 0, 0] ⟨3, ![1, n1, n2]⟩)
    (hc : (⟨3, ![1, n1, n2]⟩ : Shape).ShapeCasts ⟨2, ![n1, n2]⟩) (i : Fin n1) (j : Fin n2) (k : Fin n0) (hk : k.val = o) :
    shapeCast ⟨2, ![n1, n2]⟩ (extractStridedSlice ⟨3, ![1, n1, n2]⟩ ![o, 0, 0] X hs) hc (ix2 i j) = X (ix3 k i j) :=
  (shapeCast_1ab_ab_apply _ hc i j).trans (slice3_axis0_apply o X hs i j k hk)

/-- Row \`k\` of a \`[n0, n1]\` array, sliced out as \`[1, n1]\` and reshaped to \`[n1]\`, read at \`q\`: the array at \`(k, q)\`. -/
theorem layerSlice2_apply {n0 n1 : ℕ} (o : ℕ) (X : (⟨2, ![n0, n1]⟩ : Shape).Idx → α)
    (hs : (⟨2, ![n0, n1]⟩ : Shape).Slices ![o, 0] ⟨2, ![1, n1]⟩)
    (hc : (⟨2, ![1, n1]⟩ : Shape).ShapeCasts ⟨1, ![n1]⟩) (q : Fin n1) (k : Fin n0) (hk : k.val = o) :
    shapeCast ⟨1, ![n1]⟩ (extractStridedSlice ⟨2, ![1, n1]⟩ ![o, 0] X hs) hc (ix1 q) = X (ix2 k q) :=
  (shapeCast_1a_a_apply _ hc q).trans (slice2_axis0_apply o X hs (0 : Fin 1) q k (by rw [hk]; rfl))

end Glue

open Cert.ReferenceIdeal.Facts₀ Cert.ReferenceIdeal.Facts in
/-- Row \`l\` of a stacked 3 × 64 parameter, read at \`q\`. -/
theorem sliceRow_apply (l : Fin 3) (P : FVec Ideal S3x64 .f32) (q : Fin 64) : RefRun.sliceRow l P (ix1 q) = P (ix2 l q) := by
  match l with
  | ⟨0, _⟩ => exact layerSlice2_apply 0 P slices_S3x64_S1x64_0_0 shapeCasts_S1x64_S64 q _ rfl
  | ⟨1, _⟩ => exact layerSlice2_apply 1 P slices_S3x64_S1x64_1_0 shapeCasts_S1x64_S64 q _ rfl
  | ⟨2, _⟩ => exact layerSlice2_apply 2 P slices_S3x64_S1x64_2_0 shapeCasts_S1x64_S64 q _ rfl

open Cert.ReferenceIdeal.Facts₀ Cert.ReferenceIdeal.Facts in
/-- Layer \`l\`'s edge weights, read at \`(k, q)\`. -/
theorem sliceWe_apply (l : Fin 3) (W : FVec Ideal S3x32x64 .f32) (k : Fin 32) (q : Fin 64) :
    RefRun.sliceWe l W (ix2 k q) = W (ix3 l k q) := by
  match l with
  | ⟨0, _⟩ => exact layerSlice3_apply 0 W slices_S3x32x64_S1x32x64_0_0_0 shapeCasts_S1x32x64_S32x64 k q _ rfl
  | ⟨1, _⟩ => exact layerSlice3_apply 1 W slices_S3x32x64_S1x32x64_1_0_0 shapeCasts_S1x32x64_S32x64 k q _ rfl
  | ⟨2, _⟩ => exact layerSlice3_apply 2 W slices_S3x32x64_S1x32x64_2_0_0 shapeCasts_S1x32x64_S32x64 k q _ rfl

open Cert.ReferenceIdeal.Facts₀ Cert.ReferenceIdeal.Facts in
/-- Layer \`l\`'s gate weights, read at \`(k, q)\`. -/
theorem sliceWg_apply (l : Fin 3) (W : FVec Ideal S3x128x64 .f32) (k : Fin 128) (q : Fin 64) :
    RefRun.sliceWg l W (ix2 k q) = W (ix3 l k q) := by
  match l with
  | ⟨0, _⟩ => exact layerSlice3_apply 0 W slices_S3x128x64_S1x128x64_0_0_0 shapeCasts_S1x128x64_S128x64 k q _ rfl
  | ⟨1, _⟩ => exact layerSlice3_apply 1 W slices_S3x128x64_S1x128x64_1_0_0 shapeCasts_S1x128x64_S128x64 k q _ rfl
  | ⟨2, _⟩ => exact layerSlice3_apply 2 W slices_S3x128x64_S1x128x64_2_0_0 shapeCasts_S1x128x64_S128x64 k q _ rfl

open Cert.ReferenceIdeal.Facts₀ Cert.ReferenceIdeal.Facts in
/-- Layer \`l\`'s node weights, read at \`(k, q)\`. -/
theorem sliceWn_apply (l : Fin 3) (W : FVec Ideal S3x64x64 .f32) (k : Fin 64) (q : Fin 64) :
    RefRun.sliceWn l W (ix2 k q) = W (ix3 l k q) := by
  match l with
  | ⟨0, _⟩ => exact layerSlice3_apply 0 W slices_S3x64x64_S1x64x64_0_0_0 shapeCasts_S1x64x64_S64x64 k q _ rfl
  | ⟨1, _⟩ => exact layerSlice3_apply 1 W slices_S3x64x64_S1x64x64_1_0_0 shapeCasts_S1x64x64_S64x64 k q _ rfl
  | ⟨2, _⟩ => exact layerSlice3_apply 2 W slices_S3x64x64_S1x64x64_2_0_0 shapeCasts_S1x64x64_S64x64 k q _ rfl

/-- The first 64 rows of the gate weights, read at \`(k, q)\`. -/
theorem gateTop_apply (Wg : FVec Ideal ⟨2, ![128, 64]⟩ .f32)
    (h : (⟨2, ![128, 64]⟩ : Shape).Slices ![0, 0] ⟨2, ![64, 64]⟩) (k : Fin 64) (q : Fin 64) :
    extractStridedSlice ⟨2, ![64, 64]⟩ ![0, 0] Wg h (ix2 k q) = Wg (ix2 ⟨k.val, by have := k.isLt; omega⟩ q) :=
  slice2_axis0_apply 0 Wg h k q _ (Nat.zero_add _).symm

/-- The last 64 rows of the gate weights, read at \`(k, q)\`. -/
theorem gateBottom_apply (Wg : FVec Ideal ⟨2, ![128, 64]⟩ .f32)
    (h : (⟨2, ![128, 64]⟩ : Shape).Slices ![64, 0] ⟨2, ![64, 64]⟩) (k : Fin 64) (q : Fin 64) :
    extractStridedSlice ⟨2, ![64, 64]⟩ ![64, 0] Wg h (ix2 k q) = Wg (ix2 ⟨64 + k.val, by have := k.isLt; omega⟩ q) :=
  slice2_axis0_apply 64 Wg h k q _ rfl

end Cert.SpecBridge
-- ==== Proof.StatsBridge.lean ====
/-
  The batch statistics of one layer, computed two ways.

  The reference takes the column mean of the 50000 × 64 array `raw` as (column sum) / 50000 and the column variance
  as the mean of the squared deviations from that mean. The kernel program receives, per tile of 5000 rows, the
  tile's column sums (row 0 of the tile's 8 × 64 block) and the tile's column sums of squares (row 1); on the host it
  adds the ten tiles' rows up, divides by 50000, and takes  E[x²] − E[x]²  as the variance.

  At the extended reals, and for an array all of whose entries are real numbers, the two means are the same array and
  the two variances are the same array; the variance plus the positive constant ε is a positive real in every column.
-/
import proofs.«108144_j81140522156740_2_alg».proof.KernelIdeal
import proofs.«108144_j81140522156740_2_alg».proof.Proof.RefSpec
import proofs.«108144_j81140522156740_2_alg».proof.Proof.LibTileStats
import proofs.«108144_j81140522156740_2_alg».proof.Proof.LibBatchStats

noncomputable section

open scoped BigOperators

namespace Cert.StatsBridge

open Idealize.ShloMosaic Idealize.ShloMosaic.ValueIdx
open Cert.Lib

/-! ## The two constants -/

/-- The f32 word `0x47435000` is the real number 50000: the number of rows. -/
theorem ofBits_nodes : Ideal.ofBits .f32 0x47435000#32 = ((50000 : ℝ) : EReal) := by
  simp [Ideal.ofBits, Ideal.ieee, -EReal.coe_mul]; norm_num

/-- The f32 word `0x3727C5AC` (the f32 nearest to 1e-5) is a positive real number. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 50000 as a natural number cast to the reals and then to the extended reals. -/
theorem nodes_cast : ((50000 : ℝ) : EReal) = (((50000 : ℕ) : ℝ) : EReal) := by norm_num

/-- Row `t · 5000 + y` of tile `t` is one of the 50000 rows. -/
theorem row_lt (t : Fin 10) (y : Fin 5000) : t.val * 5000 + y.val < 50000 := by
  have := t.isLt; have := y.isLt; omega

/-! ## The reference's statistics read at a column -/

section Reference

open Cert.ReferenceIdeal Cert.ReferenceIdeal.Facts₀ Cert.ReferenceIdeal.Facts Cert.ReferenceIdeal.RefRun

variable [Cert.ReferenceIdeal.Facts]

/-- The scalar zero reads the extended real zero. -/
theorem zeroS_apply (j : S_.Idx) : zeroS j = 0 := Ideal.ofBits_zero_f32

/-- The scalar 50000.0 reads the real 50000. -/
theorem nodesS_apply (j : S_.Idx) : nodesS j = ((50000 : ℝ) : EReal) := ofBits_nodes

/-- The reference's column sum at column `q`: the sum of the column's 50000 entries. -/
theorem colSum_apply (raw : FVec Ideal S50000x64 .f32) (q : Fin 64) :
    colSum raw (ix1 q) = ∑ i : Fin 50000, raw (ix2 i q) :=
  TileStats.reduceRows_apply raw zeroS reducesTo_S50000x64_S64_d0 h_S_ (zeroS_apply _) q

/-- The reference's column mean at column `q`: the column sum divided by 50000. -/
theorem colMean_apply (raw : FVec Ideal S50000x64 .f32) (q : Fin 64) :
    colMean raw (ix1 q) = Ideal.div (∑ i : Fin 50000, raw (ix2 i q)) ((50000 : ℝ) : EReal) := by
  show Ideal.div (colSum raw (ix1 q)) (broadcastInDim S64 ![] bcast_S_S64 nodesS (ix1 q)) = _
  rw [colSum_apply, broadcastInDim_scalar_apply, nodesS_apply]

/-- The variance's divisor is 50000: 50000 less the integer zero read as a float. -/
theorem varCount_apply (j : S_.Idx) : varCount j = ((50000 : ℝ) : EReal) := by
  show nodesS j - (((0#32 : BitVec 32).toInt : ℝ) : EReal) = _
  rw [nodesS_apply]
  simp

/-- The column means as the variance takes them, at row `i` and column `q`: the column sum divided by 50000. -/
theorem varMean_apply (raw : FVec Ideal S50000x64 .f32) (i : Fin 50000) (q : Fin 64) :
    varMean raw (ix2 i q) = Ideal.div (∑ k : Fin 50000, raw (ix2 k q)) ((50000 : ℝ) : EReal) := by
  unfold varMean
  refine (broadcastInDim_apply _ bcast_S1x64_S50000x64_0_1 _ (ix2 i q) (ix2 (0 : Fin 1) q)
    fun a => match a with | ⟨0, _⟩ => rfl | ⟨1, _⟩ => rfl).trans ?_
  show Ideal.div (broadcastInDim S1x64 ![1] bcast_S64_S1x64_1 (colSum raw) (ix2 (0 : Fin 1) q))
      (broadcastInDim S1x64 ![] bcast_S_S1x64 nodesS (ix2 (0 : Fin 1) q)) = _
  rw [broadcastInDim_scalar_apply, nodesS_apply]
  rw [broadcastInDim_apply _ bcast_S64_S1x64_1 (colSum raw) (ix2 (0 : Fin 1) q) (ix1 q)
    (fun a => match a with | ⟨0, _⟩ => rfl), colSum_apply]

/-- The reference's column variance at column `q`: the sum of the squared deviations from the column mean, divided
    by 50000 (the divisor is positive, so the select takes its first branch). -/
theorem colVar_apply (raw : FVec Ideal S50000x64 .f32) (q : Fin 64) :
    colVar raw (ix1 q)
      = Ideal.div (∑ i : Fin 50000,
            (raw (ix2 i q) - Ideal.div (∑ k : Fin 50000, raw (ix2 k q)) ((50000 : ℝ) : EReal))
              * (raw (ix2 i q) - Ideal.div (∑ k : Fin 50000, raw (ix2 k q)) ((50000 : ℝ) : EReal)))
          ((50000 : ℝ) : EReal) := by
  unfold colVar
  rw [select_apply, broadcastInDim_scalar_apply, cmpf_apply, varCount_apply, zeroS_apply, Ideal.cmpf_def]
  have hc : Ideal.cmp .ogt ((50000 : ℝ) : EReal) 0 = 1#1 := by
    have : (0 : EReal) < ((50000 : ℝ) : EReal) := EReal.coe_pos.mpr (by norm_num)
    simp [Ideal.cmp, this]
  rw [hc, select_one, hostDivf_apply, broadcastInDim_scalar_apply, varCount_apply,
    TileStats.reduceRows_apply _ zeroS reducesTo_S50000x64_S64_d0 h_S_ (zeroS_apply _) q]
  have hdev : ∀ i : Fin 50000, mulf (varDev raw) (varDev raw) (ix2 i q)
      = (raw (ix2 i q) - Ideal.div (∑ k : Fin 50000, raw (ix2 k q)) ((50000 : ℝ) : EReal))
        * (raw (ix2 i q) - Ideal.div (∑ k : Fin 50000, raw (ix2 k q)) ((50000 : ℝ) : EReal)) := fun i => by
    show (raw (ix2 i q) - varMean raw (ix2 i q)) * (raw (ix2 i q) - varMean raw (ix2 i q)) = _
    rw [varMean_apply]
  rw [Finset.sum_congr rfl fun i _ => hdev i]

/-- Every column mean of an array of real entries is a real number. -/
theorem colMean_real (raw : FVec Ideal S50000x64 .f32) (hreal : ∀ i, ∃ r : ℝ, raw i = (r : EReal)) (j : S64.Idx) :
    ∃ m : ℝ, colMean raw j = (m : EReal) := by
  obtain ⟨q, rfl⟩ : ∃ q : Fin 64, j = ix1 q := ⟨j 0, eq_ix1 j⟩
  rw [colMean_apply]
  exact BatchStats.mean_real (n := 50000) (by norm_num) (fun i => raw (ix2 i q)) (fun i => hreal _) _ nodes_cast

/-- Every column variance of an array of real entries is a real number that is not negative. -/
theorem colVar_real_nonneg (raw : FVec Ideal S50000x64 .f32) (hreal : ∀ i, ∃ r : ℝ, raw i = (r : EReal)) (j : S64.Idx) :
    ∃ v : ℝ, 0 ≤ v ∧ colVar raw j = (v : EReal) := by
  obtain ⟨q, rfl⟩ : ∃ q : Fin 64, j = ix1 q := ⟨j 0, eq_ix1 j⟩
  rw [colVar_apply]
  exact BatchStats.variance_centred_real_nonneg (n := 50000) (by norm_num) (fun i => raw (ix2 i q)) (fun i => hreal _) _
    nodes_cast

/-- Every column variance plus ε, for an array of real entries, is a positive real number. -/
theorem var_add_eps_pos (raw : FVec Ideal S50000x64 .f32) (hreal : ∀ i, ∃ r : ℝ, raw i = (r : EReal)) (j : S64.Idx) :
    ∃ w : ℝ, 0 < w ∧ addf (colVar raw) (broadcastInDim S64 ![] bcast_S_S64 epsS) j = (w : EReal) := by
  obtain ⟨q, rfl⟩ : ∃ q : Fin 64, j = ix1 q := ⟨j 0, eq_ix1 j⟩
  rw [addf_apply, colVar_apply, broadcastInDim_scalar_apply]
  exact BatchStats.variance_centred_add_pos (n := 50000) (by norm_num) (fun i => raw (ix2 i q)) (fun i => hreal _) _
    nodes_cast _ ofBits_eps_pos

end Reference

/-! ## The kernel program's statistics against the reference's -/

section Kernel

open Cert.KernelIdeal Cert.KernelIdeal.Facts₀ Cert.KernelIdeal.Facts

variable [Cert.KernelIdeal.Facts] [Cert.ReferenceIdeal.Facts]

/-- The ten tiles' column sums (row 0 of every block), added up on the host, are the reference's column sums. -/
theorem sum_eq (stats : FVec Ideal S10x8x64 .f32) (raw : FVec Ideal S50000x64 .f32)
    (h0 : ∀ (t : Fin 10) (q : Fin 64),
      stats (ix3 t 0 q) = ∑ y : Fin 5000, raw (ix2 ⟨t.val * 5000 + y.val, row_lt t y⟩ q)) :
    Host.reduceAdd (F := Ideal)
        (shapeCast S10x64 (extractStridedSlice S10x1x64 ![0, 0, 0] stats slices_S10x8x64_S10x1x64_0_0_0)
          shapeCasts_S10x1x64_S10x64)
        (constant (F := Ideal) S_ .f32 0x00000000#32) reducesTo_S10x64_S64_d0 h_S_
      = Cert.ReferenceIdeal.RefRun.colSum raw :=
  TileStats.tileChain_eq_reduceRows (T := 10) (M := 5000) (N := 50000) (R := 8) (C := 64) (by norm_num) 0 (by norm_num)
    stats raw row_lt h0 slices_S10x8x64_S10x1x64_0_0_0 shapeCasts_S10x1x64_S10x64 _ reducesTo_S10x64_S64_d0 h_S_
    Ideal.ofBits_zero_f32 _ Cert.ReferenceIdeal.Facts₀.reducesTo_S50000x64_S64_d0 Cert.ReferenceIdeal.Facts₀.h_S_
    Ideal.ofBits_zero_f32

/-- The kernel program's mean — the tiles' column sums added up, divided by 50000 — is the reference's column mean. -/
theorem mean_eq (stats : FVec Ideal S10x8x64 .f32) (raw : FVec Ideal S50000x64 .f32)
    (h0 : ∀ (t : Fin 10) (q : Fin 64),
      stats (ix3 t 0 q) = ∑ y : Fin 5000, raw (ix2 ⟨t.val * 5000 + y.val, row_lt t y⟩ q)) :
    Host.divf (F := Ideal)
        (Host.reduceAdd (F := Ideal)
          (shapeCast S10x64 (extractStridedSlice S10x1x64 ![0, 0, 0] stats slices_S10x8x64_S10x1x64_0_0_0)
            shapeCasts_S10x1x64_S10x64)
          (constant (F := Ideal) S_ .f32 0x00000000#32) reducesTo_S10x64_S64_d0 h_S_)
        (broadcastInDim S64 ![] bcast_S_S64 (constant (F := Ideal) S_ .f32 0x47435000#32))
      = Cert.ReferenceIdeal.RefRun.colMean raw := by
  rw [sum_eq stats raw h0]
  rfl

/-- The kernel program's variance — E[x²] − E[x]² from the tiles' column sums of squares (row 1 of every block) and
    column sums (row 0) — is the reference's column variance, the mean squared deviation, when every entry is real. -/
theorem var_eq (stats : FVec Ideal S10x8x64 .f32) (raw : FVec Ideal S50000x64 .f32)
    (h0 : ∀ (t : Fin 10) (q : Fin 64),
      stats (ix3 t 0 q) = ∑ y : Fin 5000, raw (ix2 ⟨t.val * 5000 + y.val, row_lt t y⟩ q))
    (h1 : ∀ (t : Fin 10) (q : Fin 64),
      stats (ix3 t 1 q) = ∑ y : Fin 5000,
        raw (ix2 ⟨t.val * 5000 + y.val, row_lt t y⟩ q) * raw (ix2 ⟨t.val * 5000 + y.val, row_lt t y⟩ q))
    (hreal : ∀ i, ∃ r : ℝ, raw i = (r : EReal)) :
    subf
        (Host.divf (F := Ideal)
          (Host.reduceAdd (F := Ideal)
            (shapeCast S10x64 (extractStridedSlice S10x1x64 ![0, 1, 0] stats slices_S10x8x64_S10x1x64_0_1_0)
              shapeCasts_S10x1x64_S10x64)
            (constant (F := Ideal) S_ .f32 0x00000000#32) reducesTo_S10x64_S64_d0 h_S_)
          (broadcastInDim S64 ![] bcast_S_S64 (constant (F := Ideal) S_ .f32 0x47435000#32)))
        (mulf
          (Host.divf (F := Ideal)
            (Host.reduceAdd (F := Ideal)
              (shapeCast S10x64 (extractStridedSlice S10x1x64 ![0, 0, 0] stats slices_S10x8x64_S10x1x64_0_0_0)
                shapeCasts_S10x1x64_S10x64)
              (constant (F := Ideal) S_ .f32 0x00000000#32) reducesTo_S10x64_S64_d0 h_S_)
            (broadcastInDim S64 ![] bcast_S_S64 (constant (F := Ideal) S_ .f32 0x47435000#32)))
          (Host.divf (F := Ideal)
            (Host.reduceAdd (F := Ideal)
              (shapeCast S10x64 (extractStridedSlice S10x1x64 ![0, 0, 0] stats slices_S10x8x64_S10x1x64_0_0_0)
                shapeCasts_S10x1x64_S10x64)
              (constant (F := Ideal) S_ .f32 0x00000000#32) reducesTo_S10x64_S64_d0 h_S_)
            (broadcastInDim S64 ![] bcast_S_S64 (constant (F := Ideal) S_ .f32 0x47435000#32))))
      = Cert.ReferenceIdeal.RefRun.colVar raw := by
  funext j
  obtain ⟨q, rfl⟩ : ∃ q : Fin 64, j = ix1 q := ⟨j 0, eq_ix1 j⟩
  have hB : broadcastInDim S64 ![] bcast_S_S64 (constant (F := Ideal) S_ .f32 0x47435000#32) (ix1 q)
      = ((50000 : ℝ) : EReal) := by
    rw [broadcastInDim_scalar_apply]; exact ofBits_nodes
  have hS : Host.reduceAdd (F := Ideal)
        (shapeCast S10x64 (extractStridedSlice S10x1x64 ![0, 0, 0] stats slices_S10x8x64_S10x1x64_0_0_0)
          shapeCasts_S10x1x64_S10x64)
        (constant (F := Ideal) S_ .f32 0x00000000#32) reducesTo_S10x64_S64_d0 h_S_ (ix1 q)
      = ∑ i : Fin 50000, raw (ix2 i q) :=
    TileStats.tileChain_eq_total (T := 10) (M := 5000) (N := 50000) (R := 8) (C := 64) (by norm_num) 0 (by norm_num)
      stats (fun i q => raw (ix2 i q)) row_lt h0 slices_S10x8x64_S10x1x64_0_0_0 shapeCasts_S10x1x64_S10x64 _
      reducesTo_S10x64_S64_d0 h_S_ Ideal.ofBits_zero_f32 q
  have hQ : Host.reduceAdd (F := Ideal)
        (shapeCast S10x64 (extractStridedSlice S10x1x64 ![0, 1, 0] stats slices_S10x8x64_S10x1x64_0_1_0)
          shapeCasts_S10x1x64_S10x64)
        (constant (F := Ideal) S_ .f32 0x00000000#32) reducesTo_S10x64_S64_d0 h_S_ (ix1 q)
      = ∑ i : Fin 50000, raw (ix2 i q) * raw (ix2 i q) :=
    TileStats.tileChain_eq_total (T := 10) (M := 5000) (N := 50000) (R := 8) (C := 64) (by norm_num) 1 (by norm_num)
      stats (fun i q => raw (ix2 i q) * raw (ix2 i q)) row_lt h1 slices_S10x8x64_S10x1x64_0_1_0
      shapeCasts_S10x1x64_S10x64 _ reducesTo_S10x64_S64_d0 h_S_ Ideal.ofBits_zero_f32 q
  rw [subf_apply, mulf_apply, hostDivf_apply, hostDivf_apply, hB, hS, hQ, colVar_apply]
  exact BatchStats.variance_raw_eq_centred (n := 50000) (by norm_num) (fun i => raw (ix2 i q)) (fun i => hreal _) _
    nodes_cast

end Kernel

end Cert.StatsBridge

end
-- ==== Proof.GlueKeep.lean ====
/- GENERATED by scratch/gen_keep.mjs (node scratch/gen_keep.mjs > proof/Proof/GlueKeep.lean): a TABLE of persistence facts in the generated frame's own style —
   a buffer that no host operation of a stretch writes and that is no output window of a region holds after the stretch / region what it held before. -/
import proofs.«108144_j81140522156740_2_alg».proof.Proof.Gen.KernelIdeal.Frame

set_option maxRecDepth 16384

noncomputable section

namespace Cert.KernelIdeal.Glue

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem keep_main_arg10_0_2 (c : Dev nD) : W2 m ρ c (Proc.devRef .tc main_arg10) = W0 m ρ c (Proc.devRef .tc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg10_2_8 (c : Dev nD) : W8 m ρ c (Proc.devRef .tc main_arg10) = W2 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg10_8_14 (c : Dev nD) : W14 m ρ c (Proc.devRef .tc main_arg10) = W8 m ρ c (Proc.devRef .tc main_arg10) :=
  calc W14 m ρ c (Proc.devRef .tc main_arg10)
    _ = W13 m ρ c (Proc.devRef .tc main_arg10) := W14_of_ne m ρ c main_arg10 (by decide)
    _ = W12 m ρ c (Proc.devRef .tc main_arg10) := StableHlo.after_of_forall_not_mem (b := Proc.devRef .tc main_arg10) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg10) := W12_of_ne m ρ c main_arg10 (by decide)
    _ = W10 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg11_0_2 (c : Dev nD) : W2 m ρ c (Proc.devRef .tc main_arg11) = W0 m ρ c (Proc.devRef .tc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg11_2_8 (c : Dev nD) : W8 m ρ c (Proc.devRef .tc main_arg11) = W2 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg11_8_14 (c : Dev nD) : W14 m ρ c (Proc.devRef .tc main_arg11) = W8 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := StableHlo.after_of_forall_not_mem (b := Proc.devRef .tc main_arg11) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg12_0_2 (c : Dev nD) : W2 m ρ c (Proc.devRef .tc main_arg12) = W0 m ρ c (Proc.devRef .tc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg12_2_8 (c : Dev nD) : W8 m ρ c (Proc.devRef .tc main_arg12) = W2 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg12_8_14 (c : Dev nD) : W14 m ρ c (Proc.devRef .tc main_arg12) = W8 m ρ c (Proc.devRef .tc main_arg12) :=
  calc W14 m ρ c (Proc.devRef .tc main_arg12)
    _ = W13 m ρ c (Proc.devRef .tc main_arg12) := W14_of_ne m ρ c main_arg12 (by decide)
    _ = W12 m ρ c (Proc.devRef .tc main_arg12) := StableHlo.after_of_forall_not_mem (b := Proc.devRef .tc main_arg12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg13_0_2 (c : Dev nD) : W2 m ρ c (Proc.devRef .tc main_arg13) = W0 m ρ c (Proc.devRef .tc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg13_2_8 (c : Dev nD) : W8 m ρ c (Proc.devRef .tc main_arg13) = W2 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg13_8_14 (c : Dev nD) : W14 m ρ c (Proc.devRef .tc main_arg13) = W8 m ρ c (Proc.devRef .tc main_arg13) :=
  calc W14 m ρ c (Proc.devRef .tc main_arg13)
    _ = W13 m ρ c (Proc.devRef .tc main_arg13) := W14_of_ne m ρ c main_arg13 (by decide)
    _ = W12 m ρ c (Proc.devRef .tc main_arg13) := StableHlo.after_of_forall_not_mem (b := Proc.devRef .tc main_arg13) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_main_v1_2_8 (c : Dev nD) : W8 m ρ c (Proc.devRef .tc main_v1) = W2 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v1_8_14 (c : Dev nD) : W14 m ρ c (Proc.devRef .tc main_v1) = W8 m ρ c (Proc.devRef .tc main_v1) :=
  calc W14 m ρ c (Proc.devRef .tc main_v1)
    _ = W13 m ρ c (Proc.devRef .tc main_v1) := W14_of_ne m ρ c main_v1 (by decide)
    _ = W12 m ρ c (Proc.devRef .tc main_v1) := StableHlo.after_of_forall_not_mem (b := Proc.devRef .tc main_v1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v5_1_3 (c : Dev nD) : W3 m ρ c (Proc.devRef .tc main_v5) = W1 m ρ c (Proc.devRef .tc main_v5) :=
  calc W3 m ρ c (Proc.devRef .tc main_v5)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

theorem keep_main_v5_3_9 (c : Dev nD) : W9 m ρ c (Proc.devRef .tc main_v5) = W3 m ρ c (Proc.devRef .tc main_v5) :=
  calc W9 m ρ c (Proc.devRef .tc main_v5)
    _ = W8 m ρ c (Proc.devRef .tc main_v5) := StableHlo.after_of_forall_not_mem (b := Proc.devRef .tc main_v5) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := (W4_arr m ρ c 3).trans (((dat1 (V3 m ρ) c).arrAt_in 3 rfl _).trans (A_eq1 (V3 m ρ) c 3))

theorem keep_main_v5_9_15 (c : Dev nD) : W15 m ρ c (Proc.devRef .tc main_v5) = W9 m ρ c (Proc.devRef .tc main_v5) :=
  calc W15 m ρ c (Proc.devRef .tc main_v5)
    _ = W14 m ρ c (Proc.devRef .tc main_v5) := StableHlo.after_of_forall_not_mem (b := Proc.devRef .tc main_v5) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v5) := W14_of_ne m ρ c main_v5 (by decide)
    _ = W12 m ρ c (Proc.devRef .tc main_v5) := StableHlo.after_of_forall_not_mem (b := Proc.devRef .tc main_v5) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v5) := W12_of_ne m ρ c main_v5 (by decide)
    _ = W10 m ρ c (Proc.devRef .tc main_v5) := StableHlo.after_of_forall_not_mem (b := Proc.devRef .tc main_v5) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v5) := (W10_arr m ρ c 3).trans (((dat4 (V9 m ρ) c).arrAt_in 3 rfl _).trans (A_eq4 (V9 m ρ) c 3))

theorem keep_main_arg2_0_3 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg2_3_9 (c : Dev nD) : W9 m ρ c (Proc.devRef .tc main_arg2) = W3 m ρ c (Proc.devRef .tc main_arg2) :=
  calc W9 m ρ c (Proc.devRef .tc main_arg2)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := (W4_arr m ρ c 0).trans (((dat1 (V3 m ρ) c).arrAt_in 0 rfl _).trans (A_eq1 (V3 m ρ) c 0))

theorem keep_main_arg2_9_15 (c : Dev nD) : W15 m ρ c (Proc.devRef .tc main_arg2) = W9 m ρ c (Proc.devRef .tc main_arg2) :=
  calc W15 m ρ c (Proc.devRef .tc main_arg2)
    _ = W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg2) := W14_of_ne m ρ c main_arg2 (by decide)
    _ = W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := (W10_arr m ρ c 0).trans (((dat4 (V9 m ρ) c).arrAt_in 0 rfl _).trans (A_eq4 (V9 m ρ) c 0))

theorem keep_main_arg6_0_3 (c : Dev nD) : W3 m ρ c (Proc.devRef .tc main_arg6) = W0 m ρ c (Proc.devRef .tc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg6_3_9 (c : Dev nD) : W9 m ρ c (Proc.devRef .tc main_arg6) = W3 m ρ c (Proc.devRef .tc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := (W4_arr m ρ c 2).trans (((dat1 (V3 m ρ) c).arrAt_in 2 rfl _).trans (A_eq1 (V3 m ρ) c 2))

theorem keep_main_arg6_9_15 (c : Dev nD) : W15 m ρ c (Proc.devRef .tc main_arg6) = W9 m ρ c (Proc.devRef .tc main_arg6) :=
  calc W15 m ρ c (Proc.devRef .tc main_arg6)
    _ = W14 m ρ c (Proc.devRef .tc main_arg6) := StableHlo.after_of_forall_not_mem (b := Proc.devRef .tc main_arg6) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg6) := W14_of_ne m ρ c main_arg6 (by decide)
    _ = W12 m ρ c (Proc.devRef .tc main_arg6) := StableHlo.after_of_forall_not_mem (b := Proc.devRef .tc main_arg6) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg6) := W12_of_ne m ρ c main_arg6 (by decide)
    _ = W10 m ρ c (Proc.devRef .tc main_arg6) := StableHlo.after_of_forall_not_mem (b := Proc.devRef .tc main_arg6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg6) := (W10_arr m ρ c 2).trans (((dat4 (V9 m ρ) c).arrAt_in 2 rfl _).trans (A_eq4 (V9 m ρ) c 2))

theorem keep_main_v3_1_4 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_main_v3_4_10 (c : Dev nD) : W10 m ρ c (Proc.devRef .tc main_v3) = W4 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v3_10_16 (c : Dev nD) : W16 m ρ c (Proc.devRef .tc main_v3) = W10 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := StableHlo.after_of_forall_not_mem (b := Proc.devRef .tc main_v3) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v3) := W14_of_ne m ρ c main_v3 (by decide)
    _ = W12 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_0_4 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_4_10 (c : Dev nD) : W10 m ρ c (Proc.devRef .tc main_arg8) = W4 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg8_10_16 (c : Dev nD) : W16 m ρ c (Proc.devRef .tc main_arg8) = W10 m ρ c (Proc.devRef .tc main_arg8) :=
  calc W16 m ρ c (Proc.devRef .tc main_arg8)
    _ = W15 m ρ c (Proc.devRef .tc main_arg8) := W16_of_ne m ρ c main_arg8 (by decide)
    _ = W14 m ρ c (Proc.devRef .tc main_arg8) := StableHlo.after_of_forall_not_mem (b := Proc.devRef .tc main_arg8) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg8) := W14_of_ne m ρ c main_arg8 (by decide)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_0_4 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_4_10 (c : Dev nD) : W10 m ρ c (Proc.devRef .tc main_arg9) = W4 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg9_10_16 (c : Dev nD) : W16 m ρ c (Proc.devRef .tc main_arg9) = W10 m ρ c (Proc.devRef .tc main_arg9) :=
  calc W16 m ρ c (Proc.devRef .tc main_arg9)
    _ = W15 m ρ c (Proc.devRef .tc main_arg9) := W16_of_ne m ρ c main_arg9 (by decide)
    _ = W14 m ρ c (Proc.devRef .tc main_arg9) := StableHlo.after_of_forall_not_mem (b := Proc.devRef .tc main_arg9) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg9) := W14_of_ne m ρ c main_arg9 (by decide)
    _ = W12 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg14_0_4 (c : Dev nD) : W4 m ρ c (Proc.devRef .tc main_arg14) = W0 m ρ c (Proc.devRef .tc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg14_4_10 (c : Dev nD) : W10 m ρ c (Proc.devRef .tc main_arg14) = W4 m ρ c (Proc.devRef .tc main_arg14) :=
  calc W10 m ρ c (Proc.devRef .tc main_arg14)
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg14_10_16 (c : Dev nD) : W16 m ρ c (Proc.devRef .tc main_arg14) = W10 m ρ c (Proc.devRef .tc main_arg14) :=
  calc W16 m ρ c (Proc.devRef .tc main_arg14)
    _ = W15 m ρ c (Proc.devRef .tc main_arg14) := W16_of_ne m ρ c main_arg14 (by decide)
    _ = W14 m ρ c (Proc.devRef .tc main_arg14) := StableHlo.after_of_forall_not_mem (b := Proc.devRef .tc main_arg14) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg14) := W14_of_ne m ρ c main_arg14 (by decide)
    _ = W12 m ρ c (Proc.devRef .tc main_arg14) := StableHlo.after_of_forall_not_mem (b := Proc.devRef .tc main_arg14) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg15_0_4 (c : Dev nD) : W4 m ρ c (Proc.devRef .tc main_arg15) = W0 m ρ c (Proc.devRef .tc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg15_4_10 (c : Dev nD) : W10 m ρ c (Proc.devRef .tc main_arg15) = W4 m ρ c (Proc.devRef .tc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_arg15_10_16 (c : Dev nD) : W16 m ρ c (Proc.devRef .tc main_arg15) = W10 m ρ c (Proc.devRef .tc main_arg15) :=
  calc W16 m ρ c (Proc.devRef .tc main_arg15)
    _ = W15 m ρ c (Proc.devRef .tc main_arg15) := W16_of_ne m ρ c main_arg15 (by decide)
    _ = W14 m ρ c (Proc.devRef .tc main_arg15) := StableHlo.after_of_forall_not_mem (b := Proc.devRef .tc main_arg15) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg15) := W14_of_ne m ρ c main_arg15 (by decide)
    _ = W12 m ρ c (Proc.devRef .tc main_arg15) := StableHlo.after_of_forall_not_mem (b := Proc.devRef .tc main_arg15) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v6_2_5 (c : Dev nD) : W5 m ρ c (Proc.devRef .tc main_v6) = W2 m ρ c (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v58_8_11 (c : Dev nD) : W11 m ρ c (Proc.devRef .tc main_v58) = W8 m ρ c (Proc.devRef .tc main_v58) :=
  calc W11 m ρ c (Proc.devRef .tc main_v58)
    _ = W10 m ρ c (Proc.devRef .tc main_v58) := StableHlo.after_of_forall_not_mem (b := Proc.devRef .tc main_v58) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v58) := W10_of_ne m ρ c main_v58 (by decide)
    _ = W8 m ρ c (Proc.devRef .tc main_v58) := StableHlo.after_of_forall_not_mem (b := Proc.devRef .tc main_v58) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v110_14_17 (c : Dev nD) : W17 m ρ c (Proc.devRef .tc main_v110) = W14 m ρ c (Proc.devRef .tc main_v110) :=
  calc W17 m ρ c (Proc.devRef .tc main_v110)
    _ = W16 m ρ c (Proc.devRef .tc main_v110) := StableHlo.after_of_forall_not_mem (b := Proc.devRef .tc main_v110) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_v110) := W16_of_ne m ρ c main_v110 (by decide)
    _ = W14 m ρ c (Proc.devRef .tc main_v110) := StableHlo.after_of_forall_not_mem (b := Proc.devRef .tc main_v110) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v37_5_6 (c : Dev nD) : W6 m ρ c (Proc.devRef .tc main_v37) = W5 m ρ c (Proc.devRef .tc main_v37) :=
  calc W6 m ρ c (Proc.devRef .tc main_v37)
    _ = W5 m ρ c (Proc.devRef .tc main_v37) := W6_of_ne m ρ c main_v37 (by decide)

theorem keep_main_v39_5_6 (c : Dev nD) : W6 m ρ c (Proc.devRef .tc main_v39) = W5 m ρ c (Proc.devRef .tc main_v39) :=
  calc W6 m ρ c (Proc.devRef .tc main_v39)
    _ = W5 m ρ c (Proc.devRef .tc main_v39) := W6_of_ne m ρ c main_v39 (by decide)

theorem keep_main_v89_11_12 (c : Dev nD) : W12 m ρ c (Proc.devRef .tc main_v89) = W11 m ρ c (Proc.devRef .tc main_v89) :=
  calc W12 m ρ c (Proc.devRef .tc main_v89)
    _ = W11 m ρ c (Proc.devRef .tc main_v89) := W12_of_ne m ρ c main_v89 (by decide)

theorem keep_main_v91_11_12 (c : Dev nD) : W12 m ρ c (Proc.devRef .tc main_v91) = W11 m ρ c (Proc.devRef .tc main_v91) :=
  calc W12 m ρ c (Proc.devRef .tc main_v91)
    _ = W11 m ρ c (Proc.devRef .tc main_v91) := W12_of_ne m ρ c main_v91 (by decide)

theorem keep_main_v141_17_18 (c : Dev nD) : W18 m ρ c (Proc.devRef .tc main_v141) = W17 m ρ c (Proc.devRef .tc main_v141) :=
  calc W18 m ρ c (Proc.devRef .tc main_v141)
    _ = W17 m ρ c (Proc.devRef .tc main_v141) := W18_of_ne m ρ c main_v141 (by decide)

theorem keep_main_v143_17_18 (c : Dev nD) : W18 m ρ c (Proc.devRef .tc main_v143) = W17 m ρ c (Proc.devRef .tc main_v143) :=
  calc W18 m ρ c (Proc.devRef .tc main_v143)
    _ = W17 m ρ c (Proc.devRef .tc main_v143) := W18_of_ne m ρ c main_v143 (by decide)

theorem keep_main_v41_0_6_7 (c : Dev nD) : W7 m ρ c (Proc.devRef .tc main_v41_0) = W6 m ρ c (Proc.devRef .tc main_v41_0) :=
  calc W7 m ρ c (Proc.devRef .tc main_v41_0)
    _ = W6 m ρ c (Proc.devRef .tc main_v41_0) := StableHlo.after_of_forall_not_mem (b := Proc.devRef .tc main_v41_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v93_0_12_13 (c : Dev nD) : W13 m ρ c (Proc.devRef .tc main_v93_0) = W12 m ρ c (Proc.devRef .tc main_v93_0) :=
  calc W13 m ρ c (Proc.devRef .tc main_v93_0)
    _ = W12 m ρ c (Proc.devRef .tc main_v93_0) := StableHlo.after_of_forall_not_mem (b := Proc.devRef .tc main_v93_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v145_0_18_19 (c : Dev nD) : W19 m ρ c (Proc.devRef .tc main_v145_0) = W18 m ρ c (Proc.devRef .tc main_v145_0) :=
  calc W19 m ρ c (Proc.devRef .tc main_v145_0)
    _ = W18 m ρ c (Proc.devRef .tc main_v145_0) := StableHlo.after_of_forall_not_mem (b := Proc.devRef .tc main_v145_0) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Glue

end
-- ==== Proof.GlueArgs.lean ====
/-
  What the launch arrays, the two edge-index vectors and the edge-embedding bias row read as at the boundaries where the
  three layers use them: nothing in between writes them, so they hold what they held at launch (resp. after the first
  host stretch).
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.GlueKeep
import proofs.«108144_j81140522156740_2_alg».proof.Proof.GlueA
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

theorem at_main_arg10_2 : (W2 m ρ c (Proc.devRef .tc main_arg10) : S3x32x64.Idx → EReal) = (m ((c : Thread nD τ).loc main_arg10)) :=
  (keep_main_arg10_0_2 m ρ c)

theorem at_main_arg10_8 : (W8 m ρ c (Proc.devRef .tc main_arg10) : S3x32x64.Idx → EReal) = (m ((c : Thread nD τ).loc main_arg10)) :=
  ((keep_main_arg10_2_8 m ρ c).trans (keep_main_arg10_0_2 m ρ c))

theorem at_main_arg10_14 : (W14 m ρ c (Proc.devRef .tc main_arg10) : S3x32x64.Idx → EReal) = (m ((c : Thread nD τ).loc main_arg10)) :=
  (((keep_main_arg10_8_14 m ρ c).trans (keep_main_arg10_2_8 m ρ c)).trans (keep_main_arg10_0_2 m ρ c))

theorem at_main_arg11_2 : (W2 m ρ c (Proc.devRef .tc main_arg11) : S3x64.Idx → EReal) = (m ((c : Thread nD τ).loc main_arg11)) :=
  (keep_main_arg11_0_2 m ρ c)

theorem at_main_arg11_8 : (W8 m ρ c (Proc.devRef .tc main_arg11) : S3x64.Idx → EReal) = (m ((c : Thread nD τ).loc main_arg11)) :=
  ((keep_main_arg11_2_8 m ρ c).trans (keep_main_arg11_0_2 m ρ c))

theorem at_main_arg11_14 : (W14 m ρ c (Proc.devRef .tc main_arg11) : S3x64.Idx → EReal) = (m ((c : Thread nD τ).loc main_arg11)) :=
  (((keep_main_arg11_8_14 m ρ c).trans (keep_main_arg11_2_8 m ρ c)).trans (keep_main_arg11_0_2 m ρ c))

theorem at_main_arg12_2 : (W2 m ρ c (Proc.devRef .tc main_arg12) : S3x128x64.Idx → EReal) = (m ((c : Thread nD τ).loc main_arg12)) :=
  (keep_main_arg12_0_2 m ρ c)

theorem at_main_arg12_8 : (W8 m ρ c (Proc.devRef .tc main_arg12) : S3x128x64.Idx → EReal) = (m ((c : Thread nD τ).loc main_arg12)) :=
  ((keep_main_arg12_2_8 m ρ c).trans (keep_main_arg12_0_2 m ρ c))

theorem at_main_arg12_14 : (W14 m ρ c (Proc.devRef .tc main_arg12) : S3x128x64.Idx → EReal) = (m ((c : Thread nD τ).loc main_arg12)) :=
  (((keep_main_arg12_8_14 m ρ c).trans (keep_main_arg12_2_8 m ρ c)).trans (keep_main_arg12_0_2 m ρ c))

theorem at_main_arg13_2 : (W2 m ρ c (Proc.devRef .tc main_arg13) : S3x64.Idx → EReal) = (m ((c : Thread nD τ).loc main_arg13)) :=
  (keep_main_arg13_0_2 m ρ c)

theorem at_main_arg13_8 : (W8 m ρ c (Proc.devRef .tc main_arg13) : S3x64.Idx → EReal) = (m ((c : Thread nD τ).loc main_arg13)) :=
  ((keep_main_arg13_2_8 m ρ c).trans (keep_main_arg13_0_2 m ρ c))

theorem at_main_arg13_14 : (W14 m ρ c (Proc.devRef .tc main_arg13) : S3x64.Idx → EReal) = (m ((c : Thread nD τ).loc main_arg13)) :=
  (((keep_main_arg13_8_14 m ρ c).trans (keep_main_arg13_2_8 m ρ c)).trans (keep_main_arg13_0_2 m ρ c))

theorem at_main_arg2_3 : (W3 m ρ c (Proc.devRef .tc main_arg2) : S800000x1.Idx → EReal) = (m ((c : Thread nD τ).loc main_arg2)) :=
  (keep_main_arg2_0_3 m ρ c)

theorem at_main_arg2_9 : (W9 m ρ c (Proc.devRef .tc main_arg2) : S800000x1.Idx → EReal) = (m ((c : Thread nD τ).loc main_arg2)) :=
  ((keep_main_arg2_3_9 m ρ c).trans (keep_main_arg2_0_3 m ρ c))

theorem at_main_arg2_15 : (W15 m ρ c (Proc.devRef .tc main_arg2) : S800000x1.Idx → EReal) = (m ((c : Thread nD τ).loc main_arg2)) :=
  (((keep_main_arg2_9_15 m ρ c).trans (keep_main_arg2_3_9 m ρ c)).trans (keep_main_arg2_0_3 m ρ c))

theorem at_main_arg6_3 : (W3 m ρ c (Proc.devRef .tc main_arg6) : S1x32.Idx → EReal) = (m ((c : Thread nD τ).loc main_arg6)) :=
  (keep_main_arg6_0_3 m ρ c)

theorem at_main_arg6_9 : (W9 m ρ c (Proc.devRef .tc main_arg6) : S1x32.Idx → EReal) = (m ((c : Thread nD τ).loc main_arg6)) :=
  ((keep_main_arg6_3_9 m ρ c).trans (keep_main_arg6_0_3 m ρ c))

theorem at_main_arg6_15 : (W15 m ρ c (Proc.devRef .tc main_arg6) : S1x32.Idx → EReal) = (m ((c : Thread nD τ).loc main_arg6)) :=
  (((keep_main_arg6_9_15 m ρ c).trans (keep_main_arg6_3_9 m ρ c)).trans (keep_main_arg6_0_3 m ρ c))

theorem at_main_arg8_4 : (W4 m ρ c (Proc.devRef .tc main_arg8) : S3x64x64.Idx → EReal) = (m ((c : Thread nD τ).loc main_arg8)) :=
  (keep_main_arg8_0_4 m ρ c)

theorem at_main_arg8_10 : (W10 m ρ c (Proc.devRef .tc main_arg8) : S3x64x64.Idx → EReal) = (m ((c : Thread nD τ).loc main_arg8)) :=
  ((keep_main_arg8_4_10 m ρ c).trans (keep_main_arg8_0_4 m ρ c))

theorem at_main_arg8_16 : (W16 m ρ c (Proc.devRef .tc main_arg8) : S3x64x64.Idx → EReal) = (m ((c : Thread nD τ).loc main_arg8)) :=
  (((keep_main_arg8_10_16 m ρ c).trans (keep_main_arg8_4_10 m ρ c)).trans (keep_main_arg8_0_4 m ρ c))

theorem at_main_arg9_4 : (W4 m ρ c (Proc.devRef .tc main_arg9) : S3x64.Idx → EReal) = (m ((c : Thread nD τ).loc main_arg9)) :=
  (keep_main_arg9_0_4 m ρ c)

theorem at_main_arg9_10 : (W10 m ρ c (Proc.devRef .tc main_arg9) : S3x64.Idx → EReal) = (m ((c : Thread nD τ).loc main_arg9)) :=
  ((keep_main_arg9_4_10 m ρ c).trans (keep_main_arg9_0_4 m ρ c))

theorem at_main_arg9_16 : (W16 m ρ c (Proc.devRef .tc main_arg9) : S3x64.Idx → EReal) = (m ((c : Thread nD τ).loc main_arg9)) :=
  (((keep_main_arg9_10_16 m ρ c).trans (keep_main_arg9_4_10 m ρ c)).trans (keep_main_arg9_0_4 m ρ c))

theorem at_main_arg14_4 : (W4 m ρ c (Proc.devRef .tc main_arg14) : S3x64.Idx → EReal) = (m ((c : Thread nD τ).loc main_arg14)) :=
  (keep_main_arg14_0_4 m ρ c)

theorem at_main_arg14_10 : (W10 m ρ c (Proc.devRef .tc main_arg14) : S3x64.Idx → EReal) = (m ((c : Thread nD τ).loc main_arg14)) :=
  ((keep_main_arg14_4_10 m ρ c).trans (keep_main_arg14_0_4 m ρ c))

theorem at_main_arg14_16 : (W16 m ρ c (Proc.devRef .tc main_arg14) : S3x64.Idx → EReal) = (m ((c : Thread nD τ).loc main_arg14)) :=
  (((keep_main_arg14_10_16 m ρ c).trans (keep_main_arg14_4_10 m ρ c)).trans (keep_main_arg14_0_4 m ρ c))

theorem at_main_arg15_4 : (W4 m ρ c (Proc.devRef .tc main_arg15) : S3x64.Idx → EReal) = (m ((c : Thread nD τ).loc main_arg15)) :=
  (keep_main_arg15_0_4 m ρ c)

theorem at_main_arg15_10 : (W10 m ρ c (Proc.devRef .tc main_arg15) : S3x64.Idx → EReal) = (m ((c : Thread nD τ).loc main_arg15)) :=
  ((keep_main_arg15_4_10 m ρ c).trans (keep_main_arg15_0_4 m ρ c))

theorem at_main_arg15_16 : (W16 m ρ c (Proc.devRef .tc main_arg15) : S3x64.Idx → EReal) = (m ((c : Thread nD τ).loc main_arg15)) :=
  (((keep_main_arg15_10_16 m ρ c).trans (keep_main_arg15_4_10 m ρ c)).trans (keep_main_arg15_0_4 m ρ c))

theorem at_main_v1_2 : (W2 m ρ c (Proc.devRef .tc main_v1) : S800000.Idx → BitVec 32) = Cert.ReferenceIdeal.RefRun.srcVec (m ((c : Thread nD τ).loc main_arg1)) :=
  (keep_main_v1_1_2 m ρ c).trans (b1_v1 m ρ c)

theorem at_main_v1_8 : (W8 m ρ c (Proc.devRef .tc main_v1) : S800000.Idx → BitVec 32) = Cert.ReferenceIdeal.RefRun.srcVec (m ((c : Thread nD τ).loc main_arg1)) :=
  ((keep_main_v1_2_8 m ρ c).trans (keep_main_v1_1_2 m ρ c)).trans (b1_v1 m ρ c)

theorem at_main_v1_14 : (W14 m ρ c (Proc.devRef .tc main_v1) : S800000.Idx → BitVec 32) = Cert.ReferenceIdeal.RefRun.srcVec (m ((c : Thread nD τ).loc main_arg1)) :=
  (((keep_main_v1_8_14 m ρ c).trans (keep_main_v1_2_8 m ρ c)).trans (keep_main_v1_1_2 m ρ c)).trans (b1_v1 m ρ c)

theorem at_main_v3_4 : (W4 m ρ c (Proc.devRef .tc main_v3) : S800000.Idx → BitVec 32) = Cert.ReferenceIdeal.RefRun.dstVec (m ((c : Thread nD τ).loc main_arg1)) :=
  (keep_main_v3_1_4 m ρ c).trans (b1_v3 m ρ c)

theorem at_main_v3_10 : (W10 m ρ c (Proc.devRef .tc main_v3) : S800000.Idx → BitVec 32) = Cert.ReferenceIdeal.RefRun.dstVec (m ((c : Thread nD τ).loc main_arg1)) :=
  ((keep_main_v3_4_10 m ρ c).trans (keep_main_v3_1_4 m ρ c)).trans (b1_v3 m ρ c)

theorem at_main_v3_16 : (W16 m ρ c (Proc.devRef .tc main_v3) : S800000.Idx → BitVec 32) = Cert.ReferenceIdeal.RefRun.dstVec (m ((c : Thread nD τ).loc main_arg1)) :=
  (((keep_main_v3_10_16 m ρ c).trans (keep_main_v3_4_10 m ρ c)).trans (keep_main_v3_1_4 m ρ c)).trans (b1_v3 m ρ c)

theorem at_main_v5_3 : (W3 m ρ c (Proc.devRef .tc main_v5) : S1x32.Idx → EReal) = shapeCast S1x32 (m ((c : Thread nD τ).loc main_arg7)) shapeCasts_S32_S1x32 :=
  (keep_main_v5_1_3 m ρ c).trans (b1_v5 m ρ c)

theorem at_main_v5_9 : (W9 m ρ c (Proc.devRef .tc main_v5) : S1x32.Idx → EReal) = shapeCast S1x32 (m ((c : Thread nD τ).loc main_arg7)) shapeCasts_S32_S1x32 :=
  ((keep_main_v5_3_9 m ρ c).trans (keep_main_v5_1_3 m ρ c)).trans (b1_v5 m ρ c)

theorem at_main_v5_15 : (W15 m ρ c (Proc.devRef .tc main_v5) : S1x32.Idx → EReal) = shapeCast S1x32 (m ((c : Thread nD τ).loc main_arg7)) shapeCasts_S32_S1x32 :=
  (((keep_main_v5_9_15 m ρ c).trans (keep_main_v5_3_9 m ρ c)).trans (keep_main_v5_1_3 m ρ c)).trans (b1_v5 m ρ c)

end Cert.KernelIdeal.Glue

end
-- ==== Proof.Region1.lean ====
/-
  The edge kernel of the first layer: the gated message along every edge.  Each grid point `t` (of a hundred) holds rows
  `8000 t … 8000 t + 7999` of the edge attributes (800000 × 1) and of the gathered source-node features `xj`
  (800000 × 64), and the whole of the small operands: the attribute embedding's row `Wa` (1 × 32) and bias, the edge
  transform `We` (32 × 64) and bias, the two halves of the gate's matrix `Wg` (its rows 0 … 63 and 64 … 127) and the
  gate's bias, each bias as one row.  It writes rows `8000 t …` of

      msg = σ([xj | (attr · Wa + ba) · We + be] · Wg + bg) · xj,        σ(z) = 1 / (1 + e⁻ᶻ).

  Every step reads an edge's own row only, and the hundred row blocks tile the 800000 rows, so the result array after the
  hundred points is that term of the whole arrays, spelt with the host's operations.
-/
import proofs.«108144_j81140522156740_2_alg».proof.Proof.Gen.KernelIdeal.Frame
import proofs.«108144_j81140522156740_2_alg».proof.Proof.LibEdgeRows
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

/-- The gated messages of all 800000 edges as one function of whole arrays: 32 attribute features, 64 node features,
    the gate's matrix of 64 + 64 = 128 rows. -/
abbrev msgRef := @edgeMsg 800000 32 64 64 128

theorem hz : (![0, 0] : Fin 2 → Nat) = fun _ => 0 := funext fun a => by fin_cases a <;> rfl

/-- The body's arithmetic on a block of 8000 edges is the gated message of those edges: when the two long blocks hold
    rows `o …` of the attributes and of the source features and the small operands are the long side's entry by entry. -/
theorem pay_rows {o : Nat} {attr : FVec Ideal S800000x1 .f32} {xj : FVec Ideal S800000x64 .f32}
    (x0 : FVec Ideal S8000x1 .f32) (x1 : FVec Ideal S8000x64 .bf16) (x2 x3 : FVec Ideal S1x32 .f32) (x4 : FVec Ideal S32x64 .f32)
    (x5 : FVec Ideal S1x64 .f32) (x6 x7 : FVec Ideal S64x64 .f32) (x8 : FVec Ideal S1x64 .f32)
    (h0 : RowsOf 800000 8000 1 o attr x0) (hx : RowsOf 800000 8000 64 o xj x1)
    (Wa : FVec Ideal S1x32 .f32) (hWa : ∀ i, x2 i = Wa i)
    (ba : S32.Idx → EReal) (hba : ∀ q : Fin 32, x3 (ix2 (0 : Fin 1) q) = ba (ix1 q))
    (We : FVec Ideal S32x64 .f32) (hWe : ∀ i, x4 i = We i)
    (be : S64.Idx → EReal) (hbe : ∀ q : Fin 64, x5 (ix2 (0 : Fin 1) q) = be (ix1 q))
    (Wg : FVec Ideal S128x64 .f32)
    (hWgx : ∀ (k q : Fin 64) (hk : k.val < 128), x6 (ix2 k q) = Wg (ix2 ⟨k.val, hk⟩ q))
    (hWge : ∀ (k q : Fin 64) (hk : 64 + k.val < 128), x7 (ix2 k q) = Wg (ix2 ⟨64 + k.val, hk⟩ q))
    (bg : S64.Idx → EReal) (hbg : ∀ q : Fin 64, x8 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    RowsOf 800000 8000 64 o (msgRef attr xj Wa ba We be Wg bg ha1 ha2 he1 he2 hg1 hg2 hcat h1 h1')
      (k1_pay1 (F := Ideal) x0 x2 x3 x4 x5 x1 x6 x7 x8) := by
  unfold k1_pay1
  exact RowsOf.edgeMsg (E := 800000) (M := 8000) (C := 32) (D := 64) (D' := 64) (K := 128) rfl h0 hx Wa x2 hWa ba x3 hba We x4 hWe be x5 hbe
    Wg x6 x7 hWgx hWge bg x8 hbg ha1 ha2 he1 he2 hg1 hg2 hcat h1 h1'
    broadcasts_S8000x1_S8000x32 broadcasts_S1x32_S8000x32 shapeCasts_S1x32_S1x32 shapeCasts_S32x64_S32x64
    shapeCasts_S1x64_S1x64 broadcasts_S1x64_S8000x64 shapeCasts_S8000x64_S8000x64 shapeCasts_S64x64_S64x64 shapeCasts_S64x64_S64x64
    shapeCasts_S1x64_S1x64 broadcasts_S1x64_S8000x64 bitsLt_bf16_f32

/-- The grid's index maps: point `t` holds row block `t` of the attributes, of the source features and of the result,
    and the whole of every small operand. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-- Window 0's block at point `t` holds rows `8000 t … 8000 t + 7999` of its array. -/
theorem rows0 (c : Dev nD) (t : Fin cfg1.N) : RowsOf 800000 8000 1 (8000 * t.val) (V c main_arg2) (iblk1 V c 0 t) := by
  intro y k h
  obtain ⟨e0r, e0c, e1r, e1c, e2r, e2c, e3r, e3c, e4r, e4c, e5r, e5c, e6r, e6c, e7r, e7c, e8r, e8c, e9r, e9c⟩ := idx_facts t
  show V c main_arg2 (((cfg1.win 0).blk t).view.emb (ix2 y k)) = V c main_arg2 (ix2 ⟨8000 * t.val + y.val, h⟩ k)
  refine congrArg (V c main_arg2) (funext fun a => Fin.ext ?_)
  match a with
  | ⟨0, _⟩ => show win1_0.index t (0 : Fin 2) * 8000 + 1 * y.val = 8000 * t.val + y.val; omega
  | ⟨1, _⟩ => show win1_0.index t (1 : Fin 2) * 1 + 1 * k.val = k.val; omega

/-- Window 1's block at point `t` holds rows `8000 t … 8000 t + 7999` of its array. -/
theorem rows1 (c : Dev nD) (t : Fin cfg1.N) : RowsOf 800000 8000 64 (8000 * t.val) (V c main_v22) (iblk1 V c 1 t) := by
  intro y k h
  obtain ⟨e0r, e0c, e1r, e1c, e2r, e2c, e3r, e3c, e4r, e4c, e5r, e5c, e6r, e6c, e7r, e7c, e8r, e8c, e9r, e9c⟩ := idx_facts t
  show V c main_v22 (((cfg1.win 1).blk t).view.emb (ix2 y k)) = V c main_v22 (ix2 ⟨8000 * t.val + y.val, h⟩ k)
  refine congrArg (V c main_v22) (funext fun a => Fin.ext ?_)
  match a with
  | ⟨0, _⟩ => show win1_1.index t (0 : Fin 2) * 8000 + 1 * y.val = 8000 * t.val + y.val; omega
  | ⟨1, _⟩ => show win1_1.index t (1 : Fin 2) * 64 + 1 * k.val = k.val; omega

/-- Window 2 is held whole at every point: its block reads the array as it stands. -/
theorem blk2 (c : Dev nD) (t : Fin cfg1.N) (i : S1x32.Idx) : iblk1 V c 2 t i = V c main_arg6 i := by
  obtain ⟨e0r, e0c, e1r, e1c, e2r, e2c, e3r, e3c, e4r, e4c, e5r, e5c, e6r, e6c, e7r, e7c, e8r, e8c, e9r, e9c⟩ := idx_facts t
  show V c main_arg6 (((cfg1.win 2).blk t).view.emb i) = V c main_arg6 i
  refine congrArg (V c main_arg6) (funext fun a => Fin.ext ?_)
  match a with
  | ⟨0, _⟩ => show win1_2.index t (0 : Fin 2) * 1 + 1 * (i 0).val = (i 0).val; omega
  | ⟨1, _⟩ => show win1_2.index t (1 : Fin 2) * 32 + 1 * (i 1).val = (i 1).val; omega

/-- Window 3 is held whole at every point: its block reads the array as it stands. -/
theorem blk3 (c : Dev nD) (t : Fin cfg1.N) (i : S1x32.Idx) : iblk1 V c 3 t i = V c main_v5 i := by
  obtain ⟨e0r, e0c, e1r, e1c, e2r, e2c, e3r, e3c, e4r, e4c, e5r, e5c, e6r, e6c, e7r, e7c, e8r, e8c, e9r, e9c⟩ := idx_facts t
  show V c main_v5 (((cfg1.win 3).blk t).view.emb i) = V c main_v5 i
  refine congrArg (V c main_v5) (funext fun a => Fin.ext ?_)
  match a with
  | ⟨0, _⟩ => show win1_3.index t (0 : Fin 2) * 1 + 1 * (i 0).val = (i 0).val; omega
  | ⟨1, _⟩ => show win1_3.index t (1 : Fin 2) * 32 + 1 * (i 1).val = (i 1).val; omega

/-- Window 4 is held whole at every point: its block reads the array as it stands. -/
theorem blk4 (c : Dev nD) (t : Fin cfg1.N) (i : S32x64.Idx) : iblk1 V c 4 t i = V c main_v9 i := by
  obtain ⟨e0r, e0c, e1r, e1c, e2r, e2c, e3r, e3c, e4r, e4c, e5r, e5c, e6r, e6c, e7r, e7c, e8r, e8c, e9r, e9c⟩ := idx_facts t
  show V c main_v9 (((cfg1.win 4).blk t).view.emb i) = V c main_v9 i
  refine congrArg (V c main_v9) (funext fun a => Fin.ext ?_)
  match a with
  | ⟨0, _⟩ => show win1_4.index t (0 : Fin 2) * 32 + 1 * (i 0).val = (i 0).val; omega
  | ⟨1, _⟩ => show win1_4.index t (1 : Fin 2) * 64 + 1 * (i 1).val = (i 1).val; omega

/-- Window 5 is held whole at every point: its block reads the array as it stands. -/
theorem blk5 (c : Dev nD) (t : Fin cfg1.N) (i : S1x64.Idx) : iblk1 V c 5 t i = V c main_v23 i := by
  obtain ⟨e0r, e0c, e1r, e1c, e2r, e2c, e3r, e3c, e4r, e4c, e5r, e5c, e6r, e6c, e7r, e7c, e8r, e8c, e9r, e9c⟩ := idx_facts t
  show V c main_v23 (((cfg1.win 5).blk t).view.emb i) = V c main_v23 i
  refine congrArg (V c main_v23) (funext fun a => Fin.ext ?_)
  match a with
  | ⟨0, _⟩ => show win1_5.index t (0 : Fin 2) * 1 + 1 * (i 0).val = (i 0).val; omega
  | ⟨1, _⟩ => show win1_5.index t (1 : Fin 2) * 64 + 1 * (i 1).val = (i 1).val; omega

/-- Window 6 is held whole at every point: its block reads the array as it stands. -/
theorem blk6 (c : Dev nD) (t : Fin cfg1.N) (i : S64x64.Idx) : iblk1 V c 6 t i = V c main_v25 i := by
  obtain ⟨e0r, e0c, e1r, e1c, e2r, e2c, e3r, e3c, e4r, e4c, e5r, e5c, e6r, e6c, e7r, e7c, e8r, e8c, e9r, e9c⟩ := idx_facts t
  show V c main_v25 (((cfg1.win 6).blk t).view.emb i) = V c main_v25 i
  refine congrArg (V c main_v25) (funext fun a => Fin.ext ?_)
  match a with
  | ⟨0, _⟩ => show win1_6.index t (0 : Fin 2) * 64 + 1 * (i 0).val = (i 0).val; omega
  | ⟨1, _⟩ => show win1_6.index t (1 : Fin 2) * 64 + 1 * (i 1).val = (i 1).val; omega

/-- Window 7 is held whole at every point: its block reads the array as it stands. -/
theorem blk7 (c : Dev nD) (t : Fin cfg1.N) (i : S64x64.Idx) : iblk1 V c 7 t i = V c main_v26 i := by
  obtain ⟨e0r, e0c, e1r, e1c, e2r, e2c, e3r, e3c, e4r, e4c, e5r, e5c, e6r, e6c, e7r, e7c, e8r, e8c, e9r, e9c⟩ := idx_facts t
  show V c main_v26 (((cfg1.win 7).blk t).view.emb i) = V c main_v26 i
  refine congrArg (V c main_v26) (funext fun a => Fin.ext ?_)
  match a with
  | ⟨0, _⟩ => show win1_7.index t (0 : Fin 2) * 64 + 1 * (i 0).val = (i 0).val; omega
  | ⟨1, _⟩ => show win1_7.index t (1 : Fin 2) * 64 + 1 * (i 1).val = (i 1).val; omega

/-- Window 8 is held whole at every point: its block reads the array as it stands. -/
theorem blk8 (c : Dev nD) (t : Fin cfg1.N) (i : S1x64.Idx) : iblk1 V c 8 t i = V c main_v24 i := by
  obtain ⟨e0r, e0c, e1r, e1c, e2r, e2c, e3r, e3c, e4r, e4c, e5r, e5c, e6r, e6c, e7r, e7c, e8r, e8c, e9r, e9c⟩ := idx_facts t
  show V c main_v24 (((cfg1.win 8).blk t).view.emb i) = V c main_v24 i
  refine congrArg (V c main_v24) (funext fun a => Fin.ext ?_)
  match a with
  | ⟨0, _⟩ => show win1_8.index t (0 : Fin 2) * 1 + 1 * (i 0).val = (i 0).val; omega
  | ⟨1, _⟩ => show win1_8.index t (1 : Fin 2) * 64 + 1 * (i 1).val = (i 1).val; omega

/-- What point `t` writes back is block `t` of the messages of the arrays the region finds. -/
theorem flushed_eq (c : Dev nD) (t : Fin cfg1.N)
    (ba : S32.Idx → EReal) (hba : ∀ q : Fin 32, V c main_v5 (ix2 (0 : Fin 1) q) = ba (ix1 q))
    (We : FVec Ideal S32x64 .f32) (hWe : ∀ i, V c main_v9 i = We i)
    (be : S64.Idx → EReal) (hbe : ∀ q : Fin 64, V c main_v23 (ix2 (0 : Fin 1) q) = be (ix1 q))
    (Wg : FVec Ideal S128x64 .f32)
    (hWgx : ∀ (k q : Fin 64) (hk : k.val < 128), V c main_v25 (ix2 k q) = Wg (ix2 ⟨k.val, hk⟩ q))
    (hWge : ∀ (k q : Fin 64) (hk : 64 + k.val < 128), V c main_v26 (ix2 k q) = Wg (ix2 ⟨64 + k.val, hk⟩ q))
    (bg : S64.Idx → EReal) (hbg : ∀ q : Fin 64, V c main_v24 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat1 V c).flushed 9 t = ((cfg1.win 9).blk t).view.read (Elt Ideal) (msgRef (V c main_arg2) (V c main_v22) (V c main_arg6) ba We be Wg bg ha1 ha2 he1 he2 hg1 hg2 hcat h1 h1') := by
  show (cfg1.win 9).cut (grid1.coords t) ((dat1 V c).after 9 t) = _
  rw [after1_9]
  unfold out1_9
  rw [View.canon_unit_zero hz]
  simp only [View.ld_unit_zero (S := S8000x1) hz, View.ld_unit_zero (S := S8000x64) hz, View.ld_unit_zero (S := S1x32) hz,
    View.ld_unit_zero (S := S32x64) hz, View.ld_unit_zero (S := S1x64) hz, View.ld_unit_zero (S := S64x64) hz]
  obtain ⟨e0r, e0c, e1r, e1c, e2r, e2c, e3r, e3c, e4r, e4c, e5r, e5c, e6r, e6c, e7r, e7c, e8r, e8c, e9r, e9c⟩ := idx_facts t
  funext j
  obtain ⟨y, k, rfl⟩ : ∃ (y : Fin 8000) (k : Fin 64), j = ix2 y k := ⟨j 0, j 1, eq_ix2 j⟩
  have hN : cfg1.N = 100 := N_1
  have hlt : 8000 * t.val + y.val < 800000 := by have := t.isLt; have := y.isLt; omega
  -- the body's result at row `y` of the block is the message of edge `8000 t + y`
  have key := pay_rows (iblk1 V c 0 t) (iblk1 V c 1 t) (iblk1 V c 2 t) (iblk1 V c 3 t) (iblk1 V c 4 t) (iblk1 V c 5 t)
    (iblk1 V c 6 t) (iblk1 V c 7 t) (iblk1 V c 8 t) (rows0 V c t) (rows1 V c t)
    (V c main_arg6) (blk2 V c t) ba (fun q => (blk3 V c t _).trans (hba q)) We (fun i => (blk4 V c t i).trans (hWe i))
    be (fun q => (blk5 V c t _).trans (hbe q)) Wg (fun k q hk => (blk6 V c t _).trans (hWgx k q hk))
    (fun k q hk => (blk7 V c t _).trans (hWge k q hk)) bg (fun q => (blk8 V c t _).trans (hbg q)) ha1 ha2 he1 he2 hg1 hg2 hcat h1 h1'
  refine (key y k hlt).trans ?_
  -- and that edge's index is where the block's row `y` sits in the result array
  show msgRef (V c main_arg2) (V c main_v22) (V c main_arg6) ba We be Wg bg ha1 ha2 he1 he2 hg1 hg2 hcat h1 h1' (ix2 ⟨8000 * t.val + y.val, hlt⟩ k)
    = msgRef (V c main_arg2) (V c main_v22) (V c main_arg6) ba We be Wg bg ha1 ha2 he1 he2 hg1 hg2 hcat h1 h1' (((cfg1.win 9).blk t).view.emb (ix2 y k))
  refine congrArg _ (funext fun a => Fin.ext ?_)
  match a with
  | ⟨0, _⟩ => show 8000 * t.val + y.val = win1_9.index t (0 : Fin 2) * 8000 + 1 * y.val; omega
  | ⟨1, _⟩ => show k.val = win1_9.index t (1 : Fin 2) * 64 + 1 * k.val; omega

/-- An index of the result array is in point `t`'s block iff each coordinate is in the block's range on its axis. -/
theorem mem_blk (t : Fin cfg1.N) (i : S800000x64.Idx) :
    i ∈ ((cfg1.win 9).blk t).view.set ↔ ∀ a : Fin 2, win1_9.index t a * S8000x64.size a ≤ (i a).val ∧ (i a).val < win1_9.index t a * S8000x64.size a + S8000x64.size a := by
  show i ∈ ((View.whole main_v27).slice (win1_9.rect t)).set ↔ _
  rw [View.set_slice_whole, Rect.mem_set_unit]
  exact Iff.rfl

/-- Every row of the result lies in the block of the point `row / 8000`. -/
theorem cover (i : S800000x64.Idx) : ∃ t : Fin cfg1.N, (cfg1.win 9).flush t = true ∧ i ∈ ((cfg1.win 9).blk t).view.set := by
  have hi0 : (i 0).val < 800000 := (i 0).isLt
  have hi1 : (i 1).val < 64 := (i 1).isLt
  have hN : cfg1.N = 100 := N_1
  let t : Fin cfg1.N := ⟨(i 0).val / 8000, by rw [hN]; omega⟩
  obtain ⟨-, -, -, -, -, -, -, -, -, -, -, -, -, -, -, -, -, -, e9r, e9c⟩ := idx_facts t
  have ht : t.val = (i 0).val / 8000 := rfl
  refine ⟨t, flush1_9 t, ?_⟩
  rw [mem_blk]
  intro a
  match a with
  | ⟨0, _⟩ => show win1_9.index t (0 : Fin 2) * 8000 ≤ (i 0).val ∧ (i 0).val < win1_9.index t (0 : Fin 2) * 8000 + 8000; omega
  | ⟨1, _⟩ => show win1_9.index t (1 : Fin 2) * 64 ≤ (i 1).val ∧ (i 1).val < win1_9.index t (1 : Fin 2) * 64 + 64; omega

/-- The result array after the hundred points is the messages of the arrays the region found: of the attributes, the
    gathered source features and the embedding row as they stand, and of the small operands the other buffers hold
    (each bias as one row, the gate's matrix as its two halves). -/
theorem arr_eq (c : Dev nD)
    (ba : S32.Idx → EReal) (hba : ∀ q : Fin 32, V c main_v5 (ix2 (0 : Fin 1) q) = ba (ix1 q))
    (We : FVec Ideal S32x64 .f32) (hWe : ∀ i, V c main_v9 i = We i)
    (be : S64.Idx → EReal) (hbe : ∀ q : Fin 64, V c main_v23 (ix2 (0 : Fin 1) q) = be (ix1 q))
    (Wg : FVec Ideal S128x64 .f32)
    (hWgx : ∀ (k q : Fin 64) (hk : k.val < 128), V c main_v25 (ix2 k q) = Wg (ix2 ⟨k.val, hk⟩ q))
    (hWge : ∀ (k q : Fin 64) (hk : 64 + k.val < 128), V c main_v26 (ix2 k q) = Wg (ix2 ⟨64 + k.val, hk⟩ q))
    (bg : S64.Idx → EReal) (hbg : ∀ q : Fin 64, V c main_v24 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat1 V c).arrAt 9 cfg1.N = msgRef (V c main_arg2) (V c main_v22) (V c main_arg6) ba We be Wg bg ha1 ha2 he1 he2 hg1 hg2 hcat h1 h1' :=
  (dat1 V c).arrAt_eq_of_cover 9 _ (fun t _ => flushed_eq V c t ba hba We hWe be hbe Wg hWgx hWge bg hbg ha1 ha2 he1 he2 hg1 hg2 hcat h1 h1') cover

end Cert.KernelIdeal.Region1

end
-- ==== Proof.GlueL0.lean ====
/-
  The first layer's edge half: the host operations before the edge kernel slice the layer's parameters and gather the
  source-node rows; the edge kernel then leaves the reference's messages in its result buffer.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.SpecBridge
import proofs.«108144_j81140522156740_2_alg».proof.Proof.GlueKeep
import proofs.«108144_j81140522156740_2_alg».proof.Proof.GlueA
import proofs.«108144_j81140522156740_2_alg».proof.Proof.GlueArgs
import proofs.«108144_j81140522156740_2_alg».proof.Proof.Region1
import proofs.«108144_j81140522156740_2_alg».proof.Proof.LibLayerRows
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## Layer 0: from the node features `H` in `main_v6` to the messages -/

section L0

variable (H : FVec Ideal S50000x64 .f32) (hH : (W2 m ρ c (Proc.devRef .tc main_v6) : S50000x64.Idx → EReal) = H)

theorem L0_v9 : (W3 m ρ c (Proc.devRef .tc main_v9) : S32x64.Idx → EReal) = Cert.ReferenceIdeal.RefRun.sliceWe 0 (m ((c : Thread nD τ).loc main_arg10)) := by
  show StableHlo.after hostOps1 (W2 m ρ c) (Proc.devRef .tc main_v9) = _
  after_results
  rw [at_main_arg10_2 m ρ c]
  rfl

theorem L0_v23 : (W3 m ρ c (Proc.devRef .tc main_v23) : S1x64.Idx → EReal) = shapeCast S1x64 (Cert.ReferenceIdeal.RefRun.sliceRow 0 (m ((c : Thread nD τ).loc main_arg11))) shapeCasts_S64_S1x64 := by
  show StableHlo.after hostOps1 (W2 m ρ c) (Proc.devRef .tc main_v23) = _
  after_results
  rw [at_main_arg11_2 m ρ c]
  rfl

theorem L0_v24 : (W3 m ρ c (Proc.devRef .tc main_v24) : S1x64.Idx → EReal) = shapeCast S1x64 (Cert.ReferenceIdeal.RefRun.sliceRow 0 (m ((c : Thread nD τ).loc main_arg13))) shapeCasts_S64_S1x64 := by
  show StableHlo.after hostOps1 (W2 m ρ c) (Proc.devRef .tc main_v24) = _
  after_results
  rw [at_main_arg13_2 m ρ c]
  rfl

theorem L0_v25 : (W3 m ρ c (Proc.devRef .tc main_v25) : S64x64.Idx → EReal) = extractStridedSlice S64x64 ![0, 0] (Cert.ReferenceIdeal.RefRun.sliceWg 0 (m ((c : Thread nD τ).loc main_arg12))) slices_S128x64_S64x64_0_0 := by
  show StableHlo.after hostOps1 (W2 m ρ c) (Proc.devRef .tc main_v25) = _
  after_results
  rw [at_main_arg12_2 m ρ c]
  rfl

theorem L0_v26 : (W3 m ρ c (Proc.devRef .tc main_v26) : S64x64.Idx → EReal) = extractStridedSlice S64x64 ![64, 0] (Cert.ReferenceIdeal.RefRun.sliceWg 0 (m ((c : Thread nD τ).loc main_arg12))) slices_S128x64_S64x64_64_0 := by
  show StableHlo.after hostOps1 (W2 m ρ c) (Proc.devRef .tc main_v26) = _
  after_results
  rw [at_main_arg12_2 m ρ c]
  rfl

include hH in
/-- The gathered source-node rows. -/
theorem L0_v22 : (W3 m ρ c (Proc.devRef .tc main_v22) : S800000x64.Idx → EReal) = Cert.ReferenceIdeal.RefRun.gatherRows H (Cert.ReferenceIdeal.RefRun.srcCol (m ((c : Thread nD τ).loc main_arg1))) := by
  show StableHlo.after hostOps1 (W2 m ρ c) (Proc.devRef .tc main_v22) = _
  after_results_simp
  rw [hH, at_main_v1_2 m ρ c]
  exact Cert.SpecBridge.gather_eq H _ _

include hH in
/-- The edge kernel's result buffer holds the reference's messages. -/
theorem L0_v27 : (W4 m ρ c (Proc.devRef .tc main_v27) : S800000x64.Idx → EReal) = (Cert.ReferenceIdeal.RefRun.msg (Cert.ReferenceIdeal.RefRun.gatherRows H (Cert.ReferenceIdeal.RefRun.srcCol (m ((c : Thread nD τ).loc main_arg1)))) (Cert.ReferenceIdeal.RefRun.edgeFeat (Cert.ReferenceIdeal.RefRun.edgeEmbed (m ((c : Thread nD τ).loc main_arg2)) (m ((c : Thread nD τ).loc main_arg6)) (m ((c : Thread nD τ).loc main_arg7))) (Cert.ReferenceIdeal.RefRun.sliceWe 0 (m ((c : Thread nD τ).loc main_arg10))) (Cert.ReferenceIdeal.RefRun.sliceRow 0 (m ((c : Thread nD τ).loc main_arg11)))) (Cert.ReferenceIdeal.RefRun.sliceWg 0 (m ((c : Thread nD τ).loc main_arg12))) (Cert.ReferenceIdeal.RefRun.sliceRow 0 (m ((c : Thread nD τ).loc main_arg13)))) := by
  refine (W4_arr m ρ c 9).trans ?_
  refine (Cert.KernelIdeal.Region1.arr_eq (V3 m ρ) c (m ((c : Thread nD τ).loc main_arg7)) (fun q => ?hba)
    (Cert.ReferenceIdeal.RefRun.sliceWe 0 (m ((c : Thread nD τ).loc main_arg10))) (fun i => ?hWe) (Cert.ReferenceIdeal.RefRun.sliceRow 0 (m ((c : Thread nD τ).loc main_arg11))) (fun q => ?hbe)
    (Cert.ReferenceIdeal.RefRun.sliceWg 0 (m ((c : Thread nD τ).loc main_arg12))) (fun k q hk => ?hWgx) (fun k q hk => ?hWge) (Cert.ReferenceIdeal.RefRun.sliceRow 0 (m ((c : Thread nD τ).loc main_arg13))) (fun q => ?hbg)
    Cert.ReferenceIdeal.Facts₀.bcast_S32_S1x32_1 Cert.ReferenceIdeal.Facts₀.bcast_S1x32_S800000x32_0_1 Cert.ReferenceIdeal.Facts₀.bcast_S64_S1x64_1 Cert.ReferenceIdeal.Facts₀.bcast_S1x64_S800000x64_0_1
    Cert.ReferenceIdeal.Facts₀.bcast_S64_S1x64_1 Cert.ReferenceIdeal.Facts₀.bcast_S1x64_S800000x64_0_1 Cert.ReferenceIdeal.Facts₀.concatenates_S800000x64_S800000x64_S800000x128_d1
    Cert.ReferenceIdeal.Facts₀.bcast_S_S800000x64 Cert.ReferenceIdeal.Facts₀.bcast_S_S800000x64).trans ?_
  case hba =>
    show (W3 m ρ c (Proc.devRef .tc main_v5) : S1x32.Idx → EReal) (ix2 (0 : Fin 1) q) = _
    rw [at_main_v5_3 m ρ c]
    exact Cert.Lib.RowBlocks.cast_row_apply _ _ q
  case hWe =>
    show (W3 m ρ c (Proc.devRef .tc main_v9) : S32x64.Idx → EReal) i = _
    rw [L0_v9 m ρ c]
  case hbe =>
    show (W3 m ρ c (Proc.devRef .tc main_v23) : S1x64.Idx → EReal) (ix2 (0 : Fin 1) q) = _
    rw [L0_v23 m ρ c]
    exact Cert.Lib.RowBlocks.cast_row_apply _ _ q
  case hWgx =>
    show (W3 m ρ c (Proc.devRef .tc main_v25) : S64x64.Idx → EReal) (ix2 k q) = _
    rw [L0_v25 m ρ c]
    exact Cert.SpecBridge.gateTop_apply _ _ k q
  case hWge =>
    show (W3 m ρ c (Proc.devRef .tc main_v26) : S64x64.Idx → EReal) (ix2 k q) = _
    rw [L0_v26 m ρ c]
    exact Cert.SpecBridge.gateBottom_apply _ _ k q
  case hbg =>
    show (W3 m ρ c (Proc.devRef .tc main_v24) : S1x64.Idx → EReal) (ix2 (0 : Fin 1) q) = _
    rw [L0_v24 m ρ c]
    exact Cert.Lib.RowBlocks.cast_row_apply _ _ q
  show Cert.KernelIdeal.Region1.msgRef (W3 m ρ c (Proc.devRef .tc main_arg2)) (W3 m ρ c (Proc.devRef .tc main_v22)) (W3 m ρ c (Proc.devRef .tc main_arg6)) _ _ _ _ _ _ _ _ _ _ _ _ _ _ = _
  rw [at_main_arg2_3 m ρ c, L0_v22 m ρ c H hH, at_main_arg6_3 m ρ c]
  exact Cert.SpecBridge.edgeMsg_eq _ _ _ _ _ _ _ _ _ _ _ _ _ _ _ _ _

end L0

end Cert.KernelIdeal.Glue

end
-- ==== Proof.LibNodeRows.lean ====
/-
  A node transform on a block of consecutive rows, and the block's column sums.

  With `h` the node features (`E` rows of `K` columns), `W` a `K × N` matrix, `b` a vector of length `N` and `a` the
  neighbours' sums (`E × N`), the transform is

      raw = h · W + b + a,

  and row `r` of `raw` depends on row `r` of `h` and of `a` only.  So a block that holds rows `o … o + M − 1` of `h` and
  of `a` gives the same rows of `raw`: the long side spelt with the host's operations, the block side with a kernel's (a
  product into a zero accumulator of operands narrowed to a shorter float format, which changes no extended real).

  A lane reduction over axis 0 of an `M × A` block, reshaped to `1 × A` and then to `1 × 1 × A`, read at `(0, 0, q)` is
  the sum of the block's column `q`; a zero constant spread over a block and reshaped reads zero everywhere.
-/
import proofs.«108144_j81140522156740_2_alg».proof.Proof.LibLayerRows

noncomputable section

open scoped BigOperators

namespace Cert.Lib.NodeRows

open Idealize.ShloMosaic Idealize.ShloMosaic.ValueIdx Cert.Lib.RowOps Cert.Lib.RowBlocks

variable {E M o : Nat}

/-- `h · W + b + a` over whole arrays, in the host's operations: a plain `dot_general`, the vector spread over the rows by
    two `broadcast_in_dim`s, two sums. -/
def nodeLin (E K N : Nat) (H : FVec Ideal ⟨2, ![E, K]⟩ .f32) (W : FVec Ideal ⟨2, ![K, N]⟩ .f32)
    (b : (⟨1, ![N]⟩ : Shape).Idx → EReal) (Agg : FVec Ideal ⟨2, ![E, N]⟩ .f32)
    (h1 : (⟨1, ![N]⟩ : Shape).BroadcastsInDim ⟨2, ![1, N]⟩ ![1])
    (h2 : (⟨2, ![1, N]⟩ : Shape).BroadcastsInDim ⟨2, ![E, N]⟩ ![0, 1]) : FVec Ideal ⟨2, ![E, N]⟩ .f32 :=
  addf (addf (FloatOps.dotGeneral (DotDims.plain E K N) none .single H W)
    (broadcastInDim ⟨2, ![E, N]⟩ ![0, 1] h2 (broadcastInDim ⟨2, ![1, N]⟩ ![1] h1 b))) Agg

/-- A block of rows of `h` and of `a`, with the matrix held whole and the vector held as one row, gives the same
    rows of `h · W + b + a`. -/
theorem RowsOf.nodeLin {K N : Nat} {H : FVec Ideal ⟨2, ![E, K]⟩ .f32} {Hb : FVec Ideal ⟨2, ![M, K]⟩ .f32}
    (hH : RowsOf E M K o H Hb) {Agg : FVec Ideal ⟨2, ![E, N]⟩ .f32} {Aggb : FVec Ideal ⟨2, ![M, N]⟩ .f32}
    (hA : RowsOf E M N o Agg Aggb)
    (W Wb : FVec Ideal ⟨2, ![K, N]⟩ .f32) (hW : ∀ i, Wb i = W i)
    (b : (⟨1, ![N]⟩ : Shape).Idx → EReal) (bb : (⟨2, ![1, N]⟩ : Shape).Idx → EReal)
    (hb : ∀ q : Fin N, bb (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (cH : (⟨2, ![M, K]⟩ : Shape).ShapeCasts ⟨2, ![M, K]⟩) (cW : (⟨2, ![K, N]⟩ : Shape).ShapeCasts ⟨2, ![K, N]⟩)
    (cB : (⟨2, ![1, N]⟩ : Shape).ShapeCasts ⟨2, ![1, N]⟩) (h2' : (⟨2, ![1, N]⟩ : Shape).Broadcasts ⟨2, ![M, N]⟩)
    (cA : (⟨2, ![M, N]⟩ : Shape).ShapeCasts ⟨2, ![M, N]⟩) (ht : FTy.bf16.bits < FTy.f32.bits) :
    RowsOf E M N o (nodeLin E K N H W b Agg h1 h2)
      (addf (addf (FloatOps.matmul (DotDims.plain M K N) none
            (Idealize.ShloMosaic.truncf .bf16 (shapeCast ⟨2, ![M, K]⟩ Hb cH) ht)
            (Idealize.ShloMosaic.truncf .bf16 (shapeCast ⟨2, ![K, N]⟩ Wb cW) ht)
            (constant ⟨2, ![M, N]⟩ .f32 0x00000000#32))
          (broadcastTo ⟨2, ![M, N]⟩ (shapeCast ⟨2, ![1, N]⟩ bb cB) h2'))
        (shapeCast ⟨2, ![M, N]⟩ Aggb cA)) := by
  have hWb : ∀ i, (Idealize.ShloMosaic.truncf .bf16 (shapeCast ⟨2, ![K, N]⟩ Wb cW) ht : FVec Ideal ⟨2, ![K, N]⟩ .bf16) i = W i :=
    castSelf_eq Wb W cW hW
  exact ((((hH.castSelf cH).truncf ht).dot W _ hWb none none .single).add (RowsOf.biasRow b bb hb h1 h2 cB h2')).add
    (hA.castSelf cA)

/-- A lane sum over the rows of an `M × A` block, reshaped to `1 × A` and to `1 × 1 × A`, at `(0, 0, q)`: the sum of
    column `q`. -/
theorem colSum_cast_apply {A : Nat} (blk : FVec Ideal ⟨2, ![M, A]⟩ .f32)
    (hred : (⟨2, ![M, A]⟩ : Shape).Reduces [0] ⟨1, ![A]⟩) (hφ : FKind.Formats .f32)
    (hacc : (0x00000000#32 : BitVec 32) = FKind.add.neutral .f32 hφ)
    (c1 : (⟨1, ![A]⟩ : Shape).ShapeCasts ⟨2, ![1, A]⟩) (c2 : (⟨2, ![1, A]⟩ : Shape).ShapeCasts ⟨3, ![1, 1, A]⟩) (q : Fin A) :
    shapeCast ⟨3, ![1, 1, A]⟩
        (shapeCast ⟨2, ![1, A]⟩ (multiReduction .add [0] ⟨1, ![A]⟩ blk 0x00000000#32 hred hφ hacc) c1) c2
        (ix3 (0 : Fin 1) (0 : Fin 1) q)
      = ∑ y : Fin M, blk (ix2 y q) := by
  refine (shapeCast_apply _ c2 (ix3 (0 : Fin 1) (0 : Fin 1) q) (ix2 (0 : Fin 1) q) ?_).trans ?_
  · rw [Shape.rowMajor_val_three, Shape.rowMajor_val_two]
    show 0 * A + q.val = (0 * 1 + 0) * A + q.val
    simp
  refine (shapeCast_apply _ c1 (ix2 (0 : Fin 1) q) (ix1 q) ?_).trans ?_
  · rw [Shape.rowMajor_val_two, Shape.rowMajor_val_one]
    show q.val = 0 * A + q.val
    simp
  refine (Ideal.multiReduction_add_single blk 0x00000000#32 hred hφ hacc (ix1 q)).trans ?_
  show ∑ k : Fin M, blk (hred.lift (ix1 q) k) = ∑ y : Fin M, blk (ix2 y q)
  refine Finset.sum_congr rfl fun k _ => congrArg blk (funext fun c => Fin.ext ?_)
  match c with
  | ⟨0, _⟩ => rfl
  | ⟨1, _⟩ => rfl

/-- The zero word spread over an `R × A` block and reshaped to `1 × R × A` reads zero everywhere. -/
theorem zeroBlock_apply {R A : Nat} (c : (⟨2, ![R, A]⟩ : Shape).ShapeCasts ⟨3, ![1, R, A]⟩)
    (j : (⟨3, ![1, R, A]⟩ : Shape).Idx) :
    shapeCast ⟨3, ![1, R, A]⟩ (broadcast ⟨2, ![R, A]⟩ (Scalar.ofBits (F := Ideal) .f32 0x00000000#32)) c j = 0 := by
  unfold shapeCast
  exact Ideal.ofBits_zero_f32

end Cert.Lib.NodeRows

end
-- ==== Proof.Region2.lean ====
/-
  The node kernel of the first layer.  Each grid point `t` (of ten) holds rows `5000 t … 5000 t + 4999` of the node
  features `h` and of the neighbours' sums `a` (50000 × 64 each), the whole 64 × 64 matrix `W` and the bias `b` as
  one row, and writes two things: rows `5000 t …` of

      raw = h · W + b + a,

  and an 8 × 64 block of statistics of those 5000 rows — its row 0 the column sums of the tile of `raw`, its row 1 the
  column sums of the squares, its rows 2 … 7 zero.  The ten row blocks tile the 50000 rows and the ten statistics
  blocks tile the 10 × 8 × 64 array, so after the ten points the first array is `raw` of the whole arrays and the second
  holds, at `(t, 0, q)` and `(t, 1, q)`, the sums over tile `t` of column `q` of `raw` and of its squares.
-/
import proofs.«108144_j81140522156740_2_alg».proof.Proof.Gen.KernelIdeal.Frame
import proofs.«108144_j81140522156740_2_alg».proof.Proof.LibNodeRows
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.Lib.RowBlocks Cert.Lib.RowOps Cert.Lib.NodeRows

theorem hz : (![0, 0] : Fin 2 → Nat) = fun _ => 0 := funext fun a => by fin_cases a <;> rfl

/-! ## What the body leaves in its two outputs, for any float instance -/

section Pieces

variable {F : FTy → Type} [FloatOps F]

/-- The body's one store into the first output leaves `h · W + b + a` of the blocks it loaded. -/
theorem out4_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out2_A_4 (F := F) c i arg1 harg1 arg2 harg2 arg3 harg3 arg4 harg4 arg5 harg5 arg6 harg6 x0 x1 x2 x3 = k2_pay1 x0 x1 x2 x3 := by
  unfold out2_A_4
  rw [View.read_writes_eq_canon _ _ _ (cover2_A_4 c i arg1 harg1 arg2 harg2 arg3 harg3 arg4 harg4 arg5 harg5 arg6 harg6 x0 x1 x2 x3)]
  unfold kernelRun2_A
  dsimp only
  sl_unfold_words
  rw [View.canon_unit_zero hz]
  simp only [View.readAt_eq_ld, harg1.read_unread, harg2.read_unread, harg3.read_unread, harg4.read_unread,
    View.ld_unit_zero (S := S5000x64) hz, View.ld_unit_zero (S := S64x64) hz, View.ld_unit_zero (S := S1x64) hz]

/-- The three stores into the statistics block: rows 2 … 7, row 1, row 0 (last first). -/
def statsPieces (x0 : Vec F S5000x64 .f32) (x1 : Vec F S64x64 .f32) (x2 : Vec F S1x64 .f32) (x3 : Vec F S5000x64 .f32) :
    List (View.Piece (Elt F) S1x8x64 .f32) :=
  [⟨Rect.unit ![0, 2, 0] ![1, 6, 64] inb_S1x8x64_S1x6x64_0_2_0, k2_pay4⟩,
   ⟨Rect.unit ![0, 1, 0] ![1, 1, 64] inb_S1x8x64_S1x1x64_0_1_0, k2_pay3 x0 x1 x2 x3⟩,
   ⟨Rect.unit ![0, 0, 0] ![1, 1, 64] inb_S1x8x64_S1x1x64_0_0_0, k2_pay2 x0 x1 x2 x3⟩]

/-- The body's three stores into the second output leave those three pieces. -/
theorem out5_eq (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out2_A_5 (F := F) c i arg1 harg1 arg2 harg2 arg3 harg3 arg4 harg4 arg5 harg5 arg6 harg6 x0 x1 x2 x3 = View.canon (statsPieces x0 x1 x2 x3) := by
  unfold out2_A_5
  rw [View.read_writes_eq_canon _ _ _ (cover2_A_5 c i arg1 harg1 arg2 harg2 arg3 harg3 arg4 harg4 arg5 harg5 arg6 harg6 x0 x1 x2 x3)]
  unfold kernelRun2_A
  dsimp only
  sl_unfold_words
  simp only [View.readAt_eq_ld, harg1.read_unread, harg2.read_unread, harg3.read_unread, harg4.read_unread,
    View.ld_unit_zero (S := S5000x64) hz, View.ld_unit_zero (S := S64x64) hz, View.ld_unit_zero (S := S1x64) hz]
  rfl

/-- The three pieces cover the statistics block. -/
theorem statsPieces_cover (x0 : Vec F S5000x64 .f32) (x1 : Vec F S64x64 .f32) (x2 : Vec F S1x64 .f32) (x3 : Vec F S5000x64 .f32)
    (y : S1x8x64.Idx) : ∃ p ∈ statsPieces x0 x1 x2 x3, y ∈ p.1.set :=
  View.cover_of_tiledBy (statsPieces x0 x1 x2 x3) ![1, 1, 64] (by sl_kernel_rfl) y

end Pieces

/-! ## The body's arithmetic at the ideal values -/

/-- `h · W + b + a` of whole arrays: 50000 rows, 64 features in and out. -/
abbrev rawRef := @nodeLin 50000 64 64

/-- The body's first payload carries rows: when the two long blocks hold rows `o …` of `h` and of `a`, the matrix
    block is `W` and the one-row block is `b`, the payload holds the same rows of `h · W + b + a`. -/
theorem pay_rows {o : Nat} {h aggr : FVec Ideal S50000x64 .f32}
    (x0 : FVec Ideal S5000x64 .f32) (x1 : FVec Ideal S64x64 .f32) (x2 : FVec Ideal S1x64 .f32) (x3 : FVec Ideal S5000x64 .f32)
    (h0 : RowsOf 50000 5000 64 o h x0) (h3 : RowsOf 50000 5000 64 o aggr x3)
    (Wn : FVec Ideal S64x64 .f32) (hWn : ∀ i, x1 i = Wn i)
    (bnb : S64.Idx → EReal) (hb : ∀ q : Fin 64, x2 (ix2 (0 : Fin 1) q) = bnb (ix1 q))
    (b1 : S64.BroadcastsInDim S1x64 ![1]) (b2 : S1x64.BroadcastsInDim S50000x64 ![0, 1]) :
    RowsOf 50000 5000 64 o (rawRef h Wn bnb aggr b1 b2) (k2_pay1 (F := Ideal) x0 x1 x2 x3) := by
  unfold k2_pay1
  exact RowsOf.nodeLin h0 h3 Wn x1 hWn bnb x2 hb b1 b2 shapeCasts_S5000x64_S5000x64 shapeCasts_S64x64_S64x64
    shapeCasts_S1x64_S1x64 broadcasts_S1x64_S5000x64 shapeCasts_S5000x64_S5000x64 bitsLt_bf16_f32

/-- The statistics of a 5000-row block `P`: row 0 its column sums, row 1 the column sums of its squares, rows 2 … 7 zero. -/
def blockStats (P : FVec Ideal S5000x64 .f32) (r : Fin 8) (q : Fin 64) : EReal :=
  if r.val = 0 then ∑ y : Fin 5000, P (ix2 y q)
  else if r.val = 1 then ∑ y : Fin 5000, P (ix2 y q) * P (ix2 y q) else 0

theorem blockStats_zero (P : FVec Ideal S5000x64 .f32) (q : Fin 64) :
    blockStats P 0 q = ∑ y : Fin 5000, P (ix2 y q) := if_pos rfl
theorem blockStats_one (P : FVec Ideal S5000x64 .f32) (q : Fin 64) :
    blockStats P 1 q = ∑ y : Fin 5000, P (ix2 y q) * P (ix2 y q) := (if_neg (by decide)).trans (if_pos rfl)
theorem blockStats_of_two_le (P : FVec Ideal S5000x64 .f32) (r : Fin 8) (hr : 2 ≤ r.val) (q : Fin 64) :
    blockStats P r q = 0 := (if_neg (by omega)).trans (if_neg (by omega))

/-- The second payload at `(0, 0, q)`: the sum of column `q` of the first payload. -/
theorem pay2_apply (x0 : FVec Ideal S5000x64 .f32) (x1 : FVec Ideal S64x64 .f32) (x2 : FVec Ideal S1x64 .f32)
    (x3 : FVec Ideal S5000x64 .f32) (q : Fin 64) :
    k2_pay2 (F := Ideal) x0 x1 x2 x3 (ix3 (0 : Fin 1) (0 : Fin 1) q)
      = ∑ y : Fin 5000, k2_pay1 (F := Ideal) x0 x1 x2 x3 (ix2 y q) := by
  unfold k2_pay2
  exact colSum_cast_apply (k2_pay1 (F := Ideal) x0 x1 x2 x3) reduces_S5000x64_S64 (.inl rfl) rfl
    shapeCasts_S64_S1x64 shapeCasts_S1x64_S1x1x64 q

/-- The third payload at `(0, 0, q)`: the sum of the squares of column `q` of the first payload. -/
theorem pay3_apply (x0 : FVec Ideal S5000x64 .f32) (x1 : FVec Ideal S64x64 .f32) (x2 : FVec Ideal S1x64 .f32)
    (x3 : FVec Ideal S5000x64 .f32) (q : Fin 64) :
    k2_pay3 (F := Ideal) x0 x1 x2 x3 (ix3 (0 : Fin 1) (0 : Fin 1) q)
      = ∑ y : Fin 5000, k2_pay1 (F := Ideal) x0 x1 x2 x3 (ix2 y q) * k2_pay1 (F := Ideal) x0 x1 x2 x3 (ix2 y q) := by
  unfold k2_pay3
  exact colSum_cast_apply (mulf (k2_pay1 (F := Ideal) x0 x1 x2 x3) (k2_pay1 (F := Ideal) x0 x1 x2 x3))
    reduces_S5000x64_S64 (.inl rfl) rfl shapeCasts_S64_S1x64 shapeCasts_S1x64_S1x1x64 q

/-- The fourth payload is zero everywhere. -/
theorem pay4_apply (j : S1x6x64.Idx) : k2_pay4 (F := Ideal) j = 0 := by
  unfold k2_pay4
  exact zeroBlock_apply shapeCasts_S6x64_S1x6x64 j

/-- The three pieces, read at any index of the 1 × 8 × 64 block, are the statistics of the first payload. -/
theorem statsPieces_apply (x0 : FVec Ideal S5000x64 .f32) (x1 : FVec Ideal S64x64 .f32) (x2 : FVec Ideal S1x64 .f32)
    (x3 : FVec Ideal S5000x64 .f32) (a : Fin 1) (r : Fin 8) (q : Fin 64) :
    View.canon (statsPieces (F := Ideal) x0 x1 x2 x3) (ix3 a r q) = blockStats (k2_pay1 (F := Ideal) x0 x1 x2 x3) r q := by
  refine View.canon_apply_of_pieces (fun j : S1x8x64.Idx => blockStats (k2_pay1 (F := Ideal) x0 x1 x2 x3) (j 1) (j 2))
    (statsPieces (F := Ideal) x0 x1 x2 x3) ?_ (ix3 a r q) (statsPieces_cover (F := Ideal) x0 x1 x2 x3 (ix3 a r q))
  intro p hp
  simp only [statsPieces, List.mem_cons, List.not_mem_nil, or_false] at hp
  rcases hp with rfl | rfl | rfl
  · intro x
    obtain ⟨a', r', q', rfl⟩ : ∃ (a' : Fin 1) (r' : Fin 6) (q' : Fin 64), x = ix3 a' r' q' := ⟨x 0, x 1, x 2, eq_ix3 x⟩
    have hemb : (Rect.unit (s := S1x8x64) ![0, 2, 0] ![1, 6, 64] inb_S1x8x64_S1x6x64_0_2_0).emb (ix3 a' r' q')
        = ix3 (0 : Fin 1) (⟨2 + r'.val, by have := r'.isLt; omega⟩ : Fin 8) q' := by
      funext b; apply Fin.ext
      match b with
      | ⟨0, _⟩ => show 0 + 1 * a'.val = 0; have := a'.isLt; omega
      | ⟨1, _⟩ => show 2 + 1 * r'.val = 2 + r'.val; omega
      | ⟨2, _⟩ => show 0 + 1 * q'.val = q'.val; omega
    show k2_pay4 (F := Ideal) (ix3 a' r' q') = blockStats _ ((Rect.unit (s := S1x8x64) ![0, 2, 0] ![1, 6, 64] inb_S1x8x64_S1x6x64_0_2_0).emb (ix3 a' r' q') 1)
      ((Rect.unit (s := S1x8x64) ![0, 2, 0] ![1, 6, 64] inb_S1x8x64_S1x6x64_0_2_0).emb (ix3 a' r' q') 2)
    rw [hemb]
    exact (pay4_apply _).trans (blockStats_of_two_le _ ⟨2 + r'.val, by have := r'.isLt; omega⟩ (Nat.le_add_right 2 _) q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 1, 0] ![1, 1, 64] inb_S1x8x64_S1x1x64_0_1_0).emb (ix3 (0 : Fin 1) (0 : Fin 1) q')
        = ix3 (0 : Fin 1) (1 : Fin 8) q' := by
      funext b; apply Fin.ext
      match b with
      | ⟨0, _⟩ => rfl
      | ⟨1, _⟩ => rfl
      | ⟨2, _⟩ => show 0 + 1 * q'.val = q'.val; omega
    show k2_pay3 (F := Ideal) x0 x1 x2 x3 (ix3 (0 : Fin 1) (0 : Fin 1) q') = blockStats _ ((Rect.unit (s := S1x8x64) ![0, 1, 0] ![1, 1, 64] inb_S1x8x64_S1x1x64_0_1_0).emb (ix3 (0 : Fin 1) (0 : Fin 1) q') 1)
      ((Rect.unit (s := S1x8x64) ![0, 1, 0] ![1, 1, 64] inb_S1x8x64_S1x1x64_0_1_0).emb (ix3 (0 : Fin 1) (0 : Fin 1) q') 2)
    rw [hemb]
    exact (pay3_apply x0 x1 x2 x3 q').trans (blockStats_one _ q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 0, 0] ![1, 1, 64] inb_S1x8x64_S1x1x64_0_0_0).emb (ix3 (0 : Fin 1) (0 : Fin 1) q')
        = ix3 (0 : Fin 1) (0 : Fin 8) q' := by
      funext b; apply Fin.ext
      match b with
      | ⟨0, _⟩ => rfl
      | ⟨1, _⟩ => rfl
      | ⟨2, _⟩ => show 0 + 1 * q'.val = q'.val; omega
    show k2_pay2 (F := Ideal) x0 x1 x2 x3 (ix3 (0 : Fin 1) (0 : Fin 1) q') = blockStats _ ((Rect.unit (s := S1x8x64) ![0, 0, 0] ![1, 1, 64] inb_S1x8x64_S1x1x64_0_0_0).emb (ix3 (0 : Fin 1) (0 : Fin 1) q') 1)
      ((Rect.unit (s := S1x8x64) ![0, 0, 0] ![1, 1, 64] inb_S1x8x64_S1x1x64_0_0_0).emb (ix3 (0 : Fin 1) (0 : Fin 1) q') 2)
    rw [hemb]
    exact (pay2_apply x0 x1 x2 x3 q').trans (blockStats_zero _ q').symm

/-! ## The windows' blocks -/

variable (V : (c : Dev nD) → (b : Ref sig .tc) → Buf (Elt Ideal) ((c : Thread nD τ).loc b))

/-- The grid's index maps: point `t` holds row block `t` of the node features, of the neighbours' sums and of the first
    result, the matrix and the bias row whole, and block `t` of the statistics array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- Row `5000 t + y` of tile `t` is one of the 50000 rows. -/
theorem tile_row_lt (t : Fin 10) (y : Fin 5000) : t.val * 5000 + y.val < 50000 := by
  have := t.isLt; have := y.isLt; omega

/-- Point `t`'s block of the node features holds rows `5000 t …` of the array. -/
theorem rows0 (c : Dev nD) (t : Fin cfg2.N) :
    RowsOf 50000 5000 64 (t.val * 5000) (V c main_v6 : S50000x64.Idx → EReal) (iblk2 V c 0 t) := by
  intro y k h
  obtain ⟨e0, e1, -⟩ := idx_facts t
  show V c main_v6 (((cfg2.win 0).blk t).view.emb (ix2 y k)) = V c main_v6 (ix2 ⟨t.val * 5000 + y.val, h⟩ k)
  refine congrArg (V c main_v6) (funext fun a => Fin.ext ?_)
  match a with
  | ⟨0, _⟩ => show win2_0.index t (0 : Fin 2) * 5000 + 1 * y.val = t.val * 5000 + y.val; omega
  | ⟨1, _⟩ => show win2_0.index t (1 : Fin 2) * 64 + 1 * k.val = k.val; omega

/-- The matrix is held whole at every point. -/
theorem blk1 (c : Dev nD) (t : Fin cfg2.N) (i : S64x64.Idx) : iblk2 V c 1 t i = V c main_v33 i := by
  obtain ⟨-, -, e0, e1, -⟩ := idx_facts t
  show V c main_v33 (((cfg2.win 1).blk t).view.emb i) = V c main_v33 i
  refine congrArg (V c main_v33) (funext fun a => Fin.ext ?_)
  match a with
  | ⟨0, _⟩ => show win2_1.index t (0 : Fin 2) * 64 + 1 * (i 0).val = (i 0).val; omega
  | ⟨1, _⟩ => show win2_1.index t (1 : Fin 2) * 64 + 1 * (i 1).val = (i 1).val; omega

/-- The bias row is held whole at every point. -/
theorem blk2 (c : Dev nD) (t : Fin cfg2.N) (i : S1x64.Idx) : iblk2 V c 2 t i = V c main_v40 i := by
  obtain ⟨-, -, -, -, e0, e1, -⟩ := idx_facts t
  show V c main_v40 (((cfg2.win 2).blk t).view.emb i) = V c main_v40 i
  refine congrArg (V c main_v40) (funext fun a => Fin.ext ?_)
  match a with
  | ⟨0, _⟩ => show win2_2.index t (0 : Fin 2) * 1 + 1 * (i 0).val = (i 0).val; omega
  | ⟨1, _⟩ => show win2_2.index t (1 : Fin 2) * 64 + 1 * (i 1).val = (i 1).val; omega

/-- Point `t`'s block of the neighbours' sums holds rows `5000 t …` of the array. -/
theorem rows3 (c : Dev nD) (t : Fin cfg2.N) :
    RowsOf 50000 5000 64 (t.val * 5000) (V c main_v31 : S50000x64.Idx → EReal) (iblk2 V c 3 t) := by
  intro y k h
  obtain ⟨-, -, -, -, -, -, e0, e1, -⟩ := idx_facts t
  show V c main_v31 (((cfg2.win 3).blk t).view.emb (ix2 y k)) = V c main_v31 (ix2 ⟨t.val * 5000 + y.val, h⟩ k)
  refine congrArg (V c main_v31) (funext fun a => Fin.ext ?_)
  match a with
  | ⟨0, _⟩ => show win2_3.index t (0 : Fin 2) * 5000 + 1 * y.val = t.val * 5000 + y.val; omega
  | ⟨1, _⟩ => show win2_3.index t (1 : Fin 2) * 64 + 1 * k.val = k.val; omega

section Result

variable (c : Dev nD) (Wn : FVec Ideal S64x64 .f32) (hWn : ∀ i, V c main_v33 i = Wn i)
  (bnb : S64.Idx → EReal) (hb : ∀ q : Fin 64, V c main_v40 (ix2 (0 : Fin 1) q) = bnb (ix1 q))
  (b1 : S64.BroadcastsInDim S1x64 ![1]) (b2 : S1x64.BroadcastsInDim S50000x64 ![0, 1])

include hWn hb in
/-- The body's first payload at point `t` holds rows `5000 t …` of `h · W + b + a` of the arrays the region finds. -/
theorem pay_rows_at (t : Fin cfg2.N) :
    RowsOf 50000 5000 64 (t.val * 5000) (rawRef (V c main_v6) Wn bnb (V c main_v31) b1 b2)
      (k2_pay1 (F := Ideal) (iblk2 V c 0 t) (iblk2 V c 1 t) (iblk2 V c 2 t) (iblk2 V c 3 t)) :=
  pay_rows (iblk2 V c 0 t) (iblk2 V c 1 t) (iblk2 V c 2 t) (iblk2 V c 3 t) (rows0 V c t) (rows3 V c t)
    Wn (fun i => (blk1 V c t i).trans (hWn i)) bnb (fun q => (blk2 V c t _).trans (hb q)) b1 b2

/-! ## The first output: `raw` -/

include hWn hb in
/-- What point `t` writes back to the first output is block `t` of `h · W + b + a`. -/
theorem flushed_eq_raw (t : Fin cfg2.N) :
    (dat2 V c).flushed 4 t = ((cfg2.win 4).blk t).view.read (Elt Ideal) (rawRef (V c main_v6) Wn bnb (V c main_v31) b1 b2) := by
  show (cfg2.win 4).cut (grid2.coords t) ((dat2 V c).after 4 t) = _
  rw [after2_4]
  unfold outsAt2
  dsimp only
  rw [out4_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t)]
  obtain ⟨-, -, -, -, -, -, -, -, e0, e1, -⟩ := idx_facts t
  funext j
  obtain ⟨y, k, rfl⟩ : ∃ (y : Fin 5000) (k : Fin 64), j = ix2 y k := ⟨j 0, j 1, eq_ix2 j⟩
  have hN : cfg2.N = 10 := N_2
  have hlt : t.val * 5000 + y.val < 50000 := by have := t.isLt; have := y.isLt; omega
  show k2_pay1 (F := Ideal) (iblk2 V c 0 t) (iblk2 V c 1 t) (iblk2 V c 2 t) (iblk2 V c 3 t) (ix2 y k)
    = rawRef (V c main_v6) Wn bnb (V c main_v31) b1 b2 (((cfg2.win 4).blk t).view.emb (ix2 y k))
  refine (pay_rows_at V c Wn hWn bnb hb b1 b2 t y k hlt).trans ?_
  refine congrArg (rawRef (V c main_v6) Wn bnb (V c main_v31) b1 b2) (funext fun a => Fin.ext ?_)
  match a with
  | ⟨0, _⟩ => show t.val * 5000 + y.val = win2_4.index t (0 : Fin 2) * 5000 + 1 * y.val; omega
  | ⟨1, _⟩ => show k.val = win2_4.index t (1 : Fin 2) * 64 + 1 * k.val; omega

/-- An index of the first output is in point `t`'s block iff each coordinate is in the block's range on its axis. -/
theorem mem_blk4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v41_0).slice (win2_4.rect t)).set ↔ _
  rw [View.set_slice_whole, Rect.mem_set_unit]
  exact Iff.rfl

/-- The row blocks cover the first output: row `r` lies in the block of point `r / 5000`. -/
theorem cover4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, e0, e1, -⟩ := idx_facts t
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

include hWn hb in
/-- THE FIRST OUTPUT after the region is `h · W + b + a` of the arrays the region finds. -/
theorem arr_eq_raw :
    (dat2 V c).arrAt 4 cfg2.N = rawRef (V c main_v6) Wn bnb (V c main_v31) b1 b2 :=
  (dat2 V c).arrAt_eq_of_cover 4 _ (fun t _ => flushed_eq_raw V c Wn hWn bnb hb b1 b2 t) cover4

end Result

/-! ## The second output: the tiles' statistics -/

/-- The statistic of tile `t` of a whole array `R`: row 0 the sums over the tile's rows of each column, row 1 the sums of
    the squares, rows 2 … 7 zero. -/
def tileStat (R : FVec Ideal S50000x64 .f32) (t : Fin 10) (r : Fin 8) (q : Fin 64) : EReal :=
  if r.val = 0 then ∑ y : Fin 5000, R (ix2 ⟨t.val * 5000 + y.val, tile_row_lt t y⟩ q)
  else if r.val = 1 then
    ∑ y : Fin 5000, R (ix2 ⟨t.val * 5000 + y.val, tile_row_lt t y⟩ q) * R (ix2 ⟨t.val * 5000 + y.val, tile_row_lt t y⟩ q)
  else 0

theorem tileStat_zero (R : FVec Ideal S50000x64 .f32) (t : Fin 10) (q : Fin 64) :
    tileStat R t 0 q = ∑ y : Fin 5000, R (ix2 ⟨t.val * 5000 + y.val, tile_row_lt t y⟩ q) := if_pos rfl
theorem tileStat_one (R : FVec Ideal S50000x64 .f32) (t : Fin 10) (q : Fin 64) :
    tileStat R t 1 q = ∑ y : Fin 5000,
      R (ix2 ⟨t.val * 5000 + y.val, tile_row_lt t y⟩ q) * R (ix2 ⟨t.val * 5000 + y.val, tile_row_lt t y⟩ q) :=
  (if_neg (by decide)).trans (if_pos rfl)

/-- The ten tiles' statistics as one 10 × 8 × 64 array. -/
def statsRef (R : FVec Ideal S50000x64 .f32) : S10x8x64.Idx → EReal := fun j => tileStat R (j 0) (j 1) (j 2)

/-- The statistics of a block that holds tile `t` of `R` are tile `t`'s statistics of `R`. -/
theorem blockStats_eq_tileStat {R : FVec Ideal S50000x64 .f32} {P : FVec Ideal S5000x64 .f32} (t : Fin 10)
    (hP : RowsOf 50000 5000 64 (t.val * 5000) R P) (r : Fin 8) (q : Fin 64) : blockStats P r q = tileStat R t r q := by
  have e : ∀ y : Fin 5000, P (ix2 y q) = R (ix2 ⟨t.val * 5000 + y.val, tile_row_lt t y⟩ q) := fun y => hP y q _
  unfold blockStats tileStat
  simp only [e]

section Stats

variable (c : Dev nD) (Wn : FVec Ideal S64x64 .f32) (hWn : ∀ i, V c main_v33 i = Wn i)
  (bnb : S64.Idx → EReal) (hb : ∀ q : Fin 64, V c main_v40 (ix2 (0 : Fin 1) q) = bnb (ix1 q))
  (b1 : S64.BroadcastsInDim S1x64 ![1]) (b2 : S1x64.BroadcastsInDim S50000x64 ![0, 1])

include hWn hb in
/-- What point `t` writes back to the second output is block `t` of the statistics array of `h · W + b + a`. -/
theorem flushed_eq_stats (t : Fin cfg2.N) :
    (dat2 V c).flushed 5 t
      = ((cfg2.win 5).blk t).view.read (Elt Ideal) (statsRef (rawRef (V c main_v6) Wn bnb (V c main_v31) b1 b2)) := by
  show (cfg2.win 5).cut (grid2.coords t) ((dat2 V c).after 5 t) = _
  rw [after2_5]
  unfold outsAt2
  dsimp only
  rw [out5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (iblk2 V c 0 t) (iblk2 V c 1 t) (iblk2 V c 2 t) (iblk2 V c 3 t)]
  obtain ⟨-, -, -, -, -, -, -, -, -, -, e0, e1, e2⟩ := idx_facts t
  funext j
  obtain ⟨a, r, q, rfl⟩ : ∃ (a : Fin 1) (r : Fin 8) (q : Fin 64), j = ix3 a r q := ⟨j 0, j 1, j 2, eq_ix3 j⟩
  have hN : cfg2.N = 10 := N_2
  have ht : t.val < 10 := by have := t.isLt; omega
  have hemb : ((cfg2.win 5).blk t).view.emb (ix3 a r q) = ix3 (⟨t.val, ht⟩ : Fin 10) r q := by
    funext b; apply Fin.ext
    match b with
    | ⟨0, _⟩ => show win2_5.index t (0 : Fin 3) * 1 + 1 * a.val = t.val; have := a.isLt; omega
    | ⟨1, _⟩ => show win2_5.index t (1 : Fin 3) * 8 + 1 * r.val = r.val; omega
    | ⟨2, _⟩ => show win2_5.index t (2 : Fin 3) * 64 + 1 * q.val = q.val; omega
  show View.canon (statsPieces (F := Ideal) (iblk2 V c 0 t) (iblk2 V c 1 t) (iblk2 V c 2 t) (iblk2 V c 3 t)) (ix3 a r q)
    = statsRef (rawRef (V c main_v6) Wn bnb (V c main_v31) b1 b2) (((cfg2.win 5).blk t).view.emb (ix3 a r q))
  rw [hemb]
  refine (statsPieces_apply (iblk2 V c 0 t) (iblk2 V c 1 t) (iblk2 V c 2 t) (iblk2 V c 3 t) a r q).trans ?_
  exact blockStats_eq_tileStat ⟨t.val, ht⟩ (pay_rows_at V c Wn hWn bnb hb b1 b2 t) r q

/-- An index of the second output is in point `t`'s block iff each coordinate is in the block's range on its axis. -/
theorem mem_blk5 (t : Fin cfg2.N) (i : S10x8x64.Idx) :
    i ∈ ((cfg2.win 5).blk t).view.set ↔ ∀ a : Fin 3, win2_5.index t a * S1x8x64.size a ≤ (i a).val ∧ (i a).val < win2_5.index t a * S1x8x64.size a + S1x8x64.size a := by
  show i ∈ ((View.whole main_v41_1).slice (win2_5.rect t)).set ↔ _
  rw [View.set_slice_whole, Rect.mem_set_unit]
  exact Iff.rfl

/-- The ten blocks cover the second output: index `(t, r, q)` lies in the block of point `t`. -/
theorem cover5 (i : S10x8x64.Idx) :
    ∃ t : Fin cfg2.N, (cfg2.win 5).flush t = true ∧ i ∈ ((cfg2.win 5).blk t).view.set := by
  have hi0 : (i 0).val < 10 := (i 0).isLt
  have hi1 : (i 1).val < 8 := (i 1).isLt
  have hi2 : (i 2).val < 64 := (i 2).isLt
  have hN : cfg2.N = 10 := N_2
  obtain ⟨t, ht⟩ : ∃ t : Fin cfg2.N, t.val = (i 0).val := ⟨⟨(i 0).val, by rw [hN]; exact hi0⟩, rfl⟩
  obtain ⟨-, -, -, -, -, -, -, -, -, -, e0, e1, e2⟩ := idx_facts t
  refine ⟨t, flush2_5 t, ?_⟩
  rw [mem_blk5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 8 ≤ (i 1).val ∧ (i 1).val < win2_5.index t (1 : Fin 3) * 8 + 8; omega
  | ⟨2, _⟩ => show win2_5.index t (2 : Fin 3) * 64 ≤ (i 2).val ∧ (i 2).val < win2_5.index t (2 : Fin 3) * 64 + 64; omega

include hWn hb in
/-- THE SECOND OUTPUT after the region is the statistics array of `h · W + b + a` of the arrays the region finds. -/
theorem arr_eq_statsRef :
    (dat2 V c).arrAt 5 cfg2.N = statsRef (rawRef (V c main_v6) Wn bnb (V c main_v31) b1 b2) :=
  (dat2 V c).arrAt_eq_of_cover 5 _ (fun t _ => flushed_eq_stats V c Wn hWn bnb hb b1 b2 t) cover5

include hWn hb in
/-- Read at rows 0 and 1 of block `t`: the sums over tile `t` of column `q` of `h · W + b + a` and of its squares. -/
theorem arr_eq_stats (t : Fin 10) (q : Fin 64) :
    ((dat2 V c).arrAt 5 cfg2.N : S10x8x64.Idx → EReal) (ix3 t 0 q)
        = ∑ y : Fin 5000, rawRef (V c main_v6) Wn bnb (V c main_v31) b1 b2 (ix2 ⟨t.val * 5000 + y.val, tile_row_lt t y⟩ q)
    ∧ ((dat2 V c).arrAt 5 cfg2.N : S10x8x64.Idx → EReal) (ix3 t 1 q)
        = ∑ y : Fin 5000, rawRef (V c main_v6) Wn bnb (V c main_v31) b1 b2 (ix2 ⟨t.val * 5000 + y.val, tile_row_lt t y⟩ q)
            * rawRef (V c main_v6) Wn bnb (V c main_v31) b1 b2 (ix2 ⟨t.val * 5000 + y.val, tile_row_lt t y⟩ q) := by
  rw [arr_eq_statsRef V c Wn hWn bnb hb b1 b2]
  exact ⟨tileStat_zero _ t q, tileStat_one _ t q⟩

end Stats

end Cert.KernelIdeal.Region2

end
-- ==== Proof.Region3.lean ====
/-
  The batch normalisation and rectifier of the first layer.  Each grid point `t` (of ten) holds rows
  `5000 t … 5000 t + 4999` of the raw node features (50000 × 64) together with the per-column mean, variance, scale
  and shift as four rows (1 × 64 each), and writes rows `5000 t …` of

      max (((raw − mean) · (var + ε)^(−1/2)) · scale + shift) 0.

  Every row is treated by itself and the ten row blocks tile the 50000 rows, so after the ten points the result array
  is the host-style term `bnReluRef` of the whole arrays.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `raw` and the four rows hold the four
    vectors, the body's result holds the same rows of `bnReluRef`. -/
theorem pay_rows (o : Nat) (raw : FVec Ideal S50000x64 .f32) (mean var gamma beta : FVec Ideal S64 .f32)
    (x0 : FVec Ideal S5000x64 .f32) (xm xv xg xb : FVec Ideal S1x64 .f32)
    (h0 : RowsOf 50000 5000 64 o raw x0)
    (hm : ∀ q : Fin 64, xm (ix2 (0 : Fin 1) q) = mean (ix1 q)) (hv : ∀ q : Fin 64, xv (ix2 (0 : Fin 1) q) = var (ix1 q))
    (hg : ∀ q : Fin 64, xg (ix2 (0 : Fin 1) q) = gamma (ix1 q)) (hb : ∀ q : Fin 64, xb (ix2 (0 : Fin 1) q) = beta (ix1 q))
    (hE : S_.BroadcastsInDim S64 ![]) (h1 : S64.BroadcastsInDim S1x64 ![1])
    (h2 : S1x64.BroadcastsInDim S50000x64 ![0, 1]) (hZ : S_.BroadcastsInDim S50000x64 ![]) :
    RowsOf 50000 5000 64 o (bnReluRef 50000 64 raw mean var gamma beta 0x3727C5AC#32 hE h1 h2 hZ)
      (k3_pay1 (F := Ideal) x0 xv xm xg xb) := by
  unfold k3_pay1
  exact RowsOf.bnRelu h0 mean var gamma beta xm xv xg xb hm hv hg hb 0x3727C5AC#32 hE h1 h2 hZ
    shapeCasts_S5000x64_S5000x64 shapeCasts_S1x64_S1x64 broadcasts_S1x64_S5000x64

/-- The grid's index maps: point `t` holds row block `t` of the raw features and of the result, and the four rows whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point `t`'s block of the raw features holds rows `5000 t …` of the array. -/
theorem raw_rows (c : Dev nD) (t : Fin cfg3.N) :
    RowsOf 50000 5000 64 (t.val * 5000) (V c main_v41_0 : S50000x64.Idx → EReal) (iblk3 V c 0 t) := by
  intro y k h
  obtain ⟨e0, e1, -⟩ := idx_facts t
  show V c main_v41_0 (((cfg3.win 0).blk t).view.emb (ix2 y k)) = V c main_v41_0 (ix2 ⟨t.val * 5000 + y.val, h⟩ k)
  refine congrArg (V c main_v41_0) ?_
  funext a; apply Fin.ext
  match a with
  | ⟨0, _⟩ => show win3_0.index t (0 : Fin 2) * 5000 + 1 * y.val = t.val * 5000 + y.val; omega
  | ⟨1, _⟩ => show win3_0.index t (1 : Fin 2) * 64 + 1 * k.val = k.val; omega

/-- Each one-row window's block is its whole array, at every point. -/
theorem mean_row (c : Dev nD) (t : Fin cfg3.N) (q : Fin 64) :
    iblk3 V c 1 t (ix2 (0 : Fin 1) q) = V c main_v54 (ix2 (0 : Fin 1) q) := by
  obtain ⟨-, -, e0, e1, -⟩ := idx_facts t
  show V c main_v54 (((cfg3.win 1).blk t).view.emb (ix2 (0 : Fin 1) q)) = _
  refine congrArg (V c main_v54) ?_
  funext a; apply Fin.ext
  match a with
  | ⟨0, _⟩ => show win3_1.index t (0 : Fin 2) * 1 + 1 * 0 = 0; omega
  | ⟨1, _⟩ => show win3_1.index t (1 : Fin 2) * 64 + 1 * q.val = q.val; omega

theorem var_row (c : Dev nD) (t : Fin cfg3.N) (q : Fin 64) :
    iblk3 V c 2 t (ix2 (0 : Fin 1) q) = V c main_v55 (ix2 (0 : Fin 1) q) := by
  obtain ⟨-, -, -, -, e0, e1, -⟩ := idx_facts t
  show V c main_v55 (((cfg3.win 2).blk t).view.emb (ix2 (0 : Fin 1) q)) = _
  refine congrArg (V c main_v55) ?_
  funext a; apply Fin.ext
  match a with
  | ⟨0, _⟩ => show win3_2.index t (0 : Fin 2) * 1 + 1 * 0 = 0; omega
  | ⟨1, _⟩ => show win3_2.index t (1 : Fin 2) * 64 + 1 * q.val = q.val; omega

theorem scale_row (c : Dev nD) (t : Fin cfg3.N) (q : Fin 64) :
    iblk3 V c 3 t (ix2 (0 : Fin 1) q) = V c main_v56 (ix2 (0 : Fin 1) q) := by
  obtain ⟨-, -, -, -, -, -, e0, e1, -⟩ := idx_facts t
  show V c main_v56 (((cfg3.win 3).blk t).view.emb (ix2 (0 : Fin 1) q)) = _
  refine congrArg (V c main_v56) ?_
  funext a; apply Fin.ext
  match a with
  | ⟨0, _⟩ => show win3_3.index t (0 : Fin 2) * 1 + 1 * 0 = 0; omega
  | ⟨1, _⟩ => show win3_3.index t (1 : Fin 2) * 64 + 1 * q.val = q.val; omega

theorem shift_row (c : Dev nD) (t : Fin cfg3.N) (q : Fin 64) :
    iblk3 V c 4 t (ix2 (0 : Fin 1) q) = V c main_v57 (ix2 (0 : Fin 1) q) := by
  obtain ⟨-, -, -, -, -, -, -, -, e0, e1, -⟩ := idx_facts t
  show V c main_v57 (((cfg3.win 4).blk t).view.emb (ix2 (0 : Fin 1) q)) = _
  refine congrArg (V c main_v57) ?_
  funext a; apply Fin.ext
  match a with
  | ⟨0, _⟩ => show win3_4.index t (0 : Fin 2) * 1 + 1 * 0 = 0; omega
  | ⟨1, _⟩ => show win3_4.index t (1 : Fin 2) * 64 + 1 * q.val = q.val; omega

section Result

variable (c : Dev nD) (mean var gamma beta : FVec Ideal S64 .f32)
  (hmean : ∀ q : Fin 64, V c main_v54 (ix2 (0 : Fin 1) q) = mean (ix1 q))
  (hvar : ∀ q : Fin 64, V c main_v55 (ix2 (0 : Fin 1) q) = var (ix1 q))
  (hgamma : ∀ q : Fin 64, V c main_v56 (ix2 (0 : Fin 1) q) = gamma (ix1 q))
  (hbeta : ∀ q : Fin 64, V c main_v57 (ix2 (0 : Fin 1) q) = beta (ix1 q))
  (hE : S_.BroadcastsInDim S64 ![]) (h1 : S64.BroadcastsInDim S1x64 ![1])
  (h2 : S1x64.BroadcastsInDim S50000x64 ![0, 1]) (hZ : S_.BroadcastsInDim S50000x64 ![])

include hmean hvar hgamma hbeta in
/-- What point `t` writes back is block `t` of `bnReluRef` of the arrays the region finds. -/
theorem flushed_eq (t : Fin cfg3.N) :
    (dat3 V c).flushed 5 t = ((cfg3.win 5).blk t).view.read (Elt Ideal)
      (bnReluRef 50000 64 (V c main_v41_0) mean var gamma beta 0x3727C5AC#32 hE h1 h2 hZ) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  obtain ⟨-, -, -, -, -, -, -, -, -, -, e0, e1⟩ := idx_facts t
  funext j
  obtain ⟨y, k, rfl⟩ : ∃ (y : Fin 5000) (k : Fin 64), j = ix2 y k := ⟨j 0, j 1, eq_ix2 j⟩
  have hN : cfg3.N = 10 := N_3
  have hlt : t.val * 5000 + y.val < 50000 := by
    have ht := t.isLt
    have hy := y.isLt
    omega
  show k3_pay1 (F := Ideal) (iblk3 V c 0 t) (iblk3 V c 2 t) (iblk3 V c 1 t) (iblk3 V c 3 t) (iblk3 V c 4 t) (ix2 y k)
    = bnReluRef 50000 64 (V c main_v41_0) mean var gamma beta 0x3727C5AC#32 hE h1 h2 hZ (((cfg3.win 5).blk t).view.emb (ix2 y k))
  refine (pay_rows (t.val * 5000) (V c main_v41_0) mean var gamma beta
    (iblk3 V c 0 t) (iblk3 V c 1 t) (iblk3 V c 2 t) (iblk3 V c 3 t) (iblk3 V c 4 t)
    (raw_rows V c t)
    (fun q => (mean_row V c t q).trans (hmean q)) (fun q => (var_row V c t q).trans (hvar q))
    (fun q => (scale_row V c t q).trans (hgamma q)) (fun q => (shift_row V c t q).trans (hbeta q))
    hE h1 h2 hZ y k hlt).trans ?_
  refine congrArg (bnReluRef 50000 64 (V c main_v41_0) mean var gamma beta 0x3727C5AC#32 hE h1 h2 hZ) ?_
  funext a; apply Fin.ext
  match a with
  | ⟨0, _⟩ => show t.val * 5000 + y.val = win3_5.index t (0 : Fin 2) * 5000 + 1 * y.val; omega
  | ⟨1, _⟩ => show k.val = win3_5.index t (1 : Fin 2) * 64 + 1 * k.val; omega

/-- An index of the result array is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v58).slice (win3_5.rect t)).set ↔ _
  rw [View.set_slice_whole, Rect.mem_set_unit]
  exact Iff.rfl

/-- The row blocks cover the array: row `r` lies in the block of point `r / 5000`. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

include hmean hvar hgamma hbeta in
/-- THE RESULT ARRAY after the region is `bnReluRef` of the raw features the region finds and the four vectors. -/
theorem arr_eq :
    (dat3 V c).arrAt 5 cfg3.N = bnReluRef 50000 64 (V c main_v41_0) mean var gamma beta 0x3727C5AC#32 hE h1 h2 hZ :=
  (dat3 V c).arrAt_eq_of_cover 5 _
    (fun t _ => flushed_eq V c mean var gamma beta hmean hvar hgamma hbeta hE h1 h2 hZ t) cover

end Result

end Cert.KernelIdeal.Region3

end
-- ==== Proof.GlueN0.lean ====
/-
  Layer 0's node half in the kernel program.  From the layer's messages in the edge kernel's result buffer: the
  host operations before the node kernel sum the messages of every node's incoming edges (a scatter-add into zeros) and
  slice the layer's node parameters; the node kernel leaves the layer's sum before normalisation, and the tile sums of
  its entries and of their squares; the host operations after it turn the tile sums into the column mean and
  variance; the normalisation kernel then leaves the layer's output.  Each buffer is read back as the reference's own
  term of the node features the layer starts from and the launch arrays.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.RefReal
import proofs.«108144_j81140522156740_2_alg».proof.Proof.SpecBridge
import proofs.«108144_j81140522156740_2_alg».proof.Proof.StatsBridge
import proofs.«108144_j81140522156740_2_alg».proof.Proof.GlueKeep
import proofs.«108144_j81140522156740_2_alg».proof.Proof.GlueArgs
import proofs.«108144_j81140522156740_2_alg».proof.Proof.GlueL0
import proofs.«108144_j81140522156740_2_alg».proof.Proof.Region2
import proofs.«108144_j81140522156740_2_alg».proof.Proof.Region3
import proofs.«108144_j81140522156740_2_alg».proof.Proof.LibLayerRows
import proofs.«108144_j81140522156740_2_alg».proof.Proof.LibBnRows
import Idealize.ShloMosaic.Lib.StableHlo.Run
import Idealize.ShloMosaic.PureOps.Ideal.Laws

set_option maxRecDepth 16384

noncomputable section

open scoped BigOperators

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

section N0

/-! ## Layer 0: from the node features `H` and the messages `MSG` to the layer's output -/

variable (H : FVec Ideal S50000x64 .f32) (hH : (W2 m ρ c (Proc.devRef .tc main_v6) : S50000x64.Idx → EReal) = H)
variable (MSG : FVec Ideal S800000x64 .f32) (hmsg : (W4 m ρ c (Proc.devRef .tc main_v27) : S800000x64.Idx → EReal) = MSG)

/-! ### After the host operations before the node kernel -/

include hmsg in
/-- The sum of the messages of every node's incoming edges. -/
theorem N0_v31 : (W5 m ρ c (Proc.devRef .tc main_v31) : S50000x64.Idx → EReal)
    = Cert.ReferenceIdeal.RefRun.aggr MSG (Cert.ReferenceIdeal.RefRun.dstCol (m ((c : Thread nD τ).loc main_arg1))) := by
  show StableHlo.after hostOps2 (W4 m ρ c) (Proc.devRef .tc main_v31) = _
  after_results
  rw [hmsg, at_main_v3_4 m ρ c]
  exact Cert.SpecBridge.scatterAdd_eq _ _ _ _

/-- The layer's node weights. -/
theorem N0_v33 : (W5 m ρ c (Proc.devRef .tc main_v33) : S64x64.Idx → EReal)
    = Cert.ReferenceIdeal.RefRun.sliceWn 0 (m ((c : Thread nD τ).loc main_arg8)) := by
  show StableHlo.after hostOps2 (W4 m ρ c) (Proc.devRef .tc main_v33) = _
  after_results
  rw [at_main_arg8_4 m ρ c]
  rfl

/-- The layer's node bias, as one row. -/
theorem N0_v40 : (W5 m ρ c (Proc.devRef .tc main_v40) : S1x64.Idx → EReal)
    = shapeCast S1x64 (Cert.ReferenceIdeal.RefRun.sliceRow 0 (m ((c : Thread nD τ).loc main_arg9))) shapeCasts_S64_S1x64 := by
  show StableHlo.after hostOps2 (W4 m ρ c) (Proc.devRef .tc main_v40) = _
  after_results
  rw [at_main_arg9_4 m ρ c]
  rfl

/-- The layer's normalisation scale. -/
theorem N0_v37 : (W5 m ρ c (Proc.devRef .tc main_v37) : S64.Idx → EReal)
    = Cert.ReferenceIdeal.RefRun.sliceRow 0 (m ((c : Thread nD τ).loc main_arg14)) := by
  show StableHlo.after hostOps2 (W4 m ρ c) (Proc.devRef .tc main_v37) = _
  after_results
  rw [at_main_arg14_4 m ρ c]
  rfl

/-- The layer's normalisation shift. -/
theorem N0_v39 : (W5 m ρ c (Proc.devRef .tc main_v39) : S64.Idx → EReal)
    = Cert.ReferenceIdeal.RefRun.sliceRow 0 (m ((c : Thread nD τ).loc main_arg15)) := by
  show StableHlo.after hostOps2 (W4 m ρ c) (Proc.devRef .tc main_v39) = _
  after_results
  rw [at_main_arg15_4 m ρ c]
  rfl

include hH in
/-- The node features the layer starts from are still in their buffer. -/
theorem N0_v6 : (W5 m ρ c (Proc.devRef .tc main_v6) : S50000x64.Idx → EReal) = H :=
  (keep_main_v6_2_5 m ρ c).trans hH

/-! ### The node kernel -/

/-- The node kernel's weight operand holds the layer's node weights, entry by entry. -/
theorem N0_Wn_entries (i : S64x64.Idx) : V5 m ρ c main_v33 i = (Cert.ReferenceIdeal.RefRun.sliceWn 0 (m ((c : Thread nD τ).loc main_arg8))) i := by
  show (W5 m ρ c (Proc.devRef .tc main_v33) : S64x64.Idx → EReal) i = _
  rw [N0_v33 m ρ c]

/-- The node kernel's bias operand holds the layer's node bias along its one row. -/
theorem N0_bnb_row (q : Fin 64) : V5 m ρ c main_v40 (ix2 (0 : Fin 1) q) = (Cert.ReferenceIdeal.RefRun.sliceRow 0 (m ((c : Thread nD τ).loc main_arg9))) (ix1 q) := by
  show (W5 m ρ c (Proc.devRef .tc main_v40) : S1x64.Idx → EReal) (ix2 (0 : Fin 1) q) = _
  rw [N0_v40 m ρ c]
  exact Cert.Lib.RowBlocks.cast_row_apply _ _ q

include hH hmsg in
/-- What the node kernel's sum is of, read back: the node features and the summed messages. -/
theorem N0_rawRef : Cert.KernelIdeal.Region2.rawRef (V5 m ρ c main_v6) (Cert.ReferenceIdeal.RefRun.sliceWn 0 (m ((c : Thread nD τ).loc main_arg8))) (Cert.ReferenceIdeal.RefRun.sliceRow 0 (m ((c : Thread nD τ).loc main_arg9))) (V5 m ρ c main_v31)
      Cert.ReferenceIdeal.Facts₀.bcast_S64_S1x64_1 Cert.ReferenceIdeal.Facts₀.bcast_S1x64_S50000x64_0_1
    = Cert.ReferenceIdeal.RefRun.raw H (Cert.ReferenceIdeal.RefRun.sliceWn 0 (m ((c : Thread nD τ).loc main_arg8))) (Cert.ReferenceIdeal.RefRun.sliceRow 0 (m ((c : Thread nD τ).loc main_arg9))) (Cert.ReferenceIdeal.RefRun.aggr MSG (Cert.ReferenceIdeal.RefRun.dstCol (m ((c : Thread nD τ).loc main_arg1)))) := by
  show Cert.KernelIdeal.Region2.rawRef (W5 m ρ c (Proc.devRef .tc main_v6)) _ _ (W5 m ρ c (Proc.devRef .tc main_v31)) _ _ = _
  rw [N0_v6 m ρ c H hH, N0_v31 m ρ c MSG hmsg]
  rfl

include hH hmsg in
/-- The node kernel's first result buffer holds the layer's sum before normalisation. -/
theorem N0_raw : (W6 m ρ c (Proc.devRef .tc main_v41_0) : S50000x64.Idx → EReal) = Cert.ReferenceIdeal.RefRun.raw H (Cert.ReferenceIdeal.RefRun.sliceWn 0 (m ((c : Thread nD τ).loc main_arg8))) (Cert.ReferenceIdeal.RefRun.sliceRow 0 (m ((c : Thread nD τ).loc main_arg9))) (Cert.ReferenceIdeal.RefRun.aggr MSG (Cert.ReferenceIdeal.RefRun.dstCol (m ((c : Thread nD τ).loc main_arg1)))) :=
  ((W6_arr m ρ c 4).trans (Cert.KernelIdeal.Region2.arr_eq_raw (V5 m ρ) c (Cert.ReferenceIdeal.RefRun.sliceWn 0 (m ((c : Thread nD τ).loc main_arg8))) (N0_Wn_entries m ρ c) (Cert.ReferenceIdeal.RefRun.sliceRow 0 (m ((c : Thread nD τ).loc main_arg9))) (N0_bnb_row m ρ c)
    Cert.ReferenceIdeal.Facts₀.bcast_S64_S1x64_1 Cert.ReferenceIdeal.Facts₀.bcast_S1x64_S50000x64_0_1)).trans
    (N0_rawRef m ρ c H hH MSG hmsg)

include hH hmsg in
/-- The node kernel's second result buffer holds, at rows 0 and 1 of tile `t`, the tile's column sums of the layer's sum
    and of its squares. -/
theorem N0_stats (t : Fin 10) (q : Fin 64) :
    (W6 m ρ c (Proc.devRef .tc main_v41_1) : S10x8x64.Idx → EReal) (ix3 t 0 q)
        = ∑ y : Fin 5000, (Cert.ReferenceIdeal.RefRun.raw H (Cert.ReferenceIdeal.RefRun.sliceWn 0 (m ((c : Thread nD τ).loc main_arg8))) (Cert.ReferenceIdeal.RefRun.sliceRow 0 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
    ∧ (W6 m ρ c (Proc.devRef .tc main_v41_1) : S10x8x64.Idx → EReal) (ix3 t 1 q)
        = ∑ y : Fin 5000, (Cert.ReferenceIdeal.RefRun.raw H (Cert.ReferenceIdeal.RefRun.sliceWn 0 (m ((c : Thread nD τ).loc main_arg8))) (Cert.ReferenceIdeal.RefRun.sliceRow 0 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
            * (Cert.ReferenceIdeal.RefRun.raw H (Cert.ReferenceIdeal.RefRun.sliceWn 0 (m ((c : Thread nD τ).loc main_arg8))) (Cert.ReferenceIdeal.RefRun.sliceRow 0 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q) := by
  have e : (W6 m ρ c (Proc.devRef .tc main_v41_1) : S10x8x64.Idx → EReal)
      = ((dat2 (V5 m ρ) c).arrAt 5 cfg2.N : S10x8x64.Idx → EReal) := W6_arr m ρ c 5
  have h := Cert.KernelIdeal.Region2.arr_eq_stats (V5 m ρ) c (Cert.ReferenceIdeal.RefRun.sliceWn 0 (m ((c : Thread nD τ).loc main_arg8))) (N0_Wn_entries m ρ c) (Cert.ReferenceIdeal.RefRun.sliceRow 0 (m ((c : Thread nD τ).loc main_arg9))) (N0_bnb_row m ρ c)
    Cert.ReferenceIdeal.Facts₀.bcast_S64_S1x64_1 Cert.ReferenceIdeal.Facts₀.bcast_S1x64_S50000x64_0_1 t q
  rw [N0_rawRef m ρ c H hH MSG hmsg] at h
  rw [e]
  exact h

/-! ### After the node kernel: the column statistics, and the normalisation kernel

The node kernel's first result `RAW` and the tile sums it leaves beside it enter here as hypotheses. -/

section Norm

variable (RAW : FVec Ideal S50000x64 .f32)
  (hraw : (W6 m ρ c (Proc.devRef .tc main_v41_0) : S50000x64.Idx → EReal) = RAW)
  (hs0 : ∀ (t : Fin 10) (q : Fin 64), (W6 m ρ c (Proc.devRef .tc main_v41_1) : S10x8x64.Idx → EReal) (ix3 t 0 q)
    = ∑ y : Fin 5000, RAW (ix2 ⟨t.val * 5000 + y.val, Cert.StatsBridge.row_lt t y⟩ q))
  (hs1 : ∀ (t : Fin 10) (q : Fin 64), (W6 m ρ c (Proc.devRef .tc main_v41_1) : S10x8x64.Idx → EReal) (ix3 t 1 q)
    = ∑ y : Fin 5000, RAW (ix2 ⟨t.val * 5000 + y.val, Cert.StatsBridge.row_lt t y⟩ q)
        * RAW (ix2 ⟨t.val * 5000 + y.val, Cert.StatsBridge.row_lt t y⟩ q))
  (hreal : Cert.Lib.RealEntries.AllReal RAW)

include hs0 in
/-- The column means, as one row. -/
theorem N0_v54 : (W7 m ρ c (Proc.devRef .tc main_v54) : S1x64.Idx → EReal)
    = shapeCast S1x64 (Cert.ReferenceIdeal.RefRun.colMean RAW) shapeCasts_S64_S1x64 := by
  show StableHlo.after hostOps3 (W6 m ρ c) (Proc.devRef .tc main_v54) = _
  after_results
  exact congrArg (fun v : S64.Idx → EReal => shapeCast S1x64 v shapeCasts_S64_S1x64)
    (Cert.StatsBridge.mean_eq (W6 m ρ c (Proc.devRef .tc main_v41_1)) RAW hs0)

include hs0 hs1 hreal in
/-- The column variances, as one row. -/
theorem N0_v55 : (W7 m ρ c (Proc.devRef .tc main_v55) : S1x64.Idx → EReal)
    = shapeCast S1x64 (Cert.ReferenceIdeal.RefRun.colVar RAW) shapeCasts_S64_S1x64 := by
  show StableHlo.after hostOps3 (W6 m ρ c) (Proc.devRef .tc main_v55) = _
  after_results_simp
  exact congrArg (fun v : S64.Idx → EReal => shapeCast S1x64 v shapeCasts_S64_S1x64)
    (Cert.StatsBridge.var_eq (W6 m ρ c (Proc.devRef .tc main_v41_1)) RAW hs0 hs1 hreal)

/-- The normalisation scale, as one row. -/
theorem N0_v56 : (W7 m ρ c (Proc.devRef .tc main_v56) : S1x64.Idx → EReal)
    = shapeCast S1x64 (Cert.ReferenceIdeal.RefRun.sliceRow 0 (m ((c : Thread nD τ).loc main_arg14))) shapeCasts_S64_S1x64 := by
  show StableHlo.after hostOps3 (W6 m ρ c) (Proc.devRef .tc main_v56) = _
  after_results
  rw [keep_main_v37_5_6 m ρ c, N0_v37 m ρ c]
  rfl

/-- The normalisation shift, as one row. -/
theorem N0_v57 : (W7 m ρ c (Proc.devRef .tc main_v57) : S1x64.Idx → EReal)
    = shapeCast S1x64 (Cert.ReferenceIdeal.RefRun.sliceRow 0 (m ((c : Thread nD τ).loc main_arg15))) shapeCasts_S64_S1x64 := by
  show StableHlo.after hostOps3 (W6 m ρ c) (Proc.devRef .tc main_v57) = _
  after_results
  rw [keep_main_v39_5_6 m ρ c, N0_v39 m ρ c]
  rfl

include hraw in
/-- The node kernel's first result is still in its buffer. -/
theorem N0_raw7 : (W7 m ρ c (Proc.devRef .tc main_v41_0) : S50000x64.Idx → EReal) = RAW :=
  (keep_main_v41_0_6_7 m ρ c).trans hraw

include hraw hs0 hs1 hreal in
/-- The normalisation kernel's result buffer holds the reference's normalised and rectified `RAW`. -/
theorem N0_norm : (W8 m ρ c (Proc.devRef .tc main_v58) : S50000x64.Idx → EReal)
    = Cert.ReferenceIdeal.RefRun.bnRelu RAW (Cert.ReferenceIdeal.RefRun.colMean RAW) (Cert.ReferenceIdeal.RefRun.colVar RAW)
        (Cert.ReferenceIdeal.RefRun.sliceRow 0 (m ((c : Thread nD τ).loc main_arg14))) (Cert.ReferenceIdeal.RefRun.sliceRow 0 (m ((c : Thread nD τ).loc main_arg15))) := by
  refine (W8_arr m ρ c 5).trans ?_
  refine (Cert.KernelIdeal.Region3.arr_eq (V7 m ρ) c (Cert.ReferenceIdeal.RefRun.colMean RAW) (Cert.ReferenceIdeal.RefRun.colVar RAW)
    (Cert.ReferenceIdeal.RefRun.sliceRow 0 (m ((c : Thread nD τ).loc main_arg14))) (Cert.ReferenceIdeal.RefRun.sliceRow 0 (m ((c : Thread nD τ).loc main_arg15)))
    (fun q => ?hmean) (fun q => ?hvar) (fun q => ?hgamma) (fun q => ?hbeta)
    Cert.ReferenceIdeal.Facts₀.bcast_S_S64 Cert.ReferenceIdeal.Facts₀.bcast_S64_S1x64_1
    Cert.ReferenceIdeal.Facts₀.bcast_S1x64_S50000x64_0_1 Cert.ReferenceIdeal.Facts₀.bcast_S_S50000x64).trans ?_
  case hmean =>
    show (W7 m ρ c (Proc.devRef .tc main_v54) : S1x64.Idx → EReal) (ix2 (0 : Fin 1) q) = _
    rw [N0_v54 m ρ c RAW hs0]
    exact Cert.Lib.RowBlocks.cast_row_apply _ _ q
  case hvar =>
    show (W7 m ρ c (Proc.devRef .tc main_v55) : S1x64.Idx → EReal) (ix2 (0 : Fin 1) q) = _
    rw [N0_v55 m ρ c RAW hs0 hs1 hreal]
    exact Cert.Lib.RowBlocks.cast_row_apply _ _ q
  case hgamma =>
    show (W7 m ρ c (Proc.devRef .tc main_v56) : S1x64.Idx → EReal) (ix2 (0 : Fin 1) q) = _
    rw [N0_v56 m ρ c]
    exact Cert.Lib.RowBlocks.cast_row_apply _ _ q
  case hbeta =>
    show (W7 m ρ c (Proc.devRef .tc main_v57) : S1x64.Idx → EReal) (ix2 (0 : Fin 1) q) = _
    rw [N0_v57 m ρ c]
    exact Cert.Lib.RowBlocks.cast_row_apply _ _ q
  show Cert.Lib.RowBlocks.bnReluRef 50000 64 (W7 m ρ c (Proc.devRef .tc main_v41_0)) _ _ _ _ _ _ _ _ _ = _
  rw [N0_raw7 m ρ c RAW hraw]
  exact Cert.SpecBridge.bnReluRef_eq _ _ _ _ _ _ _ _ _

end Norm

end N0

/-! ## Layer 0, assembled -/

/-- Layer 0 of the kernel program: from the node features `H` in the layer's input buffer to the reference's layer
    0 of `H` in the normalisation kernel's result buffer, for real node features and real launch arrays. -/
theorem N0_out (H : FVec Ideal S50000x64 .f32) (hH : (W2 m ρ c (Proc.devRef .tc main_v6) : S50000x64.Idx → EReal) = H)
    (hHr : Cert.Lib.RealEntries.AllReal H) (hEA : Cert.Lib.RealEntries.AllReal (Cert.ReferenceIdeal.RefRun.edgeEmbed (m ((c : Thread nD τ).loc main_arg2)) (m ((c : Thread nD τ).loc main_arg6)) (m ((c : Thread nD τ).loc main_arg7))))
    (r8 : Cert.Lib.RealEntries.AllReal ((m ((c : Thread nD τ).loc main_arg8)) : S3x64x64.Idx → EReal)) (r9 : Cert.Lib.RealEntries.AllReal ((m ((c : Thread nD τ).loc main_arg9)) : S3x64.Idx → EReal))
    (r10 : Cert.Lib.RealEntries.AllReal ((m ((c : Thread nD τ).loc main_arg10)) : S3x32x64.Idx → EReal)) (r11 : Cert.Lib.RealEntries.AllReal ((m ((c : Thread nD τ).loc main_arg11)) : S3x64.Idx → EReal))
    (r12 : Cert.Lib.RealEntries.AllReal ((m ((c : Thread nD τ).loc main_arg12)) : S3x128x64.Idx → EReal)) (r13 : Cert.Lib.RealEntries.AllReal ((m ((c : Thread nD τ).loc main_arg13)) : S3x64.Idx → EReal))
    (r14 : Cert.Lib.RealEntries.AllReal ((m ((c : Thread nD τ).loc main_arg14)) : S3x64.Idx → EReal)) (r15 : Cert.Lib.RealEntries.AllReal ((m ((c : Thread nD τ).loc main_arg15)) : S3x64.Idx → EReal)) :
    (W8 m ρ c (Proc.devRef .tc main_v58) : S50000x64.Idx → EReal)
      = Cert.ReferenceIdeal.RefRun.layerAt 0 H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hmsg := L0_v27 m ρ c H hH
  have hreal : Cert.Lib.RealEntries.AllReal (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 0 (m ((c : Thread nD τ).loc main_arg10))) (Cert.ReferenceIdeal.RefRun.sliceRow 0 (m ((c : Thread nD τ).loc main_arg11)))
      (Cert.ReferenceIdeal.RefRun.sliceWg 0 (m ((c : Thread nD τ).loc main_arg12))) (Cert.ReferenceIdeal.RefRun.sliceRow 0 (m ((c : Thread nD τ).loc main_arg13)))
      (Cert.ReferenceIdeal.RefRun.sliceWn 0 (m ((c : Thread nD τ).loc main_arg8))) (Cert.ReferenceIdeal.RefRun.sliceRow 0 (m ((c : Thread nD τ).loc main_arg9)))) :=
    Cert.ReferenceIdeal.RefReal.layerRaw_real _ _ hHr hEA (Cert.ReferenceIdeal.RefReal.sliceWe_real 0 r10) (Cert.ReferenceIdeal.RefReal.sliceRow_real 0 r11)
      (Cert.ReferenceIdeal.RefReal.sliceWg_real 0 r12) (Cert.ReferenceIdeal.RefReal.sliceRow_real 0 r13) (Cert.ReferenceIdeal.RefReal.sliceWn_real 0 r8) (Cert.ReferenceIdeal.RefReal.sliceRow_real 0 r9)
  exact N0_norm m ρ c (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 0 (m ((c : Thread nD τ).loc main_arg10))) (Cert.ReferenceIdeal.RefRun.sliceRow 0 (m ((c : Thread nD τ).loc main_arg11)))
      (Cert.ReferenceIdeal.RefRun.sliceWg 0 (m ((c : Thread nD τ).loc main_arg12))) (Cert.ReferenceIdeal.RefRun.sliceRow 0 (m ((c : Thread nD τ).loc main_arg13)))
      (Cert.ReferenceIdeal.RefRun.sliceWn 0 (m ((c : Thread nD τ).loc main_arg8))) (Cert.ReferenceIdeal.RefRun.sliceRow 0 (m ((c : Thread nD τ).loc main_arg9))))
    (N0_raw m ρ c H hH _ hmsg)
    (fun t q => (N0_stats m ρ c H hH _ hmsg t q).1) (fun t q => (N0_stats m ρ c H hH _ hmsg t q).2) hreal

end Cert.KernelIdeal.Glue

end
-- ==== Proof.Region4.lean ====
/-
  The edge kernel of the second layer: the gated message along every edge.  Each grid point `t` (of a hundred) holds rows
  `8000 t … 8000 t + 7999` of the edge attributes (800000 × 1) and of the gathered source-node features `xj`
  (800000 × 64), and the whole of the small operands: the attribute embedding's row `Wa` (1 × 32) and bias, the edge
  transform `We` (32 × 64) and bias, the two halves of the gate's matrix `Wg` (its rows 0 … 63 and 64 … 127) and the
  gate's bias, each bias as one row.  It writes rows `8000 t …` of

      msg = σ([xj | (attr · Wa + ba) · We + be] · Wg + bg) · xj,        σ(z) = 1 / (1 + e⁻ᶻ).

  Every step reads an edge's own row only, and the hundred row blocks tile the 800000 rows, so the result array after the
  hundred points is that term of the whole arrays, spelt with the host's operations.
-/
import proofs.«108144_j81140522156740_2_alg».proof.Proof.Gen.KernelIdeal.Frame
import proofs.«108144_j81140522156740_2_alg».proof.Proof.LibEdgeRows
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

/-- The gated messages of all 800000 edges as one function of whole arrays: 32 attribute features, 64 node features,
    the gate's matrix of 64 + 64 = 128 rows. -/
abbrev msgRef := @edgeMsg 800000 32 64 64 128

theorem hz : (![0, 0] : Fin 2 → Nat) = fun _ => 0 := funext fun a => by fin_cases a <;> rfl

/-- The body's arithmetic on a block of 8000 edges is the gated message of those edges: when the two long blocks hold
    rows `o …` of the attributes and of the source features and the small operands are the long side's entry by entry. -/
theorem pay_rows {o : Nat} {attr : FVec Ideal S800000x1 .f32} {xj : FVec Ideal S800000x64 .f32}
    (x0 : FVec Ideal S8000x1 .f32) (x1 : FVec Ideal S8000x64 .bf16) (x2 x3 : FVec Ideal S1x32 .f32) (x4 : FVec Ideal S32x64 .f32)
    (x5 : FVec Ideal S1x64 .f32) (x6 x7 : FVec Ideal S64x64 .f32) (x8 : FVec Ideal S1x64 .f32)
    (h0 : RowsOf 800000 8000 1 o attr x0) (hx : RowsOf 800000 8000 64 o xj x1)
    (Wa : FVec Ideal S1x32 .f32) (hWa : ∀ i, x2 i = Wa i)
    (ba : S32.Idx → EReal) (hba : ∀ q : Fin 32, x3 (ix2 (0 : Fin 1) q) = ba (ix1 q))
    (We : FVec Ideal S32x64 .f32) (hWe : ∀ i, x4 i = We i)
    (be : S64.Idx → EReal) (hbe : ∀ q : Fin 64, x5 (ix2 (0 : Fin 1) q) = be (ix1 q))
    (Wg : FVec Ideal S128x64 .f32)
    (hWgx : ∀ (k q : Fin 64) (hk : k.val < 128), x6 (ix2 k q) = Wg (ix2 ⟨k.val, hk⟩ q))
    (hWge : ∀ (k q : Fin 64) (hk : 64 + k.val < 128), x7 (ix2 k q) = Wg (ix2 ⟨64 + k.val, hk⟩ q))
    (bg : S64.Idx → EReal) (hbg : ∀ q : Fin 64, x8 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    RowsOf 800000 8000 64 o (msgRef attr xj Wa ba We be Wg bg ha1 ha2 he1 he2 hg1 hg2 hcat h1 h1')
      (k4_pay1 (F := Ideal) x0 x2 x3 x4 x5 x1 x6 x7 x8) := by
  unfold k4_pay1
  exact RowsOf.edgeMsg (E := 800000) (M := 8000) (C := 32) (D := 64) (D' := 64) (K := 128) rfl h0 hx Wa x2 hWa ba x3 hba We x4 hWe be x5 hbe
    Wg x6 x7 hWgx hWge bg x8 hbg ha1 ha2 he1 he2 hg1 hg2 hcat h1 h1'
    broadcasts_S8000x1_S8000x32 broadcasts_S1x32_S8000x32 shapeCasts_S1x32_S1x32 shapeCasts_S32x64_S32x64
    shapeCasts_S1x64_S1x64 broadcasts_S1x64_S8000x64 shapeCasts_S8000x64_S8000x64 shapeCasts_S64x64_S64x64 shapeCasts_S64x64_S64x64
    shapeCasts_S1x64_S1x64 broadcasts_S1x64_S8000x64 bitsLt_bf16_f32

/-- The grid's index maps: point `t` holds row block `t` of the attributes, of the source features and of the result,
    and the whole of every small operand. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = t.val
    ∧ win4_9.index t (1 : Fin 2) = 0 :=
  (by decide +kernel : ∀ t : Fin grid4.N, _)

/-- Window 0's block at point `t` holds rows `8000 t … 8000 t + 7999` of its array. -/
theorem rows0 (c : Dev nD) (t : Fin cfg4.N) : RowsOf 800000 8000 1 (8000 * t.val) (V c main_arg2) (iblk4 V c 0 t) := by
  intro y k h
  obtain ⟨e0r, e0c, e1r, e1c, e2r, e2c, e3r, e3c, e4r, e4c, e5r, e5c, e6r, e6c, e7r, e7c, e8r, e8c, e9r, e9c⟩ := idx_facts t
  show V c main_arg2 (((cfg4.win 0).blk t).view.emb (ix2 y k)) = V c main_arg2 (ix2 ⟨8000 * t.val + y.val, h⟩ k)
  refine congrArg (V c main_arg2) (funext fun a => Fin.ext ?_)
  match a with
  | ⟨0, _⟩ => show win4_0.index t (0 : Fin 2) * 8000 + 1 * y.val = 8000 * t.val + y.val; omega
  | ⟨1, _⟩ => show win4_0.index t (1 : Fin 2) * 1 + 1 * k.val = k.val; omega

/-- Window 1's block at point `t` holds rows `8000 t … 8000 t + 7999` of its array. -/
theorem rows1 (c : Dev nD) (t : Fin cfg4.N) : RowsOf 800000 8000 64 (8000 * t.val) (V c main_v74) (iblk4 V c 1 t) := by
  intro y k h
  obtain ⟨e0r, e0c, e1r, e1c, e2r, e2c, e3r, e3c, e4r, e4c, e5r, e5c, e6r, e6c, e7r, e7c, e8r, e8c, e9r, e9c⟩ := idx_facts t
  show V c main_v74 (((cfg4.win 1).blk t).view.emb (ix2 y k)) = V c main_v74 (ix2 ⟨8000 * t.val + y.val, h⟩ k)
  refine congrArg (V c main_v74) (funext fun a => Fin.ext ?_)
  match a with
  | ⟨0, _⟩ => show win4_1.index t (0 : Fin 2) * 8000 + 1 * y.val = 8000 * t.val + y.val; omega
  | ⟨1, _⟩ => show win4_1.index t (1 : Fin 2) * 64 + 1 * k.val = k.val; omega

/-- Window 2 is held whole at every point: its block reads the array as it stands. -/
theorem blk2 (c : Dev nD) (t : Fin cfg4.N) (i : S1x32.Idx) : iblk4 V c 2 t i = V c main_arg6 i := by
  obtain ⟨e0r, e0c, e1r, e1c, e2r, e2c, e3r, e3c, e4r, e4c, e5r, e5c, e6r, e6c, e7r, e7c, e8r, e8c, e9r, e9c⟩ := idx_facts t
  show V c main_arg6 (((cfg4.win 2).blk t).view.emb i) = V c main_arg6 i
  refine congrArg (V c main_arg6) (funext fun a => Fin.ext ?_)
  match a with
  | ⟨0, _⟩ => show win4_2.index t (0 : Fin 2) * 1 + 1 * (i 0).val = (i 0).val; omega
  | ⟨1, _⟩ => show win4_2.index t (1 : Fin 2) * 32 + 1 * (i 1).val = (i 1).val; omega

/-- Window 3 is held whole at every point: its block reads the array as it stands. -/
theorem blk3 (c : Dev nD) (t : Fin cfg4.N) (i : S1x32.Idx) : iblk4 V c 3 t i = V c main_v5 i := by
  obtain ⟨e0r, e0c, e1r, e1c, e2r, e2c, e3r, e3c, e4r, e4c, e5r, e5c, e6r, e6c, e7r, e7c, e8r, e8c, e9r, e9c⟩ := idx_facts t
  show V c main_v5 (((cfg4.win 3).blk t).view.emb i) = V c main_v5 i
  refine congrArg (V c main_v5) (funext fun a => Fin.ext ?_)
  match a with
  | ⟨0, _⟩ => show win4_3.index t (0 : Fin 2) * 1 + 1 * (i 0).val = (i 0).val; omega
  | ⟨1, _⟩ => show win4_3.index t (1 : Fin 2) * 32 + 1 * (i 1).val = (i 1).val; omega

/-- Window 4 is held whole at every point: its block reads the array as it stands. -/
theorem blk4 (c : Dev nD) (t : Fin cfg4.N) (i : S32x64.Idx) : iblk4 V c 4 t i = V c main_v61 i := by
  obtain ⟨e0r, e0c, e1r, e1c, e2r, e2c, e3r, e3c, e4r, e4c, e5r, e5c, e6r, e6c, e7r, e7c, e8r, e8c, e9r, e9c⟩ := idx_facts t
  show V c main_v61 (((cfg4.win 4).blk t).view.emb i) = V c main_v61 i
  refine congrArg (V c main_v61) (funext fun a => Fin.ext ?_)
  match a with
  | ⟨0, _⟩ => show win4_4.index t (0 : Fin 2) * 32 + 1 * (i 0).val = (i 0).val; omega
  | ⟨1, _⟩ => show win4_4.index t (1 : Fin 2) * 64 + 1 * (i 1).val = (i 1).val; omega

/-- Window 5 is held whole at every point: its block reads the array as it stands. -/
theorem blk5 (c : Dev nD) (t : Fin cfg4.N) (i : S1x64.Idx) : iblk4 V c 5 t i = V c main_v75 i := by
  obtain ⟨e0r, e0c, e1r, e1c, e2r, e2c, e3r, e3c, e4r, e4c, e5r, e5c, e6r, e6c, e7r, e7c, e8r, e8c, e9r, e9c⟩ := idx_facts t
  show V c main_v75 (((cfg4.win 5).blk t).view.emb i) = V c main_v75 i
  refine congrArg (V c main_v75) (funext fun a => Fin.ext ?_)
  match a with
  | ⟨0, _⟩ => show win4_5.index t (0 : Fin 2) * 1 + 1 * (i 0).val = (i 0).val; omega
  | ⟨1, _⟩ => show win4_5.index t (1 : Fin 2) * 64 + 1 * (i 1).val = (i 1).val; omega

/-- Window 6 is held whole at every point: its block reads the array as it stands. -/
theorem blk6 (c : Dev nD) (t : Fin cfg4.N) (i : S64x64.Idx) : iblk4 V c 6 t i = V c main_v77 i := by
  obtain ⟨e0r, e0c, e1r, e1c, e2r, e2c, e3r, e3c, e4r, e4c, e5r, e5c, e6r, e6c, e7r, e7c, e8r, e8c, e9r, e9c⟩ := idx_facts t
  show V c main_v77 (((cfg4.win 6).blk t).view.emb i) = V c main_v77 i
  refine congrArg (V c main_v77) (funext fun a => Fin.ext ?_)
  match a with
  | ⟨0, _⟩ => show win4_6.index t (0 : Fin 2) * 64 + 1 * (i 0).val = (i 0).val; omega
  | ⟨1, _⟩ => show win4_6.index t (1 : Fin 2) * 64 + 1 * (i 1).val = (i 1).val; omega

/-- Window 7 is held whole at every point: its block reads the array as it stands. -/
theorem blk7 (c : Dev nD) (t : Fin cfg4.N) (i : S64x64.Idx) : iblk4 V c 7 t i = V c main_v78 i := by
  obtain ⟨e0r, e0c, e1r, e1c, e2r, e2c, e3r, e3c, e4r, e4c, e5r, e5c, e6r, e6c, e7r, e7c, e8r, e8c, e9r, e9c⟩ := idx_facts t
  show V c main_v78 (((cfg4.win 7).blk t).view.emb i) = V c main_v78 i
  refine congrArg (V c main_v78) (funext fun a => Fin.ext ?_)
  match a with
  | ⟨0, _⟩ => show win4_7.index t (0 : Fin 2) * 64 + 1 * (i 0).val = (i 0).val; omega
  | ⟨1, _⟩ => show win4_7.index t (1 : Fin 2) * 64 + 1 * (i 1).val = (i 1).val; omega

/-- Window 8 is held whole at every point: its block reads the array as it stands. -/
theorem blk8 (c : Dev nD) (t : Fin cfg4.N) (i : S1x64.Idx) : iblk4 V c 8 t i = V c main_v76 i := by
  obtain ⟨e0r, e0c, e1r, e1c, e2r, e2c, e3r, e3c, e4r, e4c, e5r, e5c, e6r, e6c, e7r, e7c, e8r, e8c, e9r, e9c⟩ := idx_facts t
  show V c main_v76 (((cfg4.win 8).blk t).view.emb i) = V c main_v76 i
  refine congrArg (V c main_v76) (funext fun a => Fin.ext ?_)
  match a with
  | ⟨0, _⟩ => show win4_8.index t (0 : Fin 2) * 1 + 1 * (i 0).val = (i 0).val; omega
  | ⟨1, _⟩ => show win4_8.index t (1 : Fin 2) * 64 + 1 * (i 1).val = (i 1).val; omega

/-- What point `t` writes back is block `t` of the messages of the arrays the region finds. -/
theorem flushed_eq (c : Dev nD) (t : Fin cfg4.N)
    (ba : S32.Idx → EReal) (hba : ∀ q : Fin 32, V c main_v5 (ix2 (0 : Fin 1) q) = ba (ix1 q))
    (We : FVec Ideal S32x64 .f32) (hWe : ∀ i, V c main_v61 i = We i)
    (be : S64.Idx → EReal) (hbe : ∀ q : Fin 64, V c main_v75 (ix2 (0 : Fin 1) q) = be (ix1 q))
    (Wg : FVec Ideal S128x64 .f32)
    (hWgx : ∀ (k q : Fin 64) (hk : k.val < 128), V c main_v77 (ix2 k q) = Wg (ix2 ⟨k.val, hk⟩ q))
    (hWge : ∀ (k q : Fin 64) (hk : 64 + k.val < 128), V c main_v78 (ix2 k q) = Wg (ix2 ⟨64 + k.val, hk⟩ q))
    (bg : S64.Idx → EReal) (hbg : ∀ q : Fin 64, V c main_v76 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat4 V c).flushed 9 t = ((cfg4.win 9).blk t).view.read (Elt Ideal) (msgRef (V c main_arg2) (V c main_v74) (V c main_arg6) ba We be Wg bg ha1 ha2 he1 he2 hg1 hg2 hcat h1 h1') := by
  show (cfg4.win 9).cut (grid4.coords t) ((dat4 V c).after 9 t) = _
  rw [after4_9]
  unfold out4_9
  rw [View.canon_unit_zero hz]
  simp only [View.ld_unit_zero (S := S8000x1) hz, View.ld_unit_zero (S := S8000x64) hz, View.ld_unit_zero (S := S1x32) hz,
    View.ld_unit_zero (S := S32x64) hz, View.ld_unit_zero (S := S1x64) hz, View.ld_unit_zero (S := S64x64) hz]
  obtain ⟨e0r, e0c, e1r, e1c, e2r, e2c, e3r, e3c, e4r, e4c, e5r, e5c, e6r, e6c, e7r, e7c, e8r, e8c, e9r, e9c⟩ := idx_facts t
  funext j
  obtain ⟨y, k, rfl⟩ : ∃ (y : Fin 8000) (k : Fin 64), j = ix2 y k := ⟨j 0, j 1, eq_ix2 j⟩
  have hN : cfg4.N = 100 := N_4
  have hlt : 8000 * t.val + y.val < 800000 := by have := t.isLt; have := y.isLt; omega
  -- the body's result at row `y` of the block is the message of edge `8000 t + y`
  have key := pay_rows (iblk4 V c 0 t) (iblk4 V c 1 t) (iblk4 V c 2 t) (iblk4 V c 3 t) (iblk4 V c 4 t) (iblk4 V c 5 t)
    (iblk4 V c 6 t) (iblk4 V c 7 t) (iblk4 V c 8 t) (rows0 V c t) (rows1 V c t)
    (V c main_arg6) (blk2 V c t) ba (fun q => (blk3 V c t _).trans (hba q)) We (fun i => (blk4 V c t i).trans (hWe i))
    be (fun q => (blk5 V c t _).trans (hbe q)) Wg (fun k q hk => (blk6 V c t _).trans (hWgx k q hk))
    (fun k q hk => (blk7 V c t _).trans (hWge k q hk)) bg (fun q => (blk8 V c t _).trans (hbg q)) ha1 ha2 he1 he2 hg1 hg2 hcat h1 h1'
  refine (key y k hlt).trans ?_
  -- and that edge's index is where the block's row `y` sits in the result array
  show msgRef (V c main_arg2) (V c main_v74) (V c main_arg6) ba We be Wg bg ha1 ha2 he1 he2 hg1 hg2 hcat h1 h1' (ix2 ⟨8000 * t.val + y.val, hlt⟩ k)
    = msgRef (V c main_arg2) (V c main_v74) (V c main_arg6) ba We be Wg bg ha1 ha2 he1 he2 hg1 hg2 hcat h1 h1' (((cfg4.win 9).blk t).view.emb (ix2 y k))
  refine congrArg _ (funext fun a => Fin.ext ?_)
  match a with
  | ⟨0, _⟩ => show 8000 * t.val + y.val = win4_9.index t (0 : Fin 2) * 8000 + 1 * y.val; omega
  | ⟨1, _⟩ => show k.val = win4_9.index t (1 : Fin 2) * 64 + 1 * k.val; omega

/-- An index of the result array is in point `t`'s block iff each coordinate is in the block's range on its axis. -/
theorem mem_blk (t : Fin cfg4.N) (i : S800000x64.Idx) :
    i ∈ ((cfg4.win 9).blk t).view.set ↔ ∀ a : Fin 2, win4_9.index t a * S8000x64.size a ≤ (i a).val ∧ (i a).val < win4_9.index t a * S8000x64.size a + S8000x64.size a := by
  show i ∈ ((View.whole main_v79).slice (win4_9.rect t)).set ↔ _
  rw [View.set_slice_whole, Rect.mem_set_unit]
  exact Iff.rfl

/-- Every row of the result lies in the block of the point `row / 8000`. -/
theorem cover (i : S800000x64.Idx) : ∃ t : Fin cfg4.N, (cfg4.win 9).flush t = true ∧ i ∈ ((cfg4.win 9).blk t).view.set := by
  have hi0 : (i 0).val < 800000 := (i 0).isLt
  have hi1 : (i 1).val < 64 := (i 1).isLt
  have hN : cfg4.N = 100 := N_4
  let t : Fin cfg4.N := ⟨(i 0).val / 8000, by rw [hN]; omega⟩
  obtain ⟨-, -, -, -, -, -, -, -, -, -, -, -, -, -, -, -, -, -, e9r, e9c⟩ := idx_facts t
  have ht : t.val = (i 0).val / 8000 := rfl
  refine ⟨t, flush4_9 t, ?_⟩
  rw [mem_blk]
  intro a
  match a with
  | ⟨0, _⟩ => show win4_9.index t (0 : Fin 2) * 8000 ≤ (i 0).val ∧ (i 0).val < win4_9.index t (0 : Fin 2) * 8000 + 8000; omega
  | ⟨1, _⟩ => show win4_9.index t (1 : Fin 2) * 64 ≤ (i 1).val ∧ (i 1).val < win4_9.index t (1 : Fin 2) * 64 + 64; omega

/-- The result array after the hundred points is the messages of the arrays the region found: of the attributes, the
    gathered source features and the embedding row as they stand, and of the small operands the other buffers hold
    (each bias as one row, the gate's matrix as its two halves). -/
theorem arr_eq (c : Dev nD)
    (ba : S32.Idx → EReal) (hba : ∀ q : Fin 32, V c main_v5 (ix2 (0 : Fin 1) q) = ba (ix1 q))
    (We : FVec Ideal S32x64 .f32) (hWe : ∀ i, V c main_v61 i = We i)
    (be : S64.Idx → EReal) (hbe : ∀ q : Fin 64, V c main_v75 (ix2 (0 : Fin 1) q) = be (ix1 q))
    (Wg : FVec Ideal S128x64 .f32)
    (hWgx : ∀ (k q : Fin 64) (hk : k.val < 128), V c main_v77 (ix2 k q) = Wg (ix2 ⟨k.val, hk⟩ q))
    (hWge : ∀ (k q : Fin 64) (hk : 64 + k.val < 128), V c main_v78 (ix2 k q) = Wg (ix2 ⟨64 + k.val, hk⟩ q))
    (bg : S64.Idx → EReal) (hbg : ∀ q : Fin 64, V c main_v76 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat4 V c).arrAt 9 cfg4.N = msgRef (V c main_arg2) (V c main_v74) (V c main_arg6) ba We be Wg bg ha1 ha2 he1 he2 hg1 hg2 hcat h1 h1' :=
  (dat4 V c).arrAt_eq_of_cover 9 _ (fun t _ => flushed_eq V c t ba hba We hWe be hbe Wg hWgx hWge bg hbg ha1 ha2 he1 he2 hg1 hg2 hcat h1 h1') cover

end Cert.KernelIdeal.Region4

end
-- ==== Proof.GlueL1.lean ====
/-
  Layer 1's edge half: the host operations before the edge kernel slice the layer's parameters and gather the
  source-node rows; the edge kernel then leaves the reference's messages in its result buffer.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.SpecBridge
import proofs.«108144_j81140522156740_2_alg».proof.Proof.GlueKeep
import proofs.«108144_j81140522156740_2_alg».proof.Proof.GlueA
import proofs.«108144_j81140522156740_2_alg».proof.Proof.GlueArgs
import proofs.«108144_j81140522156740_2_alg».proof.Proof.Region4
import proofs.«108144_j81140522156740_2_alg».proof.Proof.LibLayerRows
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## Layer 1: from the node features `H` in `main_v58` to the messages -/

section L1

variable (H : FVec Ideal S50000x64 .f32) (hH : (W8 m ρ c (Proc.devRef .tc main_v58) : S50000x64.Idx → EReal) = H)

theorem L1_v9 : (W9 m ρ c (Proc.devRef .tc main_v61) : S32x64.Idx → EReal) = Cert.ReferenceIdeal.RefRun.sliceWe 1 (m ((c : Thread nD τ).loc main_arg10)) := by
  show StableHlo.after hostOps4 (W8 m ρ c) (Proc.devRef .tc main_v61) = _
  after_results
  rw [at_main_arg10_8 m ρ c]
  rfl

theorem L1_v23 : (W9 m ρ c (Proc.devRef .tc main_v75) : S1x64.Idx → EReal) = shapeCast S1x64 (Cert.ReferenceIdeal.RefRun.sliceRow 1 (m ((c : Thread nD τ).loc main_arg11))) shapeCasts_S64_S1x64 := by
  show StableHlo.after hostOps4 (W8 m ρ c) (Proc.devRef .tc main_v75) = _
  after_results
  rw [at_main_arg11_8 m ρ c]
  rfl

theorem L1_v24 : (W9 m ρ c (Proc.devRef .tc main_v76) : S1x64.Idx → EReal) = shapeCast S1x64 (Cert.ReferenceIdeal.RefRun.sliceRow 1 (m ((c : Thread nD τ).loc main_arg13))) shapeCasts_S64_S1x64 := by
  show StableHlo.after hostOps4 (W8 m ρ c) (Proc.devRef .tc main_v76) = _
  after_results
  rw [at_main_arg13_8 m ρ c]
  rfl

theorem L1_v25 : (W9 m ρ c (Proc.devRef .tc main_v77) : S64x64.Idx → EReal) = extractStridedSlice S64x64 ![0, 0] (Cert.ReferenceIdeal.RefRun.sliceWg 1 (m ((c : Thread nD τ).loc main_arg12))) slices_S128x64_S64x64_0_0 := by
  show StableHlo.after hostOps4 (W8 m ρ c) (Proc.devRef .tc main_v77) = _
  after_results
  rw [at_main_arg12_8 m ρ c]
  rfl

theorem L1_v26 : (W9 m ρ c (Proc.devRef .tc main_v78) : S64x64.Idx → EReal) = extractStridedSlice S64x64 ![64, 0] (Cert.ReferenceIdeal.RefRun.sliceWg 1 (m ((c : Thread nD τ).loc main_arg12))) slices_S128x64_S64x64_64_0 := by
  show StableHlo.after hostOps4 (W8 m ρ c) (Proc.devRef .tc main_v78) = _
  after_results
  rw [at_main_arg12_8 m ρ c]
  rfl

include hH in
/-- The gathered source-node rows. -/
theorem L1_v22 : (W9 m ρ c (Proc.devRef .tc main_v74) : S800000x64.Idx → EReal) = Cert.ReferenceIdeal.RefRun.gatherRows H (Cert.ReferenceIdeal.RefRun.srcCol (m ((c : Thread nD τ).loc main_arg1))) := by
  show StableHlo.after hostOps4 (W8 m ρ c) (Proc.devRef .tc main_v74) = _
  after_results_simp
  rw [hH, at_main_v1_8 m ρ c]
  exact Cert.SpecBridge.gather_eq H _ _

include hH in
/-- The edge kernel's result buffer holds the reference's messages. -/
theorem L1_v27 : (W10 m ρ c (Proc.devRef .tc main_v79) : S800000x64.Idx → EReal) = (Cert.ReferenceIdeal.RefRun.msg (Cert.ReferenceIdeal.RefRun.gatherRows H (Cert.ReferenceIdeal.RefRun.srcCol (m ((c : Thread nD τ).loc main_arg1)))) (Cert.ReferenceIdeal.RefRun.edgeFeat (Cert.ReferenceIdeal.RefRun.edgeEmbed (m ((c : Thread nD τ).loc main_arg2)) (m ((c : Thread nD τ).loc main_arg6)) (m ((c : Thread nD τ).loc main_arg7))) (Cert.ReferenceIdeal.RefRun.sliceWe 1 (m ((c : Thread nD τ).loc main_arg10))) (Cert.ReferenceIdeal.RefRun.sliceRow 1 (m ((c : Thread nD τ).loc main_arg11)))) (Cert.ReferenceIdeal.RefRun.sliceWg 1 (m ((c : Thread nD τ).loc main_arg12))) (Cert.ReferenceIdeal.RefRun.sliceRow 1 (m ((c : Thread nD τ).loc main_arg13)))) := by
  refine (W10_arr m ρ c 9).trans ?_
  refine (Cert.KernelIdeal.Region4.arr_eq (V9 m ρ) c (m ((c : Thread nD τ).loc main_arg7)) (fun q => ?hba)
    (Cert.ReferenceIdeal.RefRun.sliceWe 1 (m ((c : Thread nD τ).loc main_arg10))) (fun i => ?hWe) (Cert.ReferenceIdeal.RefRun.sliceRow 1 (m ((c : Thread nD τ).loc main_arg11))) (fun q => ?hbe)
    (Cert.ReferenceIdeal.RefRun.sliceWg 1 (m ((c : Thread nD τ).loc main_arg12))) (fun k q hk => ?hWgx) (fun k q hk => ?hWge) (Cert.ReferenceIdeal.RefRun.sliceRow 1 (m ((c : Thread nD τ).loc main_arg13))) (fun q => ?hbg)
    Cert.ReferenceIdeal.Facts₀.bcast_S32_S1x32_1 Cert.ReferenceIdeal.Facts₀.bcast_S1x32_S800000x32_0_1 Cert.ReferenceIdeal.Facts₀.bcast_S64_S1x64_1 Cert.ReferenceIdeal.Facts₀.bcast_S1x64_S800000x64_0_1
    Cert.ReferenceIdeal.Facts₀.bcast_S64_S1x64_1 Cert.ReferenceIdeal.Facts₀.bcast_S1x64_S800000x64_0_1 Cert.ReferenceIdeal.Facts₀.concatenates_S800000x64_S800000x64_S800000x128_d1
    Cert.ReferenceIdeal.Facts₀.bcast_S_S800000x64 Cert.ReferenceIdeal.Facts₀.bcast_S_S800000x64).trans ?_
  case hba =>
    show (W9 m ρ c (Proc.devRef .tc main_v5) : S1x32.Idx → EReal) (ix2 (0 : Fin 1) q) = _
    rw [at_main_v5_9 m ρ c]
    exact Cert.Lib.RowBlocks.cast_row_apply _ _ q
  case hWe =>
    show (W9 m ρ c (Proc.devRef .tc main_v61) : S32x64.Idx → EReal) i = _
    rw [L1_v9 m ρ c]
  case hbe =>
    show (W9 m ρ c (Proc.devRef .tc main_v75) : S1x64.Idx → EReal) (ix2 (0 : Fin 1) q) = _
    rw [L1_v23 m ρ c]
    exact Cert.Lib.RowBlocks.cast_row_apply _ _ q
  case hWgx =>
    show (W9 m ρ c (Proc.devRef .tc main_v77) : S64x64.Idx → EReal) (ix2 k q) = _
    rw [L1_v25 m ρ c]
    exact Cert.SpecBridge.gateTop_apply _ _ k q
  case hWge =>
    show (W9 m ρ c (Proc.devRef .tc main_v78) : S64x64.Idx → EReal) (ix2 k q) = _
    rw [L1_v26 m ρ c]
    exact Cert.SpecBridge.gateBottom_apply _ _ k q
  case hbg =>
    show (W9 m ρ c (Proc.devRef .tc main_v76) : S1x64.Idx → EReal) (ix2 (0 : Fin 1) q) = _
    rw [L1_v24 m ρ c]
    exact Cert.Lib.RowBlocks.cast_row_apply _ _ q
  show Cert.KernelIdeal.Region4.msgRef (W9 m ρ c (Proc.devRef .tc main_arg2)) (W9 m ρ c (Proc.devRef .tc main_v74)) (W9 m ρ c (Proc.devRef .tc main_arg6)) _ _ _ _ _ _ _ _ _ _ _ _ _ _ = _
  rw [at_main_arg2_9 m ρ c, L1_v22 m ρ c H hH, at_main_arg6_9 m ρ c]
  exact Cert.SpecBridge.edgeMsg_eq _ _ _ _ _ _ _ _ _ _ _ _ _ _ _ _ _

end L1

end Cert.KernelIdeal.Glue

end
-- ==== Proof.Region5.lean ====
/-
  The node kernel of the second layer.  Each grid point `t` (of ten) holds rows `5000 t … 5000 t + 4999` of the node
  features `h` and of the neighbours' sums `a` (50000 × 64 each), the whole 64 × 64 matrix `W` and the bias `b` as
  one row, and writes two things: rows `5000 t …` of

      raw = h · W + b + a,

  and an 8 × 64 block of statistics of those 5000 rows — its row 0 the column sums of the tile of `raw`, its row 1 the
  column sums of the squares, its rows 2 … 7 zero.  The ten row blocks tile the 50000 rows and the ten statistics
  blocks tile the 10 × 8 × 64 array, so after the ten points the first array is `raw` of the whole arrays and the second
  holds, at `(t, 0, q)` and `(t, 1, q)`, the sums over tile `t` of column `q` of `raw` and of its squares.
-/
import proofs.«108144_j81140522156740_2_alg».proof.Proof.Gen.KernelIdeal.Frame
import proofs.«108144_j81140522156740_2_alg».proof.Proof.LibNodeRows
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.Lib.RowBlocks Cert.Lib.RowOps Cert.Lib.NodeRows

theorem hz : (![0, 0] : Fin 2 → Nat) = fun _ => 0 := funext fun a => by fin_cases a <;> rfl

/-! ## What the body leaves in its two outputs, for any float instance -/

section Pieces

variable {F : FTy → Type} [FloatOps F]

/-- The body's one store into the first output leaves `h · W + b + a` of the blocks it loaded. -/
theorem out4_eq (c : Dev nD) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out5_A_4 (F := F) c i arg1 harg1 arg2 harg2 arg3 harg3 arg4 harg4 arg5 harg5 arg6 harg6 x0 x1 x2 x3 = k5_pay1 x0 x1 x2 x3 := by
  unfold out5_A_4
  rw [View.read_writes_eq_canon _ _ _ (cover5_A_4 c i arg1 harg1 arg2 harg2 arg3 harg3 arg4 harg4 arg5 harg5 arg6 harg6 x0 x1 x2 x3)]
  unfold kernelRun5_A
  dsimp only
  sl_unfold_words
  rw [View.canon_unit_zero hz]
  simp only [View.readAt_eq_ld, harg1.read_unread, harg2.read_unread, harg3.read_unread, harg4.read_unread,
    View.ld_unit_zero (S := S5000x64) hz, View.ld_unit_zero (S := S64x64) hz, View.ld_unit_zero (S := S1x64) hz]

/-- The three stores into the statistics block: rows 2 … 7, row 1, row 0 (last first). -/
def statsPieces (x0 : Vec F S5000x64 .f32) (x1 : Vec F S64x64 .f32) (x2 : Vec F S1x64 .f32) (x3 : Vec F S5000x64 .f32) :
    List (View.Piece (Elt F) S1x8x64 .f32) :=
  [⟨Rect.unit ![0, 2, 0] ![1, 6, 64] inb_S1x8x64_S1x6x64_0_2_0, k5_pay4⟩,
   ⟨Rect.unit ![0, 1, 0] ![1, 1, 64] inb_S1x8x64_S1x1x64_0_1_0, k5_pay3 x0 x1 x2 x3⟩,
   ⟨Rect.unit ![0, 0, 0] ![1, 1, 64] inb_S1x8x64_S1x1x64_0_0_0, k5_pay2 x0 x1 x2 x3⟩]

/-- The body's three stores into the second output leave those three pieces. -/
theorem out5_eq (c : Dev nD) (i : grid5.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out5_A_5 (F := F) c i arg1 harg1 arg2 harg2 arg3 harg3 arg4 harg4 arg5 harg5 arg6 harg6 x0 x1 x2 x3 = View.canon (statsPieces x0 x1 x2 x3) := by
  unfold out5_A_5
  rw [View.read_writes_eq_canon _ _ _ (cover5_A_5 c i arg1 harg1 arg2 harg2 arg3 harg3 arg4 harg4 arg5 harg5 arg6 harg6 x0 x1 x2 x3)]
  unfold kernelRun5_A
  dsimp only
  sl_unfold_words
  simp only [View.readAt_eq_ld, harg1.read_unread, harg2.read_unread, harg3.read_unread, harg4.read_unread,
    View.ld_unit_zero (S := S5000x64) hz, View.ld_unit_zero (S := S64x64) hz, View.ld_unit_zero (S := S1x64) hz]
  rfl

/-- The three pieces cover the statistics block. -/
theorem statsPieces_cover (x0 : Vec F S5000x64 .f32) (x1 : Vec F S64x64 .f32) (x2 : Vec F S1x64 .f32) (x3 : Vec F S5000x64 .f32)
    (y : S1x8x64.Idx) : ∃ p ∈ statsPieces x0 x1 x2 x3, y ∈ p.1.set :=
  View.cover_of_tiledBy (statsPieces x0 x1 x2 x3) ![1, 1, 64] (by sl_kernel_rfl) y

end Pieces

/-! ## The body's arithmetic at the ideal values -/

/-- `h · W + b + a` of whole arrays: 50000 rows, 64 features in and out. -/
abbrev rawRef := @nodeLin 50000 64 64

/-- The body's first payload carries rows: when the two long blocks hold rows `o …` of `h` and of `a`, the matrix
    block is `W` and the one-row block is `b`, the payload holds the same rows of `h · W + b + a`. -/
theorem pay_rows {o : Nat} {h aggr : FVec Ideal S50000x64 .f32}
    (x0 : FVec Ideal S5000x64 .f32) (x1 : FVec Ideal S64x64 .f32) (x2 : FVec Ideal S1x64 .f32) (x3 : FVec Ideal S5000x64 .f32)
    (h0 : RowsOf 50000 5000 64 o h x0) (h3 : RowsOf 50000 5000 64 o aggr x3)
    (Wn : FVec Ideal S64x64 .f32) (hWn : ∀ i, x1 i = Wn i)
    (bnb : S64.Idx → EReal) (hb : ∀ q : Fin 64, x2 (ix2 (0 : Fin 1) q) = bnb (ix1 q))
    (b1 : S64.BroadcastsInDim S1x64 ![1]) (b2 : S1x64.BroadcastsInDim S50000x64 ![0, 1]) :
    RowsOf 50000 5000 64 o (rawRef h Wn bnb aggr b1 b2) (k5_pay1 (F := Ideal) x0 x1 x2 x3) := by
  unfold k5_pay1
  exact RowsOf.nodeLin h0 h3 Wn x1 hWn bnb x2 hb b1 b2 shapeCasts_S5000x64_S5000x64 shapeCasts_S64x64_S64x64
    shapeCasts_S1x64_S1x64 broadcasts_S1x64_S5000x64 shapeCasts_S5000x64_S5000x64 bitsLt_bf16_f32

/-- The statistics of a 5000-row block `P`: row 0 its column sums, row 1 the column sums of its squares, rows 2 … 7 zero. -/
def blockStats (P : FVec Ideal S5000x64 .f32) (r : Fin 8) (q : Fin 64) : EReal :=
  if r.val = 0 then ∑ y : Fin 5000, P (ix2 y q)
  else if r.val = 1 then ∑ y : Fin 5000, P (ix2 y q) * P (ix2 y q) else 0

theorem blockStats_zero (P : FVec Ideal S5000x64 .f32) (q : Fin 64) :
    blockStats P 0 q = ∑ y : Fin 5000, P (ix2 y q) := if_pos rfl
theorem blockStats_one (P : FVec Ideal S5000x64 .f32) (q : Fin 64) :
    blockStats P 1 q = ∑ y : Fin 5000, P (ix2 y q) * P (ix2 y q) := (if_neg (by decide)).trans (if_pos rfl)
theorem blockStats_of_two_le (P : FVec Ideal S5000x64 .f32) (r : Fin 8) (hr : 2 ≤ r.val) (q : Fin 64) :
    blockStats P r q = 0 := (if_neg (by omega)).trans (if_neg (by omega))

/-- The second payload at `(0, 0, q)`: the sum of column `q` of the first payload. -/
theorem pay2_apply (x0 : FVec Ideal S5000x64 .f32) (x1 : FVec Ideal S64x64 .f32) (x2 : FVec Ideal S1x64 .f32)
    (x3 : FVec Ideal S5000x64 .f32) (q : Fin 64) :
    k5_pay2 (F := Ideal) x0 x1 x2 x3 (ix3 (0 : Fin 1) (0 : Fin 1) q)
      = ∑ y : Fin 5000, k5_pay1 (F := Ideal) x0 x1 x2 x3 (ix2 y q) := by
  unfold k5_pay2
  exact colSum_cast_apply (k5_pay1 (F := Ideal) x0 x1 x2 x3) reduces_S5000x64_S64 (.inl rfl) rfl
    shapeCasts_S64_S1x64 shapeCasts_S1x64_S1x1x64 q

/-- The third payload at `(0, 0, q)`: the sum of the squares of column `q` of the first payload. -/
theorem pay3_apply (x0 : FVec Ideal S5000x64 .f32) (x1 : FVec Ideal S64x64 .f32) (x2 : FVec Ideal S1x64 .f32)
    (x3 : FVec Ideal S5000x64 .f32) (q : Fin 64) :
    k5_pay3 (F := Ideal) x0 x1 x2 x3 (ix3 (0 : Fin 1) (0 : Fin 1) q)
      = ∑ y : Fin 5000, k5_pay1 (F := Ideal) x0 x1 x2 x3 (ix2 y q) * k5_pay1 (F := Ideal) x0 x1 x2 x3 (ix2 y q) := by
  unfold k5_pay3
  exact colSum_cast_apply (mulf (k5_pay1 (F := Ideal) x0 x1 x2 x3) (k5_pay1 (F := Ideal) x0 x1 x2 x3))
    reduces_S5000x64_S64 (.inl rfl) rfl shapeCasts_S64_S1x64 shapeCasts_S1x64_S1x1x64 q

/-- The fourth payload is zero everywhere. -/
theorem pay4_apply (j : S1x6x64.Idx) : k5_pay4 (F := Ideal) j = 0 := by
  unfold k5_pay4
  exact zeroBlock_apply shapeCasts_S6x64_S1x6x64 j

/-- The three pieces, read at any index of the 1 × 8 × 64 block, are the statistics of the first payload. -/
theorem statsPieces_apply (x0 : FVec Ideal S5000x64 .f32) (x1 : FVec Ideal S64x64 .f32) (x2 : FVec Ideal S1x64 .f32)
    (x3 : FVec Ideal S5000x64 .f32) (a : Fin 1) (r : Fin 8) (q : Fin 64) :
    View.canon (statsPieces (F := Ideal) x0 x1 x2 x3) (ix3 a r q) = blockStats (k5_pay1 (F := Ideal) x0 x1 x2 x3) r q := by
  refine View.canon_apply_of_pieces (fun j : S1x8x64.Idx => blockStats (k5_pay1 (F := Ideal) x0 x1 x2 x3) (j 1) (j 2))
    (statsPieces (F := Ideal) x0 x1 x2 x3) ?_ (ix3 a r q) (statsPieces_cover (F := Ideal) x0 x1 x2 x3 (ix3 a r q))
  intro p hp
  simp only [statsPieces, List.mem_cons, List.not_mem_nil, or_false] at hp
  rcases hp with rfl | rfl | rfl
  · intro x
    obtain ⟨a', r', q', rfl⟩ : ∃ (a' : Fin 1) (r' : Fin 6) (q' : Fin 64), x = ix3 a' r' q' := ⟨x 0, x 1, x 2, eq_ix3 x⟩
    have hemb : (Rect.unit (s := S1x8x64) ![0, 2, 0] ![1, 6, 64] inb_S1x8x64_S1x6x64_0_2_0).emb (ix3 a' r' q')
        = ix3 (0 : Fin 1) (⟨2 + r'.val, by have := r'.isLt; omega⟩ : Fin 8) q' := by
      funext b; apply Fin.ext
      match b with
      | ⟨0, _⟩ => show 0 + 1 * a'.val = 0; have := a'.isLt; omega
      | ⟨1, _⟩ => show 2 + 1 * r'.val = 2 + r'.val; omega
      | ⟨2, _⟩ => show 0 + 1 * q'.val = q'.val; omega
    show k5_pay4 (F := Ideal) (ix3 a' r' q') = blockStats _ ((Rect.unit (s := S1x8x64) ![0, 2, 0] ![1, 6, 64] inb_S1x8x64_S1x6x64_0_2_0).emb (ix3 a' r' q') 1)
      ((Rect.unit (s := S1x8x64) ![0, 2, 0] ![1, 6, 64] inb_S1x8x64_S1x6x64_0_2_0).emb (ix3 a' r' q') 2)
    rw [hemb]
    exact (pay4_apply _).trans (blockStats_of_two_le _ ⟨2 + r'.val, by have := r'.isLt; omega⟩ (Nat.le_add_right 2 _) q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 1, 0] ![1, 1, 64] inb_S1x8x64_S1x1x64_0_1_0).emb (ix3 (0 : Fin 1) (0 : Fin 1) q')
        = ix3 (0 : Fin 1) (1 : Fin 8) q' := by
      funext b; apply Fin.ext
      match b with
      | ⟨0, _⟩ => rfl
      | ⟨1, _⟩ => rfl
      | ⟨2, _⟩ => show 0 + 1 * q'.val = q'.val; omega
    show k5_pay3 (F := Ideal) x0 x1 x2 x3 (ix3 (0 : Fin 1) (0 : Fin 1) q') = blockStats _ ((Rect.unit (s := S1x8x64) ![0, 1, 0] ![1, 1, 64] inb_S1x8x64_S1x1x64_0_1_0).emb (ix3 (0 : Fin 1) (0 : Fin 1) q') 1)
      ((Rect.unit (s := S1x8x64) ![0, 1, 0] ![1, 1, 64] inb_S1x8x64_S1x1x64_0_1_0).emb (ix3 (0 : Fin 1) (0 : Fin 1) q') 2)
    rw [hemb]
    exact (pay3_apply x0 x1 x2 x3 q').trans (blockStats_one _ q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 0, 0] ![1, 1, 64] inb_S1x8x64_S1x1x64_0_0_0).emb (ix3 (0 : Fin 1) (0 : Fin 1) q')
        = ix3 (0 : Fin 1) (0 : Fin 8) q' := by
      funext b; apply Fin.ext
      match b with
      | ⟨0, _⟩ => rfl
      | ⟨1, _⟩ => rfl
      | ⟨2, _⟩ => show 0 + 1 * q'.val = q'.val; omega
    show k5_pay2 (F := Ideal) x0 x1 x2 x3 (ix3 (0 : Fin 1) (0 : Fin 1) q') = blockStats _ ((Rect.unit (s := S1x8x64) ![0, 0, 0] ![1, 1, 64] inb_S1x8x64_S1x1x64_0_0_0).emb (ix3 (0 : Fin 1) (0 : Fin 1) q') 1)
      ((Rect.unit (s := S1x8x64) ![0, 0, 0] ![1, 1, 64] inb_S1x8x64_S1x1x64_0_0_0).emb (ix3 (0 : Fin 1) (0 : Fin 1) q') 2)
    rw [hemb]
    exact (pay2_apply x0 x1 x2 x3 q').trans (blockStats_zero _ q').symm

/-! ## The windows' blocks -/

variable (V : (c : Dev nD) → (b : Ref sig .tc) → Buf (Elt Ideal) ((c : Thread nD τ).loc b))

/-- The grid's index maps: point `t` holds row block `t` of the node features, of the neighbours' sums and of the first
    result, the matrix and the bias row whole, and block `t` of the statistics array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 3) = t.val ∧ win5_5.index t (1 : Fin 3) = 0 ∧ win5_5.index t (2 : Fin 3) = 0 :=
  (by decide +kernel : ∀ t : Fin grid5.N, _)

/-- Row `5000 t + y` of tile `t` is one of the 50000 rows. -/
theorem tile_row_lt (t : Fin 10) (y : Fin 5000) : t.val * 5000 + y.val < 50000 := by
  have := t.isLt; have := y.isLt; omega

/-- Point `t`'s block of the node features holds rows `5000 t …` of the array. -/
theorem rows0 (c : Dev nD) (t : Fin cfg5.N) :
    RowsOf 50000 5000 64 (t.val * 5000) (V c main_v58 : S50000x64.Idx → EReal) (iblk5 V c 0 t) := by
  intro y k h
  obtain ⟨e0, e1, -⟩ := idx_facts t
  show V c main_v58 (((cfg5.win 0).blk t).view.emb (ix2 y k)) = V c main_v58 (ix2 ⟨t.val * 5000 + y.val, h⟩ k)
  refine congrArg (V c main_v58) (funext fun a => Fin.ext ?_)
  match a with
  | ⟨0, _⟩ => show win5_0.index t (0 : Fin 2) * 5000 + 1 * y.val = t.val * 5000 + y.val; omega
  | ⟨1, _⟩ => show win5_0.index t (1 : Fin 2) * 64 + 1 * k.val = k.val; omega

/-- The matrix is held whole at every point. -/
theorem blk1 (c : Dev nD) (t : Fin cfg5.N) (i : S64x64.Idx) : iblk5 V c 1 t i = V c main_v85 i := by
  obtain ⟨-, -, e0, e1, -⟩ := idx_facts t
  show V c main_v85 (((cfg5.win 1).blk t).view.emb i) = V c main_v85 i
  refine congrArg (V c main_v85) (funext fun a => Fin.ext ?_)
  match a with
  | ⟨0, _⟩ => show win5_1.index t (0 : Fin 2) * 64 + 1 * (i 0).val = (i 0).val; omega
  | ⟨1, _⟩ => show win5_1.index t (1 : Fin 2) * 64 + 1 * (i 1).val = (i 1).val; omega

/-- The bias row is held whole at every point. -/
theorem blk2 (c : Dev nD) (t : Fin cfg5.N) (i : S1x64.Idx) : iblk5 V c 2 t i = V c main_v92 i := by
  obtain ⟨-, -, -, -, e0, e1, -⟩ := idx_facts t
  show V c main_v92 (((cfg5.win 2).blk t).view.emb i) = V c main_v92 i
  refine congrArg (V c main_v92) (funext fun a => Fin.ext ?_)
  match a with
  | ⟨0, _⟩ => show win5_2.index t (0 : Fin 2) * 1 + 1 * (i 0).val = (i 0).val; omega
  | ⟨1, _⟩ => show win5_2.index t (1 : Fin 2) * 64 + 1 * (i 1).val = (i 1).val; omega

/-- Point `t`'s block of the neighbours' sums holds rows `5000 t …` of the array. -/
theorem rows3 (c : Dev nD) (t : Fin cfg5.N) :
    RowsOf 50000 5000 64 (t.val * 5000) (V c main_v83 : S50000x64.Idx → EReal) (iblk5 V c 3 t) := by
  intro y k h
  obtain ⟨-, -, -, -, -, -, e0, e1, -⟩ := idx_facts t
  show V c main_v83 (((cfg5.win 3).blk t).view.emb (ix2 y k)) = V c main_v83 (ix2 ⟨t.val * 5000 + y.val, h⟩ k)
  refine congrArg (V c main_v83) (funext fun a => Fin.ext ?_)
  match a with
  | ⟨0, _⟩ => show win5_3.index t (0 : Fin 2) * 5000 + 1 * y.val = t.val * 5000 + y.val; omega
  | ⟨1, _⟩ => show win5_3.index t (1 : Fin 2) * 64 + 1 * k.val = k.val; omega

section Result

variable (c : Dev nD) (Wn : FVec Ideal S64x64 .f32) (hWn : ∀ i, V c main_v85 i = Wn i)
  (bnb : S64.Idx → EReal) (hb : ∀ q : Fin 64, V c main_v92 (ix2 (0 : Fin 1) q) = bnb (ix1 q))
  (b1 : S64.BroadcastsInDim S1x64 ![1]) (b2 : S1x64.BroadcastsInDim S50000x64 ![0, 1])

include hWn hb in
/-- The body's first payload at point `t` holds rows `5000 t …` of `h · W + b + a` of the arrays the region finds. -/
theorem pay_rows_at (t : Fin cfg5.N) :
    RowsOf 50000 5000 64 (t.val * 5000) (rawRef (V c main_v58) Wn bnb (V c main_v83) b1 b2)
      (k5_pay1 (F := Ideal) (iblk5 V c 0 t) (iblk5 V c 1 t) (iblk5 V c 2 t) (iblk5 V c 3 t)) :=
  pay_rows (iblk5 V c 0 t) (iblk5 V c 1 t) (iblk5 V c 2 t) (iblk5 V c 3 t) (rows0 V c t) (rows3 V c t)
    Wn (fun i => (blk1 V c t i).trans (hWn i)) bnb (fun q => (blk2 V c t _).trans (hb q)) b1 b2

/-! ## The first output: `raw` -/

include hWn hb in
/-- What point `t` writes back to the first output is block `t` of `h · W + b + a`. -/
theorem flushed_eq_raw (t : Fin cfg5.N) :
    (dat5 V c).flushed 4 t = ((cfg5.win 4).blk t).view.read (Elt Ideal) (rawRef (V c main_v58) Wn bnb (V c main_v83) b1 b2) := by
  show (cfg5.win 4).cut (grid5.coords t) ((dat5 V c).after 4 t) = _
  rw [after5_4]
  unfold outsAt5
  dsimp only
  rw [out4_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (iblk5 V c 0 t) (iblk5 V c 1 t) (iblk5 V c 2 t) (iblk5 V c 3 t)]
  obtain ⟨-, -, -, -, -, -, -, -, e0, e1, -⟩ := idx_facts t
  funext j
  obtain ⟨y, k, rfl⟩ : ∃ (y : Fin 5000) (k : Fin 64), j = ix2 y k := ⟨j 0, j 1, eq_ix2 j⟩
  have hN : cfg5.N = 10 := N_5
  have hlt : t.val * 5000 + y.val < 50000 := by have := t.isLt; have := y.isLt; omega
  show k5_pay1 (F := Ideal) (iblk5 V c 0 t) (iblk5 V c 1 t) (iblk5 V c 2 t) (iblk5 V c 3 t) (ix2 y k)
    = rawRef (V c main_v58) Wn bnb (V c main_v83) b1 b2 (((cfg5.win 4).blk t).view.emb (ix2 y k))
  refine (pay_rows_at V c Wn hWn bnb hb b1 b2 t y k hlt).trans ?_
  refine congrArg (rawRef (V c main_v58) Wn bnb (V c main_v83) b1 b2) (funext fun a => Fin.ext ?_)
  match a with
  | ⟨0, _⟩ => show t.val * 5000 + y.val = win5_4.index t (0 : Fin 2) * 5000 + 1 * y.val; omega
  | ⟨1, _⟩ => show k.val = win5_4.index t (1 : Fin 2) * 64 + 1 * k.val; omega

/-- An index of the first output is in point `t`'s block iff each coordinate is in the block's range on its axis. -/
theorem mem_blk4 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v93_0).slice (win5_4.rect t)).set ↔ _
  rw [View.set_slice_whole, Rect.mem_set_unit]
  exact Iff.rfl

/-- The row blocks cover the first output: row `r` lies in the block of point `r / 5000`. -/
theorem cover4 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, e0, e1, -⟩ := idx_facts t
  refine ⟨t, flush5_4 t, ?_⟩
  rw [mem_blk4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

include hWn hb in
/-- THE FIRST OUTPUT after the region is `h · W + b + a` of the arrays the region finds. -/
theorem arr_eq_raw :
    (dat5 V c).arrAt 4 cfg5.N = rawRef (V c main_v58) Wn bnb (V c main_v83) b1 b2 :=
  (dat5 V c).arrAt_eq_of_cover 4 _ (fun t _ => flushed_eq_raw V c Wn hWn bnb hb b1 b2 t) cover4

end Result

/-! ## The second output: the tiles' statistics -/

/-- The statistic of tile `t` of a whole array `R`: row 0 the sums over the tile's rows of each column, row 1 the sums of
    the squares, rows 2 … 7 zero. -/
def tileStat (R : FVec Ideal S50000x64 .f32) (t : Fin 10) (r : Fin 8) (q : Fin 64) : EReal :=
  if r.val = 0 then ∑ y : Fin 5000, R (ix2 ⟨t.val * 5000 + y.val, tile_row_lt t y⟩ q)
  else if r.val = 1 then
    ∑ y : Fin 5000, R (ix2 ⟨t.val * 5000 + y.val, tile_row_lt t y⟩ q) * R (ix2 ⟨t.val * 5000 + y.val, tile_row_lt t y⟩ q)
  else 0

theorem tileStat_zero (R : FVec Ideal S50000x64 .f32) (t : Fin 10) (q : Fin 64) :
    tileStat R t 0 q = ∑ y : Fin 5000, R (ix2 ⟨t.val * 5000 + y.val, tile_row_lt t y⟩ q) := if_pos rfl
theorem tileStat_one (R : FVec Ideal S50000x64 .f32) (t : Fin 10) (q : Fin 64) :
    tileStat R t 1 q = ∑ y : Fin 5000,
      R (ix2 ⟨t.val * 5000 + y.val, tile_row_lt t y⟩ q) * R (ix2 ⟨t.val * 5000 + y.val, tile_row_lt t y⟩ q) :=
  (if_neg (by decide)).trans (if_pos rfl)

/-- The ten tiles' statistics as one 10 × 8 × 64 array. -/
def statsRef (R : FVec Ideal S50000x64 .f32) : S10x8x64.Idx → EReal := fun j => tileStat R (j 0) (j 1) (j 2)

/-- The statistics of a block that holds tile `t` of `R` are tile `t`'s statistics of `R`. -/
theorem blockStats_eq_tileStat {R : FVec Ideal S50000x64 .f32} {P : FVec Ideal S5000x64 .f32} (t : Fin 10)
    (hP : RowsOf 50000 5000 64 (t.val * 5000) R P) (r : Fin 8) (q : Fin 64) : blockStats P r q = tileStat R t r q := by
  have e : ∀ y : Fin 5000, P (ix2 y q) = R (ix2 ⟨t.val * 5000 + y.val, tile_row_lt t y⟩ q) := fun y => hP y q _
  unfold blockStats tileStat
  simp only [e]

section Stats

variable (c : Dev nD) (Wn : FVec Ideal S64x64 .f32) (hWn : ∀ i, V c main_v85 i = Wn i)
  (bnb : S64.Idx → EReal) (hb : ∀ q : Fin 64, V c main_v92 (ix2 (0 : Fin 1) q) = bnb (ix1 q))
  (b1 : S64.BroadcastsInDim S1x64 ![1]) (b2 : S1x64.BroadcastsInDim S50000x64 ![0, 1])

include hWn hb in
/-- What point `t` writes back to the second output is block `t` of the statistics array of `h · W + b + a`. -/
theorem flushed_eq_stats (t : Fin cfg5.N) :
    (dat5 V c).flushed 5 t
      = ((cfg5.win 5).blk t).view.read (Elt Ideal) (statsRef (rawRef (V c main_v58) Wn bnb (V c main_v83) b1 b2)) := by
  show (cfg5.win 5).cut (grid5.coords t) ((dat5 V c).after 5 t) = _
  rw [after5_5]
  unfold outsAt5
  dsimp only
  rw [out5_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (iblk5 V c 0 t) (iblk5 V c 1 t) (iblk5 V c 2 t) (iblk5 V c 3 t)]
  obtain ⟨-, -, -, -, -, -, -, -, -, -, e0, e1, e2⟩ := idx_facts t
  funext j
  obtain ⟨a, r, q, rfl⟩ : ∃ (a : Fin 1) (r : Fin 8) (q : Fin 64), j = ix3 a r q := ⟨j 0, j 1, j 2, eq_ix3 j⟩
  have hN : cfg5.N = 10 := N_5
  have ht : t.val < 10 := by have := t.isLt; omega
  have hemb : ((cfg5.win 5).blk t).view.emb (ix3 a r q) = ix3 (⟨t.val, ht⟩ : Fin 10) r q := by
    funext b; apply Fin.ext
    match b with
    | ⟨0, _⟩ => show win5_5.index t (0 : Fin 3) * 1 + 1 * a.val = t.val; have := a.isLt; omega
    | ⟨1, _⟩ => show win5_5.index t (1 : Fin 3) * 8 + 1 * r.val = r.val; omega
    | ⟨2, _⟩ => show win5_5.index t (2 : Fin 3) * 64 + 1 * q.val = q.val; omega
  show View.canon (statsPieces (F := Ideal) (iblk5 V c 0 t) (iblk5 V c 1 t) (iblk5 V c 2 t) (iblk5 V c 3 t)) (ix3 a r q)
    = statsRef (rawRef (V c main_v58) Wn bnb (V c main_v83) b1 b2) (((cfg5.win 5).blk t).view.emb (ix3 a r q))
  rw [hemb]
  refine (statsPieces_apply (iblk5 V c 0 t) (iblk5 V c 1 t) (iblk5 V c 2 t) (iblk5 V c 3 t) a r q).trans ?_
  exact blockStats_eq_tileStat ⟨t.val, ht⟩ (pay_rows_at V c Wn hWn bnb hb b1 b2 t) r q

/-- An index of the second output is in point `t`'s block iff each coordinate is in the block's range on its axis. -/
theorem mem_blk5 (t : Fin cfg5.N) (i : S10x8x64.Idx) :
    i ∈ ((cfg5.win 5).blk t).view.set ↔ ∀ a : Fin 3, win5_5.index t a * S1x8x64.size a ≤ (i a).val ∧ (i a).val < win5_5.index t a * S1x8x64.size a + S1x8x64.size a := by
  show i ∈ ((View.whole main_v93_1).slice (win5_5.rect t)).set ↔ _
  rw [View.set_slice_whole, Rect.mem_set_unit]
  exact Iff.rfl

/-- The ten blocks cover the second output: index `(t, r, q)` lies in the block of point `t`. -/
theorem cover5 (i : S10x8x64.Idx) :
    ∃ t : Fin cfg5.N, (cfg5.win 5).flush t = true ∧ i ∈ ((cfg5.win 5).blk t).view.set := by
  have hi0 : (i 0).val < 10 := (i 0).isLt
  have hi1 : (i 1).val < 8 := (i 1).isLt
  have hi2 : (i 2).val < 64 := (i 2).isLt
  have hN : cfg5.N = 10 := N_5
  obtain ⟨t, ht⟩ : ∃ t : Fin cfg5.N, t.val = (i 0).val := ⟨⟨(i 0).val, by rw [hN]; exact hi0⟩, rfl⟩
  obtain ⟨-, -, -, -, -, -, -, -, -, -, e0, e1, e2⟩ := idx_facts t
  refine ⟨t, flush5_5 t, ?_⟩
  rw [mem_blk5]
  intro a
  match a with
  | ⟨0, _⟩ => show win5_5.index t (0 : Fin 3) * 1 ≤ (i 0).val ∧ (i 0).val < win5_5.index t (0 : Fin 3) * 1 + 1; omega
  | ⟨1, _⟩ => show win5_5.index t (1 : Fin 3) * 8 ≤ (i 1).val ∧ (i 1).val < win5_5.index t (1 : Fin 3) * 8 + 8; omega
  | ⟨2, _⟩ => show win5_5.index t (2 : Fin 3) * 64 ≤ (i 2).val ∧ (i 2).val < win5_5.index t (2 : Fin 3) * 64 + 64; omega

include hWn hb in
/-- THE SECOND OUTPUT after the region is the statistics array of `h · W + b + a` of the arrays the region finds. -/
theorem arr_eq_statsRef :
    (dat5 V c).arrAt 5 cfg5.N = statsRef (rawRef (V c main_v58) Wn bnb (V c main_v83) b1 b2) :=
  (dat5 V c).arrAt_eq_of_cover 5 _ (fun t _ => flushed_eq_stats V c Wn hWn bnb hb b1 b2 t) cover5

include hWn hb in
/-- Read at rows 0 and 1 of block `t`: the sums over tile `t` of column `q` of `h · W + b + a` and of its squares. -/
theorem arr_eq_stats (t : Fin 10) (q : Fin 64) :
    ((dat5 V c).arrAt 5 cfg5.N : S10x8x64.Idx → EReal) (ix3 t 0 q)
        = ∑ y : Fin 5000, rawRef (V c main_v58) Wn bnb (V c main_v83) b1 b2 (ix2 ⟨t.val * 5000 + y.val, tile_row_lt t y⟩ q)
    ∧ ((dat5 V c).arrAt 5 cfg5.N : S10x8x64.Idx → EReal) (ix3 t 1 q)
        = ∑ y : Fin 5000, rawRef (V c main_v58) Wn bnb (V c main_v83) b1 b2 (ix2 ⟨t.val * 5000 + y.val, tile_row_lt t y⟩ q)
            * rawRef (V c main_v58) Wn bnb (V c main_v83) b1 b2 (ix2 ⟨t.val * 5000 + y.val, tile_row_lt t y⟩ q) := by
  rw [arr_eq_statsRef V c Wn hWn bnb hb b1 b2]
  exact ⟨tileStat_zero _ t q, tileStat_one _ t q⟩

end Stats

end Cert.KernelIdeal.Region5

end
-- ==== Proof.Region6.lean ====
/-
  The batch normalisation and rectifier of the second layer.  Each grid point `t` (of ten) holds rows
  `5000 t … 5000 t + 4999` of the raw node features (50000 × 64) together with the per-column mean, variance, scale
  and shift as four rows (1 × 64 each), and writes rows `5000 t …` of

      max (((raw − mean) · (var + ε)^(−1/2)) · scale + shift) 0.

  Every row is treated by itself and the ten row blocks tile the 50000 rows, so after the ten points the result array
  is the host-style term `bnReluRef` of the whole arrays.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `raw` and the four rows hold the four
    vectors, the body's result holds the same rows of `bnReluRef`. -/
theorem pay_rows (o : Nat) (raw : FVec Ideal S50000x64 .f32) (mean var gamma beta : FVec Ideal S64 .f32)
    (x0 : FVec Ideal S5000x64 .f32) (xm xv xg xb : FVec Ideal S1x64 .f32)
    (h0 : RowsOf 50000 5000 64 o raw x0)
    (hm : ∀ q : Fin 64, xm (ix2 (0 : Fin 1) q) = mean (ix1 q)) (hv : ∀ q : Fin 64, xv (ix2 (0 : Fin 1) q) = var (ix1 q))
    (hg : ∀ q : Fin 64, xg (ix2 (0 : Fin 1) q) = gamma (ix1 q)) (hb : ∀ q : Fin 64, xb (ix2 (0 : Fin 1) q) = beta (ix1 q))
    (hE : S_.BroadcastsInDim S64 ![]) (h1 : S64.BroadcastsInDim S1x64 ![1])
    (h2 : S1x64.BroadcastsInDim S50000x64 ![0, 1]) (hZ : S_.BroadcastsInDim S50000x64 ![]) :
    RowsOf 50000 5000 64 o (bnReluRef 50000 64 raw mean var gamma beta 0x3727C5AC#32 hE h1 h2 hZ)
      (k6_pay1 (F := Ideal) x0 xv xm xg xb) := by
  unfold k6_pay1
  exact RowsOf.bnRelu h0 mean var gamma beta xm xv xg xb hm hv hg hb 0x3727C5AC#32 hE h1 h2 hZ
    shapeCasts_S5000x64_S5000x64 shapeCasts_S1x64_S1x64 broadcasts_S1x64_S5000x64

/-- The grid's index maps: point `t` holds row block `t` of the raw features and of the result, and the four rows whole. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Point `t`'s block of the raw features holds rows `5000 t …` of the array. -/
theorem raw_rows (c : Dev nD) (t : Fin cfg6.N) :
    RowsOf 50000 5000 64 (t.val * 5000) (V c main_v93_0 : S50000x64.Idx → EReal) (iblk6 V c 0 t) := by
  intro y k h
  obtain ⟨e0, e1, -⟩ := idx_facts t
  show V c main_v93_0 (((cfg6.win 0).blk t).view.emb (ix2 y k)) = V c main_v93_0 (ix2 ⟨t.val * 5000 + y.val, h⟩ k)
  refine congrArg (V c main_v93_0) ?_
  funext a; apply Fin.ext
  match a with
  | ⟨0, _⟩ => show win6_0.index t (0 : Fin 2) * 5000 + 1 * y.val = t.val * 5000 + y.val; omega
  | ⟨1, _⟩ => show win6_0.index t (1 : Fin 2) * 64 + 1 * k.val = k.val; omega

/-- Each one-row window's block is its whole array, at every point. -/
theorem mean_row (c : Dev nD) (t : Fin cfg6.N) (q : Fin 64) :
    iblk6 V c 1 t (ix2 (0 : Fin 1) q) = V c main_v106 (ix2 (0 : Fin 1) q) := by
  obtain ⟨-, -, e0, e1, -⟩ := idx_facts t
  show V c main_v106 (((cfg6.win 1).blk t).view.emb (ix2 (0 : Fin 1) q)) = _
  refine congrArg (V c main_v106) ?_
  funext a; apply Fin.ext
  match a with
  | ⟨0, _⟩ => show win6_1.index t (0 : Fin 2) * 1 + 1 * 0 = 0; omega
  | ⟨1, _⟩ => show win6_1.index t (1 : Fin 2) * 64 + 1 * q.val = q.val; omega

theorem var_row (c : Dev nD) (t : Fin cfg6.N) (q : Fin 64) :
    iblk6 V c 2 t (ix2 (0 : Fin 1) q) = V c main_v107 (ix2 (0 : Fin 1) q) := by
  obtain ⟨-, -, -, -, e0, e1, -⟩ := idx_facts t
  show V c main_v107 (((cfg6.win 2).blk t).view.emb (ix2 (0 : Fin 1) q)) = _
  refine congrArg (V c main_v107) ?_
  funext a; apply Fin.ext
  match a with
  | ⟨0, _⟩ => show win6_2.index t (0 : Fin 2) * 1 + 1 * 0 = 0; omega
  | ⟨1, _⟩ => show win6_2.index t (1 : Fin 2) * 64 + 1 * q.val = q.val; omega

theorem scale_row (c : Dev nD) (t : Fin cfg6.N) (q : Fin 64) :
    iblk6 V c 3 t (ix2 (0 : Fin 1) q) = V c main_v108 (ix2 (0 : Fin 1) q) := by
  obtain ⟨-, -, -, -, -, -, e0, e1, -⟩ := idx_facts t
  show V c main_v108 (((cfg6.win 3).blk t).view.emb (ix2 (0 : Fin 1) q)) = _
  refine congrArg (V c main_v108) ?_
  funext a; apply Fin.ext
  match a with
  | ⟨0, _⟩ => show win6_3.index t (0 : Fin 2) * 1 + 1 * 0 = 0; omega
  | ⟨1, _⟩ => show win6_3.index t (1 : Fin 2) * 64 + 1 * q.val = q.val; omega

theorem shift_row (c : Dev nD) (t : Fin cfg6.N) (q : Fin 64) :
    iblk6 V c 4 t (ix2 (0 : Fin 1) q) = V c main_v109 (ix2 (0 : Fin 1) q) := by
  obtain ⟨-, -, -, -, -, -, -, -, e0, e1, -⟩ := idx_facts t
  show V c main_v109 (((cfg6.win 4).blk t).view.emb (ix2 (0 : Fin 1) q)) = _
  refine congrArg (V c main_v109) ?_
  funext a; apply Fin.ext
  match a with
  | ⟨0, _⟩ => show win6_4.index t (0 : Fin 2) * 1 + 1 * 0 = 0; omega
  | ⟨1, _⟩ => show win6_4.index t (1 : Fin 2) * 64 + 1 * q.val = q.val; omega

section Result

variable (c : Dev nD) (mean var gamma beta : FVec Ideal S64 .f32)
  (hmean : ∀ q : Fin 64, V c main_v106 (ix2 (0 : Fin 1) q) = mean (ix1 q))
  (hvar : ∀ q : Fin 64, V c main_v107 (ix2 (0 : Fin 1) q) = var (ix1 q))
  (hgamma : ∀ q : Fin 64, V c main_v108 (ix2 (0 : Fin 1) q) = gamma (ix1 q))
  (hbeta : ∀ q : Fin 64, V c main_v109 (ix2 (0 : Fin 1) q) = beta (ix1 q))
  (hE : S_.BroadcastsInDim S64 ![]) (h1 : S64.BroadcastsInDim S1x64 ![1])
  (h2 : S1x64.BroadcastsInDim S50000x64 ![0, 1]) (hZ : S_.BroadcastsInDim S50000x64 ![])

include hmean hvar hgamma hbeta in
/-- What point `t` writes back is block `t` of `bnReluRef` of the arrays the region finds. -/
theorem flushed_eq (t : Fin cfg6.N) :
    (dat6 V c).flushed 5 t = ((cfg6.win 5).blk t).view.read (Elt Ideal)
      (bnReluRef 50000 64 (V c main_v93_0) mean var gamma beta 0x3727C5AC#32 hE h1 h2 hZ) := by
  show (cfg6.win 5).cut (grid6.coords t) ((dat6 V c).after 5 t) = _
  rw [after6_5]
  unfold out6_5
  rw [View.canon_unit_zero hz]
  simp only [View.ld_unit_zero (S := S5000x64) hz, View.ld_unit_zero (S := S1x64) hz]
  obtain ⟨-, -, -, -, -, -, -, -, -, -, e0, e1⟩ := idx_facts t
  funext j
  obtain ⟨y, k, rfl⟩ : ∃ (y : Fin 5000) (k : Fin 64), j = ix2 y k := ⟨j 0, j 1, eq_ix2 j⟩
  have hN : cfg6.N = 10 := N_6
  have hlt : t.val * 5000 + y.val < 50000 := by
    have ht := t.isLt
    have hy := y.isLt
    omega
  show k6_pay1 (F := Ideal) (iblk6 V c 0 t) (iblk6 V c 2 t) (iblk6 V c 1 t) (iblk6 V c 3 t) (iblk6 V c 4 t) (ix2 y k)
    = bnReluRef 50000 64 (V c main_v93_0) mean var gamma beta 0x3727C5AC#32 hE h1 h2 hZ (((cfg6.win 5).blk t).view.emb (ix2 y k))
  refine (pay_rows (t.val * 5000) (V c main_v93_0) mean var gamma beta
    (iblk6 V c 0 t) (iblk6 V c 1 t) (iblk6 V c 2 t) (iblk6 V c 3 t) (iblk6 V c 4 t)
    (raw_rows V c t)
    (fun q => (mean_row V c t q).trans (hmean q)) (fun q => (var_row V c t q).trans (hvar q))
    (fun q => (scale_row V c t q).trans (hgamma q)) (fun q => (shift_row V c t q).trans (hbeta q))
    hE h1 h2 hZ y k hlt).trans ?_
  refine congrArg (bnReluRef 50000 64 (V c main_v93_0) mean var gamma beta 0x3727C5AC#32 hE h1 h2 hZ) ?_
  funext a; apply Fin.ext
  match a with
  | ⟨0, _⟩ => show t.val * 5000 + y.val = win6_5.index t (0 : Fin 2) * 5000 + 1 * y.val; omega
  | ⟨1, _⟩ => show k.val = win6_5.index t (1 : Fin 2) * 64 + 1 * k.val; omega

/-- An index of the result array is in point `t`'s block iff each coordinate is in the block's range on its axis. -/
theorem mem_blk (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v110).slice (win6_5.rect t)).set ↔ _
  rw [View.set_slice_whole, Rect.mem_set_unit]
  exact Iff.rfl

/-- The row blocks cover the array: row `r` lies in the block of point `r / 5000`. -/
theorem cover (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, -, -, -, -, e0, e1⟩ := idx_facts t
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

include hmean hvar hgamma hbeta in
/-- THE RESULT ARRAY after the region is `bnReluRef` of the raw features the region finds and the four vectors. -/
theorem arr_eq :
    (dat6 V c).arrAt 5 cfg6.N = bnReluRef 50000 64 (V c main_v93_0) mean var gamma beta 0x3727C5AC#32 hE h1 h2 hZ :=
  (dat6 V c).arrAt_eq_of_cover 5 _
    (fun t _ => flushed_eq V c mean var gamma beta hmean hvar hgamma hbeta hE h1 h2 hZ t) cover

end Result

end Cert.KernelIdeal.Region6

end
-- ==== Proof.GlueN1.lean ====
/-
  Layer 1's node half in the kernel program.  From the layer's messages in the edge kernel's result buffer: the
  host operations before the node kernel sum the messages of every node's incoming edges (a scatter-add into zeros) and
  slice the layer's node parameters; the node kernel leaves the layer's sum before normalisation, and the tile sums of
  its entries and of their squares; the host operations after it turn the tile sums into the column mean and
  variance; the normalisation kernel then leaves the layer's output.  Each buffer is read back as the reference's own
  term of the node features the layer starts from and the launch arrays.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.RefReal
import proofs.«108144_j81140522156740_2_alg».proof.Proof.SpecBridge
import proofs.«108144_j81140522156740_2_alg».proof.Proof.StatsBridge
import proofs.«108144_j81140522156740_2_alg».proof.Proof.GlueKeep
import proofs.«108144_j81140522156740_2_alg».proof.Proof.GlueArgs
import proofs.«108144_j81140522156740_2_alg».proof.Proof.GlueL1
import proofs.«108144_j81140522156740_2_alg».proof.Proof.Region5
import proofs.«108144_j81140522156740_2_alg».proof.Proof.Region6
import proofs.«108144_j81140522156740_2_alg».proof.Proof.LibLayerRows
import proofs.«108144_j81140522156740_2_alg».proof.Proof.LibBnRows
import Idealize.ShloMosaic.Lib.StableHlo.Run
import Idealize.ShloMosaic.PureOps.Ideal.Laws

set_option maxRecDepth 16384

noncomputable section

open scoped BigOperators

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

section N1

/-! ## Layer 1: from the node features `H` and the messages `MSG` to the layer's output -/

variable (H : FVec Ideal S50000x64 .f32) (hH : (W8 m ρ c (Proc.devRef .tc main_v58) : S50000x64.Idx → EReal) = H)
variable (MSG : FVec Ideal S800000x64 .f32) (hmsg : (W10 m ρ c (Proc.devRef .tc main_v79) : S800000x64.Idx → EReal) = MSG)

/-! ### After the host operations before the node kernel -/

include hmsg in
/-- The sum of the messages of every node's incoming edges. -/
theorem N1_v31 : (W11 m ρ c (Proc.devRef .tc main_v83) : S50000x64.Idx → EReal)
    = Cert.ReferenceIdeal.RefRun.aggr MSG (Cert.ReferenceIdeal.RefRun.dstCol (m ((c : Thread nD τ).loc main_arg1))) := by
  show StableHlo.after hostOps5 (W10 m ρ c) (Proc.devRef .tc main_v83) = _
  after_results
  rw [hmsg, at_main_v3_10 m ρ c]
  exact Cert.SpecBridge.scatterAdd_eq _ _ _ _

/-- The layer's node weights. -/
theorem N1_v33 : (W11 m ρ c (Proc.devRef .tc main_v85) : S64x64.Idx → EReal)
    = Cert.ReferenceIdeal.RefRun.sliceWn 1 (m ((c : Thread nD τ).loc main_arg8)) := by
  show StableHlo.after hostOps5 (W10 m ρ c) (Proc.devRef .tc main_v85) = _
  after_results
  rw [at_main_arg8_10 m ρ c]
  rfl

/-- The layer's node bias, as one row. -/
theorem N1_v40 : (W11 m ρ c (Proc.devRef .tc main_v92) : S1x64.Idx → EReal)
    = shapeCast S1x64 (Cert.ReferenceIdeal.RefRun.sliceRow 1 (m ((c : Thread nD τ).loc main_arg9))) shapeCasts_S64_S1x64 := by
  show StableHlo.after hostOps5 (W10 m ρ c) (Proc.devRef .tc main_v92) = _
  after_results
  rw [at_main_arg9_10 m ρ c]
  rfl

/-- The layer's normalisation scale. -/
theorem N1_v37 : (W11 m ρ c (Proc.devRef .tc main_v89) : S64.Idx → EReal)
    = Cert.ReferenceIdeal.RefRun.sliceRow 1 (m ((c : Thread nD τ).loc main_arg14)) := by
  show StableHlo.after hostOps5 (W10 m ρ c) (Proc.devRef .tc main_v89) = _
  after_results
  rw [at_main_arg14_10 m ρ c]
  rfl

/-- The layer's normalisation shift. -/
theorem N1_v39 : (W11 m ρ c (Proc.devRef .tc main_v91) : S64.Idx → EReal)
    = Cert.ReferenceIdeal.RefRun.sliceRow 1 (m ((c : Thread nD τ).loc main_arg15)) := by
  show StableHlo.after hostOps5 (W10 m ρ c) (Proc.devRef .tc main_v91) = _
  after_results
  rw [at_main_arg15_10 m ρ c]
  rfl

include hH in
/-- The node features the layer starts from are still in their buffer. -/
theorem N1_v6 : (W11 m ρ c (Proc.devRef .tc main_v58) : S50000x64.Idx → EReal) = H :=
  (keep_main_v58_8_11 m ρ c).trans hH

/-! ### The node kernel -/

/-- The node kernel's weight operand holds the layer's node weights, entry by entry. -/
theorem N1_Wn_entries (i : S64x64.Idx) : V11 m ρ c main_v85 i = (Cert.ReferenceIdeal.RefRun.sliceWn 1 (m ((c : Thread nD τ).loc main_arg8))) i := by
  show (W11 m ρ c (Proc.devRef .tc main_v85) : S64x64.Idx → EReal) i = _
  rw [N1_v33 m ρ c]

/-- The node kernel's bias operand holds the layer's node bias along its one row. -/
theorem N1_bnb_row (q : Fin 64) : V11 m ρ c main_v92 (ix2 (0 : Fin 1) q) = (Cert.ReferenceIdeal.RefRun.sliceRow 1 (m ((c : Thread nD τ).loc main_arg9))) (ix1 q) := by
  show (W11 m ρ c (Proc.devRef .tc main_v92) : S1x64.Idx → EReal) (ix2 (0 : Fin 1) q) = _
  rw [N1_v40 m ρ c]
  exact Cert.Lib.RowBlocks.cast_row_apply _ _ q

include hH hmsg in
/-- What the node kernel's sum is of, read back: the node features and the summed messages. -/
theorem N1_rawRef : Cert.KernelIdeal.Region5.rawRef (V11 m ρ c main_v58) (Cert.ReferenceIdeal.RefRun.sliceWn 1 (m ((c : Thread nD τ).loc main_arg8))) (Cert.ReferenceIdeal.RefRun.sliceRow 1 (m ((c : Thread nD τ).loc main_arg9))) (V11 m ρ c main_v83)
      Cert.ReferenceIdeal.Facts₀.bcast_S64_S1x64_1 Cert.ReferenceIdeal.Facts₀.bcast_S1x64_S50000x64_0_1
    = Cert.ReferenceIdeal.RefRun.raw H (Cert.ReferenceIdeal.RefRun.sliceWn 1 (m ((c : Thread nD τ).loc main_arg8))) (Cert.ReferenceIdeal.RefRun.sliceRow 1 (m ((c : Thread nD τ).loc main_arg9))) (Cert.ReferenceIdeal.RefRun.aggr MSG (Cert.ReferenceIdeal.RefRun.dstCol (m ((c : Thread nD τ).loc main_arg1)))) := by
  show Cert.KernelIdeal.Region5.rawRef (W11 m ρ c (Proc.devRef .tc main_v58)) _ _ (W11 m ρ c (Proc.devRef .tc main_v83)) _ _ = _
  rw [N1_v6 m ρ c H hH, N1_v31 m ρ c MSG hmsg]
  rfl

include hH hmsg in
/-- The node kernel's first result buffer holds the layer's sum before normalisation. -/
theorem N1_raw : (W12 m ρ c (Proc.devRef .tc main_v93_0) : S50000x64.Idx → EReal) = Cert.ReferenceIdeal.RefRun.raw H (Cert.ReferenceIdeal.RefRun.sliceWn 1 (m ((c : Thread nD τ).loc main_arg8))) (Cert.ReferenceIdeal.RefRun.sliceRow 1 (m ((c : Thread nD τ).loc main_arg9))) (Cert.ReferenceIdeal.RefRun.aggr MSG (Cert.ReferenceIdeal.RefRun.dstCol (m ((c : Thread nD τ).loc main_arg1)))) :=
  ((W12_arr m ρ c 4).trans (Cert.KernelIdeal.Region5.arr_eq_raw (V11 m ρ) c (Cert.ReferenceIdeal.RefRun.sliceWn 1 (m ((c : Thread nD τ).loc main_arg8))) (N1_Wn_entries m ρ c) (Cert.ReferenceIdeal.RefRun.sliceRow 1 (m ((c : Thread nD τ).loc main_arg9))) (N1_bnb_row m ρ c)
    Cert.ReferenceIdeal.Facts₀.bcast_S64_S1x64_1 Cert.ReferenceIdeal.Facts₀.bcast_S1x64_S50000x64_0_1)).trans
    (N1_rawRef m ρ c H hH MSG hmsg)

include hH hmsg in
/-- The node kernel's second result buffer holds, at rows 0 and 1 of tile `t`, the tile's column sums of the layer's sum
    and of its squares. -/
theorem N1_stats (t : Fin 10) (q : Fin 64) :
    (W12 m ρ c (Proc.devRef .tc main_v93_1) : S10x8x64.Idx → EReal) (ix3 t 0 q)
        = ∑ y : Fin 5000, (Cert.ReferenceIdeal.RefRun.raw H (Cert.ReferenceIdeal.RefRun.sliceWn 1 (m ((c : Thread nD τ).loc main_arg8))) (Cert.ReferenceIdeal.RefRun.sliceRow 1 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
    ∧ (W12 m ρ c (Proc.devRef .tc main_v93_1) : S10x8x64.Idx → EReal) (ix3 t 1 q)
        = ∑ y : Fin 5000, (Cert.ReferenceIdeal.RefRun.raw H (Cert.ReferenceIdeal.RefRun.sliceWn 1 (m ((c : Thread nD τ).loc main_arg8))) (Cert.ReferenceIdeal.RefRun.sliceRow 1 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
            * (Cert.ReferenceIdeal.RefRun.raw H (Cert.ReferenceIdeal.RefRun.sliceWn 1 (m ((c : Thread nD τ).loc main_arg8))) (Cert.ReferenceIdeal.RefRun.sliceRow 1 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q) := by
  have e : (W12 m ρ c (Proc.devRef .tc main_v93_1) : S10x8x64.Idx → EReal)
      = ((dat5 (V11 m ρ) c).arrAt 5 cfg5.N : S10x8x64.Idx → EReal) := W12_arr m ρ c 5
  have h := Cert.KernelIdeal.Region5.arr_eq_stats (V11 m ρ) c (Cert.ReferenceIdeal.RefRun.sliceWn 1 (m ((c : Thread nD τ).loc main_arg8))) (N1_Wn_entries m ρ c) (Cert.ReferenceIdeal.RefRun.sliceRow 1 (m ((c : Thread nD τ).loc main_arg9))) (N1_bnb_row m ρ c)
    Cert.ReferenceIdeal.Facts₀.bcast_S64_S1x64_1 Cert.ReferenceIdeal.Facts₀.bcast_S1x64_S50000x64_0_1 t q
  rw [N1_rawRef m ρ c H hH MSG hmsg] at h
  rw [e]
  exact h

/-! ### After the node kernel: the column statistics, and the normalisation kernel

The node kernel's first result `RAW` and the tile sums it leaves beside it enter here as hypotheses. -/

section Norm

variable (RAW : FVec Ideal S50000x64 .f32)
  (hraw : (W12 m ρ c (Proc.devRef .tc main_v93_0) : S50000x64.Idx → EReal) = RAW)
  (hs0 : ∀ (t : Fin 10) (q : Fin 64), (W12 m ρ c (Proc.devRef .tc main_v93_1) : S10x8x64.Idx → EReal) (ix3 t 0 q)
    = ∑ y : Fin 5000, RAW (ix2 ⟨t.val * 5000 + y.val, Cert.StatsBridge.row_lt t y⟩ q))
  (hs1 : ∀ (t : Fin 10) (q : Fin 64), (W12 m ρ c (Proc.devRef .tc main_v93_1) : S10x8x64.Idx → EReal) (ix3 t 1 q)
    = ∑ y : Fin 5000, RAW (ix2 ⟨t.val * 5000 + y.val, Cert.StatsBridge.row_lt t y⟩ q)
        * RAW (ix2 ⟨t.val * 5000 + y.val, Cert.StatsBridge.row_lt t y⟩ q))
  (hreal : Cert.Lib.RealEntries.AllReal RAW)

include hs0 in
/-- The column means, as one row. -/
theorem N1_v54 : (W13 m ρ c (Proc.devRef .tc main_v106) : S1x64.Idx → EReal)
    = shapeCast S1x64 (Cert.ReferenceIdeal.RefRun.colMean RAW) shapeCasts_S64_S1x64 := by
  show StableHlo.after hostOps6 (W12 m ρ c) (Proc.devRef .tc main_v106) = _
  after_results
  exact congrArg (fun v : S64.Idx → EReal => shapeCast S1x64 v shapeCasts_S64_S1x64)
    (Cert.StatsBridge.mean_eq (W12 m ρ c (Proc.devRef .tc main_v93_1)) RAW hs0)

include hs0 hs1 hreal in
/-- The column variances, as one row. -/
theorem N1_v55 : (W13 m ρ c (Proc.devRef .tc main_v107) : S1x64.Idx → EReal)
    = shapeCast S1x64 (Cert.ReferenceIdeal.RefRun.colVar RAW) shapeCasts_S64_S1x64 := by
  show StableHlo.after hostOps6 (W12 m ρ c) (Proc.devRef .tc main_v107) = _
  after_results_simp
  exact congrArg (fun v : S64.Idx → EReal => shapeCast S1x64 v shapeCasts_S64_S1x64)
    (Cert.StatsBridge.var_eq (W12 m ρ c (Proc.devRef .tc main_v93_1)) RAW hs0 hs1 hreal)

/-- The normalisation scale, as one row. -/
theorem N1_v56 : (W13 m ρ c (Proc.devRef .tc main_v108) : S1x64.Idx → EReal)
    = shapeCast S1x64 (Cert.ReferenceIdeal.RefRun.sliceRow 1 (m ((c : Thread nD τ).loc main_arg14))) shapeCasts_S64_S1x64 := by
  show StableHlo.after hostOps6 (W12 m ρ c) (Proc.devRef .tc main_v108) = _
  after_results
  rw [keep_main_v89_11_12 m ρ c, N1_v37 m ρ c]
  rfl

/-- The normalisation shift, as one row. -/
theorem N1_v57 : (W13 m ρ c (Proc.devRef .tc main_v109) : S1x64.Idx → EReal)
    = shapeCast S1x64 (Cert.ReferenceIdeal.RefRun.sliceRow 1 (m ((c : Thread nD τ).loc main_arg15))) shapeCasts_S64_S1x64 := by
  show StableHlo.after hostOps6 (W12 m ρ c) (Proc.devRef .tc main_v109) = _
  after_results
  rw [keep_main_v91_11_12 m ρ c, N1_v39 m ρ c]
  rfl

include hraw in
/-- The node kernel's first result is still in its buffer. -/
theorem N1_raw7 : (W13 m ρ c (Proc.devRef .tc main_v93_0) : S50000x64.Idx → EReal) = RAW :=
  (keep_main_v93_0_12_13 m ρ c).trans hraw

include hraw hs0 hs1 hreal in
/-- The normalisation kernel's result buffer holds the reference's normalised and rectified `RAW`. -/
theorem N1_norm : (W14 m ρ c (Proc.devRef .tc main_v110) : S50000x64.Idx → EReal)
    = Cert.ReferenceIdeal.RefRun.bnRelu RAW (Cert.ReferenceIdeal.RefRun.colMean RAW) (Cert.ReferenceIdeal.RefRun.colVar RAW)
        (Cert.ReferenceIdeal.RefRun.sliceRow 1 (m ((c : Thread nD τ).loc main_arg14))) (Cert.ReferenceIdeal.RefRun.sliceRow 1 (m ((c : Thread nD τ).loc main_arg15))) := by
  refine (W14_arr m ρ c 5).trans ?_
  refine (Cert.KernelIdeal.Region6.arr_eq (V13 m ρ) c (Cert.ReferenceIdeal.RefRun.colMean RAW) (Cert.ReferenceIdeal.RefRun.colVar RAW)
    (Cert.ReferenceIdeal.RefRun.sliceRow 1 (m ((c : Thread nD τ).loc main_arg14))) (Cert.ReferenceIdeal.RefRun.sliceRow 1 (m ((c : Thread nD τ).loc main_arg15)))
    (fun q => ?hmean) (fun q => ?hvar) (fun q => ?hgamma) (fun q => ?hbeta)
    Cert.ReferenceIdeal.Facts₀.bcast_S_S64 Cert.ReferenceIdeal.Facts₀.bcast_S64_S1x64_1
    Cert.ReferenceIdeal.Facts₀.bcast_S1x64_S50000x64_0_1 Cert.ReferenceIdeal.Facts₀.bcast_S_S50000x64).trans ?_
  case hmean =>
    show (W13 m ρ c (Proc.devRef .tc main_v106) : S1x64.Idx → EReal) (ix2 (0 : Fin 1) q) = _
    rw [N1_v54 m ρ c RAW hs0]
    exact Cert.Lib.RowBlocks.cast_row_apply _ _ q
  case hvar =>
    show (W13 m ρ c (Proc.devRef .tc main_v107) : S1x64.Idx → EReal) (ix2 (0 : Fin 1) q) = _
    rw [N1_v55 m ρ c RAW hs0 hs1 hreal]
    exact Cert.Lib.RowBlocks.cast_row_apply _ _ q
  case hgamma =>
    show (W13 m ρ c (Proc.devRef .tc main_v108) : S1x64.Idx → EReal) (ix2 (0 : Fin 1) q) = _
    rw [N1_v56 m ρ c]
    exact Cert.Lib.RowBlocks.cast_row_apply _ _ q
  case hbeta =>
    show (W13 m ρ c (Proc.devRef .tc main_v109) : S1x64.Idx → EReal) (ix2 (0 : Fin 1) q) = _
    rw [N1_v57 m ρ c]
    exact Cert.Lib.RowBlocks.cast_row_apply _ _ q
  show Cert.Lib.RowBlocks.bnReluRef 50000 64 (W13 m ρ c (Proc.devRef .tc main_v93_0)) _ _ _ _ _ _ _ _ _ = _
  rw [N1_raw7 m ρ c RAW hraw]
  exact Cert.SpecBridge.bnReluRef_eq _ _ _ _ _ _ _ _ _

end Norm

end N1

/-! ## Layer 1, assembled -/

/-- Layer 1 of the kernel program: from the node features `H` in the layer's input buffer to the reference's layer
    1 of `H` in the normalisation kernel's result buffer, for real node features and real launch arrays. -/
theorem N1_out (H : FVec Ideal S50000x64 .f32) (hH : (W8 m ρ c (Proc.devRef .tc main_v58) : S50000x64.Idx → EReal) = H)
    (hHr : Cert.Lib.RealEntries.AllReal H) (hEA : Cert.Lib.RealEntries.AllReal (Cert.ReferenceIdeal.RefRun.edgeEmbed (m ((c : Thread nD τ).loc main_arg2)) (m ((c : Thread nD τ).loc main_arg6)) (m ((c : Thread nD τ).loc main_arg7))))
    (r8 : Cert.Lib.RealEntries.AllReal ((m ((c : Thread nD τ).loc main_arg8)) : S3x64x64.Idx → EReal)) (r9 : Cert.Lib.RealEntries.AllReal ((m ((c : Thread nD τ).loc main_arg9)) : S3x64.Idx → EReal))
    (r10 : Cert.Lib.RealEntries.AllReal ((m ((c : Thread nD τ).loc main_arg10)) : S3x32x64.Idx → EReal)) (r11 : Cert.Lib.RealEntries.AllReal ((m ((c : Thread nD τ).loc main_arg11)) : S3x64.Idx → EReal))
    (r12 : Cert.Lib.RealEntries.AllReal ((m ((c : Thread nD τ).loc main_arg12)) : S3x128x64.Idx → EReal)) (r13 : Cert.Lib.RealEntries.AllReal ((m ((c : Thread nD τ).loc main_arg13)) : S3x64.Idx → EReal))
    (r14 : Cert.Lib.RealEntries.AllReal ((m ((c : Thread nD τ).loc main_arg14)) : S3x64.Idx → EReal)) (r15 : Cert.Lib.RealEntries.AllReal ((m ((c : Thread nD τ).loc main_arg15)) : S3x64.Idx → EReal)) :
    (W14 m ρ c (Proc.devRef .tc main_v110) : S50000x64.Idx → EReal)
      = Cert.ReferenceIdeal.RefRun.layerAt 1 H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hmsg := L1_v27 m ρ c H hH
  have hreal : Cert.Lib.RealEntries.AllReal (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 1 (m ((c : Thread nD τ).loc main_arg10))) (Cert.ReferenceIdeal.RefRun.sliceRow 1 (m ((c : Thread nD τ).loc main_arg11)))
      (Cert.ReferenceIdeal.RefRun.sliceWg 1 (m ((c : Thread nD τ).loc main_arg12))) (Cert.ReferenceIdeal.RefRun.sliceRow 1 (m ((c : Thread nD τ).loc main_arg13)))
      (Cert.ReferenceIdeal.RefRun.sliceWn 1 (m ((c : Thread nD τ).loc main_arg8))) (Cert.ReferenceIdeal.RefRun.sliceRow 1 (m ((c : Thread nD τ).loc main_arg9)))) :=
    Cert.ReferenceIdeal.RefReal.layerRaw_real _ _ hHr hEA (Cert.ReferenceIdeal.RefReal.sliceWe_real 1 r10) (Cert.ReferenceIdeal.RefReal.sliceRow_real 1 r11)
      (Cert.ReferenceIdeal.RefReal.sliceWg_real 1 r12) (Cert.ReferenceIdeal.RefReal.sliceRow_real 1 r13) (Cert.ReferenceIdeal.RefReal.sliceWn_real 1 r8) (Cert.ReferenceIdeal.RefReal.sliceRow_real 1 r9)
  exact N1_norm m ρ c (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 1 (m ((c : Thread nD τ).loc main_arg10))) (Cert.ReferenceIdeal.RefRun.sliceRow 1 (m ((c : Thread nD τ).loc main_arg11)))
      (Cert.ReferenceIdeal.RefRun.sliceWg 1 (m ((c : Thread nD τ).loc main_arg12))) (Cert.ReferenceIdeal.RefRun.sliceRow 1 (m ((c : Thread nD τ).loc main_arg13)))
      (Cert.ReferenceIdeal.RefRun.sliceWn 1 (m ((c : Thread nD τ).loc main_arg8))) (Cert.ReferenceIdeal.RefRun.sliceRow 1 (m ((c : Thread nD τ).loc main_arg9))))
    (N1_raw m ρ c H hH _ hmsg)
    (fun t q => (N1_stats m ρ c H hH _ hmsg t q).1) (fun t q => (N1_stats m ρ c H hH _ hmsg t q).2) hreal

end Cert.KernelIdeal.Glue

end
-- ==== Proof.Region7.lean ====
/-
  The edge kernel of the third layer: the gated message along every edge.  Each grid point `t` (of a hundred) holds rows
  `8000 t … 8000 t + 7999` of the edge attributes (800000 × 1) and of the gathered source-node features `xj`
  (800000 × 64), and the whole of the small operands: the attribute embedding's row `Wa` (1 × 32) and bias, the edge
  transform `We` (32 × 64) and bias, the two halves of the gate's matrix `Wg` (its rows 0 … 63 and 64 … 127) and the
  gate's bias, each bias as one row.  It writes rows `8000 t …` of

      msg = σ([xj | (attr · Wa + ba) · We + be] · Wg + bg) · xj,        σ(z) = 1 / (1 + e⁻ᶻ).

  Every step reads an edge's own row only, and the hundred row blocks tile the 800000 rows, so the result array after the
  hundred points is that term of the whole arrays, spelt with the host's operations.
-/
import proofs.«108144_j81140522156740_2_alg».proof.Proof.Gen.KernelIdeal.Frame
import proofs.«108144_j81140522156740_2_alg».proof.Proof.LibEdgeRows
import Idealize.ShloMosaic.Lib.Pipeline.Value
import Idealize.ShloMosaic.Lib.ValueIdx

set_option maxRecDepth 16384

noncomputable section

namespace Cert.KernelIdeal.Region7

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

/-- The gated messages of all 800000 edges as one function of whole arrays: 32 attribute features, 64 node features,
    the gate's matrix of 64 + 64 = 128 rows. -/
abbrev msgRef := @edgeMsg 800000 32 64 64 128

theorem hz : (![0, 0] : Fin 2 → Nat) = fun _ => 0 := funext fun a => by fin_cases a <;> rfl

/-- The body's arithmetic on a block of 8000 edges is the gated message of those edges: when the two long blocks hold
    rows `o …` of the attributes and of the source features and the small operands are the long side's entry by entry. -/
theorem pay_rows {o : Nat} {attr : FVec Ideal S800000x1 .f32} {xj : FVec Ideal S800000x64 .f32}
    (x0 : FVec Ideal S8000x1 .f32) (x1 : FVec Ideal S8000x64 .bf16) (x2 x3 : FVec Ideal S1x32 .f32) (x4 : FVec Ideal S32x64 .f32)
    (x5 : FVec Ideal S1x64 .f32) (x6 x7 : FVec Ideal S64x64 .f32) (x8 : FVec Ideal S1x64 .f32)
    (h0 : RowsOf 800000 8000 1 o attr x0) (hx : RowsOf 800000 8000 64 o xj x1)
    (Wa : FVec Ideal S1x32 .f32) (hWa : ∀ i, x2 i = Wa i)
    (ba : S32.Idx → EReal) (hba : ∀ q : Fin 32, x3 (ix2 (0 : Fin 1) q) = ba (ix1 q))
    (We : FVec Ideal S32x64 .f32) (hWe : ∀ i, x4 i = We i)
    (be : S64.Idx → EReal) (hbe : ∀ q : Fin 64, x5 (ix2 (0 : Fin 1) q) = be (ix1 q))
    (Wg : FVec Ideal S128x64 .f32)
    (hWgx : ∀ (k q : Fin 64) (hk : k.val < 128), x6 (ix2 k q) = Wg (ix2 ⟨k.val, hk⟩ q))
    (hWge : ∀ (k q : Fin 64) (hk : 64 + k.val < 128), x7 (ix2 k q) = Wg (ix2 ⟨64 + k.val, hk⟩ q))
    (bg : S64.Idx → EReal) (hbg : ∀ q : Fin 64, x8 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    RowsOf 800000 8000 64 o (msgRef attr xj Wa ba We be Wg bg ha1 ha2 he1 he2 hg1 hg2 hcat h1 h1')
      (k7_pay1 (F := Ideal) x0 x2 x3 x4 x5 x1 x6 x7 x8) := by
  unfold k7_pay1
  exact RowsOf.edgeMsg (E := 800000) (M := 8000) (C := 32) (D := 64) (D' := 64) (K := 128) rfl h0 hx Wa x2 hWa ba x3 hba We x4 hWe be x5 hbe
    Wg x6 x7 hWgx hWge bg x8 hbg ha1 ha2 he1 he2 hg1 hg2 hcat h1 h1'
    broadcasts_S8000x1_S8000x32 broadcasts_S1x32_S8000x32 shapeCasts_S1x32_S1x32 shapeCasts_S32x64_S32x64
    shapeCasts_S1x64_S1x64 broadcasts_S1x64_S8000x64 shapeCasts_S8000x64_S8000x64 shapeCasts_S64x64_S64x64 shapeCasts_S64x64_S64x64
    shapeCasts_S1x64_S1x64 broadcasts_S1x64_S8000x64 bitsLt_bf16_f32

/-- The grid's index maps: point `t` holds row block `t` of the attributes, of the source features and of the result,
    and the whole of every small operand. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = 0
    ∧ win7_7.index t (1 : Fin 2) = 0
    ∧ win7_8.index t (0 : Fin 2) = 0
    ∧ win7_8.index t (1 : Fin 2) = 0
    ∧ win7_9.index t (0 : Fin 2) = t.val
    ∧ win7_9.index t (1 : Fin 2) = 0 :=
  (by decide +kernel : ∀ t : Fin grid7.N, _)

/-- Window 0's block at point `t` holds rows `8000 t … 8000 t + 7999` of its array. -/
theorem rows0 (c : Dev nD) (t : Fin cfg7.N) : RowsOf 800000 8000 1 (8000 * t.val) (V c main_arg2) (iblk7 V c 0 t) := by
  intro y k h
  obtain ⟨e0r, e0c, e1r, e1c, e2r, e2c, e3r, e3c, e4r, e4c, e5r, e5c, e6r, e6c, e7r, e7c, e8r, e8c, e9r, e9c⟩ := idx_facts t
  show V c main_arg2 (((cfg7.win 0).blk t).view.emb (ix2 y k)) = V c main_arg2 (ix2 ⟨8000 * t.val + y.val, h⟩ k)
  refine congrArg (V c main_arg2) (funext fun a => Fin.ext ?_)
  match a with
  | ⟨0, _⟩ => show win7_0.index t (0 : Fin 2) * 8000 + 1 * y.val = 8000 * t.val + y.val; omega
  | ⟨1, _⟩ => show win7_0.index t (1 : Fin 2) * 1 + 1 * k.val = k.val; omega

/-- Window 1's block at point `t` holds rows `8000 t … 8000 t + 7999` of its array. -/
theorem rows1 (c : Dev nD) (t : Fin cfg7.N) : RowsOf 800000 8000 64 (8000 * t.val) (V c main_v126) (iblk7 V c 1 t) := by
  intro y k h
  obtain ⟨e0r, e0c, e1r, e1c, e2r, e2c, e3r, e3c, e4r, e4c, e5r, e5c, e6r, e6c, e7r, e7c, e8r, e8c, e9r, e9c⟩ := idx_facts t
  show V c main_v126 (((cfg7.win 1).blk t).view.emb (ix2 y k)) = V c main_v126 (ix2 ⟨8000 * t.val + y.val, h⟩ k)
  refine congrArg (V c main_v126) (funext fun a => Fin.ext ?_)
  match a with
  | ⟨0, _⟩ => show win7_1.index t (0 : Fin 2) * 8000 + 1 * y.val = 8000 * t.val + y.val; omega
  | ⟨1, _⟩ => show win7_1.index t (1 : Fin 2) * 64 + 1 * k.val = k.val; omega

/-- Window 2 is held whole at every point: its block reads the array as it stands. -/
theorem blk2 (c : Dev nD) (t : Fin cfg7.N) (i : S1x32.Idx) : iblk7 V c 2 t i = V c main_arg6 i := by
  obtain ⟨e0r, e0c, e1r, e1c, e2r, e2c, e3r, e3c, e4r, e4c, e5r, e5c, e6r, e6c, e7r, e7c, e8r, e8c, e9r, e9c⟩ := idx_facts t
  show V c main_arg6 (((cfg7.win 2).blk t).view.emb i) = V c main_arg6 i
  refine congrArg (V c main_arg6) (funext fun a => Fin.ext ?_)
  match a with
  | ⟨0, _⟩ => show win7_2.index t (0 : Fin 2) * 1 + 1 * (i 0).val = (i 0).val; omega
  | ⟨1, _⟩ => show win7_2.index t (1 : Fin 2) * 32 + 1 * (i 1).val = (i 1).val; omega

/-- Window 3 is held whole at every point: its block reads the array as it stands. -/
theorem blk3 (c : Dev nD) (t : Fin cfg7.N) (i : S1x32.Idx) : iblk7 V c 3 t i = V c main_v5 i := by
  obtain ⟨e0r, e0c, e1r, e1c, e2r, e2c, e3r, e3c, e4r, e4c, e5r, e5c, e6r, e6c, e7r, e7c, e8r, e8c, e9r, e9c⟩ := idx_facts t
  show V c main_v5 (((cfg7.win 3).blk t).view.emb i) = V c main_v5 i
  refine congrArg (V c main_v5) (funext fun a => Fin.ext ?_)
  match a with
  | ⟨0, _⟩ => show win7_3.index t (0 : Fin 2) * 1 + 1 * (i 0).val = (i 0).val; omega
  | ⟨1, _⟩ => show win7_3.index t (1 : Fin 2) * 32 + 1 * (i 1).val = (i 1).val; omega

/-- Window 4 is held whole at every point: its block reads the array as it stands. -/
theorem blk4 (c : Dev nD) (t : Fin cfg7.N) (i : S32x64.Idx) : iblk7 V c 4 t i = V c main_v113 i := by
  obtain ⟨e0r, e0c, e1r, e1c, e2r, e2c, e3r, e3c, e4r, e4c, e5r, e5c, e6r, e6c, e7r, e7c, e8r, e8c, e9r, e9c⟩ := idx_facts t
  show V c main_v113 (((cfg7.win 4).blk t).view.emb i) = V c main_v113 i
  refine congrArg (V c main_v113) (funext fun a => Fin.ext ?_)
  match a with
  | ⟨0, _⟩ => show win7_4.index t (0 : Fin 2) * 32 + 1 * (i 0).val = (i 0).val; omega
  | ⟨1, _⟩ => show win7_4.index t (1 : Fin 2) * 64 + 1 * (i 1).val = (i 1).val; omega

/-- Window 5 is held whole at every point: its block reads the array as it stands. -/
theorem blk5 (c : Dev nD) (t : Fin cfg7.N) (i : S1x64.Idx) : iblk7 V c 5 t i = V c main_v127 i := by
  obtain ⟨e0r, e0c, e1r, e1c, e2r, e2c, e3r, e3c, e4r, e4c, e5r, e5c, e6r, e6c, e7r, e7c, e8r, e8c, e9r, e9c⟩ := idx_facts t
  show V c main_v127 (((cfg7.win 5).blk t).view.emb i) = V c main_v127 i
  refine congrArg (V c main_v127) (funext fun a => Fin.ext ?_)
  match a with
  | ⟨0, _⟩ => show win7_5.index t (0 : Fin 2) * 1 + 1 * (i 0).val = (i 0).val; omega
  | ⟨1, _⟩ => show win7_5.index t (1 : Fin 2) * 64 + 1 * (i 1).val = (i 1).val; omega

/-- Window 6 is held whole at every point: its block reads the array as it stands. -/
theorem blk6 (c : Dev nD) (t : Fin cfg7.N) (i : S64x64.Idx) : iblk7 V c 6 t i = V c main_v129 i := by
  obtain ⟨e0r, e0c, e1r, e1c, e2r, e2c, e3r, e3c, e4r, e4c, e5r, e5c, e6r, e6c, e7r, e7c, e8r, e8c, e9r, e9c⟩ := idx_facts t
  show V c main_v129 (((cfg7.win 6).blk t).view.emb i) = V c main_v129 i
  refine congrArg (V c main_v129) (funext fun a => Fin.ext ?_)
  match a with
  | ⟨0, _⟩ => show win7_6.index t (0 : Fin 2) * 64 + 1 * (i 0).val = (i 0).val; omega
  | ⟨1, _⟩ => show win7_6.index t (1 : Fin 2) * 64 + 1 * (i 1).val = (i 1).val; omega

/-- Window 7 is held whole at every point: its block reads the array as it stands. -/
theorem blk7 (c : Dev nD) (t : Fin cfg7.N) (i : S64x64.Idx) : iblk7 V c 7 t i = V c main_v130 i := by
  obtain ⟨e0r, e0c, e1r, e1c, e2r, e2c, e3r, e3c, e4r, e4c, e5r, e5c, e6r, e6c, e7r, e7c, e8r, e8c, e9r, e9c⟩ := idx_facts t
  show V c main_v130 (((cfg7.win 7).blk t).view.emb i) = V c main_v130 i
  refine congrArg (V c main_v130) (funext fun a => Fin.ext ?_)
  match a with
  | ⟨0, _⟩ => show win7_7.index t (0 : Fin 2) * 64 + 1 * (i 0).val = (i 0).val; omega
  | ⟨1, _⟩ => show win7_7.index t (1 : Fin 2) * 64 + 1 * (i 1).val = (i 1).val; omega

/-- Window 8 is held whole at every point: its block reads the array as it stands. -/
theorem blk8 (c : Dev nD) (t : Fin cfg7.N) (i : S1x64.Idx) : iblk7 V c 8 t i = V c main_v128 i := by
  obtain ⟨e0r, e0c, e1r, e1c, e2r, e2c, e3r, e3c, e4r, e4c, e5r, e5c, e6r, e6c, e7r, e7c, e8r, e8c, e9r, e9c⟩ := idx_facts t
  show V c main_v128 (((cfg7.win 8).blk t).view.emb i) = V c main_v128 i
  refine congrArg (V c main_v128) (funext fun a => Fin.ext ?_)
  match a with
  | ⟨0, _⟩ => show win7_8.index t (0 : Fin 2) * 1 + 1 * (i 0).val = (i 0).val; omega
  | ⟨1, _⟩ => show win7_8.index t (1 : Fin 2) * 64 + 1 * (i 1).val = (i 1).val; omega

/-- What point `t` writes back is block `t` of the messages of the arrays the region finds. -/
theorem flushed_eq (c : Dev nD) (t : Fin cfg7.N)
    (ba : S32.Idx → EReal) (hba : ∀ q : Fin 32, V c main_v5 (ix2 (0 : Fin 1) q) = ba (ix1 q))
    (We : FVec Ideal S32x64 .f32) (hWe : ∀ i, V c main_v113 i = We i)
    (be : S64.Idx → EReal) (hbe : ∀ q : Fin 64, V c main_v127 (ix2 (0 : Fin 1) q) = be (ix1 q))
    (Wg : FVec Ideal S128x64 .f32)
    (hWgx : ∀ (k q : Fin 64) (hk : k.val < 128), V c main_v129 (ix2 k q) = Wg (ix2 ⟨k.val, hk⟩ q))
    (hWge : ∀ (k q : Fin 64) (hk : 64 + k.val < 128), V c main_v130 (ix2 k q) = Wg (ix2 ⟨64 + k.val, hk⟩ q))
    (bg : S64.Idx → EReal) (hbg : ∀ q : Fin 64, V c main_v128 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat7 V c).flushed 9 t = ((cfg7.win 9).blk t).view.read (Elt Ideal) (msgRef (V c main_arg2) (V c main_v126) (V c main_arg6) ba We be Wg bg ha1 ha2 he1 he2 hg1 hg2 hcat h1 h1') := by
  show (cfg7.win 9).cut (grid7.coords t) ((dat7 V c).after 9 t) = _
  rw [after7_9]
  unfold out7_9
  rw [View.canon_unit_zero hz]
  simp only [View.ld_unit_zero (S := S8000x1) hz, View.ld_unit_zero (S := S8000x64) hz, View.ld_unit_zero (S := S1x32) hz,
    View.ld_unit_zero (S := S32x64) hz, View.ld_unit_zero (S := S1x64) hz, View.ld_unit_zero (S := S64x64) hz]
  obtain ⟨e0r, e0c, e1r, e1c, e2r, e2c, e3r, e3c, e4r, e4c, e5r, e5c, e6r, e6c, e7r, e7c, e8r, e8c, e9r, e9c⟩ := idx_facts t
  funext j
  obtain ⟨y, k, rfl⟩ : ∃ (y : Fin 8000) (k : Fin 64), j = ix2 y k := ⟨j 0, j 1, eq_ix2 j⟩
  have hN : cfg7.N = 100 := N_7
  have hlt : 8000 * t.val + y.val < 800000 := by have := t.isLt; have := y.isLt; omega
  -- the body's result at row `y` of the block is the message of edge `8000 t + y`
  have key := pay_rows (iblk7 V c 0 t) (iblk7 V c 1 t) (iblk7 V c 2 t) (iblk7 V c 3 t) (iblk7 V c 4 t) (iblk7 V c 5 t)
    (iblk7 V c 6 t) (iblk7 V c 7 t) (iblk7 V c 8 t) (rows0 V c t) (rows1 V c t)
    (V c main_arg6) (blk2 V c t) ba (fun q => (blk3 V c t _).trans (hba q)) We (fun i => (blk4 V c t i).trans (hWe i))
    be (fun q => (blk5 V c t _).trans (hbe q)) Wg (fun k q hk => (blk6 V c t _).trans (hWgx k q hk))
    (fun k q hk => (blk7 V c t _).trans (hWge k q hk)) bg (fun q => (blk8 V c t _).trans (hbg q)) ha1 ha2 he1 he2 hg1 hg2 hcat h1 h1'
  refine (key y k hlt).trans ?_
  -- and that edge's index is where the block's row `y` sits in the result array
  show msgRef (V c main_arg2) (V c main_v126) (V c main_arg6) ba We be Wg bg ha1 ha2 he1 he2 hg1 hg2 hcat h1 h1' (ix2 ⟨8000 * t.val + y.val, hlt⟩ k)
    = msgRef (V c main_arg2) (V c main_v126) (V c main_arg6) ba We be Wg bg ha1 ha2 he1 he2 hg1 hg2 hcat h1 h1' (((cfg7.win 9).blk t).view.emb (ix2 y k))
  refine congrArg _ (funext fun a => Fin.ext ?_)
  match a with
  | ⟨0, _⟩ => show 8000 * t.val + y.val = win7_9.index t (0 : Fin 2) * 8000 + 1 * y.val; omega
  | ⟨1, _⟩ => show k.val = win7_9.index t (1 : Fin 2) * 64 + 1 * k.val; omega

/-- An index of the result array is in point `t`'s block iff each coordinate is in the block's range on its axis. -/
theorem mem_blk (t : Fin cfg7.N) (i : S800000x64.Idx) :
    i ∈ ((cfg7.win 9).blk t).view.set ↔ ∀ a : Fin 2, win7_9.index t a * S8000x64.size a ≤ (i a).val ∧ (i a).val < win7_9.index t a * S8000x64.size a + S8000x64.size a := by
  show i ∈ ((View.whole main_v131).slice (win7_9.rect t)).set ↔ _
  rw [View.set_slice_whole, Rect.mem_set_unit]
  exact Iff.rfl

/-- Every row of the result lies in the block of the point `row / 8000`. -/
theorem cover (i : S800000x64.Idx) : ∃ t : Fin cfg7.N, (cfg7.win 9).flush t = true ∧ i ∈ ((cfg7.win 9).blk t).view.set := by
  have hi0 : (i 0).val < 800000 := (i 0).isLt
  have hi1 : (i 1).val < 64 := (i 1).isLt
  have hN : cfg7.N = 100 := N_7
  let t : Fin cfg7.N := ⟨(i 0).val / 8000, by rw [hN]; omega⟩
  obtain ⟨-, -, -, -, -, -, -, -, -, -, -, -, -, -, -, -, -, -, e9r, e9c⟩ := idx_facts t
  have ht : t.val = (i 0).val / 8000 := rfl
  refine ⟨t, flush7_9 t, ?_⟩
  rw [mem_blk]
  intro a
  match a with
  | ⟨0, _⟩ => show win7_9.index t (0 : Fin 2) * 8000 ≤ (i 0).val ∧ (i 0).val < win7_9.index t (0 : Fin 2) * 8000 + 8000; omega
  | ⟨1, _⟩ => show win7_9.index t (1 : Fin 2) * 64 ≤ (i 1).val ∧ (i 1).val < win7_9.index t (1 : Fin 2) * 64 + 64; omega

/-- The result array after the hundred points is the messages of the arrays the region found: of the attributes, the
    gathered source features and the embedding row as they stand, and of the small operands the other buffers hold
    (each bias as one row, the gate's matrix as its two halves). -/
theorem arr_eq (c : Dev nD)
    (ba : S32.Idx → EReal) (hba : ∀ q : Fin 32, V c main_v5 (ix2 (0 : Fin 1) q) = ba (ix1 q))
    (We : FVec Ideal S32x64 .f32) (hWe : ∀ i, V c main_v113 i = We i)
    (be : S64.Idx → EReal) (hbe : ∀ q : Fin 64, V c main_v127 (ix2 (0 : Fin 1) q) = be (ix1 q))
    (Wg : FVec Ideal S128x64 .f32)
    (hWgx : ∀ (k q : Fin 64) (hk : k.val < 128), V c main_v129 (ix2 k q) = Wg (ix2 ⟨k.val, hk⟩ q))
    (hWge : ∀ (k q : Fin 64) (hk : 64 + k.val < 128), V c main_v130 (ix2 k q) = Wg (ix2 ⟨64 + k.val, hk⟩ q))
    (bg : S64.Idx → EReal) (hbg : ∀ q : Fin 64, V c main_v128 (ix2 (0 : Fin 1) q) = bg (ix1 q))
    (ha1 : S32.BroadcastsInDim S1x32 ![1]) (ha2 : S1x32.BroadcastsInDim ⟨2, ![800000, 32]⟩ ![0, 1])
    (he1 : S64.BroadcastsInDim S1x64 ![1]) (he2 : S1x64.BroadcastsInDim S800000x64 ![0, 1])
    (hg1 : S64.BroadcastsInDim S1x64 ![1]) (hg2 : S1x64.BroadcastsInDim S800000x64 ![0, 1])
    (hcat : Shape.Concatenates [S800000x64, S800000x64] ⟨2, ![800000, 128]⟩ (1 : Fin 2))
    (h1 h1' : S_.BroadcastsInDim S800000x64 ![]) :
    (dat7 V c).arrAt 9 cfg7.N = msgRef (V c main_arg2) (V c main_v126) (V c main_arg6) ba We be Wg bg ha1 ha2 he1 he2 hg1 hg2 hcat h1 h1' :=
  (dat7 V c).arrAt_eq_of_cover 9 _ (fun t _ => flushed_eq V c t ba hba We hWe be hbe Wg hWgx hWge bg hbg ha1 ha2 he1 he2 hg1 hg2 hcat h1 h1') cover

end Cert.KernelIdeal.Region7

end
-- ==== Proof.GlueL2.lean ====
/-
  Layer 2's edge half: the host operations before the edge kernel slice the layer's parameters and gather the
  source-node rows; the edge kernel then leaves the reference's messages in its result buffer.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.SpecBridge
import proofs.«108144_j81140522156740_2_alg».proof.Proof.GlueKeep
import proofs.«108144_j81140522156740_2_alg».proof.Proof.GlueA
import proofs.«108144_j81140522156740_2_alg».proof.Proof.GlueArgs
import proofs.«108144_j81140522156740_2_alg».proof.Proof.Region7
import proofs.«108144_j81140522156740_2_alg».proof.Proof.LibLayerRows
import Idealize.ShloMosaic.Lib.StableHlo.Run
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## Layer 2: from the node features `H` in `main_v110` to the messages -/

section L2

variable (H : FVec Ideal S50000x64 .f32) (hH : (W14 m ρ c (Proc.devRef .tc main_v110) : S50000x64.Idx → EReal) = H)

theorem L2_v9 : (W15 m ρ c (Proc.devRef .tc main_v113) : S32x64.Idx → EReal) = Cert.ReferenceIdeal.RefRun.sliceWe 2 (m ((c : Thread nD τ).loc main_arg10)) := by
  show StableHlo.after hostOps7 (W14 m ρ c) (Proc.devRef .tc main_v113) = _
  after_results
  rw [at_main_arg10_14 m ρ c]
  rfl

theorem L2_v23 : (W15 m ρ c (Proc.devRef .tc main_v127) : S1x64.Idx → EReal) = shapeCast S1x64 (Cert.ReferenceIdeal.RefRun.sliceRow 2 (m ((c : Thread nD τ).loc main_arg11))) shapeCasts_S64_S1x64 := by
  show StableHlo.after hostOps7 (W14 m ρ c) (Proc.devRef .tc main_v127) = _
  after_results
  rw [at_main_arg11_14 m ρ c]
  rfl

theorem L2_v24 : (W15 m ρ c (Proc.devRef .tc main_v128) : S1x64.Idx → EReal) = shapeCast S1x64 (Cert.ReferenceIdeal.RefRun.sliceRow 2 (m ((c : Thread nD τ).loc main_arg13))) shapeCasts_S64_S1x64 := by
  show StableHlo.after hostOps7 (W14 m ρ c) (Proc.devRef .tc main_v128) = _
  after_results
  rw [at_main_arg13_14 m ρ c]
  rfl

theorem L2_v25 : (W15 m ρ c (Proc.devRef .tc main_v129) : S64x64.Idx → EReal) = extractStridedSlice S64x64 ![0, 0] (Cert.ReferenceIdeal.RefRun.sliceWg 2 (m ((c : Thread nD τ).loc main_arg12))) slices_S128x64_S64x64_0_0 := by
  show StableHlo.after hostOps7 (W14 m ρ c) (Proc.devRef .tc main_v129) = _
  after_results
  rw [at_main_arg12_14 m ρ c]
  rfl

theorem L2_v26 : (W15 m ρ c (Proc.devRef .tc main_v130) : S64x64.Idx → EReal) = extractStridedSlice S64x64 ![64, 0] (Cert.ReferenceIdeal.RefRun.sliceWg 2 (m ((c : Thread nD τ).loc main_arg12))) slices_S128x64_S64x64_64_0 := by
  show StableHlo.after hostOps7 (W14 m ρ c) (Proc.devRef .tc main_v130) = _
  after_results
  rw [at_main_arg12_14 m ρ c]
  rfl

include hH in
/-- The gathered source-node rows. -/
theorem L2_v22 : (W15 m ρ c (Proc.devRef .tc main_v126) : S800000x64.Idx → EReal) = Cert.ReferenceIdeal.RefRun.gatherRows H (Cert.ReferenceIdeal.RefRun.srcCol (m ((c : Thread nD τ).loc main_arg1))) := by
  show StableHlo.after hostOps7 (W14 m ρ c) (Proc.devRef .tc main_v126) = _
  after_results_simp
  rw [hH, at_main_v1_14 m ρ c]
  exact Cert.SpecBridge.gather_eq H _ _

include hH in
/-- The edge kernel's result buffer holds the reference's messages. -/
theorem L2_v27 : (W16 m ρ c (Proc.devRef .tc main_v131) : S800000x64.Idx → EReal) = (Cert.ReferenceIdeal.RefRun.msg (Cert.ReferenceIdeal.RefRun.gatherRows H (Cert.ReferenceIdeal.RefRun.srcCol (m ((c : Thread nD τ).loc main_arg1)))) (Cert.ReferenceIdeal.RefRun.edgeFeat (Cert.ReferenceIdeal.RefRun.edgeEmbed (m ((c : Thread nD τ).loc main_arg2)) (m ((c : Thread nD τ).loc main_arg6)) (m ((c : Thread nD τ).loc main_arg7))) (Cert.ReferenceIdeal.RefRun.sliceWe 2 (m ((c : Thread nD τ).loc main_arg10))) (Cert.ReferenceIdeal.RefRun.sliceRow 2 (m ((c : Thread nD τ).loc main_arg11)))) (Cert.ReferenceIdeal.RefRun.sliceWg 2 (m ((c : Thread nD τ).loc main_arg12))) (Cert.ReferenceIdeal.RefRun.sliceRow 2 (m ((c : Thread nD τ).loc main_arg13)))) := by
  refine (W16_arr m ρ c 9).trans ?_
  refine (Cert.KernelIdeal.Region7.arr_eq (V15 m ρ) c (m ((c : Thread nD τ).loc main_arg7)) (fun q => ?hba)
    (Cert.ReferenceIdeal.RefRun.sliceWe 2 (m ((c : Thread nD τ).loc main_arg10))) (fun i => ?hWe) (Cert.ReferenceIdeal.RefRun.sliceRow 2 (m ((c : Thread nD τ).loc main_arg11))) (fun q => ?hbe)
    (Cert.ReferenceIdeal.RefRun.sliceWg 2 (m ((c : Thread nD τ).loc main_arg12))) (fun k q hk => ?hWgx) (fun k q hk => ?hWge) (Cert.ReferenceIdeal.RefRun.sliceRow 2 (m ((c : Thread nD τ).loc main_arg13))) (fun q => ?hbg)
    Cert.ReferenceIdeal.Facts₀.bcast_S32_S1x32_1 Cert.ReferenceIdeal.Facts₀.bcast_S1x32_S800000x32_0_1 Cert.ReferenceIdeal.Facts₀.bcast_S64_S1x64_1 Cert.ReferenceIdeal.Facts₀.bcast_S1x64_S800000x64_0_1
    Cert.ReferenceIdeal.Facts₀.bcast_S64_S1x64_1 Cert.ReferenceIdeal.Facts₀.bcast_S1x64_S800000x64_0_1 Cert.ReferenceIdeal.Facts₀.concatenates_S800000x64_S800000x64_S800000x128_d1
    Cert.ReferenceIdeal.Facts₀.bcast_S_S800000x64 Cert.ReferenceIdeal.Facts₀.bcast_S_S800000x64).trans ?_
  case hba =>
    show (W15 m ρ c (Proc.devRef .tc main_v5) : S1x32.Idx → EReal) (ix2 (0 : Fin 1) q) = _
    rw [at_main_v5_15 m ρ c]
    exact Cert.Lib.RowBlocks.cast_row_apply _ _ q
  case hWe =>
    show (W15 m ρ c (Proc.devRef .tc main_v113) : S32x64.Idx → EReal) i = _
    rw [L2_v9 m ρ c]
  case hbe =>
    show (W15 m ρ c (Proc.devRef .tc main_v127) : S1x64.Idx → EReal) (ix2 (0 : Fin 1) q) = _
    rw [L2_v23 m ρ c]
    exact Cert.Lib.RowBlocks.cast_row_apply _ _ q
  case hWgx =>
    show (W15 m ρ c (Proc.devRef .tc main_v129) : S64x64.Idx → EReal) (ix2 k q) = _
    rw [L2_v25 m ρ c]
    exact Cert.SpecBridge.gateTop_apply _ _ k q
  case hWge =>
    show (W15 m ρ c (Proc.devRef .tc main_v130) : S64x64.Idx → EReal) (ix2 k q) = _
    rw [L2_v26 m ρ c]
    exact Cert.SpecBridge.gateBottom_apply _ _ k q
  case hbg =>
    show (W15 m ρ c (Proc.devRef .tc main_v128) : S1x64.Idx → EReal) (ix2 (0 : Fin 1) q) = _
    rw [L2_v24 m ρ c]
    exact Cert.Lib.RowBlocks.cast_row_apply _ _ q
  show Cert.KernelIdeal.Region7.msgRef (W15 m ρ c (Proc.devRef .tc main_arg2)) (W15 m ρ c (Proc.devRef .tc main_v126)) (W15 m ρ c (Proc.devRef .tc main_arg6)) _ _ _ _ _ _ _ _ _ _ _ _ _ _ = _
  rw [at_main_arg2_15 m ρ c, L2_v22 m ρ c H hH, at_main_arg6_15 m ρ c]
  exact Cert.SpecBridge.edgeMsg_eq _ _ _ _ _ _ _ _ _ _ _ _ _ _ _ _ _

end L2

end Cert.KernelIdeal.Glue

end
-- ==== Proof.Region8.lean ====
/-
  The node kernel of the third layer.  Each grid point `t` (of ten) holds rows `5000 t … 5000 t + 4999` of the node
  features `h` and of the neighbours' sums `a` (50000 × 64 each), the whole 64 × 64 matrix `W` and the bias `b` as
  one row, and writes two things: rows `5000 t …` of

      raw = h · W + b + a,

  and an 8 × 64 block of statistics of those 5000 rows — its row 0 the column sums of the tile of `raw`, its row 1 the
  column sums of the squares, its rows 2 … 7 zero.  The ten row blocks tile the 50000 rows and the ten statistics
  blocks tile the 10 × 8 × 64 array, so after the ten points the first array is `raw` of the whole arrays and the second
  holds, at `(t, 0, q)` and `(t, 1, q)`, the sums over tile `t` of column `q` of `raw` and of its squares.
-/
import proofs.«108144_j81140522156740_2_alg».proof.Proof.Gen.KernelIdeal.Frame
import proofs.«108144_j81140522156740_2_alg».proof.Proof.LibNodeRows
import Idealize.ShloMosaic.Lib.Pipeline.Value
import Idealize.ShloMosaic.Lib.ValueIdx

set_option maxRecDepth 16384

noncomputable section

open scoped BigOperators

namespace Cert.KernelIdeal.Region8

open Idealize.ShloMosaic Idealize.ShloMosaic.TcCoe Idealize.ShloMosaic.Tactic Idealize.SL.Sem Idealize.ShloMosaic.ValueIdx
open Idealize.ShloMosaic.Pipeline (Dat Cfg Window)
open Cert.KernelIdeal Cert.KernelIdeal.Gen Cert.Lib.RowBlocks Cert.Lib.RowOps Cert.Lib.NodeRows

theorem hz : (![0, 0] : Fin 2 → Nat) = fun _ => 0 := funext fun a => by fin_cases a <;> rfl

/-! ## What the body leaves in its two outputs, for any float instance -/

section Pieces

variable {F : FTy → Type} [FloatOps F]

/-- The body's one store into the first output leaves `h · W + b + a` of the blocks it loaded. -/
theorem out4_eq (c : Dev nD) (i : grid8.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out8_A_4 (F := F) c i arg1 harg1 arg2 harg2 arg3 harg3 arg4 harg4 arg5 harg5 arg6 harg6 x0 x1 x2 x3 = k8_pay1 x0 x1 x2 x3 := by
  unfold out8_A_4
  rw [View.read_writes_eq_canon _ _ _ (cover8_A_4 c i arg1 harg1 arg2 harg2 arg3 harg3 arg4 harg4 arg5 harg5 arg6 harg6 x0 x1 x2 x3)]
  unfold kernelRun8_A
  dsimp only
  sl_unfold_words
  rw [View.canon_unit_zero hz]
  simp only [View.readAt_eq_ld, harg1.read_unread, harg2.read_unread, harg3.read_unread, harg4.read_unread,
    View.ld_unit_zero (S := S5000x64) hz, View.ld_unit_zero (S := S64x64) hz, View.ld_unit_zero (S := S1x64) hz]

/-- The three stores into the statistics block: rows 2 … 7, row 1, row 0 (last first). -/
def statsPieces (x0 : Vec F S5000x64 .f32) (x1 : Vec F S64x64 .f32) (x2 : Vec F S1x64 .f32) (x3 : Vec F S5000x64 .f32) :
    List (View.Piece (Elt F) S1x8x64 .f32) :=
  [⟨Rect.unit ![0, 2, 0] ![1, 6, 64] inb_S1x8x64_S1x6x64_0_2_0, k8_pay4⟩,
   ⟨Rect.unit ![0, 1, 0] ![1, 1, 64] inb_S1x8x64_S1x1x64_0_1_0, k8_pay3 x0 x1 x2 x3⟩,
   ⟨Rect.unit ![0, 0, 0] ![1, 1, 64] inb_S1x8x64_S1x1x64_0_0_0, k8_pay2 x0 x1 x2 x3⟩]

/-- The body's three stores into the second output leave those three pieces. -/
theorem out5_eq (c : Dev nD) (i : grid8.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S1x8x64 .f32) (harg6 : arg6.IsWhole)
    (x0 : Vec F S5000x64 .f32) (x1 : Vec F S64x64 .f32) (x2 : Vec F S1x64 .f32) (x3 : Vec F S5000x64 .f32) :
    out8_A_5 (F := F) c i arg1 harg1 arg2 harg2 arg3 harg3 arg4 harg4 arg5 harg5 arg6 harg6 x0 x1 x2 x3 = View.canon (statsPieces x0 x1 x2 x3) := by
  unfold out8_A_5
  rw [View.read_writes_eq_canon _ _ _ (cover8_A_5 c i arg1 harg1 arg2 harg2 arg3 harg3 arg4 harg4 arg5 harg5 arg6 harg6 x0 x1 x2 x3)]
  unfold kernelRun8_A
  dsimp only
  sl_unfold_words
  simp only [View.readAt_eq_ld, harg1.read_unread, harg2.read_unread, harg3.read_unread, harg4.read_unread,
    View.ld_unit_zero (S := S5000x64) hz, View.ld_unit_zero (S := S64x64) hz, View.ld_unit_zero (S := S1x64) hz]
  rfl

/-- The three pieces cover the statistics block. -/
theorem statsPieces_cover (x0 : Vec F S5000x64 .f32) (x1 : Vec F S64x64 .f32) (x2 : Vec F S1x64 .f32) (x3 : Vec F S5000x64 .f32)
    (y : S1x8x64.Idx) : ∃ p ∈ statsPieces x0 x1 x2 x3, y ∈ p.1.set :=
  View.cover_of_tiledBy (statsPieces x0 x1 x2 x3) ![1, 1, 64] (by sl_kernel_rfl) y

end Pieces

/-! ## The body's arithmetic at the ideal values -/

/-- `h · W + b + a` of whole arrays: 50000 rows, 64 features in and out. -/
abbrev rawRef := @nodeLin 50000 64 64

/-- The body's first payload carries rows: when the two long blocks hold rows `o …` of `h` and of `a`, the matrix
    block is `W` and the one-row block is `b`, the payload holds the same rows of `h · W + b + a`. -/
theorem pay_rows {o : Nat} {h aggr : FVec Ideal S50000x64 .f32}
    (x0 : FVec Ideal S5000x64 .f32) (x1 : FVec Ideal S64x64 .f32) (x2 : FVec Ideal S1x64 .f32) (x3 : FVec Ideal S5000x64 .f32)
    (h0 : RowsOf 50000 5000 64 o h x0) (h3 : RowsOf 50000 5000 64 o aggr x3)
    (Wn : FVec Ideal S64x64 .f32) (hWn : ∀ i, x1 i = Wn i)
    (bnb : S64.Idx → EReal) (hb : ∀ q : Fin 64, x2 (ix2 (0 : Fin 1) q) = bnb (ix1 q))
    (b1 : S64.BroadcastsInDim S1x64 ![1]) (b2 : S1x64.BroadcastsInDim S50000x64 ![0, 1]) :
    RowsOf 50000 5000 64 o (rawRef h Wn bnb aggr b1 b2) (k8_pay1 (F := Ideal) x0 x1 x2 x3) := by
  unfold k8_pay1
  exact RowsOf.nodeLin h0 h3 Wn x1 hWn bnb x2 hb b1 b2 shapeCasts_S5000x64_S5000x64 shapeCasts_S64x64_S64x64
    shapeCasts_S1x64_S1x64 broadcasts_S1x64_S5000x64 shapeCasts_S5000x64_S5000x64 bitsLt_bf16_f32

/-- The statistics of a 5000-row block `P`: row 0 its column sums, row 1 the column sums of its squares, rows 2 … 7 zero. -/
def blockStats (P : FVec Ideal S5000x64 .f32) (r : Fin 8) (q : Fin 64) : EReal :=
  if r.val = 0 then ∑ y : Fin 5000, P (ix2 y q)
  else if r.val = 1 then ∑ y : Fin 5000, P (ix2 y q) * P (ix2 y q) else 0

theorem blockStats_zero (P : FVec Ideal S5000x64 .f32) (q : Fin 64) :
    blockStats P 0 q = ∑ y : Fin 5000, P (ix2 y q) := if_pos rfl
theorem blockStats_one (P : FVec Ideal S5000x64 .f32) (q : Fin 64) :
    blockStats P 1 q = ∑ y : Fin 5000, P (ix2 y q) * P (ix2 y q) := (if_neg (by decide)).trans (if_pos rfl)
theorem blockStats_of_two_le (P : FVec Ideal S5000x64 .f32) (r : Fin 8) (hr : 2 ≤ r.val) (q : Fin 64) :
    blockStats P r q = 0 := (if_neg (by omega)).trans (if_neg (by omega))

/-- The second payload at `(0, 0, q)`: the sum of column `q` of the first payload. -/
theorem pay2_apply (x0 : FVec Ideal S5000x64 .f32) (x1 : FVec Ideal S64x64 .f32) (x2 : FVec Ideal S1x64 .f32)
    (x3 : FVec Ideal S5000x64 .f32) (q : Fin 64) :
    k8_pay2 (F := Ideal) x0 x1 x2 x3 (ix3 (0 : Fin 1) (0 : Fin 1) q)
      = ∑ y : Fin 5000, k8_pay1 (F := Ideal) x0 x1 x2 x3 (ix2 y q) := by
  unfold k8_pay2
  exact colSum_cast_apply (k8_pay1 (F := Ideal) x0 x1 x2 x3) reduces_S5000x64_S64 (.inl rfl) rfl
    shapeCasts_S64_S1x64 shapeCasts_S1x64_S1x1x64 q

/-- The third payload at `(0, 0, q)`: the sum of the squares of column `q` of the first payload. -/
theorem pay3_apply (x0 : FVec Ideal S5000x64 .f32) (x1 : FVec Ideal S64x64 .f32) (x2 : FVec Ideal S1x64 .f32)
    (x3 : FVec Ideal S5000x64 .f32) (q : Fin 64) :
    k8_pay3 (F := Ideal) x0 x1 x2 x3 (ix3 (0 : Fin 1) (0 : Fin 1) q)
      = ∑ y : Fin 5000, k8_pay1 (F := Ideal) x0 x1 x2 x3 (ix2 y q) * k8_pay1 (F := Ideal) x0 x1 x2 x3 (ix2 y q) := by
  unfold k8_pay3
  exact colSum_cast_apply (mulf (k8_pay1 (F := Ideal) x0 x1 x2 x3) (k8_pay1 (F := Ideal) x0 x1 x2 x3))
    reduces_S5000x64_S64 (.inl rfl) rfl shapeCasts_S64_S1x64 shapeCasts_S1x64_S1x1x64 q

/-- The fourth payload is zero everywhere. -/
theorem pay4_apply (j : S1x6x64.Idx) : k8_pay4 (F := Ideal) j = 0 := by
  unfold k8_pay4
  exact zeroBlock_apply shapeCasts_S6x64_S1x6x64 j

/-- The three pieces, read at any index of the 1 × 8 × 64 block, are the statistics of the first payload. -/
theorem statsPieces_apply (x0 : FVec Ideal S5000x64 .f32) (x1 : FVec Ideal S64x64 .f32) (x2 : FVec Ideal S1x64 .f32)
    (x3 : FVec Ideal S5000x64 .f32) (a : Fin 1) (r : Fin 8) (q : Fin 64) :
    View.canon (statsPieces (F := Ideal) x0 x1 x2 x3) (ix3 a r q) = blockStats (k8_pay1 (F := Ideal) x0 x1 x2 x3) r q := by
  refine View.canon_apply_of_pieces (fun j : S1x8x64.Idx => blockStats (k8_pay1 (F := Ideal) x0 x1 x2 x3) (j 1) (j 2))
    (statsPieces (F := Ideal) x0 x1 x2 x3) ?_ (ix3 a r q) (statsPieces_cover (F := Ideal) x0 x1 x2 x3 (ix3 a r q))
  intro p hp
  simp only [statsPieces, List.mem_cons, List.not_mem_nil, or_false] at hp
  rcases hp with rfl | rfl | rfl
  · intro x
    obtain ⟨a', r', q', rfl⟩ : ∃ (a' : Fin 1) (r' : Fin 6) (q' : Fin 64), x = ix3 a' r' q' := ⟨x 0, x 1, x 2, eq_ix3 x⟩
    have hemb : (Rect.unit (s := S1x8x64) ![0, 2, 0] ![1, 6, 64] inb_S1x8x64_S1x6x64_0_2_0).emb (ix3 a' r' q')
        = ix3 (0 : Fin 1) (⟨2 + r'.val, by have := r'.isLt; omega⟩ : Fin 8) q' := by
      funext b; apply Fin.ext
      match b with
      | ⟨0, _⟩ => show 0 + 1 * a'.val = 0; have := a'.isLt; omega
      | ⟨1, _⟩ => show 2 + 1 * r'.val = 2 + r'.val; omega
      | ⟨2, _⟩ => show 0 + 1 * q'.val = q'.val; omega
    show k8_pay4 (F := Ideal) (ix3 a' r' q') = blockStats _ ((Rect.unit (s := S1x8x64) ![0, 2, 0] ![1, 6, 64] inb_S1x8x64_S1x6x64_0_2_0).emb (ix3 a' r' q') 1)
      ((Rect.unit (s := S1x8x64) ![0, 2, 0] ![1, 6, 64] inb_S1x8x64_S1x6x64_0_2_0).emb (ix3 a' r' q') 2)
    rw [hemb]
    exact (pay4_apply _).trans (blockStats_of_two_le _ ⟨2 + r'.val, by have := r'.isLt; omega⟩ (Nat.le_add_right 2 _) q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 1, 0] ![1, 1, 64] inb_S1x8x64_S1x1x64_0_1_0).emb (ix3 (0 : Fin 1) (0 : Fin 1) q')
        = ix3 (0 : Fin 1) (1 : Fin 8) q' := by
      funext b; apply Fin.ext
      match b with
      | ⟨0, _⟩ => rfl
      | ⟨1, _⟩ => rfl
      | ⟨2, _⟩ => show 0 + 1 * q'.val = q'.val; omega
    show k8_pay3 (F := Ideal) x0 x1 x2 x3 (ix3 (0 : Fin 1) (0 : Fin 1) q') = blockStats _ ((Rect.unit (s := S1x8x64) ![0, 1, 0] ![1, 1, 64] inb_S1x8x64_S1x1x64_0_1_0).emb (ix3 (0 : Fin 1) (0 : Fin 1) q') 1)
      ((Rect.unit (s := S1x8x64) ![0, 1, 0] ![1, 1, 64] inb_S1x8x64_S1x1x64_0_1_0).emb (ix3 (0 : Fin 1) (0 : Fin 1) q') 2)
    rw [hemb]
    exact (pay3_apply x0 x1 x2 x3 q').trans (blockStats_one _ q').symm
  · intro x
    obtain ⟨a', r', q', rfl⟩ : ∃ (a' : Fin 1) (r' : Fin 1) (q' : Fin 64), x = ix3 a' r' q' := ⟨x 0, x 1, x 2, eq_ix3 x⟩
    obtain rfl : a' = 0 := Subsingleton.elim _ _
    obtain rfl : r' = 0 := Subsingleton.elim _ _
    have hemb : (Rect.unit (s := S1x8x64) ![0, 0, 0] ![1, 1, 64] inb_S1x8x64_S1x1x64_0_0_0).emb (ix3 (0 : Fin 1) (0 : Fin 1) q')
        = ix3 (0 : Fin 1) (0 : Fin 8) q' := by
      funext b; apply Fin.ext
      match b with
      | ⟨0, _⟩ => rfl
      | ⟨1, _⟩ => rfl
      | ⟨2, _⟩ => show 0 + 1 * q'.val = q'.val; omega
    show k8_pay2 (F := Ideal) x0 x1 x2 x3 (ix3 (0 : Fin 1) (0 : Fin 1) q') = blockStats _ ((Rect.unit (s := S1x8x64) ![0, 0, 0] ![1, 1, 64] inb_S1x8x64_S1x1x64_0_0_0).emb (ix3 (0 : Fin 1) (0 : Fin 1) q') 1)
      ((Rect.unit (s := S1x8x64) ![0, 0, 0] ![1, 1, 64] inb_S1x8x64_S1x1x64_0_0_0).emb (ix3 (0 : Fin 1) (0 : Fin 1) q') 2)
    rw [hemb]
    exact (pay2_apply x0 x1 x2 x3 q').trans (blockStats_zero _ q').symm

/-! ## The windows' blocks -/

variable (V : (c : Dev nD) → (b : Ref sig .tc) → Buf (Elt Ideal) ((c : Thread nD τ).loc b))

/-- The grid's index maps: point `t` holds row block `t` of the node features, of the neighbours' sums and of the first
    result, the matrix and the bias row whole, and block `t` of the statistics array. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 3) = t.val ∧ win8_5.index t (1 : Fin 3) = 0 ∧ win8_5.index t (2 : Fin 3) = 0 :=
  (by decide +kernel : ∀ t : Fin grid8.N, _)

/-- Row `5000 t + y` of tile `t` is one of the 50000 rows. -/
theorem tile_row_lt (t : Fin 10) (y : Fin 5000) : t.val * 5000 + y.val < 50000 := by
  have := t.isLt; have := y.isLt; omega

/-- Point `t`'s block of the node features holds rows `5000 t …` of the array. -/
theorem rows0 (c : Dev nD) (t : Fin cfg8.N) :
    RowsOf 50000 5000 64 (t.val * 5000) (V c main_v110 : S50000x64.Idx → EReal) (iblk8 V c 0 t) := by
  intro y k h
  obtain ⟨e0, e1, -⟩ := idx_facts t
  show V c main_v110 (((cfg8.win 0).blk t).view.emb (ix2 y k)) = V c main_v110 (ix2 ⟨t.val * 5000 + y.val, h⟩ k)
  refine congrArg (V c main_v110) (funext fun a => Fin.ext ?_)
  match a with
  | ⟨0, _⟩ => show win8_0.index t (0 : Fin 2) * 5000 + 1 * y.val = t.val * 5000 + y.val; omega
  | ⟨1, _⟩ => show win8_0.index t (1 : Fin 2) * 64 + 1 * k.val = k.val; omega

/-- The matrix is held whole at every point. -/
theorem blk1 (c : Dev nD) (t : Fin cfg8.N) (i : S64x64.Idx) : iblk8 V c 1 t i = V c main_v137 i := by
  obtain ⟨-, -, e0, e1, -⟩ := idx_facts t
  show V c main_v137 (((cfg8.win 1).blk t).view.emb i) = V c main_v137 i
  refine congrArg (V c main_v137) (funext fun a => Fin.ext ?_)
  match a with
  | ⟨0, _⟩ => show win8_1.index t (0 : Fin 2) * 64 + 1 * (i 0).val = (i 0).val; omega
  | ⟨1, _⟩ => show win8_1.index t (1 : Fin 2) * 64 + 1 * (i 1).val = (i 1).val; omega

/-- The bias row is held whole at every point. -/
theorem blk2 (c : Dev nD) (t : Fin cfg8.N) (i : S1x64.Idx) : iblk8 V c 2 t i = V c main_v144 i := by
  obtain ⟨-, -, -, -, e0, e1, -⟩ := idx_facts t
  show V c main_v144 (((cfg8.win 2).blk t).view.emb i) = V c main_v144 i
  refine congrArg (V c main_v144) (funext fun a => Fin.ext ?_)
  match a with
  | ⟨0, _⟩ => show win8_2.index t (0 : Fin 2) * 1 + 1 * (i 0).val = (i 0).val; omega
  | ⟨1, _⟩ => show win8_2.index t (1 : Fin 2) * 64 + 1 * (i 1).val = (i 1).val; omega

/-- Point `t`'s block of the neighbours' sums holds rows `5000 t …` of the array. -/
theorem rows3 (c : Dev nD) (t : Fin cfg8.N) :
    RowsOf 50000 5000 64 (t.val * 5000) (V c main_v135 : S50000x64.Idx → EReal) (iblk8 V c 3 t) := by
  intro y k h
  obtain ⟨-, -, -, -, -, -, e0, e1, -⟩ := idx_facts t
  show V c main_v135 (((cfg8.win 3).blk t).view.emb (ix2 y k)) = V c main_v135 (ix2 ⟨t.val * 5000 + y.val, h⟩ k)
  refine congrArg (V c main_v135) (funext fun a => Fin.ext ?_)
  match a with
  | ⟨0, _⟩ => show win8_3.index t (0 : Fin 2) * 5000 + 1 * y.val = t.val * 5000 + y.val; omega
  | ⟨1, _⟩ => show win8_3.index t (1 : Fin 2) * 64 + 1 * k.val = k.val; omega

section Result

variable (c : Dev nD) (Wn : FVec Ideal S64x64 .f32) (hWn : ∀ i, V c main_v137 i = Wn i)
  (bnb : S64.Idx → EReal) (hb : ∀ q : Fin 64, V c main_v144 (ix2 (0 : Fin 1) q) = bnb (ix1 q))
  (b1 : S64.BroadcastsInDim S1x64 ![1]) (b2 : S1x64.BroadcastsInDim S50000x64 ![0, 1])

include hWn hb in
/-- The body's first payload at point `t` holds rows `5000 t …` of `h · W + b + a` of the arrays the region finds. -/
theorem pay_rows_at (t : Fin cfg8.N) :
    RowsOf 50000 5000 64 (t.val * 5000) (rawRef (V c main_v110) Wn bnb (V c main_v135) b1 b2)
      (k8_pay1 (F := Ideal) (iblk8 V c 0 t) (iblk8 V c 1 t) (iblk8 V c 2 t) (iblk8 V c 3 t)) :=
  pay_rows (iblk8 V c 0 t) (iblk8 V c 1 t) (iblk8 V c 2 t) (iblk8 V c 3 t) (rows0 V c t) (rows3 V c t)
    Wn (fun i => (blk1 V c t i).trans (hWn i)) bnb (fun q => (blk2 V c t _).trans (hb q)) b1 b2

/-! ## The first output: `raw` -/

include hWn hb in
/-- What point `t` writes back to the first output is block `t` of `h · W + b + a`. -/
theorem flushed_eq_raw (t : Fin cfg8.N) :
    (dat8 V c).flushed 4 t = ((cfg8.win 4).blk t).view.read (Elt Ideal) (rawRef (V c main_v110) Wn bnb (V c main_v135) b1 b2) := by
  show (cfg8.win 4).cut (grid8.coords t) ((dat8 V c).after 4 t) = _
  rw [after8_4]
  unfold outsAt8
  dsimp only
  rw [out4_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (iblk8 V c 0 t) (iblk8 V c 1 t) (iblk8 V c 2 t) (iblk8 V c 3 t)]
  obtain ⟨-, -, -, -, -, -, -, -, e0, e1, -⟩ := idx_facts t
  funext j
  obtain ⟨y, k, rfl⟩ : ∃ (y : Fin 5000) (k : Fin 64), j = ix2 y k := ⟨j 0, j 1, eq_ix2 j⟩
  have hN : cfg8.N = 10 := N_8
  have hlt : t.val * 5000 + y.val < 50000 := by have := t.isLt; have := y.isLt; omega
  show k8_pay1 (F := Ideal) (iblk8 V c 0 t) (iblk8 V c 1 t) (iblk8 V c 2 t) (iblk8 V c 3 t) (ix2 y k)
    = rawRef (V c main_v110) Wn bnb (V c main_v135) b1 b2 (((cfg8.win 4).blk t).view.emb (ix2 y k))
  refine (pay_rows_at V c Wn hWn bnb hb b1 b2 t y k hlt).trans ?_
  refine congrArg (rawRef (V c main_v110) Wn bnb (V c main_v135) b1 b2) (funext fun a => Fin.ext ?_)
  match a with
  | ⟨0, _⟩ => show t.val * 5000 + y.val = win8_4.index t (0 : Fin 2) * 5000 + 1 * y.val; omega
  | ⟨1, _⟩ => show k.val = win8_4.index t (1 : Fin 2) * 64 + 1 * k.val; omega

/-- An index of the first output is in point `t`'s block iff each coordinate is in the block's range on its axis. -/
theorem mem_blk4 (t : Fin cfg8.N) (i : S50000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v145_0).slice (win8_4.rect t)).set ↔ _
  rw [View.set_slice_whole, Rect.mem_set_unit]
  exact Iff.rfl

/-- The row blocks cover the first output: row `r` lies in the block of point `r / 5000`. -/
theorem cover4 (i : S50000x64.Idx) :
    ∃ t : Fin cfg8.N, (cfg8.win 4).flush t = true ∧ i ∈ ((cfg8.win 4).blk t).view.set := by
  have hi0 : (i 0).val < 50000 := (i 0).isLt
  have hi1 : (i 1).val < 64 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, e0, e1, -⟩ := idx_facts t
  refine ⟨t, flush8_4 t, ?_⟩
  rw [mem_blk4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 64 ≤ (i 1).val ∧ (i 1).val < win8_4.index t (1 : Fin 2) * 64 + 64; omega

include hWn hb in
/-- THE FIRST OUTPUT after the region is `h · W + b + a` of the arrays the region finds. -/
theorem arr_eq_raw :
    (dat8 V c).arrAt 4 cfg8.N = rawRef (V c main_v110) Wn bnb (V c main_v135) b1 b2 :=
  (dat8 V c).arrAt_eq_of_cover 4 _ (fun t _ => flushed_eq_raw V c Wn hWn bnb hb b1 b2 t) cover4

end Result

/-! ## The second output: the tiles' statistics -/

/-- The statistic of tile `t` of a whole array `R`: row 0 the sums over the tile's rows of each column, row 1 the sums of
    the squares, rows 2 … 7 zero. -/
def tileStat (R : FVec Ideal S50000x64 .f32) (t : Fin 10) (r : Fin 8) (q : Fin 64) : EReal :=
  if r.val = 0 then ∑ y : Fin 5000, R (ix2 ⟨t.val * 5000 + y.val, tile_row_lt t y⟩ q)
  else if r.val = 1 then
    ∑ y : Fin 5000, R (ix2 ⟨t.val * 5000 + y.val, tile_row_lt t y⟩ q) * R (ix2 ⟨t.val * 5000 + y.val, tile_row_lt t y⟩ q)
  else 0

theorem tileStat_zero (R : FVec Ideal S50000x64 .f32) (t : Fin 10) (q : Fin 64) :
    tileStat R t 0 q = ∑ y : Fin 5000, R (ix2 ⟨t.val * 5000 + y.val, tile_row_lt t y⟩ q) := if_pos rfl
theorem tileStat_one (R : FVec Ideal S50000x64 .f32) (t : Fin 10) (q : Fin 64) :
    tileStat R t 1 q = ∑ y : Fin 5000,
      R (ix2 ⟨t.val * 5000 + y.val, tile_row_lt t y⟩ q) * R (ix2 ⟨t.val * 5000 + y.val, tile_row_lt t y⟩ q) :=
  (if_neg (by decide)).trans (if_pos rfl)

/-- The ten tiles' statistics as one 10 × 8 × 64 array. -/
def statsRef (R : FVec Ideal S50000x64 .f32) : S10x8x64.Idx → EReal := fun j => tileStat R (j 0) (j 1) (j 2)

/-- The statistics of a block that holds tile `t` of `R` are tile `t`'s statistics of `R`. -/
theorem blockStats_eq_tileStat {R : FVec Ideal S50000x64 .f32} {P : FVec Ideal S5000x64 .f32} (t : Fin 10)
    (hP : RowsOf 50000 5000 64 (t.val * 5000) R P) (r : Fin 8) (q : Fin 64) : blockStats P r q = tileStat R t r q := by
  have e : ∀ y : Fin 5000, P (ix2 y q) = R (ix2 ⟨t.val * 5000 + y.val, tile_row_lt t y⟩ q) := fun y => hP y q _
  unfold blockStats tileStat
  simp only [e]

section Stats

variable (c : Dev nD) (Wn : FVec Ideal S64x64 .f32) (hWn : ∀ i, V c main_v137 i = Wn i)
  (bnb : S64.Idx → EReal) (hb : ∀ q : Fin 64, V c main_v144 (ix2 (0 : Fin 1) q) = bnb (ix1 q))
  (b1 : S64.BroadcastsInDim S1x64 ![1]) (b2 : S1x64.BroadcastsInDim S50000x64 ![0, 1])

include hWn hb in
/-- What point `t` writes back to the second output is block `t` of the statistics array of `h · W + b + a`. -/
theorem flushed_eq_stats (t : Fin cfg8.N) :
    (dat8 V c).flushed 5 t
      = ((cfg8.win 5).blk t).view.read (Elt Ideal) (statsRef (rawRef (V c main_v110) Wn bnb (V c main_v135) b1 b2)) := by
  show (cfg8.win 5).cut (grid8.coords t) ((dat8 V c).after 5 t) = _
  rw [after8_5]
  unfold outsAt8
  dsimp only
  rw [out5_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (iblk8 V c 0 t) (iblk8 V c 1 t) (iblk8 V c 2 t) (iblk8 V c 3 t)]
  obtain ⟨-, -, -, -, -, -, -, -, -, -, e0, e1, e2⟩ := idx_facts t
  funext j
  obtain ⟨a, r, q, rfl⟩ : ∃ (a : Fin 1) (r : Fin 8) (q : Fin 64), j = ix3 a r q := ⟨j 0, j 1, j 2, eq_ix3 j⟩
  have hN : cfg8.N = 10 := N_8
  have ht : t.val < 10 := by have := t.isLt; omega
  have hemb : ((cfg8.win 5).blk t).view.emb (ix3 a r q) = ix3 (⟨t.val, ht⟩ : Fin 10) r q := by
    funext b; apply Fin.ext
    match b with
    | ⟨0, _⟩ => show win8_5.index t (0 : Fin 3) * 1 + 1 * a.val = t.val; have := a.isLt; omega
    | ⟨1, _⟩ => show win8_5.index t (1 : Fin 3) * 8 + 1 * r.val = r.val; omega
    | ⟨2, _⟩ => show win8_5.index t (2 : Fin 3) * 64 + 1 * q.val = q.val; omega
  show View.canon (statsPieces (F := Ideal) (iblk8 V c 0 t) (iblk8 V c 1 t) (iblk8 V c 2 t) (iblk8 V c 3 t)) (ix3 a r q)
    = statsRef (rawRef (V c main_v110) Wn bnb (V c main_v135) b1 b2) (((cfg8.win 5).blk t).view.emb (ix3 a r q))
  rw [hemb]
  refine (statsPieces_apply (iblk8 V c 0 t) (iblk8 V c 1 t) (iblk8 V c 2 t) (iblk8 V c 3 t) a r q).trans ?_
  exact blockStats_eq_tileStat ⟨t.val, ht⟩ (pay_rows_at V c Wn hWn bnb hb b1 b2 t) r q

/-- An index of the second output is in point `t`'s block iff each coordinate is in the block's range on its axis. -/
theorem mem_blk5 (t : Fin cfg8.N) (i : S10x8x64.Idx) :
    i ∈ ((cfg8.win 5).blk t).view.set ↔ ∀ a : Fin 3, win8_5.index t a * S1x8x64.size a ≤ (i a).val ∧ (i a).val < win8_5.index t a * S1x8x64.size a + S1x8x64.size a := by
  show i ∈ ((View.whole main_v145_1).slice (win8_5.rect t)).set ↔ _
  rw [View.set_slice_whole, Rect.mem_set_unit]
  exact Iff.rfl

/-- The ten blocks cover the second output: index `(t, r, q)` lies in the block of point `t`. -/
theorem cover5 (i : S10x8x64.Idx) :
    ∃ t : Fin cfg8.N, (cfg8.win 5).flush t = true ∧ i ∈ ((cfg8.win 5).blk t).view.set := by
  have hi0 : (i 0).val < 10 := (i 0).isLt
  have hi1 : (i 1).val < 8 := (i 1).isLt
  have hi2 : (i 2).val < 64 := (i 2).isLt
  have hN : cfg8.N = 10 := N_8
  obtain ⟨t, ht⟩ : ∃ t : Fin cfg8.N, t.val = (i 0).val := ⟨⟨(i 0).val, by rw [hN]; exact hi0⟩, rfl⟩
  obtain ⟨-, -, -, -, -, -, -, -, -, -, e0, e1, e2⟩ := idx_facts t
  refine ⟨t, flush8_5 t, ?_⟩
  rw [mem_blk5]
  intro a
  match a with
  | ⟨0, _⟩ => show win8_5.index t (0 : Fin 3) * 1 ≤ (i 0).val ∧ (i 0).val < win8_5.index t (0 : Fin 3) * 1 + 1; omega
  | ⟨1, _⟩ => show win8_5.index t (1 : Fin 3) * 8 ≤ (i 1).val ∧ (i 1).val < win8_5.index t (1 : Fin 3) * 8 + 8; omega
  | ⟨2, _⟩ => show win8_5.index t (2 : Fin 3) * 64 ≤ (i 2).val ∧ (i 2).val < win8_5.index t (2 : Fin 3) * 64 + 64; omega

include hWn hb in
/-- THE SECOND OUTPUT after the region is the statistics array of `h · W + b + a` of the arrays the region finds. -/
theorem arr_eq_statsRef :
    (dat8 V c).arrAt 5 cfg8.N = statsRef (rawRef (V c main_v110) Wn bnb (V c main_v135) b1 b2) :=
  (dat8 V c).arrAt_eq_of_cover 5 _ (fun t _ => flushed_eq_stats V c Wn hWn bnb hb b1 b2 t) cover5

include hWn hb in
/-- Read at rows 0 and 1 of block `t`: the sums over tile `t` of column `q` of `h · W + b + a` and of its squares. -/
theorem arr_eq_stats (t : Fin 10) (q : Fin 64) :
    ((dat8 V c).arrAt 5 cfg8.N : S10x8x64.Idx → EReal) (ix3 t 0 q)
        = ∑ y : Fin 5000, rawRef (V c main_v110) Wn bnb (V c main_v135) b1 b2 (ix2 ⟨t.val * 5000 + y.val, tile_row_lt t y⟩ q)
    ∧ ((dat8 V c).arrAt 5 cfg8.N : S10x8x64.Idx → EReal) (ix3 t 1 q)
        = ∑ y : Fin 5000, rawRef (V c main_v110) Wn bnb (V c main_v135) b1 b2 (ix2 ⟨t.val * 5000 + y.val, tile_row_lt t y⟩ q)
            * rawRef (V c main_v110) Wn bnb (V c main_v135) b1 b2 (ix2 ⟨t.val * 5000 + y.val, tile_row_lt t y⟩ q) := by
  rw [arr_eq_statsRef V c Wn hWn bnb hb b1 b2]
  exact ⟨tileStat_zero _ t q, tileStat_one _ t q⟩

end Stats

end Cert.KernelIdeal.Region8

end
-- ==== Proof.Region9.lean ====
/-
  The batch normalisation and rectifier of the third layer.  Each grid point `t` (of ten) holds rows
  `5000 t … 5000 t + 4999` of the raw node features (50000 × 64) together with the per-column mean, variance, scale
  and shift as four rows (1 × 64 each), and writes rows `5000 t …` of

      max (((raw − mean) · (var + ε)^(−1/2)) · scale + shift) 0.

  Every row is treated by itself and the ten row blocks tile the 50000 rows, so after the ten points the result array
  is the host-style term `bnReluRef` of the whole arrays.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region9

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `raw` and the four rows hold the four
    vectors, the body's result holds the same rows of `bnReluRef`. -/
theorem pay_rows (o : Nat) (raw : FVec Ideal S50000x64 .f32) (mean var gamma beta : FVec Ideal S64 .f32)
    (x0 : FVec Ideal S5000x64 .f32) (xm xv xg xb : FVec Ideal S1x64 .f32)
    (h0 : RowsOf 50000 5000 64 o raw x0)
    (hm : ∀ q : Fin 64, xm (ix2 (0 : Fin 1) q) = mean (ix1 q)) (hv : ∀ q : Fin 64, xv (ix2 (0 : Fin 1) q) = var (ix1 q))
    (hg : ∀ q : Fin 64, xg (ix2 (0 : Fin 1) q) = gamma (ix1 q)) (hb : ∀ q : Fin 64, xb (ix2 (0 : Fin 1) q) = beta (ix1 q))
    (hE : S_.BroadcastsInDim S64 ![]) (h1 : S64.BroadcastsInDim S1x64 ![1])
    (h2 : S1x64.BroadcastsInDim S50000x64 ![0, 1]) (hZ : S_.BroadcastsInDim S50000x64 ![]) :
    RowsOf 50000 5000 64 o (bnReluRef 50000 64 raw mean var gamma beta 0x3727C5AC#32 hE h1 h2 hZ)
      (k9_pay1 (F := Ideal) x0 xv xm xg xb) := by
  unfold k9_pay1
  exact RowsOf.bnRelu h0 mean var gamma beta xm xv xg xb hm hv hg hb 0x3727C5AC#32 hE h1 h2 hZ
    shapeCasts_S5000x64_S5000x64 shapeCasts_S1x64_S1x64 broadcasts_S1x64_S5000x64

/-- The grid's index maps: point `t` holds row block `t` of the raw features and of the result, and the four rows whole. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Point `t`'s block of the raw features holds rows `5000 t …` of the array. -/
theorem raw_rows (c : Dev nD) (t : Fin cfg9.N) :
    RowsOf 50000 5000 64 (t.val * 5000) (V c main_v145_0 : S50000x64.Idx → EReal) (iblk9 V c 0 t) := by
  intro y k h
  obtain ⟨e0, e1, -⟩ := idx_facts t
  show V c main_v145_0 (((cfg9.win 0).blk t).view.emb (ix2 y k)) = V c main_v145_0 (ix2 ⟨t.val * 5000 + y.val, h⟩ k)
  refine congrArg (V c main_v145_0) ?_
  funext a; apply Fin.ext
  match a with
  | ⟨0, _⟩ => show win9_0.index t (0 : Fin 2) * 5000 + 1 * y.val = t.val * 5000 + y.val; omega
  | ⟨1, _⟩ => show win9_0.index t (1 : Fin 2) * 64 + 1 * k.val = k.val; omega

/-- Each one-row window's block is its whole array, at every point. -/
theorem mean_row (c : Dev nD) (t : Fin cfg9.N) (q : Fin 64) :
    iblk9 V c 1 t (ix2 (0 : Fin 1) q) = V c main_v158 (ix2 (0 : Fin 1) q) := by
  obtain ⟨-, -, e0, e1, -⟩ := idx_facts t
  show V c main_v158 (((cfg9.win 1).blk t).view.emb (ix2 (0 : Fin 1) q)) = _
  refine congrArg (V c main_v158) ?_
  funext a; apply Fin.ext
  match a with
  | ⟨0, _⟩ => show win9_1.index t (0 : Fin 2) * 1 + 1 * 0 = 0; omega
  | ⟨1, _⟩ => show win9_1.index t (1 : Fin 2) * 64 + 1 * q.val = q.val; omega

theorem var_row (c : Dev nD) (t : Fin cfg9.N) (q : Fin 64) :
    iblk9 V c 2 t (ix2 (0 : Fin 1) q) = V c main_v159 (ix2 (0 : Fin 1) q) := by
  obtain ⟨-, -, -, -, e0, e1, -⟩ := idx_facts t
  show V c main_v159 (((cfg9.win 2).blk t).view.emb (ix2 (0 : Fin 1) q)) = _
  refine congrArg (V c main_v159) ?_
  funext a; apply Fin.ext
  match a with
  | ⟨0, _⟩ => show win9_2.index t (0 : Fin 2) * 1 + 1 * 0 = 0; omega
  | ⟨1, _⟩ => show win9_2.index t (1 : Fin 2) * 64 + 1 * q.val = q.val; omega

theorem scale_row (c : Dev nD) (t : Fin cfg9.N) (q : Fin 64) :
    iblk9 V c 3 t (ix2 (0 : Fin 1) q) = V c main_v160 (ix2 (0 : Fin 1) q) := by
  obtain ⟨-, -, -, -, -, -, e0, e1, -⟩ := idx_facts t
  show V c main_v160 (((cfg9.win 3).blk t).view.emb (ix2 (0 : Fin 1) q)) = _
  refine congrArg (V c main_v160) ?_
  funext a; apply Fin.ext
  match a with
  | ⟨0, _⟩ => show win9_3.index t (0 : Fin 2) * 1 + 1 * 0 = 0; omega
  | ⟨1, _⟩ => show win9_3.index t (1 : Fin 2) * 64 + 1 * q.val = q.val; omega

theorem shift_row (c : Dev nD) (t : Fin cfg9.N) (q : Fin 64) :
    iblk9 V c 4 t (ix2 (0 : Fin 1) q) = V c main_v161 (ix2 (0 : Fin 1) q) := by
  obtain ⟨-, -, -, -, -, -, -, -, e0, e1, -⟩ := idx_facts t
  show V c main_v161 (((cfg9.win 4).blk t).view.emb (ix2 (0 : Fin 1) q)) = _
  refine congrArg (V c main_v161) ?_
  funext a; apply Fin.ext
  match a with
  | ⟨0, _⟩ => show win9_4.index t (0 : Fin 2) * 1 + 1 * 0 = 0; omega
  | ⟨1, _⟩ => show win9_4.index t (1 : Fin 2) * 64 + 1 * q.val = q.val; omega

section Result

variable (c : Dev nD) (mean var gamma beta : FVec Ideal S64 .f32)
  (hmean : ∀ q : Fin 64, V c main_v158 (ix2 (0 : Fin 1) q) = mean (ix1 q))
  (hvar : ∀ q : Fin 64, V c main_v159 (ix2 (0 : Fin 1) q) = var (ix1 q))
  (hgamma : ∀ q : Fin 64, V c main_v160 (ix2 (0 : Fin 1) q) = gamma (ix1 q))
  (hbeta : ∀ q : Fin 64, V c main_v161 (ix2 (0 : Fin 1) q) = beta (ix1 q))
  (hE : S_.BroadcastsInDim S64 ![]) (h1 : S64.BroadcastsInDim S1x64 ![1])
  (h2 : S1x64.BroadcastsInDim S50000x64 ![0, 1]) (hZ : S_.BroadcastsInDim S50000x64 ![])

include hmean hvar hgamma hbeta in
/-- What point `t` writes back is block `t` of `bnReluRef` of the arrays the region finds. -/
theorem flushed_eq (t : Fin cfg9.N) :
    (dat9 V c).flushed 5 t = ((cfg9.win 5).blk t).view.read (Elt Ideal)
      (bnReluRef 50000 64 (V c main_v145_0) mean var gamma beta 0x3727C5AC#32 hE h1 h2 hZ) := by
  show (cfg9.win 5).cut (grid9.coords t) ((dat9 V c).after 5 t) = _
  rw [after9_5]
  unfold out9_5
  rw [View.canon_unit_zero hz]
  simp only [View.ld_unit_zero (S := S5000x64) hz, View.ld_unit_zero (S := S1x64) hz]
  obtain ⟨-, -, -, -, -, -, -, -, -, -, e0, e1⟩ := idx_facts t
  funext j
  obtain ⟨y, k, rfl⟩ : ∃ (y : Fin 5000) (k : Fin 64), j = ix2 y k := ⟨j 0, j 1, eq_ix2 j⟩
  have hN : cfg9.N = 10 := N_9
  have hlt : t.val * 5000 + y.val < 50000 := by
    have ht := t.isLt
    have hy := y.isLt
    omega
  show k9_pay1 (F := Ideal) (iblk9 V c 0 t) (iblk9 V c 2 t) (iblk9 V c 1 t) (iblk9 V c 3 t) (iblk9 V c 4 t) (ix2 y k)
    = bnReluRef 50000 64 (V c main_v145_0) mean var gamma beta 0x3727C5AC#32 hE h1 h2 hZ (((cfg9.win 5).blk t).view.emb (ix2 y k))
  refine (pay_rows (t.val * 5000) (V c main_v145_0) mean var gamma beta
    (iblk9 V c 0 t) (iblk9 V c 1 t) (iblk9 V c 2 t) (iblk9 V c 3 t) (iblk9 V c 4 t)
    (raw_rows V c t)
    (fun q => (mean_row V c t q).trans (hmean q)) (fun q => (var_row V c t q).trans (hvar q))
    (fun q => (scale_row V c t q).trans (hgamma q)) (fun q => (shift_row V c t q).trans (hbeta q))
    hE h1 h2 hZ y k hlt).trans ?_
  refine congrArg (bnReluRef 50000 64 (V c main_v145_0) mean var gamma beta 0x3727C5AC#32 hE h1 h2 hZ) ?_
  funext a; apply Fin.ext
  match a with
  | ⟨0, _⟩ => show t.val * 5000 + y.val = win9_5.index t (0 : Fin 2) * 5000 + 1 * y.val; omega
  | ⟨1, _⟩ => show k.val = win9_5.index t (1 : Fin 2) * 64 + 1 * k.val; omega

/-- An index of the result array is in point `t`'s block iff each coordinate is in the block's range on its axis. -/
theorem mem_blk (t : Fin cfg9.N) (i : S50000x64.Idx) :
    i ∈ ((cfg9.win 5).blk t).view.set ↔ ∀ a : Fin 2, win9_5.index t a * S5000x64.size a ≤ (i a).val ∧ (i a).val < win9_5.index t a * S5000x64.size a + S5000x64.size a := by
  show i ∈ ((View.whole main_v162).slice (win9_5.rect t)).set ↔ _
  rw [View.set_slice_whole, Rect.mem_set_unit]
  exact Iff.rfl

/-- The row blocks cover the array: row `r` lies in the block of point `r / 5000`. -/
theorem cover (i : S50000x64.Idx) :
    ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 10 := N_9
  obtain ⟨t, ht⟩ : ∃ t : Fin cfg9.N, t.val = (i 0).val / 5000 := ⟨⟨(i 0).val / 5000, by rw [hN]; omega⟩, rfl⟩
  obtain ⟨-, -, -, -, -, -, -, -, -, -, e0, e1⟩ := idx_facts t
  refine ⟨t, flush9_5 t, ?_⟩
  rw [mem_blk]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 64 ≤ (i 1).val ∧ (i 1).val < win9_5.index t (1 : Fin 2) * 64 + 64; omega

include hmean hvar hgamma hbeta in
/-- THE RESULT ARRAY after the region is `bnReluRef` of the raw features the region finds and the four vectors. -/
theorem arr_eq :
    (dat9 V c).arrAt 5 cfg9.N = bnReluRef 50000 64 (V c main_v145_0) mean var gamma beta 0x3727C5AC#32 hE h1 h2 hZ :=
  (dat9 V c).arrAt_eq_of_cover 5 _
    (fun t _ => flushed_eq V c mean var gamma beta hmean hvar hgamma hbeta hE h1 h2 hZ t) cover

end Result

end Cert.KernelIdeal.Region9

end
-- ==== Proof.GlueN2.lean ====
/-
  Layer 2's node half in the kernel program.  From the layer's messages in the edge kernel's result buffer: the
  host operations before the node kernel sum the messages of every node's incoming edges (a scatter-add into zeros) and
  slice the layer's node parameters; the node kernel leaves the layer's sum before normalisation, and the tile sums of
  its entries and of their squares; the host operations after it turn the tile sums into the column mean and
  variance; the normalisation kernel then leaves the layer's output.  Each buffer is read back as the reference's own
  term of the node features the layer starts from and the launch arrays.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.RefReal
import proofs.«108144_j81140522156740_2_alg».proof.Proof.SpecBridge
import proofs.«108144_j81140522156740_2_alg».proof.Proof.StatsBridge
import proofs.«108144_j81140522156740_2_alg».proof.Proof.GlueKeep
import proofs.«108144_j81140522156740_2_alg».proof.Proof.GlueArgs
import proofs.«108144_j81140522156740_2_alg».proof.Proof.GlueL2
import proofs.«108144_j81140522156740_2_alg».proof.Proof.Region8
import proofs.«108144_j81140522156740_2_alg».proof.Proof.Region9
import proofs.«108144_j81140522156740_2_alg».proof.Proof.LibLayerRows
import proofs.«108144_j81140522156740_2_alg».proof.Proof.LibBnRows
import Idealize.ShloMosaic.Lib.StableHlo.Run
import Idealize.ShloMosaic.PureOps.Ideal.Laws

set_option maxRecDepth 16384

noncomputable section

open scoped BigOperators

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

section N2

/-! ## Layer 2: from the node features `H` and the messages `MSG` to the layer's output -/

variable (H : FVec Ideal S50000x64 .f32) (hH : (W14 m ρ c (Proc.devRef .tc main_v110) : S50000x64.Idx → EReal) = H)
variable (MSG : FVec Ideal S800000x64 .f32) (hmsg : (W16 m ρ c (Proc.devRef .tc main_v131) : S800000x64.Idx → EReal) = MSG)

/-! ### After the host operations before the node kernel -/

include hmsg in
/-- The sum of the messages of every node's incoming edges. -/
theorem N2_v31 : (W17 m ρ c (Proc.devRef .tc main_v135) : S50000x64.Idx → EReal)
    = Cert.ReferenceIdeal.RefRun.aggr MSG (Cert.ReferenceIdeal.RefRun.dstCol (m ((c : Thread nD τ).loc main_arg1))) := by
  show StableHlo.after hostOps8 (W16 m ρ c) (Proc.devRef .tc main_v135) = _
  after_results
  rw [hmsg, at_main_v3_16 m ρ c]
  exact Cert.SpecBridge.scatterAdd_eq _ _ _ _

/-- The layer's node weights. -/
theorem N2_v33 : (W17 m ρ c (Proc.devRef .tc main_v137) : S64x64.Idx → EReal)
    = Cert.ReferenceIdeal.RefRun.sliceWn 2 (m ((c : Thread nD τ).loc main_arg8)) := by
  show StableHlo.after hostOps8 (W16 m ρ c) (Proc.devRef .tc main_v137) = _
  after_results
  rw [at_main_arg8_16 m ρ c]
  rfl

/-- The layer's node bias, as one row. -/
theorem N2_v40 : (W17 m ρ c (Proc.devRef .tc main_v144) : S1x64.Idx → EReal)
    = shapeCast S1x64 (Cert.ReferenceIdeal.RefRun.sliceRow 2 (m ((c : Thread nD τ).loc main_arg9))) shapeCasts_S64_S1x64 := by
  show StableHlo.after hostOps8 (W16 m ρ c) (Proc.devRef .tc main_v144) = _
  after_results
  rw [at_main_arg9_16 m ρ c]
  rfl

/-- The layer's normalisation scale. -/
theorem N2_v37 : (W17 m ρ c (Proc.devRef .tc main_v141) : S64.Idx → EReal)
    = Cert.ReferenceIdeal.RefRun.sliceRow 2 (m ((c : Thread nD τ).loc main_arg14)) := by
  show StableHlo.after hostOps8 (W16 m ρ c) (Proc.devRef .tc main_v141) = _
  after_results
  rw [at_main_arg14_16 m ρ c]
  rfl

/-- The layer's normalisation shift. -/
theorem N2_v39 : (W17 m ρ c (Proc.devRef .tc main_v143) : S64.Idx → EReal)
    = Cert.ReferenceIdeal.RefRun.sliceRow 2 (m ((c : Thread nD τ).loc main_arg15)) := by
  show StableHlo.after hostOps8 (W16 m ρ c) (Proc.devRef .tc main_v143) = _
  after_results
  rw [at_main_arg15_16 m ρ c]
  rfl

include hH in
/-- The node features the layer starts from are still in their buffer. -/
theorem N2_v6 : (W17 m ρ c (Proc.devRef .tc main_v110) : S50000x64.Idx → EReal) = H :=
  (keep_main_v110_14_17 m ρ c).trans hH

/-! ### The node kernel -/

/-- The node kernel's weight operand holds the layer's node weights, entry by entry. -/
theorem N2_Wn_entries (i : S64x64.Idx) : V17 m ρ c main_v137 i = (Cert.ReferenceIdeal.RefRun.sliceWn 2 (m ((c : Thread nD τ).loc main_arg8))) i := by
  show (W17 m ρ c (Proc.devRef .tc main_v137) : S64x64.Idx → EReal) i = _
  rw [N2_v33 m ρ c]

/-- The node kernel's bias operand holds the layer's node bias along its one row. -/
theorem N2_bnb_row (q : Fin 64) : V17 m ρ c main_v144 (ix2 (0 : Fin 1) q) = (Cert.ReferenceIdeal.RefRun.sliceRow 2 (m ((c : Thread nD τ).loc main_arg9))) (ix1 q) := by
  show (W17 m ρ c (Proc.devRef .tc main_v144) : S1x64.Idx → EReal) (ix2 (0 : Fin 1) q) = _
  rw [N2_v40 m ρ c]
  exact Cert.Lib.RowBlocks.cast_row_apply _ _ q

include hH hmsg in
/-- What the node kernel's sum is of, read back: the node features and the summed messages. -/
theorem N2_rawRef : Cert.KernelIdeal.Region8.rawRef (V17 m ρ c main_v110) (Cert.ReferenceIdeal.RefRun.sliceWn 2 (m ((c : Thread nD τ).loc main_arg8))) (Cert.ReferenceIdeal.RefRun.sliceRow 2 (m ((c : Thread nD τ).loc main_arg9))) (V17 m ρ c main_v135)
      Cert.ReferenceIdeal.Facts₀.bcast_S64_S1x64_1 Cert.ReferenceIdeal.Facts₀.bcast_S1x64_S50000x64_0_1
    = Cert.ReferenceIdeal.RefRun.raw H (Cert.ReferenceIdeal.RefRun.sliceWn 2 (m ((c : Thread nD τ).loc main_arg8))) (Cert.ReferenceIdeal.RefRun.sliceRow 2 (m ((c : Thread nD τ).loc main_arg9))) (Cert.ReferenceIdeal.RefRun.aggr MSG (Cert.ReferenceIdeal.RefRun.dstCol (m ((c : Thread nD τ).loc main_arg1)))) := by
  show Cert.KernelIdeal.Region8.rawRef (W17 m ρ c (Proc.devRef .tc main_v110)) _ _ (W17 m ρ c (Proc.devRef .tc main_v135)) _ _ = _
  rw [N2_v6 m ρ c H hH, N2_v31 m ρ c MSG hmsg]
  rfl

include hH hmsg in
/-- The node kernel's first result buffer holds the layer's sum before normalisation. -/
theorem N2_raw : (W18 m ρ c (Proc.devRef .tc main_v145_0) : S50000x64.Idx → EReal) = Cert.ReferenceIdeal.RefRun.raw H (Cert.ReferenceIdeal.RefRun.sliceWn 2 (m ((c : Thread nD τ).loc main_arg8))) (Cert.ReferenceIdeal.RefRun.sliceRow 2 (m ((c : Thread nD τ).loc main_arg9))) (Cert.ReferenceIdeal.RefRun.aggr MSG (Cert.ReferenceIdeal.RefRun.dstCol (m ((c : Thread nD τ).loc main_arg1)))) :=
  ((W18_arr m ρ c 4).trans (Cert.KernelIdeal.Region8.arr_eq_raw (V17 m ρ) c (Cert.ReferenceIdeal.RefRun.sliceWn 2 (m ((c : Thread nD τ).loc main_arg8))) (N2_Wn_entries m ρ c) (Cert.ReferenceIdeal.RefRun.sliceRow 2 (m ((c : Thread nD τ).loc main_arg9))) (N2_bnb_row m ρ c)
    Cert.ReferenceIdeal.Facts₀.bcast_S64_S1x64_1 Cert.ReferenceIdeal.Facts₀.bcast_S1x64_S50000x64_0_1)).trans
    (N2_rawRef m ρ c H hH MSG hmsg)

include hH hmsg in
/-- The node kernel's second result buffer holds, at rows 0 and 1 of tile `t`, the tile's column sums of the layer's sum
    and of its squares. -/
theorem N2_stats (t : Fin 10) (q : Fin 64) :
    (W18 m ρ c (Proc.devRef .tc main_v145_1) : S10x8x64.Idx → EReal) (ix3 t 0 q)
        = ∑ y : Fin 5000, (Cert.ReferenceIdeal.RefRun.raw H (Cert.ReferenceIdeal.RefRun.sliceWn 2 (m ((c : Thread nD τ).loc main_arg8))) (Cert.ReferenceIdeal.RefRun.sliceRow 2 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
    ∧ (W18 m ρ c (Proc.devRef .tc main_v145_1) : S10x8x64.Idx → EReal) (ix3 t 1 q)
        = ∑ y : Fin 5000, (Cert.ReferenceIdeal.RefRun.raw H (Cert.ReferenceIdeal.RefRun.sliceWn 2 (m ((c : Thread nD τ).loc main_arg8))) (Cert.ReferenceIdeal.RefRun.sliceRow 2 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q)
            * (Cert.ReferenceIdeal.RefRun.raw H (Cert.ReferenceIdeal.RefRun.sliceWn 2 (m ((c : Thread nD τ).loc main_arg8))) (Cert.ReferenceIdeal.RefRun.sliceRow 2 (m ((c : Thread nD τ).loc main_arg9))) (Cert.ReferenceIdeal.RefRun.aggr MSG (Cert.ReferenceIdeal.RefRun.dstCol (m ((c : Thread nD τ).loc main_arg1))))) (ix2 ⟨t.val * 5000 + y.val, Cert.StatsBridge.row_lt t y⟩ q) := by
  have e : (W18 m ρ c (Proc.devRef .tc main_v145_1) : S10x8x64.Idx → EReal)
      = ((dat8 (V17 m ρ) c).arrAt 5 cfg8.N : S10x8x64.Idx → EReal) := W18_arr m ρ c 5
  have h := Cert.KernelIdeal.Region8.arr_eq_stats (V17 m ρ) c (Cert.ReferenceIdeal.RefRun.sliceWn 2 (m ((c : Thread nD τ).loc main_arg8))) (N2_Wn_entries m ρ c) (Cert.ReferenceIdeal.RefRun.sliceRow 2 (m ((c : Thread nD τ).loc main_arg9))) (N2_bnb_row m ρ c)
    Cert.ReferenceIdeal.Facts₀.bcast_S64_S1x64_1 Cert.ReferenceIdeal.Facts₀.bcast_S1x64_S50000x64_0_1 t q
  rw [N2_rawRef m ρ c H hH MSG hmsg] at h
  rw [e]
  exact h

/-! ### After the node kernel: the column statistics, and the normalisation kernel

The node kernel's first result `RAW` and the tile sums it leaves beside it enter here as hypotheses. -/

section Norm

variable (RAW : FVec Ideal S50000x64 .f32)
  (hraw : (W18 m ρ c (Proc.devRef .tc main_v145_0) : S50000x64.Idx → EReal) = RAW)
  (hs0 : ∀ (t : Fin 10) (q : Fin 64), (W18 m ρ c (Proc.devRef .tc main_v145_1) : S10x8x64.Idx → EReal) (ix3 t 0 q)
    = ∑ y : Fin 5000, RAW (ix2 ⟨t.val * 5000 + y.val, Cert.StatsBridge.row_lt t y⟩ q))
  (hs1 : ∀ (t : Fin 10) (q : Fin 64), (W18 m ρ c (Proc.devRef .tc main_v145_1) : S10x8x64.Idx → EReal) (ix3 t 1 q)
    = ∑ y : Fin 5000, RAW (ix2 ⟨t.val * 5000 + y.val, Cert.StatsBridge.row_lt t y⟩ q)
        * RAW (ix2 ⟨t.val * 5000 + y.val, Cert.StatsBridge.row_lt t y⟩ q))
  (hreal : Cert.Lib.RealEntries.AllReal RAW)

include hs0 in
/-- The column means, as one row. -/
theorem N2_v54 : (W19 m ρ c (Proc.devRef .tc main_v158) : S1x64.Idx → EReal)
    = shapeCast S1x64 (Cert.ReferenceIdeal.RefRun.colMean RAW) shapeCasts_S64_S1x64 := by
  show StableHlo.after hostOps9 (W18 m ρ c) (Proc.devRef .tc main_v158) = _
  after_results
  exact congrArg (fun v : S64.Idx → EReal => shapeCast S1x64 v shapeCasts_S64_S1x64)
    (Cert.StatsBridge.mean_eq (W18 m ρ c (Proc.devRef .tc main_v145_1)) RAW hs0)

include hs0 hs1 hreal in
/-- The column variances, as one row. -/
theorem N2_v55 : (W19 m ρ c (Proc.devRef .tc main_v159) : S1x64.Idx → EReal)
    = shapeCast S1x64 (Cert.ReferenceIdeal.RefRun.colVar RAW) shapeCasts_S64_S1x64 := by
  show StableHlo.after hostOps9 (W18 m ρ c) (Proc.devRef .tc main_v159) = _
  after_results_simp
  exact congrArg (fun v : S64.Idx → EReal => shapeCast S1x64 v shapeCasts_S64_S1x64)
    (Cert.StatsBridge.var_eq (W18 m ρ c (Proc.devRef .tc main_v145_1)) RAW hs0 hs1 hreal)

/-- The normalisation scale, as one row. -/
theorem N2_v56 : (W19 m ρ c (Proc.devRef .tc main_v160) : S1x64.Idx → EReal)
    = shapeCast S1x64 (Cert.ReferenceIdeal.RefRun.sliceRow 2 (m ((c : Thread nD τ).loc main_arg14))) shapeCasts_S64_S1x64 := by
  show StableHlo.after hostOps9 (W18 m ρ c) (Proc.devRef .tc main_v160) = _
  after_results
  rw [keep_main_v141_17_18 m ρ c, N2_v37 m ρ c]
  rfl

/-- The normalisation shift, as one row. -/
theorem N2_v57 : (W19 m ρ c (Proc.devRef .tc main_v161) : S1x64.Idx → EReal)
    = shapeCast S1x64 (Cert.ReferenceIdeal.RefRun.sliceRow 2 (m ((c : Thread nD τ).loc main_arg15))) shapeCasts_S64_S1x64 := by
  show StableHlo.after hostOps9 (W18 m ρ c) (Proc.devRef .tc main_v161) = _
  after_results
  rw [keep_main_v143_17_18 m ρ c, N2_v39 m ρ c]
  rfl

include hraw in
/-- The node kernel's first result is still in its buffer. -/
theorem N2_raw7 : (W19 m ρ c (Proc.devRef .tc main_v145_0) : S50000x64.Idx → EReal) = RAW :=
  (keep_main_v145_0_18_19 m ρ c).trans hraw

include hraw hs0 hs1 hreal in
/-- The normalisation kernel's result buffer holds the reference's normalised and rectified `RAW`. -/
theorem N2_norm : (W20 m ρ c (Proc.devRef .tc main_v162) : S50000x64.Idx → EReal)
    = Cert.ReferenceIdeal.RefRun.bnRelu RAW (Cert.ReferenceIdeal.RefRun.colMean RAW) (Cert.ReferenceIdeal.RefRun.colVar RAW)
        (Cert.ReferenceIdeal.RefRun.sliceRow 2 (m ((c : Thread nD τ).loc main_arg14))) (Cert.ReferenceIdeal.RefRun.sliceRow 2 (m ((c : Thread nD τ).loc main_arg15))) := by
  refine (W20_arr m ρ c 5).trans ?_
  refine (Cert.KernelIdeal.Region9.arr_eq (V19 m ρ) c (Cert.ReferenceIdeal.RefRun.colMean RAW) (Cert.ReferenceIdeal.RefRun.colVar RAW)
    (Cert.ReferenceIdeal.RefRun.sliceRow 2 (m ((c : Thread nD τ).loc main_arg14))) (Cert.ReferenceIdeal.RefRun.sliceRow 2 (m ((c : Thread nD τ).loc main_arg15)))
    (fun q => ?hmean) (fun q => ?hvar) (fun q => ?hgamma) (fun q => ?hbeta)
    Cert.ReferenceIdeal.Facts₀.bcast_S_S64 Cert.ReferenceIdeal.Facts₀.bcast_S64_S1x64_1
    Cert.ReferenceIdeal.Facts₀.bcast_S1x64_S50000x64_0_1 Cert.ReferenceIdeal.Facts₀.bcast_S_S50000x64).trans ?_
  case hmean =>
    show (W19 m ρ c (Proc.devRef .tc main_v158) : S1x64.Idx → EReal) (ix2 (0 : Fin 1) q) = _
    rw [N2_v54 m ρ c RAW hs0]
    exact Cert.Lib.RowBlocks.cast_row_apply _ _ q
  case hvar =>
    show (W19 m ρ c (Proc.devRef .tc main_v159) : S1x64.Idx → EReal) (ix2 (0 : Fin 1) q) = _
    rw [N2_v55 m ρ c RAW hs0 hs1 hreal]
    exact Cert.Lib.RowBlocks.cast_row_apply _ _ q
  case hgamma =>
    show (W19 m ρ c (Proc.devRef .tc main_v160) : S1x64.Idx → EReal) (ix2 (0 : Fin 1) q) = _
    rw [N2_v56 m ρ c]
    exact Cert.Lib.RowBlocks.cast_row_apply _ _ q
  case hbeta =>
    show (W19 m ρ c (Proc.devRef .tc main_v161) : S1x64.Idx → EReal) (ix2 (0 : Fin 1) q) = _
    rw [N2_v57 m ρ c]
    exact Cert.Lib.RowBlocks.cast_row_apply _ _ q
  show Cert.Lib.RowBlocks.bnReluRef 50000 64 (W19 m ρ c (Proc.devRef .tc main_v145_0)) _ _ _ _ _ _ _ _ _ = _
  rw [N2_raw7 m ρ c RAW hraw]
  exact Cert.SpecBridge.bnReluRef_eq _ _ _ _ _ _ _ _ _

end Norm

end N2

/-! ## Layer 2, assembled -/

/-- Layer 2 of the kernel program: from the node features `H` in the layer's input buffer to the reference's layer
    2 of `H` in the normalisation kernel's result buffer, for real node features and real launch arrays. -/
theorem N2_out (H : FVec Ideal S50000x64 .f32) (hH : (W14 m ρ c (Proc.devRef .tc main_v110) : S50000x64.Idx → EReal) = H)
    (hHr : Cert.Lib.RealEntries.AllReal H) (hEA : Cert.Lib.RealEntries.AllReal (Cert.ReferenceIdeal.RefRun.edgeEmbed (m ((c : Thread nD τ).loc main_arg2)) (m ((c : Thread nD τ).loc main_arg6)) (m ((c : Thread nD τ).loc main_arg7))))
    (r8 : Cert.Lib.RealEntries.AllReal ((m ((c : Thread nD τ).loc main_arg8)) : S3x64x64.Idx → EReal)) (r9 : Cert.Lib.RealEntries.AllReal ((m ((c : Thread nD τ).loc main_arg9)) : S3x64.Idx → EReal))
    (r10 : Cert.Lib.RealEntries.AllReal ((m ((c : Thread nD τ).loc main_arg10)) : S3x32x64.Idx → EReal)) (r11 : Cert.Lib.RealEntries.AllReal ((m ((c : Thread nD τ).loc main_arg11)) : S3x64.Idx → EReal))
    (r12 : Cert.Lib.RealEntries.AllReal ((m ((c : Thread nD τ).loc main_arg12)) : S3x128x64.Idx → EReal)) (r13 : Cert.Lib.RealEntries.AllReal ((m ((c : Thread nD τ).loc main_arg13)) : S3x64.Idx → EReal))
    (r14 : Cert.Lib.RealEntries.AllReal ((m ((c : Thread nD τ).loc main_arg14)) : S3x64.Idx → EReal)) (r15 : Cert.Lib.RealEntries.AllReal ((m ((c : Thread nD τ).loc main_arg15)) : S3x64.Idx → EReal)) :
    (W20 m ρ c (Proc.devRef .tc main_v162) : S50000x64.Idx → EReal)
      = Cert.ReferenceIdeal.RefRun.layerAt 2 H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hmsg := L2_v27 m ρ c H hH
  have hreal : Cert.Lib.RealEntries.AllReal (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 2 (m ((c : Thread nD τ).loc main_arg10))) (Cert.ReferenceIdeal.RefRun.sliceRow 2 (m ((c : Thread nD τ).loc main_arg11)))
      (Cert.ReferenceIdeal.RefRun.sliceWg 2 (m ((c : Thread nD τ).loc main_arg12))) (Cert.ReferenceIdeal.RefRun.sliceRow 2 (m ((c : Thread nD τ).loc main_arg13)))
      (Cert.ReferenceIdeal.RefRun.sliceWn 2 (m ((c : Thread nD τ).loc main_arg8))) (Cert.ReferenceIdeal.RefRun.sliceRow 2 (m ((c : Thread nD τ).loc main_arg9)))) :=
    Cert.ReferenceIdeal.RefReal.layerRaw_real _ _ hHr hEA (Cert.ReferenceIdeal.RefReal.sliceWe_real 2 r10) (Cert.ReferenceIdeal.RefReal.sliceRow_real 2 r11)
      (Cert.ReferenceIdeal.RefReal.sliceWg_real 2 r12) (Cert.ReferenceIdeal.RefReal.sliceRow_real 2 r13) (Cert.ReferenceIdeal.RefReal.sliceWn_real 2 r8) (Cert.ReferenceIdeal.RefReal.sliceRow_real 2 r9)
  exact N2_norm m ρ c (Cert.ReferenceIdeal.RefRun.layerRaw H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1)))
      (Cert.ReferenceIdeal.RefRun.sliceWe 2 (m ((c : Thread nD τ).loc main_arg10))) (Cert.ReferenceIdeal.RefRun.sliceRow 2 (m ((c : Thread nD τ).loc main_arg11)))
      (Cert.ReferenceIdeal.RefRun.sliceWg 2 (m ((c : Thread nD τ).loc main_arg12))) (Cert.ReferenceIdeal.RefRun.sliceRow 2 (m ((c : Thread nD τ).loc main_arg13)))
      (Cert.ReferenceIdeal.RefRun.sliceWn 2 (m ((c : Thread nD τ).loc main_arg8))) (Cert.ReferenceIdeal.RefRun.sliceRow 2 (m ((c : Thread nD τ).loc main_arg9))))
    (N2_raw m ρ c H hH _ hmsg)
    (fun t q => (N2_stats m ρ c H hH _ hmsg t q).1) (fun t q => (N2_stats m ρ c H hH _ hmsg t q).2) hreal

end Cert.KernelIdeal.Glue

end
-- ==== Proof.Region10.lean ====
/-
  The final projection.  The one grid point holds the whole pooled array (128 × 64), the whole weight matrix `W`
  (64 × 128) and the bias as one row (1 × 128), and writes the whole of `pooled · W + b` (128 × 128).  The one block is
  the whole array, so after the region the result array is the host-style term `affineRef` of the whole arrays:
  `dot_general pooled W + (b spread over the rows)`.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region10

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `x`, `x1` is `W` entry by entry and the
    row `x2` holds the bias vector, the body's result holds the same rows of `affineRef`. -/
theorem pay_rows (o : Nat) (x : FVec Ideal S128x64 .f32) (W : FVec Ideal S64x128 .f32) (b : S128.Idx → EReal)
    (x0 : FVec Ideal S128x64 .f32) (x1 : FVec Ideal S64x128 .f32) (x2 : FVec Ideal S1x128 .f32)
    (h0 : RowsOf 128 128 64 o x x0) (hW : ∀ i, x1 i = W i)
    (hb : ∀ q : Fin 128, x2 (ix2 (0 : Fin 1) q) = b (ix1 q))
    (h1 : S128.BroadcastsInDim S1x128 ![1]) (h2 : S1x128.BroadcastsInDim S128x128 ![0, 1]) :
    RowsOf 128 128 128 o (affineRef 128 64 128 x W b h1 h2) (k10_pay1 (F := Ideal) x0 x1 x2) := by
  unfold k10_pay1
  show RowsOf 128 128 128 o (affineRef 128 64 128 x W b h1 h2)
    (addf (FloatOps.matmul (DotDims.plain 128 64 128) none
        (truncf .bf16 (shapeCast S128x64 x0 shapeCasts_S128x64_S128x64) bitsLt_bf16_f32) (truncf .bf16 x1 bitsLt_bf16_f32)
        (constant ⟨2, ![128, 128]⟩ .f32 0x00000000#32))
      (broadcastTo S128x128 (shapeCast S1x128 x2 shapeCasts_S1x128_S1x128) broadcasts_S1x128_S128x128))
  exact RowsOf.affine (RowsOf.castSelf shapeCasts_S128x64_S128x64 h0) W x1 hW b x2 hb h1 h2 shapeCasts_S1x128_S1x128 broadcasts_S1x128_S128x128 bitsLt_bf16_f32

/-- The grid's index maps: point `t` holds row block `t` of the pooled array and of the result, and the matrix and the bias row whole. -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Point `t`'s block of the pooled array holds rows `128 t …` of the array. -/
theorem x_rows (c : Dev nD) (t : Fin cfg10.N) :
    RowsOf 128 128 64 (t.val * 128) (V c main_v174 : S128x64.Idx → EReal) (iblk10 V c 0 t) := by
  intro y k h
  obtain ⟨e0, e1, -⟩ := idx_facts t
  show V c main_v174 (((cfg10.win 0).blk t).view.emb (ix2 y k)) = V c main_v174 (ix2 ⟨t.val * 128 + y.val, h⟩ k)
  refine congrArg (V c main_v174) ?_
  funext a; apply Fin.ext
  match a with
  | ⟨0, _⟩ => show win10_0.index t (0 : Fin 2) * 128 + 1 * y.val = t.val * 128 + y.val; omega
  | ⟨1, _⟩ => show win10_0.index t (1 : Fin 2) * 64 + 1 * k.val = k.val; omega

/-- The weight matrix's block is the whole matrix, at every point. -/
theorem weight_read (c : Dev nD) (t : Fin cfg10.N) (i : S64x128.Idx) : iblk10 V c 1 t i = V c main_arg16 i := by
  obtain ⟨p, q, rfl⟩ : ∃ (p : Fin 64) (q : Fin 128), i = ix2 p q := ⟨i 0, i 1, eq_ix2 i⟩
  obtain ⟨-, -, e0, e1, -⟩ := idx_facts t
  show V c main_arg16 (((cfg10.win 1).blk t).view.emb (ix2 p q)) = _
  refine congrArg (V c main_arg16) ?_
  funext a; apply Fin.ext
  match a with
  | ⟨0, _⟩ => show win10_1.index t (0 : Fin 2) * 64 + 1 * p.val = p.val; omega
  | ⟨1, _⟩ => show win10_1.index t (1 : Fin 2) * 128 + 1 * q.val = q.val; omega

/-- The bias row's block is the whole row, at every point. -/
theorem bias_row (c : Dev nD) (t : Fin cfg10.N) (q : Fin 128) :
    iblk10 V c 2 t (ix2 (0 : Fin 1) q) = V c main_v175 (ix2 (0 : Fin 1) q) := by
  obtain ⟨-, -, -, -, e0, e1, -⟩ := idx_facts t
  show V c main_v175 (((cfg10.win 2).blk t).view.emb (ix2 (0 : Fin 1) q)) = _
  refine congrArg (V c main_v175) ?_
  funext a; apply Fin.ext
  match a with
  | ⟨0, _⟩ => show win10_2.index t (0 : Fin 2) * 1 + 1 * 0 = 0; omega
  | ⟨1, _⟩ => show win10_2.index t (1 : Fin 2) * 128 + 1 * q.val = q.val; omega

section Result

variable (c : Dev nD) (b : S128.Idx → EReal)
  (hb : ∀ q : Fin 128, V c main_v175 (ix2 (0 : Fin 1) q) = b (ix1 q))
  (h1 : S128.BroadcastsInDim S1x128 ![1]) (h2 : S1x128.BroadcastsInDim S128x128 ![0, 1])

include hb in
/-- What point `t` writes back is block `t` of `affineRef` of the arrays the region finds. -/
theorem flushed_eq (t : Fin cfg10.N) :
    (dat10 V c).flushed 3 t = ((cfg10.win 3).blk t).view.read (Elt Ideal)
      (affineRef 128 64 128 (V c main_v174) (V c main_arg16) b h1 h2) := by
  show (cfg10.win 3).cut (grid10.coords t) ((dat10 V c).after 3 t) = _
  rw [after10_3]
  unfold out10_3
  rw [View.canon_unit_zero hz]
  simp only [View.ld_unit_zero (S := S128x64) hz, View.ld_unit_zero (S := S64x128) hz, View.ld_unit_zero (S := S1x128) hz]
  obtain ⟨-, -, -, -, -, -, e0, e1⟩ := idx_facts t
  funext j
  obtain ⟨y, k, rfl⟩ : ∃ (y : Fin 128) (k : Fin 128), j = ix2 y k := ⟨j 0, j 1, eq_ix2 j⟩
  have hN : cfg10.N = 1 := N_10
  have hlt : t.val * 128 + y.val < 128 := by
    have ht := t.isLt
    have hy := y.isLt
    omega
  show k10_pay1 (F := Ideal) (iblk10 V c 0 t) (iblk10 V c 1 t) (iblk10 V c 2 t) (ix2 y k)
    = affineRef 128 64 128 (V c main_v174) (V c main_arg16) b h1 h2 (((cfg10.win 3).blk t).view.emb (ix2 y k))
  refine (pay_rows (t.val * 128) (V c main_v174) (V c main_arg16) b (iblk10 V c 0 t) (iblk10 V c 1 t) (iblk10 V c 2 t)
    (x_rows V c t) (weight_read V c t) (fun q => (bias_row V c t q).trans (hb q))
    h1 h2 y k hlt).trans ?_
  refine congrArg (affineRef 128 64 128 (V c main_v174) (V c main_arg16) b h1 h2) ?_
  funext a; apply Fin.ext
  match a with
  | ⟨0, _⟩ => show t.val * 128 + y.val = win10_3.index t (0 : Fin 2) * 128 + 1 * y.val; omega
  | ⟨1, _⟩ => show k.val = win10_3.index t (1 : Fin 2) * 128 + 1 * k.val; omega

/-- An index of the result array is in point `t`'s block iff each coordinate is in the block's range on its axis. -/
theorem mem_blk (t : Fin cfg10.N) (i : S128x128.Idx) :
    i ∈ ((cfg10.win 3).blk t).view.set ↔ ∀ a : Fin 2, win10_3.index t a * S128x128.size a ≤ (i a).val ∧ (i a).val < win10_3.index t a * S128x128.size a + S128x128.size a := by
  show i ∈ ((View.whole main_v178).slice (win10_3.rect t)).set ↔ _
  rw [View.set_slice_whole, Rect.mem_set_unit]
  exact Iff.rfl

/-- The row blocks cover the array: row `r` lies in the block of point `r / 128`. -/
theorem cover (i : S128x128.Idx) :
    ∃ t : Fin cfg10.N, (cfg10.win 3).flush t = true ∧ i ∈ ((cfg10.win 3).blk t).view.set := by
  have hi0 : (i 0).val < 128 := (i 0).isLt
  have hi1 : (i 1).val < 128 := (i 1).isLt
  have hN : cfg10.N = 1 := N_10
  obtain ⟨t, ht⟩ : ∃ t : Fin cfg10.N, t.val = (i 0).val / 128 := ⟨⟨(i 0).val / 128, by rw [hN]; omega⟩, rfl⟩
  obtain ⟨-, -, -, -, -, -, e0, e1⟩ := idx_facts t
  refine ⟨t, flush10_3 t, ?_⟩
  rw [mem_blk]
  intro a
  match a with
  | ⟨0, _⟩ => show win10_3.index t (0 : Fin 2) * 128 ≤ (i 0).val ∧ (i 0).val < win10_3.index t (0 : Fin 2) * 128 + 128; omega
  | ⟨1, _⟩ => show win10_3.index t (1 : Fin 2) * 128 ≤ (i 1).val ∧ (i 1).val < win10_3.index t (1 : Fin 2) * 128 + 128; omega

include hb in
/-- THE RESULT ARRAY after the region is `affineRef` of the pooled array and the weight matrix the region finds, and the bias. -/
theorem arr_eq : (dat10 V c).arrAt 3 cfg10.N = affineRef 128 64 128 (V c main_v174) (V c main_arg16) b h1 h2 :=
  (dat10 V c).arrAt_eq_of_cover 3 _ (fun t _ => flushed_eq V c b hb h1 h2 t) cover

end Result

end Cert.KernelIdeal.Region10

end
-- ==== Proof.Region11.lean ====
/-
  The batch normalisation and rectifier after the final projection.  The one grid point holds the whole projected
  array (128 × 128) together with the per-column mean, variance, scale and shift as four rows (1 × 128 each), and
  writes the whole of

      max (((raw − mean) · (var + ε)^(−1/2)) · scale + shift) 0.

  The one block is the whole array, so after the region the result array is the host-style term `bnReluRef` of the
  whole arrays.
-/
import proofs.«108144_j81140522156740_2_alg».proof.Proof.Gen.KernelIdeal.Frame
import proofs.«108144_j81140522156740_2_alg».proof.Proof.LibBnRows
import Idealize.ShloMosaic.Lib.Pipeline.Value
import Idealize.ShloMosaic.Lib.ValueIdx

set_option maxRecDepth 16384

noncomputable section

namespace Cert.KernelIdeal.Region11

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.RowBlocks Cert.Lib.RowOps

variable (V : (c : Dev nD) → (b : Ref sig .tc) → Buf (Elt Ideal) ((c : Thread nD τ).loc b))

theorem hz : (![0, 0] : Fin 2 → Nat) = fun _ => 0 := funext fun a => by fin_cases a <;> rfl

/-- The body's arithmetic carries rows: when the block `x0` holds rows `o …` of `raw` and the four rows hold the four
    vectors, the body's result holds the same rows of `bnReluRef`. -/
theorem pay_rows (o : Nat) (raw : FVec Ideal S128x128 .f32) (mean var gamma beta : FVec Ideal S128 .f32)
    (x0 : FVec Ideal S128x128 .f32) (xm xv xg xb : FVec Ideal S1x128 .f32)
    (h0 : RowsOf 128 128 128 o raw x0)
    (hm : ∀ q : Fin 128, xm (ix2 (0 : Fin 1) q) = mean (ix1 q)) (hv : ∀ q : Fin 128, xv (ix2 (0 : Fin 1) q) = var (ix1 q))
    (hg : ∀ q : Fin 128, xg (ix2 (0 : Fin 1) q) = gamma (ix1 q)) (hb : ∀ q : Fin 128, xb (ix2 (0 : Fin 1) q) = beta (ix1 q))
    (hE : S_.BroadcastsInDim S128 ![]) (h1 : S128.BroadcastsInDim S1x128 ![1])
    (h2 : S1x128.BroadcastsInDim S128x128 ![0, 1]) (hZ : S_.BroadcastsInDim S128x128 ![]) :
    RowsOf 128 128 128 o (bnReluRef 128 128 raw mean var gamma beta 0x3727C5AC#32 hE h1 h2 hZ)
      (k11_pay1 (F := Ideal) x0 xv xm xg xb) := by
  unfold k11_pay1
  exact RowsOf.bnRelu h0 mean var gamma beta xm xv xg xb hm hv hg hb 0x3727C5AC#32 hE h1 h2 hZ
    shapeCasts_S128x128_S128x128 shapeCasts_S1x128_S1x128 broadcasts_S1x128_S128x128

/-- The grid's index maps: point `t` holds row block `t` of the raw features and of the result, and the four rows whole. -/
theorem idx_facts : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Point `t`'s block of the raw features holds rows `128 t …` of the array. -/
theorem raw_rows (c : Dev nD) (t : Fin cfg11.N) :
    RowsOf 128 128 128 (t.val * 128) (V c main_v178 : S128x128.Idx → EReal) (iblk11 V c 0 t) := by
  intro y k h
  obtain ⟨e0, e1, -⟩ := idx_facts t
  show V c main_v178 (((cfg11.win 0).blk t).view.emb (ix2 y k)) = V c main_v178 (ix2 ⟨t.val * 128 + y.val, h⟩ k)
  refine congrArg (V c main_v178) ?_
  funext a; apply Fin.ext
  match a with
  | ⟨0, _⟩ => show win11_0.index t (0 : Fin 2) * 128 + 1 * y.val = t.val * 128 + y.val; omega
  | ⟨1, _⟩ => show win11_0.index t (1 : Fin 2) * 128 + 1 * k.val = k.val; omega

/-- Each one-row window's block is its whole array, at every point. -/
theorem mean_row (c : Dev nD) (t : Fin cfg11.N) (q : Fin 128) :
    iblk11 V c 1 t (ix2 (0 : Fin 1) q) = V c main_v182 (ix2 (0 : Fin 1) q) := by
  obtain ⟨-, -, e0, e1, -⟩ := idx_facts t
  show V c main_v182 (((cfg11.win 1).blk t).view.emb (ix2 (0 : Fin 1) q)) = _
  refine congrArg (V c main_v182) ?_
  funext a; apply Fin.ext
  match a with
  | ⟨0, _⟩ => show win11_1.index t (0 : Fin 2) * 1 + 1 * 0 = 0; omega
  | ⟨1, _⟩ => show win11_1.index t (1 : Fin 2) * 128 + 1 * q.val = q.val; omega

theorem var_row (c : Dev nD) (t : Fin cfg11.N) (q : Fin 128) :
    iblk11 V c 2 t (ix2 (0 : Fin 1) q) = V c main_v184 (ix2 (0 : Fin 1) q) := by
  obtain ⟨-, -, -, -, e0, e1, -⟩ := idx_facts t
  show V c main_v184 (((cfg11.win 2).blk t).view.emb (ix2 (0 : Fin 1) q)) = _
  refine congrArg (V c main_v184) ?_
  funext a; apply Fin.ext
  match a with
  | ⟨0, _⟩ => show win11_2.index t (0 : Fin 2) * 1 + 1 * 0 = 0; omega
  | ⟨1, _⟩ => show win11_2.index t (1 : Fin 2) * 128 + 1 * q.val = q.val; omega

theorem scale_row (c : Dev nD) (t : Fin cfg11.N) (q : Fin 128) :
    iblk11 V c 3 t (ix2 (0 : Fin 1) q) = V c main_v176 (ix2 (0 : Fin 1) q) := by
  obtain ⟨-, -, -, -, -, -, e0, e1, -⟩ := idx_facts t
  show V c main_v176 (((cfg11.win 3).blk t).view.emb (ix2 (0 : Fin 1) q)) = _
  refine congrArg (V c main_v176) ?_
  funext a; apply Fin.ext
  match a with
  | ⟨0, _⟩ => show win11_3.index t (0 : Fin 2) * 1 + 1 * 0 = 0; omega
  | ⟨1, _⟩ => show win11_3.index t (1 : Fin 2) * 128 + 1 * q.val = q.val; omega

theorem shift_row (c : Dev nD) (t : Fin cfg11.N) (q : Fin 128) :
    iblk11 V c 4 t (ix2 (0 : Fin 1) q) = V c main_v177 (ix2 (0 : Fin 1) q) := by
  obtain ⟨-, -, -, -, -, -, -, -, e0, e1, -⟩ := idx_facts t
  show V c main_v177 (((cfg11.win 4).blk t).view.emb (ix2 (0 : Fin 1) q)) = _
  refine congrArg (V c main_v177) ?_
  funext a; apply Fin.ext
  match a with
  | ⟨0, _⟩ => show win11_4.index t (0 : Fin 2) * 1 + 1 * 0 = 0; omega
  | ⟨1, _⟩ => show win11_4.index t (1 : Fin 2) * 128 + 1 * q.val = q.val; omega

section Result

variable (c : Dev nD) (mean var gamma beta : FVec Ideal S128 .f32)
  (hmean : ∀ q : Fin 128, V c main_v182 (ix2 (0 : Fin 1) q) = mean (ix1 q))
  (hvar : ∀ q : Fin 128, V c main_v184 (ix2 (0 : Fin 1) q) = var (ix1 q))
  (hgamma : ∀ q : Fin 128, V c main_v176 (ix2 (0 : Fin 1) q) = gamma (ix1 q))
  (hbeta : ∀ q : Fin 128, V c main_v177 (ix2 (0 : Fin 1) q) = beta (ix1 q))
  (hE : S_.BroadcastsInDim S128 ![]) (h1 : S128.BroadcastsInDim S1x128 ![1])
  (h2 : S1x128.BroadcastsInDim S128x128 ![0, 1]) (hZ : S_.BroadcastsInDim S128x128 ![])

include hmean hvar hgamma hbeta in
/-- What point `t` writes back is block `t` of `bnReluRef` of the arrays the region finds. -/
theorem flushed_eq (t : Fin cfg11.N) :
    (dat11 V c).flushed 5 t = ((cfg11.win 5).blk t).view.read (Elt Ideal)
      (bnReluRef 128 128 (V c main_v178) mean var gamma beta 0x3727C5AC#32 hE h1 h2 hZ) := by
  show (cfg11.win 5).cut (grid11.coords t) ((dat11 V c).after 5 t) = _
  rw [after11_5]
  unfold out11_5
  rw [View.canon_unit_zero hz]
  simp only [View.ld_unit_zero (S := S128x128) hz, View.ld_unit_zero (S := S1x128) hz]
  obtain ⟨-, -, -, -, -, -, -, -, -, -, e0, e1⟩ := idx_facts t
  funext j
  obtain ⟨y, k, rfl⟩ : ∃ (y : Fin 128) (k : Fin 128), j = ix2 y k := ⟨j 0, j 1, eq_ix2 j⟩
  have hN : cfg11.N = 1 := N_11
  have hlt : t.val * 128 + y.val < 128 := by
    have ht := t.isLt
    have hy := y.isLt
    omega
  show k11_pay1 (F := Ideal) (iblk11 V c 0 t) (iblk11 V c 2 t) (iblk11 V c 1 t) (iblk11 V c 3 t) (iblk11 V c 4 t) (ix2 y k)
    = bnReluRef 128 128 (V c main_v178) mean var gamma beta 0x3727C5AC#32 hE h1 h2 hZ (((cfg11.win 5).blk t).view.emb (ix2 y k))
  refine (pay_rows (t.val * 128) (V c main_v178) mean var gamma beta
    (iblk11 V c 0 t) (iblk11 V c 1 t) (iblk11 V c 2 t) (iblk11 V c 3 t) (iblk11 V c 4 t)
    (raw_rows V c t)
    (fun q => (mean_row V c t q).trans (hmean q)) (fun q => (var_row V c t q).trans (hvar q))
    (fun q => (scale_row V c t q).trans (hgamma q)) (fun q => (shift_row V c t q).trans (hbeta q))
    hE h1 h2 hZ y k hlt).trans ?_
  refine congrArg (bnReluRef 128 128 (V c main_v178) mean var gamma beta 0x3727C5AC#32 hE h1 h2 hZ) ?_
  funext a; apply Fin.ext
  match a with
  | ⟨0, _⟩ => show t.val * 128 + y.val = win11_5.index t (0 : Fin 2) * 128 + 1 * y.val; omega
  | ⟨1, _⟩ => show k.val = win11_5.index t (1 : Fin 2) * 128 + 1 * k.val; omega

/-- An index of the result array is in point `t`'s block iff each coordinate is in the block's range on its axis. -/
theorem mem_blk (t : Fin cfg11.N) (i : S128x128.Idx) :
    i ∈ ((cfg11.win 5).blk t).view.set ↔ ∀ a : Fin 2, win11_5.index t a * S128x128.size a ≤ (i a).val ∧ (i a).val < win11_5.index t a * S128x128.size a + S128x128.size a := by
  show i ∈ ((View.whole main_v185).slice (win11_5.rect t)).set ↔ _
  rw [View.set_slice_whole, Rect.mem_set_unit]
  exact Iff.rfl

/-- The row blocks cover the array: row `r` lies in the block of point `r / 128`. -/
theorem cover (i : S128x128.Idx) :
    ∃ t : Fin cfg11.N, (cfg11.win 5).flush t = true ∧ i ∈ ((cfg11.win 5).blk t).view.set := by
  have hi0 : (i 0).val < 128 := (i 0).isLt
  have hi1 : (i 1).val < 128 := (i 1).isLt
  have hN : cfg11.N = 1 := N_11
  obtain ⟨t, ht⟩ : ∃ t : Fin cfg11.N, t.val = (i 0).val / 128 := ⟨⟨(i 0).val / 128, by rw [hN]; omega⟩, rfl⟩
  obtain ⟨-, -, -, -, -, -, -, -, -, -, e0, e1⟩ := idx_facts t
  refine ⟨t, flush11_5 t, ?_⟩
  rw [mem_blk]
  intro a
  match a with
  | ⟨0, _⟩ => show win11_5.index t (0 : Fin 2) * 128 ≤ (i 0).val ∧ (i 0).val < win11_5.index t (0 : Fin 2) * 128 + 128; omega
  | ⟨1, _⟩ => show win11_5.index t (1 : Fin 2) * 128 ≤ (i 1).val ∧ (i 1).val < win11_5.index t (1 : Fin 2) * 128 + 128; omega

include hmean hvar hgamma hbeta in
/-- THE RESULT ARRAY after the region is `bnReluRef` of the raw features the region finds and the four vectors. -/
theorem arr_eq :
    (dat11 V c).arrAt 5 cfg11.N = bnReluRef 128 128 (V c main_v178) mean var gamma beta 0x3727C5AC#32 hE h1 h2 hZ :=
  (dat11 V c).arrAt_eq_of_cover 5 _
    (fun t _ => flushed_eq V c mean var gamma beta hmean hvar hgamma hbeta hE h1 h2 hZ t) cover

end Result

end Cert.KernelIdeal.Region11

end
-- ==== Proof.GlueTail.lean ====
/-
  The end of the kernel program: from the node features after the third layer to the result.

  After the third layer the program pools the node features over the graphs on the host — the sum of every graph's node
  rows over the graph's node count, at least one —, projects the pooled array (128 × 64) to 128 × 128 in a kernel
  (`pooled · fW + fb`), takes the column means and the column variances of the projection on the host, and normalises
  and rectifies it in a last kernel.  The reference does the same with the same host operations, so each buffer of this
  stretch holds the reference's named array:

      pool → projection → (column mean, column variance) → max (((x − μ) · (σ² + ε)^(−1/2)) · γ + β) 0.

  Each host stretch is read off its operations over ANY buffer contents it starts from; the buffers nothing writes in
  between persist; the two kernels' result arrays are the region lemmas' terms, which are the reference's by unfolding.
-/
import proofs.«108144_j81140522156740_2_alg».proof.Proof.Gen.KernelIdeal.Frame
import proofs.«108144_j81140522156740_2_alg».proof.Proof.Gen.ReferenceIdeal
import proofs.«108144_j81140522156740_2_alg».proof.Proof.RefSpec
import proofs.«108144_j81140522156740_2_alg».proof.Proof.LibLayerRows
import Idealize.ShloMosaic.Lib.StableHlo.Run
import Idealize.ShloMosaic.PureOps.Ideal.Laws
import proofs.«108144_j81140522156740_2_alg».proof.Proof.Region10
import proofs.«108144_j81140522156740_2_alg».proof.Proof.Region11

set_option maxRecDepth 16384

noncomputable section

namespace Cert.KernelIdeal.GlueTail

open Idealize.ShloMosaic Idealize.ShloMosaic.TcCoe Idealize.ShloMosaic.Tactic Idealize.SL.Sem Idealize.ShloMosaic.ValueIdx
open Cert.KernelIdeal Cert.KernelIdeal.Gen Cert.Lib.RowBlocks
open Cert.ReferenceIdeal (RefRun.pool RefRun.colMeanG RefRun.colVarG RefRun.finalRaw RefRun.final RefRun.bnReluG)

/-! ## The host stretches of the tail, over any buffer contents `F` they start from -/

section Host

variable (F : Valuation τ sig (Elt Ideal))

/-- The mean pool over graphs: the sum of every graph's node rows over the graph's node count (at least one). -/
theorem pool_of :
    (StableHlo.after hostOps10 F (Proc.devRef .tc main_v174) : S128x64.Idx → EReal)
      = RefRun.pool (F (Proc.devRef .tc main_v162)) (F (Proc.devRef .tc main_arg3)) := by
  after_results_simp
  rfl

/-- The projection's bias, reshaped to one row, holds the bias vector along that row. -/
theorem biasRow_of (q : Fin 128) :
    (StableHlo.after hostOps10 F (Proc.devRef .tc main_v175) : S1x128.Idx → EReal) (ix2 (0 : Fin 1) q)
      = (F (Proc.devRef .tc main_arg17) : S128.Idx → EReal) (ix1 q) := by
  after_results
  exact cast_row_apply _ _ q

/-- The final scale, reshaped to one row. -/
theorem scaleRow_of (q : Fin 128) :
    (StableHlo.after hostOps10 F (Proc.devRef .tc main_v176) : S1x128.Idx → EReal) (ix2 (0 : Fin 1) q)
      = (F (Proc.devRef .tc main_arg18) : S128.Idx → EReal) (ix1 q) := by
  after_results
  exact cast_row_apply _ _ q

/-- The final shift, reshaped to one row. -/
theorem shiftRow_of (q : Fin 128) :
    (StableHlo.after hostOps10 F (Proc.devRef .tc main_v177) : S1x128.Idx → EReal) (ix2 (0 : Fin 1) q)
      = (F (Proc.devRef .tc main_arg19) : S128.Idx → EReal) (ix1 q) := by
  after_results
  exact cast_row_apply _ _ q

/-- The column means of the projected array, reshaped to one row. -/
theorem meanRow_of (q : Fin 128) :
    (StableHlo.after hostOps11 F (Proc.devRef .tc main_v182) : S1x128.Idx → EReal) (ix2 (0 : Fin 1) q)
      = RefRun.colMeanG (F (Proc.devRef .tc main_v178)) (ix1 q) := by
  after_results
  exact cast_row_apply _ _ q

/-- The integer zero the variance's divisor takes away. -/
theorem zero_of : (StableHlo.after hostOps11 F (Proc.devRef .tc main_c_25) : S_.Idx → BitVec 32) = constantI S_ 32 0#32 := by
  after_results

/-- The column variances of the projected array, when the degrees of freedom taken away are zero. -/
theorem var_of (hc : (F (Proc.devRef .tc main_c_25) : S_.Idx → BitVec 32) = constantI S_ 32 0#32) :
    (StableHlo.after hostOps11_1 F (Proc.devRef .tc main_v183) : S128.Idx → EReal)
      = RefRun.colVarG (F (Proc.devRef .tc main_v178)) := by
  after_results_simp
  rw [hc]
  rfl

/-- The column variances, reshaped to one row. -/
theorem varRow_of (q : Fin 128) :
    (StableHlo.after hostOps11_2 F (Proc.devRef .tc main_v184) : S1x128.Idx → EReal) (ix2 (0 : Fin 1) q)
      = (F (Proc.devRef .tc main_v183) : S128.Idx → EReal) (ix1 q) := by
  after_results
  exact cast_row_apply _ _ q

end Host

/-! ## Buffers that persist

Nothing between two boundaries writes these buffers, so they hold at the later boundary what they held at the earlier
one: a host stretch leaves every buffer none of its operations writes, a region every buffer that is not one of its
output arrays.  An argument array holds its launch contents at every boundary: the frame reads it back from the last
boundary, and the boundaries in between leave it alone. -/

section Keep

variable (m : (ℓ : Loc nD τ sig) → Buf (Elt Ideal) ℓ) (ρ : Dev nD → PrngReg) (c : Dev nD)

/-- The graph index of every node, when the pool reads it. -/
theorem arg3_at20 : W20 m ρ c (Proc.devRef .tc main_arg3) = m ((c : Thread nD τ).loc main_arg3) :=
  (calc W26 m ρ c (Proc.devRef .tc main_arg3)
    _ = W25 m ρ c (Proc.devRef .tc main_arg3) := W26_of_ne m ρ c main_arg3 (by decide)
    _ = W24 m ρ c (Proc.devRef .tc main_arg3) := StableHlo.after_of_forall_not_mem (b := Proc.devRef .tc main_arg3) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg3) := StableHlo.after_of_forall_not_mem (b := Proc.devRef .tc main_arg3) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg3) := StableHlo.after_of_forall_not_mem (b := Proc.devRef .tc main_arg3) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg3) := W22_of_ne m ρ c main_arg3 (by decide)
    _ = W20 m ρ c (Proc.devRef .tc main_arg3) := StableHlo.after_of_forall_not_mem (b := Proc.devRef .tc main_arg3) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W26_main_arg3 m ρ c)

/-- The projection's bias, when it is reshaped to one row. -/
theorem arg17_at20 : W20 m ρ c (Proc.devRef .tc main_arg17) = m ((c : Thread nD τ).loc main_arg17) :=
  (calc W26 m ρ c (Proc.devRef .tc main_arg17)
    _ = W25 m ρ c (Proc.devRef .tc main_arg17) := W26_of_ne m ρ c main_arg17 (by decide)
    _ = W24 m ρ c (Proc.devRef .tc main_arg17) := StableHlo.after_of_forall_not_mem (b := Proc.devRef .tc main_arg17) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg17) := StableHlo.after_of_forall_not_mem (b := Proc.devRef .tc main_arg17) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg17) := StableHlo.after_of_forall_not_mem (b := Proc.devRef .tc main_arg17) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg17) := W22_of_ne m ρ c main_arg17 (by decide)
    _ = W20 m ρ c (Proc.devRef .tc main_arg17) := StableHlo.after_of_forall_not_mem (b := Proc.devRef .tc main_arg17) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W26_main_arg17 m ρ c)

/-- The final scale, when it is reshaped to one row. -/
theorem arg18_at20 : W20 m ρ c (Proc.devRef .tc main_arg18) = m ((c : Thread nD τ).loc main_arg18) :=
  (calc W26 m ρ c (Proc.devRef .tc main_arg18)
    _ = W25 m ρ c (Proc.devRef .tc main_arg18) := W26_of_ne m ρ c main_arg18 (by decide)
    _ = W24 m ρ c (Proc.devRef .tc main_arg18) := StableHlo.after_of_forall_not_mem (b := Proc.devRef .tc main_arg18) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg18) := StableHlo.after_of_forall_not_mem (b := Proc.devRef .tc main_arg18) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg18) := StableHlo.after_of_forall_not_mem (b := Proc.devRef .tc main_arg18) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg18) := W22_of_ne m ρ c main_arg18 (by decide)
    _ = W20 m ρ c (Proc.devRef .tc main_arg18) := StableHlo.after_of_forall_not_mem (b := Proc.devRef .tc main_arg18) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W26_main_arg18 m ρ c)

/-- The final shift, when it is reshaped to one row. -/
theorem arg19_at20 : W20 m ρ c (Proc.devRef .tc main_arg19) = m ((c : Thread nD τ).loc main_arg19) :=
  (calc W26 m ρ c (Proc.devRef .tc main_arg19)
    _ = W25 m ρ c (Proc.devRef .tc main_arg19) := W26_of_ne m ρ c main_arg19 (by decide)
    _ = W24 m ρ c (Proc.devRef .tc main_arg19) := StableHlo.after_of_forall_not_mem (b := Proc.devRef .tc main_arg19) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg19) := StableHlo.after_of_forall_not_mem (b := Proc.devRef .tc main_arg19) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg19) := StableHlo.after_of_forall_not_mem (b := Proc.devRef .tc main_arg19) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg19) := W22_of_ne m ρ c main_arg19 (by decide)
    _ = W20 m ρ c (Proc.devRef .tc main_arg19) := StableHlo.after_of_forall_not_mem (b := Proc.devRef .tc main_arg19) _ _ (List.forall_iff_forall_mem.mp (by
          simp only [hostOps10, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm.trans (W26_main_arg19 m ρ c)

/-- The projection's weight matrix, when the projection reads it. -/
theorem arg16_at21 : W21 m ρ c (Proc.devRef .tc main_arg16) = m ((c : Thread nD τ).loc main_arg16) :=
  (calc W26 m ρ c (Proc.devRef .tc main_arg16)
    _ = W25 m ρ c (Proc.devRef .tc main_arg16) := W26_of_ne m ρ c main_arg16 (by decide)
    _ = W24 m ρ c (Proc.devRef .tc main_arg16) := StableHlo.after_of_forall_not_mem (b := Proc.devRef .tc main_arg16) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_arg16) := StableHlo.after_of_forall_not_mem (b := Proc.devRef .tc main_arg16) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_arg16) := StableHlo.after_of_forall_not_mem (b := Proc.devRef .tc main_arg16) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_arg16) := (W22_arr m ρ c 1).trans (((dat10 (V21 m ρ) c).arrAt_in 1 rfl _).trans (A_eq10 (V21 m ρ) c 1))).symm.trans (W26_main_arg16 m ρ c)

/-- The scale row, from the pool's stretch to the last region's entry. -/
theorem keep_v176 : W25 m ρ c (Proc.devRef .tc main_v176) = W21 m ρ c (Proc.devRef .tc main_v176) :=
  calc W25 m ρ c (Proc.devRef .tc main_v176)
    _ = W24 m ρ c (Proc.devRef .tc main_v176) := StableHlo.after_of_forall_not_mem (b := Proc.devRef .tc main_v176) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v176) := StableHlo.after_of_forall_not_mem (b := Proc.devRef .tc main_v176) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_v176) := StableHlo.after_of_forall_not_mem (b := Proc.devRef .tc main_v176) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v176) := W22_of_ne m ρ c main_v176 (by decide)

/-- The shift row, from the pool's stretch to the last region's entry. -/
theorem keep_v177 : W25 m ρ c (Proc.devRef .tc main_v177) = W21 m ρ c (Proc.devRef .tc main_v177) :=
  calc W25 m ρ c (Proc.devRef .tc main_v177)
    _ = W24 m ρ c (Proc.devRef .tc main_v177) := StableHlo.after_of_forall_not_mem (b := Proc.devRef .tc main_v177) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v177) := StableHlo.after_of_forall_not_mem (b := Proc.devRef .tc main_v177) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_v177) := StableHlo.after_of_forall_not_mem (b := Proc.devRef .tc main_v177) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v177) := W22_of_ne m ρ c main_v177 (by decide)

/-- The mean row, from the stretch that computes it to the last region's entry. -/
theorem keep_v182 : W25 m ρ c (Proc.devRef .tc main_v182) = W23 m ρ c (Proc.devRef .tc main_v182) :=
  calc W25 m ρ c (Proc.devRef .tc main_v182)
    _ = W24 m ρ c (Proc.devRef .tc main_v182) := StableHlo.after_of_forall_not_mem (b := Proc.devRef .tc main_v182) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v182) := StableHlo.after_of_forall_not_mem (b := Proc.devRef .tc main_v182) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The projected array, from the projection's exit to the stretch that takes its variance. -/
theorem keep_v178_23 : W23 m ρ c (Proc.devRef .tc main_v178) = W22 m ρ c (Proc.devRef .tc main_v178) :=
  calc W23 m ρ c (Proc.devRef .tc main_v178)
    _ = W22 m ρ c (Proc.devRef .tc main_v178) := StableHlo.after_of_forall_not_mem (b := Proc.devRef .tc main_v178) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The projected array, from the projection's exit to the last region's entry. -/
theorem keep_v178_25 : W25 m ρ c (Proc.devRef .tc main_v178) = W22 m ρ c (Proc.devRef .tc main_v178) :=
  calc W25 m ρ c (Proc.devRef .tc main_v178)
    _ = W24 m ρ c (Proc.devRef .tc main_v178) := StableHlo.after_of_forall_not_mem (b := Proc.devRef .tc main_v178) _ _ (List.forall_iff_forall_mem.mp (by
          simp only [hostOps11_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v178) := StableHlo.after_of_forall_not_mem (b := Proc.devRef .tc main_v178) _ _ (List.forall_iff_forall_mem.mp (by
          simp only [hostOps11_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_v178) := StableHlo.after_of_forall_not_mem (b := Proc.devRef .tc main_v178) _ _ (List.forall_iff_forall_mem.mp (by
          simp only [hostOps11, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Keep

/-! ## The boundaries of the tail, read -/

section Tail

variable (m : (ℓ : Loc nD τ sig) → Buf (Elt Ideal) ℓ) (ρ : Dev nD → PrngReg) (c : Dev nD)

/-- The reference's pooled array of the node features `H3` and the launch's graph index. -/
abbrev pooledRef (H3 : FVec Ideal S50000x64 .f32) : FVec Ideal S128x64 .f32 :=
  RefRun.pool H3 (m ((c : Thread nD τ).loc main_arg3))

/-- The reference's projection of that pooled array, before normalisation. -/
abbrev projRef (H3 : FVec Ideal S50000x64 .f32) : FVec Ideal S128x128 .f32 :=
  RefRun.finalRaw (pooledRef m c H3) (m ((c : Thread nD τ).loc main_arg16)) (m ((c : Thread nD τ).loc main_arg17))

/-- The pooled array at the projection's entry. -/
theorem pooled (H3 : FVec Ideal S50000x64 .f32) (hH : (W20 m ρ c (Proc.devRef .tc main_v162) : S50000x64.Idx → EReal) = H3) :
    (W21 m ρ c (Proc.devRef .tc main_v174) : S128x64.Idx → EReal) = pooledRef m c H3 :=
  (pool_of (W20 m ρ c)).trans (congrArg₂ RefRun.pool hH (arg3_at20 m ρ c))

/-- The bias row at the projection's entry. -/
theorem biasRow (q : Fin 128) :
    (W21 m ρ c (Proc.devRef .tc main_v175) : S1x128.Idx → EReal) (ix2 (0 : Fin 1) q)
      = (m ((c : Thread nD τ).loc main_arg17) : S128.Idx → EReal) (ix1 q) :=
  (biasRow_of (W20 m ρ c) q).trans (congrFun (arg17_at20 m ρ c) (ix1 q))

/-- The scale row at the last region's entry. -/
theorem scaleRow (q : Fin 128) :
    (W25 m ρ c (Proc.devRef .tc main_v176) : S1x128.Idx → EReal) (ix2 (0 : Fin 1) q)
      = (m ((c : Thread nD τ).loc main_arg18) : S128.Idx → EReal) (ix1 q) :=
  (congrFun (keep_v176 m ρ c) (ix2 (0 : Fin 1) q)).trans
    ((scaleRow_of (W20 m ρ c) q).trans (congrFun (arg18_at20 m ρ c) (ix1 q)))

/-- The shift row at the last region's entry. -/
theorem shiftRow (q : Fin 128) :
    (W25 m ρ c (Proc.devRef .tc main_v177) : S1x128.Idx → EReal) (ix2 (0 : Fin 1) q)
      = (m ((c : Thread nD τ).loc main_arg19) : S128.Idx → EReal) (ix1 q) :=
  (congrFun (keep_v177 m ρ c) (ix2 (0 : Fin 1) q)).trans
    ((shiftRow_of (W20 m ρ c) q).trans (congrFun (arg19_at20 m ρ c) (ix1 q)))

/-- The projection's result array at its exit: the reference's projection of the pooled array. -/
theorem projected (H3 : FVec Ideal S50000x64 .f32) (hH : (W20 m ρ c (Proc.devRef .tc main_v162) : S50000x64.Idx → EReal) = H3) :
    (W22 m ρ c (Proc.devRef .tc main_v178) : S128x128.Idx → EReal) = projRef m c H3 := by
  have e : (W22 m ρ c (Proc.devRef .tc main_v178) : S128x128.Idx → EReal)
      = affineRef 128 64 128 (W21 m ρ c (Proc.devRef .tc main_v174)) (W21 m ρ c (Proc.devRef .tc main_arg16))
          (m ((c : Thread nD τ).loc main_arg17))
          Cert.ReferenceIdeal.Facts₀.bcast_S128_S1x128_1 Cert.ReferenceIdeal.Facts₀.bcast_S1x128_S128x128_0_1 :=
    (W22_arr m ρ c 3).trans (Region10.arr_eq (V21 m ρ) c _ (biasRow m ρ c) _ _)
  rw [e, pooled m ρ c H3 hH, arg16_at21 m ρ c]
  rfl

/-- THE RESULT.  When the node features after the third layer are `H3`, the result buffer at the last boundary holds the
    reference's final array of `H3` pooled over the launch's graph index and of the launch's projection weights, bias,
    scale and shift. -/
theorem tail (H3 : FVec Ideal S50000x64 .f32) (hH : (W20 m ρ c (Proc.devRef .tc main_v162) : S50000x64.Idx → EReal) = H3) :
    (W26 m ρ c (Proc.devRef .tc main_v185) : S128x128.Idx → EReal)
      = RefRun.final (RefRun.pool H3 (m ((c : Thread nD τ).loc main_arg3))) (m ((c : Thread nD τ).loc main_arg16))
          (m ((c : Thread nD τ).loc main_arg17)) (m ((c : Thread nD τ).loc main_arg18)) (m ((c : Thread nD τ).loc main_arg19)) := by
  have hR := projected m ρ c H3 hH
  -- the projected array where the variance and the last region read it
  have hR23 : (W23 m ρ c (Proc.devRef .tc main_v178) : S128x128.Idx → EReal) = projRef m c H3 := (keep_v178_23 m ρ c).trans hR
  have hR25 : (W25 m ρ c (Proc.devRef .tc main_v178) : S128x128.Idx → EReal) = projRef m c H3 := (keep_v178_25 m ρ c).trans hR
  -- the mean and the variance rows at the last region's entry
  have hmean : ∀ q : Fin 128, (W25 m ρ c (Proc.devRef .tc main_v182) : S1x128.Idx → EReal) (ix2 (0 : Fin 1) q)
      = RefRun.colMeanG (projRef m c H3) (ix1 q) := fun q =>
    (congrFun (keep_v182 m ρ c) (ix2 (0 : Fin 1) q)).trans
      ((meanRow_of (W22 m ρ c) q).trans (congrFun (congrArg RefRun.colMeanG hR) (ix1 q)))
  have hvar : ∀ q : Fin 128, (W25 m ρ c (Proc.devRef .tc main_v184) : S1x128.Idx → EReal) (ix2 (0 : Fin 1) q)
      = RefRun.colVarG (projRef m c H3) (ix1 q) := fun q =>
    (varRow_of (W24 m ρ c) q).trans
      (congrFun ((var_of (W23 m ρ c) (zero_of (W22 m ρ c))).trans (congrArg RefRun.colVarG hR23)) (ix1 q))
  -- the last region's result array
  have e : (W26 m ρ c (Proc.devRef .tc main_v185) : S128x128.Idx → EReal)
      = bnReluRef 128 128 (W25 m ρ c (Proc.devRef .tc main_v178)) (RefRun.colMeanG (projRef m c H3)) (RefRun.colVarG (projRef m c H3))
          (m ((c : Thread nD τ).loc main_arg18)) (m ((c : Thread nD τ).loc main_arg19)) 0x3727C5AC#32
          Cert.ReferenceIdeal.Facts₀.bcast_S_S128 Cert.ReferenceIdeal.Facts₀.bcast_S128_S1x128_1
          Cert.ReferenceIdeal.Facts₀.bcast_S1x128_S128x128_0_1 Cert.ReferenceIdeal.Facts₀.bcast_S_S128x128 :=
    (W26_arr m ρ c 5).trans
      (Region11.arr_eq (V25 m ρ) c _ _ _ _ hmean hvar (scaleRow m ρ c) (shiftRow m ρ c) _ _ _ _)
  rw [e, hR25]
  rfl

end Tail

end Cert.KernelIdeal.GlueTail

end
-- ==== Proof.GlueOut.lean ====
/-
  The kernel program's result buffer, at the last boundary, holds the reference's function of the launch arrays.
  The node features after the embedding and after each of the three layers are the reference's, layer by layer; each
  layer's batch variance, which the kernel computes as E[x²] − E[x]² from per-tile sums, is the reference's
  E[(x − E x)²] because every entry is a real number under the precondition; the pooled, projected and normalised
  result follows.
-/
import proofs.«108144_j81140522156740_2_alg».proof.Proof.Gen.KernelIdeal.Frame
import proofs.«108144_j81140522156740_2_alg».proof.Proof.Gen.ReferenceIdeal
import proofs.«108144_j81140522156740_2_alg».proof.Proof.Gen.Pre_finite_inputs
import proofs.«108144_j81140522156740_2_alg».proof.Defs
import proofs.«108144_j81140522156740_2_alg».proof.Proof.RefSpec
import proofs.«108144_j81140522156740_2_alg».proof.Proof.RefReal
import proofs.«108144_j81140522156740_2_alg».proof.Proof.PreReal
import proofs.«108144_j81140522156740_2_alg».proof.Proof.LibRealEntries
import proofs.«108144_j81140522156740_2_alg».proof.Proof.GlueA
import proofs.«108144_j81140522156740_2_alg».proof.Proof.GlueN0
import proofs.«108144_j81140522156740_2_alg».proof.Proof.GlueN1
import proofs.«108144_j81140522156740_2_alg».proof.Proof.GlueN2
import proofs.«108144_j81140522156740_2_alg».proof.Proof.GlueTail
import Idealize.ShloMosaic.Lib.StableHlo.Run
import Idealize.ShloMosaic.Lib.ValueIdx
import Idealize.ShloMosaic.PureOps.Ideal.Laws

set_option maxRecDepth 16384

noncomputable section

namespace Cert.KernelIdeal.Glue

open Idealize.ShloMosaic Idealize.ShloMosaic.TcCoe Idealize.ShloMosaic.Tactic Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

open Cert.Lib.RealEntries

/-- What one layer's kernels and host operations give: when the layer's input buffer \`X\` holds real node features \`H\`
    and the launch's edge embedding and stacked layer parameters are real, the layer's output buffer \`Y\` holds the
    reference's layer \`l\` of \`H\`. -/
def LayerStep (l : Fin 3) (X Y : S50000x64.Idx → EReal) : Prop :=
  ∀ (H : FVec Ideal S50000x64 .f32) (hH : X = H) (hHr : AllReal H)
      (hEA : AllReal (Cert.ReferenceIdeal.RefRun.edgeEmbed (m ((c : Thread nD τ).loc main_arg2)) (m ((c : Thread nD τ).loc main_arg6)) (m ((c : Thread nD τ).loc main_arg7))))
      (r8 : AllReal ((m ((c : Thread nD τ).loc main_arg8)) : S3x64x64.Idx → EReal))
      (r9 : AllReal ((m ((c : Thread nD τ).loc main_arg9)) : S3x64.Idx → EReal))
      (r10 : AllReal ((m ((c : Thread nD τ).loc main_arg10)) : S3x32x64.Idx → EReal))
      (r11 : AllReal ((m ((c : Thread nD τ).loc main_arg11)) : S3x64.Idx → EReal))
      (r12 : AllReal ((m ((c : Thread nD τ).loc main_arg12)) : S3x128x64.Idx → EReal))
      (r13 : AllReal ((m ((c : Thread nD τ).loc main_arg13)) : S3x64.Idx → EReal))
      (r14 : AllReal ((m ((c : Thread nD τ).loc main_arg14)) : S3x64.Idx → EReal))
      (r15 : AllReal ((m ((c : Thread nD τ).loc main_arg15)) : S3x64.Idx → EReal)),
    Y = Cert.ReferenceIdeal.RefRun.layerAt l H (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The result buffer from the three layers' steps: the embedding, then layer after layer with every intermediate array
    real, then the pool, the projection and its normalisation. -/
theorem kernel_out_of
    (N0 : LayerStep m c 0 (W2 m ρ c (Proc.devRef .tc main_v6)) (W8 m ρ c (Proc.devRef .tc main_v58)))
    (N1 : LayerStep m c 1 (W8 m ρ c (Proc.devRef .tc main_v58)) (W14 m ρ c (Proc.devRef .tc main_v110)))
    (N2 : LayerStep m c 2 (W14 m ρ c (Proc.devRef .tc main_v110)) (W20 m ρ c (Proc.devRef .tc main_v162)))
    (hpre : Cert.Pre_KernelIdeal m) :
    (W26 m ρ c (Proc.devRef .tc main_v185) : S128x128.Idx → EReal)
      = Cert.ReferenceIdeal.RefRun.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  obtain ⟨r0, r2, r4, r5, r6, r7, r8, r9, r10, r11, r12, r13, r14, r15, r16, r17, r18, r19⟩ := Cert.PreReal.args_real m hpre c
  have hEA : AllReal (Cert.ReferenceIdeal.RefRun.edgeEmbed (m ((c : Thread nD τ).loc main_arg2)) (m ((c : Thread nD τ).loc main_arg6)) (m ((c : Thread nD τ).loc main_arg7))) := Cert.ReferenceIdeal.RefReal.edgeEmbed_real r2 r6 r7
  -- the node embedding
  have h0 := b2_v6 m ρ c
  have hr0 : AllReal (Cert.ReferenceIdeal.RefRun.embed (m ((c : Thread nD τ).loc main_arg0)) (m ((c : Thread nD τ).loc main_arg4)) (m ((c : Thread nD τ).loc main_arg5))) := Cert.ReferenceIdeal.RefReal.embed_real r0 r4 r5
  -- the three layers
  have h1 := N0 _ h0 hr0 hEA r8 r9 r10 r11 r12 r13 r14 r15
  have hr1 : AllReal (Cert.ReferenceIdeal.RefRun.layerAt 0 (Cert.ReferenceIdeal.RefRun.embed (m ((c : Thread nD τ).loc main_arg0)) (m ((c : Thread nD τ).loc main_arg4)) (m ((c : Thread nD τ).loc main_arg5))) (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
    Cert.ReferenceIdeal.RefReal.layerAt_real 0 _ _ hr0 hEA r8 r9 r10 r11 r12 r13 r14 r15
  have h2 := N1 _ h1 hr1 hEA r8 r9 r10 r11 r12 r13 r14 r15
  have hr2 : AllReal (Cert.ReferenceIdeal.RefRun.layerAt 1 (Cert.ReferenceIdeal.RefRun.layerAt 0 (Cert.ReferenceIdeal.RefRun.embed (m ((c : Thread nD τ).loc main_arg0)) (m ((c : Thread nD τ).loc main_arg4)) (m ((c : Thread nD τ).loc main_arg5))) (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (Cert.ReferenceIdeal.RefRun.edgeEmbed (m ((c : Thread nD τ).loc main_arg2)) (m ((c : Thread nD τ).loc main_arg6)) (m ((c : Thread nD τ).loc main_arg7))) (Cert.ReferenceIdeal.RefRun.srcCol (m ((c : Thread nD τ).loc main_arg1))) (Cert.ReferenceIdeal.RefRun.dstCol (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
    Cert.ReferenceIdeal.RefReal.layerAt_real 1 _ _ hr1 hEA r8 r9 r10 r11 r12 r13 r14 r15
  have h3 := N2 _ h2 hr2 hEA r8 r9 r10 r11 r12 r13 r14 r15
  -- the pool over graphs, the projection and its normalisation
  exact (Cert.KernelIdeal.GlueTail.tail m ρ c _ h3).trans rfl

/-- Layer 0's step, from its kernels and host operations. -/
theorem step0 : LayerStep m c 0 (W2 m ρ c (Proc.devRef .tc main_v6)) (W8 m ρ c (Proc.devRef .tc main_v58)) := N0_out m ρ c

/-- Layer 1's step, from its kernels and host operations. -/
theorem step1 : LayerStep m c 1 (W8 m ρ c (Proc.devRef .tc main_v58)) (W14 m ρ c (Proc.devRef .tc main_v110)) := N1_out m ρ c

/-- Layer 2's step, from its kernels and host operations. -/
theorem step2 : LayerStep m c 2 (W14 m ρ c (Proc.devRef .tc main_v110)) (W20 m ρ c (Proc.devRef .tc main_v162)) := N2_out m ρ c

/-- The result of the kernel program's twelve regions and host stretches is the reference's `out` of the launch arrays. -/
theorem kernel_out_eq (hpre : Cert.Pre_KernelIdeal m) :
    (W26 m ρ c (Proc.devRef .tc main_v185) : S128x128.Idx → EReal)
      = Cert.ReferenceIdeal.RefRun.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  kernel_out_of m ρ c (step0 m ρ c) (step1 m ρ c) (step2 m ρ c) hpre

end Cert.KernelIdeal.Glue

end
-- ==== Proof.RefRunVal0.lean ====
/-
  What the first window (the index vectors and the two embeddings) and the windows of layer 0 leave at the buffers later
  windows read, from any contents: each as the reference's named function of what the window reads.
-/
import proofs.«108144_j81140522156740_2_alg».proof.Proof.RefRunOps
import proofs.«108144_j81140522156740_2_alg».proof.Proof.RefSpec

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable [Facts]

/-! ## The first window: the index vectors and the two embeddings -/

theorem wPre_v1 (V : Valuation τ sig (Elt Ideal)) :
    after (wPre (F := Ideal)) V (no_index (Proc.devRef .tc main_v1)) = srcVec (V (Proc.devRef .tc main_arg1)) := by
  unfold wPre; after_results_simp; rfl

theorem wPre_v3 (V : Valuation τ sig (Elt Ideal)) :
    after (wPre (F := Ideal)) V (no_index (Proc.devRef .tc main_v3)) = dstVec (V (Proc.devRef .tc main_arg1)) := by
  unfold wPre; after_results_simp; rfl

theorem wPre_v7 (V : Valuation τ sig (Elt Ideal)) :
    after (wPre (F := Ideal)) V (no_index (Proc.devRef .tc main_v7))
      = embed (V (Proc.devRef .tc main_arg0)) (V (Proc.devRef .tc main_arg4)) (V (Proc.devRef .tc main_arg5)) := by
  unfold wPre; after_results_simp; rfl

theorem wPre_v11 (V : Valuation τ sig (Elt Ideal)) :
    after (wPre (F := Ideal)) V (no_index (Proc.devRef .tc main_v11))
      = edgeEmbed (V (Proc.devRef .tc main_arg2)) (V (Proc.devRef .tc main_arg6)) (V (Proc.devRef .tc main_arg7)) := by
  unfold wPre; after_results_simp; rfl

/-! ## Layer 0 -/

/-- The edge features of layer 0. -/
theorem wL0A_v19 (V : Valuation τ sig (Elt Ideal)) :
    after (wL0A (F := Ideal)) V (no_index (Proc.devRef .tc main_v19))
      = edgeFeat (V (Proc.devRef .tc main_v11)) (sliceWe 0 (V (Proc.devRef .tc main_arg10)))
          (sliceRow 0 (V (Proc.devRef .tc main_arg11))) := by
  unfold wL0A; after_results_simp; rfl

/-- The index column layer 0's gather reads. -/
theorem wL0A_v25 (V : Valuation τ sig (Elt Ideal)) :
    after (wL0A (F := Ideal)) V (no_index (Proc.devRef .tc main_v25)) = wrapCol (V (Proc.devRef .tc main_v1)) := by
  unfold wL0A; after_results_simp; rfl

/-- The gathered source rows of layer 0. -/
theorem wL0B_v26 (V : Valuation τ sig (Elt Ideal)) :
    after (wL0B (F := Ideal)) V (no_index (Proc.devRef .tc main_v26))
      = gatherRows (V (Proc.devRef .tc main_v7)) (V (Proc.devRef .tc main_v25)) := by
  unfold wL0B; after_results_simp; rfl

/-- The logistic function's denominator, 1 + exp (-z), at layer 0's gate argument. -/
theorem wL0B_v39 (V : Valuation τ sig (Elt Ideal)) :
    after (wL0B (F := Ideal)) V (no_index (Proc.devRef .tc main_v39))
      = addf (broadcastInDim S800000x64 ![] bcast_S_S800000x64 oneS)
          (Host.exp (F := Ideal) (Host.negf (F := Ideal)
            (gatePre (gatherRows (V (Proc.devRef .tc main_v7)) (V (Proc.devRef .tc main_v25))) (V (Proc.devRef .tc main_v19))
              (sliceWg 0 (V (Proc.devRef .tc main_arg12))) (sliceRow 0 (V (Proc.devRef .tc main_arg13)))))) := by
  unfold wL0B; after_results_simp; rfl

/-- The logistic function's numerator. -/
theorem wL0B_cst_1 (V : Valuation τ sig (Elt Ideal)) :
    after (wL0B (F := Ideal)) V (no_index (Proc.devRef .tc main_cst_1)) = oneS := by
  unfold wL0B; after_results_simp; rfl

/-- Layer 0's sum before normalisation, from the gate's two halves, the gathered rows and the destination indices. -/
theorem wL0C_v54 (V : Valuation τ sig (Elt Ideal)) :
    after (wL0C (F := Ideal)) V (no_index (Proc.devRef .tc main_v54))
      = raw (V (Proc.devRef .tc main_v7)) (sliceWn 0 (V (Proc.devRef .tc main_arg8))) (sliceRow 0 (V (Proc.devRef .tc main_arg9)))
          (aggr (mulf (Host.divf (F := Ideal) (broadcastInDim S800000x64 ![] bcast_S_S800000x64 (V (Proc.devRef .tc main_cst_1)))
              (V (Proc.devRef .tc main_v39))) (V (Proc.devRef .tc main_v26)))
            (plainCol (V (Proc.devRef .tc main_v3)))) := by
  unfold wL0C; after_results_simp; rfl

theorem wL0D_v56 (V : Valuation τ sig (Elt Ideal)) :
    after (wL0D (F := Ideal)) V (no_index (Proc.devRef .tc main_v56)) = sliceRow 0 (V (Proc.devRef .tc main_arg14)) := by
  unfold wL0D; after_results_simp; rfl

theorem wL0D_v58 (V : Valuation τ sig (Elt Ideal)) :
    after (wL0D (F := Ideal)) V (no_index (Proc.devRef .tc main_v58)) = sliceRow 0 (V (Proc.devRef .tc main_arg15)) := by
  unfold wL0D; after_results_simp; rfl

theorem wL0D_v61 (V : Valuation τ sig (Elt Ideal)) :
    after (wL0D (F := Ideal)) V (no_index (Proc.devRef .tc main_v61)) = colMean (V (Proc.devRef .tc main_v54)) := by
  unfold wL0D; after_results_simp; rfl

theorem wL0E_v62 (V : Valuation τ sig (Elt Ideal)) :
    after (wL0E (F := Ideal)) V (no_index (Proc.devRef .tc main_v62)) = colVar (V (Proc.devRef .tc main_v54)) := by
  unfold wL0E; after_results_simp; rfl

theorem wL0F_v78 (V : Valuation τ sig (Elt Ideal)) :
    after (wL0F (F := Ideal)) V (no_index (Proc.devRef .tc main_v78))
      = bnRelu (V (Proc.devRef .tc main_v54)) (V (Proc.devRef .tc main_v61)) (V (Proc.devRef .tc main_v62))
          (V (Proc.devRef .tc main_v56)) (V (Proc.devRef .tc main_v58)) := by
  unfold wL0F; after_results_simp; rfl

end Cert.ReferenceIdeal.RefRun

end
-- ==== Proof.RefRunVal1.lean ====
/-
  What the windows of layer 1 leave at the buffers later windows read, from any contents: each as the reference's named
  function of what the window reads.
-/
import proofs.«108144_j81140522156740_2_alg».proof.Proof.RefRunOps
import proofs.«108144_j81140522156740_2_alg».proof.Proof.RefSpec

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable [Facts]

/-! ## Layer 1 -/

/-- The edge features of layer 1. -/
theorem wL1A_v86 (V : Valuation τ sig (Elt Ideal)) :
    after (wL1A (F := Ideal)) V (no_index (Proc.devRef .tc main_v86))
      = edgeFeat (V (Proc.devRef .tc main_v11)) (sliceWe 1 (V (Proc.devRef .tc main_arg10)))
          (sliceRow 1 (V (Proc.devRef .tc main_arg11))) := by
  unfold wL1A; after_results_simp; rfl

/-- The index column layer 1's gather reads. -/
theorem wL1A_v92 (V : Valuation τ sig (Elt Ideal)) :
    after (wL1A (F := Ideal)) V (no_index (Proc.devRef .tc main_v92)) = wrapCol (V (Proc.devRef .tc main_v1)) := by
  unfold wL1A; after_results_simp; rfl

/-- The gathered source rows of layer 1. -/
theorem wL1B_v93 (V : Valuation τ sig (Elt Ideal)) :
    after (wL1B (F := Ideal)) V (no_index (Proc.devRef .tc main_v93))
      = gatherRows (V (Proc.devRef .tc main_v78)) (V (Proc.devRef .tc main_v92)) := by
  unfold wL1B; after_results_simp; rfl

/-- The logistic function's denominator, 1 + exp (-z), at layer 1's gate argument. -/
theorem wL1B_v106 (V : Valuation τ sig (Elt Ideal)) :
    after (wL1B (F := Ideal)) V (no_index (Proc.devRef .tc main_v106))
      = addf (broadcastInDim S800000x64 ![] bcast_S_S800000x64 oneS)
          (Host.exp (F := Ideal) (Host.negf (F := Ideal)
            (gatePre (gatherRows (V (Proc.devRef .tc main_v78)) (V (Proc.devRef .tc main_v92))) (V (Proc.devRef .tc main_v86))
              (sliceWg 1 (V (Proc.devRef .tc main_arg12))) (sliceRow 1 (V (Proc.devRef .tc main_arg13)))))) := by
  unfold wL1B; after_results_simp; rfl

/-- The logistic function's numerator. -/
theorem wL1B_cst_10 (V : Valuation τ sig (Elt Ideal)) :
    after (wL1B (F := Ideal)) V (no_index (Proc.devRef .tc main_cst_10)) = oneS := by
  unfold wL1B; after_results_simp; rfl

/-- Layer 1's sum before normalisation, from the gate's two halves, the gathered rows and the destination indices. -/
theorem wL1C_v121 (V : Valuation τ sig (Elt Ideal)) :
    after (wL1C (F := Ideal)) V (no_index (Proc.devRef .tc main_v121))
      = raw (V (Proc.devRef .tc main_v78)) (sliceWn 1 (V (Proc.devRef .tc main_arg8))) (sliceRow 1 (V (Proc.devRef .tc main_arg9)))
          (aggr (mulf (Host.divf (F := Ideal) (broadcastInDim S800000x64 ![] bcast_S_S800000x64 (V (Proc.devRef .tc main_cst_10)))
              (V (Proc.devRef .tc main_v106))) (V (Proc.devRef .tc main_v93)))
            (plainCol (V (Proc.devRef .tc main_v3)))) := by
  unfold wL1C; after_results_simp; rfl

theorem wL1D_v123 (V : Valuation τ sig (Elt Ideal)) :
    after (wL1D (F := Ideal)) V (no_index (Proc.devRef .tc main_v123)) = sliceRow 1 (V (Proc.devRef .tc main_arg14)) := by
  unfold wL1D; after_results_simp; rfl

theorem wL1D_v125 (V : Valuation τ sig (Elt Ideal)) :
    after (wL1D (F := Ideal)) V (no_index (Proc.devRef .tc main_v125)) = sliceRow 1 (V (Proc.devRef .tc main_arg15)) := by
  unfold wL1D; after_results_simp; rfl

theorem wL1D_v128 (V : Valuation τ sig (Elt Ideal)) :
    after (wL1D (F := Ideal)) V (no_index (Proc.devRef .tc main_v128)) = colMean (V (Proc.devRef .tc main_v121)) := by
  unfold wL1D; after_results_simp; rfl

theorem wL1E_v129 (V : Valuation τ sig (Elt Ideal)) :
    after (wL1E (F := Ideal)) V (no_index (Proc.devRef .tc main_v129)) = colVar (V (Proc.devRef .tc main_v121)) := by
  unfold wL1E; after_results_simp; rfl

theorem wL1F_v145 (V : Valuation τ sig (Elt Ideal)) :
    after (wL1F (F := Ideal)) V (no_index (Proc.devRef .tc main_v145))
      = bnRelu (V (Proc.devRef .tc main_v121)) (V (Proc.devRef .tc main_v128)) (V (Proc.devRef .tc main_v129))
          (V (Proc.devRef .tc main_v123)) (V (Proc.devRef .tc main_v125)) := by
  unfold wL1F; after_results_simp; rfl

end Cert.ReferenceIdeal.RefRun

end
-- ==== Proof.RefRunVal2.lean ====
/-
  What the windows of layer 2 leave at the buffers later windows read, from any contents: each as the reference's named
  function of what the window reads.
-/
import proofs.«108144_j81140522156740_2_alg».proof.Proof.RefRunOps
import proofs.«108144_j81140522156740_2_alg».proof.Proof.RefSpec

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable [Facts]

/-! ## Layer 2 -/

/-- The edge features of layer 2. -/
theorem wL2A_v153 (V : Valuation τ sig (Elt Ideal)) :
    after (wL2A (F := Ideal)) V (no_index (Proc.devRef .tc main_v153))
      = edgeFeat (V (Proc.devRef .tc main_v11)) (sliceWe 2 (V (Proc.devRef .tc main_arg10)))
          (sliceRow 2 (V (Proc.devRef .tc main_arg11))) := by
  unfold wL2A; after_results_simp; rfl

/-- The index column layer 2's gather reads. -/
theorem wL2A_v159 (V : Valuation τ sig (Elt Ideal)) :
    after (wL2A (F := Ideal)) V (no_index (Proc.devRef .tc main_v159)) = wrapCol (V (Proc.devRef .tc main_v1)) := by
  unfold wL2A; after_results_simp; rfl

/-- The gathered source rows of layer 2. -/
theorem wL2B_v160 (V : Valuation τ sig (Elt Ideal)) :
    after (wL2B (F := Ideal)) V (no_index (Proc.devRef .tc main_v160))
      = gatherRows (V (Proc.devRef .tc main_v145)) (V (Proc.devRef .tc main_v159)) := by
  unfold wL2B; after_results_simp; rfl

/-- The logistic function's denominator, 1 + exp (-z), at layer 2's gate argument. -/
theorem wL2B_v173 (V : Valuation τ sig (Elt Ideal)) :
    after (wL2B (F := Ideal)) V (no_index (Proc.devRef .tc main_v173))
      = addf (broadcastInDim S800000x64 ![] bcast_S_S800000x64 oneS)
          (Host.exp (F := Ideal) (Host.negf (F := Ideal)
            (gatePre (gatherRows (V (Proc.devRef .tc main_v145)) (V (Proc.devRef .tc main_v159))) (V (Proc.devRef .tc main_v153))
              (sliceWg 2 (V (Proc.devRef .tc main_arg12))) (sliceRow 2 (V (Proc.devRef .tc main_arg13)))))) := by
  unfold wL2B; after_results_simp; rfl

/-- The logistic function's numerator. -/
theorem wL2B_cst_19 (V : Valuation τ sig (Elt Ideal)) :
    after (wL2B (F := Ideal)) V (no_index (Proc.devRef .tc main_cst_19)) = oneS := by
  unfold wL2B; after_results_simp; rfl

/-- Layer 2's sum before normalisation, from the gate's two halves, the gathered rows and the destination indices. -/
theorem wL2C_v188 (V : Valuation τ sig (Elt Ideal)) :
    after (wL2C (F := Ideal)) V (no_index (Proc.devRef .tc main_v188))
      = raw (V (Proc.devRef .tc main_v145)) (sliceWn 2 (V (Proc.devRef .tc main_arg8))) (sliceRow 2 (V (Proc.devRef .tc main_arg9)))
          (aggr (mulf (Host.divf (F := Ideal) (broadcastInDim S800000x64 ![] bcast_S_S800000x64 (V (Proc.devRef .tc main_cst_19)))
              (V (Proc.devRef .tc main_v173))) (V (Proc.devRef .tc main_v160)))
            (plainCol (V (Proc.devRef .tc main_v3)))) := by
  unfold wL2C; after_results_simp; rfl

theorem wL2D_v190 (V : Valuation τ sig (Elt Ideal)) :
    after (wL2D (F := Ideal)) V (no_index (Proc.devRef .tc main_v190)) = sliceRow 2 (V (Proc.devRef .tc main_arg14)) := by
  unfold wL2D; after_results_simp; rfl

theorem wL2D_v192 (V : Valuation τ sig (Elt Ideal)) :
    after (wL2D (F := Ideal)) V (no_index (Proc.devRef .tc main_v192)) = sliceRow 2 (V (Proc.devRef .tc main_arg15)) := by
  unfold wL2D; after_results_simp; rfl

theorem wL2D_v195 (V : Valuation τ sig (Elt Ideal)) :
    after (wL2D (F := Ideal)) V (no_index (Proc.devRef .tc main_v195)) = colMean (V (Proc.devRef .tc main_v188)) := by
  unfold wL2D; after_results_simp; rfl

theorem wL2E_v196 (V : Valuation τ sig (Elt Ideal)) :
    after (wL2E (F := Ideal)) V (no_index (Proc.devRef .tc main_v196)) = colVar (V (Proc.devRef .tc main_v188)) := by
  unfold wL2E; after_results_simp; rfl

theorem wL2F_v212 (V : Valuation τ sig (Elt Ideal)) :
    after (wL2F (F := Ideal)) V (no_index (Proc.devRef .tc main_v212))
      = bnRelu (V (Proc.devRef .tc main_v188)) (V (Proc.devRef .tc main_v195)) (V (Proc.devRef .tc main_v196))
          (V (Proc.devRef .tc main_v190)) (V (Proc.devRef .tc main_v192)) := by
  unfold wL2F; after_results_simp; rfl

end Cert.ReferenceIdeal.RefRun

end
-- ==== Proof.RefRunValP.lean ====
/-
  What the windows after the three layers (the mean pool over graphs, the final projection, its column statistics and its
  normalisation) leave at the buffers later windows read, from any contents.
-/
import proofs.«108144_j81140522156740_2_alg».proof.Proof.RefRunOps
import proofs.«108144_j81140522156740_2_alg».proof.Proof.RefSpec

noncomputable section

namespace Cert.ReferenceIdeal.RefRun

open Cert.ReferenceIdeal Idealize.ShloMosaic Idealize.ShloMosaic.StableHlo Idealize.SL.Sem
open Cert.ReferenceIdeal.Facts₀ Cert.ReferenceIdeal.Facts

variable [Facts]

/-! ## The pool over graphs and the final projection -/

/-- The mean of every graph's node rows. -/
theorem wPA_v224 (V : Valuation τ sig (Elt Ideal)) :
    after (wPA (F := Ideal)) V (no_index (Proc.devRef .tc main_v224))
      = pool (V (Proc.devRef .tc main_v212)) (V (Proc.devRef .tc main_arg3)) := by
  unfold wPA; after_results_simp; rfl

/-- The projection before normalisation. -/
theorem wPB_v228 (V : Valuation τ sig (Elt Ideal)) :
    after (wPB (F := Ideal)) V (no_index (Proc.devRef .tc main_v228))
      = finalRaw (V (Proc.devRef .tc main_v224)) (V (Proc.devRef .tc main_arg16)) (V (Proc.devRef .tc main_arg17)) := by
  unfold wPB; after_results_simp; rfl

/-- Its column means. -/
theorem wPB_v231 (V : Valuation τ sig (Elt Ideal)) :
    after (wPB (F := Ideal)) V (no_index (Proc.devRef .tc main_v231))
      = colMeanG (finalRaw (V (Proc.devRef .tc main_v224)) (V (Proc.devRef .tc main_arg16)) (V (Proc.devRef .tc main_arg17))) := by
  unfold wPB; after_results_simp; rfl

/-- Its column variances. -/
theorem wPC_v232 (V : Valuation τ sig (Elt Ideal)) :
    after (wPC (F := Ideal)) V (no_index (Proc.devRef .tc main_v232)) = colVarG (V (Proc.devRef .tc main_v228)) := by
  unfold wPC; after_results_simp; rfl

/-- The result. -/
theorem wPD_v248 (V : Valuation τ sig (Elt Ideal)) :
    after (wPD (F := Ideal)) V (no_index (Proc.devRef .tc main_v248))
      = bnReluG (V (Proc.devRef .tc main_v228)) (V (Proc.devRef .tc main_v231)) (V (Proc.devRef .tc main_v232))
          (V (Proc.devRef .tc main_arg18)) (V (Proc.devRef .tc main_arg19)) := by
  unfold wPD; after_results_simp; rfl

end Cert.ReferenceIdeal.RefRun

end
-- ==== Proof.RefRunOut.lean ====
/-
  The reference's result as the named function of its arguments: the fold of the whole operation list at the result
  buffer is `out` of the twenty argument arrays (window by window, over the windows' value lemmas), and with it the run's
  post-condition reads "the result buffer holds `out` of the arguments, the arguments are unchanged".
-/
import proofs.«108144_j81140522156740_2_alg».proof.Proof.RefRun
import proofs.«108144_j81140522156740_2_alg».proof.Proof.RefRunVal0
import proofs.«108144_j81140522156740_2_alg».proof.Proof.RefRunVal1
import proofs.«108144_j81140522156740_2_alg».proof.Proof.RefRunVal2
import proofs.«108144_j81140522156740_2_alg».proof.Proof.RefRunValP

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Facts]

/-- The result buffer after the whole list, from any contents, is the reference's named function of the twenty argument
    arrays: the list's fold is the windows' folds one inside the next; each window's value at a buffer a later window reads
    is its named function of what it reads, and a buffer the window does not write is what it was; what is left is the
    composition of the named functions, which is how `out` is defined. -/
theorem after_ops_eq (V : Valuation τ sig (Elt Ideal)) :
    after (ops (F := Ideal)) V (Proc.devRef .tc main_v248)
      = out (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) (V (Proc.devRef .tc main_arg14))
          (V (Proc.devRef .tc main_arg15)) (V (Proc.devRef .tc main_arg16)) (V (Proc.devRef .tc main_arg17)) (V (Proc.devRef .tc main_arg18)) (V (Proc.devRef .tc main_arg19)) := by
  rw [after_ops]
  simp (disch := decide) only [wPD_v248, wPC_v232, wPB_v228, wPB_v231, wPA_v224,
    wL2F_v212, wL2E_v196, wL2D_v190, wL2D_v192, wL2D_v195, wL2C_v188, wL2B_v160, wL2B_v173, wL2B_cst_19, wL2A_v153, wL2A_v159,
    wL1F_v145, wL1E_v129, wL1D_v123, wL1D_v125, wL1D_v128, wL1C_v121, wL1B_v93, wL1B_v106, wL1B_cst_10, wL1A_v86, wL1A_v92,
    wL0F_v78, wL0E_v62, wL0D_v56, wL0D_v58, wL0D_v61, wL0C_v54, wL0B_v26, wL0B_v39, wL0B_cst_1, wL0A_v19, wL0A_v25,
    wPre_v1, wPre_v3, wPre_v7, wPre_v11, keep]
  rfl

/-- The same at the launch contents of a device. -/
theorem result_eq (m : (ℓ : Loc nD τ sig) → Buf (Elt Ideal) ℓ) (c : Dev nD) :
    after (ops (F := Ideal)) (launchContents m c) (Proc.devRef .tc main_v248)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  after_ops_eq (launchContents m c)

/-- The reference's run at the ideal instance: every weakly fair execution of @main terminates with the result buffer at
    `out` of the launch's argument arrays and the argument arrays unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v248)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
            (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (result_eq m c), (h c).2⟩) (run m ρ)

end Cert.ReferenceIdeal.RefRun

end
-- ==== Proof.lean ====
/-
  A three-layer gated graph network with batch statistics: node and edge embeddings; per layer a gather of source
  features, a logistic gate of the concatenated source and edge features, a segment sum over destinations, an affine
  map and a batch normalisation with rectifier; then a mean pool over graphs and a normalised projection. The kernel
  program computes it tile by tile (per-tile sums and sums of squares for the batch statistics), the reference with
  whole-array host operations; read at the extended reals, from launches that agree on the twenty argument arrays and
  whose float entries are all real numbers, the two results are equal entry by entry, every execution of either program
  terminates without a fault, and the argument arrays end as launched.
-/
import proofs.«108144_j81140522156740_2_alg».proof.Defs
import proofs.«108144_j81140522156740_2_alg».proof.Proof.Gen.Kernel
import proofs.«108144_j81140522156740_2_alg».proof.Proof.Gen.Kernel.Skeleton
import proofs.«108144_j81140522156740_2_alg».proof.Proof.Gen.Kernel.Launch
import proofs.«108144_j81140522156740_2_alg».proof.Proof.Gen.Kernel.Points
import proofs.«108144_j81140522156740_2_alg».proof.Proof.Gen.Kernel.Frame
import proofs.«108144_j81140522156740_2_alg».proof.Proof.Gen.KernelIdeal
import proofs.«108144_j81140522156740_2_alg».proof.Proof.Gen.KernelIdeal.Skeleton
import proofs.«108144_j81140522156740_2_alg».proof.Proof.Gen.KernelIdeal.Launch
import proofs.«108144_j81140522156740_2_alg».proof.Proof.Gen.KernelIdeal.Points
import proofs.«108144_j81140522156740_2_alg».proof.Proof.Gen.KernelIdeal.Frame
import proofs.«108144_j81140522156740_2_alg».proof.Proof.Gen.ReferenceIdeal
import proofs.«108144_j81140522156740_2_alg».proof.Proof.Gen.Pre_finite_inputs
import proofs.«108144_j81140522156740_2_alg».proof.Proof.Assemble
import proofs.«108144_j81140522156740_2_alg».proof.Proof.GlueOut
import proofs.«108144_j81140522156740_2_alg».proof.Proof.RefRunOut
import Idealize.ShloMosaic.Adequacy
import Idealize.ShloMosaic.Init

noncomputable section

namespace Cert.Proof

open Idealize.ShloMosaic Idealize.SL.Sem Cert.Kernel

/-- The certificate's claims: the kernel side's result and the reference side's result are both the reference's
    whole-array function of the argument arrays. -/
theorem claim : Cert.Claim :=
  Cert.Proof.Assemble.claim_of Cert.KernelIdeal.Glue.kernel_out_eq Cert.ReferenceIdeal.RefRun.run_out

end Cert.Proof

end
